-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x20 : Shape := ⟨2, ![1024, 20]⟩
abbrev S1024x200 : Shape := ⟨2, ![1024, 200]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1024x20 : S_.BroadcastsInDim S1024x20 (![] : Fin 0 → Fin S1024x20.rank)
  reducesTo_S1024x20_S_d0_1 : S1024x20.ReducesTo [0, 1] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_v10 : IVec S_ 1) (main_v15 : IVec S1024x200 1) (main_c_5 : IVec S_ 1) : IVec S_ 1 :=
  let main_v16 : IVec S_ 1 := (fun x v => Host.reduce IntOp.andi x v reducesTo_S1024x200_S_d0_1 h_S_) main_v15 main_c_5
  let main_v17 : IVec S_ 1 := andi main_v10 main_v16
  main_v17

def fn {F : FTy → Type} [FloatOps F] (main_arg0 : IVec S1024x20 32) (main_arg1 : IVec S1024x200 32) (main_arg2 : FVec F S1000000x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S1024x20 32 := broadcastInDim S1024x20 ![] bcast_S_S1024x20 main_c_0
  let main_v5 : IVec S1024x20 1 := cmpi .sge main_arg0 main_v4
  let main_c_1 : IVec S_ 32 := constantI S_ 32 999999#32
  let main_v6 : IVec S1024x20 32 := broadcastInDim S1024x20 ![] bcast_S_S1024x20 main_c_1
  let main_v7 : IVec S1024x20 1 := cmpi .sle main_arg0 main_v6
  let main_v8 : IVec S1024x20 1 := andi main_v5 main_v7
  let main_c_2 : IVec S_ 1 := constantI S_ 1 1#1
  let main_v9 : IVec S_ 1 := (fun x v => Host.reduce IntOp.andi x v reducesTo_S1024x20_S_d0_1 h_S_) main_v8 main_c_2
  let main_v10 : IVec S_ 1 := andi main_v3 main_v9
  let main_c_3 : IVec S_ 32 := constantI S_ 32 0#32
  let main_v11 : IVec S1024x200 32 := broadcastInDim S1024x200 ![] bcast_S_S1024x200 main_c_3
  let main_v12 : IVec S1024x200 1 := cmpi .sge main_arg1 main_v11
  let main_c_4 : IVec S_ 32 := constantI S_ 32 999999#32
  let main_v13 : IVec S1024x200 32 := broadcastInDim S1024x200 ![] bcast_S_S1024x200 main_c_4
  let main_v14 : IVec S1024x200 1 := cmpi .sle main_arg1 main_v13
  let main_v15 : IVec S1024x200 1 := andi main_v12 main_v14
  let main_c_5 : IVec S_ 1 := constantI S_ 1 1#1
  fn_part1 (F := F) main_v10 main_v15 main_c_5
-- ==== Kernel.lean ====
abbrev S1024x20 : Shape := ⟨2, ![1024, 20]⟩
abbrev S1024x200 : Shape := ⟨2, ![1024, 200]⟩
abbrev S1000000x64 : Shape := ⟨2, ![1000000, 64]⟩
abbrev S64x1000000 : Shape := ⟨2, ![64, 1000000]⟩
abbrev S1000000x128 : Shape := ⟨2, ![1000000, 128]⟩
abbrev S64x32768 : Shape := ⟨2, ![64, 32768]⟩
abbrev S32768x128 : Shape := ⟨2, ![32768, 128]⟩
abbrev S64x512 : Shape := ⟨2, ![64, 512]⟩
abbrev S512x64 : Shape := ⟨2, ![512, 64]⟩
abbrev S20480 : Shape := ⟨1, ![20480]⟩
abbrev S32x10x64 : Shape := ⟨3, ![32, 10, 64]⟩
abbrev S20480x128 : Shape := ⟨2, ![20480, 128]⟩
abbrev S10x64 : Shape := ⟨2, ![10, 64]⟩
abbrev S64x128 : Shape := ⟨2, ![64, 128]⟩
abbrev S_ : Shape := ⟨0, ![]⟩
abbrev S1x10x64 : Shape := ⟨3, ![1, 10, 64]⟩
abbrev S1x64 : Shape := ⟨2, ![1, 64]⟩
abbrev S64 : Shape := ⟨1, ![64]⟩
abbrev S204800 : Shape := ⟨1, ![204800]⟩
abbrev S32x50x128 : Shape := ⟨3, ![32, 50, 128]⟩
abbrev S204800x128 : Shape := ⟨2, ![204800, 128]⟩
abbrev S50x128 : Shape := ⟨2, ![50, 128]⟩
abbrev S128x128 : Shape := ⟨2, ![128, 128]⟩
abbrev S1x50x128 : Shape := ⟨3, ![1, 50, 128]⟩
abbrev S1x128 : Shape := ⟨2, ![1, 128]⟩
abbrev S128 : Shape := ⟨1, ![128]⟩
abbrev S1024x20x128 : Shape := ⟨3, ![1024, 20, 128]⟩
abbrev S64x200x1024 : Shape := ⟨3, ![64, 200, 1024]⟩
abbrev S256x20x128 : Shape := ⟨3, ![256, 20, 128]⟩
abbrev S64x200x256 : Shape := ⟨3, ![64, 200, 256]⟩
abbrev S128x20x256 : Shape := ⟨3, ![128, 20, 256]⟩
abbrev S64x20x256 : Shape := ⟨3, ![64, 20, 256]⟩
abbrev S64x180x256 : Shape := ⟨3, ![64, 180, 256]⟩
abbrev S1024x200x128 : Shape := ⟨3, ![1024, 200, 128]⟩
abbrev S256x40x128 : Shape := ⟨3, ![256, 40, 128]⟩
abbrev S64x40x256 : Shape := ⟨3, ![64, 40, 256]⟩
abbrev S128x40x256 : Shape := ⟨3, ![128, 40, 256]⟩
abbrev S1024x64x200 : Shape := ⟨3, ![1024, 64, 200]⟩

abbrev nBuf : Table → Nat
  | .hbm => 17
  | .local .tc .vmem => 12
  | .local .scVector .vmem => 6
  | _ => 0

abbrev bufTy : (tb : Table) → Fin (nBuf tb) → BufTy
  | .hbm, ⟨0, _⟩ => ⟨S1024x20, .i32⟩
  | .hbm, ⟨1, _⟩ => ⟨S1024x200, .i32⟩
  | .hbm, ⟨2, _⟩ => ⟨S1000000x64, .f32⟩
  | .hbm, ⟨3, _⟩ => ⟨S64x1000000, .f32⟩
  | .hbm, ⟨4, _⟩ => ⟨S1000000x128, .f32⟩
  | .hbm, ⟨5, _⟩ => ⟨S20480, .i32⟩
  | .hbm, ⟨6, _⟩ => ⟨S32x10x64, .i32⟩
  | .hbm, ⟨7, _⟩ => ⟨S20480x128, .f32⟩
  | .hbm, ⟨8, _⟩ => ⟨S204800, .i32⟩
  | .hbm, ⟨9, _⟩ => ⟨S32x50x128, .i32⟩
  | .hbm, ⟨10, _⟩ => ⟨S204800x128, .f32⟩
  | .hbm, ⟨11, _⟩ => ⟨S1024x20x128, .f32⟩
  | .hbm, ⟨12, _⟩ => ⟨S64x200x1024, .f32⟩
  | .hbm, ⟨13, _⟩ => ⟨S1024x200x128, .f32⟩
  | .hbm, ⟨14, _⟩ => ⟨S64x200x1024, .f32⟩
  | .hbm, ⟨15, _⟩ => ⟨S1024x64x200, .f32⟩
  | .hbm, ⟨16, _⟩ => ⟨S1024x64x200, .f32⟩
  | .local .tc .vmem, ⟨0, _⟩ => ⟨S64x32768, .f32⟩
  | .local .tc .vmem, ⟨1, _⟩ => ⟨S64x32768, .f32⟩
  | .local .tc .vmem, ⟨2, _⟩ => ⟨S32768x128, .f32⟩
  | .local .tc .vmem, ⟨3, _⟩ => ⟨S32768x128, .f32⟩
  | .local .tc .vmem, ⟨4, _⟩ => ⟨S256x20x128, .f32⟩
  | .local .tc .vmem, ⟨5, _⟩ => ⟨S256x20x128, .f32⟩
  | .local .tc .vmem, ⟨6, _⟩ => ⟨S64x200x256, .f32⟩
  | .local .tc .vmem, ⟨7, _⟩ => ⟨S64x200x256, .f32⟩
  | .local .tc .vmem, ⟨8, _⟩ => ⟨S256x40x128, .f32⟩
  | .local .tc .vmem, ⟨9, _⟩ => ⟨S256x40x128, .f32⟩
  | .local .tc .vmem, ⟨10, _⟩ => ⟨S64x40x256, .f32⟩
  | .local .tc .vmem, ⟨11, _⟩ => ⟨S64x40x256, .f32⟩
  | .local .scVector .vmem, ⟨0, _⟩ => ⟨S10x64, .i32⟩
  | .local .scVector .vmem, ⟨1, _⟩ => ⟨S64x128, .f32⟩
  | .local .scVector .vmem, ⟨2, _⟩ => ⟨S64x128, .f32⟩
  | .local .scVector .vmem, ⟨3, _⟩ => ⟨S50x128, .i32⟩
  | .local .scVector .vmem, ⟨4, _⟩ => ⟨S128x128, .f32⟩
  | .local .scVector .vmem, ⟨5, _⟩ => ⟨S128x128, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v1_scv : Ref sig .scVector := ⟨.hbm, 4, rfl⟩
abbrev main_v3_scv : Ref sig .scVector := ⟨.hbm, 6, rfl⟩
abbrev main_v4_scv : Ref sig .scVector := ⟨.hbm, 7, rfl⟩
abbrev main_v6_scv : Ref sig .scVector := ⟨.hbm, 9, rfl⟩
abbrev main_v7_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc3_stg0_0 : Ref sig .tc := ⟨.vmem, 4, rfl⟩
abbrev cc3_stg0_1 : Ref sig .tc := ⟨.vmem, 5, rfl⟩
abbrev cc3_stg1_0 : Ref sig .tc := ⟨.vmem, 6, rfl⟩
abbrev cc3_stg1_1 : Ref sig .tc := ⟨.vmem, 7, rfl⟩
abbrev cc4_stg0_0 : Ref sig .tc := ⟨.vmem, 8, rfl⟩
abbrev cc4_stg0_1 : Ref sig .tc := ⟨.vmem, 9, rfl⟩
abbrev cc4_stg1_0 : Ref sig .tc := ⟨.vmem, 10, rfl⟩
abbrev cc4_stg1_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem1_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k1_t1_loop : Scf.Loop 32 :=
  let c0_i32_3 : BitVec 32 := 0#32
  let c5_i32 : BitVec 32 := 5#32
  let v6 : BitVec 32 := Scalar.addi c0_i32_3 c5_i32
  let c1_i32 : BitVec 32 := 1#32
  ⟨c0_i32_3, v6, c1_i32⟩
def k1_off2 (k1_t1 : Fin k1_t1_loop.trips) : Fin 2 → Nat :=
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_13 : BitVec 32 := 1#32
  let v20 : BitVec 32 := Scalar.addi v19 c1_i32_13
  let c0_i32_14 : BitVec 32 := 0#32
  ![v20.toNat, 0]
def k1_off3 (k1_t1 : Fin k1_t1_loop.trips) : Fin 2 → Nat :=
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c0_i32_17 : BitVec 32 := 0#32
  ![v19.toNat, 0]
def k1_mult1 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v27 : BitVec 32 := Scalar.addi v2 v19
  let c64_i32_20 : BitVec 32 := 64#32
  let v28 : BitVec 32 := Scalar.muli v27 c64_i32_20
  v28
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v27 : BitVec 32 := Scalar.addi v2 v19
  let c64_i32_20 : BitVec 32 := 64#32
  let v28 : BitVec 32 := Scalar.muli v27 c64_i32_20
  let v29 : BitVec 32 := v28
  let c0_i32_21 : BitVec 32 := 0#32
  ![v29.toNat, 0]
def k1_mult2 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_27 : BitVec 32 := 1#32
  let v36 : BitVec 32 := Scalar.addi v19 c1_i32_27
  let v37 : BitVec 32 := Scalar.addi v2 v36
  let c64_i32_28 : BitVec 32 := 64#32
  let v38 : BitVec 32 := Scalar.muli v37 c64_i32_28
  v38
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_27 : BitVec 32 := 1#32
  let v36 : BitVec 32 := Scalar.addi v19 c1_i32_27
  let v37 : BitVec 32 := Scalar.addi v2 v36
  let c64_i32_28 : BitVec 32 := 64#32
  let v38 : BitVec 32 := Scalar.muli v37 c64_i32_28
  let v39 : BitVec 32 := v38
  let c0_i32_29 : BitVec 32 := 0#32
  ![v39.toNat, 0]
def k1_cond1 (k1_t1 : Fin k1_t1_loop.trips) : BitVec 1 :=
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let c4_i32 : BitVec 32 := 4#32
  let v42 : BitVec 1 := Scalar.cmpi .slt v18 c4_i32
  let v43 : BitVec 32 := Scalar.extui v42
  let c0_i32_31 : BitVec 32 := 0#32
  let v44 : BitVec 1 := Scalar.cmpi .ne v43 c0_i32_31
  v44

def k1_mult3 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v45 : BitVec 32 := Scalar.addi v2 v19
  let c64_i32_32 : BitVec 32 := 64#32
  let v46 : BitVec 32 := Scalar.muli v45 c64_i32_32
  v46
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v45 : BitVec 32 := Scalar.addi v2 v19
  let c64_i32_32 : BitVec 32 := 64#32
  let v46 : BitVec 32 := Scalar.muli v45 c64_i32_32
  let v47 : BitVec 32 := v46
  let c0_i32_33 : BitVec 32 := 0#32
  ![v47.toNat, 0]
def k1_off7 (k1_t1 : Fin k1_t1_loop.trips) : Fin 2 → Nat :=
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c2_i32_35 : BitVec 32 := 2#32
  let v50 : BitVec 32 := Scalar.addi v19 c2_i32_35
  let c0_i32_36 : BitVec 32 := 0#32
  ![v50.toNat, 0]
def k1_mult4 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_39 : BitVec 32 := 1#32
  let v54 : BitVec 32 := Scalar.addi v19 c1_i32_39
  let v55 : BitVec 32 := Scalar.addi v2 v54
  let c64_i32_40 : BitVec 32 := 64#32
  let v56 : BitVec 32 := Scalar.muli v55 c64_i32_40
  v56
def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k1_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_39 : BitVec 32 := 1#32
  let v54 : BitVec 32 := Scalar.addi v19 c1_i32_39
  let v55 : BitVec 32 := Scalar.addi v2 v54
  let c64_i32_40 : BitVec 32 := 64#32
  let v56 : BitVec 32 := Scalar.muli v55 c64_i32_40
  let v57 : BitVec 32 := v56
  let c0_i32_41 : BitVec 32 := 0#32
  ![v57.toNat, 0]
def k1_mult5 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c8_i32 : BitVec 32 := 8#32
  let v7 : BitVec 32 := Scalar.addi v2 c8_i32
  let c64_i32 : BitVec 32 := 64#32
  let v8 : BitVec 32 := Scalar.muli v7 c64_i32
  v8
def k1_off9 (i : grid1.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let v7 : BitVec 32 := Scalar.addi v2 c8_i32
  let c64_i32 : BitVec 32 := 64#32
  let v8 : BitVec 32 := Scalar.muli v7 c64_i32
  let v9 : BitVec 32 := v8
  let c0_i32_5 : BitVec 32 := 0#32
  ![v9.toNat, 0]
def k1_mult6 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c9_i32 : BitVec 32 := 9#32
  let v12 : BitVec 32 := Scalar.addi v2 c9_i32
  let c64_i32_7 : BitVec 32 := 64#32
  let v13 : BitVec 32 := Scalar.muli v12 c64_i32_7
  v13
abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k2_t1_loop : Scf.Loop 32 :=
  let c0_i32_3 : BitVec 32 := 0#32
  let c25_i32 : BitVec 32 := 25#32
  let v6 : BitVec 32 := Scalar.addi c0_i32_3 c25_i32
  let c1_i32 : BitVec 32 := 1#32
  ⟨c0_i32_3, v6, c1_i32⟩
def k2_off2 (k2_t1 : Fin k2_t1_loop.trips) : Fin 2 → Nat :=
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_13 : BitVec 32 := 1#32
  let v20 : BitVec 32 := Scalar.addi v19 c1_i32_13
  let c0_i32_14 : BitVec 32 := 0#32
  ![v20.toNat, 0]
def k2_off3 (k2_t1 : Fin k2_t1_loop.trips) : Fin 2 → Nat :=
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c0_i32_17 : BitVec 32 := 0#32
  ![v19.toNat, 0]
def k2_mult1 (i : grid2.Coords) (k2_t1 : Fin k2_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v27 : BitVec 32 := Scalar.addi v2 v19
  let c128_i32_20 : BitVec 32 := 128#32
  let v28 : BitVec 32 := Scalar.muli v27 c128_i32_20
  v28
def k2_off4 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v27 : BitVec 32 := Scalar.addi v2 v19
  let c128_i32_20 : BitVec 32 := 128#32
  let v28 : BitVec 32 := Scalar.muli v27 c128_i32_20
  let v29 : BitVec 32 := v28
  let c0_i32_21 : BitVec 32 := 0#32
  ![v29.toNat, 0]
def k2_mult2 (i : grid2.Coords) (k2_t1 : Fin k2_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_27 : BitVec 32 := 1#32
  let v36 : BitVec 32 := Scalar.addi v19 c1_i32_27
  let v37 : BitVec 32 := Scalar.addi v2 v36
  let c128_i32_28 : BitVec 32 := 128#32
  let v38 : BitVec 32 := Scalar.muli v37 c128_i32_28
  v38
def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_27 : BitVec 32 := 1#32
  let v36 : BitVec 32 := Scalar.addi v19 c1_i32_27
  let v37 : BitVec 32 := Scalar.addi v2 v36
  let c128_i32_28 : BitVec 32 := 128#32
  let v38 : BitVec 32 := Scalar.muli v37 c128_i32_28
  let v39 : BitVec 32 := v38
  let c0_i32_29 : BitVec 32 := 0#32
  ![v39.toNat, 0]
def k2_cond1 (k2_t1 : Fin k2_t1_loop.trips) : BitVec 1 :=
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let c24_i32 : BitVec 32 := 24#32
  let v42 : BitVec 1 := Scalar.cmpi .slt v18 c24_i32
  let v43 : BitVec 32 := Scalar.extui v42
  let c0_i32_31 : BitVec 32 := 0#32
  let v44 : BitVec 1 := Scalar.cmpi .ne v43 c0_i32_31
  v44

def k2_mult3 (i : grid2.Coords) (k2_t1 : Fin k2_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v45 : BitVec 32 := Scalar.addi v2 v19
  let c128_i32_32 : BitVec 32 := 128#32
  let v46 : BitVec 32 := Scalar.muli v45 c128_i32_32
  v46
def k2_off6 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let v45 : BitVec 32 := Scalar.addi v2 v19
  let c128_i32_32 : BitVec 32 := 128#32
  let v46 : BitVec 32 := Scalar.muli v45 c128_i32_32
  let v47 : BitVec 32 := v46
  let c0_i32_33 : BitVec 32 := 0#32
  ![v47.toNat, 0]
def k2_off7 (k2_t1 : Fin k2_t1_loop.trips) : Fin 2 → Nat :=
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c2_i32_35 : BitVec 32 := 2#32
  let v50 : BitVec 32 := Scalar.addi v19 c2_i32_35
  let c0_i32_36 : BitVec 32 := 0#32
  ![v50.toNat, 0]
def k2_mult4 (i : grid2.Coords) (k2_t1 : Fin k2_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_39 : BitVec 32 := 1#32
  let v54 : BitVec 32 := Scalar.addi v19 c1_i32_39
  let v55 : BitVec 32 := Scalar.addi v2 v54
  let c128_i32_40 : BitVec 32 := 128#32
  let v56 : BitVec 32 := Scalar.muli v55 c128_i32_40
  v56
def k2_off8 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c2_i32_12 : BitVec 32 := 2#32
  let c0_i32_11 : BitVec 32 := 0#32
  let c0_i32_3 : BitVec 32 := 0#32
  let c1_i32 : BitVec 32 := 1#32
  let arg12 : BitVec 32 := Scf.iv c0_i32_3 c1_i32 k2_t1
  let c1_i32_10 : BitVec 32 := 1#32
  let v17 : BitVec 32 := Scalar.muli arg12 c1_i32_10
  let v18 : BitVec 32 := Scalar.addi c0_i32_11 v17
  let v19 : BitVec 32 := Scalar.muli c2_i32_12 v18
  let c1_i32_39 : BitVec 32 := 1#32
  let v54 : BitVec 32 := Scalar.addi v19 c1_i32_39
  let v55 : BitVec 32 := Scalar.addi v2 v54
  let c128_i32_40 : BitVec 32 := 128#32
  let v56 : BitVec 32 := Scalar.muli v55 c128_i32_40
  let v57 : BitVec 32 := v56
  let c0_i32_41 : BitVec 32 := 0#32
  ![v57.toNat, 0]
def k2_mult5 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c48_i32 : BitVec 32 := 48#32
  let v7 : BitVec 32 := Scalar.addi v2 c48_i32
  let c128_i32 : BitVec 32 := 128#32
  let v8 : BitVec 32 := Scalar.muli v7 c128_i32
  v8
def k2_off9 (i : grid2.Coords) (c48_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let v7 : BitVec 32 := Scalar.addi v2 c48_i32
  let c128_i32 : BitVec 32 := 128#32
  let v8 : BitVec 32 := Scalar.muli v7 c128_i32
  let v9 : BitVec 32 := v8
  let c0_i32_5 : BitVec 32 := 0#32
  ![v9.toNat, 0]
def k2_mult6 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c49_i32 : BitVec 32 := 49#32
  let v12 : BitVec 32 := Scalar.addi v2 c49_i32
  let c128_i32_7 : BitVec 32 := 128#32
  let v13 : BitVec 32 := Scalar.muli v12 c128_i32_7
  v13
abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage3_0 : Fin 2 → Memref sig .tc .vmem S256x20x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x200x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![4, 5], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage4_0 : Fin 2 → Memref sig .tc .vmem S256x40x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S64x40x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S1000000x64_S64x1000000_1_0 : S1000000x64.Transposes [1, 0] S64x1000000
  inb_S64x32768_S64x512_0_0 : ∀ a, (![0, 0] : Fin 2 → Nat) a + S64x512.size a ≤ S64x32768.size a
  h_S64x512 : 0 < S64x512.numel
  shapeCasts_S64x512_S64x512 : S64x512.ShapeCasts S64x512
  transposes_S64x512_p1_0_S512x64 : S64x512.Transposes [1, 0] S512x64
  inb_S32768x128_S512x64_0_0 : ∀ a, (![0, 0] : Fin 2 → Nat) a + S512x64.size a ≤ S32768x128.size a
  h_S512x64 : 0 < S512x64.numel
  inb_S64x32768_S64x512_0_512 : ∀ a, (![0, 512] : Fin 2 → Nat) a + S64x512.size a ≤ S64x32768.size a
  inb_S32768x128_S512x64_512_0 : ∀ a, (![512, 0] : Fin 2 → Nat) a + S512x64.size a ≤ S32768x128.size a
  inb_S64x32768_S64x512_0_1024 : ∀ a, (![0, 1024] : Fin 2 → Nat) a + S64x512.size a ≤ S64x32768.size a
  inb_S32768x128_S512x64_1024_0 : ∀ a, (![1024, 0] : Fin 2 → Nat) a + S512x64.size a ≤ S32768x128.size a
  inb_S64x32768_S64x512_0_1536 : ∀ a, (![0, 1536] : Fin 2 → Nat) a + S64x512.size a ≤ S64x32768.size a
  inb_S32768x128_S512x64_1536_0 : ∀ a, (![1536, 0] : Fin 2 → Nat) a + S512x64.size a ≤ S32768x128.size a
  inb_S64x32768_S64x512_0_2048 : ∀ a, (![0, 2048] : Fin 2 → Nat) a + S64x512.size a ≤ S64x32768.size a
  inb_S32768x128_S512x64_2048_0 : ∀ a, (![2048, 0] : Fin 2 → Nat) a + S512x64.size a ≤ S32768x128.size a
  inb_S64x32768_S64x512_0_2560 : ∀ a, (![0, 2560] : Fin 2 → Nat) a + S64x512.size a ≤ S64x32768.size a
  inb_S32768x128_S512x64_2560_0 : ∀ a, (![2560, 0] : Fin 2 → Nat) a + S512x64.size a ≤ S32768x128.size a
  inb_S64x32768_S64x512_0_3072 : ∀ a, (![0, 3072] : Fin 2 → Nat) a + S64x512.size a ≤ S64x32768.size a
  inb_S32768x128_S512x64_3072_0 : ∀ a, (![3072, 0] : Fin 2 → Nat) a + S512x64.size a ≤ S32768x128.size a
  inb_S64x32768_S64x512_0_3584 : ∀ a, (![0, 3584] : Fin 2 → Nat) a + S64x512.size a ≤ S64x32768.size a
  inb_S32768x128_S512x64_3584_0 : ∀ a, (![3584, 0] : Fin 2 → Nat) a + S512x64.size a ≤ S32768x128.size a
  inb_S64x32768_S64x512_0_4096 : ∀ a, (![0, 4096] : Fin 2 → Nat) a + S64x512.size a ≤ S64x32768.size a
  inb_S32768x128_S512x64_4096_0 : ∀ a, (![4096, 0] : Fin 2 → Nat) a + S512x64.size a ≤ S32768x128.size a
  inb_S64x32768_S64x512_0_4608 : ∀ a, (![0, 4608] : Fin 2 → Nat) a + S64x512.size a ≤ S64x32768.size a
  inb_S32768x128_S512x64_4608_0 : ∀ a, (![4608, 0] : Fin 2 → Nat) a + S512x64.size a ≤ S32768x128.size a
  inb_S64x32768_S64x512_0_5120 : ∀ a, (![0, 5120] : Fin 2 → Nat) a + S64x512.size a ≤ S64x32768.size a
  inb_S32768x128_S512x64_5120_0 : ∀ a, (![5120, 0] : Fin 2 → Nat) a + S512x64.size a ≤ S32768x128.size a
  inb_S64x32768_S64x512_0_5632 : ∀ a, (![0, 5632] : Fin 2 → Nat) a + S64x512.size a ≤ S64x32768.size a
  inb_S32768x128_S512x64_5632_0 : ∀ a, (![5632, 0] : Fin 2 → Nat) a + S512x64.size a ≤ S32768x128.size a
  inb_S64x32768_S64x512_0_6144 : ∀ a, (![0, 6144] : Fin 2 → Nat) a + S64x512.size a ≤ S64x32768.size a
  inb_S32768x128_S512x64_6144_0 : ∀ a, (![6144, 0] : Fin 2 → Nat) a + S512x64.size a ≤ S32768x128.size a
  inb_S64x32768_S64x512_0_6656 : ∀ a, (![0, 6656] : Fin 2 → Nat) a + S64x512.size a ≤ S64x32768.size a
  inb_S32768x128_S512x64_6656_0 : ∀ a, (![6656, 0] : Fin 2 → Nat) a + S512x64.size a ≤ S32768x128.size a
  inb_S64x32768_S64x512_0_7168 : ∀ a, (![0, 7168] : Fin 2 → Nat) a + S64x512.size a ≤ S64x32768.size a
  inb_S32768x128_S512x64_7168_0 : ∀ a, (![7168, 0] : Fin 2 → Nat) a + S512x64.size a ≤ S32768x128.size a
  inb_S64x32768_S64x512_0_7680 : ∀ a, (![0, 7680] : Fin 2 → Nat) a + S64x512.size a ≤ S64x32768.size a
  inb_S32768x128_S512x64_7680_0 : ∀ a, (![7680, 0] : Fin 2 → Nat) a + S512x64.size a ≤ S32768x128.size a
  inb_S64x32768_S64x512_0_8192 : ∀ a, (![0, 8192] : Fin 2 → Nat) a + S64x512.size a ≤ S64x32768.size a
  inb_S32768x128_S512x64_8192_0 : ∀ a, (![8192, 0] : Fin 2 → Nat) a + S512x64.size a ≤ S32768x128.size a
  inb_S64x32768_S64x512_0_8704 : ∀ a, (![0, 8704] : Fin 2 → Nat) a + S64x512.size a ≤ S64x32768.size a
  inb_S32768x128_S512x64_8704_0 : ∀ a, (![8704, 0] : Fin 2 → Nat) a + S512x64.size a ≤ S32768x128.size a
  inb_S64x32768_S64x512_0_9216 : ∀ a, (![0, 9216] : Fin 2 → Nat) a + S64x512.size a ≤ S64x32768.size a
  inb_S32768x128_S512x64_9216_0 : ∀ a, (![9216, 0] : Fin 2 → Nat) a + S512x64.size a ≤ S32768x128.size a
  inb_S64x32768_S64x512_0_9728 : ∀ a, (![0, 9728] : Fin 2 → Nat) a + S64x512.size a ≤ S64x32768.size a
  inb_S32768x128_S512x64_9728_0 : ∀ a, (![9728, 0] : Fin 2 → Nat) a + S512x64.size a ≤ S32768x128.size a
  inb_S64x32768_S64x512_0_10240 : ∀ a, (![0, 10240] : Fin 2 → Nat) a + S64x512.size a ≤ S64x32768.size a
  inb_S32768x128_S512x64_10240_0 : ∀ a, (![10240, 0] : Fin 2 → Nat) a + S512x64.size a ≤ S32768x128.size a
  inb_S64x32768_S64x512_0_10752 : ∀ a, (![0, 10752] : Fin 2 → Nat) a + S64x512.size a ≤ S64x32768.size a
  inb_S32768x128_S512x64_10752_0 : ∀ a, (![10752, 0] : Fin 2 → Nat) a + S512x64.size a ≤ S32768x128.size a
  inb_S64x32768_S64x512_0_11264 : ∀ a, (![0, 11264] : Fin 2 → Nat) a + S64x512.size a ≤ S64x32768.size a
  inb_S32768x128_S512x64_11264_0 : ∀ a, (![11264, 0] : Fin 2 → Nat) a + S512x64.size a ≤ S32768x128.size a
  inb_S64x32768_S64x512_0_11776 : ∀ a, (![0, 11776] : Fin 2 → Nat) a + S64x512.size a ≤ S64x32768.size a
  inb_S32768x128_S512x64_11776_0 : ∀ a, (![11776, 0] : Fin 2 → Nat) a + S512x64.size a ≤ S32768x128.size a
  inb_S64x32768_S64x512_0_12288 : ∀ a, (![0, 12288] : Fin 2 → Nat) a + S64x512.size a ≤ S64x32768.size a
  inb_S32768x128_S512x64_12288_0 : ∀ a, (![12288, 0] : Fin 2 → Nat) a + S512x64.size a ≤ S32768x128.size a
  inb_S64x32768_S64x512_0_12800 : ∀ a, (![0, 12800] : Fin 2 → Nat) a + S64x512.size a ≤ S64x32768.size a
  inb_S32768x128_S512x64_12800_0 : ∀ a, (![12800, 0] : Fin 2 → Nat) a + S512x64.size a ≤ S32768x128.size a
  inb_S64x32768_S64x512_0_13312 : ∀ a, (![0, 13312] : Fin 2 → Nat) a + S64x512.size a ≤ S64x32768.size a
  inb_S32768x128_S512x64_13312_0 : ∀ a, (![13312, 0] : Fin 2 → Nat) a + S512x64.size a ≤ S32768x128.size a
  inb_S64x32768_S64x512_0_13824 : ∀ a, (![0, 13824] : Fin 2 → Nat) a + S64x512.size a ≤ S64x32768.size a
  inb_S32768x128_S512x64_13824_0 : ∀ a, (![13824, 0] : Fin 2 → Nat) a + S512x64.size a ≤ S32768x128.size a
  inb_S64x32768_S64x512_0_14336 : ∀ a, (![0, 14336] : Fin 2 → Nat) a + S64x512.size a ≤ S64x32768.size a
  inb_S32768x128_S512x64_14336_0 : ∀ a, (![14336, 0] : Fin 2 → Nat) a + S512x64.size a ≤ S32768x128.size a
  inb_S64x32768_S64x512_0_14848 : ∀ a, (![0, 14848] : Fin 2 → Nat) a + S64x512.size a ≤ S64x32768.size a
  inb_S32768x128_S512x64_14848_0 : ∀ a, (![14848, 0] : Fin 2 → Nat) a + S512x64.size a ≤ S32768x128.size a
  inb_S64x32768_S64x512_0_15360 : ∀ a, (![0, 15360] : Fin 2 → Nat) a + S64x512.size a ≤ S64x32768.size a
  inb_S32768x128_S512x64_15360_0 : ∀ a, (![15360, 0] : Fin 2 → Nat) a + S512x64.size a ≤ S32768x128.size a
  inb_S64x32768_S64x512_0_15872 : ∀ a, (![0, 15872] : Fin 2 → Nat) a + S64x512.size a ≤ S64x32768.size a
  inb_S32768x128_S512x64_15872_0 : ∀ a, (![15872, 0] : Fin 2 → Nat) a + S512x64.size a ≤ S32768x128.size a
  inb_S64x32768_S64x512_0_16384 : ∀ a, (![0, 16384] : Fin 2 → Nat) a + S64x512.size a ≤ S64x32768.size a
  inb_S32768x128_S512x64_16384_0 : ∀ a, (![16384, 0] : Fin 2 → Nat) a + S512x64.size a ≤ S32768x128.size a
  inb_S64x32768_S64x512_0_16896 : ∀ a, (![0, 16896] : Fin 2 → Nat) a + S64x512.size a ≤ S64x32768.size a
  inb_S32768x128_S512x64_16896_0 : ∀ a, (![16896, 0] : Fin 2 → Nat) a + S512x64.size a ≤ S32768x128.size a
  inb_S64x32768_S64x512_0_17408 : ∀ a, (![0, 17408] : Fin 2 → Nat) a + S64x512.size a ≤ S64x32768.size a
  inb_S32768x128_S512x64_17408_0 : ∀ a, (![17408, 0] : Fin 2 → Nat) a + S512x64.size a ≤ S32768x128.size a
  inb_S64x32768_S64x512_0_17920 : ∀ a, (![0, 17920] : Fin 2 → Nat) a + S64x512.size a ≤ S64x32768.size a
  inb_S32768x128_S512x64_17920_0 : ∀ a, (![17920, 0] : Fin 2 → Nat) a + S512x64.size a ≤ S32768x128.size a
  inb_S64x32768_S64x512_0_18432 : ∀ a, (![0, 18432] : Fin 2 → Nat) a + S64x512.size a ≤ S64x32768.size a
  inb_S32768x128_S512x64_18432_0 : ∀ a, (![18432, 0] : Fin 2 → Nat) a + S512x64.size a ≤ S32768x128.size a
  inb_S64x32768_S64x512_0_18944 : ∀ a, (![0, 18944] : Fin 2 → Nat) a + S64x512.size a ≤ S64x32768.size a
  inb_S32768x128_S512x64_18944_0 : ∀ a, (![18944, 0] : Fin 2 → Nat) a + S512x64.size a ≤ S32768x128.size a
  inb_S64x32768_S64x512_0_19456 : ∀ a, (![0, 19456] : Fin 2 → Nat) a + S64x512.size a ≤ S64x32768.size a
  inb_S32768x128_S512x64_19456_0 : ∀ a, (![19456, 0] : Fin 2 → Nat) a + S512x64.size a ≤ S32768x128.size a
  inb_S64x32768_S64x512_0_19968 : ∀ a, (![0, 19968] : Fin 2 → Nat) a + S64x512.size a ≤ S64x32768.size a
  inb_S32768x128_S512x64_19968_0 : ∀ a, (![19968, 0] : Fin 2 → Nat) a + S512x64.size a ≤ S32768x128.size a
  inb_S64x32768_S64x512_0_20480 : ∀ a, (![0, 20480] : Fin 2 → Nat) a + S64x512.size a ≤ S64x32768.size a
  inb_S32768x128_S512x64_20480_0 : ∀ a, (![20480, 0] : Fin 2 → Nat) a + S512x64.size a ≤ S32768x128.size a
  inb_S64x32768_S64x512_0_20992 : ∀ a, (![0, 20992] : Fin 2 → Nat) a + S64x512.size a ≤ S64x32768.size a
  inb_S32768x128_S512x64_20992_0 : ∀ a, (![20992, 0] : Fin 2 → Nat) a + S512x64.size a ≤ S32768x128.size a
  inb_S64x32768_S64x512_0_21504 : ∀ a, (![0, 21504] : Fin 2 → Nat) a + S64x512.size a ≤ S64x32768.size a
  inb_S32768x128_S512x64_21504_0 : ∀ a, (![21504, 0] : Fin 2 → Nat) a + S512x64.size a ≤ S32768x128.size a
  inb_S64x32768_S64x512_0_22016 : ∀ a, (![0, 22016] : Fin 2 → Nat) a + S64x512.size a ≤ S64x32768.size a
  inb_S32768x128_S512x64_22016_0 : ∀ a, (![22016, 0] : Fin 2 → Nat) a + S512x64.size a ≤ S32768x128.size a
  inb_S64x32768_S64x512_0_22528 : ∀ a, (![0, 22528] : Fin 2 → Nat) a + S64x512.size a ≤ S64x32768.size a
  inb_S32768x128_S512x64_22528_0 : ∀ a, (![22528, 0] : Fin 2 → Nat) a + S512x64.size a ≤ S32768x128.size a
  inb_S64x32768_S64x512_0_23040 : ∀ a, (![0, 23040] : Fin 2 → Nat) a + S64x512.size a ≤ S64x32768.size a
  inb_S32768x128_S512x64_23040_0 : ∀ a, (![23040, 0] : Fin 2 → Nat) a + S512x64.size a ≤ S32768x128.size a
  inb_S64x32768_S64x512_0_23552 : ∀ a, (![0, 23552] : Fin 2 → Nat) a + S64x512.size a ≤ S64x32768.size a
  inb_S32768x128_S512x64_23552_0 : ∀ a, (![23552, 0] : Fin 2 → Nat) a + S512x64.size a ≤ S32768x128.size a
  inb_S64x32768_S64x512_0_24064 : ∀ a, (![0, 24064] : Fin 2 → Nat) a + S64x512.size a ≤ S64x32768.size a
  inb_S32768x128_S512x64_24064_0 : ∀ a, (![24064, 0] : Fin 2 → Nat) a + S512x64.size a ≤ S32768x128.size a
  inb_S64x32768_S64x512_0_24576 : ∀ a, (![0, 24576] : Fin 2 → Nat) a + S64x512.size a ≤ S64x32768.size a
  inb_S32768x128_S512x64_24576_0 : ∀ a, (![24576, 0] : Fin 2 → Nat) a + S512x64.size a ≤ S32768x128.size a
  inb_S64x32768_S64x512_0_25088 : ∀ a, (![0, 25088] : Fin 2 → Nat) a + S64x512.size a ≤ S64x32768.size a
  inb_S32768x128_S512x64_25088_0 : ∀ a, (![25088, 0] : Fin 2 → Nat) a + S512x64.size a ≤ S32768x128.size a
  inb_S64x32768_S64x512_0_25600 : ∀ a, (![0, 25600] : Fin 2 → Nat) a + S64x512.size a ≤ S64x32768.size a
  inb_S32768x128_S512x64_25600_0 : ∀ a, (![25600, 0] : Fin 2 → Nat) a + S512x64.size a ≤ S32768x128.size a
  inb_S64x32768_S64x512_0_26112 : ∀ a, (![0, 26112] : Fin 2 → Nat) a + S64x512.size a ≤ S64x32768.size a
  inb_S32768x128_S512x64_26112_0 : ∀ a, (![26112, 0] : Fin 2 → Nat) a + S512x64.size a ≤ S32768x128.size a
  inb_S64x32768_S64x512_0_26624 : ∀ a, (![0, 26624] : Fin 2 → Nat) a + S64x512.size a ≤ S64x32768.size a
  inb_S32768x128_S512x64_26624_0 : ∀ a, (![26624, 0] : Fin 2 → Nat) a + S512x64.size a ≤ S32768x128.size a
  inb_S64x32768_S64x512_0_27136 : ∀ a, (![0, 27136] : Fin 2 → Nat) a + S64x512.size a ≤ S64x32768.size a
  inb_S32768x128_S512x64_27136_0 : ∀ a, (![27136, 0] : Fin 2 → Nat) a + S512x64.size a ≤ S32768x128.size a
  inb_S64x32768_S64x512_0_27648 : ∀ a, (![0, 27648] : Fin 2 → Nat) a + S64x512.size a ≤ S64x32768.size a
  inb_S32768x128_S512x64_27648_0 : ∀ a, (![27648, 0] : Fin 2 → Nat) a + S512x64.size a ≤ S32768x128.size a
  inb_S64x32768_S64x512_0_28160 : ∀ a, (![0, 28160] : Fin 2 → Nat) a + S64x512.size a ≤ S64x32768.size a
  inb_S32768x128_S512x64_28160_0 : ∀ a, (![28160, 0] : Fin 2 → Nat) a + S512x64.size a ≤ S32768x128.size a
  inb_S64x32768_S64x512_0_28672 : ∀ a, (![0, 28672] : Fin 2 → Nat) a + S64x512.size a ≤ S64x32768.size a
  inb_S32768x128_S512x64_28672_0 : ∀ a, (![28672, 0] : Fin 2 → Nat) a + S512x64.size a ≤ S32768x128.size a
  inb_S64x32768_S64x512_0_29184 : ∀ a, (![0, 29184] : Fin 2 → Nat) a + S64x512.size a ≤ S64x32768.size a
  inb_S32768x128_S512x64_29184_0 : ∀ a, (![29184, 0] : Fin 2 → Nat) a + S512x64.size a ≤ S32768x128.size a
  inb_S64x32768_S64x512_0_29696 : ∀ a, (![0, 29696] : Fin 2 → Nat) a + S64x512.size a ≤ S64x32768.size a
  inb_S32768x128_S512x64_29696_0 : ∀ a, (![29696, 0] : Fin 2 → Nat) a + S512x64.size a ≤ S32768x128.size a
  inb_S64x32768_S64x512_0_30208 : ∀ a, (![0, 30208] : Fin 2 → Nat) a + S64x512.size a ≤ S64x32768.size a
  inb_S32768x128_S512x64_30208_0 : ∀ a, (![30208, 0] : Fin 2 → Nat) a + S512x64.size a ≤ S32768x128.size a
  inb_S64x32768_S64x512_0_30720 : ∀ a, (![0, 30720] : Fin 2 → Nat) a + S64x512.size a ≤ S64x32768.size a
  inb_S32768x128_S512x64_30720_0 : ∀ a, (![30720, 0] : Fin 2 → Nat) a + S512x64.size a ≤ S32768x128.size a
  inb_S64x32768_S64x512_0_31232 : ∀ a, (![0, 31232] : Fin 2 → Nat) a + S64x512.size a ≤ S64x32768.size a
  inb_S32768x128_S512x64_31232_0 : ∀ a, (![31232, 0] : Fin 2 → Nat) a + S512x64.size a ≤ S32768x128.size a
  inb_S64x32768_S64x512_0_31744 : ∀ a, (![0, 31744] : Fin 2 → Nat) a + S64x512.size a ≤ S64x32768.size a
  inb_S32768x128_S512x64_31744_0 : ∀ a, (![31744, 0] : Fin 2 → Nat) a + S512x64.size a ≤ S32768x128.size a
  inb_S64x32768_S64x512_0_32256 : ∀ a, (![0, 32256] : Fin 2 → Nat) a + S64x512.size a ≤ S64x32768.size a
  inb_S32768x128_S512x64_32256_0 : ∀ a, (![32256, 0] : Fin 2 → Nat) a + S512x64.size a ≤ S32768x128.size a
  shapeCasts_S1024x20_S20480 : S1024x20.ShapeCasts S20480
  shapeCasts_S20480_S32x10x64 : S20480.ShapeCasts S32x10x64
  squeezes_S1x10x64_S10x64 : S1x10x64.Squeezes S10x64
  inb_S10x64_S1x64_0_0 : ∀ a, (![0, 0] : Fin 2 → Nat) a + S1x64.size a ≤ S10x64.size a
  squeezes_S1x64_S64 : S1x64.Squeezes S64
  inb_S1000000x128_S1000000x128_0_0 : ∀ a, (![0, 0] : Fin 2 → Nat) a + S1000000x128.size a ≤ S1000000x128.size a
  gathers_S1000000x128_S64x128 : S1000000x128.Gathers 0 S64x128
  shapeCasts_S1024x200_S204800 : S1024x200.ShapeCasts S204800
  shapeCasts_S204800_S32x50x128 : S204800.ShapeCasts S32x50x128
  squeezes_S1x50x128_S50x128 : S1x50x128.Squeezes S50x128
  inb_S50x128_S1x128_0_0 : ∀ a, (![0, 0] : Fin 2 → Nat) a + S1x128.size a ≤ S50x128.size a
  squeezes_S1x128_S128 : S1x128.Squeezes S128
  gathers_S1000000x128_S128x128 : S1000000x128.Gathers 0 S128x128
  shapeCasts_S20480x128_S1024x20x128 : S20480x128.ShapeCasts S1024x20x128
  inb_S256x20x128_S256x20x128_0_0_0 : ∀ a, (![0, 0, 0] : Fin 3 → Nat) a + S256x20x128.size a ≤ S256x20x128.size a
  h_S256x20x128 : 0 < S256x20x128.numel
  shapeCasts_S256x20x128_S256x20x128 : S256x20x128.ShapeCasts S256x20x128
  transposes_S256x20x128_p2_1_0_S128x20x256 : S256x20x128.Transposes [2, 1, 0] S128x20x256
  slices_S128x20x256_o0_0_0_S64x20x256 : S128x20x256.Slices ![0, 0, 0] S64x20x256
  concatenates_S64x20x256_S64x180x256_S64x200x256_d1 : Shape.Concatenates [S64x20x256, S64x180x256] S64x200x256 1
  inb_S64x200x256_S64x200x256_0_0_0 : ∀ a, (![0, 0, 0] : Fin 3 → Nat) a + S64x200x256.size a ≤ S64x200x256.size a
  h_S64x200x256 : 0 < S64x200x256.numel
  shapeCasts_S204800x128_S1024x200x128 : S204800x128.ShapeCasts S1024x200x128
  inb_S256x40x128_S256x40x128_0_0_0 : ∀ a, (![0, 0, 0] : Fin 3 → Nat) a + S256x40x128.size a ≤ S256x40x128.size a
  h_S256x40x128 : 0 < S256x40x128.numel
  shapeCasts_S256x40x128_S256x40x128 : S256x40x128.ShapeCasts S256x40x128
  transposes_S256x40x128_p2_1_0_S128x40x256 : S256x40x128.Transposes [2, 1, 0] S128x40x256
  slices_S128x40x256_o0_0_0_S64x40x256 : S128x40x256.Slices ![0, 0, 0] S64x40x256
  inb_S64x40x256_S64x40x256_0_0_0 : ∀ a, (![0, 0, 0] : Fin 3 → Nat) a + S64x40x256.size a ≤ S64x40x256.size a
  h_S64x40x256 : 0 < S64x40x256.numel
  transposes_S64x200x1024_S1024x64x200_2_0_1 : S64x200x1024.Transposes [2, 0, 1] S1024x64x200
  hcc1_scratch3 : 4 + S_.numel ≤ 22
  hcc1_scratch4 : 5 + S_.numel ≤ 22
  hcc1_scratch5 : 6 + S_.numel ≤ 22
  hcc1_scratch6 : 7 + S_.numel ≤ 22
  hcc1_scoped0 : 8 + S_.numel ≤ 22
  hcc2_scratch3 : 9 + S_.numel ≤ 22
  hcc2_scratch4 : 10 + S_.numel ≤ 22
  hcc2_scratch5 : 11 + S_.numel ≤ 22
  hcc2_scratch6 : 12 + S_.numel ≤ 22
  hcc2_scoped0 : 13 + S_.numel ≤ 22
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32768x128.size a < S1000000x128.size a
  hwx0_1 : ∀ i : grid0.Coords, EltTy.bits .f32 = 32 ∨ (Rect.unit (s := S1000000x128) (fun a => cc0_transform_1 i a * S32768x128.size a) (fun a => (Pipeline.Clip.of (cc0_transform_1 i a) (S32768x128.size a) (S1000000x128.size a)).extent (S32768x128.size a)) fun a => Pipeline.Clip.inb (Pipeline.Clip.ok_of (hstart0_1 i a))).WholeWords (EltTy.packing .f32)
  hwxs0_1 : ∀ i : grid0.Coords, EltTy.bits .f32 = 32 ∨ (Rect.unit (s := S32768x128) (fun _ => 0) (fun a => (Pipeline.Clip.of (cc0_transform_1 i a) (S32768x128.size a) (S1000000x128.size a)).extent (S32768x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ a, (k1_off1 i) a + S1x10x64.size a ≤ S32x10x64.size a
  k1_t1_ok : k1_t1_loop.OK
  k1_off2_inb : ∀ k1_t1 : Fin k1_t1_loop.trips, ∀ a, (k1_off2 k1_t1) a + S1x64.size a ≤ S10x64.size a
  k1_off3_inb : ∀ k1_t1 : Fin k1_t1_loop.trips, ∀ a, (k1_off3 k1_t1) a + S1x64.size a ≤ S10x64.size a
  k1_mult1_dvd : ∀ (i : grid1.Coords) (k1_t1 : Fin k1_t1_loop.trips), 64 ∣ (k1_mult1 i k1_t1).toNat
  k1_off4_inb : ∀ (i : grid1.Coords) (k1_t1 : Fin k1_t1_loop.trips), ∀ a, (k1_off4 i k1_t1) a + S64x128.size a ≤ S20480x128.size a
  k1_mult2_dvd : ∀ (i : grid1.Coords) (k1_t1 : Fin k1_t1_loop.trips), 64 ∣ (k1_mult2 i k1_t1).toNat
  k1_off5_inb : ∀ (i : grid1.Coords) (k1_t1 : Fin k1_t1_loop.trips), ∀ a, (k1_off5 i k1_t1) a + S64x128.size a ≤ S20480x128.size a
  k1_mult3_dvd : ∀ (i : grid1.Coords) (k1_t1 : Fin k1_t1_loop.trips), ∀ (k1_h1 : k1_cond1 k1_t1 = 1#1), 64 ∣ (k1_mult3 i k1_t1).toNat
  k1_off6_inb : ∀ (i : grid1.Coords) (k1_t1 : Fin k1_t1_loop.trips), ∀ (k1_h1 : k1_cond1 k1_t1 = 1#1), ∀ a, (k1_off6 i k1_t1) a + S64x128.size a ≤ S20480x128.size a
  k1_off7_inb : ∀ k1_t1 : Fin k1_t1_loop.trips, ∀ (k1_h1 : k1_cond1 k1_t1 = 1#1), ∀ a, (k1_off7 k1_t1) a + S1x64.size a ≤ S10x64.size a
  k1_mult4_dvd : ∀ (i : grid1.Coords) (k1_t1 : Fin k1_t1_loop.trips), ∀ (k1_h1 : k1_cond1 k1_t1 = 1#1), 64 ∣ (k1_mult4 i k1_t1).toNat
  k1_off8_inb : ∀ (i : grid1.Coords) (k1_t1 : Fin k1_t1_loop.trips), ∀ (k1_h1 : k1_cond1 k1_t1 = 1#1), ∀ a, (k1_off8 i k1_t1) a + S64x128.size a ≤ S20480x128.size a
  k1_mult5_dvd : ∀ i : grid1.Coords, 64 ∣ (k1_mult5 i).toNat
  k1_off9_inb : ∀ i : grid1.Coords, ∀ (r : Fin 2), ∀ a, (k1_off9 i (BitVec.ofNat 32 (8 + r.val))) a + S64x128.size a ≤ S20480x128.size a
  k1_mult6_dvd : ∀ i : grid1.Coords, 64 ∣ (k1_mult6 i).toNat
  hcore2 : grid2.bound 0 ≤ τ.nSC
  hsub2 : grid2.bound 1 ≤ τ.nSub
  k2_off1_inb : ∀ i : grid2.Coords, ∀ a, (k2_off1 i) a + S1x50x128.size a ≤ S32x50x128.size a
  k2_t1_ok : k2_t1_loop.OK
  k2_off2_inb : ∀ k2_t1 : Fin k2_t1_loop.trips, ∀ a, (k2_off2 k2_t1) a + S1x128.size a ≤ S50x128.size a
  k2_off3_inb : ∀ k2_t1 : Fin k2_t1_loop.trips, ∀ a, (k2_off3 k2_t1) a + S1x128.size a ≤ S50x128.size a
  k2_mult1_dvd : ∀ (i : grid2.Coords) (k2_t1 : Fin k2_t1_loop.trips), 128 ∣ (k2_mult1 i k2_t1).toNat
  k2_off4_inb : ∀ (i : grid2.Coords) (k2_t1 : Fin k2_t1_loop.trips), ∀ a, (k2_off4 i k2_t1) a + S128x128.size a ≤ S204800x128.size a
  k2_mult2_dvd : ∀ (i : grid2.Coords) (k2_t1 : Fin k2_t1_loop.trips), 128 ∣ (k2_mult2 i k2_t1).toNat
  k2_off5_inb : ∀ (i : grid2.Coords) (k2_t1 : Fin k2_t1_loop.trips), ∀ a, (k2_off5 i k2_t1) a + S128x128.size a ≤ S204800x128.size a
  k2_mult3_dvd : ∀ (i : grid2.Coords) (k2_t1 : Fin k2_t1_loop.trips), ∀ (k2_h1 : k2_cond1 k2_t1 = 1#1), 128 ∣ (k2_mult3 i k2_t1).toNat
  k2_off6_inb : ∀ (i : grid2.Coords) (k2_t1 : Fin k2_t1_loop.trips), ∀ (k2_h1 : k2_cond1 k2_t1 = 1#1), ∀ a, (k2_off6 i k2_t1) a + S128x128.size a ≤ S204800x128.size a
  k2_off7_inb : ∀ k2_t1 : Fin k2_t1_loop.trips, ∀ (k2_h1 : k2_cond1 k2_t1 = 1#1), ∀ a, (k2_off7 k2_t1) a + S1x128.size a ≤ S50x128.size a
  k2_mult4_dvd : ∀ (i : grid2.Coords) (k2_t1 : Fin k2_t1_loop.trips), ∀ (k2_h1 : k2_cond1 k2_t1 = 1#1), 128 ∣ (k2_mult4 i k2_t1).toNat
  k2_off8_inb : ∀ (i : grid2.Coords) (k2_t1 : Fin k2_t1_loop.trips), ∀ (k2_h1 : k2_cond1 k2_t1 = 1#1), ∀ a, (k2_off8 i k2_t1) a + S128x128.size a ≤ S204800x128.size a
  k2_mult5_dvd : ∀ i : grid2.Coords, 128 ∣ (k2_mult5 i).toNat
  k2_off9_inb : ∀ i : grid2.Coords, ∀ (r : Fin 2), ∀ a, (k2_off9 i (BitVec.ofNat 32 (48 + r.val))) a + S128x128.size a ≤ S204800x128.size a
  k2_mult6_dvd : ∀ i : grid2.Coords, 128 ∣ (k2_mult6 i).toNat
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x20x128.size a ≤ S1024x20x128.size a
  hwx3_0 : ∀ i : grid3.Coords, EltTy.bits .f32 = 32 ∨ (Rect.block (s := S1024x20x128) S256x20x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x200x256.size a ≤ S64x200x1024.size a
  hwx3_1 : ∀ i : grid3.Coords, EltTy.bits .f32 = 32 ∨ (Rect.block (s := S64x200x1024) S64x200x256.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x40x128.size a ≤ S1024x200x128.size a
  hwx4_0 : ∀ i : grid4.Coords, EltTy.bits .f32 = 32 ∨ (Rect.block (s := S1024x200x128) S256x40x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x40x256.size a ≤ S64x200x1024.size a
  hwx4_1 : ∀ i : grid4.Coords, EltTy.bits .f32 = 32 ∨ (Rect.block (s := S64x200x1024) S64x40x256.size (cc4_transform_1 i) (hinb4_1 i)).WholeWords (EltTy.packing .f32)

variable [Facts₀]

abbrev cc1_scratch3 : DmaSems sig S_ := SemArray.consecutive 4 S_ hcc1_scratch3
abbrev cc1_scratch4 : DmaSems sig S_ := SemArray.consecutive 5 S_ hcc1_scratch4
abbrev cc1_scratch5 : DmaSems sig S_ := SemArray.consecutive 6 S_ hcc1_scratch5
abbrev cc1_scratch6 : DmaSems sig S_ := SemArray.consecutive 7 S_ hcc1_scratch6
abbrev cc1_scoped0 : DmaSems sig S_ := SemArray.consecutive 8 S_ hcc1_scoped0
abbrev cc2_scratch3 : DmaSems sig S_ := SemArray.consecutive 9 S_ hcc2_scratch3
abbrev cc2_scratch4 : DmaSems sig S_ := SemArray.consecutive 10 S_ hcc2_scratch4
abbrev cc2_scratch5 : DmaSems sig S_ := SemArray.consecutive 11 S_ hcc2_scratch5
abbrev cc2_scratch6 : DmaSems sig S_ := SemArray.consecutive 12 S_ hcc2_scratch6
abbrev cc2_scoped0 : DmaSems sig S_ := SemArray.consecutive 13 S_ hcc2_scoped0

abbrev win0_0 : Pipeline.Window sig grid0 :=
  Pipeline.Window.ofSpecClip (Memref.whole main_v0) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S32768x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win3_0 : Pipeline.Window sig grid3 :=
  Pipeline.Window.ofSpec (Memref.whole main_v8) S256x20x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S64x200x256.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v10) S256x40x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S64x40x256.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S1024x20 : Shape := ⟨2, ![1024, 20]⟩
abbrev S1024x200 : Shape := ⟨2, ![1024, 200]⟩
abbrev S1000000x64 : Shape := ⟨2, ![1000000, 64]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x64 : Shape := ⟨3, ![1024, 20, 64]⟩
abbrev S1024x200x1 : Shape := ⟨3, ![1024, 200, 1]⟩
abbrev S1024x200x64 : Shape := ⟨3, ![1024, 200, 64]⟩
abbrev S1024x64x200 : Shape := ⟨3, ![1024, 64, 200]⟩

abbrev nBuf : Space → Nat
  | .hbm => 54
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S1024x200, .i32⟩
  | .hbm, ⟨2, _⟩ => ⟨S1000000x64, .f32⟩
  | .hbm, ⟨3, _⟩ => ⟨S_, .i32⟩
  | .hbm, ⟨4, _⟩ => ⟨S1024x20, .i32⟩
  | .hbm, ⟨5, _⟩ => ⟨S1024x20, .i1⟩
  | .hbm, ⟨6, _⟩ => ⟨S_, .i32⟩
  | .hbm, ⟨7, _⟩ => ⟨S1024x20, .i32⟩
  | .hbm, ⟨8, _⟩ => ⟨S1024x20, .i32⟩
  | .hbm, ⟨9, _⟩ => ⟨S1024x20, .i32⟩
  | .hbm, ⟨10, _⟩ => ⟨S1024x20x1, .i32⟩
  | .hbm, ⟨11, _⟩ => ⟨S1, .i32⟩
  | .hbm, ⟨12, _⟩ => ⟨S_, .i32⟩
  | .hbm, ⟨13, _⟩ => ⟨S1024x20x1, .i32⟩
  | .hbm, ⟨14, _⟩ => ⟨S1024x20x1, .i1⟩
  | .hbm, ⟨15, _⟩ => ⟨S1x1x1, .i32⟩
  | .hbm, ⟨16, _⟩ => ⟨S1024x20x1, .i32⟩
  | .hbm, ⟨17, _⟩ => ⟨S1024x20x1, .i1⟩
  | .hbm, ⟨18, _⟩ => ⟨S1024x20x1, .i1⟩
  | .hbm, ⟨19, _⟩ => ⟨S_, .i1⟩
  | .hbm, ⟨20, _⟩ => ⟨S1024x20, .i1⟩
  | .hbm, ⟨21, _⟩ => ⟨S1024x20x64, .f32⟩
  | .hbm, ⟨22, _⟩ => ⟨S1024x20x64, .i1⟩
  | .hbm, ⟨23, _⟩ => ⟨S_, .f32⟩
  | .hbm, ⟨24, _⟩ => ⟨S1024x20x64, .f32⟩
  | .hbm, ⟨25, _⟩ => ⟨S1024x20x64, .f32⟩
  | .hbm, ⟨26, _⟩ => ⟨S_, .i32⟩
  | .hbm, ⟨27, _⟩ => ⟨S1024x200, .i32⟩
  | .hbm, ⟨28, _⟩ => ⟨S1024x200, .i1⟩
  | .hbm, ⟨29, _⟩ => ⟨S_, .i32⟩
  | .hbm, ⟨30, _⟩ => ⟨S1024x200, .i32⟩
  | .hbm, ⟨31, _⟩ => ⟨S1024x200, .i32⟩
  | .hbm, ⟨32, _⟩ => ⟨S1024x200, .i32⟩
  | .hbm, ⟨33, _⟩ => ⟨S1024x200x1, .i32⟩
  | .hbm, ⟨34, _⟩ => ⟨S1, .i32⟩
  | .hbm, ⟨35, _⟩ => ⟨S_, .i32⟩
  | .hbm, ⟨36, _⟩ => ⟨S1024x200x1, .i32⟩
  | .hbm, ⟨37, _⟩ => ⟨S1024x200x1, .i1⟩
  | .hbm, ⟨38, _⟩ => ⟨S1x1x1, .i32⟩
  | .hbm, ⟨39, _⟩ => ⟨S1024x200x1, .i32⟩
  | .hbm, ⟨40, _⟩ => ⟨S1024x200x1, .i1⟩
  | .hbm, ⟨41, _⟩ => ⟨S1024x200x1, .i1⟩
  | .hbm, ⟨42, _⟩ => ⟨S_, .i1⟩
  | .hbm, ⟨43, _⟩ => ⟨S1024x200, .i1⟩
  | .hbm, ⟨44, _⟩ => ⟨S1024x200x64, .f32⟩
  | .hbm, ⟨45, _⟩ => ⟨S1024x200x64, .i1⟩
  | .hbm, ⟨46, _⟩ => ⟨S_, .f32⟩
  | .hbm, ⟨47, _⟩ => ⟨S1024x200x64, .f32⟩
  | .hbm, ⟨48, _⟩ => ⟨S1024x200x64, .f32⟩
  | .hbm, ⟨49, _⟩ => ⟨S_, .i32⟩
  | .hbm, ⟨50, _⟩ => ⟨S_, .f32⟩
  | .hbm, ⟨51, _⟩ => ⟨S1024x200x64, .f32⟩
  | .hbm, ⟨52, _⟩ => ⟨S1024x64x200, .f32⟩
  | .hbm, ⟨53, _⟩ => ⟨S1024x64x200, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_c : Ref sig .tc := ⟨.hbm, 49, rfl⟩
abbrev main_call2_v0 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩

abbrev nD : Nat := 1
abbrev τ : Topo := Topo.v7x

variable {F : FTy → Type} [FloatOps F]

class Facts₀ : Prop where
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bcast_S_S1024x20x1 : S_.BroadcastsInDim S1024x20x1 (![] : Fin 0 → Fin S1024x20x1.rank)
  bcast_S1_S1x1x1_2 : S1.BroadcastsInDim S1x1x1 (![2] : Fin 1 → Fin S1x1x1.rank)
  bcast_S1x1x1_S1024x20x1_0_1_2 : S1x1x1.BroadcastsInDim S1024x20x1 (![0, 1, 2] : Fin 3 → Fin S1024x20x1.rank)
  reducesTo_S1024x20x1_S1024x20_d2 : S1024x20x1.ReducesTo [2] S1024x20
  h_S_ : 0 < S_.numel
  bcast_S1024x20_S1024x20x64_0_1 : S1024x20.BroadcastsInDim S1024x20x64 (![0, 1] : Fin 2 → Fin S1024x20x64.rank)
  bcast_S_S1024x20x64 : S_.BroadcastsInDim S1024x20x64 (![] : Fin 0 → Fin S1024x20x64.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  bcast_S1024x200_S1024x200x64_0_1 : S1024x200.BroadcastsInDim S1024x200x64 (![0, 1] : Fin 2 → Fin S1024x200x64.rank)
  bcast_S_S1024x200x64 : S_.BroadcastsInDim S1024x200x64 (![] : Fin 0 → Fin S1024x200x64.rank)
  pads_S1024x20x64_S1024x200x64_000_01800_000 : S1024x20x64.Pads (![0, 0, 0] : Fin 3 → Nat) ![0, 180, 0] ![0, 0, 0] S1024x200x64
  transposes_S1024x200x64_S1024x64x200_0_2_1 : S1024x200x64.Transposes [0, 2, 1] S1024x64x200
  gather_S1000000x64_S1024x20x1_S1024x20x64_2_0_n_n_0_2_164_wf : GatherDims.WF S1000000x64 S1024x20x1 S1024x20x64 [2] [0] [] [0] [] 2 ![1, 64]
  gather_S1000000x64_S1024x200x1_S1024x200x64_2_0_n_n_0_2_164_wf : GatherDims.WF S1000000x64 S1024x200x1 S1024x200x64 [2] [0] [] [0] [] 2 ![1, 64]

variable [Facts₀]

def gather_S1000000x64_S1024x20x1_S1024x20x64_2_0_n_n_0_2_164 : GatherDims S1000000x64 S1024x20x1 S1024x20x64 where
  offsetDims := [2]
  collapsedSliceDims := [0]
  operandBatchingDims := []
  startIndicesBatchingDims := []
  startIndexMap := [0]
  indexVectorDim := 2
  sliceSizes := ![1, 64]
  wf := gather_S1000000x64_S1024x20x1_S1024x20x64_2_0_n_n_0_2_164_wf
def gather_S1000000x64_S1024x200x1_S1024x200x64_2_0_n_n_0_2_164 : GatherDims S1000000x64 S1024x200x1 S1024x200x64 where
  offsetDims := [2]
  collapsedSliceDims := [0]
  operandBatchingDims := []
  startIndicesBatchingDims := []
  startIndexMap := [0]
  indexVectorDim := 2
  sliceSizes := ![1, 64]
  wf := gather_S1000000x64_S1024x200x1_S1024x200x64_2_0_n_n_0_2_164_wf

class Facts : Prop extends Facts₀ where

variable [Facts]
-- ==== Proof.Common.lean ====
/-
  The program as the launch theorem sees it, and the ghost state every part of the proof is stated over: the
  handshakes' rounds, the staging cells' rounds of the three TensorCore pipelines, and the transfers' counters of
  the two SparseCore kernels, side by side in one product.
-/
import proofs.«218768_g80616536146796_cont_9to1c4b_775_25_alg».proof.Defs
import proofs.«218768_g80616536146796_cont_9to1c4b_775_25_alg».proof.Proof.Gen.KernelIdeal
import proofs.«218768_g80616536146796_cont_9to1c4b_775_25_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, the transfers' counters. -/
abbrev UH : Type := URounds (GSem nD τ sig) ℕ
abbrev UP : Type := URounds (GSem nD τ sig) Unit
abbrev UU : Type := UH × (UP × Counters)

abbrev 𝕄F (F : FTy → Type) : Type := MT nD τ sig (HIx 2) (Elt F) ℕ UU ℕ

abbrev EH : Emb UH (𝕄F F) := embL
def EP : Emb UP (𝕄F F) := (Emb.inl : Emb UP (UP × Counters)).trans (embR : Emb (UP × Counters) (𝕄F F))

instance EP_landsIn : (EP : Emb UP (𝕄F F)).LandsIn (upEmb : UEmb _ (𝕄F F)) := by unfold EP embR; infer_instance

example : CountersIn UU := inferInstance

/-- No pipeline of this program has prefetched tables. -/
abbrev adm : (p : Fin 3) → (pcfgs (F := F) p).Adm := fun p => (cfgs p).toPCfg_adm

/-- The arrays of @main on device `d`, as locations. -/
abbrev loc (d : Dev nD) (b : Ref sig .tc) : Loc nD τ sig := (SparseCore.T d).loc b

end Cert.KernelIdeal.Hand

end
-- ==== Proof.Host.lean ====
/-
  Host operations of @main read as steps between whole arrays: an operation with one operand and one result takes
  the operand's array at `X` and the result's array at anything to the operand unchanged and the result at the
  operation's value of `X`.
-/
import proofs.«218768_g80616536146796_cont_9to1c4b_775_25_alg».proof.Proof.Common
import Idealize.ShloMosaic.Lib.StableHlo.Run
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

/-- Two distinct arrays held whole are `held` over the pair. -/
theorem held_pair (d : Dev nD) (x y : Ref sig .tc) (hxy : (Proc.devRef .tc x : DevRef τ sig) ≠ Proc.devRef .tc y) (W : Valuation τ sig (Elt F)) :
    (held (T d) {Proc.devRef .tc x, Proc.devRef .tc y} W : sProp (𝕄F F))
      = iprop((loc d x ↦{fullShare} W (Proc.devRef .tc x)) ∗ (loc d y ↦{fullShare} W (Proc.devRef .tc y))) := by
  unfold held
  rw [SparseCore.bigSep_insert' (by simpa using hxy), bigSep_singleton]

/-- A valuation with two arrays set. -/
def val2 (x y : Ref sig .tc) (X : x.ty.Contents (Elt F)) (Y : y.ty.Contents (Elt F)) (W₀ : Valuation τ sig (Elt F)) : Valuation τ sig (Elt F) :=
  Function.update (Function.update W₀ (Proc.devRef .tc x) X) (Proc.devRef .tc y) Y

theorem val2_y (x y : Ref sig .tc) (X) (Y) (W₀ : Valuation τ sig (Elt F)) : val2 x y X Y W₀ (Proc.devRef .tc y) = Y := Function.update_self _ _ _
theorem val2_x (x y : Ref sig .tc) (hxy : (Proc.devRef .tc x : DevRef τ sig) ≠ Proc.devRef .tc y) (X) (Y) (W₀ : Valuation τ sig (Elt F)) :
    val2 x y X Y W₀ (Proc.devRef .tc x) = X := by
  unfold val2; rw [Function.update_of_ne hxy, Function.update_self]

/-- Some valuation: only the two arrays an operation touches are ever read off it. -/
def W₀ [∀ e, Nonempty (Elt F e)] : Valuation τ sig (Elt F) := fun _ => Classical.arbitrary _

section Steps

variable [∀ e, Nonempty (Elt F e)] {Λ : Labels} {defs : Defs nD τ sig (Elt F) Λ} {𝒱' : Variants} {bd : Option 𝒱'.V}

/-- A one-operand host operation as a step: the operand kept, the result at the operation's value. -/
theorem wp_unary (d : Dev nD) (x y : Ref sig .tc) (hxy : (Proc.devRef .tc x : DevRef τ sig) ≠ Proc.devRef .tc y)
    (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (X : x.ty.Contents (Elt F)) (Y : y.ty.Contents (Elt F)) {Φ : PUnit → sProp (𝕄F F)} :
    iprop(boundary (T d) ∗ (loc d x ↦{fullShare} X) ∗ (loc d y ↦{fullShare} Y)
        ∗ (iprop(boundary (T d) ∗ (loc d x ↦{fullShare} X) ∗ (loc d y ↦{fullShare} f X)) -∗ Φ ⟨⟩))
      ⊢ wp frame (wpE defs 𝒱' (T d) bd) Set.univ (hlo rfl (StableHlo.unary x y f hx hy) (fun _ => .ret ⟨⟩)) Φ := by
  iintro ⟨Hb, Hx, Hy, Hk⟩
  iapply (wp_hlo_within 𝒱' (SparseCore.T d) bd Set.univ (op := StableHlo.unary x y f hx hy) (S := {Proc.devRef .tc x, Proc.devRef .tc y})
    (Finset.Subset.refl _) (V := val2 x y X Y W₀)) $$ [Hb Hx Hy]
  · isplitl [Hb]; · iexact Hb
    rw [held_pair d x y hxy, val2_x x y hxy, val2_y]
    isplitl [Hx]; · iexact Hx
    iexact Hy
  iintro ⟨Hb, Hheld⟩
  have e : (held (T d) {Proc.devRef .tc x, Proc.devRef .tc y} ((StableHlo.unary x y f hx hy).result (val2 x y X Y W₀)) : sProp (𝕄F F))
      = iprop((loc d x ↦{fullShare} X) ∗ (loc d y ↦{fullShare} f X)) := by
    rw [held_pair d x y hxy, StableHlo.unary_result,
      (StableHlo.unary x y f hx hy).result_of_not_mem (val2 x y X Y W₀) (b := Proc.devRef .tc x)
        (show Proc.devRef .tc x ∉ ({Proc.devRef .tc y} : Finset (DevRef τ sig)) from by simpa using hxy), val2_x x y hxy]
  ihave Hh := (Entails.of_eq e) $$ Hheld
  icases Hh with ⟨Hx, Hy⟩
  rw [wp_ret]; imodintro
  iapply Hk
  isplitl [Hb]; · iexact Hb
  isplitl [Hx]; · iexact Hx
  iexact Hy

/-- A reshape as a step: the operand kept, the result at the operand's elements in the result's shape. -/
theorem wp_reshape (d : Dev nD) (x y : Ref sig .tc) (hxy : (Proc.devRef .tc x : DevRef τ sig) ≠ Proc.devRef .tc y)
    (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (X : x.ty.Contents (Elt F)) (Y : y.ty.Contents (Elt F)) {Φ : PUnit → sProp (𝕄F F)} :
    iprop(boundary (T d) ∗ (loc d x ↦{fullShare} X) ∗ (loc d y ↦{fullShare} Y)
        ∗ (iprop(boundary (T d) ∗ (loc d x ↦{fullShare} X) ∗ (loc d y ↦{fullShare} fun i => he ▸ shapeCast y.ty.shape X hn i)) -∗ Φ ⟨⟩))
      ⊢ wp frame (wpE defs 𝒱' (T d) bd) Set.univ (hlo rfl (StableHlo.reshape x y he hn hx hy) (fun _ => .ret ⟨⟩)) Φ := by
  iintro ⟨Hb, Hx, Hy, Hk⟩
  iapply (wp_hlo_within 𝒱' (SparseCore.T d) bd Set.univ (op := StableHlo.reshape x y he hn hx hy) (S := {Proc.devRef .tc x, Proc.devRef .tc y})
    (Finset.Subset.refl _) (V := val2 x y X Y W₀)) $$ [Hb Hx Hy]
  · isplitl [Hb]; · iexact Hb
    rw [held_pair d x y hxy, val2_x x y hxy, val2_y]
    isplitl [Hx]; · iexact Hx
    iexact Hy
  iintro ⟨Hb, Hheld⟩
  have e : (held (T d) {Proc.devRef .tc x, Proc.devRef .tc y} ((StableHlo.reshape x y he hn hx hy).result (val2 x y X Y W₀)) : sProp (𝕄F F))
      = iprop((loc d x ↦{fullShare} X) ∗ (loc d y ↦{fullShare} fun i => he ▸ shapeCast y.ty.shape X hn i)) := by
    rw [held_pair d x y hxy, StableHlo.reshape_result,
      (StableHlo.reshape x y he hn hx hy).result_of_not_mem (val2 x y X Y W₀) (b := Proc.devRef .tc x)
        (show Proc.devRef .tc x ∉ ({Proc.devRef .tc y} : Finset (DevRef τ sig)) from by simpa using hxy), val2_x x y hxy]
  ihave Hh := (Entails.of_eq e) $$ Hheld
  icases Hh with ⟨Hx, Hy⟩
  rw [wp_ret]; imodintro
  iapply Hk
  isplitl [Hb]; · iexact Hb
  isplitl [Hx]; · iexact Hx
  iexact Hy

end Steps

end Cert.KernelIdeal.Hand

end
-- ==== Proof.LaunchBase.lean ====
/-
  The launch of the whole program: the ghost state's launch element, the TensorCore's arrays one by one, and what
  the TensorCore owes during a pipeline region (its start signals for the SparseCore calls still to come, all at a
  call's index: nothing at the index a region's own waits are recorded at).
-/
import proofs.«218768_g80616536146796_cont_9to1c4b_775_25_alg».proof.Proof.Common
import proofs.«218768_g80616536146796_cont_9to1c4b_775_25_alg».proof.Proof.Host

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The TensorCore's arrays, all unscoped, one by one. -/
theorem unscopedBufs_eq (d : Dev nD) (W : (b : Ref sig .tc) → Buf (Elt F) ((d.tc : Thread nD τ).loc b)) :
    (unscopedBufs d W : sProp (𝕄F F)) = iprop((loc d main_arg0 ↦{fullShare} W main_arg0) ∗ (loc d main_arg1 ↦{fullShare} W main_arg1) ∗ (loc d main_arg2 ↦{fullShare} W main_arg2) ∗ (loc d main_v0 ↦{fullShare} W main_v0) ∗ (loc d main_v1 ↦{fullShare} W main_v1) ∗ (loc d main_v2 ↦{fullShare} W main_v2) ∗ (loc d main_v3 ↦{fullShare} W main_v3) ∗ (loc d main_v4 ↦{fullShare} W main_v4) ∗ (loc d main_v5 ↦{fullShare} W main_v5) ∗ (loc d main_v6 ↦{fullShare} W main_v6) ∗ (loc d main_v7 ↦{fullShare} W main_v7) ∗ (loc d main_v8 ↦{fullShare} W main_v8) ∗ (loc d main_v9 ↦{fullShare} W main_v9) ∗ (loc d main_v10 ↦{fullShare} W main_v10) ∗ (loc d main_v11 ↦{fullShare} W main_v11) ∗ (loc d main_v12 ↦{fullShare} W main_v12) ∗ (loc d main_v13 ↦{fullShare} W main_v13)) := by
  unfold unscopedBufs
  rw [show (Finset.univ.filter fun b : Ref sig .tc => ¬ b.isScoped) = {main_arg0, main_arg1, main_arg2, main_v0, main_v1, main_v2, main_v3, main_v4, main_v5, main_v6, main_v7, main_v8, main_v9, main_v10, main_v11, main_v12, main_v13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- Before any call the TensorCore owes only at the calls' indices. -/
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- A region's recorded waits, all at the index of no call, keep the TensorCore's recorded pairs below any bound. -/
theorem wBelow_of_none {d : Dev nD} {W W' : Waits sig (HIx 2)} {b : ℕ} (hW : (K (F := F)).WBelow (T d) W b)
    (h : ∀ p ∈ W', p ∈ W ∨ p.2 = none) : (K (F := F)).WBelow (T d) W' b := by
  intro p hp
  rcases h p hp with h | h
  · exact hW p h
  · rw [show p = (p.1, p.2) from rfl, h, SparseCore.Cfg.lev_none]; exact Nat.zero_le _

/-- The staging cells' ghost state of the three pipelines on a device. -/
def G (d : Dev nD) : sProp (𝕄F F) :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)
    ∗ (Pipeline.cellsGhost (Pipeline.pin (pcfgs (F := F)) adm) EP 2 d ∗ Pipeline.toksInit (Pipeline.pin (pcfgs (F := F)) adm) EP 2 d))

end Cert.KernelIdeal.Hand

end
-- ==== Proof.Spec.lean ====
/-
  The functions the two programs are compared through, stated once over literal shapes and any float instance.

  A token id is a 32-bit word; `row w` is the table row it names (the word's value, reduced into the table's
  extent so that the function is total; under the precondition every id already lies below 1000000).
  `Gq` is the padded, transposed query lookup: entry (b, e, l) is column e of the table row named by token l of
  query b for the first 20 positions and zero for the 180 positions of padding. `Gd` is the transposed document
  lookup: entry (b, e, l) is column e of the row named by token l of document b.

  Between the arguments and the results stand arrays whose rows are 128 wide with only the first 64 columns
  determined (the table re-laid with a row per token id; the gathered rows): `Tab2OK`, `RowsOK` state what IS
  determined of them, and `T3`, `T4` are the two transposing kernels as whole-array functions, which read the
  first 64 columns only.
-/
import Idealize.ShloMosaic.PureOps
import Idealize.ShloMosaic.Lib.ValueIdx

noncomputable section

namespace Cert.Spec

open Idealize.ShloMosaic Idealize.ShloMosaic.ValueIdx

abbrev STab : Shape := ⟨2, ![1000000, 64]⟩
abbrev STab2 : Shape := ⟨2, ![1000000, 128]⟩
abbrev SQ : Shape := ⟨2, ![1024, 20]⟩
abbrev SD : Shape := ⟨2, ![1024, 200]⟩
abbrev SQR : Shape := ⟨2, ![20480, 128]⟩
abbrev SDR : Shape := ⟨2, ![204800, 128]⟩
abbrev SQ3 : Shape := ⟨3, ![1024, 20, 128]⟩
abbrev SD3 : Shape := ⟨3, ![1024, 200, 128]⟩
abbrev ST : Shape := ⟨3, ![64, 200, 1024]⟩
abbrev SOut : Shape := ⟨3, ![1024, 64, 200]⟩

variable {F : FTy → Type} [FloatOps F]

/-- The table row a token id names. -/
def row (w : BitVec 32) : Fin 1000000 := ⟨w.toNat % 1000000, Nat.mod_lt _ (by decide)⟩

theorem row_val_of_lt {w : BitVec 32} (h : w.toNat < 1000000) : (row w).val = w.toNat := Nat.mod_eq_of_lt h

/-- Column `e < 64` as a column of a 128-wide row. -/
def col (e : Fin 64) : Fin 128 := ⟨e.val, by omega⟩

/-- The float zero, as both programs spell it. -/
def zero : F .f32 := Scalar.ofBits .f32 0x00000000#32

/-- Entry (b, e, l) of the padded, transposed query lookup. -/
def gq (q : IVec SQ 32) (tab : FVec F STab .f32) (b : Fin 1024) (e : Fin 64) (l : Fin 200) : F .f32 :=
  if h : l.val < 20 then tab (ix2 (row (q (ix2 b ⟨l.val, h⟩))) e) else zero

def Gq (q : IVec SQ 32) (tab : FVec F STab .f32) : FVec F SOut .f32 := fun i => gq q tab (i 0) (i 1) (i 2)

/-- Entry (b, e, l) of the transposed document lookup. -/
def gd (d : IVec SD 32) (tab : FVec F STab .f32) (b : Fin 1024) (e : Fin 64) (l : Fin 200) : F .f32 :=
  tab (ix2 (row (d (ix2 b l))) e)

def Gd (d : IVec SD 32) (tab : FVec F STab .f32) : FVec F SOut .f32 := fun i => gd d tab (i 0) (i 1) (i 2)

/-- The re-laid table: row v holds table row v in its first 64 columns (the other 64 are not determined). -/
def Tab2OK (tab : FVec F STab .f32) (f : FVec F STab2 .f32) : Prop :=
  ∀ (v : Fin 1000000) (e : Fin 64), f (ix2 v (col e)) = tab (ix2 v e)

/-- The same, stated against the transposed table the host hands the re-laying kernel: row v, column e of the result is
    entry (e, v) of the transposed table. -/
def Tab2T (xt : FVec F (⟨2, ![64, 1000000]⟩ : Shape) .f32) (f : FVec F STab2 .f32) : Prop :=
  ∀ (v : Fin 1000000) (e : Fin 64), f (ix2 v (col e)) = xt (ix2 e v)

/-- Token r of the flattened queries (20 per query) and of the flattened documents (200 per document). -/
def qTok (q : IVec SQ 32) (r : Fin 20480) : BitVec 32 := q (ix2 ⟨r.val / 20, by omega⟩ ⟨r.val % 20, Nat.mod_lt _ (by decide)⟩)
def dTok (d : IVec SD 32) (r : Fin 204800) : BitVec 32 := d (ix2 ⟨r.val / 200, by omega⟩ ⟨r.val % 200, Nat.mod_lt _ (by decide)⟩)

/-- The gathered rows: row r holds, in its first 64 columns, the table row token r names. -/
def RowsOK {n : Nat} (tok : Fin n → BitVec 32) (tab : FVec F STab .f32) (g : FVec F (⟨2, ![n, 128]⟩ : Shape) .f32) : Prop :=
  ∀ (r : Fin n) (e : Fin 64), g (ix2 r (col e)) = tab (ix2 (row (tok r)) e)

/-- The query transposing kernel as a whole-array function: (e, l, b) ↦ x (b, l, e) for l < 20, zero beyond. -/
def t3 (x : FVec F SQ3 .f32) (e : Fin 64) (l : Fin 200) (b : Fin 1024) : F .f32 :=
  if h : l.val < 20 then x (ix3 b ⟨l.val, h⟩ (col e)) else zero
def T3 (x : FVec F SQ3 .f32) : FVec F ST .f32 := fun i => t3 x (i 0) (i 1) (i 2)

/-- The document transposing kernel as a whole-array function: (e, l, b) ↦ x (b, l, e). -/
def T4 (x : FVec F SD3 .f32) : FVec F ST .f32 := fun i => x (ix3 (i 2) (i 1) (col (i 0)))

end Cert.Spec

end
-- ==== Proof.Idx.lean ====
/-
  The index arrays the two SparseCore kernels read: @main reshapes the queries [1024, 20] to a flat list of 20480
  tokens and that to [32, 10, 64] (worker, window, position); the documents [1024, 200] to 204800 tokens and to
  [32, 50, 128]. Entry (w, r, j) is token w·640 + r·64 + j of the flattened queries (w·6400 + r·128 + j of the
  flattened documents): a reshape keeps the row-major position.
-/
import proofs.«218768_g80616536146796_cont_9to1c4b_775_25_alg».proof.Proof.Common
import proofs.«218768_g80616536146796_cont_9to1c4b_775_25_alg».proof.Proof.Spec
import Idealize.ShloMosaic.Lib.Pipeline.Value

noncomputable section

namespace Cert.KernelIdeal.Hand

open Cert.KernelIdeal Cert.KernelIdeal.Gen
open Idealize.ShloMosaic Idealize.ShloMosaic.ValueIdx
open Idealize.SL.Sem

variable {F : FTy → Type} [FloatOps F]

variable (m : (ℓ : Loc nD τ sig) → Buf (Elt F) ℓ)

/-- What @main's two reshapes leave in the queries' index array. -/
def idx3 (d : Dev nD) : Buf (Elt F) (loc d main_v3) :=
  shapeCast S32x10x64 (shapeCast S20480 (m (loc d main_arg0)) Facts₀.shapeCasts_S1024x20_S20480) Facts₀.shapeCasts_S20480_S32x10x64

/-- What they leave in the documents' index array. -/
def idx6 (d : Dev nD) : Buf (Elt F) (loc d main_v6) :=
  shapeCast S32x50x128 (shapeCast S204800 (m (loc d main_arg1)) Facts₀.shapeCasts_S1024x200_S204800) Facts₀.shapeCasts_S204800_S32x50x128

theorem idx3_apply (d : Dev nD) (w : Fin 32) (r : Fin 10) (j : Fin 64) :
    idx3 m d (ix3 w r j) = Cert.Spec.qTok (m (loc d main_arg0)) ⟨w.val * 640 + r.val * 64 + j.val, by omega⟩ := by
  unfold idx3 Cert.Spec.qTok
  have hlt : w.val * 640 + r.val * 64 + j.val < 20480 := by omega
  rw [shapeCast_apply _ Facts₀.shapeCasts_S20480_S32x10x64 (ix3 w r j : S32x10x64.Idx) (ix1 ⟨w.val * 640 + r.val * 64 + j.val, hlt⟩ : S20480.Idx)
    (by rw [Shape.rowMajor_val_one, Shape.rowMajor_val_three]; show w.val * 640 + r.val * 64 + j.val = (w.val * 10 + r.val) * 64 + j.val; omega)]
  rw [shapeCast_apply _ Facts₀.shapeCasts_S1024x20_S20480 (ix1 ⟨w.val * 640 + r.val * 64 + j.val, hlt⟩ : S20480.Idx)
    (ix2 ⟨(w.val * 640 + r.val * 64 + j.val) / 20, by omega⟩ ⟨(w.val * 640 + r.val * 64 + j.val) % 20, Nat.mod_lt _ (by decide)⟩ : S1024x20.Idx)
    (by rw [Shape.rowMajor_val_one, Shape.rowMajor_val_two]; show (w.val * 640 + r.val * 64 + j.val) / 20 * 20 + (w.val * 640 + r.val * 64 + j.val) % 20 = w.val * 640 + r.val * 64 + j.val; omega)]

theorem idx6_apply (d : Dev nD) (w : Fin 32) (r : Fin 50) (j : Fin 128) :
    idx6 m d (ix3 w r j) = Cert.Spec.dTok (m (loc d main_arg1)) ⟨w.val * 6400 + r.val * 128 + j.val, by omega⟩ := by
  unfold idx6 Cert.Spec.dTok
  have hlt : w.val * 6400 + r.val * 128 + j.val < 204800 := by omega
  rw [shapeCast_apply _ Facts₀.shapeCasts_S204800_S32x50x128 (ix3 w r j : S32x50x128.Idx) (ix1 ⟨w.val * 6400 + r.val * 128 + j.val, hlt⟩ : S204800.Idx)
    (by rw [Shape.rowMajor_val_one, Shape.rowMajor_val_three]; show w.val * 6400 + r.val * 128 + j.val = (w.val * 50 + r.val) * 128 + j.val; omega)]
  rw [shapeCast_apply _ Facts₀.shapeCasts_S1024x200_S204800 (ix1 ⟨w.val * 6400 + r.val * 128 + j.val, hlt⟩ : S204800.Idx)
    (ix2 ⟨(w.val * 6400 + r.val * 128 + j.val) / 200, by omega⟩ ⟨(w.val * 6400 + r.val * 128 + j.val) % 200, Nat.mod_lt _ (by decide)⟩ : S1024x200.Idx)
    (by rw [Shape.rowMajor_val_one, Shape.rowMajor_val_two]; show (w.val * 6400 + r.val * 128 + j.val) / 200 * 200 + (w.val * 6400 + r.val * 128 + j.val) % 200 = w.val * 6400 + r.val * 128 + j.val; omega)]

end Cert.KernelIdeal.Hand

end
-- ==== Proof.ScPay.lean ====
/-
  What the handshakes of the two SparseCore calls carry.

  Both calls gather rows of the re-laid table (main_v1, a row per token id, 128 wide with only the first 64 columns
  determined) named by an index array (main_v3 for the queries, main_v6 for the documents; worker w's index rows are
  row w of the array) into an output of 128-wide rows (main_v4, main_v7). Worker w = subcore * 2 + core writes the
  rows of its own windows: rows [w * 640, w * 640 + 640) of main_v4, rows [w * 6400, w * 6400 + 6400) of main_v7.

  The table and the index array are only read: every SparseCore, and within it every vector subcore, is handed a
  read share of the WHOLE array. The two SparseCores' shares are the two halves of the full share; a SparseCore's
  sixteen subcores are handed the sixteen read tokens of its half (what remains of the half stays with the split).
  The table's contents are not a function of the launch memory (its columns 64..127 are arbitrary), so they travel
  under an existential, with the fact that its first 64 columns are the embedding table's. The index arrays hold
  what the host's two reshapes compute from the token ids.

  The output rows travel at full share, a piece per worker: going out at any contents, coming back at contents whose
  first 64 columns are the table rows the worker's tokens name.
-/
import proofs.«218768_g80616536146796_cont_9to1c4b_775_25_alg».proof.Proof.Common
import proofs.«218768_g80616536146796_cont_9to1c4b_775_25_alg».proof.Proof.Spec
import proofs.«218768_g80616536146796_cont_9to1c4b_775_25_alg».proof.Proof.Idx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The shares -/

/-- SparseCore c's read share of an array every SparseCore reads whole: the two halves of the full share. -/
def cSh (c : ℕ) : PosShare TreeShare := if c = 0 then fullShare.left else fullShare.right

theorem cSh_zero : cSh 0 = fullShare.left := if_pos rfl
theorem cSh_one : cSh 1 = fullShare.right := if_neg Nat.one_ne_zero

/-- Subcore i's read share within SparseCore c's: the i-th read token of the SparseCore's half. -/
def tSh (c i : ℕ) : PosShare TreeShare := Transfers.shareTokN (cSh c) i

theorem tSh_eq (c : ℕ) (i : Fin 16) : tSh c i.val = Transfers.shareTok (cSh c) 16 i := rfl

/-! ## The rows a worker writes -/

/-- Rows [off, off + len) of an array of 128-wide rows. -/
def rowsOf (n off len : ℕ) : Finset (⟨2, ![n, 128]⟩ : Shape).Idx :=
  Finset.univ.filter fun x => off ≤ (x 0).val ∧ (x 0).val < off + len

theorem mem_rowsOf {n off len : ℕ} {x : (⟨2, ![n, 128]⟩ : Shape).Idx} :
    x ∈ rowsOf n off len ↔ off ≤ (x 0).val ∧ (x 0).val < off + len := by
  unfold rowsOf; simp only [Finset.mem_filter, Finset.mem_univ, true_and]

/-- The worker that runs on subcore i of SparseCore c. -/
def wid (c i : ℕ) : ℕ := i * 2 + c

/-- The rows of main_v4 (64-row windows, 10 per worker) and of main_v7 (128-row windows, 50 per worker) worker
    (c, i) writes. -/
def task0 (c i : ℕ) : Finset (⟨2, ![20480, 128]⟩ : Shape).Idx := rowsOf 20480 (wid c i * 640) 640
def task1 (c i : ℕ) : Finset (⟨2, ![204800, 128]⟩ : Shape).Idx := rowsOf 204800 (wid c i * 6400) 6400

variable (m : (ℓ : Loc nD τ sig) → Buf (Elt F) ℓ)

variable [FloatOps F]

/-! ## What a worker's output rows hold when it is done -/

/-- Rows [off, off + len) of g hold, in their first 64 columns, the table rows the tokens name. -/
def RowsDone {n : ℕ} (tok : Fin n → BitVec 32) (tab : FVec F Cert.Spec.STab .f32) (off len : ℕ)
    (g : FVec F (⟨2, ![n, 128]⟩ : Shape) .f32) : Prop :=
  ∀ (r : Fin n) (e : Fin 64), off ≤ r.val → r.val < off + len → g (ix2 r (Cert.Spec.col e)) = tab (ix2 (Cert.Spec.row (tok r)) e)

/-! ## The payloads -/

/-- A read share of the re-laid table at some contents whose first 64 columns are the embedding table's. -/
def tabAt (d : Dev nD) (q : PosShare TreeShare) : sProp (𝕄F F) :=
  iprop(∃ f : Buf (Elt F) (loc d main_v1), ⌜Cert.Spec.Tab2OK (m (loc d main_arg2)) f⌝ ∗ (loc d main_v1 ↦{q} f))

/-- Call 0: the table and main_v3 at a read share; the worker's rows of main_v4. -/
def go0 (d : Dev nD) (c i : ℕ) : sProp (𝕄F F) :=
  iprop(tabAt m d (tSh c i) ∗ (loc d main_v3 ↦{tSh c i} idx3 m d)
    ∗ ∃ g : Buf (Elt F) (loc d main_v4), (loc d main_v4 ↦[task0 c i]{fullShare} g))
def td0 (d : Dev nD) (c i : ℕ) : sProp (𝕄F F) :=
  iprop(tabAt m d (tSh c i) ∗ (loc d main_v3 ↦{tSh c i} idx3 m d)
    ∗ ∃ g : Buf (Elt F) (loc d main_v4), ⌜RowsDone (Cert.Spec.qTok (m (loc d main_arg0))) (m (loc d main_arg2)) (wid c i * 640) 640 g⌝
        ∗ (loc d main_v4 ↦[task0 c i]{fullShare} g))
def st0 (d : Dev nD) (c : ℕ) : sProp (𝕄F F) :=
  iprop(tabAt m d (cSh c) ∗ (loc d main_v3 ↦{cSh c} idx3 m d)
    ∗ bigSep Finset.univ fun i : Fin 16 => iprop(∃ g : Buf (Elt F) (loc d main_v4), (loc d main_v4 ↦[task0 c i.val]{fullShare} g)))
def dn0 (d : Dev nD) (c : ℕ) : sProp (𝕄F F) :=
  iprop(tabAt m d (cSh c) ∗ (loc d main_v3 ↦{cSh c} idx3 m d)
    ∗ bigSep Finset.univ fun i : Fin 16 => iprop(∃ g : Buf (Elt F) (loc d main_v4),
        ⌜RowsDone (Cert.Spec.qTok (m (loc d main_arg0))) (m (loc d main_arg2)) (wid c i.val * 640) 640 g⌝ ∗ (loc d main_v4 ↦[task0 c i.val]{fullShare} g)))

/-- Call 1: the table and main_v6 at a read share; the worker's rows of main_v7. -/
def go1 (d : Dev nD) (c i : ℕ) : sProp (𝕄F F) :=
  iprop(tabAt m d (tSh c i) ∗ (loc d main_v6 ↦{tSh c i} idx6 m d)
    ∗ ∃ g : Buf (Elt F) (loc d main_v7), (loc d main_v7 ↦[task1 c i]{fullShare} g))
def td1 (d : Dev nD) (c i : ℕ) : sProp (𝕄F F) :=
  iprop(tabAt m d (tSh c i) ∗ (loc d main_v6 ↦{tSh c i} idx6 m d)
    ∗ ∃ g : Buf (Elt F) (loc d main_v7), ⌜RowsDone (Cert.Spec.dTok (m (loc d main_arg1))) (m (loc d main_arg2)) (wid c i * 6400) 6400 g⌝
        ∗ (loc d main_v7 ↦[task1 c i]{fullShare} g))
def st1 (d : Dev nD) (c : ℕ) : sProp (𝕄F F) :=
  iprop(tabAt m d (cSh c) ∗ (loc d main_v6 ↦{cSh c} idx6 m d)
    ∗ bigSep Finset.univ fun i : Fin 16 => iprop(∃ g : Buf (Elt F) (loc d main_v7), (loc d main_v7 ↦[task1 c i.val]{fullShare} g)))
def dn1 (d : Dev nD) (c : ℕ) : sProp (𝕄F F) :=
  iprop(tabAt m d (cSh c) ∗ (loc d main_v6 ↦{cSh c} idx6 m d)
    ∗ bigSep Finset.univ fun i : Fin 16 => iprop(∃ g : Buf (Elt F) (loc d main_v7),
        ⌜RowsDone (Cert.Spec.dTok (m (loc d main_arg1))) (m (loc d main_arg2)) (wid c i.val * 6400) 6400 g⌝ ∗ (loc d main_v7 ↦[task1 c i.val]{fullShare} g)))

instance tabAt_storable (d : Dev nD) (q : PosShare TreeShare) : BI.Storable (upEmb : UEmb _ (𝕄F F)) (tabAt m d q) := by
  unfold tabAt; infer_instance
instance go0_storable (d : Dev nD) (c i : ℕ) : BI.Storable (upEmb : UEmb _ (𝕄F F)) (go0 m d c i) := by unfold go0; infer_instance
instance td0_storable (d : Dev nD) (c i : ℕ) : BI.Storable (upEmb : UEmb _ (𝕄F F)) (td0 m d c i) := by unfold td0; infer_instance
instance st0_storable (d : Dev nD) (c : ℕ) : BI.Storable (upEmb : UEmb _ (𝕄F F)) (st0 m d c) := by unfold st0; infer_instance
instance dn0_storable (d : Dev nD) (c : ℕ) : BI.Storable (upEmb : UEmb _ (𝕄F F)) (dn0 m d c) := by unfold dn0; infer_instance
instance go1_storable (d : Dev nD) (c i : ℕ) : BI.Storable (upEmb : UEmb _ (𝕄F F)) (go1 m d c i) := by unfold go1; infer_instance
instance td1_storable (d : Dev nD) (c i : ℕ) : BI.Storable (upEmb : UEmb _ (𝕄F F)) (td1 m d c i) := by unfold td1; infer_instance
instance st1_storable (d : Dev nD) (c : ℕ) : BI.Storable (upEmb : UEmb _ (𝕄F F)) (st1 m d c) := by unfold st1; infer_instance
instance dn1_storable (d : Dev nD) (c : ℕ) : BI.Storable (upEmb : UEmb _ (𝕄F F)) (dn1 m d c) := by unfold dn1; infer_instance

/-- What the two calls' handshakes carry: call 0 the query lookup's arrays, call 1 the document lookup's. Neither kernel
    signals any thread but through its own copies: nothing of the launch's beyond the handshakes. -/
def P : (K (F := F)).Pay (nD := nD) (Val := Elt F) (Name := ℕ) (U := UU) where
  st := fun q d c => match q.val with | 0 => st0 m d c.val | _ => st1 m d c.val
  dn := fun q d c => match q.val with | 0 => dn0 m d c.val | _ => dn1 m d c.val
  go := fun q d c i => match q.val with | 0 => go0 m d c.val i.val | _ => go1 m d c.val i.val
  td := fun q d c i => match q.val with | 0 => td0 m d c.val i.val | _ => td1 m d c.val i.val
  x := fun _ _ => iprop(emp)

theorem P_st0 (d : Dev nD) (c : Fin ((K (F := F)).nCore 0)) : (P m).st 0 d c = st0 m d c.val := rfl
theorem P_st1 (d : Dev nD) (c : Fin ((K (F := F)).nCore 1)) : (P m).st 1 d c = st1 m d c.val := rfl
theorem P_dn0 (d : Dev nD) (c : Fin ((K (F := F)).nCore 0)) : (P m).dn 0 d c = dn0 m d c.val := rfl
theorem P_dn1 (d : Dev nD) (c : Fin ((K (F := F)).nCore 1)) : (P m).dn 1 d c = dn1 m d c.val := rfl
theorem P_go0 (d : Dev nD) (c : Fin ((K (F := F)).nCore 0)) (i : Fin ((K (F := F)).nSub 0)) : (P m).go 0 d c i = go0 m d c.val i.val := rfl
theorem P_go1 (d : Dev nD) (c : Fin ((K (F := F)).nCore 1)) (i : Fin ((K (F := F)).nSub 1)) : (P m).go 1 d c i = go1 m d c.val i.val := rfl
theorem P_td0 (d : Dev nD) (c : Fin ((K (F := F)).nCore 0)) (i : Fin ((K (F := F)).nSub 0)) : (P m).td 0 d c i = td0 m d c.val i.val := rfl
theorem P_td1 (d : Dev nD) (c : Fin ((K (F := F)).nCore 1)) (i : Fin ((K (F := F)).nSub 1)) : (P m).td 1 d c i = td1 m d c.val i.val := rfl
theorem P_x (q : Fin 2) (thr : Thread nD τ) : (P m).x q thr = iprop(emp) := rfl
theorem P_ox : (P m).ox = fun _ _ => 0 := rfl

instance P_storable : (P (F := F) m).IsStorable where
  st q d c := by unfold P; dsimp only; split <;> infer_instance
  dn q d c := by unfold P; dsimp only; split <;> infer_instance
  go q d c i := by unfold P; dsimp only; split <;> infer_instance
  td q d c i := by unfold P; dsimp only; split <;> infer_instance

end Cert.KernelIdeal.Hand

end
-- ==== Proof.LaunchElem.lean ====
/-
  The launch element: the handshakes' rounds go to the launch theorem, the staging cells' rounds fund the three
  pipelines' ghost state on every device, the transfers' counters are dropped (local copies and their waits need no
  schedule), and no kernel's proof consumes anything of the launch's.
-/
import proofs.«218768_g80616536146796_cont_9to1c4b_775_25_alg».proof.Proof.LaunchBase
import proofs.«218768_g80616536146796_cont_9to1c4b_775_25_alg».proof.Proof.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp (𝕄F F)) := bigSep_emp_const s

/-- A device's share of the funded ghost state is its three pipelines'. -/
theorem G_of (d : Dev nD) :
    iprop((bigSep Finset.univ fun p : Fin 3 => Pipeline.cellsGhost (Pipeline.pin (pcfgs (F := F)) adm) EP p d)
        ∗ (bigSep Finset.univ fun p : Fin 3 => (Pipeline.toksInit (Pipeline.pin (pcfgs (F := F)) adm) EP p d : sProp (𝕄F F))))
      ⊢ G (F := F) d := by
  rw [show (Finset.univ : Finset (Fin 3)) = {0, 1, 2} by decide, SparseCore.bigSep_insert' (by decide), SparseCore.bigSep_insert' (by decide),
    bigSep_singleton, SparseCore.bigSep_insert' (by decide), SparseCore.bigSep_insert' (by decide), bigSep_singleton]
  unfold G
  iintro ⟨⟨Hc0, Hc1, Hc2⟩, Ht0, Ht1, Ht2⟩
  isplitl [Hc0 Ht0]; · isplitl [Hc0] <;> iassumption
  isplitl [Hc1 Ht1]; · isplitl [Hc1] <;> iassumption
  isplitl [Hc2] <;> iassumption

omit [FloatOps F] in
theorem own_EP (x : UP) :
    (BI.own ((Emb.inl : Emb UP (UP × Counters)).trans (embR : Emb (UP × Counters) (𝕄F F)) x) : sProp (𝕄F F)) ⊢ BI.own (EP (F := F) x) := by
  unfold EP; exact .rfl

theorem hu₀ : iprop(ownU (u₀ (F := F)) ∗ (P m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (P m).x q thr) := by
  unfold u₀
  iintro ⟨Hu, -, -⟩
  ihave H := (ownU_pair _ _) $$ Hu
  icases H with ⟨HH, HR⟩
  ihave H2 := (own_pair_emb (embR : Emb (UP × Counters) (𝕄F F)) _ _) $$ HR
  icases H2 with ⟨HP, -⟩
  ihave HP := (own_EP (F := F) _) $$ HP
  imod (Pipeline.fund_ghost (Pipeline.pin (pcfgs (F := F)) adm) (EP (F := F)) cellOf_inj) $$ HP with ⟨Hc, Ht⟩
  imodintro
  isplitl [HH]; · iexact HH
  isplitl [Hc Ht]
  · ihave Hct := (Entails.of_eq (bigSep_sep' (Finset.univ : Finset (Dev nD))
        (fun c => bigSep Finset.univ fun p : Fin 3 => Pipeline.cellsGhost (Pipeline.pin (pcfgs (F := F)) adm) EP p c)
        (fun c => bigSep Finset.univ fun p : Fin 3 => (Pipeline.toksInit (Pipeline.pin (pcfgs (F := F)) adm) EP p c : sProp (𝕄F F)))).symm) $$ [Hc Ht]
    · isplitl [Hc] <;> iassumption
    have hmono : (bigSep (Finset.univ : Finset (Dev nD)) fun c => iprop((bigSep Finset.univ fun p : Fin 3 => Pipeline.cellsGhost (Pipeline.pin (pcfgs (F := F)) adm) EP p c)
          ∗ (bigSep Finset.univ fun p : Fin 3 => (Pipeline.toksInit (Pipeline.pin (pcfgs (F := F)) adm) EP p c : sProp (𝕄F F)))))
        ⊢ bigSep Finset.univ (G (F := F)) := bigSep_mono fun d _ => G_of (F := F) d
    iapply hmono; iexact Hct
  rw [bigSep_congr fun (thr : Thread nD τ) _ => bigSep_congr fun (q : Fin 2) _ => P_x (F := F) m q thr,
    bigSep_congr fun _ _ => bigSep_emp' _, bigSep_emp']
  iempintro

end Cert.KernelIdeal.Hand

end
-- ==== Proof.Value.lean ====
/-
  The value bridge on the kernel's side, for every float instance: gathered rows whose first 64 columns hold the
  table rows their tokens name, regrouped per query (or document), transposed by the transposing kernels' whole-array
  functions and by the host's final transposition, are the specification's lookups. Pure re-indexing: entry (b, e, l)
  of the result is entry (e, l, b) of the kernel's array, which is entry (b, l, e) of the regrouped rows, which is
  column e of gathered row b·20 + l (b·200 + l for documents).
-/
import proofs.«218768_g80616536146796_cont_9to1c4b_775_25_alg».proof.Proof.Spec
import Idealize.ShloMosaic.Lib.Pipeline.Value

noncomputable section

namespace Cert.Spec

open Idealize.ShloMosaic Idealize.ShloMosaic.ValueIdx

variable {F : FTy → Type} [FloatOps F]

theorem q_value (q : IVec SQ 32) (tab : FVec F STab .f32) (g : FVec F SQR .f32) (hg : RowsOK (qTok q) tab g)
    (hn : SQR.ShapeCasts SQ3) (ht : ST.Transposes [2, 0, 1] SOut) :
    transpose SOut [2, 0, 1] (T3 (shapeCast SQ3 g hn)) ht = Gq q tab := by
  funext i
  obtain ⟨b, e, l, rfl⟩ : ∃ (b : Fin 1024) (e : Fin 64) (l : Fin 200), i = ix3 b e l := ⟨i 0, i 1, i 2, eq_ix3 i⟩
  rw [transpose_apply [2, 0, 1] _ ht (ix3 b e l) (ix3 e l b : ST.Idx)
    (fun c => match c with | ⟨0, _⟩ => rfl | ⟨1, _⟩ => rfl | ⟨2, _⟩ => rfl)]
  show t3 (shapeCast SQ3 g hn) e l b = gq q tab b e l
  unfold t3 gq
  by_cases h : l.val < 20
  · rw [dif_pos h, dif_pos h]
    have hr : b.val * 20 + l.val < 20480 := by have := b.isLt; omega
    rw [shapeCast_apply g hn (ix3 b ⟨l.val, h⟩ (col e) : SQ3.Idx) (ix2 ⟨b.val * 20 + l.val, hr⟩ (col e) : SQR.Idx)
      (by rw [Shape.rowMajor_val_two, Shape.rowMajor_val_three]; rfl)]
    rw [hg ⟨b.val * 20 + l.val, hr⟩ e]
    congr 3
    unfold qTok
    congr 1
    funext a
    match a with
    | ⟨0, _⟩ => exact Fin.ext (show (b.val * 20 + l.val) / 20 = b.val by omega)
    | ⟨1, _⟩ => exact Fin.ext (show (b.val * 20 + l.val) % 20 = l.val by omega)
  · rw [dif_neg h, dif_neg h]

theorem d_value (d : IVec SD 32) (tab : FVec F STab .f32) (g : FVec F SDR .f32) (hg : RowsOK (dTok d) tab g)
    (hn : SDR.ShapeCasts SD3) (ht : ST.Transposes [2, 0, 1] SOut) :
    transpose SOut [2, 0, 1] (T4 (shapeCast SD3 g hn)) ht = Gd d tab := by
  funext i
  obtain ⟨b, e, l, rfl⟩ : ∃ (b : Fin 1024) (e : Fin 64) (l : Fin 200), i = ix3 b e l := ⟨i 0, i 1, i 2, eq_ix3 i⟩
  rw [transpose_apply [2, 0, 1] _ ht (ix3 b e l) (ix3 e l b : ST.Idx)
    (fun c => match c with | ⟨0, _⟩ => rfl | ⟨1, _⟩ => rfl | ⟨2, _⟩ => rfl)]
  show shapeCast SD3 g hn (ix3 b l (col e)) = gd d tab b e l
  unfold gd
  have hr : b.val * 200 + l.val < 204800 := by have := b.isLt; have := l.isLt; omega
  rw [shapeCast_apply g hn (ix3 b l (col e) : SD3.Idx) (ix2 ⟨b.val * 200 + l.val, hr⟩ (col e) : SDR.Idx)
    (by rw [Shape.rowMajor_val_two, Shape.rowMajor_val_three]; rfl)]
  rw [hg ⟨b.val * 200 + l.val, hr⟩ e]
  congr 3
  unfold dTok
  congr 1
  funext a
  match a with
  | ⟨0, _⟩ => exact Fin.ext (show (b.val * 200 + l.val) / 200 = b.val by have := l.isLt; omega)
  | ⟨1, _⟩ => exact Fin.ext (show (b.val * 200 + l.val) % 200 = l.val by have := l.isLt; omega)

end Cert.Spec

end
-- ==== Proof.LaunchMain.lean ====
/-
  @main on the TensorCore, step by step: the host transposes the table; pipeline 0 re-lays it with a row per token
  id (its first 64 columns determined); the token arrays are reshaped per worker; each SparseCore call gathers the
  rows its tokens name; the gathered rows are regrouped per query or document and transposed by pipelines 1 and 2;
  the host's last transpositions give the results, which are the specification's lookups by pure re-indexing.
  The pipelines' steps and the SparseCore calls' hand-overs enter as the statements their own modules prove.
-/
import proofs.«218768_g80616536146796_cont_9to1c4b_775_25_alg».proof.Proof.LaunchElem
import proofs.«218768_g80616536146796_cont_9to1c4b_775_25_alg».proof.Proof.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The statement pipeline 0's region step is taken at. -/
def Region0 (F : FTy → Type) [FloatOps F] : Prop :=
  ∀ (d : Dev nD) (x : Buf (Elt F) (loc d main_v0)) (O : CellTallies nD τ sig (HIx 2)) (W : Waits sig (HIx 2)) (_ : ∀ g, O g none = 0) (Q : PUnit → sProp (𝕄F F)),
    iprop((iprop(boundary (T d) ∗ (loc d main_v0 ↦{fullShare} x) ∗ (∃ y, ⌜Cert.Spec.Tab2T (F := F) x y⌝ ∗ loc d main_v1 ↦{fullShare} y) ∗ ∃ W', ⌜∀ p ∈ W', p ∈ W ∨ p.2 = none⌝ ∗ owes (T d) O W') -∗ Q ⟨⟩)
        ∗ boundary (T d) ∗ (loc d main_v0 ↦{fullShare} x) ∗ (∃ y, loc d main_v1 ↦{fullShare} y) ∗ owes (T d) O W ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.lift (.customCall (Pipeline.entry 0) ())) Q

/-- The statement pipeline 1's region step is taken at. -/
def Region1 (F : FTy → Type) [FloatOps F] : Prop :=
  ∀ (d : Dev nD) (x : Buf (Elt F) (loc d main_v8)) (O : CellTallies nD τ sig (HIx 2)) (W : Waits sig (HIx 2)) (_ : ∀ g, O g none = 0) (Q : PUnit → sProp (𝕄F F)),
    iprop((iprop(boundary (T d) ∗ (loc d main_v8 ↦{fullShare} x) ∗ (loc d main_v9 ↦{fullShare} (Cert.Spec.T3 (F := F) x)) ∗ ∃ W', ⌜∀ p ∈ W', p ∈ W ∨ p.2 = none⌝ ∗ owes (T d) O W') -∗ Q ⟨⟩)
        ∗ boundary (T d) ∗ (loc d main_v8 ↦{fullShare} x) ∗ (∃ y, loc d main_v9 ↦{fullShare} y) ∗ owes (T d) O W ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.lift (.customCall (Pipeline.entry 1) ())) Q

/-- The statement pipeline 2's region step is taken at. -/
def Region2 (F : FTy → Type) [FloatOps F] : Prop :=
  ∀ (d : Dev nD) (x : Buf (Elt F) (loc d main_v10)) (O : CellTallies nD τ sig (HIx 2)) (W : Waits sig (HIx 2)) (_ : ∀ g, O g none = 0) (Q : PUnit → sProp (𝕄F F)),
    iprop((iprop(boundary (T d) ∗ (loc d main_v10 ↦{fullShare} x) ∗ (loc d main_v11 ↦{fullShare} (Cert.Spec.T4 (F := F) x)) ∗ ∃ W', ⌜∀ p ∈ W', p ∈ W ∨ p.2 = none⌝ ∗ owes (T d) O W') -∗ Q ⟨⟩)
        ∗ boundary (T d) ∗ (loc d main_v10 ↦{fullShare} x) ∗ (∃ y, loc d main_v11 ↦{fullShare} y) ∗ owes (T d) O W ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE (D (F := F)) 𝒱 (T d) none) Set.univ (Prog.lift (.customCall (Pipeline.entry 2) ())) Q

variable (m : (ℓ : Loc nD τ sig) → Buf (Elt F) ℓ) (ρ : Dev nD → PrngReg)

/-- The statements the SparseCore calls' hand-overs are taken at. -/
def StIntro0 : Prop := ∀ (d : Dev nD) (f : Buf (Elt F) (loc d main_v1)) (_ : Cert.Spec.Tab2OK (m (loc d main_arg2)) f),
    iprop((loc d main_v1 ↦{fullShare} f) ∗ (loc d main_v3 ↦{fullShare} idx3 m d) ∗ ∃ g, loc d main_v4 ↦{fullShare} g)
      ⊢ bigSep Finset.univ fun c : Fin ((K (F := F)).nCore 0) => (P m).st 0 d c
def DnElim0 : Prop := ∀ (d : Dev nD), (bigSep Finset.univ fun c : Fin ((K (F := F)).nCore 0) => (P m).dn 0 d c)
      ⊢ iprop(∃ f g, ⌜Cert.Spec.Tab2OK (m (loc d main_arg2)) f ∧ Cert.Spec.RowsOK (Cert.Spec.qTok (m (loc d main_arg0))) (m (loc d main_arg2)) g⌝
          ∗ (loc d main_v1 ↦{fullShare} f) ∗ (loc d main_v3 ↦{fullShare} idx3 m d) ∗ (loc d main_v4 ↦{fullShare} g))
def StIntro1 : Prop := ∀ (d : Dev nD) (f : Buf (Elt F) (loc d main_v1)) (_ : Cert.Spec.Tab2OK (m (loc d main_arg2)) f),
    iprop((loc d main_v1 ↦{fullShare} f) ∗ (loc d main_v6 ↦{fullShare} idx6 m d) ∗ ∃ g, loc d main_v7 ↦{fullShare} g)
      ⊢ bigSep Finset.univ fun c : Fin ((K (F := F)).nCore 1) => (P m).st 1 d c
def DnElim1 : Prop := ∀ (d : Dev nD), (bigSep Finset.univ fun c : Fin ((K (F := F)).nCore 1) => (P m).dn 1 d c)
      ⊢ iprop(∃ f g, ⌜Cert.Spec.Tab2OK (m (loc d main_arg2)) f ∧ Cert.Spec.RowsOK (Cert.Spec.dTok (m (loc d main_arg1))) (m (loc d main_arg2)) g⌝
          ∗ (loc d main_v1 ↦{fullShare} f) ∗ (loc d main_v6 ↦{fullShare} idx6 m d) ∗ (loc d main_v7 ↦{fullShare} g))

/-- The TensorCore's handshake state before call `n` but what it owes. -/
def tcRest (d : Dev nD) (n : ℕ) : sProp (𝕄F F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 2) n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_eq (d : Dev nD) (n : ℕ) :
    ((K (F := F)).tcSt EH d n : sProp (𝕄F F))
      = iprop((∃ W, ⌜(K (F := F)).WBelow (T d) W (8 * n)⌝ ∗ owes (T d) ((K (F := F)).Otc d n) W) ∗ tcRest (F := F) d n) := rfl

/-- What @main leaves the claim: the two results at the specification's lookups, the arguments as launched. -/
def FIN (d : Dev nD) : sProp (𝕄F F) :=
  iprop((loc d main_v12 ↦{fullShare} Cert.Spec.Gq (F := F) (m (loc d main_arg0)) (m (loc d main_arg2)))
    ∗ (loc d main_v13 ↦{fullShare} Cert.Spec.Gd (F := F) (m (loc d main_arg1)) (m (loc d main_arg2)))
    ∗ (loc d main_arg0 ↦{fullShare} m (loc d main_arg0)) ∗ (loc d main_arg1 ↦{fullShare} m (loc d main_arg1)) ∗ (loc d main_arg2 ↦{fullShare} m (loc d main_arg2)))

/-- The host's transposition of the table makes pipeline 0's result the re-laid table. -/
theorem tab2OK_of_T (tab : FVec F Cert.Spec.STab .f32) (h : Cert.Spec.STab.Transposes [1, 0] (⟨2, ![64, 1000000]⟩ : Shape))
    (y : FVec F Cert.Spec.STab2 .f32) (hy : Cert.Spec.Tab2T (transpose (⟨2, ![64, 1000000]⟩ : Shape) [1, 0] tab h) y) : Cert.Spec.Tab2OK tab y := by
  intro v e
  rw [hy v e]
  exact transpose_apply [1, 0] tab h (ValueIdx.ix2 e v) (ValueIdx.ix2 v e) (fun c => match c with | ⟨0, _⟩ => rfl | ⟨1, _⟩ => rfl)

theorem hmain [∀ e, Nonempty (Elt F e)] (R0 : Region0 F) (R1 : Region1 F) (R2 : Region2 F)
    (hst0 : StIntro0 m) (hdn0 : DnElim0 m) (hst1 : StIntro1 m) (hdn1 : DnElim1 m)
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 2 ∗ FIN m d) := by
  unfold SparseCore.Cfg.tcRes G
  rw [unscopedBufs_eq]
  simp only [main, wp_bind, wp_pure]
  iintro ⟨#Hctx, Hst, ⟨Hb, ⟨A0, A1, A2, V0, V1, V2, V3, V4, V5, V6, V7, V8, V9, V10, V11, V12, V13⟩, -, -⟩, ⟨G0c, G0t⟩, ⟨G1c, G1t⟩, G2c, G2t⟩
  -- main_v0 from main_arg2
  iapply (wp_unary d main_arg2 main_v0 (by decide) _ _ _ _ _)
  isplitl [Hb]; · iexact Hb
  isplitl [A2]; · iexact A2
  isplitl [V0]; · iexact V0
  iintro ⟨Hb, A2, V0⟩

  -- the pipeline region 0
  ihave Hst' := (Entails.of_eq (tcSt_eq (F := F) d 0)) $$ Hst
  icases Hst' with ⟨⟨%W0, %hW0, HO⟩, Hrest⟩
  ihave Hlev := (SparseCore.Cfg.ctx_levAts κ) $$ Hctx
  iapply ((K (F := F)).wp_liftProg (D (F := F)) 𝒱 (T d) Set.univ none (Prog.lift (.customCall (Pipeline.entry 0) ())) _)
  iapply (R0 d _ ((K (F := F)).Otc d 0) W0 (Otc_none d 0) _)
  isplitr [Hb V0 V1 HO Hlev G0c G0t]
  swap
  · isplitl [Hb]; · iexact Hb
    isplitl [V0]; · iexact V0
    isplitl [V1]; · iexists _; iexact V1
    isplitl [HO]; · iexact HO
    isplitl [Hlev]; · iexact Hlev
    isplitl [G0c]; · iexact G0c
    iexact G0t
  iintro ⟨Hb, V0, ⟨%f1, %hf1T, V1⟩, %W0', %hW0', HO⟩
  ihave Hst := (Entails.of_eq (tcSt_eq (F := F) d 0).symm) $$ [HO Hrest]
  · isplitl [HO]
    · iexists W0'; isplitr
      · ipureintro; exact wBelow_of_none hW0 hW0'
      · iexact HO
    · iexact Hrest

  have hf1 : Cert.Spec.Tab2OK (m (loc d main_arg2)) f1 := tab2OK_of_T _ _ _ hf1T
  -- main_v2 from main_arg0
  iapply (wp_reshape d main_arg0 main_v2 (by decide) _ _ _ _ _ _)
  isplitl [Hb]; · iexact Hb
  isplitl [A0]; · iexact A0
  isplitl [V2]; · iexact V2
  iintro ⟨Hb, A0, V2⟩

  -- main_v3 from main_v2
  iapply (wp_reshape d main_v2 main_v3 (by decide) _ _ _ _ _ _)
  isplitl [Hb]; · iexact Hb
  isplitl [V2]; · iexact V2
  isplitl [V3]; · iexact V3
  iintro ⟨Hb, V2, V3⟩

  -- the SparseCore call 0
  iapply ((K (F := F)).wp_run (D (F := F)) 𝒱 (EH := EH) (P := P m) κ d 0)
  isplitr; · iexact Hctx
  isplitl [Hst]; · iexact Hst
  isplitl [V1 V3 V4]
  · iapply (hst0 d _ hf1)
    isplitl [V1]; · iexact V1
    isplitl [V3]; · iexact V3
    iexists _; iexact V4
  iintro ⟨Hst, Hdn⟩
  ihave Hdn' := (hdn0 d) $$ Hdn
  icases Hdn' with ⟨%f1', %g4, %hfg4, V1, V3, V4⟩

  have hf1 : Cert.Spec.Tab2OK (m (loc d main_arg2)) f1' := hfg4.1
  -- main_v5 from main_arg1
  iapply (wp_reshape d main_arg1 main_v5 (by decide) _ _ _ _ _ _)
  isplitl [Hb]; · iexact Hb
  isplitl [A1]; · iexact A1
  isplitl [V5]; · iexact V5
  iintro ⟨Hb, A1, V5⟩

  -- main_v6 from main_v5
  iapply (wp_reshape d main_v5 main_v6 (by decide) _ _ _ _ _ _)
  isplitl [Hb]; · iexact Hb
  isplitl [V5]; · iexact V5
  isplitl [V6]; · iexact V6
  iintro ⟨Hb, V5, V6⟩

  -- the SparseCore call 1
  iapply ((K (F := F)).wp_run (D (F := F)) 𝒱 (EH := EH) (P := P m) κ d 1)
  isplitr; · iexact Hctx
  isplitl [Hst]; · iexact Hst
  isplitl [V1 V6 V7]
  · iapply (hst1 d _ hf1)
    isplitl [V1]; · iexact V1
    isplitl [V6]; · iexact V6
    iexists _; iexact V7
  iintro ⟨Hst, Hdn⟩
  ihave Hdn' := (hdn1 d) $$ Hdn
  icases Hdn' with ⟨%f1'', %g7, %hfg7, V1, V6, V7⟩

  ihave Hst := (Entails.of_eq (show ((K (F := F)).tcSt EH d ((1 : Fin 2).val + 1) : sProp (𝕄F F)) = (K (F := F)).tcSt EH d 2 from rfl)) $$ Hst
  -- main_v8 from main_v4
  iapply (wp_reshape d main_v4 main_v8 (by decide) _ _ _ _ _ _)
  isplitl [Hb]; · iexact Hb
  isplitl [V4]; · iexact V4
  isplitl [V8]; · iexact V8
  iintro ⟨Hb, V4, V8⟩

  -- the pipeline region 1
  ihave Hst' := (Entails.of_eq (tcSt_eq (F := F) d 2)) $$ Hst
  icases Hst' with ⟨⟨%W1, %hW1, HO⟩, Hrest⟩
  ihave Hlev := (SparseCore.Cfg.ctx_levAts κ) $$ Hctx
  iapply ((K (F := F)).wp_liftProg (D (F := F)) 𝒱 (T d) Set.univ none (Prog.lift (.customCall (Pipeline.entry 1) ())) _)
  iapply (R1 d _ ((K (F := F)).Otc d 2) W1 (Otc_none d 2) _)
  isplitr [Hb V8 V9 HO Hlev G1c G1t]
  swap
  · isplitl [Hb]; · iexact Hb
    isplitl [V8]; · iexact V8
    isplitl [V9]; · iexists _; iexact V9
    isplitl [HO]; · iexact HO
    isplitl [Hlev]; · iexact Hlev
    isplitl [G1c]; · iexact G1c
    iexact G1t
  iintro ⟨Hb, V8, V9, %W1', %hW1', HO⟩
  ihave Hst := (Entails.of_eq (tcSt_eq (F := F) d 2).symm) $$ [HO Hrest]
  · isplitl [HO]
    · iexists W1'; isplitr
      · ipureintro; exact wBelow_of_none hW1 hW1'
      · iexact HO
    · iexact Hrest

  -- main_v10 from main_v7
  iapply (wp_reshape d main_v7 main_v10 (by decide) _ _ _ _ _ _)
  isplitl [Hb]; · iexact Hb
  isplitl [V7]; · iexact V7
  isplitl [V10]; · iexact V10
  iintro ⟨Hb, V7, V10⟩

  -- the pipeline region 2
  ihave Hst' := (Entails.of_eq (tcSt_eq (F := F) d 2)) $$ Hst
  icases Hst' with ⟨⟨%W2, %hW2, HO⟩, Hrest⟩
  ihave Hlev := (SparseCore.Cfg.ctx_levAts κ) $$ Hctx
  iapply ((K (F := F)).wp_liftProg (D (F := F)) 𝒱 (T d) Set.univ none (Prog.lift (.customCall (Pipeline.entry 2) ())) _)
  iapply (R2 d _ ((K (F := F)).Otc d 2) W2 (Otc_none d 2) _)
  isplitr [Hb V10 V11 HO Hlev G2c G2t]
  swap
  · isplitl [Hb]; · iexact Hb
    isplitl [V10]; · iexact V10
    isplitl [V11]; · iexists _; iexact V11
    isplitl [HO]; · iexact HO
    isplitl [Hlev]; · iexact Hlev
    isplitl [G2c]; · iexact G2c
    iexact G2t
  iintro ⟨Hb, V10, V11, %W2', %hW2', HO⟩
  ihave Hst := (Entails.of_eq (tcSt_eq (F := F) d 2).symm) $$ [HO Hrest]
  · isplitl [HO]
    · iexists W2'; isplitr
      · ipureintro; exact wBelow_of_none hW2 hW2'
      · iexact HO
    · iexact Hrest

  -- main_v12 from main_v9
  iapply (wp_unary d main_v9 main_v12 (by decide) _ _ _ _ _)
  isplitl [Hb]; · iexact Hb
  isplitl [V9]; · iexact V9
  isplitl [V12]; · iexact V12
  iintro ⟨Hb, V9, V12⟩

  -- main_v13 from main_v11
  iapply (wp_unary d main_v11 main_v13 (by decide) _ _ _ _ _)
  isplitl [Hb]; · iexact Hb
  isplitl [V11]; · iexact V11
  isplitl [V13]; · iexact V13
  iintro ⟨Hb, V11, V13⟩

  imodintro
  isplitl [Hst]; · iexact Hst
  unfold FIN
  rw [← Cert.Spec.q_value (F := F) (m (loc d main_arg0)) (m (loc d main_arg2)) g4 hfg4.2 shapeCasts_S20480x128_S1024x20x128 transposes_S64x200x1024_S1024x64x200_2_0_1,
    ← Cert.Spec.d_value (F := F) (m (loc d main_arg1)) (m (loc d main_arg2)) g7 hfg7.2 shapeCasts_S204800x128_S1024x200x128 transposes_S64x200x1024_S1024x64x200_2_0_1]
  isplitl [V12]; · iexact V12
  isplitl [V13]; · iexact V13
  isplitl [A0]; · iexact A0
  isplitl [A1]; · iexact A1
  iexact A2

end Cert.KernelIdeal.Hand

end
-- ==== Proof.Run.lean ====
/-
  The whole program's run: every weakly fair execution of the TensorCore's @main and the SparseCores' sequencers and
  tiles terminates, nothing faulting, with the two results at the specification's lookups and the arguments as
  launched. The launch theorem applied to the two kernels' body obligations, the split of each call's operands among
  the tiles, the launch element, and @main's proof; the final memory is read off the arrays @main ends holding.
-/
import proofs.«218768_g80616536146796_cont_9to1c4b_775_25_alg».proof.Proof.LaunchMain

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

/-- What the final memory holds on device `d`. -/
def fq (d : Dev nD) (s' : Phys nD τ sig (Elt F)) : Prop :=
  s'.mem.mem (loc d main_v12) = Cert.Spec.Gq (F := F) (m (loc d main_arg0)) (m (loc d main_arg2))
    ∧ s'.mem.mem (loc d main_v13) = Cert.Spec.Gd (F := F) (m (loc d main_arg1)) (m (loc d main_arg2))
    ∧ s'.mem.mem (loc d main_arg0) = m (loc d main_arg0)
    ∧ s'.mem.mem (loc d main_arg1) = m (loc d main_arg1)
    ∧ s'.mem.mem (loc d main_arg2) = m (loc d main_arg2)

theorem hfin (d : Dev nD) (s' : Phys nD τ sig (Elt F)) : iprop(FIN m d ∗ SI s') ⊢ (⌜fq m d s'⌝ : sProp (𝕄F F)) := by
  unfold FIN
  iintro ⟨⟨H12, H13, HA0, HA1, HA2⟩, HSI⟩
  icombine HSI H12 gives %h12
  icombine HSI H13 gives %h13
  icombine HSI HA0 gives %h0
  icombine HSI HA1 gives %h1
  icombine HSI HA2 gives %h2
  ipureintro
  exact ⟨funext fun i => h12 i (Finset.mem_univ i), funext fun i => h13 i (Finset.mem_univ i), funext fun i => h0 i (Finset.mem_univ i),
    funext fun i => h1 i (Finset.mem_univ i), funext fun i => h2 i (Finset.mem_univ i)⟩

/-- The run's post: on every device the results are the lookups and the arguments are unchanged. -/
def QC : PUnit × MemSt nD τ sig (Elt F) → Prop := fun r => ∀ c : Dev nD,
  r.2.mem (loc c main_v12) = Cert.Spec.Gq (F := F) (m (loc c main_arg0)) (m (loc c main_arg2))
    ∧ r.2.mem (loc c main_v13) = Cert.Spec.Gd (F := F) (m (loc c main_arg1)) (m (loc c main_arg2))
    ∧ r.2.mem (loc c main_arg0) = m (loc c main_arg0)
    ∧ r.2.mem (loc c main_arg1) = m (loc c main_arg1)
    ∧ r.2.mem (loc c main_arg2) = m (loc c main_arg2)

theorem run_of [∀ e, Nonempty (Elt F e)] (R0 : Region0 F) (R1 : Region1 F) (R2 : Region2 F)
    (hst0 : StIntro0 m) (hdn0 : DnElim0 m) (hst1 : StIntro1 m) (hdn1 : DnElim1 m)
    (hT0 : (K (F := F)).TileObl (D (F := F)) 𝒱 (P m) v₀ 0) (hT1 : (K (F := F)).TileObl (D (F := F)) 𝒱 (P m) v₀ 1)
    (hV : ∀ q, (K (F := F)).kind q = .scVector → (K (F := F)).VecSplit (P m) q) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => hT0 | 1 => hT1)
    hV
    m ρ main (G (F := F)) (FIN m) (u₀ (F := F)) (hu₀ m) (hmain m ρ R0 R1 R2 hst0 hdn0 hst1 hdn1) (fq m) (hfin m) (QC m) (fun _ h => h)

end Cert.KernelIdeal.Hand

end
-- ==== Proof.Region0Run.lean ====
/-
  The re-laying kernel's body, run once at a symbolic grid point on any two whole staging buffers: sixty-four times
  it loads a 64 x 512 piece of the input block, transposes it and stores the 512 x 64 result into columns 0..63 of
  rows k * 512 .. k * 512 + 511 of the output block. The run leaves the input buffer as it was and the output buffer
  with those sixty-four pieces written over whatever it held (columns 64..127 are never touched).
-/
import proofs.«218768_g80616536146796_cont_9to1c4b_775_25_alg».proof.Proof.Common
import proofs.«218768_g80616536146796_cont_9to1c4b_775_25_alg».proof.Proof.Spec
import proofs.«218768_g80616536146796_cont_9to1c4b_775_25_alg».proof.Proof.Gen.KernelIdeal.Skeleton
import proofs.«218768_g80616536146796_cont_9to1c4b_775_25_alg».proof.Proof.Gen.KernelIdeal.Points
import Idealize.ShloMosaic.Lib.Tactic
import Idealize.ShloMosaic.Lib.Pipeline.Frame
import Idealize.ShloMosaic.Lib.WholeRead
import Idealize.ShloMosaic.Lib.Writes

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace R0

set_option maxHeartbeats 4000000 in
/-- The pieces the body's stores leave in the output's staging buffer (last first), with the proof that from the
    input's buffer held at `x0` and the output's at anything the body runs to the input's as it was and the
    output's with those pieces written. -/
noncomputable def run0 (c : Dev nD) (i : grid0.Coords) (arg1 : Memref sig .tc .vmem S64x32768 .f32) (harg1 : arg1.IsWhole)
    (arg2 : Memref sig .tc .vmem S32768x128 .f32) (harg2 : arg2.IsWhole) (x0 : Vec F S64x32768 .f32) :
    { L1 : List (View.Piece (Elt F) S32768x128 .f32) //
      ∀ (E : Set ℕ) (K : PUnit → sProp (𝕄F F)),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_body i arg1 harg1 arg2 harg2) K } := by
  refine ⟨?_, fun E K => ?run⟩
  case run =>
    simp only [cc0_body_eq_skeleton]; unfold cc0_body_skel
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

end R0

end Cert.KernelIdeal.Hand

end
-- ==== Proof.Region0Pieces.lean ====
/-
  What the re-laying kernel's body leaves in the output's staging buffer, read back. The run's sixty-four stores
  are, in order, the pieces k = 0 .. 63: rows k * 512 .. k * 512 + 511 of columns 0 .. 63, holding the transpose of
  columns k * 512 .. of the input block. All of them agree with one function of the output block's index, entry
  (r, c) ↦ input entry (c, r), and every entry of columns 0 .. 63 lies in the piece of its row: so after the run
  entry (r, e), e < 64, of the output buffer is entry (e, r) of the input buffer, whatever the buffer held before.
-/
import proofs.«218768_g80616536146796_cont_9to1c4b_775_25_alg».proof.Proof.Region0Run
import Idealize.ShloMosaic.Lib.Pipeline.Regions
import Idealize.ShloMosaic.Lib.Pipeline.Kit
import Idealize.ShloMosaic.Lib.ValueLayout

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace R0

open Idealize.ShloMosaic.ValueIdx

/-- One piece's payload: the loaded 64 x 512 piece, transposed. -/
def pay (v : Vec F S64x512 .f32) : FVec F S512x64 .f32 :=
  transpose S512x64 [1, 0] (shapeCast S64x512 v shapeCasts_S64x512_S64x512) transposes_S64x512_p1_0_S512x64

theorem hinb1 (k : Fin 64) : ∀ a, (![0, k.val * 512] : Fin S64x32768.rank → Nat) a + S64x512.size a ≤ S64x32768.size a := by
  intro a; have := k.isLt
  match a with
  | ⟨0, _⟩ => show 0 + 64 ≤ 64; omega
  | ⟨1, _⟩ => show k.val * 512 + 512 ≤ 32768; omega

theorem hinb2 (k : Fin 64) : ∀ a, (![k.val * 512, 0] : Fin S32768x128.rank → Nat) a + S512x64.size a ≤ S32768x128.size a := by
  intro a; have := k.isLt
  match a with
  | ⟨0, _⟩ => show k.val * 512 + 512 ≤ 32768; omega
  | ⟨1, _⟩ => show 0 + 64 ≤ 128; omega

/-- Piece `k` of the body's sixty-four: rows `k * 512 ..` of columns 0..63, from the input's columns `k * 512 ..`. -/
def piece (arg1 : Memref sig .tc .vmem S64x32768 .f32) (harg1 : arg1.IsWhole) (x0 : Vec F S64x32768 .f32) (k : Fin 64) :
    View.Piece (Elt F) S32768x128 .f32 :=
  ⟨Rect.unit (s := S32768x128) ![k.val * 512, 0] S512x64.size (hinb2 k),
    pay (arg1.view.readAt (Elt F) (Rect.unit (s := S64x32768) ![0, k.val * 512] S64x512.size (hinb1 k)).toLoadRect (harg1.unread x0))⟩

set_option maxHeartbeats 2000000 in
theorem run0_pieces (c : Dev nD) (i : grid0.Coords) (arg1 : Memref sig .tc .vmem S64x32768 .f32) (harg1 : arg1.IsWhole)
    (arg2 : Memref sig .tc .vmem S32768x128 .f32) (harg2 : arg2.IsWhole) (x0 : Vec F S64x32768 .f32) :
    (run0 c i arg1 harg1 arg2 harg2 x0).1 = (List.finRange 64).reverse.map (piece arg1 harg1 x0) := by
  unfold run0
  rfl

/-- The one function of the output block's index that every piece agrees with: entry (r, c) is the input block's
    entry (c mod 64, r). -/
def Gf (x0 : Vec F S64x32768 .f32) : S32768x128.Idx → Elt F .f32 :=
  fun y => x0 (ix2 ⟨(y 1).val % 64, Nat.mod_lt _ (by decide)⟩ (y 0))

theorem pay_apply (v : Vec F S64x512 .f32) (j : Fin 512) (i : Fin 64) : pay v (ix2 j i) = v (ix2 i j) := by
  unfold pay
  rw [transpose_ix2_apply, shapeCast_self]

theorem piece_agrees (arg1 : Memref sig .tc .vmem S64x32768 .f32) (harg1 : arg1.IsWhole) (x0 : Vec F S64x32768 .f32) (k : Fin 64)
    (x : (piece arg1 harg1 x0 k).1.shape.Idx) :
    (piece arg1 harg1 x0 k).2 x = Gf x0 ((piece arg1 harg1 x0 k).1.emb x) := by
  obtain ⟨j, i, rfl⟩ : ∃ (j : Fin 512) (i : Fin 64), x = ix2 j i := ⟨x 0, x 1, eq_ix2 x⟩
  dsimp only [piece]
  rw [pay_apply, harg1.readAt_unread]
  unfold Gf
  refine congrArg x0 (funext fun a => ?_)
  match a with
  | ⟨0, _⟩ =>
    apply Fin.ext
    show 0 + 1 * i.val = (0 + 1 * i.val) % 64
    have := i.isLt; omega
  | ⟨1, _⟩ =>
    apply Fin.ext
    show k.val * 512 + 1 * j.val = k.val * 512 + 1 * j.val
    rfl

/-- Every entry of columns 0..63 lies in the piece of its row. -/
theorem piece_covers (arg1 : Memref sig .tc .vmem S64x32768 .f32) (harg1 : arg1.IsWhole) (x0 : Vec F S64x32768 .f32)
    (r : Fin 32768) (e : Fin 64) :
    ix2 r (Cert.Spec.col e) ∈ (piece arg1 harg1 x0 ⟨r.val / 512, by have := r.isLt; omega⟩).1.set := by
  dsimp only [piece]
  rw [Rect.mem_set_unit]
  intro a
  have := r.isLt; have := e.isLt
  match a with
  | ⟨0, _⟩ => show r.val / 512 * 512 ≤ r.val ∧ r.val < r.val / 512 * 512 + 512; omega
  | ⟨1, _⟩ => show 0 ≤ e.val ∧ e.val < 0 + 64; omega

/-- What the run leaves in the output's buffer, read at row `r`, column `e < 64`: the input buffer's entry `(e, r)`. -/
theorem run0_read (c : Dev nD) (i : grid0.Coords) (arg1 : Memref sig .tc .vmem S64x32768 .f32) (harg1 : arg1.IsWhole)
    (arg2 : Memref sig .tc .vmem S32768x128 .f32) (harg2 : arg2.IsWhole) (x0 : Vec F S64x32768 .f32) (f : arg2.view.ty.Contents (Elt F))
    (r : Fin 32768) (e : Fin 64) :
    arg2.view.read (Elt F) (arg2.view.writes (Elt F) f (run0 c i arg1 harg1 arg2 harg2 x0).1) (ix2 r (Cert.Spec.col e)) = x0 (ix2 e r) := by
  rw [run0_pieces]
  rw [View.read_writes_apply_of_pieces arg2.view f (Gf x0) _ (fun p hp x => ?_) _ ⟨_, List.mem_map.mpr ⟨_, List.mem_reverse.mpr (List.mem_finRange _), rfl⟩, piece_covers arg1 harg1 x0 r e⟩]
  · unfold Gf
    refine congrArg x0 (funext fun a => ?_)
    match a with
    | ⟨0, _⟩ => apply Fin.ext; show e.val % 64 = e.val; have := e.isLt; omega
    | ⟨1, _⟩ => rfl
  · obtain ⟨k, -, rfl⟩ := List.mem_map.mp hp
    exact piece_agrees arg1 harg1 x0 k x

end R0

end Cert.KernelIdeal.Hand

end
-- ==== Proof.Region0Dat.lean ====
/-
  The relational proof data of the re-laying pipeline and what follows from it. The input window's staging buffer is
  left as found; of the output's the body leaves, at point t, row r, column e < 64 equal to entry (e, t * 32768 + r)
  of the transposed table for the rows inside the table (the last block overhangs it: its fetch fills only the
  columns inside, its write-back writes only the rows inside). A write-back of block u overwrites exactly the table's
  rows u * 32768 .. of the re-laid table, so after the write-backs below n the rows below n * 32768 are determined,
  and after all thirty-one every row is.
-/
import proofs.«218768_g80616536146796_cont_9to1c4b_775_25_alg».proof.Proof.Region0Run
import Idealize.ShloMosaic.Lib.Pipeline.Regions
import Idealize.ShloMosaic.Lib.Pipeline.Kit
import Idealize.ShloMosaic.Lib.ValueLayout

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace R0

open Idealize.ShloMosaic.ValueIdx

abbrev recW (W : Waits sig (HIx 2)) : Set (SemLoc sig × HIx 2) := {p | p ∈ W ∨ p.2 = none}

/-- What is determined of the output block at point `t`: row `r`, column `e < 64` holds entry
    `(e, t * 32768 + r)` of the transposed table, for the rows inside the table. -/
def BlkOK (x : Vec F S64x1000000 .f32) (t : ℕ) (X : Vec F S32768x128 .f32) : Prop :=
  ∀ (r : Fin 32768) (e : Fin 64) (h : t * 32768 + r.val < 1000000), X (ix2 r (Cert.Spec.col e)) = x (ix2 e ⟨t * 32768 + r.val, h⟩)

def rd0 (x : Vec F S64x1000000 .f32) (y : Vec F S1000000x128 .f32) (O : CellTallies nD τ sig (HIx 2)) (W : Waits sig (HIx 2))
    (c : Dev nD) : Pipeline.RDat τ (Elt F) (HIx 2) ℕ UU ℕ cfg0 c where
  A w := match w with
    | ⟨0, _⟩ => x
    | ⟨1, _⟩ => y
  after w t := match w with
    | ⟨0, _⟩ => fun Y X => X = Y
    | ⟨1, _⟩ => fun _ X => BlkOK x t.val X
  Φ _ := Pipeline.scopedRest spec0 c
  q _ := fullShare
  owed _ := O
  recorded _ := recW W

theorem geom0 : ∀ t : Fin grid0.N, win0_0.index t 0 * 64 = 0 ∧ win0_0.index t 1 * 32768 = t.val * 32768
    ∧ win0_0.xsize (grid0.coords t) 0 = 64 ∧ win0_0.xsize (grid0.coords t) 1 = min 32768 (1000000 - t.val * 32768) := by
  decide +kernel

theorem geom1 : ∀ t : Fin grid0.N, win0_1.index t 0 * 32768 = t.val * 32768 ∧ win0_1.index t 1 * 128 = 0
    ∧ win0_1.xsize (grid0.coords t) 0 = min 32768 (1000000 - t.val * 32768) ∧ win0_1.xsize (grid0.coords t) 1 = 128 := by
  decide +kernel

/-- What the body finds in the input's staging buffer: inside the table, the transposed table's block. -/
theorem finds0_read (x) (y) (O) (W) (c : Dev nD) (t : Fin cfg0.N) (Y0 : Vec F S64x32768 .f32)
    (h : (rd0 (F := F) x y O W c).Finds 0 t Y0) (e : Fin 64) (r : Fin 32768) (hr : t.val * 32768 + r.val < 1000000) :
    Y0 (ix2 e r) = x (ix2 e ⟨t.val * 32768 + r.val, hr⟩) := by
  rw [(rd0 x y O W c).finds_of_fetch (fetch0_0 t)] at h
  obtain ⟨d, rfl⟩ := h
  obtain ⟨g0, g1, g2, g3⟩ := geom0 t
  have hm : (cfg0.win 0).moved (grid0.coords t) (ix2 e r) = true := by
    rw [Pipeline.Window.moved_iff]; intro a
    match a with
    | ⟨0, _⟩ => show e.val < win0_0.xsize (grid0.coords t) 0; rw [g2]; exact e.isLt
    | ⟨1, _⟩ => show r.val < win0_0.xsize (grid0.coords t) 1; rw [g3]; have := r.isLt; omega
  unfold Pipeline.RDat.fetched Pipeline.Window.fill
  rw [dif_pos hm]
  unfold Pipeline.RDat.blockOf
  change x ((win0_0.rect t).emb _) = _
  refine congrArg x (funext fun a => ?_)
  match a with
  | ⟨0, _⟩ => apply Fin.ext; show win0_0.index t 0 * 64 + 1 * e.val = e.val; rw [g0]; omega
  | ⟨1, _⟩ => apply Fin.ext; show win0_0.index t 1 * 32768 + 1 * r.val = t.val * 32768 + r.val; rw [g1, Nat.one_mul]

theorem nat_a (a uv vv : ℕ) (h : a = uv * 32768) (hin : uv * 32768 ≤ vv) : a + 1 * (vv - uv * 32768) = vv := by omega
theorem nat_b (a ev : ℕ) (h : a = 0) : a + 1 * ev = ev := by omega
theorem nat_c (a uv vv : ℕ) (h : a = uv * 32768) (h0 : a ≤ vv) (hin : ¬ uv * 32768 ≤ vv) : False := by omega
theorem nat_d (uv vv : ℕ) (hin : uv * 32768 ≤ vv) : uv * 32768 + (vv - uv * 32768) = vv := by omega
theorem nat_e (uv vv : ℕ) (hin : ¬ uv * 32768 ≤ vv) : vv < uv * 32768 := by omega
theorem nat_f (uv vv : ℕ) (hin : uv * 32768 ≤ vv) (hv : vv < (uv + 1) * 32768) (hvl : vv < 1000000) :
    vv - uv * 32768 < min 32768 (1000000 - uv * 32768) ∧ vv - uv * 32768 < 32768 := by omega

theorem nat_g (N vv n : ℕ) (hN : N = 31) (hn : ¬ n < N) (hv : vv < 1000000) : vv < n * 32768 := by omega
theorem nat_h (N vv : ℕ) (hN : N = 31) (hv : vv < 1000000) : vv < N * 32768 := by omega

/-- The re-laid table below row `n * 32768`: row `v`, column `e < 64` holds entry `(e, v)` of the transposed table. -/
def TabUpTo (x : Vec F S64x1000000 .f32) (n : ℕ) (Fa : Vec F S1000000x128 .f32) : Prop :=
  ∀ (v : Fin 1000000) (e : Fin 64), v.val < n * 32768 → Fa (ix2 v (Cert.Spec.col e)) = x (ix2 e v)

/-- One write-back: the rows of block `u` inside the table are overwritten by the staging buffer's. -/
theorem arrStep_ok (x : Vec F S64x1000000 .f32) (u : Fin cfg0.N) (G₀ : Vec F S1000000x128 .f32) (X : Vec F S32768x128 .f32)
    (h0 : TabUpTo x u.val G₀) (hX : BlkOK x u.val X) :
    TabUpTo x (u.val + 1) (((cfg0.win 1).blk u).view.write (Elt F) G₀ ((cfg0.win 1).cut (grid0.coords u) X) Finset.univ) := by
  intro v e hv
  obtain ⟨g0, g1, g2, g3⟩ := geom1 u
  have hvl := v.isLt; have hel := e.isLt
  by_cases hin : u.val * 32768 ≤ v.val
  · -- the row lies in block `u`
    have hf := nat_f _ _ hin hv hvl
    have hj0 : v.val - u.val * 32768 < win0_1.xsize (grid0.coords u) 0 := by rw [g2]; exact hf.1
    have hj1 : e.val < win0_1.xsize (grid0.coords u) 1 := by rw [g3]; exact Nat.lt_trans hel (by decide)
    let j : (win0_1.xblock (grid0.coords u)).Idx := fun a => match a with
      | ⟨0, _⟩ => ⟨v.val - u.val * 32768, hj0⟩
      | ⟨1, _⟩ => ⟨e.val, hj1⟩
    have hemb : (win0_1.rect u).emb j = ix2 v (Cert.Spec.col e) := by
      funext a
      match a with
      | ⟨0, _⟩ => apply Fin.ext; exact nat_a _ _ _ g0 hin
      | ⟨1, _⟩ => apply Fin.ext; exact nat_b _ _ g1
    rw [← hemb]
    refine (View.read_slice_write_emb (v := View.whole main_v1) (win0_1.rect u) G₀ _ (Finset.mem_univ j)).trans ?_
    have hr : u.val * 32768 + (v.val - u.val * 32768) < 1000000 := by rw [nat_d _ _ hin]; exact hvl
    have hxj : win0_1.xinj (grid0.coords u) j = ix2 (⟨v.val - u.val * 32768, hf.2⟩ : Fin 32768) (Cert.Spec.col e) :=
      funext fun a => match a with
        | ⟨0, _⟩ => rfl
        | ⟨1, _⟩ => rfl
    show X (win0_1.xinj (grid0.coords u) j) = _
    rw [hxj]
    refine (hX ⟨v.val - u.val * 32768, hf.2⟩ e hr).trans ?_
    refine congrArg x (funext fun a => ?_)
    match a with
    | ⟨0, _⟩ => rfl
    | ⟨1, _⟩ => apply Fin.ext; exact nat_d _ _ hin
  · -- the row lies below block `u`: untouched
    have hnm : ix2 v (Cert.Spec.col e) ∉ Finset.univ.map (win0_1.rect u).emb := by
      rw [Rect.map_emb_univ, Rect.mem_set_unit]
      intro h
      have h0' := (h ⟨0, by decide⟩).1
      change win0_1.index u 0 * 32768 ≤ v.val at h0'
      exact nat_c _ _ _ g0 h0' hin
    refine (View.read_slice_write_of_not_mem (v := View.whole main_v1) (win0_1.rect u) G₀ _ Finset.univ hnm).trans ?_
    exact h0 v e (nat_e _ _ hin)

/-- After the write-backs below `n`, the rows below `n * 32768` of the re-laid table are determined. -/
theorem arrAt_ok (x) (y) (O) (W) (c : Dev nD) : ∀ (n : ℕ) (Fa : Vec F S1000000x128 .f32),
    (rd0 (F := F) x y O W c).ArrAt 1 n Fa → TabUpTo x n Fa
  | 0, Fa, _ => fun v e hv => absurd hv (by omega)
  | n + 1, Fa, h => by
    unfold Pipeline.RDat.ArrAt at h
    by_cases hn : n < cfg0.N
    · rw [dif_pos hn, if_pos (flush0_1 ⟨n, hn⟩)] at h
      obtain ⟨G₀, X, hG₀, ⟨Y, -, hX⟩, rfl⟩ := h
      exact arrStep_ok x ⟨n, hn⟩ G₀ X (arrAt_ok x y O W c n G₀ hG₀) hX
    · rw [dif_neg hn] at h
      intro v e _
      exact arrAt_ok x y O W c n Fa h v e (nat_g cfg0.N _ _ N_0 hn v.isLt)

theorem tab2T_of_arrAt (x) (y) (O) (W) (c : Dev nD) (Fa : Vec F S1000000x128 .f32)
    (h : (rd0 (F := F) x y O W c).ArrAt 1 cfg0.N Fa) : Cert.Spec.Tab2T (F := F) x Fa := by
  intro v e
  exact arrAt_ok x y O W c cfg0.N Fa h v e (nat_h cfg0.N _ N_0 v.isLt)

end R0

end Cert.KernelIdeal.Hand

end
-- ==== Proof.Region0.lean ====
/-
  The table re-laying region as one step of the TensorCore's @main: from the region boundary, the transposed table
  held whole at x, the re-laid table at anything, what the core owes and the pipeline's ghost state, the region runs
  back to the boundary with the transposed table unchanged and the re-laid table at contents whose row v, column
  e < 64 is entry (e, v) of x. The body obligation is the body's run at a symbolic point read back through its
  pieces; the exit reads the array's final contents off the write-backs.
-/
import proofs.«218768_g80616536146796_cont_9to1c4b_775_25_alg».proof.Proof.Region0Pieces
import proofs.«218768_g80616536146796_cont_9to1c4b_775_25_alg».proof.Proof.Region0Dat
import Idealize.ShloMosaic.Lib.Pipeline.Regions
import Idealize.ShloMosaic.Lib.Pipeline.Kit

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

namespace R0

/-- Any record for a pipeline this region does not run. -/
def rdTriv (cfg : Pipeline.Cfg sig Λ₀) (c : Dev nD) : Pipeline.RDat τ (Elt F) (HIx 2) ℕ UU ℕ cfg c where
  A _ := fun _ => Classical.arbitrary _
  after _ _ _ _ := True
  Φ _ := iprop(emp)
  q _ := fullShare
  owed _ := 0

/-- The three pipelines' records: the re-laying pipeline's, and any for the other two. -/
def rdats (x : Vec F S64x1000000 .f32) (y : Vec F S1000000x128 .f32) (O : CellTallies nD τ sig (HIx 2)) (W : Waits sig (HIx 2)) :
    (p : Fin 3) → (c : Dev nD) → Pipeline.RDat τ (Elt F) (HIx 2) ℕ UU ℕ (Pipeline.pin (pcfgs (F := F)) adm p) c
  | ⟨0, _⟩ => rd0 x y O W
  | ⟨1, _⟩ => rdTriv cfg3
  | ⟨2, _⟩ => rdTriv cfg4

/-- The body obligation: the run at the point's staging buffers; the input's buffer comes back as it was, the output's
    with the sixty-four pieces written, whose entry (r, e) is the input buffer's (e, r), which inside the table is the
    transposed table's block. -/
theorem body_obligation (x) (y) (O) (W) (c : Dev nD) :
    (rd0 (F := F) x y O W c).BodyObligation (defs₀ (F := F)) 𝒱₀ none Set.univ := fun t Y hY => by
  rw [bigSep_W0, bigSep_W0]
  rw [show (rd0 x y O W c).Φ t.succ = (rd0 x y O W c).Φ t.castSucc from rfl,
    show (rd0 x y O W c).owesAt none t.succ = (rd0 x y O W c).owesAt none t.castSucc from rfl]
  iintro ⟨HΦ, HO, H0, H1⟩
  iapply ((run0 c (grid0.coords t) _ _ _ _ (Y 0)).2 Set.univ _)
  isplitl [H0]; · iexact H0
  isplitl [H1]; · iexists _; iexact H1
  iintro ⟨H0, ⟨%f, H1⟩⟩
  isplitl [HΦ]; · iexact HΦ
  isplitl [HO]; · iexact HO
  isplitl [H0]
  · iexists _; isplitr; swap; (· iexact H0); ipureintro; rfl
  iexists _; isplitr; swap
  · unfold owns; iexists _; isplitr; swap; (· iexact H1); ipureintro; rfl
  ipureintro
  intro r e hr
  refine (run0_read c (grid0.coords t) _ _ _ _ (Y 0) f r e).trans ?_
  exact finds0_read x y O W c t (Y 0) (hY 0) e r hr

/-- The staging cells' wait evidence: the pipeline waits at the kernels' own index, where the core owes nothing. -/
theorem hwaits (x) (y) (O : CellTallies nD τ sig (HIx 2)) (W) (hO : ∀ g, O g none = 0) (c : Dev nD) :
    (levAts (K (F := F)).L (K (F := F)).lev : sProp (𝕄F F)) ⊢ Pipeline.RDat.cellsWaits (Pipeline.pin (pcfgs (F := F)) adm) (rdats x y O W) (none : HIx 2) 0 c :=
  Pipeline.RDat.cellsWaits_intro (Pipeline.pin (pcfgs (F := F)) adm) (rdats x y O W) (none : HIx 2) 0 c fun w s t =>
    (K (F := F)).mayWait_none _ hO

/-- The region's arrays at contents `Fa` are the transposed table and the re-laid table held whole. -/
theorem arrays_eq (x) (y) (O) (W) (c : Dev nD) (Fa) :
    ((rdats (F := F) x y O W 0 c).arrays Fa : sProp (𝕄F F)) = iprop((loc c main_v0 ↦{fullShare} Fa 0) ∗ (loc c main_v1 ↦{fullShare} Fa 1)) := by
  rw [Pipeline.RDat.arrays_eq (pcfgs (F := F)) adm (rdats x y O W) 0 c launch0.arr_whole ((rdats x y O W 0 c).share_full fun _ => rfl) Fa, bigSep_W0]
  rfl

/-- The arrays after the write-backs below `n`, array by array, each held whole. -/
theorem arraysAt_eq (x) (y) (O) (W) (c : Dev nD) (n : Nat) :
    ((rdats (F := F) x y O W 0 c).arraysAt n : sProp (𝕄F F))
      = iprop((∃ Fa, ⌜(rdats (F := F) x y O W 0 c).ArrAt 0 n Fa⌝ ∗ (loc c main_v0 ↦{fullShare} Fa))
          ∗ (∃ Fa, ⌜(rdats (F := F) x y O W 0 c).ArrAt 1 n Fa⌝ ∗ (loc c main_v1 ↦{fullShare} Fa))) := by
  unfold Pipeline.RDat.arraysAt
  rw [bigSep_W0, (launch0.arr_whole 0).set_eq_univ, (launch0.arr_whole 1).set_eq_univ,
    (rdats x y O W 0 c).share_full (fun _ => rfl) 0, (rdats x y O W 0 c).share_full (fun _ => rfl) 1]
  rfl

set_option maxHeartbeats 1000000 in
/-- The region: both arrays into the pipeline, nothing beside; the core owes `O` throughout. -/
def reg0 (x : Vec F S64x1000000 .f32) (y : Vec F S1000000x128 .f32) (O : CellTallies nD τ sig (HIx 2)) (W : Waits sig (HIx 2))
    (hO : ∀ g, O g none = 0) :
    Pipeline.RDat.RegionSeg (pcfgs (F := F)) adm (rdats x y O W) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation x y O W c
  hwaits c := hwaits x y O W hO c
  pre c := iprop((loc c main_v0 ↦{fullShare} x) ∗ (loc c main_v1 ↦{fullShare} y) ∗ owes (T c) O W)
  post c := iprop((loc c main_v0 ↦{fullShare} x) ∗ (∃ y', ⌜Cert.Spec.Tab2T (F := F) x y'⌝ ∗ loc c main_v1 ↦{fullShare} y')
    ∗ ∃ W', ⌜∀ p ∈ W', p ∈ W ∨ p.2 = none⌝ ∗ owes (T c) O W')
  X _ := iprop(emp)
  Y _ := iprop(emp)
  Z _ := iprop(emp)
  hentry c := by
    rw [Pipeline.ownSems0_none, arrays_eq]
    iintro ⟨⟨Hx, Hy, HO⟩, -, -⟩
    imodintro
    isplitl [Hx Hy]
    · isplitl [Hx]; · iexact Hx
      iexact Hy
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl hp)
      iexact HO
    isplitr <;> iempintro
  hin c := by
    change _ ⊢ Pipeline.scopedRest (Pipeline.pin (pcfgs (F := F)) adm 0).spec c
    iintro ⟨-, -, H⟩; iexact H
  hout c := by
    rw [Pipeline.ownSems0_none]
    change Pipeline.scopedRest (Pipeline.pin (pcfgs (F := F)) adm 0).spec c ⊢ _
    iintro H; isplitr; · iempintro
    isplitr; · iempintro
    iexact H
  hexit c := by
    rw [arraysAt_eq]
    iintro ⟨⟨⟨%F0, %h0, H0⟩, ⟨%F1, %h1, H1⟩⟩, HO, -, -⟩
    rw [(rdats x y O W 0 c).ArrAt_in 0 rfl] at h0
    have h0' : F0 = x := h0
    subst F0
    imodintro
    isplitl [H0]; · iexact H0
    isplitl [H1]
    · iexists F1; isplitr; · ipureintro; exact tab2T_of_arrAt x y O W c F1 h1
      iexact H1
    unfold Pipeline.RDat.owesAt Pipeline.owesWithin
    icases HO with ⟨%W', %hW', HO⟩
    iexists W'; isplitr; swap; (· iexact HO)
    ipureintro
    intro p hp
    rcases hW' (Finset.mem_coe.mpr hp) with h | h
    · exact h
    · obtain ⟨w, s, rfl⟩ := h; exact Or.inr rfl

end R0

open R0 in
set_option backward.isDefEq.respectTransparency.types false in
/-- The re-laying region's step on device `d`'s TensorCore. -/
theorem wp_region0 (d : Dev nD) (x : Buf (Elt F) (loc d main_v0)) (O : CellTallies nD τ sig (HIx 2)) (W : Waits sig (HIx 2))
    (hO : ∀ g, O g none = 0) (Q : PUnit → sProp (𝕄F F)) :
    iprop((iprop(boundary (T d) ∗ (loc d main_v0 ↦{fullShare} x) ∗ (∃ y, ⌜Cert.Spec.Tab2T (F := F) x y⌝ ∗ loc d main_v1 ↦{fullShare} y)
            ∗ ∃ W', ⌜∀ p ∈ W', p ∈ W ∨ p.2 = none⌝ ∗ owes (T d) O W') -∗ Q ⟨⟩)
        ∗ boundary (T d) ∗ (loc d main_v0 ↦{fullShare} x) ∗ (∃ y, loc d main_v1 ↦{fullShare} y) ∗ owes (T d) O W
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.lift (.customCall (Pipeline.entry 0) ())) Q := by
  iintro ⟨Hk, Hb, Hx, ⟨%y, Hy⟩, HO, Hlev, Hg, Ht⟩
  have hwp := Pipeline.RDat.RegionSeg.wp (pcfgs (F := F)) adm (rdats x y O W) (none : HIx 2) cellOf_inj EP defs₀ 𝒱₀ (K (F := F)).L (K (F := F)).lev
    (reg0 x y O W hO) d none (fun _ h => nomatch h) (fun r => .ret r) Q
  dsimp only [reg0] at hwp
  iapply hwp
  isplitl [Hk]
  · iintro ⟨Hb, Hx, Hy, HO⟩
    rw [wp_ret]; imodintro
    iapply Hk
    isplitl [Hb]; · iexact Hb
    isplitl [Hx]; · iexact Hx
    isplitl [Hy]; · iexact Hy
    iexact HO
  isplitl [Hb]; · iexact Hb
  isplitl [Hx Hy HO]
  · isplitl [Hx]; · iexact Hx
    isplitl [Hy]; · iexact Hy
    iexact HO
  isplitl [Hlev]; · iexact Hlev
  isplitl [Hg]; · iexact Hg
  iexact Ht

end Cert.KernelIdeal.Hand

end
-- ==== Proof.Region4Body.lean ====
/-
  The document transposing kernel, point by point: what its body finds in its two staging buffers at a point of the
  4 x 5 grid and what it leaves there. The body loads the whole input block (256 documents x 40 positions x 128 lanes),
  transposes it, keeps the first 64 lanes and stores the whole output block (64 x 40 x 256).
-/
import proofs.«218768_g80616536146796_cont_9to1c4b_775_25_alg».proof.Proof.Common
import proofs.«218768_g80616536146796_cont_9to1c4b_775_25_alg».proof.Proof.Spec
import proofs.«218768_g80616536146796_cont_9to1c4b_775_25_alg».proof.Proof.Gen.KernelIdeal.Points
import proofs.«218768_g80616536146796_cont_9to1c4b_775_25_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three zero offsets of a whole-block access, as a constant function. -/
theorem hz3 : (![0, 0, 0] : Fin 3 → Nat) = fun _ => 0 := funext fun a => by fin_cases a <;> rfl

/-- The pairs a thread's waits may have recorded during a transposing region: those recorded before it, and the
    region's own, which are all at the index of a kernel's own waits. -/
def recBound (W : Waits sig (HIx 2)) : Set (SemLoc sig × HIx 2) := {p | p ∈ W ∨ p.2 = none}

/-- Proof data that names nothing: for the pipelines a region does not run. -/
def anyDat (cfg : Pipeline.Cfg sig Λ₀) (c : Dev nD) : Dat τ (Elt F) (HIx 2) ℕ UU ℕ cfg c where
  A _ := Classical.arbitrary _
  after _ _ := fun _ => Classical.arbitrary _
  Φ _ := iprop(emp)
  q _ := fullShare
  owed _ := 0

/-! ## The body's accesses -/

abbrev r4_0 : Rect S256x40x128 := Rect.unit (s := S256x40x128) ![0, 0, 0] S256x40x128.size inb_S256x40x128_S256x40x128_0_0_0
abbrev r4_1 : Rect S64x40x256 := Rect.unit (s := S64x40x256) ![0, 0, 0] S64x40x256.size inb_S64x40x256_S64x40x256_0_0_0

/-- The input window's block at point `t`, read off the array `x`. -/
def iblk4 (x : FVec F Cert.Spec.SD3 .f32) (t : Fin cfg4.N) : ((cfg4.win 0).xblock (cfg4.grid.coords t)).Idx → Elt F (cfg4.win 0).elt :=
  ((cfg4.win 0).blk t).view.read (Elt F) x

/-- The body's one store covers the output buffer. -/
theorem cover4 (p0 : Vec F S64x40x256 .f32) (y : S64x40x256.Idx) :
    ∃ pc ∈ ([⟨r4_1, p0⟩] : List (View.Piece (Elt F) S64x40x256 .f32)), y ∈ pc.1.set :=
  ⟨_, List.mem_singleton_self _, View.mem_set_unit_zero hz3 inb_S64x40x256_S64x40x256_0_0_0 y⟩

set_option maxHeartbeats 1000000 in
/-- The body on whole staging memrefs, the input's at `x0` and the output's at anything, runs to the input's as it
    was and the output's at the transposed block. -/
theorem sound_kernel4 (c : Dev nD) (E : Set ℕ) (i : grid4.Coords) (arg2 : Memref sig .tc .vmem S256x40x128 .f32) (harg2 : arg2.IsWhole)
    (arg3 : Memref sig .tc .vmem S64x40x256 .f32) (harg3 : arg3.IsWhole) (x0 : Vec F S256x40x128 .f32) (Kk : PUnit → sProp (𝕄F F)) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k4_pay1 x0)) -∗ Kk ⟨⟩))
      ⊢ wp frame (wpE (defs₀ (F := F)) Variants.none c none) E (cc4_body i arg2 harg2 arg3 harg3) Kk := by
  simp only [cc4_body_eq_skeleton]; unfold cc4_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  refine (View.read_writes_eq_canon _ _ _ (cover4 _)).trans ?_
  rw [View.canon_unit_zero hz3]
  simp only [View.readAt_eq_ld, View.ld_unit_zero (S := S256x40x128) hz3]

/-! ## The proof data -/

/-- The pipeline's proof data on core `c`: the input array at `x`, the output array at `y` on entry; after the body
    at point `t` the input's buffer at its block and the output's at the block transposed; the invariant the scoped
    buffers no window stages; the core owing `O` throughout, its recorded pairs within those of `W` and the kernel's own. -/
def dat4 (x : FVec F Cert.Spec.SD3 .f32) (y : FVec F Cert.Spec.ST .f32) (O : CellTallies nD τ sig (HIx 2)) (W : Waits sig (HIx 2))
    (c : Dev nD) : Dat τ (Elt F) (HIx 2) ℕ UU ℕ cfg4 c where
  A w := match w with
    | ⟨0, _⟩ => x
    | ⟨1, _⟩ => y
  after w t := match w with
    | ⟨0, _⟩ => iblk4 x t
    | ⟨1, _⟩ => k4_pay1 (iblk4 x t)
  Φ _ := Pipeline.scopedRest spec4 c
  q _ := fullShare
  owed _ := O
  recorded _ := recBound W

variable (x : FVec F Cert.Spec.SD3 .f32) (y : FVec F Cert.Spec.ST .f32) (O : CellTallies nD τ sig (HIx 2)) (W : Waits sig (HIx 2))

theorem A4_0 (c : Dev nD) : (dat4 x y O W c).A 0 = x := by dsimp only [dat4]
theorem A4_1 (c : Dev nD) : (dat4 x y O W c).A 1 = y := by dsimp only [dat4]
theorem after4_0 (c : Dev nD) (t : Fin cfg4.N) : (dat4 x y O W c).after 0 t = iblk4 x t := by dsimp only [dat4]
theorem after4_1 (c : Dev nD) (t : Fin cfg4.N) : (dat4 x y O W c).after 1 t = k4_pay1 (iblk4 x t) := by dsimp only [dat4]

/-- The input's current staging buffer holds its block at every point: every point fetches it. -/
theorem before4_0 (c : Dev nD) (t : Fin cfg4.N) (d) : (dat4 x y O W c).before 0 t d = iblk4 x t :=
  ((dat4 x y O W c).before_fetched 0 t (fetch4_0 t) d).trans (by unfold Dat.fetched Dat.blockOf iblk4; rw [A4_0]; try rfl)

/-! ## The body obligation -/

/-- What the body is called with at point `t`, the windows one by one, -/
def bodyPre4 (c : Dev nD) (t : Fin cfg4.N) : sProp (𝕄F F) :=
  iprop((dat4 x y O W c).Φ t.castSucc ∗ (dat4 x y O W c).owesAt none t.castSucc
    ∗ (∃ d, owns (c : Thread nD τ) (st4_0 t) fullShare ((dat4 x y O W c).before 0 t d))
    ∗ (∃ d, owns (c : Thread nD τ) (st4_1 t) fullShare ((dat4 x y O W c).before 1 t d)))

/-- and what it returns. -/
def bodyPost4 (c : Dev nD) (t : Fin cfg4.N) : sProp (𝕄F F) :=
  iprop((dat4 x y O W c).Φ t.succ ∗ (dat4 x y O W c).owesAt none t.succ
    ∗ owns (c : Thread nD τ) (st4_0 t) fullShare ((dat4 x y O W c).after 0 t)
    ∗ owns (c : Thread nD τ) (st4_1 t) fullShare ((dat4 x y O W c).after 1 t))

/-- The body at any point: the input's memref holds its block, so `sound_kernel4` applies; the invariant and the
    core's `owes` pass through unread. -/
theorem sound_body4 (c : Dev nD) (t : Fin cfg4.N) :
    bodyPre4 x y O W c t ⊢ wp frame (wpE (defs₀ (F := F)) Variants.none c none) Set.univ (bodyAt4 t) (fun _ => bodyPost4 x y O W c t) := by
  unfold bodyPre4 bodyPost4 bodyAt4
  simp only [before4_0]
  rw [show (dat4 x y O W c).Φ t.succ = (dat4 x y O W c).Φ t.castSucc from rfl,
    show (dat4 x y O W c).owesAt none t.succ = (dat4 x y O W c).owesAt none t.castSucc from rfl,
    after4_0, after4_1]
  iintro ⟨HΦ, Ho, ⟨%d0, H0⟩, ⟨%d1, H1⟩⟩
  iapply (sound_kernel4 c Set.univ _ _ _ _ _ (iblk4 x t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 x y O W c) (defs₀ (F := F)) 𝒱₀ none Set.univ := fun t => by
  rw [bigSep_W4, bigSep_W4]
  exact sound_body4 x y O W c t

end Cert.KernelIdeal.Hand

end
-- ==== Proof.Region3Body.lean ====
/-
  The query transposing kernel, point by point: what its body finds in its two staging buffers at a point of the
  grid of 4 and what it leaves there. The body loads the whole input block (256 queries x 20 positions x 128 lanes),
  transposes it, keeps the first 64 lanes, pads the positions from 20 to 200 with zeros and stores the whole output
  block (64 x 200 x 256).
-/
import proofs.«218768_g80616536146796_cont_9to1c4b_775_25_alg».proof.Proof.Region4Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses -/

abbrev r3_0 : Rect S256x20x128 := Rect.unit (s := S256x20x128) ![0, 0, 0] S256x20x128.size inb_S256x20x128_S256x20x128_0_0_0
abbrev r3_1 : Rect S64x200x256 := Rect.unit (s := S64x200x256) ![0, 0, 0] S64x200x256.size inb_S64x200x256_S64x200x256_0_0_0

/-- The input window's block at point `t`, read off the array `x`. -/
def iblk3 (x : FVec F Cert.Spec.SQ3 .f32) (t : Fin cfg3.N) : ((cfg3.win 0).xblock (cfg3.grid.coords t)).Idx → Elt F (cfg3.win 0).elt :=
  ((cfg3.win 0).blk t).view.read (Elt F) x

/-- The body's one store covers the output buffer. -/
theorem cover3 (p0 : Vec F S64x200x256 .f32) (y : S64x200x256.Idx) :
    ∃ pc ∈ ([⟨r3_1, p0⟩] : List (View.Piece (Elt F) S64x200x256 .f32)), y ∈ pc.1.set :=
  ⟨_, List.mem_singleton_self _, View.mem_set_unit_zero hz3 inb_S64x200x256_S64x200x256_0_0_0 y⟩

set_option maxHeartbeats 1000000 in
/-- The body on whole staging memrefs, the input's at `x0` and the output's at anything, runs to the input's as it
    was and the output's at the transposed, padded block. -/
theorem sound_kernel3 (c : Dev nD) (E : Set ℕ) (i : grid3.Coords) (arg1 : Memref sig .tc .vmem S256x20x128 .f32) (harg1 : arg1.IsWhole)
    (arg2 : Memref sig .tc .vmem S64x200x256 .f32) (harg2 : arg2.IsWhole) (x0 : Vec F S256x20x128 .f32) (Kk : PUnit → sProp (𝕄F F)) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k3_pay1 x0)) -∗ Kk ⟨⟩))
      ⊢ wp frame (wpE (defs₀ (F := F)) Variants.none c none) E (cc3_body i arg1 harg1 arg2 harg2) Kk := by
  simp only [cc3_body_eq_skeleton]; unfold cc3_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  refine (View.read_writes_eq_canon _ _ _ (cover3 _)).trans ?_
  rw [View.canon_unit_zero hz3]
  simp only [View.readAt_eq_ld, View.ld_unit_zero (S := S256x20x128) hz3]

/-! ## The proof data -/

/-- The pipeline's proof data on core `c`: the input array at `x`, the output array at `y` on entry; after the body
    at point `t` the input's buffer at its block and the output's at the block transposed and padded; the invariant the
    scoped buffers no window stages; the core owing `O` throughout, its recorded pairs within those of `W` and the
    kernel's own. -/
def dat3 (x : FVec F Cert.Spec.SQ3 .f32) (y : FVec F Cert.Spec.ST .f32) (O : CellTallies nD τ sig (HIx 2)) (W : Waits sig (HIx 2))
    (c : Dev nD) : Dat τ (Elt F) (HIx 2) ℕ UU ℕ cfg3 c where
  A w := match w with
    | ⟨0, _⟩ => x
    | ⟨1, _⟩ => y
  after w t := match w with
    | ⟨0, _⟩ => iblk3 x t
    | ⟨1, _⟩ => k3_pay1 (iblk3 x t)
  Φ _ := Pipeline.scopedRest spec3 c
  q _ := fullShare
  owed _ := O
  recorded _ := recBound W

variable (x : FVec F Cert.Spec.SQ3 .f32) (y : FVec F Cert.Spec.ST .f32) (O : CellTallies nD τ sig (HIx 2)) (W : Waits sig (HIx 2))

theorem A3_0 (c : Dev nD) : (dat3 x y O W c).A 0 = x := by dsimp only [dat3]
theorem A3_1 (c : Dev nD) : (dat3 x y O W c).A 1 = y := by dsimp only [dat3]
theorem after3_0 (c : Dev nD) (t : Fin cfg3.N) : (dat3 x y O W c).after 0 t = iblk3 x t := by dsimp only [dat3]
theorem after3_1 (c : Dev nD) (t : Fin cfg3.N) : (dat3 x y O W c).after 1 t = k3_pay1 (iblk3 x t) := by dsimp only [dat3]

/-- The input's current staging buffer holds its block at every point: every point fetches it. -/
theorem before3_0 (c : Dev nD) (t : Fin cfg3.N) (d) : (dat3 x y O W c).before 0 t d = iblk3 x t :=
  ((dat3 x y O W c).before_fetched 0 t (fetch3_0 t) d).trans (by unfold Dat.fetched Dat.blockOf iblk3; rw [A3_0]; try rfl)

/-! ## The body obligation -/

/-- What the body is called with at point `t`, the windows one by one, -/
def bodyPre3 (c : Dev nD) (t : Fin cfg3.N) : sProp (𝕄F F) :=
  iprop((dat3 x y O W c).Φ t.castSucc ∗ (dat3 x y O W c).owesAt none t.castSucc
    ∗ (∃ d, owns (c : Thread nD τ) (st3_0 t) fullShare ((dat3 x y O W c).before 0 t d))
    ∗ (∃ d, owns (c : Thread nD τ) (st3_1 t) fullShare ((dat3 x y O W c).before 1 t d)))

/-- and what it returns. -/
def bodyPost3 (c : Dev nD) (t : Fin cfg3.N) : sProp (𝕄F F) :=
  iprop((dat3 x y O W c).Φ t.succ ∗ (dat3 x y O W c).owesAt none t.succ
    ∗ owns (c : Thread nD τ) (st3_0 t) fullShare ((dat3 x y O W c).after 0 t)
    ∗ owns (c : Thread nD τ) (st3_1 t) fullShare ((dat3 x y O W c).after 1 t))

/-- The body at any point: the input's memref holds its block, so `sound_kernel3` applies; the invariant and the
    core's `owes` pass through unread. -/
theorem sound_body3 (c : Dev nD) (t : Fin cfg3.N) :
    bodyPre3 x y O W c t ⊢ wp frame (wpE (defs₀ (F := F)) Variants.none c none) Set.univ (bodyAt3 t) (fun _ => bodyPost3 x y O W c t) := by
  unfold bodyPre3 bodyPost3 bodyAt3
  simp only [before3_0]
  rw [show (dat3 x y O W c).Φ t.succ = (dat3 x y O W c).Φ t.castSucc from rfl,
    show (dat3 x y O W c).owesAt none t.succ = (dat3 x y O W c).owesAt none t.castSucc from rfl,
    after3_0, after3_1]
  iintro ⟨HΦ, Ho, ⟨%d0, H0⟩, ⟨%d1, H1⟩⟩
  iapply (sound_kernel3 c Set.univ _ _ _ _ _ (iblk3 x t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 x y O W c) (defs₀ (F := F)) 𝒱₀ none Set.univ := fun t => by
  rw [bigSep_W3, bigSep_W3]
  exact sound_body3 x y O W c t

end Cert.KernelIdeal.Hand

end
-- ==== Proof.Region3Value.lean ====
/-
  The query transposing kernel's value: what a point writes back is its block of the whole-array function
  (e, l, b) ↦ x (b, l, e) for l < 20 and zero beyond, and the four blocks cover the output array.
-/
import proofs.«218768_g80616536146796_cont_9to1c4b_775_25_alg».proof.Proof.Region3Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The body's payload at an index: entry (e, l, b) of the stored block is entry (b, l, e) of the loaded block for a
    position below 20, and the zero of the padding beyond. -/
theorem pay3_apply (x0 : Vec F S256x20x128 .f32) (j : S64x200x256.Idx) :
    k3_pay1 x0 j = if h : (j 1).val < 20 then x0 (ix3 (j 2) (⟨(j 1).val, h⟩ : Fin 20) (⟨(j 0).val, Nat.lt_trans (j 0).isLt (by decide)⟩ : Fin 128))
      else Cert.Spec.zero (F := F) := by
  have h0 : (j 0).val < 64 := (j 0).isLt
  have h1 : (j 1).val < 200 := (j 1).isLt
  unfold k3_pay1
  by_cases h : (j 1).val < 20
  · rw [dif_pos h]
    refine (concatenate_pair_apply_left (t := S64x200x256) (s₁ := S64x20x256) (s₂ := S64x180x256) _ _ _ _ j rfl (ix3 (j 0) (⟨(j 1).val, h⟩ : Fin 20) (j 2) : S64x20x256.Idx)
      (fun b => match b with | ⟨0, _⟩ => rfl | ⟨1, _⟩ => rfl | ⟨2, _⟩ => rfl)).trans ?_
    refine (extractStridedSlice_apply _ _ _ _ (ix3 (⟨(j 0).val, Nat.lt_trans (j 0).isLt (by decide)⟩ : Fin 128) (⟨(j 1).val, h⟩ : Fin 20) (j 2)) (fun a => match a with
        | ⟨0, _⟩ => by show (j 0).val = 0 + (j 0).val; omega
        | ⟨1, _⟩ => by show (j 1).val = 0 + (j 1).val; omega
        | ⟨2, _⟩ => by show (j 2).val = 0 + (j 2).val; omega)).trans ?_
    refine (transpose_apply _ _ _ _ (ix3 (j 2) (⟨(j 1).val, h⟩ : Fin 20) (⟨(j 0).val, Nat.lt_trans (j 0).isLt (by decide)⟩ : Fin 128))
      (fun a => match a with | ⟨0, _⟩ => rfl | ⟨1, _⟩ => rfl | ⟨2, _⟩ => rfl)).trans ?_
    rw [shapeCast_self]
    rfl
  · rw [dif_neg h]
    refine (concatenate_pair_apply_right (t := S64x200x256) (s₁ := S64x20x256) (s₂ := S64x180x256) _ _ _ _ j rfl rfl (ix3 (j 0) (⟨(j 1).val - 20, by omega⟩ : Fin 180) (j 2) : S64x180x256.Idx)
      (fun b hb => match b, hb with
        | ⟨0, _⟩, _ => rfl
        | ⟨1, _⟩, hb => absurd rfl hb
        | ⟨2, _⟩, _ => rfl)
      (by show (j 1).val - 20 + 20 = (j 1).val; omega)).trans ?_
    rfl

/-- The printed index maps, decided over the grid: the input block's query index is the output block's on its last
    axis; every other axis is whole. -/
theorem idx_facts3 : ∀ t : Fin cfg3.N, win3_0.index t (0 : Fin 3) = win3_1.index t (2 : Fin 3)
    ∧ win3_0.index t (1 : Fin 3) = 0 ∧ win3_0.index t (2 : Fin 3) = 0
    ∧ win3_1.index t (0 : Fin 3) = 0 ∧ win3_1.index t (1 : Fin 3) = 0 :=
  (by decide +kernel : ∀ t : Fin grid3.N, _)

/-- Every block of the output array is some point's. -/
theorem idx_onto3 : ∀ (q2 : Fin 4), ∃ t : Fin cfg3.N, win3_1.index t = ![0, 0, q2.val] :=
  (by decide +kernel : ∀ (q2 : Fin 4), ∃ t : Fin grid3.N, win3_1.index t = ![0, 0, q2.val])

variable (x : FVec F Cert.Spec.SQ3 .f32) (y : FVec F Cert.Spec.ST .f32) (O : CellTallies nD τ sig (HIx 2)) (W : Waits sig (HIx 2))

/-- What point `t` writes back is block `t` of the whole-array function. -/
theorem flushed3_eq (c : Dev nD) (t : Fin cfg3.N) :
    (dat3 x y O W c).flushed 1 t = ((cfg3.win 1).blk t).view.read (Elt F) (Cert.Spec.T3 (F := F) x) := by
  show (cfg3.win 1).cut (grid3.coords t) ((dat3 x y O W c).after 1 t) = _
  rw [after3_1]
  obtain ⟨e0, e1, e2, e3, e4⟩ := idx_facts3 t
  funext j
  show k3_pay1 (iblk3 x t) j = Cert.Spec.t3 (F := F) x ((((cfg3.win 1).blk t).view.emb j) 0) ((((cfg3.win 1).blk t).view.emb j) 1) ((((cfg3.win 1).blk t).view.emb j) 2)
  refine (pay3_apply (iblk3 x t) j).trans ?_
  have h0 : (j 0).val < 64 := (j 0).isLt
  have h1 : (j 1).val < 200 := (j 1).isLt
  have p1 : ((((cfg3.win 1).blk t).view.emb j) 1).val = (j 1).val := by
    show win3_1.index t (1 : Fin 3) * 200 + 1 * (j 1).val = (j 1).val; omega
  unfold Cert.Spec.t3
  by_cases h : (j 1).val < 20
  · rw [dif_pos h, dif_pos (p1.symm ▸ h)]
    show x (((cfg3.win 0).blk t).view.emb (ix3 (j 2) (⟨(j 1).val, h⟩ : Fin 20) (⟨(j 0).val, _⟩ : Fin 128))) = x _
    refine congrArg x (funext fun a => Fin.ext ?_)
    match a with
    | ⟨0, _⟩ => show win3_0.index t (0 : Fin 3) * 256 + 1 * (j 2).val = win3_1.index t (2 : Fin 3) * 256 + 1 * (j 2).val; omega
    | ⟨1, _⟩ => show win3_0.index t (1 : Fin 3) * 20 + 1 * (j 1).val = win3_1.index t (1 : Fin 3) * 200 + 1 * (j 1).val; omega
    | ⟨2, _⟩ => show win3_0.index t (2 : Fin 3) * 128 + 1 * (j 0).val = win3_1.index t (0 : Fin 3) * 64 + 1 * (j 0).val; omega
  · rw [dif_neg h, dif_neg (p1.symm ▸ h)]

/-- An index of the output array is in point `t`'s block iff each coordinate is in the block's range on its axis. -/
theorem mem_blk3 (t : Fin cfg3.N) (i : Cert.Spec.ST.Idx) :
    i ∈ ((cfg3.win 1).blk t).view.set ↔ ∀ a : Fin 3, win3_1.index t a * S64x200x256.size a ≤ (i a).val ∧ (i a).val < win3_1.index t a * S64x200x256.size a + S64x200x256.size a := by
  show i ∈ ((View.whole main_v9).slice (win3_1.rect t)).set ↔ _
  rw [View.set_slice_whole, Rect.mem_set_unit]
  exact Iff.rfl

/-- The blocks cover the output array: entry (e, l, b) lies in the block of queries b / 256. -/
theorem cover3_arr (i : Cert.Spec.ST.Idx) : ∃ t : Fin cfg3.N, (cfg3.win 1).flush t = true ∧ i ∈ ((cfg3.win 1).blk t).view.set := by
  have hi0 : (i 0).val < 64 := (i 0).isLt
  have hi1 : (i 1).val < 200 := (i 1).isLt
  have hi2 : (i 2).val < 1024 := (i 2).isLt
  obtain ⟨t, ht⟩ := idx_onto3 ⟨(i 2).val / 256, by omega⟩
  have q0 : win3_1.index t (0 : Fin 3) = 0 := congrFun ht 0
  have q1 : win3_1.index t (1 : Fin 3) = 0 := congrFun ht 1
  have q2 : win3_1.index t (2 : Fin 3) = (i 2).val / 256 := congrFun ht 2
  refine ⟨t, flush3_1 t, ?_⟩
  rw [mem_blk3]
  intro a
  match a with
  | ⟨0, _⟩ => show win3_1.index t (0 : Fin 3) * 64 ≤ (i 0).val ∧ (i 0).val < win3_1.index t (0 : Fin 3) * 64 + 64; omega
  | ⟨1, _⟩ => show win3_1.index t (1 : Fin 3) * 200 ≤ (i 1).val ∧ (i 1).val < win3_1.index t (1 : Fin 3) * 200 + 200; omega
  | ⟨2, _⟩ => show win3_1.index t (2 : Fin 3) * 256 ≤ (i 2).val ∧ (i 2).val < win3_1.index t (2 : Fin 3) * 256 + 256; omega

/-- The output array after the last point: the whole-array function of the input. -/
theorem final3 (c : Dev nD) : (dat3 x y O W c).arrAt 1 cfg3.N = Cert.Spec.T3 (F := F) x :=
  (dat3 x y O W c).arrAt_eq_of_cover 1 (Cert.Spec.T3 (F := F) x) (fun t _ => flushed3_eq x y O W c t) cover3_arr

/-- The input array is never written. -/
theorem kept3 (c : Dev nD) : (dat3 x y O W c).arrAt 0 cfg3.N = x :=
  ((dat3 x y O W c).arrAt_in 0 rfl _).trans (A3_0 x y O W c)

end Cert.KernelIdeal.Hand

end
-- ==== Proof.Region3.lean ====
/-
  The query transposing pallas_call as one step of the TensorCore's @main: entered with the gathered rows `x` in its
  input array, it leaves the output array at the whole-array function (e, l, b) ↦ x (b, l, e) for l < 20 and zero
  beyond, the input as it was, and the thread owing what it owed, its recorded waits grown only by waits at the
  kernel's own index.
-/
import proofs.«218768_g80616536146796_cont_9to1c4b_775_25_alg».proof.Proof.Region3Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (x : FVec F Cert.Spec.SQ3 .f32) (y : FVec F Cert.Spec.ST .f32) (O : CellTallies nD τ sig (HIx 2)) (W : Waits sig (HIx 2))

/-- The three pipelines' proof data: the query transposing pipeline's, and nothing named for the other two. -/
def pdats3 : (p : Fin 3) → (c : Dev nD) → Dat τ (Elt F) (HIx 2) ℕ UU ℕ (Pipeline.pin (pcfgs (F := F)) adm p) c
  | ⟨0, _⟩ => anyDat _
  | ⟨1, _⟩ => dat3 x y O W
  | ⟨2, _⟩ => anyDat _
  | ⟨_ + 3, h⟩ => absurd h (Nat.not_lt.2 (Nat.le_add_left _ _))

/-- The pipeline's two arrays at contents `Fa` are the gathered rows' array and the output array held. -/
theorem arrays3_eq (c : Dev nD) (Fa) : ((pdats3 x y O W 1 c).arrays Fa : sProp (𝕄F F))
    = iprop((loc c main_v8 ↦{fullShare} Fa 0) ∗ (loc c main_v9 ↦{fullShare} Fa 1)) := by
  rw [Pipeline.arrays_eq (Pipeline.pin (pcfgs (F := F)) adm) (pdats3 x y O W) 1 c launch3.arr_whole ((pdats3 x y O W 1 c).share_full fun _ => rfl) Fa, bigSep_W3]
  rfl

theorem arrAt3_in (c : Dev nD) : (pdats3 x y O W 1 c).arrAt 0 (Pipeline.pin (pcfgs (F := F)) adm 1).N = x := kept3 x y O W c
theorem arrAt3_out (c : Dev nD) : (pdats3 x y O W 1 c).arrAt 1 (Pipeline.pin (pcfgs (F := F)) adm 1).N = Cert.Spec.T3 (F := F) x := final3 x y O W c

/-- The region: the two arrays into the pipeline, nothing beside them; the thread owing `O` throughout, its staging
    waits at the kernel's own index, below everything owed. -/
def reg3 (hO : ∀ g, O g none = 0) :
    Pipeline.RegionSeg (pcfgs (F := F)) adm (pdats3 x y O W) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 x y O W c).loose
  hwaits c := Pipeline.cellsWaits_intro _ (pdats3 x y O W) none 1 c fun w s t => (K (F := F)).mayWait_none _ hO
  pre c := iprop((loc c main_v8 ↦{fullShare} x) ∗ (loc c main_v9 ↦{fullShare} y) ∗ owes (T c) O W)
  post c := iprop((loc c main_v8 ↦{fullShare} x) ∗ (loc c main_v9 ↦{fullShare} (Cert.Spec.T3 (F := F) x))
    ∗ ∃ W', ⌜∀ p ∈ W', p ∈ W ∨ p.2 = none⌝ ∗ owes (T c) O W')
  X _ := iprop(emp)
  Y _ := iprop(emp)
  Z _ := iprop(emp)
  hentry c := by
    rw [Pipeline.ownSems0_none, arrays3_eq]
    iintro ⟨⟨Hx, Hy, HO⟩, -, -⟩
    imodintro
    isplitl [Hx Hy]
    · isplitl [Hx]; · iexact Hx
      iexact Hy
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr; · iempintro
    iempintro
  hin c := by
    show iprop(iprop(emp) ∗ _ ∗ Pipeline.scopedRest spec3 c) ⊢ (Pipeline.scopedRest spec3 c : sProp (𝕄F F))
    iintro ⟨-, -, H⟩; iexact H
  hout c := by
    rw [Pipeline.ownSems0_none]
    show (Pipeline.scopedRest spec3 c : sProp (𝕄F F)) ⊢ iprop(iprop(emp) ∗ iprop(emp) ∗ Pipeline.scopedRest spec3 c)
    iintro H; isplitr; · iempintro
    isplitr; · iempintro
    iexact H
  hexit c := by
    rw [arrays3_eq, arrAt3_in, arrAt3_out]
    iintro ⟨⟨Hx, Hy⟩, HO, -, -⟩
    imodintro
    isplitl [Hx]; · iexact Hx
    isplitl [Hy]; · iexact Hy
    unfold Pipeline.Dat.owesAt Pipeline.owesWithin
    icases HO with ⟨%W', %hW', HO⟩
    iexists W'; isplitr
    · ipureintro
      intro p hp
      rcases hW' hp with h | ⟨w, s, rfl⟩
      · exact h
      · exact Or.inr rfl
    iexact HO

theorem reg3_pre (hO : ∀ g, O g none = 0) (c : Dev nD) : (reg3 x y O W hO).pre c
    = iprop((loc c main_v8 ↦{fullShare} x) ∗ (loc c main_v9 ↦{fullShare} y) ∗ owes (T c) O W) := rfl
theorem reg3_post (hO : ∀ g, O g none = 0) (c : Dev nD) : (reg3 x y O W hO).post c
    = iprop((loc c main_v8 ↦{fullShare} x) ∗ (loc c main_v9 ↦{fullShare} (Cert.Spec.T3 (F := F) x))
      ∗ ∃ W', ⌜∀ p ∈ W', p ∈ W ∨ p.2 = none⌝ ∗ owes (T c) O W') := rfl

set_option backward.isDefEq.respectTransparency.types false in
/-- The query transposing pallas_call, run from the boundary: the output array ends at the whole-array function of the
    gathered rows. -/
theorem wp_region1 (d : Dev nD) (x : FVec F Cert.Spec.SQ3 .f32) (O : CellTallies nD τ sig (HIx 2)) (W : Waits sig (HIx 2))
    (hO : ∀ g, O g none = 0) (Q : PUnit → sProp (𝕄F F)) :
    iprop((iprop(boundary (T d) ∗ (loc d main_v8 ↦{fullShare} x) ∗ (loc d main_v9 ↦{fullShare} (Cert.Spec.T3 (F := F) x))
            ∗ ∃ W', ⌜∀ p ∈ W', p ∈ W ∨ p.2 = none⌝ ∗ owes (T d) O W') -∗ Q ⟨⟩)
        ∗ boundary (T d) ∗ (loc d main_v8 ↦{fullShare} x) ∗ (∃ y, loc d main_v9 ↦{fullShare} y) ∗ owes (T d) O W
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.lift (.customCall (Pipeline.entry 1) ())) Q := by
  iintro ⟨Hk, Hb, Hx, ⟨%y, Hy⟩, HO, Hl, Hg, Ht⟩
  have h := Pipeline.RegionSeg.wp (pcfgs (F := F)) adm (pdats3 x y O W) (none : HIx 2) Gen.cellOf_inj EP defs₀ 𝒱₀
    (K (F := F)).L (K (F := F)).lev (reg3 x y O W hO) d none (fun u hu => nomatch hu) (fun _ => .ret ⟨⟩) Q
  rw [reg3_pre, reg3_post] at h
  iapply h
  isplitl [Hk]
  · iintro ⟨Hb, Hx, Hy, HO⟩
    rw [wp_ret]
    imodintro
    iapply Hk
    isplitl [Hb]; · iexact Hb
    isplitl [Hx]; · iexact Hx
    isplitl [Hy]; · iexact Hy
    iexact HO
  isplitl [Hb]; · iexact Hb
  isplitl [Hx Hy HO]
  · isplitl [Hx]; · iexact Hx
    isplitl [Hy]; · iexact Hy
    iexact HO
  isplitl [Hl]; · iexact Hl
  isplitl [Hg]; · iexact Hg
  iexact Ht

end Cert.KernelIdeal.Hand

end
-- ==== Proof.Region4Value.lean ====
/-
  The document transposing kernel's value: what a point writes back is its block of the whole-array function
  (e, l, b) ↦ x (b, l, e), and the twenty blocks cover the output array.
-/
import proofs.«218768_g80616536146796_cont_9to1c4b_775_25_alg».proof.Proof.Region4Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The body's payload at an index: entry (e, l, b) of the transposed block is entry (b, l, e) of the loaded block. -/
theorem pay4_apply (x0 : Vec F S256x40x128 .f32) (j : S64x40x256.Idx) :
    k4_pay1 x0 j = x0 (ix3 (j 2) (j 1) (⟨(j 0).val, Nat.lt_trans (j 0).isLt (by decide)⟩ : Fin 128)) := by
  have h0 : (j 0).val < 64 := (j 0).isLt
  unfold k4_pay1
  refine (extractStridedSlice_apply _ _ _ j (ix3 (⟨(j 0).val, Nat.lt_trans (j 0).isLt (by decide)⟩ : Fin 128) (j 1) (j 2)) (fun a => match a with
      | ⟨0, _⟩ => by show (j 0).val = 0 + (j 0).val; omega
      | ⟨1, _⟩ => by show (j 1).val = 0 + (j 1).val; omega
      | ⟨2, _⟩ => by show (j 2).val = 0 + (j 2).val; omega)).trans ?_
  refine (transpose_apply _ _ _ _ (ix3 (j 2) (j 1) (⟨(j 0).val, Nat.lt_trans (j 0).isLt (by decide)⟩ : Fin 128))
    (fun a => match a with | ⟨0, _⟩ => rfl | ⟨1, _⟩ => rfl | ⟨2, _⟩ => rfl)).trans ?_
  rw [shapeCast_self]
  rfl

/-- The printed index maps, decided over the grid: the input block's document and position indices are the output
    block's, on its last and middle axes; the lane axes are whole. -/
theorem idx_facts4 : ∀ t : Fin cfg4.N, win4_0.index t (0 : Fin 3) = win4_1.index t (2 : Fin 3)
    ∧ win4_0.index t (1 : Fin 3) = win4_1.index t (1 : Fin 3)
    ∧ win4_0.index t (2 : Fin 3) = 0 ∧ win4_1.index t (0 : Fin 3) = 0 :=
  (by decide +kernel : ∀ t : Fin grid4.N, _)

/-- Every block of the output array is some point's. -/
theorem idx_onto4 : ∀ (q1 : Fin 5) (q2 : Fin 4), ∃ t : Fin cfg4.N, win4_1.index t = ![0, q1.val, q2.val] :=
  (by decide +kernel : ∀ (q1 : Fin 5) (q2 : Fin 4), ∃ t : Fin grid4.N, win4_1.index t = ![0, q1.val, q2.val])

variable (x : FVec F Cert.Spec.SD3 .f32) (y : FVec F Cert.Spec.ST .f32) (O : CellTallies nD τ sig (HIx 2)) (W : Waits sig (HIx 2))

/-- What point `t` writes back is block `t` of the whole-array function. -/
theorem flushed4_eq (c : Dev nD) (t : Fin cfg4.N) :
    (dat4 x y O W c).flushed 1 t = ((cfg4.win 1).blk t).view.read (Elt F) (Cert.Spec.T4 (F := F) x) := by
  show (cfg4.win 1).cut (grid4.coords t) ((dat4 x y O W c).after 1 t) = _
  rw [after4_1]
  obtain ⟨e0, e1, e2, e3⟩ := idx_facts4 t
  funext j
  show k4_pay1 (iblk4 x t) j = Cert.Spec.T4 (F := F) x (((cfg4.win 1).blk t).view.emb j)
  refine (pay4_apply (iblk4 x t) j).trans ?_
  show x (((cfg4.win 0).blk t).view.emb (ix3 (j 2) (j 1) (⟨(j 0).val, _⟩ : Fin 128))) = x (ix3 ((((cfg4.win 1).blk t).view.emb j) 2) ((((cfg4.win 1).blk t).view.emb j) 1) (Cert.Spec.col ((((cfg4.win 1).blk t).view.emb j) 0)))
  refine congrArg x (funext fun a => Fin.ext ?_)
  have h0 : (j 0).val < 64 := (j 0).isLt
  match a with
  | ⟨0, _⟩ => show win4_0.index t (0 : Fin 3) * 256 + 1 * (j 2).val = win4_1.index t (2 : Fin 3) * 256 + 1 * (j 2).val; omega
  | ⟨1, _⟩ => show win4_0.index t (1 : Fin 3) * 40 + 1 * (j 1).val = win4_1.index t (1 : Fin 3) * 40 + 1 * (j 1).val; omega
  | ⟨2, _⟩ => show win4_0.index t (2 : Fin 3) * 128 + 1 * (j 0).val = win4_1.index t (0 : Fin 3) * 64 + 1 * (j 0).val; omega

/-- An index of the output array is in point `t`'s block iff each coordinate is in the block's range on its axis. -/
theorem mem_blk4 (t : Fin cfg4.N) (i : Cert.Spec.ST.Idx) :
    i ∈ ((cfg4.win 1).blk t).view.set ↔ ∀ a : Fin 3, win4_1.index t a * S64x40x256.size a ≤ (i a).val ∧ (i a).val < win4_1.index t a * S64x40x256.size a + S64x40x256.size a := by
  show i ∈ ((View.whole main_v11).slice (win4_1.rect t)).set ↔ _
  rw [View.set_slice_whole, Rect.mem_set_unit]
  exact Iff.rfl

/-- The blocks cover the output array: entry (e, l, b) lies in the block of positions l / 40 and documents b / 256. -/
theorem cover4_arr (i : Cert.Spec.ST.Idx) : ∃ t : Fin cfg4.N, (cfg4.win 1).flush t = true ∧ i ∈ ((cfg4.win 1).blk t).view.set := by
  have hi0 : (i 0).val < 64 := (i 0).isLt
  have hi1 : (i 1).val < 200 := (i 1).isLt
  have hi2 : (i 2).val < 1024 := (i 2).isLt
  obtain ⟨t, ht⟩ := idx_onto4 ⟨(i 1).val / 40, by omega⟩ ⟨(i 2).val / 256, by omega⟩
  have q0 : win4_1.index t (0 : Fin 3) = 0 := congrFun ht 0
  have q1 : win4_1.index t (1 : Fin 3) = (i 1).val / 40 := congrFun ht 1
  have q2 : win4_1.index t (2 : Fin 3) = (i 2).val / 256 := congrFun ht 2
  refine ⟨t, flush4_1 t, ?_⟩
  rw [mem_blk4]
  intro a
  match a with
  | ⟨0, _⟩ => show win4_1.index t (0 : Fin 3) * 64 ≤ (i 0).val ∧ (i 0).val < win4_1.index t (0 : Fin 3) * 64 + 64; omega
  | ⟨1, _⟩ => show win4_1.index t (1 : Fin 3) * 40 ≤ (i 1).val ∧ (i 1).val < win4_1.index t (1 : Fin 3) * 40 + 40; omega
  | ⟨2, _⟩ => show win4_1.index t (2 : Fin 3) * 256 ≤ (i 2).val ∧ (i 2).val < win4_1.index t (2 : Fin 3) * 256 + 256; omega

/-- The output array after the last point: the whole-array function of the input. -/
theorem final4 (c : Dev nD) : (dat4 x y O W c).arrAt 1 cfg4.N = Cert.Spec.T4 (F := F) x :=
  (dat4 x y O W c).arrAt_eq_of_cover 1 (Cert.Spec.T4 (F := F) x) (fun t _ => flushed4_eq x y O W c t) cover4_arr

/-- The input array is never written. -/
theorem kept4 (c : Dev nD) : (dat4 x y O W c).arrAt 0 cfg4.N = x :=
  ((dat4 x y O W c).arrAt_in 0 rfl _).trans (A4_0 x y O W c)

end Cert.KernelIdeal.Hand

end
-- ==== Proof.Region4.lean ====
/-
  The document transposing pallas_call as one step of the TensorCore's @main: entered with the gathered rows `x` in its
  input array, it leaves the output array at the whole-array function (e, l, b) ↦ x (b, l, e), the input as it was, and
  the thread owing what it owed, its recorded waits grown only by waits at the kernel's own index.
-/
import proofs.«218768_g80616536146796_cont_9to1c4b_775_25_alg».proof.Proof.Region4Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (x : FVec F Cert.Spec.SD3 .f32) (y : FVec F Cert.Spec.ST .f32) (O : CellTallies nD τ sig (HIx 2)) (W : Waits sig (HIx 2))

/-- The three pipelines' proof data: the document transposing pipeline's, and nothing named for the other two. -/
def pdats4 : (p : Fin 3) → (c : Dev nD) → Dat τ (Elt F) (HIx 2) ℕ UU ℕ (Pipeline.pin (pcfgs (F := F)) adm p) c
  | ⟨0, _⟩ => anyDat _
  | ⟨1, _⟩ => anyDat _
  | ⟨2, _⟩ => dat4 x y O W
  | ⟨_ + 3, h⟩ => absurd h (Nat.not_lt.2 (Nat.le_add_left _ _))

/-- The pipeline's two arrays at contents `Fa` are the gathered rows' array and the output array held. -/
theorem arrays4_eq (c : Dev nD) (Fa) : ((pdats4 x y O W 2 c).arrays Fa : sProp (𝕄F F))
    = iprop((loc c main_v10 ↦{fullShare} Fa 0) ∗ (loc c main_v11 ↦{fullShare} Fa 1)) := by
  rw [Pipeline.arrays_eq (Pipeline.pin (pcfgs (F := F)) adm) (pdats4 x y O W) 2 c launch4.arr_whole ((pdats4 x y O W 2 c).share_full fun _ => rfl) Fa, bigSep_W4]
  rfl

theorem arrAt4_in (c : Dev nD) : (pdats4 x y O W 2 c).arrAt 0 (Pipeline.pin (pcfgs (F := F)) adm 2).N = x := kept4 x y O W c
theorem arrAt4_out (c : Dev nD) : (pdats4 x y O W 2 c).arrAt 1 (Pipeline.pin (pcfgs (F := F)) adm 2).N = Cert.Spec.T4 (F := F) x := final4 x y O W c

/-- The region: the two arrays into the pipeline, nothing beside them; the thread owing `O` throughout, its staging
    waits at the kernel's own index, below everything owed. -/
def reg4 (hO : ∀ g, O g none = 0) :
    Pipeline.RegionSeg (pcfgs (F := F)) adm (pdats4 x y O W) (none : HIx 2) defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 x y O W c).loose
  hwaits c := Pipeline.cellsWaits_intro _ (pdats4 x y O W) none 2 c fun w s t => (K (F := F)).mayWait_none _ hO
  pre c := iprop((loc c main_v10 ↦{fullShare} x) ∗ (loc c main_v11 ↦{fullShare} y) ∗ owes (T c) O W)
  post c := iprop((loc c main_v10 ↦{fullShare} x) ∗ (loc c main_v11 ↦{fullShare} (Cert.Spec.T4 (F := F) x))
    ∗ ∃ W', ⌜∀ p ∈ W', p ∈ W ∨ p.2 = none⌝ ∗ owes (T c) O W')
  X _ := iprop(emp)
  Y _ := iprop(emp)
  Z _ := iprop(emp)
  hentry c := by
    rw [Pipeline.ownSems0_none, arrays4_eq]
    iintro ⟨⟨Hx, Hy, HO⟩, -, -⟩
    imodintro
    isplitl [Hx Hy]
    · isplitl [Hx]; · iexact Hx
      iexact Hy
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr; · iempintro
    iempintro
  hin c := by
    show iprop(iprop(emp) ∗ _ ∗ Pipeline.scopedRest spec4 c) ⊢ (Pipeline.scopedRest spec4 c : sProp (𝕄F F))
    iintro ⟨-, -, H⟩; iexact H
  hout c := by
    rw [Pipeline.ownSems0_none]
    show (Pipeline.scopedRest spec4 c : sProp (𝕄F F)) ⊢ iprop(iprop(emp) ∗ iprop(emp) ∗ Pipeline.scopedRest spec4 c)
    iintro H; isplitr; · iempintro
    isplitr; · iempintro
    iexact H
  hexit c := by
    rw [arrays4_eq, arrAt4_in, arrAt4_out]
    iintro ⟨⟨Hx, Hy⟩, HO, -, -⟩
    imodintro
    isplitl [Hx]; · iexact Hx
    isplitl [Hy]; · iexact Hy
    unfold Pipeline.Dat.owesAt Pipeline.owesWithin
    icases HO with ⟨%W', %hW', HO⟩
    iexists W'; isplitr
    · ipureintro
      intro p hp
      rcases hW' hp with h | ⟨w, s, rfl⟩
      · exact h
      · exact Or.inr rfl
    iexact HO

theorem reg4_pre (hO : ∀ g, O g none = 0) (c : Dev nD) : (reg4 x y O W hO).pre c
    = iprop((loc c main_v10 ↦{fullShare} x) ∗ (loc c main_v11 ↦{fullShare} y) ∗ owes (T c) O W) := rfl
theorem reg4_post (hO : ∀ g, O g none = 0) (c : Dev nD) : (reg4 x y O W hO).post c
    = iprop((loc c main_v10 ↦{fullShare} x) ∗ (loc c main_v11 ↦{fullShare} (Cert.Spec.T4 (F := F) x))
      ∗ ∃ W', ⌜∀ p ∈ W', p ∈ W ∨ p.2 = none⌝ ∗ owes (T c) O W') := rfl

set_option backward.isDefEq.respectTransparency.types false in
/-- The document transposing pallas_call, run from the boundary: the output array ends at the whole-array function of the
    gathered rows. -/
theorem wp_region2 (d : Dev nD) (x : FVec F Cert.Spec.SD3 .f32) (O : CellTallies nD τ sig (HIx 2)) (W : Waits sig (HIx 2))
    (hO : ∀ g, O g none = 0) (Q : PUnit → sProp (𝕄F F)) :
    iprop((iprop(boundary (T d) ∗ (loc d main_v10 ↦{fullShare} x) ∗ (loc d main_v11 ↦{fullShare} (Cert.Spec.T4 (F := F) x))
            ∗ ∃ W', ⌜∀ p ∈ W', p ∈ W ∨ p.2 = none⌝ ∗ owes (T d) O W') -∗ Q ⟨⟩)
        ∗ boundary (T d) ∗ (loc d main_v10 ↦{fullShare} x) ∗ (∃ y, loc d main_v11 ↦{fullShare} y) ∗ owes (T d) O W
        ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE (D (F := F)) 𝒱 (T d) none) Set.univ (Prog.lift (.customCall (Pipeline.entry 2) ())) Q := by
  iintro ⟨Hk, Hb, Hx, ⟨%y, Hy⟩, HO, Hl, Hg, Ht⟩
  have h := Pipeline.RegionSeg.wp (pcfgs (F := F)) adm (pdats4 x y O W) (none : HIx 2) Gen.cellOf_inj EP defs₀ 𝒱₀
    (K (F := F)).L (K (F := F)).lev (reg4 x y O W hO) d none (fun u hu => nomatch hu) (fun _ => .ret ⟨⟩) Q
  rw [reg4_pre, reg4_post] at h
  iapply h
  isplitl [Hk]
  · iintro ⟨Hb, Hx, Hy, HO⟩
    rw [wp_ret]
    imodintro
    iapply Hk
    isplitl [Hb]; · iexact Hb
    isplitl [Hx]; · iexact Hx
    isplitl [Hy]; · iexact Hy
    iexact HO
  isplitl [Hb]; · iexact Hb
  isplitl [Hx Hy HO]
  · isplitl [Hx]; · iexact Hx
    isplitl [Hy]; · iexact Hy
    iexact HO
  isplitl [Hl]; · iexact Hl
  isplitl [Hg]; · iexact Hg
  iexact Ht

end Cert.KernelIdeal.Hand

end
-- ==== Proof.ScSplit.lean ====
/-
  How the arrays of the two SparseCore calls split, and how the results join back.

  Both calls are handed, whole, the re-laid table and an index array (only read) and an output array (written). The two
  SparseCores each take a half of the full share of the two arrays read, and a SparseCore deals its half to its sixteen
  subcores as sixteen read tokens, keeping what is left of the half aside until the tokens come back. The tokens of the
  table come back at contents of the subcores' choosing (the table travels under an existential): the part kept aside,
  held beside each token, pins those contents to what went out, so the half is whole again at one contents; the same
  between the two halves.

  The output array's rows are dealt by worker: worker w = subcore * 2 + SparseCore owns rows [w * len, w * len + len),
  len = 640 of 20480 rows for call 0 and len = 6400 of 204800 rows for call 1. The 32 windows are pairwise disjoint
  (distinct multiples of len, len apart) and cover every row (row r lies in the window of worker r / len, which is
  subcore r / len / 2 of SparseCore r / len % 2), so the whole array is its 32 pieces. Coming back, the pieces are held at
  32 contents, each holding in its own window the table rows its tokens name; the array is whole at contents that agree
  with each piece's on its window, hence hold in every row the table row that row's token names.
-/
import proofs.«218768_g80616536146796_cont_9to1c4b_775_25_alg».proof.Proof.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The workers' row ranges tile the rows -/

/-- Worker numbers are distinct for distinct (SparseCore, subcore) pairs. -/
theorem wid_ne {p p' : Fin 2 × Fin 16} (h : p ≠ p') : wid p.1.val p.2.val ≠ wid p'.1.val p'.2.val := by
  intro e; apply h
  have h1 := p.1.isLt; have h2 := p'.1.isLt
  unfold wid at e
  exact Prod.ext (Fin.ext (by omega)) (Fin.ext (by omega))

/-- Windows of len rows at distinct multiples of len do not meet. -/
theorem rows_disjoint (n len : ℕ) {w w' : ℕ} (h : w ≠ w') : Disjoint (rowsOf n (w * len) len) (rowsOf n (w' * len) len) := by
  rw [Finset.disjoint_left]
  intro x hx hx'
  rw [mem_rowsOf] at hx hx'
  rcases Nat.lt_or_gt_of_ne h with h | h
  · have := Nat.mul_le_mul_right len (Nat.succ_le_of_lt h)
    rw [Nat.succ_mul] at this; omega
  · have := Nat.mul_le_mul_right len (Nat.succ_le_of_lt h)
    rw [Nat.succ_mul] at this; omega

/-- The worker whose window holds row r < 32 * len. -/
def owner (len r : ℕ) : Fin 2 × Fin 16 := (⟨r / len % 2, Nat.mod_lt _ (by decide)⟩, ⟨r / len / 2 % 16, Nat.mod_lt _ (by decide)⟩)

theorem owner_spec {len r : ℕ} (hlen : 0 < len) (hr : r < 32 * len) :
    wid (owner len r).1.val (owner len r).2.val * len ≤ r ∧ r < wid (owner len r).1.val (owner len r).2.val * len + len := by
  have hw : r / len < 32 := Nat.div_lt_of_lt_mul (by rw [Nat.mul_comm]; exact hr)
  have e : wid (owner len r).1.val (owner len r).2.val = r / len := by
    show r / len / 2 % 16 * 2 + r / len % 2 = r / len
    generalize r / len = w at hw ⊢
    omega
  rw [e]
  exact ⟨Nat.div_mul_le_self r len, Nat.lt_div_mul_add hlen⟩

/-! ## Read shares of one array held side by side -/

section Shares

variable {ℓ : Loc nD τ sig}

/-- A points-to held beside another of the same array pins the other's contents to its own. -/
theorem pointsTo_same (q₁ q₂ : PosShare TreeShare) (f g : Buf (Elt F) ℓ) :
    iprop((ℓ ↦{q₁} f) ∗ (ℓ ↦{q₂} g)) ⊢ (iprop((ℓ ↦{q₁} f) ∗ (ℓ ↦{q₂} f)) : sProp (𝕄F F)) := by
  refine Laws.pure_elim _ pointsTo_agree fun h => ?_
  have e : g = f := funext fun i => ((h i (Finset.mem_inter.mpr ⟨Finset.mem_univ i, Finset.mem_univ i⟩)).1).symm
  rw [e]

/-- Read shares handed back at contents of their holders' choosing are at the contents of the share kept. -/
theorem toks_agree {ι : Type} [DecidableEq ι] (s : Finset ι) (q₀ : PosShare TreeShare) (sh : ι → PosShare TreeShare) (f : Buf (Elt F) ℓ)
    (φ : Buf (Elt F) ℓ → Prop) :
    iprop((ℓ ↦{q₀} f) ∗ bigSep s fun i => iprop(∃ g, ⌜φ g⌝ ∗ (ℓ ↦{sh i} g)))
      ⊢ (iprop((ℓ ↦{q₀} f) ∗ bigSep s fun i => (ℓ ↦{sh i} f)) : sProp (𝕄F F)) := by
  induction s using Finset.induction_on with
  | empty => rw [bigSep_empty, bigSep_empty]
  | insert a s ha ih =>
    rw [SparseCore.bigSep_insert' ha, SparseCore.bigSep_insert' ha]
    iintro ⟨H0, ⟨%g, -, Ha⟩, Hs⟩
    ihave H := (pointsTo_same q₀ (sh a) f g) $$ [H0 Ha]
    · isplitl [H0] <;> iassumption
    icases H with ⟨H0, Ha⟩
    ihave H := ih $$ [H0 Hs]
    · isplitl [H0] <;> iassumption
    icases H with ⟨H0, Hs⟩
    isplitl [H0]; · iexact H0
    isplitl [Ha] <;> iassumption

/-- The full share is the two SparseCores' halves. -/
theorem pointsTo_halves (f : Buf (Elt F) ℓ) :
    (ℓ ↦{fullShare} f : sProp (𝕄F F)) ⊣⊢ iprop((ℓ ↦{cSh 0} f) ∗ (ℓ ↦{cSh 1} f)) := by
  rw [cSh_zero, cSh_one]; exact pointsTo_share (PosShare.mem_left_op_right fullShare)

/-- A SparseCore's share dealt as its sixteen subcores' read tokens (what is left of the share is kept aside), and collected. -/
theorem toks_split (c : ℕ) (f : Buf (Elt F) ℓ) :
    (ℓ ↦{cSh c} f : sProp (𝕄F F)) ⊢ iprop((ℓ ↦{Transfers.shareDrop (cSh c) 16} f) ∗ bigSep Finset.univ fun i : Fin 16 => (ℓ ↦{tSh c i.val} f)) :=
  Transfers.pointsTo_toks_split (cSh c) 16
theorem toks_join (c : ℕ) (f : Buf (Elt F) ℓ) :
    iprop((ℓ ↦{Transfers.shareDrop (cSh c) 16} f) ∗ bigSep Finset.univ fun i : Fin 16 => (ℓ ↦{tSh c i.val} f)) ⊢ (ℓ ↦{cSh c} f : sProp (𝕄F F)) :=
  Transfers.pointsTo_toks_join (cSh c) 16

end Shares

/-- Summand by summand. -/
theorem bigSep_mono' {I : Type} {s : Finset I} {Φ Ψ : I → sProp (𝕄F F)} (h : ∀ i ∈ s, Φ i ⊢ Ψ i) : bigSep s Φ ⊢ bigSep s Ψ := bigSep_mono h

/-! ## A whole array as its workers' pieces -/

section Pieces

variable {ℓ : Loc nD τ sig} (Kp : Fin 2 × Fin 16 → Finset (Idx ℓ))
  (hdisj : ∀ p ∈ (Finset.univ : Finset (Fin 2 × Fin 16)), ∀ p' ∈ (Finset.univ : Finset (Fin 2 × Fin 16)), p ≠ p' → Disjoint (Kp p) (Kp p'))
  (hcover : (Finset.univ : Finset (Fin 2 × Fin 16)).biUnion Kp = Finset.univ)

include hdisj hcover

/-- Held whole at one contents, it is its pieces at those contents. -/
theorem whole_pieces (g : Buf (Elt F) ℓ) :
    (ℓ ↦{fullShare} g : sProp (𝕄F F)) = bigSep Finset.univ fun c : Fin 2 => bigSep Finset.univ fun i : Fin 16 => ℓ ↦[Kp (c, i)]{fullShare} g := by
  rw [← bigSep_univ_prod (fun p : Fin 2 × Fin 16 => (ℓ ↦[Kp p]{fullShare} g : sProp (𝕄F F))), ← pointsTo_biUnion Finset.univ Kp hdisj, hcover]

/-- Its pieces, each at contents of its holder's choosing with some fact known of them, are the whole at contents that agree
    with each holder's on its piece. -/
theorem pieces_whole (g₀ : Buf (Elt F) ℓ) (φ : Fin 2 × Fin 16 → Buf (Elt F) ℓ → Prop) :
    (bigSep Finset.univ fun c : Fin 2 => bigSep Finset.univ fun i : Fin 16 => iprop(∃ g, ⌜φ (c, i) g⌝ ∗ (ℓ ↦[Kp (c, i)]{fullShare} g)))
      ⊢ (iprop(∃ g, ⌜∀ p, ∃ g', φ p g' ∧ ∀ x ∈ Kp p, g x = g' x⌝ ∗ (ℓ ↦{fullShare} g)) : sProp (𝕄F F)) := by
  haveI : Nonempty (Buf (Elt F) ℓ) := ⟨g₀⟩
  rw [← bigSep_univ_prod (fun p : Fin 2 × Fin 16 => (iprop(∃ g, ⌜φ p g⌝ ∗ (ℓ ↦[Kp p]{fullShare} g)) : sProp (𝕄F F)))]
  refine (bigSep_exists_pi Finset.univ (fun p (g : Buf (Elt F) ℓ) => (iprop(⌜φ p g⌝ ∗ (ℓ ↦[Kp p]{fullShare} g)) : sProp (𝕄F F)))).trans ?_
  iintro ⟨%gs, H⟩
  ihave H := (bigSep_pure_sep Finset.univ (fun p => φ p (gs p)) (fun p => (ℓ ↦[Kp p]{fullShare} gs p : sProp (𝕄F F)))) $$ H
  icases H with ⟨%hφ, H⟩
  ihave H := (pointsTo_biUnion_join (q := fullShare) Finset.univ Kp gs g₀ hdisj) $$ H
  icases H with ⟨%g, %hg, H⟩
  rw [hcover]
  iexists g
  isplitr
  · ipureintro; intro p; exact ⟨gs p, hφ p (Finset.mem_univ p), hg p (Finset.mem_univ p)⟩
  iexact H

end Pieces

variable (m : (ℓ : Loc nD τ sig) → Buf (Elt F) ℓ)

variable [FloatOps F]

/-! ## The table between a SparseCore and its sixteen subcores -/

/-- A SparseCore's share of the table dealt as its subcores' read tokens, and collected again: the tokens come back at
    contents of the subcores' choosing, which the part of the share kept aside pins to what went out. -/
theorem tab_deal (d : Dev nD) (c : ℕ) :
    tabAt m d (cSh c) ⊢ iprop((bigSep Finset.univ fun i : Fin 16 => tabAt m d (tSh c i.val))
      ∗ ((bigSep Finset.univ fun i : Fin 16 => tabAt m d (tSh c i.val)) -∗ tabAt m d (cSh c))) := by
  unfold tabAt
  iintro ⟨%f, %hf, H⟩
  ihave H := (toks_split c f) $$ H
  icases H with ⟨Hd, Ht⟩
  isplitl [Ht]
  · have h1 : ∀ i ∈ (Finset.univ : Finset (Fin 16)), (loc d main_v1 ↦{tSh c i.val} f : sProp (𝕄F F))
        ⊢ iprop(∃ f : Buf (Elt F) (loc d main_v1), ⌜Cert.Spec.Tab2OK (m (loc d main_arg2)) f⌝ ∗ (loc d main_v1 ↦{tSh c i.val} f)) := by
      intro i _
      iintro H; iexists f
      isplitr; · ipureintro; exact hf
      iexact H
    iapply (bigSep_mono' h1) $$ Ht
  iintro Ht
  ihave H := (toks_agree Finset.univ (Transfers.shareDrop (cSh c) 16) (fun i : Fin 16 => tSh c i.val) f (Cert.Spec.Tab2OK (m (loc d main_arg2)))) $$ [Hd Ht]
  · isplitl [Hd] <;> iassumption
  iexists f
  isplitr; · ipureintro; exact hf
  iapply (toks_join c f)
  iexact H

/-! ## Call 0 -/

theorem vecSplit0 : (K (F := F)).VecSplit' (P m) 0 := by
  intro d c
  show st0 m d c.val ⊢ |={Set.univ}=> iprop((bigSep Finset.univ fun i : Fin 16 => go0 m d c.val i.val)
    ∗ ((bigSep Finset.univ fun i : Fin 16 => td0 m d c.val i.val) -∗ dn0 m d c.val))
  unfold st0 go0 td0 dn0
  rw [bigSep_sep', bigSep_sep', bigSep_sep', bigSep_sep']
  iintro ⟨Ht, Hx, Ho⟩
  ihave Ht := (tab_deal m d c.val) $$ Ht
  icases Ht with ⟨Ht, Htj⟩
  ihave Hx := (toks_split c.val (idx3 m d)) $$ Hx
  icases Hx with ⟨Hxd, Hx⟩
  imodintro
  isplitl [Ht Hx Ho]
  · isplitl [Ht]; · iexact Ht
    isplitl [Hx]; · iexact Hx
    iexact Ho
  iintro ⟨Ht, Hx, Ho⟩
  isplitl [Htj Ht]; · iapply Htj; iexact Ht
  isplitl [Hxd Hx]
  · iapply (toks_join c.val (idx3 m d))
    isplitl [Hxd] <;> iassumption
  iexact Ho

/-- The pieces of main_v4, by (SparseCore, subcore). -/
def Kp0 (d : Dev nD) : Fin 2 × Fin 16 → Finset (Idx (loc d main_v4)) := fun p => task0 p.1.val p.2.val

omit [FloatOps F] in
theorem Kp0_disj (d : Dev nD) : ∀ p ∈ (Finset.univ : Finset (Fin 2 × Fin 16)), ∀ p' ∈ (Finset.univ : Finset (Fin 2 × Fin 16)),
    p ≠ p' → Disjoint (Kp0 d p) (Kp0 d p') :=
  fun _ _ _ _ h => rows_disjoint 20480 640 (wid_ne h)

omit [FloatOps F] in
theorem Kp0_cover (d : Dev nD) : (Finset.univ : Finset (Fin 2 × Fin 16)).biUnion (Kp0 d) = Finset.univ :=
  Finset.eq_univ_iff_forall.mpr fun (x : (⟨2, ![20480, 128]⟩ : Shape).Idx) => Finset.mem_biUnion.mpr
    ⟨owner 640 (x 0).val, Finset.mem_univ _, mem_rowsOf.mpr (owner_spec (by decide) (show (x 0).val < 32 * 640 from (x 0).isLt))⟩

/-- main_v4 whole, at any contents, is the two SparseCores' sixteen pieces each, at any contents. -/
theorem out_pieces0 (d : Dev nD) :
    (iprop(∃ g, (loc d main_v4 ↦{fullShare} g)) : sProp (𝕄F F))
      ⊢ iprop((bigSep Finset.univ fun i : Fin 16 => iprop(∃ g : Buf (Elt F) (loc d main_v4), (loc d main_v4 ↦[task0 0 i.val]{fullShare} g)))
        ∗ (bigSep Finset.univ fun i : Fin 16 => iprop(∃ g : Buf (Elt F) (loc d main_v4), (loc d main_v4 ↦[task0 1 i.val]{fullShare} g)))) := by
  refine BIBase.Entails.trans ?_ (Entails.of_eq (bigSep_univ_two fun c : Fin 2 =>
    bigSep Finset.univ fun i : Fin 16 => (iprop(∃ g : Buf (Elt F) (loc d main_v4), (loc d main_v4 ↦[task0 c.val i.val]{fullShare} g)) : sProp (𝕄F F))))
  iintro ⟨%g, H⟩
  ihave H := (Entails.of_eq (whole_pieces (F := F) (Kp0 d) (Kp0_disj d) (Kp0_cover d) g)) $$ H
  have h1 : ∀ c ∈ (Finset.univ : Finset (Fin 2)), ∀ i ∈ (Finset.univ : Finset (Fin 16)),
      (loc d main_v4 ↦[Kp0 d (c, i)]{fullShare} g : sProp (𝕄F F))
        ⊢ iprop(∃ g : Buf (Elt F) (loc d main_v4), (loc d main_v4 ↦[task0 c.val i.val]{fullShare} g)) := by
    intro c _ i _
    iintro H; iexists g; iexact H
  iapply (bigSep_mono' fun c hc => bigSep_mono' (h1 c hc)) $$ H

/-- What call 0 is handed. -/
theorem st_intro0 (d : Dev nD) (f : Buf (Elt F) (loc d main_v1)) (hf : Cert.Spec.Tab2OK (m (loc d main_arg2)) f) :
    iprop((loc d main_v1 ↦{fullShare} f) ∗ (loc d main_v3 ↦{fullShare} idx3 m d) ∗ ∃ g, loc d main_v4 ↦{fullShare} g)
      ⊢ bigSep Finset.univ fun c : Fin ((K (F := F)).nCore 0) => (P m).st 0 d c := by
  show _ ⊢ bigSep (Finset.univ : Finset (Fin 2)) fun c => st0 m d c.val
  rw [bigSep_univ_two]
  show _ ⊢ iprop(st0 m d 0 ∗ st0 m d 1)
  unfold st0 tabAt
  iintro ⟨Ht, Hx, Ho⟩
  ihave Ht := (pointsTo_halves f).1 $$ Ht
  icases Ht with ⟨Ht0, Ht1⟩
  ihave Hx := (pointsTo_halves (idx3 m d)).1 $$ Hx
  icases Hx with ⟨Hx0, Hx1⟩
  ihave Ho := (out_pieces0 d) $$ Ho
  icases Ho with ⟨Ho0, Ho1⟩
  isplitl [Ht0 Hx0 Ho0]
  · isplitl [Ht0]
    · iexists f
      isplitr; · ipureintro; exact hf
      iexact Ht0
    isplitl [Hx0]; · iexact Hx0
    iexact Ho0
  · isplitl [Ht1]
    · iexists f
      isplitr; · ipureintro; exact hf
      iexact Ht1
    isplitl [Hx1]; · iexact Hx1
    iexact Ho1

/-- The two SparseCores' pieces of main_v4, each holding the rows its worker's tokens name, are main_v4 whole holding
    the rows all the tokens name. -/
theorem out_whole0 (d : Dev nD) :
    iprop((bigSep Finset.univ fun i : Fin 16 => iprop(∃ g : Buf (Elt F) (loc d main_v4),
          ⌜RowsDone (Cert.Spec.qTok (m (loc d main_arg0))) (m (loc d main_arg2)) (wid 0 i.val * 640) 640 g⌝ ∗ (loc d main_v4 ↦[task0 0 i.val]{fullShare} g)))
        ∗ (bigSep Finset.univ fun i : Fin 16 => iprop(∃ g : Buf (Elt F) (loc d main_v4),
          ⌜RowsDone (Cert.Spec.qTok (m (loc d main_arg0))) (m (loc d main_arg2)) (wid 1 i.val * 640) 640 g⌝ ∗ (loc d main_v4 ↦[task0 1 i.val]{fullShare} g))))
      ⊢ (iprop(∃ g : Buf (Elt F) (loc d main_v4), ⌜Cert.Spec.RowsOK (Cert.Spec.qTok (m (loc d main_arg0))) (m (loc d main_arg2)) g⌝
          ∗ (loc d main_v4 ↦{fullShare} g)) : sProp (𝕄F F)) := by
  refine (Entails.of_eq (bigSep_univ_two fun c : Fin 2 => bigSep Finset.univ fun i : Fin 16 =>
    (iprop(∃ g : Buf (Elt F) (loc d main_v4),
      ⌜RowsDone (Cert.Spec.qTok (m (loc d main_arg0))) (m (loc d main_arg2)) (wid c.val i.val * 640) 640 g⌝
        ∗ (loc d main_v4 ↦[task0 c.val i.val]{fullShare} g)) : sProp (𝕄F F))).symm).trans ?_
  refine (pieces_whole (F := F) (Kp0 d) (Kp0_disj d) (Kp0_cover d) (m (loc d main_v4))
    (fun p g => RowsDone (Cert.Spec.qTok (m (loc d main_arg0))) (m (loc d main_arg2)) (wid p.1.val p.2.val * 640) 640 g)).trans ?_
  iintro ⟨%g, %h, H⟩
  iexists g
  isplitr
  · ipureintro
    intro r e
    obtain ⟨g', hg', hx⟩ := h (owner 640 r.val)
    have hs := owner_spec (len := 640) (by decide) (show r.val < 32 * 640 from r.isLt)
    rw [hx (ix2 r (Cert.Spec.col e)) (mem_rowsOf.mpr hs)]
    exact hg' r e hs.1 hs.2
  iexact H

/-- What call 0 hands back. -/
theorem dn_elim0 (d : Dev nD) :
    (bigSep Finset.univ fun c : Fin ((K (F := F)).nCore 0) => (P m).dn 0 d c)
      ⊢ iprop(∃ f g, ⌜Cert.Spec.Tab2OK (m (loc d main_arg2)) f ∧ Cert.Spec.RowsOK (Cert.Spec.qTok (m (loc d main_arg0))) (m (loc d main_arg2)) g⌝
          ∗ (loc d main_v1 ↦{fullShare} f) ∗ (loc d main_v3 ↦{fullShare} idx3 m d) ∗ (loc d main_v4 ↦{fullShare} g)) := by
  show (bigSep (Finset.univ : Finset (Fin 2)) fun c => dn0 m d c.val) ⊢ _
  rw [bigSep_univ_two]
  show iprop(dn0 m d 0 ∗ dn0 m d 1) ⊢ _
  unfold dn0 tabAt
  iintro ⟨⟨⟨%f0, %hf0, Ht0⟩, Hx0, Ho0⟩, ⟨%f1, -, Ht1⟩, Hx1, Ho1⟩
  ihave Ht := (pointsTo_same (cSh 0) (cSh 1) f0 f1) $$ [Ht0 Ht1]
  · isplitl [Ht0] <;> iassumption
  ihave Ht := (pointsTo_halves f0).2 $$ Ht
  ihave Hx := (pointsTo_halves (idx3 m d)).2 $$ [Hx0 Hx1]
  · isplitl [Hx0] <;> iassumption
  ihave Ho := (out_whole0 m d) $$ [Ho0 Ho1]
  · isplitl [Ho0] <;> iassumption
  icases Ho with ⟨%g, %hg, Ho⟩
  iexists f0; iexists g
  isplitr; · ipureintro; exact ⟨hf0, hg⟩
  isplitl [Ht]; · iexact Ht
  isplitl [Hx]; · iexact Hx
  iexact Ho

/-! ## Call 1 -/

theorem vecSplit1 : (K (F := F)).VecSplit' (P m) 1 := by
  intro d c
  show st1 m d c.val ⊢ |={Set.univ}=> iprop((bigSep Finset.univ fun i : Fin 16 => go1 m d c.val i.val)
    ∗ ((bigSep Finset.univ fun i : Fin 16 => td1 m d c.val i.val) -∗ dn1 m d c.val))
  unfold st1 go1 td1 dn1
  rw [bigSep_sep', bigSep_sep', bigSep_sep', bigSep_sep']
  iintro ⟨Ht, Hx, Ho⟩
  ihave Ht := (tab_deal m d c.val) $$ Ht
  icases Ht with ⟨Ht, Htj⟩
  ihave Hx := (toks_split c.val (idx6 m d)) $$ Hx
  icases Hx with ⟨Hxd, Hx⟩
  imodintro
  isplitl [Ht Hx Ho]
  · isplitl [Ht]; · iexact Ht
    isplitl [Hx]; · iexact Hx
    iexact Ho
  iintro ⟨Ht, Hx, Ho⟩
  isplitl [Htj Ht]; · iapply Htj; iexact Ht
  isplitl [Hxd Hx]
  · iapply (toks_join c.val (idx6 m d))
    isplitl [Hxd] <;> iassumption
  iexact Ho

/-- The pieces of main_v7, by (SparseCore, subcore). -/
def Kp1 (d : Dev nD) : Fin 2 × Fin 16 → Finset (Idx (loc d main_v7)) := fun p => task1 p.1.val p.2.val

omit [FloatOps F] in
theorem Kp1_disj (d : Dev nD) : ∀ p ∈ (Finset.univ : Finset (Fin 2 × Fin 16)), ∀ p' ∈ (Finset.univ : Finset (Fin 2 × Fin 16)),
    p ≠ p' → Disjoint (Kp1 d p) (Kp1 d p') :=
  fun _ _ _ _ h => rows_disjoint 204800 6400 (wid_ne h)

omit [FloatOps F] in
theorem Kp1_cover (d : Dev nD) : (Finset.univ : Finset (Fin 2 × Fin 16)).biUnion (Kp1 d) = Finset.univ :=
  Finset.eq_univ_iff_forall.mpr fun (x : (⟨2, ![204800, 128]⟩ : Shape).Idx) => Finset.mem_biUnion.mpr
    ⟨owner 6400 (x 0).val, Finset.mem_univ _, mem_rowsOf.mpr (owner_spec (by decide) (show (x 0).val < 32 * 6400 from (x 0).isLt))⟩

/-- main_v7 whole, at any contents, is the two SparseCores' sixteen pieces each, at any contents. -/
theorem out_pieces1 (d : Dev nD) :
    (iprop(∃ g, (loc d main_v7 ↦{fullShare} g)) : sProp (𝕄F F))
      ⊢ iprop((bigSep Finset.univ fun i : Fin 16 => iprop(∃ g : Buf (Elt F) (loc d main_v7), (loc d main_v7 ↦[task1 0 i.val]{fullShare} g)))
        ∗ (bigSep Finset.univ fun i : Fin 16 => iprop(∃ g : Buf (Elt F) (loc d main_v7), (loc d main_v7 ↦[task1 1 i.val]{fullShare} g)))) := by
  refine BIBase.Entails.trans ?_ (Entails.of_eq (bigSep_univ_two fun c : Fin 2 =>
    bigSep Finset.univ fun i : Fin 16 => (iprop(∃ g : Buf (Elt F) (loc d main_v7), (loc d main_v7 ↦[task1 c.val i.val]{fullShare} g)) : sProp (𝕄F F))))
  iintro ⟨%g, H⟩
  ihave H := (Entails.of_eq (whole_pieces (F := F) (Kp1 d) (Kp1_disj d) (Kp1_cover d) g)) $$ H
  have h1 : ∀ c ∈ (Finset.univ : Finset (Fin 2)), ∀ i ∈ (Finset.univ : Finset (Fin 16)),
      (loc d main_v7 ↦[Kp1 d (c, i)]{fullShare} g : sProp (𝕄F F))
        ⊢ iprop(∃ g : Buf (Elt F) (loc d main_v7), (loc d main_v7 ↦[task1 c.val i.val]{fullShare} g)) := by
    intro c _ i _
    iintro H; iexists g; iexact H
  iapply (bigSep_mono' fun c hc => bigSep_mono' (h1 c hc)) $$ H

/-- What call 1 is handed. -/
theorem st_intro1 (d : Dev nD) (f : Buf (Elt F) (loc d main_v1)) (hf : Cert.Spec.Tab2OK (m (loc d main_arg2)) f) :
    iprop((loc d main_v1 ↦{fullShare} f) ∗ (loc d main_v6 ↦{fullShare} idx6 m d) ∗ ∃ g, loc d main_v7 ↦{fullShare} g)
      ⊢ bigSep Finset.univ fun c : Fin ((K (F := F)).nCore 1) => (P m).st 1 d c := by
  show _ ⊢ bigSep (Finset.univ : Finset (Fin 2)) fun c => st1 m d c.val
  rw [bigSep_univ_two]
  show _ ⊢ iprop(st1 m d 0 ∗ st1 m d 1)
  unfold st1 tabAt
  iintro ⟨Ht, Hx, Ho⟩
  ihave Ht := (pointsTo_halves f).1 $$ Ht
  icases Ht with ⟨Ht0, Ht1⟩
  ihave Hx := (pointsTo_halves (idx6 m d)).1 $$ Hx
  icases Hx with ⟨Hx0, Hx1⟩
  ihave Ho := (out_pieces1 d) $$ Ho
  icases Ho with ⟨Ho0, Ho1⟩
  isplitl [Ht0 Hx0 Ho0]
  · isplitl [Ht0]
    · iexists f
      isplitr; · ipureintro; exact hf
      iexact Ht0
    isplitl [Hx0]; · iexact Hx0
    iexact Ho0
  · isplitl [Ht1]
    · iexists f
      isplitr; · ipureintro; exact hf
      iexact Ht1
    isplitl [Hx1]; · iexact Hx1
    iexact Ho1

/-- The two SparseCores' pieces of main_v7, each holding the rows its worker's tokens name, are main_v7 whole holding
    the rows all the tokens name. -/
theorem out_whole1 (d : Dev nD) :
    iprop((bigSep Finset.univ fun i : Fin 16 => iprop(∃ g : Buf (Elt F) (loc d main_v7),
          ⌜RowsDone (Cert.Spec.dTok (m (loc d main_arg1))) (m (loc d main_arg2)) (wid 0 i.val * 6400) 6400 g⌝ ∗ (loc d main_v7 ↦[task1 0 i.val]{fullShare} g)))
        ∗ (bigSep Finset.univ fun i : Fin 16 => iprop(∃ g : Buf (Elt F) (loc d main_v7),
          ⌜RowsDone (Cert.Spec.dTok (m (loc d main_arg1))) (m (loc d main_arg2)) (wid 1 i.val * 6400) 6400 g⌝ ∗ (loc d main_v7 ↦[task1 1 i.val]{fullShare} g))))
      ⊢ (iprop(∃ g : Buf (Elt F) (loc d main_v7), ⌜Cert.Spec.RowsOK (Cert.Spec.dTok (m (loc d main_arg1))) (m (loc d main_arg2)) g⌝
          ∗ (loc d main_v7 ↦{fullShare} g)) : sProp (𝕄F F)) := by
  refine (Entails.of_eq (bigSep_univ_two fun c : Fin 2 => bigSep Finset.univ fun i : Fin 16 =>
    (iprop(∃ g : Buf (Elt F) (loc d main_v7),
      ⌜RowsDone (Cert.Spec.dTok (m (loc d main_arg1))) (m (loc d main_arg2)) (wid c.val i.val * 6400) 6400 g⌝
        ∗ (loc d main_v7 ↦[task1 c.val i.val]{fullShare} g)) : sProp (𝕄F F))).symm).trans ?_
  refine (pieces_whole (F := F) (Kp1 d) (Kp1_disj d) (Kp1_cover d) (m (loc d main_v7))
    (fun p g => RowsDone (Cert.Spec.dTok (m (loc d main_arg1))) (m (loc d main_arg2)) (wid p.1.val p.2.val * 6400) 6400 g)).trans ?_
  iintro ⟨%g, %h, H⟩
  iexists g
  isplitr
  · ipureintro
    intro r e
    obtain ⟨g', hg', hx⟩ := h (owner 6400 r.val)
    have hs := owner_spec (len := 6400) (by decide) (show r.val < 32 * 6400 from r.isLt)
    rw [hx (ix2 r (Cert.Spec.col e)) (mem_rowsOf.mpr hs)]
    exact hg' r e hs.1 hs.2
  iexact H

/-- What call 1 hands back. -/
theorem dn_elim1 (d : Dev nD) :
    (bigSep Finset.univ fun c : Fin ((K (F := F)).nCore 1) => (P m).dn 1 d c)
      ⊢ iprop(∃ f g, ⌜Cert.Spec.Tab2OK (m (loc d main_arg2)) f ∧ Cert.Spec.RowsOK (Cert.Spec.dTok (m (loc d main_arg1))) (m (loc d main_arg2)) g⌝
          ∗ (loc d main_v1 ↦{fullShare} f) ∗ (loc d main_v6 ↦{fullShare} idx6 m d) ∗ (loc d main_v7 ↦{fullShare} g)) := by
  show (bigSep (Finset.univ : Finset (Fin 2)) fun c => dn1 m d c.val) ⊢ _
  rw [bigSep_univ_two]
  show iprop(dn1 m d 0 ∗ dn1 m d 1) ⊢ _
  unfold dn1 tabAt
  iintro ⟨⟨⟨%f0, %hf0, Ht0⟩, Hx0, Ho0⟩, ⟨%f1, -, Ht1⟩, Hx1, Ho1⟩
  ihave Ht := (pointsTo_same (cSh 0) (cSh 1) f0 f1) $$ [Ht0 Ht1]
  · isplitl [Ht0] <;> iassumption
  ihave Ht := (pointsTo_halves f0).2 $$ Ht
  ihave Hx := (pointsTo_halves (idx6 m d)).2 $$ [Hx0 Hx1]
  · isplitl [Hx0] <;> iassumption
  ihave Ho := (out_whole1 m d) $$ [Ho0 Ho1]
  · isplitl [Ho0] <;> iassumption
  icases Ho with ⟨%g, %hg, Ho⟩
  iexists f0; iexists g
  isplitr; · ipureintro; exact ⟨hf0, hg⟩
  isplitl [Ht]; · iexact Ht
  isplitl [Hx]; · iexact Hx
  iexact Ho

/-! ## Both calls -/

/-- How each call's operands for a SparseCore split into its subcores' and the results gather. -/
theorem vecSplit : ∀ q, (K (F := F)).kind q = .scVector → (K (F := F)).VecSplit (P m) q :=
  fun q _ => match q with
    | 0 => SparseCore.Cfg.VecSplit.of_plain (vecSplit0 m)
    | 1 => SparseCore.Cfg.VecSplit.of_plain (vecSplit1 m)
    | ⟨_ + 2, h⟩ => absurd h (Nat.not_lt.2 (Nat.le_add_left _ _))

end Cert.KernelIdeal.Hand

end
-- ==== Proof.ScBody1Defs.lean ====
/-
  The first SparseCore kernel (the query lookup) at a symbolic vector subcore: its operands in the program's spelling, the
  element sets its copies move, and what its index scratch holds.

  Worker L (core L 0, subcore L 1; worker number 2 * (L 1) + (L 0)) copies row L of the index array into its index
  scratch, then for each of its ten windows w gathers the 64 table rows named by row w of the scratch into one of two
  buffers and copies the buffer out to rows [base + 64 w, base + 64 w + 64) of the output, base = 640 * (worker number).
-/
import proofs.«218768_g80616536146796_cont_9to1c4b_775_25_alg».proof.Proof.ScPay
import proofs.«218768_g80616536146796_cont_9to1c4b_775_25_alg».proof.Proof.Gen.KernelIdeal.Skeleton
import Idealize.ShloMosaic.Lib.SparseCore.Launch
import Idealize.ShloMosaic.Lib.SparseCore.Stream
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

/-! ## The first gather kernel's operands, in the program's spelling -/

abbrev tabV : Memref sig .scVector .hbm S1000000x128 .f32 := Memref.whole main_v1_scv
abbrev ixV : Memref sig .scVector .hbm S32x10x64 .i32 := Memref.whole main_v3_scv
abbrev outV : Memref sig .scVector .hbm S20480x128 .f32 := Memref.whole main_v4_scv
abbrev sI : Memref sig .scVector .vmem S10x64 .i32 := Memref.whole cc1_scratch0
abbrev bA : Memref sig .scVector .vmem S64x128 .f32 := Memref.whole cc1_scratch1
abbrev bB : Memref sig .scVector .vmem S64x128 .f32 := Memref.whole cc1_scratch2

/-- The table as every gather slices it (whole), a row of the index scratch, a window of the output. -/
abbrev tabS : Memref sig .scVector .hbm S1000000x128 .f32 :=
  tabV.slice (Rect.unit (s := S1000000x128) ![0, 0] S1000000x128.size inb_S1000000x128_S1000000x128_0_0) (fun _ => rfl)
abbrev rowM (off : Fin 2 → ℕ) (h : ∀ a, off a + S1x64.size a ≤ S10x64.size a) : Memref sig .scVector .vmem S64 .i32 :=
  (sI.slice (Rect.unit (s := S10x64) off S1x64.size h) (fun _ => rfl)).squeeze S64 squeezes_S1x64_S64
abbrev winM (off : Fin 2 → ℕ) (h : ∀ a, off a + S64x128.size a ≤ S20480x128.size a) : Memref sig .scVector .hbm S64x128 .f32 :=
  outV.slice (Rect.unit (s := S20480x128) off S64x128.size h) (fun _ => rfl)

/-- Row r of the index scratch, as a set of its elements. -/
def rowSetI (r : ℕ) : Finset S10x64.Idx := Finset.univ.filter fun x => (x 0).val = r

theorem set_tabS : (tabS).view.set = Finset.univ := by
  show ((View.whole (main_v1_scv : Ref sig .scVector)).slice (Rect.unit (s := S1000000x128) ![0, 0] S1000000x128.size inb_S1000000x128_S1000000x128_0_0)).set = _
  rw [View.set_slice_whole]
  ext x
  simp only [Rect.mem_set_unit, Finset.mem_univ, iff_true]
  refine (Fin.forall_fin_two (p := fun a => (![0, 0] : Fin 2 → ℕ) a ≤ (x a).val ∧ (x a).val < (![0, 0] : Fin 2 → ℕ) a + S1000000x128.size a)).mpr ⟨⟨Nat.zero_le _, ?_⟩, ⟨Nat.zero_le _, ?_⟩⟩
  · have h0 : (x 0).val < 1000000 := (x 0).isLt
    show (x 0).val < 0 + 1000000; omega
  · have h1 : (x 1).val < 128 := (x 1).isLt
    show (x 1).val < 0 + 128; omega

theorem set_rowM (off : Fin 2 → ℕ) (h : ∀ a, off a + S1x64.size a ≤ S10x64.size a) (h1 : off 1 = 0) :
    (rowM off h).view.set = rowSetI (off 0) := by
  show (((View.whole (cc1_scratch0 : Ref sig .scVector)).slice (Rect.unit (s := S10x64) off S1x64.size h)).reshape S64 squeezes_S1x64_S64.numel_eq).set = _
  rw [View.set_reshape, View.set_slice_whole]
  ext x
  simp only [Rect.mem_set_unit, rowSetI, Finset.mem_filter, Finset.mem_univ, true_and]
  refine (Fin.forall_fin_two (p := fun a => off a ≤ (x a).val ∧ (x a).val < off a + S1x64.size a)).trans ?_
  have hx1 : (x 1).val < 64 := (x 1).isLt
  show (off 0 ≤ (x 0).val ∧ (x 0).val < off 0 + 1) ∧ (off 1 ≤ (x 1).val ∧ (x 1).val < off 1 + 64) ↔ _
  omega

theorem set_winM (off : Fin 2 → ℕ) (h : ∀ a, off a + S64x128.size a ≤ S20480x128.size a) (h1 : off 1 = 0) :
    (winM off h).view.set = rowsOf 20480 (off 0) 64 := by
  show ((View.whole (main_v4_scv : Ref sig .scVector)).slice (Rect.unit (s := S20480x128) off S64x128.size h)).set = _
  rw [View.set_slice_whole]
  ext x
  simp only [Rect.mem_set_unit, rowsOf, Finset.mem_filter, Finset.mem_univ, true_and]
  refine (Fin.forall_fin_two (p := fun a => off a ≤ (x a).val ∧ (x a).val < off a + S64x128.size a)).trans ?_
  have hx1 : (x 1).val < 128 := (x 1).isLt
  show (off 0 ≤ (x 0).val ∧ (x 0).val < off 0 + 64) ∧ (off 1 ≤ (x 1).val ∧ (x 1).val < off 1 + 128) ↔ _
  omega

abbrev cV (L : grid1.Coords) : Fin τ.nSC := (L 0).castLE hcore1
abbrev jV (L : grid1.Coords) : Fin τ.nSub := (L 1).castLE hsub1

variable (m : (ℓ : Loc nD τ sig) → Buf (Elt F) ℓ) [FloatOps F]

variable (d : Dev nD) (L : grid1.Coords)

/-- The vector subcore that runs worker L. -/
abbrev thr : Thread nD τ := V d (cV L) (jV L)

/-- Worker L's row of the index array, as the kernel slices it. -/
abbrev ixRow : Memref sig .scVector .hbm S10x64 .i32 :=
  (ixV.slice (Rect.unit (s := S32x10x64) (k1_off1 L) S1x10x64.size (k1_off1_inb L)) (fun _ => rfl)).squeeze S10x64 squeezes_S1x10x64_S10x64

/-- What the index scratch holds once the worker's row is in: that row of the index array. -/
def fiN : Buf (Elt F) ((thr d L).loc cc1_scratch0) := (ixRow L).view.read (Elt F) (idx3 m d)

/-- Every word of the index array is one of the query token ids. -/
theorem idx3_lt (hq : ∀ d i, ((m (loc d main_arg0)) i).toNat < 1000000) (z : S32x10x64.Idx) : (idx3 m d z).toNat < 1000000 := by
  unfold idx3 shapeCast; exact hq d _

theorem fiN_lt (hq : ∀ d i, ((m (loc d main_arg0)) i).toNat < 1000000) (y : S10x64.Idx) : (fiN m d L y).toNat < 1000000 := by
  unfold fiN; rw [View.read_apply]; exact idx3_lt m d hq _

/-- The first row of the output worker L writes. -/
def base : ℕ := 1280 * (L 1).val + 640 * (L 0).val

theorem base_eq : base L = wid (L 0).val (L 1).val * 640 := by unfold base wid; omega

/-- What a gather of window r leaves in a buffer: row j holds the table row named by word j of row r of the index
    scratch. -/
def GOK (hq : ∀ d i, ((m (loc d main_arg0)) i).toNat < 1000000) (f : Buf (Elt F) (loc d main_v1)) (r : ℕ)
    (ga : S64x128.Idx → F .f32) : Prop :=
  ∀ x : S64x128.Idx, ga x = f (ix2 ⟨(fiN m d L (ix2 ⟨r % 10, Nat.mod_lt _ (by decide)⟩ (x 0))).toNat, fiN_lt m d L hq _⟩ (x 1))

end G1

end Cert.KernelIdeal.Hand

end
-- ==== Proof.ScBody1Loop.lean ====
/-
  The first SparseCore kernel's loop: the invariant that holds before each trip (which window is being gathered into which
  buffer, each semaphore's counter, the rows of the output written so far with their values) and the two kinds of trip,
  each run once at a symbolic vector subcore and a symbolic trip.
-/
import proofs.«218768_g80616536146796_cont_9to1c4b_775_25_alg».proof.Proof.ScBody1Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

variable (m : (ℓ : Loc nD τ sig) → Buf (Elt F) ℓ) [FloatOps F]
variable (d : Dev nD) (L : grid1.Coords)

/-! ## Rows of the output, held piece by piece -/

/-- The worker's share of the table and of the index array. -/
abbrev tq : PosShare TreeShare := tSh (L 0).val (L 1).val

/-- Rows [o, o + n) of the output, done: their first 64 columns are the table rows their tokens name. -/
def doneP (o n : ℕ) : sProp (𝕄F F) :=
  iprop(∃ g : Buf (Elt F) (loc d main_v4), ⌜RowsDone (Cert.Spec.qTok (m (loc d main_arg0))) (m (loc d main_arg2)) o n g⌝
    ∗ ((outV).view.loc (thr d L) ↦[rowsOf 20480 o n]{fullShare} g))
/-- Rows [o, o + n) of the output, not yet written. -/
def todoP (o n : ℕ) : sProp (𝕄F F) :=
  iprop(∃ g : Buf (Elt F) (loc d main_v4), ((outV).view.loc (thr d L) ↦[rowsOf 20480 o n]{fullShare} g))

omit [FloatOps F] in
theorem rowsOf_union (n o a b : ℕ) : rowsOf n o (a + b) = rowsOf n o a ∪ rowsOf n (o + a) b := by
  ext x; simp only [Finset.mem_union, mem_rowsOf]; omega
omit [FloatOps F] in
theorem rowsOf_disj (n o a b : ℕ) : Disjoint (rowsOf n o a) (rowsOf n (o + a) b) := by
  rw [Finset.disjoint_left]; intro x h1 h2; rw [mem_rowsOf] at h1 h2; omega

theorem todo_split (o a b : ℕ) : todoP (F := F) d L o (a + b)
    ⊢ iprop((∃ g : Buf (Elt F) (loc d main_v4), ((outV).view.loc (thr d L) ↦[rowsOf 20480 o a]{fullShare} g)) ∗ todoP (F := F) d L (o + a) b) := by
  unfold todoP; rw [rowsOf_union 20480 o a b]
  iintro ⟨%g, H⟩
  ihave H' := (pointsTo_union (rowsOf_disj 20480 o a b)).1 $$ H
  icases H' with ⟨H1, H2⟩
  isplitl [H1]
  · iexists g; iexact H1
  · iexists g; iexact H2

theorem done_append (o a b : ℕ) : iprop(doneP m d L o a ∗ doneP m d L (o + a) b) ⊢ doneP m d L o (a + b) := by
  unfold doneP; rw [rowsOf_union 20480 o a b]
  iintro ⟨⟨%g1, %h1, H1⟩, ⟨%g2, %h2, H2⟩⟩
  ihave H := (pointsTo_join (ℓ := (outV).view.loc (thr d L)) (I := rowsOf 20480 o a) (J := rowsOf 20480 (o + a) b) (rowsOf_disj 20480 o a b)) $$ [H1 H2]
  · isplitl [H1] <;> iassumption
  iexists ((rowsOf 20480 (o + a) b).piecewise g2 g1)
  isplitr
  · ipureintro; intro r e hr1 hr2
    by_cases hlt : r.val < o + a
    · rw [Finset.piecewise_eq_of_notMem _ _ _ (by rw [mem_rowsOf]; show ¬ (o + a ≤ r.val ∧ r.val < o + a + b); omega)]
      exact h1 r e hr1 hlt
    · rw [Finset.piecewise_eq_of_mem _ _ _ (by rw [mem_rowsOf]; show o + a ≤ r.val ∧ r.val < o + a + b; omega)]
      exact h2 r e (by omega) (by omega)
  · iexact H

/-! ## The same elements, in the invariant's spelling and in the program's -/

omit [FloatOps F] in
theorem row_prog (off : Fin 2 → ℕ) (h : ∀ a, off a + S1x64.size a ≤ S10x64.size a) (h1 : off 1 = 0) (r : ℕ) (hr : off 0 = r)
    (q : PosShare TreeShare) (fi' : Buf (Elt F) ((thr d L).loc cc1_scratch0)) :
    (((sI).view.loc (thr d L) ↦[rowSetI r]{q} fi') : sProp (𝕄F F)) = ((rowM off h).view.loc (thr d L) ↦[(rowM off h).view.set]{q} fi') := by
  rw [set_rowM off h h1, hr]
omit [FloatOps F] in
theorem win_prog (off : Fin 2 → ℕ) (h : ∀ a, off a + S64x128.size a ≤ S20480x128.size a) (h1 : off 1 = 0) (o : ℕ) (ho : off 0 = o)
    (q : PosShare TreeShare) (g : Buf (Elt F) (loc d main_v4)) :
    (((outV).view.loc (thr d L) ↦[rowsOf 20480 o 64]{q} g) : sProp (𝕄F F)) = ((winM off h).view.loc (thr d L) ↦[(winM off h).view.set]{q} g) := by
  rw [set_winM off h h1, ho]
omit [FloatOps F] in
theorem tab_prog (q : PosShare TreeShare) (f : Buf (Elt F) (loc d main_v1)) :
    (((tabV).view.loc (thr d L) ↦[Finset.univ]{q} f) : sProp (𝕄F F)) = ((tabS).view.loc (thr d L) ↦[(tabS).view.set]{q} f) := by
  rw [set_tabS]

/-! ## The loop's invariant -/

variable (hq : ∀ d i, ((m (loc d main_arg0)) i).toNat < 1000000) (f : Buf (Elt F) (loc d main_v1))
variable (O : CellTallies nD τ sig (HIx 2)) (W : Waits sig (HIx 2))

/-- The thread's debt, with the waits it has recorded since the task began. -/
def owesP : sProp (𝕄F F) := iprop(∃ W', ⌜∀ p ∈ W', p ∈ W ∨ p.2 = none⌝ ∗ owes (thr d L) O W')

/-- What a gather of window r into the first buffer delivers, in the invariant's spelling. -/
def DA (r : ℕ) : sProp (𝕄F F) :=
  iprop(((∃ ga : Buf (Elt F) ((thr d L).loc cc1_scratch1), ⌜GOK m d L hq f r ga⌝ ∗ ((bA).view.loc (thr d L) ↦[(bA).view.set]{fullShare} ga))
        ∗ ((sI).view.loc (thr d L) ↦[rowSetI r]{fullShare} fiN m d L))
      ∗ ((tabV).view.loc (thr d L) ↦[Finset.univ]{(tq L).left} f))

/-- Before trip k < 5: window 2k is being gathered into the first buffer; windows below 2k are written out and waited for;
    every other semaphore is at zero. -/
def IA (k : ℕ) : sProp (𝕄F F) :=
  iprop(Transfers.MayWaits (thr d L) (none : HIx 2) O
    ∗ Transfers.Flight countersEmb (thr d L) (SemLoc.dma cc1_scratch3.sem) (none : HIx 2) 262144 (DA m d L hq f (2 * k))
    ∗ ((tabV).view.loc (thr d L) ↦[Finset.univ]{(tq L).right} f)
    ∗ ((sI).view.loc (thr d L) ↦[Finset.univ \ rowSetI (2 * k)]{fullShare} fiN m d L)
    ∗ (∃ fb : Buf (Elt F) ((thr d L).loc cc1_scratch2), (bB).view.loc (thr d L) ↦{fullShare} fb)
    ∗ semVal (thr d L, SemLoc.dma cc1_scratch4.sem) 0 ∗ semVal (thr d L, SemLoc.dma cc1_scratch5.sem) 0
    ∗ semVal (thr d L, SemLoc.dma cc1_scratch6.sem) 0
    ∗ doneP m d L (base L) (128 * k) ∗ todoP (F := F) d L (base L + 128 * k) (640 - 128 * k)
    ∗ owesP d L O W)

/-- After the last trip: the two last windows are on their way out. -/
def IB : sProp (𝕄F F) :=
  iprop(Transfers.MayWaits (thr d L) (none : HIx 2) O
    ∗ ((tabV).view.loc (thr d L) ↦[Finset.univ]{(tq L).left} f)
    ∗ ((tabV).view.loc (thr d L) ↦[Finset.univ]{(tq L).right} f)
    ∗ ((sI).view.loc (thr d L) ↦[Finset.univ]{fullShare} fiN m d L)
    ∗ Transfers.Flight countersEmb (thr d L) (SemLoc.dma cc1_scratch5.sem) (none : HIx 2) 262144
        iprop(doneP m d L (base L + 512) 64 ∗ ∃ fa : Buf (Elt F) ((thr d L).loc cc1_scratch1), (bA).view.loc (thr d L) ↦[(bA).view.set]{fullShare} fa)
    ∗ Transfers.Flight countersEmb (thr d L) (SemLoc.dma cc1_scratch6.sem) (none : HIx 2) 262144
        iprop(doneP m d L (base L + 576) 64 ∗ ∃ fb : Buf (Elt F) ((thr d L).loc cc1_scratch2), (bB).view.loc (thr d L) ↦[(bB).view.set]{fullShare} fb)
    ∗ semVal (thr d L, SemLoc.dma cc1_scratch3.sem) 0 ∗ semVal (thr d L, SemLoc.dma cc1_scratch4.sem) 0
    ∗ doneP m d L (base L) 512
    ∗ owesP d L O W)

def Inv (k : ℕ) (_ : PUnit) : sProp (𝕄F F) := if k < 5 then IA m d L hq f O W k else IB m d L f O W

/-! ## Small conversions -/

omit [FloatOps F] in
theorem semVal_cast (sm sm' : DmaSem sig) (h : sm = sm') :
    (semVal (thr d L, SemLoc.dma sm) 0 : sProp (𝕄F F)) ⊢ semVal (thr d L, SemLoc.dma sm') 0 := by subst h; exact .rfl

omit [FloatOps F] in
theorem rowSetI_disj {a b : ℕ} (h : a ≠ b) : Disjoint (rowSetI a) (rowSetI b) := by
  rw [Finset.disjoint_left]; intro x h1 h2
  simp only [rowSetI, Finset.mem_filter, Finset.mem_univ, true_and] at h1 h2; omega

omit [FloatOps F] in
/-- Two rows out of the index scratch less a third. -/
theorem sI_split (a b c : ℕ) (hab : a ≠ b) (hac : a ≠ c) (hbc : b ≠ c) (fi' : Buf (Elt F) ((thr d L).loc cc1_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[rowSetI c]{fullShare} fi')
          ∗ ((sI).view.loc (thr d L) ↦[((Finset.univ \ rowSetI a) \ rowSetI b) \ rowSetI c]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  have h2 : rowSetI c ⊆ (Finset.univ \ rowSetI a) \ rowSetI b := by
    intro x hx; rw [Finset.mem_sdiff, Finset.mem_sdiff]
    exact ⟨⟨Finset.mem_univ _, fun hx' => Finset.disjoint_left.mp (rowSetI_disj hac) hx' hx⟩, fun hx' => Finset.disjoint_left.mp (rowSetI_disj hbc) hx' hx⟩
  iintro H
  ihave H := (pointsTo_split_subset h1).1 $$ H
  icases H with ⟨Hb, H⟩
  ihave H := (pointsTo_split_subset h2).1 $$ H
  icases H with ⟨Hc, H⟩
  isplitl [Hb]; · iexact Hb
  isplitl [Hc]; · iexact Hc
  iexact H

omit [FloatOps F] in
/-- And back, the third row now the one left out. -/
theorem sI_rejoin (a b c : ℕ) (hab : a ≠ b) (hac : a ≠ c) (hbc : b ≠ c) (fi' : Buf (Elt F) ((thr d L).loc cc1_scratch0)) :
    iprop(((sI).view.loc (thr d L) ↦[rowSetI a]{fullShare} fi') ∗ ((sI).view.loc (thr d L) ↦[rowSetI b]{fullShare} fi')
          ∗ ((sI).view.loc (thr d L) ↦[((Finset.univ \ rowSetI a) \ rowSetI b) \ rowSetI c]{fullShare} fi'))
      ⊢ (((sI).view.loc (thr d L) ↦[Finset.univ \ rowSetI c]{fullShare} fi') : sProp (𝕄F F)) := by
  have e : ((Finset.univ \ rowSetI a) \ rowSetI b) \ rowSetI c = ((Finset.univ \ rowSetI c) \ rowSetI b) \ rowSetI a := by
    ext x; simp only [Finset.mem_sdiff, Finset.mem_univ, true_and]; tauto
  have h1 : rowSetI b ⊆ Finset.univ \ rowSetI c := by
    intro x hx; rw [Finset.mem_sdiff]; exact ⟨Finset.mem_univ _, fun hx' => Finset.disjoint_left.mp (rowSetI_disj hbc) hx hx'⟩
  have h2 : rowSetI a ⊆ (Finset.univ \ rowSetI c) \ rowSetI b := by
    intro x hx; rw [Finset.mem_sdiff, Finset.mem_sdiff]
    exact ⟨⟨Finset.mem_univ _, fun hx' => Finset.disjoint_left.mp (rowSetI_disj hac) hx hx'⟩, fun hx' => Finset.disjoint_left.mp (rowSetI_disj hab) hx hx'⟩
  rw [e]
  have j1 : iprop(((sI).view.loc (thr d L) ↦[rowSetI b]{fullShare} fi') ∗ ((sI).view.loc (thr d L) ↦[(Finset.univ \ rowSetI c) \ rowSetI b]{fullShare} fi'))
      ⊢ (((sI).view.loc (thr d L) ↦[Finset.univ \ rowSetI c]{fullShare} fi') : sProp (𝕄F F)) := (pointsTo_split_subset h1).2
  have j2 : iprop(((sI).view.loc (thr d L) ↦[rowSetI a]{fullShare} fi') ∗ ((sI).view.loc (thr d L) ↦[((Finset.univ \ rowSetI c) \ rowSetI b) \ rowSetI a]{fullShare} fi'))
      ⊢ (((sI).view.loc (thr d L) ↦[(Finset.univ \ rowSetI c) \ rowSetI b]{fullShare} fi') : sProp (𝕄F F)) := (pointsTo_split_subset h2).2
  iintro ⟨Ha, Hb, H⟩
  ihave H2 := j2 $$ [Ha H]
  · isplitl [Ha] <;> iassumption
  iapply j1
  isplitl [Hb]; · iexact Hb
  iexact H2

/-- What a gather's flight delivers, restated in the invariant's spelling (the table's share left in the program's). -/
theorem DA_intro (off : Fin 2 → ℕ) (h : ∀ a, off a + S1x64.size a ≤ S10x64.size a) (h1 : off 1 = 0) (r : ℕ) (hr : off 0 = r)
    (q : PosShare TreeShare) (X : Buf (Elt F) ((thr d L).loc cc1_scratch1)) (hX : GOK m d L hq f r X) :
    (iprop((((bA).view.loc (thr d L) ↦[(bA).view.set]{fullShare} X) ∗ ((rowM off h).view.loc (thr d L) ↦[(rowM off h).view.set]{fullShare} fiN m d L))
        ∗ ((tabS).view.loc (thr d L) ↦[(tabS).view.set]{q} f)) : sProp (𝕄F F))
      ⊢ iprop(((∃ ga : Buf (Elt F) ((thr d L).loc cc1_scratch1), ⌜GOK m d L hq f r ga⌝ ∗ ((bA).view.loc (thr d L) ↦[(bA).view.set]{fullShare} ga))
        ∗ ((sI).view.loc (thr d L) ↦[rowSetI r]{fullShare} fiN m d L))
      ∗ ((tabS).view.loc (thr d L) ↦[(tabS).view.set]{q} f)) := by
  iintro ⟨⟨HbA, Hrow⟩, Htab⟩
  isplitr [Htab]
  · isplitl [HbA]
    · iexists X; isplitr
      · ipureintro; exact hX
      · iexact HbA
    · iapply (Entails.of_eq (row_prog (F := F) d L off h h1 r hr fullShare (fiN m d L)).symm); iexact Hrow
  · iexact Htab

omit [FloatOps F] in
theorem flight_conv (sm sm' : DmaSem sig) (ι ι' : HIx 2) (N : ℕ) (D D' : sProp (𝕄F F)) (hs : sm = sm') (hι : ι = ι') (hD : D ⊢ D') :
    Transfers.Flight countersEmb (thr d L) (SemLoc.dma sm) ι N D ⊢ Transfers.Flight countersEmb (thr d L) (SemLoc.dma sm') ι' N D' := by
  subst hs hι; exact Transfers.Flight_mono countersEmb (thr d L) hD

theorem doneP_congr (o o' n n' : ℕ) (ho : o = o') (hn : n = n') : doneP m d L o n ⊢ doneP m d L o' n' := by subst ho hn; exact .rfl
omit [FloatOps F] in
theorem todoP_congr (o o' n n' : ℕ) (ho : o = o') (hn : n = n') : todoP (F := F) d L o n ⊢ todoP (F := F) d L o' n' := by subst ho hn; exact .rfl

/-! ## The value facts the trips use (proved in the value module) -/

structure VF : Prop where
  gA : ∀ (off : Fin 2 → ℕ) (h : ∀ a, off a + S1x64.size a ≤ S10x64.size a) (_ : off 1 = 0)
      (hin' : ∀ x, ((rowM off h).view.read (Elt F) (fiN m d L) x).toNat < S1000000x128.size gathers_S1000000x128_S64x128.axis)
      (ga0 : Buf (Elt F) ((thr d L).loc cc1_scratch1)),
      GOK m d L hq f (off 0) ((bA).view.writes (Elt F) ga0 [⟨Rect.whole S64x128,
        SparseCore.gatherPayload gathers_S1000000x128_S64x128 (View.read (Elt F) (tabS).view f)
          (SparseCore.rows (View.read (Elt F) (rowM off h).view (fiN m d L)) rfl hin')⟩])
  gB : ∀ (off : Fin 2 → ℕ) (h : ∀ a, off a + S1x64.size a ≤ S10x64.size a) (_ : off 1 = 0)
      (hin' : ∀ x, ((rowM off h).view.read (Elt F) (fiN m d L) x).toNat < S1000000x128.size gathers_S1000000x128_S64x128.axis)
      (gb0 : Buf (Elt F) ((thr d L).loc cc1_scratch2)),
      GOK m d L hq f (off 0) ((bB).view.writes (Elt F) gb0 [⟨Rect.whole S64x128,
        SparseCore.gatherPayload gathers_S1000000x128_S64x128 (View.read (Elt F) (tabS).view f)
          (SparseCore.rows (View.read (Elt F) (rowM off h).view (fiN m d L)) rfl hin')⟩])
  win : ∀ (off : Fin 2 → ℕ) (h : ∀ a, off a + S64x128.size a ≤ S20480x128.size a) (_ : off 1 = 0)
      (r : ℕ) (_ : r < 10) (_ : off 0 = base L + 64 * r) (g1 : Buf (Elt F) (loc d main_v4)) (p : S64x128.Idx → F .f32) (_ : GOK m d L hq f r p),
      RowsDone (Cert.Spec.qTok (m (loc d main_arg0))) (m (loc d main_arg2)) (off 0) 64
        ((winM off h).view.writes (Elt F) g1 [⟨Rect.whole S64x128, p⟩])

include hq in
theorem hin_of (x : S64.Idx) (off : Fin 2 → ℕ) (hoff : ∀ a, off a + S1x64.size a ≤ S10x64.size a) :
    (View.read (Elt F) (rowM off hoff).view (fiN m d L) x).toNat < S1000000x128.size gathers_S1000000x128_S64x128.axis := by
  rw [View.read_apply]; exact fiN_lt m d L hq _

theorem cond_lt : ∀ k : Fin k1_t1_loop.trips, k1_cond1 k = 1#1 → k.val < 4 := by decide
theorem lt_cond : ∀ k : Fin k1_t1_loop.trips, ¬ k1_cond1 k = 1#1 → k.val = 4 := by decide

/-! ## A trip that is not the last -/

set_option maxHeartbeats 2000000 in
theorem region_pos (V : VF m d L hq f) (k : Fin k1_t1_loop.trips) (hk : k1_cond1 k = 1#1) :
    IA m d L hq f O W k.val ⊢ wp frame (wpE (defs₀ (F := F)) 𝒱₀ (thr d L) none) Set.univ
      (k1_t1_body L tabV (Memref.isWhole_whole _) ixV (Memref.isWhole_whole _) outV (Memref.isWhole_whole _)
        sI (Memref.isWhole_whole _) bA (Memref.isWhole_whole _) bB (Memref.isWhole_whole _) cc1_scratch3 cc1_scratch4 cc1_scratch5 cc1_scratch6 cc1_scoped0 k ())
      (fun _ => IA m d L hq f O W (k.val + 1)) := by
  have hk4 : k.val < 4 := cond_lt k hk
  have hin : ∀ (off : Fin 2 → ℕ) (hoff : ∀ a, off a + S1x64.size a ≤ S10x64.size a) (x : S64.Idx),
      (View.read (Elt F) (rowM off hoff).view (fiN m d L) x).toNat < S1000000x128.size gathers_S1000000x128_S64x128.axis :=
    fun off hoff x => hin_of m d L hq x off hoff
  have o2 : (k1_off2 k) 0 = 2 * k.val + 1 := by rw [k1_off2_eq]; rfl
  have o2' : (k1_off2 k) 1 = 0 := by rw [k1_off2_eq]; rfl
  have o3 : (k1_off3 k) 0 = 2 * k.val := by rw [k1_off3_eq]; rfl
  have o3' : (k1_off3 k) 1 = 0 := by rw [k1_off3_eq]; rfl
  have o7 : (k1_off7 k) 0 = 2 * (k.val + 1) := by rw [k1_off7_eq]; show 2 * k.val + 2 = _; omega
  have o7' : (k1_off7 k) 1 = 0 := by rw [k1_off7_eq]; rfl
  have o4 : (k1_off4 L k) 0 = base L + 128 * k.val := by rw [k1_off4_eq]; rfl
  have o4' : (k1_off4 L k) 1 = 0 := by rw [k1_off4_eq]; rfl
  have o5 : (k1_off5 L k) 0 = base L + 128 * k.val + 64 := by rw [k1_off5_eq]; rfl
  have o5' : (k1_off5 L k) 1 = 0 := by rw [k1_off5_eq]; rfl
  have e640 : 640 - 128 * k.val = 64 + (64 + (640 - 128 * (k.val + 1))) := by omega
  unfold IA DA owesP k1_t1_body
  rw [e640, row_prog (F := F) d L (k1_off3 k) (k1_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  -- the two rows this trip gathers through, out of the index scratch
  ihave HsIr := (sI_split (F := F) d L (2 * k.val) (2 * k.val + 1) (2 * (k.val + 1)) (by omega) (by omega) (by omega) (fiN m d L)) $$ HsIr
  icases HsIr with ⟨Hr1, Hr2, HsIr⟩
  ihave Hr1 := (Entails.of_eq (row_prog (F := F) d L (k1_off2 k) (k1_off2_inb k) o2' (2 * k.val + 1) o2 fullShare (fiN m d L))) $$ Hr1
  ihave Hr2 := (Entails.of_eq (row_prog (F := F) d L (k1_off7 k) (k1_off7_inb k hk) o7' (2 * (k.val + 1)) o7 fullShare (fiN m d L))) $$ Hr2
  -- the two windows this trip writes, out of the rows to do
  ihave Htodo := (todo_split (F := F) d L (base L + 128 * k.val) 64 (64 + (640 - 128 * (k.val + 1)))) $$ Htodo
  icases Htodo with ⟨⟨%g1, Hw0⟩, Htodo⟩
  ihave Htodo := (todo_split (F := F) d L (base L + 128 * k.val + 64) 64 (640 - 128 * (k.val + 1))) $$ Htodo
  icases Htodo with ⟨⟨%g2, Hw1⟩, Htodo⟩
  ihave Hw0 := (Entails.of_eq (win_prog (F := F) d L (k1_off4 L k) (k1_off4_inb L k) o4' (base L + 128 * k.val) o4 fullShare g1)) $$ Hw0
  ihave Hw1 := (Entails.of_eq (win_prog (F := F) d L (k1_off5 L k) (k1_off5_inb L k) o5' (base L + 128 * k.val + 64) o5 fullShare g2)) $$ Hw1
  sl_exec
  icases HFA_dst with ⟨⟨%ga, %hga, HbA⟩, Hr0⟩
  sl_exec
  sl_step
  have o4r : (k1_off4 L k) 0 = base L + 64 * (2 * k.val) := by rw [o4]; omega
  have o5b : (k1_off5 L k) 0 = base L + (128 * k.val + 64) := by rw [o5]; omega
  have o5r : (k1_off5 L k) 0 = base L + 64 * (2 * k.val + 1) := by rw [o5]; omega
  isplitr; · iexact Hmw
  isplitl [HFA]
  · iapply (flight_conv (F := F) d L _ _ _ _ _ _ _ ?hs ?hι (DA_intro m d L hq f (k1_off7 k) (k1_off7_inb k hk) o7' (2 * (k.val + 1)) o7 (tq L).left _ ?hX)) $$ HFA
    case hs => rfl
    case hι => rfl
    case hX =>
      have hX := V.gA (k1_off7 k) (k1_off7_inb k hk) o7' (fun x => hin _ _ x) ga
      rw [o7] at hX; exact hX
  iclear HFA_src
  isplitl [HtabB]; · iexact HtabB
  isplitl [Hr0 Hr1 HsIr]
  · ihave Hr0 := (Entails.of_eq (row_prog (F := F) d L (k1_off3 k) (k1_off3_inb k) o3' (2 * k.val) o3 fullShare (fiN m d L)).symm) $$ Hr0
    ihave Hr1 := (Entails.of_eq (row_prog (F := F) d L (k1_off2 k) (k1_off2_inb k) o2' (2 * k.val + 1) o2 fullShare (fiN m d L)).symm) $$ Hr1
    iapply (sI_rejoin (F := F) d L (2 * k.val) (2 * k.val + 1) (2 * (k.val + 1)) (by omega) (by omega) (by omega) (fiN m d L))
    isplitl [Hr0]; · iexact Hr0
    isplitl [Hr1]; · iexact Hr1
    iexact HsIr
  isplitl [HbB]; · iexists _; iexact HbB
  isplitl [Hs4]; · iapply (semVal_cast (F := F) d L _ _ ?h4) $$ Hs4; case h4 => rfl
  isplitl [Hs5]; · iapply (semVal_cast (F := F) d L _ _ ?h5) $$ Hs5; case h5 => rfl
  isplitl [Hs6]; · iapply (semVal_cast (F := F) d L _ _ ?h6) $$ Hs6; case h6 => rfl
  isplitl [Hdone Hw0 Hw1]
  · iapply (doneP_congr m d L (base L) (base L) (128 * k.val + 64 + 64) (128 * (k.val + 1)) rfl (by omega))
    iapply (done_append m d L (base L) (128 * k.val + 64) 64)
    isplitl [Hdone Hw0]
    · iapply (done_append m d L (base L) (128 * k.val) 64)
      isplitl [Hdone]; · iexact Hdone
      unfold doneP
      iexists _; isplitr; swap
      · iapply (Entails.of_eq (win_prog (F := F) d L (k1_off4 L k) (k1_off4_inb L k) o4' (base L + 128 * k.val) o4 fullShare _).symm); iexact Hw0
      · ipureintro
        have hw := V.win (k1_off4 L k) (k1_off4_inb L k) o4' (2 * k.val) (by omega) o4r g1 ga hga
        rw [o4] at hw; exact hw
    · unfold doneP
      iexists _; isplitr; swap
      · iapply (Entails.of_eq (win_prog (F := F) d L (k1_off5 L k) (k1_off5_inb L k) o5' (base L + (128 * k.val + 64)) o5b fullShare _).symm); iexact Hw1
      · ipureintro
        have hgb := V.gB (k1_off2 k) (k1_off2_inb k) o2' (fun x => hin _ _ x) fb
        rw [o2] at hgb
        have hw := V.win (k1_off5 L k) (k1_off5_inb L k) o5' (2 * k.val + 1) (by omega) o5r g2 _ hgb
        rw [o5b] at hw; exact hw
  isplitl [Htodo]
  · iapply (todoP_congr (F := F) d L _ _ _ _ (by omega) rfl) $$ Htodo
  iexists _; isplitr; swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
/-- One row out of the index scratch less another. -/
theorem sI_split2 (a b : ℕ) (hab : a ≠ b) (fi' : Buf (Elt F) ((thr d L).loc cc1_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[(Finset.univ \ rowSetI a) \ rowSetI b]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  exact (pointsTo_split_subset h1).1

omit [FloatOps F] in
/-- And the whole scratch back. -/
theorem sI_rejoin2 (a b : ℕ) (hab : a ≠ b) (fi' : Buf (Elt F) ((thr d L).loc cc1_scratch0)) :
    (iprop(((sI).view.loc (thr d L) ↦[rowSetI a]{fullShare} fi') ∗ ((sI).view.loc (thr d L) ↦[rowSetI b]{fullShare} fi')
          ∗ ((sI).view.loc (thr d L) ↦[(Finset.univ \ rowSetI a) \ rowSetI b]{fullShare} fi')) : sProp (𝕄F F))
      ⊢ ((sI).view.loc (thr d L) ↦[Finset.univ]{fullShare} fi') := by
  have h0 : rowSetI a ⊆ (Finset.univ : Finset S10x64.Idx) := Finset.subset_univ _
  have h1 : rowSetI b ⊆ Finset.univ \ rowSetI a := by
    intro x hx; rw [Finset.mem_sdiff]; exact ⟨Finset.mem_univ _, fun hx' => Finset.disjoint_left.mp (rowSetI_disj hab) hx' hx⟩
  have j0 : (iprop(((sI).view.loc (thr d L) ↦[rowSetI a]{fullShare} fi') ∗ ((sI).view.loc (thr d L) ↦[Finset.univ \ rowSetI a]{fullShare} fi')) : sProp (𝕄F F))
      ⊢ ((sI).view.loc (thr d L) ↦[Finset.univ]{fullShare} fi') := (pointsTo_split_subset h0).2
  have j1 : (iprop(((sI).view.loc (thr d L) ↦[rowSetI b]{fullShare} fi') ∗ ((sI).view.loc (thr d L) ↦[(Finset.univ \ rowSetI a) \ rowSetI b]{fullShare} fi')) : sProp (𝕄F F))
      ⊢ ((sI).view.loc (thr d L) ↦[Finset.univ \ rowSetI a]{fullShare} fi') := (pointsTo_split_subset h1).2
  iintro ⟨Ha, Hb, H⟩
  ihave H1 := j1 $$ [Hb H]
  · isplitl [Hb] <;> iassumption
  iapply j0
  isplitl [Ha]; · iexact Ha
  iexact H1

/-! ## The last trip -/

set_option maxHeartbeats 2000000 in
theorem region_neg (V : VF m d L hq f) (k : Fin k1_t1_loop.trips) (hk : ¬ k1_cond1 k = 1#1) :
    IA m d L hq f O W k.val ⊢ wp frame (wpE (defs₀ (F := F)) 𝒱₀ (thr d L) none) Set.univ
      (k1_t1_body L tabV (Memref.isWhole_whole _) ixV (Memref.isWhole_whole _) outV (Memref.isWhole_whole _)
        sI (Memref.isWhole_whole _) bA (Memref.isWhole_whole _) bB (Memref.isWhole_whole _) cc1_scratch3 cc1_scratch4 cc1_scratch5 cc1_scratch6 cc1_scoped0 k ())
      (fun _ => IB m d L f O W) := by
  have hk5 : k.val = 4 := lt_cond k hk
  have hin : ∀ (off : Fin 2 → ℕ) (hoff : ∀ a, off a + S1x64.size a ≤ S10x64.size a) (x : S64.Idx),
      (View.read (Elt F) (rowM off hoff).view (fiN m d L) x).toNat < S1000000x128.size gathers_S1000000x128_S64x128.axis :=
    fun off hoff x => hin_of m d L hq x off hoff
  have o2 : (k1_off2 k) 0 = 2 * k.val + 1 := by rw [k1_off2_eq]; rfl
  have o2' : (k1_off2 k) 1 = 0 := by rw [k1_off2_eq]; rfl
  have o3 : (k1_off3 k) 0 = 2 * k.val := by rw [k1_off3_eq]; rfl
  have o3' : (k1_off3 k) 1 = 0 := by rw [k1_off3_eq]; rfl
  have o4 : (k1_off4 L k) 0 = base L + 128 * k.val := by rw [k1_off4_eq]; rfl
  have o4' : (k1_off4 L k) 1 = 0 := by rw [k1_off4_eq]; rfl
  have o5 : (k1_off5 L k) 0 = base L + 128 * k.val + 64 := by rw [k1_off5_eq]; rfl
  have o5' : (k1_off5 L k) 1 = 0 := by rw [k1_off5_eq]; rfl
  have o4c : (k1_off4 L k) 0 = base L + 512 := by rw [o4, hk5]
  have o5c : (k1_off5 L k) 0 = base L + 576 := by rw [o5, hk5]
  have o4r : (k1_off4 L k) 0 = base L + 64 * (2 * k.val) := by rw [o4]; omega
  have o5r : (k1_off5 L k) 0 = base L + 64 * (2 * k.val + 1) := by rw [o5]; omega
  have e640 : 640 - 128 * k.val = 64 + 64 := by omega
  unfold IA IB DA owesP k1_t1_body
  rw [e640, row_prog (F := F) d L (k1_off3 k) (k1_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  ihave HsIr := (sI_split2 (F := F) d L (2 * k.val) (2 * k.val + 1) (by omega) (fiN m d L)) $$ HsIr
  icases HsIr with ⟨Hr1, HsIr⟩
  ihave Hr1 := (Entails.of_eq (row_prog (F := F) d L (k1_off2 k) (k1_off2_inb k) o2' (2 * k.val + 1) o2 fullShare (fiN m d L))) $$ Hr1
  ihave Htodo := (todo_split (F := F) d L (base L + 128 * k.val) 64 64) $$ Htodo
  icases Htodo with ⟨⟨%g1, Hw0⟩, Htodo⟩
  unfold todoP
  icases Htodo with ⟨%g2, Hw1⟩
  ihave Hw0 := (Entails.of_eq (win_prog (F := F) d L (k1_off4 L k) (k1_off4_inb L k) o4' (base L + 128 * k.val) o4 fullShare g1)) $$ Hw0
  ihave Hw1 := (Entails.of_eq (win_prog (F := F) d L (k1_off5 L k) (k1_off5_inb L k) o5' (base L + 128 * k.val + 64) o5 fullShare g2)) $$ Hw1
  sl_exec
  icases HFA_dst with ⟨⟨%ga, %hga, HbA⟩, Hr0⟩
  sl_exec
  sl_step
  isplitr; · iexact Hmw
  isplitl [HFA_src]; · iexact HFA_src
  isplitl [HtabB]; · iexact HtabB
  isplitl [Hr0 Hr1 HsIr]
  · ihave Hr0 := (Entails.of_eq (row_prog (F := F) d L (k1_off3 k) (k1_off3_inb k) o3' (2 * k.val) o3 fullShare (fiN m d L)).symm) $$ Hr0
    ihave Hr1 := (Entails.of_eq (row_prog (F := F) d L (k1_off2 k) (k1_off2_inb k) o2' (2 * k.val + 1) o2 fullShare (fiN m d L)).symm) $$ Hr1
    iapply (sI_rejoin2 (F := F) d L (2 * k.val) (2 * k.val + 1) (by omega) (fiN m d L))
    isplitl [Hr0]; · iexact Hr0
    isplitl [Hr1]; · iexact Hr1
    iexact HsIr
  iclear HbB
  isplitl [Hs5]
  · iapply (flight_conv (F := F) d L _ _ _ _ _ _ _ ?hs ?hι ?hD) $$ Hs5
    case hs => rfl
    case hι => rfl
    case hD =>
      iintro ⟨Hw, Hb⟩
      isplitl [Hw]
      · unfold doneP
        iexists _; isplitr; swap
        · iapply (Entails.of_eq (win_prog (F := F) d L (k1_off4 L k) (k1_off4_inb L k) o4' (base L + 512) o4c fullShare _).symm); iexact Hw
        · ipureintro
          have hw := V.win (k1_off4 L k) (k1_off4_inb L k) o4' (2 * k.val) (by omega) o4r g1 ga hga
          rw [o4c] at hw; exact hw
      · iexists _; iexact Hb
  isplitl [Hs6]
  · iapply (flight_conv (F := F) d L _ _ _ _ _ _ _ ?hs ?hι ?hD) $$ Hs6
    case hs => rfl
    case hι => rfl
    case hD =>
      iintro ⟨Hw, Hb⟩
      isplitl [Hw]
      · unfold doneP
        iexists _; isplitr; swap
        · iapply (Entails.of_eq (win_prog (F := F) d L (k1_off5 L k) (k1_off5_inb L k) o5' (base L + 576) o5c fullShare _).symm); iexact Hw
        · ipureintro
          have hgb := V.gB (k1_off2 k) (k1_off2_inb k) o2' (fun x => hin _ _ x) fb
          rw [o2] at hgb
          have hw := V.win (k1_off5 L k) (k1_off5_inb L k) o5' (2 * k.val + 1) (by omega) o5r g2 _ hgb
          rw [o5c] at hw; exact hw
      · iexists _; iexact Hb
  isplitl [HFA]; · iapply (semVal_cast (F := F) d L _ _ ?h3) $$ HFA; case h3 => rfl
  isplitl [Hs4]; · iapply (semVal_cast (F := F) d L _ _ ?h4) $$ Hs4; case h4 => rfl
  isplitl [Hdone]
  · iapply (doneP_congr m d L (base L) (base L) (128 * k.val) 512 rfl (by omega)) $$ Hdone
  iexists _; isplitr; swap
  · iexact HO
  · ipureintro; intro p hp
    rcases Finset.mem_insert.mp hp with rfl | hp
    · exact .inr rfl
    rcases Finset.mem_insert.mp hp with rfl | hp
    · exact .inr rfl
    exact hW' p hp

end G1

end Cert.KernelIdeal.Hand

end
-- ==== Proof.ScBody1Core.lean ====
/-
  The first SparseCore kernel's task run once at a symbolic vector subcore: the index rows in, the first gather, the loop at
  its invariant, the last two copies out waited for; from the subcore's shares and scratch to its rows of the output done.
-/
import proofs.«218768_g80616536146796_cont_9to1c4b_775_25_alg».proof.Proof.ScBody1Loop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

variable (m : (ℓ : Loc nD τ sig) → Buf (Elt F) ℓ) [FloatOps F]
variable (d : Dev nD) (L : grid1.Coords)

variable (hq : ∀ d i, ((m (loc d main_arg0)) i).toNat < 1000000) (f : Buf (Elt F) (loc d main_v1))
variable (O : CellTallies nD τ sig (HIx 2)) (W : Waits sig (HIx 2))

/-! ## The whole task -/

omit [FloatOps F] in
theorem rowsOf_zero (n o : ℕ) : rowsOf n o 0 = ∅ := by
  ext x; simp only [mem_rowsOf, Finset.notMem_empty, iff_false]; omega

theorem done_zero (o : ℕ) (g : Buf (Elt F) (loc d main_v4)) :
    (((outV).view.loc (thr d L) ↦[rowsOf 20480 o 0]{fullShare} g) : sProp (𝕄F F)) ⊢ doneP m d L o 0 := by
  unfold doneP
  iintro H
  iexists g; isplitr
  · ipureintro; intro r e h1 h2; omega
  · iexact H

/-- The worker's rows of the output, none done yet. -/
theorem out_init (g0 : Buf (Elt F) (loc d main_v4)) :
    (((outV).view.loc (thr d L) ↦[rowsOf 20480 (base L) 640]{fullShare} g0) : sProp (𝕄F F))
      ⊢ iprop(doneP m d L (base L) (128 * 0) ∗ todoP (F := F) d L (base L + 128 * 0) (640 - 128 * 0)) := by
  have e : (640 : ℕ) = 0 + 640 := by omega
  iintro H
  ihave H : todoP (F := F) d L (base L) (0 + 640) $$ [H]
  · unfold todoP; iexists g0; iexact H
  ihave H := (todo_split (F := F) d L (base L) 0 640) $$ H
  icases H with ⟨⟨%g, H0⟩, H1⟩
  isplitl [H0]
  · iapply (done_zero m d L (base L) g); iexact H0
  · iexact H1

omit [FloatOps F] in
theorem set_bA : (bA).view.set = Finset.univ := View.set_whole _
omit [FloatOps F] in
theorem set_bB : (bB).view.set = Finset.univ := View.set_whole _

set_option maxHeartbeats 4000000 in
theorem tile_core (V : VF m d L hq f) (hO : ∀ g, O g none = 0)
    (g0 : Buf (Elt F) (loc d main_v4)) (fi : Buf (Elt F) ((thr d L).loc cc1_scratch0))
    (fa : Buf (Elt F) ((thr d L).loc cc1_scratch1)) (fb : Buf (Elt F) ((thr d L).loc cc1_scratch2)) (R : sProp (𝕄F F)) :
    iprop(levAts (K (F := F)).L (K (F := F)).lev
        ∗ ((tabV).view.loc (thr d L) ↦{tq L} f)
        ∗ ((ixV).view.loc (thr d L) ↦{tq L} idx3 m d)
        ∗ ((outV).view.loc (thr d L) ↦[rowsOf 20480 (base L) 640]{fullShare} g0)
        ∗ ((sI).view.loc (thr d L) ↦{fullShare} fi) ∗ ((bA).view.loc (thr d L) ↦{fullShare} fa) ∗ ((bB).view.loc (thr d L) ↦{fullShare} fb)
        ∗ semVal (thr d L, SemLoc.dma cc1_scratch3.sem) 0 ∗ semVal (thr d L, SemLoc.dma cc1_scratch4.sem) 0
        ∗ semVal (thr d L, SemLoc.dma cc1_scratch5.sem) 0 ∗ semVal (thr d L, SemLoc.dma cc1_scratch6.sem) 0
        ∗ semVal (thr d L, SemLoc.dma cc1_scoped0.sem) 0
        ∗ owes (thr d L) O W ∗ R)
      ⊢ wp frame (wpE (defs₀ (F := F)) 𝒱₀ (thr d L) none) Set.univ
          (cc1_gather_kernel L tabV (Memref.isWhole_whole _) ixV (Memref.isWhole_whole _) outV (Memref.isWhole_whole _)
            sI (Memref.isWhole_whole _) bA (Memref.isWhole_whole _) bB (Memref.isWhole_whole _) cc1_scratch3 cc1_scratch4 cc1_scratch5 cc1_scratch6 cc1_scoped0)
          fun _ => iprop(((tabV).view.loc (thr d L) ↦{tq L} f) ∗ ((ixV).view.loc (thr d L) ↦{tq L} idx3 m d)
            ∗ doneP m d L (base L) 640
            ∗ (∃ fi : Buf (Elt F) ((thr d L).loc cc1_scratch0), (sI).view.loc (thr d L) ↦{fullShare} fi)
            ∗ (∃ fa : Buf (Elt F) ((thr d L).loc cc1_scratch1), (bA).view.loc (thr d L) ↦{fullShare} fa)
            ∗ (∃ fb : Buf (Elt F) ((thr d L).loc cc1_scratch2), (bB).view.loc (thr d L) ↦{fullShare} fb)
            ∗ semVal (thr d L, SemLoc.dma cc1_scratch3.sem) 0 ∗ semVal (thr d L, SemLoc.dma cc1_scratch4.sem) 0
            ∗ semVal (thr d L, SemLoc.dma cc1_scratch5.sem) 0 ∗ semVal (thr d L, SemLoc.dma cc1_scratch6.sem) 0
            ∗ semVal (thr d L, SemLoc.dma cc1_scoped0.sem) 0
            ∗ (∃ W', ⌜∀ p ∈ W', p ∈ W ∨ p.2 = none⌝ ∗ owes (thr d L) O W') ∗ R) := by
  have hin : ∀ (off : Fin 2 → ℕ) (hoff : ∀ a, off a + S1x64.size a ≤ S10x64.size a) (x : S64.Idx),
      (View.read (Elt F) (rowM off hoff).view (fiN m d L) x).toNat < S1000000x128.size gathers_S1000000x128_S64x128.axis :=
    fun off hoff x => hin_of m d L hq x off hoff
  rw [cc1_gather_kernel_eq_skeleton]; unfold cc1_gather_kernel_skel
  iintro ⟨#Hlv, Htab, Hix, Hout, HsI, HbA, HbB, Hs3, Hs4, Hs5, Hs6, Hs0, HO, HR⟩
  ihave Hmw := ((K (F := F)).mayWaits_none (thr := thr d L) hO) $$ Hlv
  -- the table's share in two: one for each buffer's gathers
  ihave Htab := (pointsTo_share (PosShare.mem_left_op_right (tq L))).1 $$ Htab
  icases Htab with ⟨HtabA, HtabB⟩
  have hhide : ((tabV).view.loc (thr d L) ↦{(tq L).right} f : sProp (𝕄F F)) ⊢ iprop(((tabV).view.loc (thr d L) ↦{(tq L).right} f) ∗ emp) := Laws.sep_emp.2
  ihave HtabB := hhide $$ HtabB
  -- the worker's index rows in
  sl_exec
  unfold tile_core.sl.dma0
  have esI : ((sI).view.loc (thr d L) ↦{fullShare} View.write (Elt F) sI.view fi (ReadAs.same.apply (View.read (Elt F) (ixRow L).view (idx3 m d))) Finset.univ : sProp (𝕄F F))
      = ((sI).view.loc (thr d L) ↦{fullShare} fiN m d L) :=
    congrArg (fun z => ((sI).view.loc (thr d L) ↦{fullShare} z : sProp (𝕄F F))) (View.write_whole_univ (Val := Elt F) cc1_scratch0 fi (fiN m d L))
  ihave HsI := (Entails.of_eq esI) $$ HsI
  -- the first gather
  sl_exec
  iclear HtabA HbA
  icases HtabB with ⟨HtabB, -⟩
  ihave Hout := (out_init m d L g0) $$ Hout
  icases Hout with ⟨Hdone, Htodo⟩
  sl_for (Inv m d L hq f O W) $$ [Hmw Hs3 HtabB HsI HbB Hs4 Hs5 Hs6 Hdone Htodo HO]
  case region =>
    intro k acc
    by_cases hk : k1_cond1 k = 1#1
    · have hk4 := cond_lt k hk
      have e1 : Inv m d L hq f O W k.val acc = IA m d L hq f O W k.val := if_pos (by omega)
      have e2 : Inv m d L hq f O W (k.val + 1) = fun _ => IA m d L hq f O W (k.val + 1) := funext fun _ => if_pos (by omega)
      rw [e1, e2]; exact region_pos m d L hq f O W V k hk
    · have hk5 := lt_cond k hk
      have e1 : Inv m d L hq f O W k.val acc = IA m d L hq f O W k.val := if_pos (by omega)
      have e2 : Inv m d L hq f O W (k.val + 1) = fun _ => IB m d L f O W := funext fun _ => if_neg (by omega)
      rw [e1, e2]; exact region_neg m d L hq f O W V k hk
  · -- the invariant before the first trip
    have e0 : Inv m d L hq f O W 0 () = IA m d L hq f O W 0 := if_pos (by decide)
    rw [e0]; unfold IA DA owesP
    isplitl [Hmw]; · iexact Hmw
    isplitl [Hs3]
    · iapply (flight_conv (F := F) d L _ _ _ _ _ _ _ ?hs ?hι ?hD) $$ Hs3
      case hs => rfl
      case hι => rfl
      case hD =>
        change (iprop((((bA).view.loc (thr d L) ↦[(bA).view.set]{fullShare} _) ∗ ((rowM ![0, 0] inb_S10x64_S1x64_0_0).view.loc (thr d L) ↦[(rowM ![0, 0] inb_S10x64_S1x64_0_0).view.set]{fullShare} fiN m d L))
          ∗ ((tabS).view.loc (thr d L) ↦[(tabS).view.set]{(tq L).left} f)) : sProp (𝕄F F)) ⊢ _
        rw [tab_prog (F := F) d L (tq L).left f]
        exact DA_intro m d L hq f ![0, 0] inb_S10x64_S1x64_0_0 rfl (2 * 0) rfl (tq L).left _ (V.gA ![0, 0] inb_S10x64_S1x64_0_0 rfl (fun x => hin _ _ x) fa)
    isplitl [HtabB]; · iexact HtabB
    isplitl [HsI]
    · iapply (Entails.of_eq (congrArg (fun S => ((sI).view.loc (thr d L) ↦[Finset.univ \ S]{fullShare} fiN m d L : sProp (𝕄F F))) (set_rowM ![0, 0] inb_S10x64_S1x64_0_0 rfl))); iexact HsI
    isplitl [HbB]; · iexists _; iexact HbB
    isplitl [Hs4]; · iexact Hs4
    isplitl [Hs5]; · iexact Hs5
    isplitl [Hs6]; · iexact Hs6
    isplitl [Hdone]; · iexact Hdone
    isplitl [Htodo]; · iexact Htodo
    iexists _; isplitr; swap
    · iexact HO
    · ipureintro; intro p hp
      rcases Finset.mem_insert.mp hp with rfl | hp
      · exact .inr rfl
      exact .inl hp
  -- after the loop: the two last windows' copies out are waited for
  iintro %acc HI
  have e5 : Inv m d L hq f O W k1_t1_loop.trips acc = IB m d L f O W := if_neg (by decide)
  ihave HI := (Entails.of_eq e5) $$ HI
  unfold IB owesP
  icases HI with ⟨#Hmw', HtabA', HtabB', HsI', HFCA, HFCB, Hs3', Hs4', Hdone', ⟨%W', %hW', HO'⟩⟩
  ihave Hmw5 := (Transfers.MayWaits.elim (SemLoc.dma cc1_scratch5.sem)) $$ Hmw'
  iapply (Transfers.wp_waitLocalO countersEmb 𝒱₀ (thr d L) none (none : HIx 2) (N := 262144) rfl) $$ [HFCA HO' Hmw5]
  · isplitl [HFCA]; · iexact HFCA
    isplitl [HO']; · iexact HO'
    iexact Hmw5
  iintro ⟨⟨Hd8, ⟨%fa', HbA'⟩⟩, Hs5', HO'⟩
  ihave Hmw6 := (Transfers.MayWaits.elim (SemLoc.dma cc1_scratch6.sem)) $$ Hmw'
  simp only [Prog.lift, Prog.bind_op, Prog.bind_ret, Prog.pure_eq_ret]
  iapply (Transfers.wp_waitLocalO countersEmb 𝒱₀ (thr d L) none (none : HIx 2) (N := 262144) rfl) $$ [HFCB HO' Hmw6]
  · isplitl [HFCB]; · iexact HFCB
    isplitl [HO']; · iexact HO'
    iexact Hmw6
  iintro ⟨⟨Hd9, ⟨%fb', HbB'⟩⟩, Hs6', HO'⟩
  sl_step
  have jt : (iprop((View.loc (thr d L) (View.whole (main_v1_scv : Ref sig .scVector)) ↦{(tq L).left} f) ∗ (View.loc (thr d L) (View.whole (main_v1_scv : Ref sig .scVector)) ↦{(tq L).right} f)) : sProp (𝕄F F))
      ⊢ (View.loc (thr d L) (View.whole (main_v1_scv : Ref sig .scVector)) ↦{tq L} f) := (pointsTo_share (PosShare.mem_left_op_right (tq L))).2
  isplitl [HtabA' HtabB']
  · iapply jt; isplitl [HtabA'] <;> iassumption
  isplitl [Hix]; · iexact Hix
  isplitl [Hdone' Hd8 Hd9]
  · iapply (doneP_congr m d L (base L) (base L) (512 + 64 + 64) 640 rfl (by omega))
    iapply (done_append m d L (base L) (512 + 64) 64)
    isplitl [Hdone' Hd8]
    · iapply (done_append m d L (base L) 512 64); isplitl [Hdone'] <;> iassumption
    · iapply (doneP_congr m d L (base L + 576) (base L + (512 + 64)) 64 64 (by omega) rfl) $$ Hd9
  isplitl [HsI']; · iexists _; iexact HsI'
  isplitl [HbA']
  · iexists fa'
    have eA : ((View.loc (thr d L) (View.whole (cc1_scratch1 : Ref sig .scVector)) ↦[(View.whole (cc1_scratch1 : Ref sig .scVector)).set]{fullShare} fa' : sProp (𝕄F F)))
        = (View.loc (thr d L) (View.whole (cc1_scratch1 : Ref sig .scVector)) ↦[Finset.univ]{fullShare} fa') := by rw [View.set_whole]
    iapply (Entails.of_eq eA); iexact HbA'
  isplitl [HbB']
  · iexists fb'
    have eB : ((View.loc (thr d L) (View.whole (cc1_scratch2 : Ref sig .scVector)) ↦[(View.whole (cc1_scratch2 : Ref sig .scVector)).set]{fullShare} fb' : sProp (𝕄F F)))
        = (View.loc (thr d L) (View.whole (cc1_scratch2 : Ref sig .scVector)) ↦[Finset.univ]{fullShare} fb') := by rw [View.set_whole]
    iapply (Entails.of_eq eB); iexact HbB'
  isplitl [Hs3']; · iexact Hs3'
  isplitl [Hs4']; · iexact Hs4'
  isplitl [Hs5']; · iexact Hs5'
  isplitl [Hs6']; · iexact Hs6'
  isplitl [Hs0]; · iapply (semVal_cast (F := F) d L _ _ ?h0) $$ Hs0; case h0 => rfl
  isplitl [HO']
  · iexists _; isplitr; swap
    · iexact HO'
    · ipureintro; intro p hp
      rcases Finset.mem_insert.mp hp with rfl | hp
      · exact .inr rfl
      rcases Finset.mem_insert.mp hp with rfl | hp
      · exact .inr rfl
      exact hW' p hp
  iexact HR

end G1

end Cert.KernelIdeal.Hand

end
-- ==== Proof.ScBody1Val.lean ====
/-
  What the first SparseCore kernel's copies carry, as pure facts: the index scratch's words are query tokens; a gather of
  window r leaves in its buffer the table rows those tokens name; the buffer copied out to the window's rows of the output
  makes those rows hold, in their first 64 columns, the embedding rows of the window's tokens.
-/
import proofs.«218768_g80616536146796_cont_9to1c4b_775_25_alg».proof.Proof.ScBody1Defs
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.SL Idealize.SL.RA Idealize.SL.BI
open Idealize.ShloMosaic.ValueIdx

variable {F : FTy → Type}

namespace G1

variable (m : (ℓ : Loc nD τ sig) → Buf (Elt F) ℓ) [FloatOps F]
variable (d : Dev nD) (L : grid1.Coords)

/-- One piece written whole through a whole buffer's view replaces the contents. -/
theorem writes_whole_whole {κ : Kind} {Val : EltTy → Type} (b : Ref sig κ) (ga : b.ty.Contents Val) (p : (Rect.whole b.ty.shape).shape.Idx → Val b.ty.elt) :
    (View.whole b).writes Val ga [⟨Rect.whole b.ty.shape, p⟩] = p := by
  funext i
  have hi : ((View.whole b).slice (Rect.whole b.ty.shape)).emb i = i := by
    funext a; apply Fin.ext
    simp [Rect.whole]
  have h := View.write_emb_of_mem (v := (View.whole b).slice (Rect.whole b.ty.shape)) ga p (Finset.mem_univ i)
  rw [hi] at h
  rw [View.writes_singleton, h]; rfl

omit [FloatOps F] in
theorem base_lt (r : Fin 10) (j : Fin 64) : base L + 64 * r.val + j.val < 20480 := by
  have h0 : (L 0).val < 2 := (L 0).isLt
  have h1 : (L 1).val < 16 := (L 1).isLt
  unfold base; omega

/-- Word j of row r of the index scratch is query token base + 64 r + j. -/
theorem fiN_apply (r : Fin 10) (j : Fin 64) :
    fiN m d L (ix2 r j) = Cert.Spec.qTok (m (loc d main_arg0)) ⟨base L + 64 * r.val + j.val, base_lt L r j⟩ := by
  have h0 : (L 0).val < 2 := (L 0).isLt
  have h1 : (L 1).val < 16 := (L 1).isLt
  have hw : 2 * (L 1).val + (L 0).val < 32 := by omega
  have hre : Shape.reshapeEquiv (squeezes_S1x10x64_S10x64.numel_eq) (ix2 r j : S10x64.Idx) = (ix3 (⟨0, Nat.one_pos⟩ : Fin 1) r j : S1x10x64.Idx) :=
    reshapeEquiv_ix2_1ab _ r j
  have hidx : (ixRow L).view.emb (ix2 r j) = (ix3 ⟨2 * (L 1).val + (L 0).val, hw⟩ r j : S32x10x64.Idx) := by
    show (Rect.unit (s := S32x10x64) (k1_off1 L) S1x10x64.size (k1_off1_inb L)).emb (Shape.reshapeEquiv (squeezes_S1x10x64_S10x64.numel_eq) (ix2 r j)) = _
    rw [hre]
    funext a
    apply Fin.ext
    rw [Rect.emb_apply]
    simp only [Rect.off_unit, Rect.stride_unit, k1_off1_eq]
    match a with
    | ⟨0, _⟩ => show 2 * (L 1).val + (L 0).val + 1 * 0 = 2 * (L 1).val + (L 0).val; omega
    | ⟨1, _⟩ => show 0 + 1 * r.val = r.val; omega
    | ⟨2, _⟩ => show 0 + 1 * j.val = j.val; omega
  unfold fiN
  rw [View.read_apply, hidx, idx3_apply, cast_eq]
  congr 1
  apply Fin.ext
  show (2 * (L 1).val + (L 0).val) * 640 + r.val * 64 + j.val = base L + 64 * r.val + j.val
  unfold base; omega

/-- What a gather through row off of the index scratch delivers. -/
theorem gather_ok (hq : ∀ d i, ((m (loc d main_arg0)) i).toNat < 1000000) (f : Buf (Elt F) (loc d main_v1))
    (off : Fin 2 → ℕ) (h : ∀ a, off a + S1x64.size a ≤ S10x64.size a) (h1 : off 1 = 0)
    (hin' : ∀ x, ((rowM off h).view.read (Elt F) (fiN m d L) x).toNat < S1000000x128.size gathers_S1000000x128_S64x128.axis) :
    GOK m d L hq f (off 0)
      (SparseCore.gatherPayload gathers_S1000000x128_S64x128 (View.read (Elt F) (tabS).view f)
        (SparseCore.rows (View.read (Elt F) (rowM off h).view (fiN m d L)) rfl hin')) := by
  have h0 : off 0 + 1 ≤ 10 := h 0
  have hmod : off 0 % 10 = off 0 := Nat.mod_eq_of_lt (by omega)
  have hread : ∀ k : Fin 64, (rowM off h).view.read (Elt F) (fiN m d L) (ix1 k : S64.Idx)
      = fiN m d L (ix2 ⟨off 0 % 10, Nat.mod_lt _ (by decide)⟩ k) := by
    intro k
    have hre : Shape.reshapeEquiv (squeezes_S1x64_S64.numel_eq) (ix1 k : S64.Idx) = (ix2 (⟨0, Nat.one_pos⟩ : Fin 1) k : S1x64.Idx) :=
      Shape.reshapeEquiv_eq_of_rowMajor _ (by
        rw [Shape.rowMajor_val_two, Shape.rowMajor_val_one]; show 0 * 64 + k.val = k.val; omega)
    have hidx : (rowM off h).view.emb (ix1 k) = (ix2 ⟨off 0 % 10, Nat.mod_lt _ (by decide)⟩ k : S10x64.Idx) := by
      show (Rect.unit (s := S10x64) off S1x64.size h).emb (Shape.reshapeEquiv (squeezes_S1x64_S64.numel_eq) (ix1 k)) = _
      rw [hre]
      funext a; apply Fin.ext
      match a with
      | ⟨0, _⟩ => show off 0 + 1 * 0 = off 0 % 10; omega
      | ⟨1, _⟩ => show off 1 + 1 * k.val = k.val; omega
    rw [View.read_apply, hidx, cast_eq]
  have hsymm : ∀ k : Fin S64.numel, S64.rowMajor.symm k = (ix1 (k.cast (by decide)) : S64.Idx) := fun k =>
    (Equiv.symm_apply_eq _).mpr (Fin.ext (by rw [Shape.rowMajor_val_one]; rfl))
  have hemb : ∀ y : S1000000x128.Idx, (tabS).view.emb y = y := by
    intro y; funext a; apply Fin.ext
    match a with
    | ⟨0, _⟩ => show 0 + 1 * (y 0).val = (y 0).val; omega
    | ⟨1, _⟩ => show 0 + 1 * (y 1).val = (y 1).val; omega
  unfold GOK
  intro x
  unfold SparseCore.gatherPayload
  rw [View.read_apply, hemb, cast_eq]
  refine congrArg f ?_
  funext b; apply Fin.ext
  match b with
  | ⟨0, _⟩ =>
    refine (congrArg Fin.val (Shape.Gathers.idx_axis gathers_S1000000x128_S64x128 _ x)).trans ?_
    show (View.read (Elt F) (rowM off h).view (fiN m d L) (S64.rowMajor.symm _)).toNat = _
    rw [hsymm, hread]; rfl
  | ⟨1, _⟩ => exact Shape.Gathers.idx_of_ne gathers_S1000000x128_S64x128 _ x ⟨1, by decide⟩ (by decide)

/-- The window of the output written with a buffer that holds window r's gathered rows. -/
theorem win_done (hq : ∀ d i, ((m (loc d main_arg0)) i).toNat < 1000000) (f : Buf (Elt F) (loc d main_v1))
    (hf : Cert.Spec.Tab2OK (m (loc d main_arg2)) f)
    (off : Fin 2 → ℕ) (h : ∀ a, off a + S64x128.size a ≤ S20480x128.size a) (h1 : off 1 = 0)
    (r : ℕ) (hr : r < 10) (ho : off 0 = base L + 64 * r)
    (g1 : Buf (Elt F) (loc d main_v4)) (p : S64x128.Idx → F .f32) (hp : GOK m d L hq f r p) :
    RowsDone (Cert.Spec.qTok (m (loc d main_arg0))) (m (loc d main_arg2)) (off 0) 64
      ((winM off h).view.writes (Elt F) g1 [⟨Rect.whole S64x128, p⟩]) := by
  unfold RowsDone
  intro rr e hlo hhi
  have hx0 : rr.val - off 0 < 64 := by omega
  have hr10 : r % 10 = r := Nat.mod_eq_of_lt hr
  have hemb : ((winM off h).view.slice (Rect.whole S64x128)).emb (ix2 (⟨rr.val - off 0, hx0⟩ : Fin 64) (Cert.Spec.col e)) = (ix2 rr (Cert.Spec.col e) : S20480x128.Idx) := by
    funext a; apply Fin.ext
    match a with
    | ⟨0, _⟩ => show off 0 + 1 * (0 + 1 * (rr.val - off 0)) = rr.val; omega
    | ⟨1, _⟩ => show off 1 + 1 * (0 + 1 * e.val) = e.val; omega
  have hw := View.write_emb_of_mem (v := (winM off h).view.slice (Rect.whole S64x128)) g1 p (Finset.mem_univ (ix2 (⟨rr.val - off 0, hx0⟩ : Fin 64) (Cert.Spec.col e)))
  rw [hemb] at hw
  rw [View.writes_singleton, hw, cast_eq, hp]
  have htok : fiN m d L (ix2 ⟨r % 10, Nat.mod_lt _ (by decide)⟩ (⟨rr.val - off 0, hx0⟩ : Fin 64)) = Cert.Spec.qTok (m (loc d main_arg0)) rr := by
    rw [fiN_apply]; congr 1; apply Fin.ext; show base L + 64 * (r % 10) + (rr.val - off 0) = rr.val; omega
  have hv : (⟨(fiN m d L (ix2 ⟨r % 10, Nat.mod_lt _ (by decide)⟩ (⟨rr.val - off 0, hx0⟩ : Fin 64))).toNat, fiN_lt m d L hq _⟩ : Fin 1000000) = Cert.Spec.row (Cert.Spec.qTok (m (loc d main_arg0)) rr) := by
    apply Fin.ext
    rw [Cert.Spec.row_val_of_lt (by unfold Cert.Spec.qTok; exact hq d _)]
    exact congrArg BitVec.toNat htok
  exact (congrArg (fun v => f (ix2 v (Cert.Spec.col e))) hv).trans (hf _ e)

end G1

end Cert.KernelIdeal.Hand

end
-- ==== Proof.ScBody1.lean ====
/-
  The launch theorem's obligation for the first SparseCore call: the task of one vector subcore, from what the sequencer's
  handshake hands it (read shares of the table and of the index array, its rows of the output) and its own scratch and
  semaphores, to the same back with its rows of the output holding the table rows its tokens name.
-/
import proofs.«218768_g80616536146796_cont_9to1c4b_775_25_alg».proof.Proof.ScBody1Core
import proofs.«218768_g80616536146796_cont_9to1c4b_775_25_alg».proof.Proof.ScBody1Val

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

variable (m : (ℓ : Loc nD τ sig) → Buf (Elt F) ℓ) [FloatOps F]
variable (d : Dev nD) (L : grid1.Coords)

variable (hq : ∀ d i, ((m (loc d main_arg0)) i).toNat < 1000000) (f : Buf (Elt F) (loc d main_v1))
variable (O : CellTallies nD τ sig (HIx 2)) (W : Waits sig (HIx 2))

/-! ## The obligation of the launch theorem -/

abbrev cell (s : DmaSems sig S_) : GSem nD τ sig := (thr d L, SemLoc.dma s.sem)

omit [FloatOps F] in
theorem ownSems0_V :
    (ownSems0 (thr d L) : sProp (𝕄F F))
      = iprop(semVal (cell d L cc1_scratch3) 0 ∗ semVal (cell d L cc1_scratch4) 0 ∗ semVal (cell d L cc1_scratch5) 0
          ∗ semVal (cell d L cc1_scratch6) 0 ∗ semVal (cell d L cc1_scoped0) 0
          ∗ bigSep ((((((ownCells (thr d L)).erase (cell d L cc1_scratch3)).erase (cell d L cc1_scratch4)).erase (cell d L cc1_scratch5)).erase
              (cell d L cc1_scratch6)).erase (cell d L cc1_scoped0)) fun g => semVal g 0) := by
  have ne : ∀ {s s' : DmaSems sig S_}, s.sem ≠ s'.sem → cell d L s ≠ cell d L s' :=
    fun hne e => hne (SemLoc.dma.inj (congrArg Prod.snd e))
  have m3 : cell d L cc1_scratch3 ∈ ownCells (thr d L) :=
    (mem_ownCells (g := cell d L cc1_scratch3)).mpr ⟨rfl, by show (SemLoc.dma cc1_scratch3.sem : SemLoc sig).isScoped .scVector = true; decide⟩
  have m4 : cell d L cc1_scratch4 ∈ ownCells (thr d L) :=
    (mem_ownCells (g := cell d L cc1_scratch4)).mpr ⟨rfl, by show (SemLoc.dma cc1_scratch4.sem : SemLoc sig).isScoped .scVector = true; decide⟩
  have m5 : cell d L cc1_scratch5 ∈ ownCells (thr d L) :=
    (mem_ownCells (g := cell d L cc1_scratch5)).mpr ⟨rfl, by show (SemLoc.dma cc1_scratch5.sem : SemLoc sig).isScoped .scVector = true; decide⟩
  have m6 : cell d L cc1_scratch6 ∈ ownCells (thr d L) :=
    (mem_ownCells (g := cell d L cc1_scratch6)).mpr ⟨rfl, by show (SemLoc.dma cc1_scratch6.sem : SemLoc sig).isScoped .scVector = true; decide⟩
  have m0 : cell d L cc1_scoped0 ∈ ownCells (thr d L) :=
    (mem_ownCells (g := cell d L cc1_scoped0)).mpr ⟨rfl, by show (SemLoc.dma cc1_scoped0.sem : SemLoc sig).isScoped .scVector = true; decide⟩
  unfold SparseCore.Cfg.ownSems0
  rw [SparseCore.bigSep_erase' m3,
    SparseCore.bigSep_erase' (Finset.mem_erase.mpr ⟨ne (by decide), m4⟩),
    SparseCore.bigSep_erase' (Finset.mem_erase.mpr ⟨ne (by decide), Finset.mem_erase.mpr ⟨ne (by decide), m5⟩⟩),
    SparseCore.bigSep_erase' (Finset.mem_erase.mpr ⟨ne (by decide), Finset.mem_erase.mpr ⟨ne (by decide), Finset.mem_erase.mpr ⟨ne (by decide), m6⟩⟩⟩),
    SparseCore.bigSep_erase' (Finset.mem_erase.mpr ⟨ne (by decide), Finset.mem_erase.mpr ⟨ne (by decide),
      Finset.mem_erase.mpr ⟨ne (by decide), Finset.mem_erase.mpr ⟨ne (by decide), m0⟩⟩⟩⟩)]

omit [FloatOps F] in
/-- The three scratch buffers are among the subcore's own: they are them, at some contents, and the rest. -/
theorem ownBufs_V :
    (ownBufs (thr d L) : sProp (𝕄F F))
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

include hq in
/-- The value facts, from the value module. -/
theorem vf (hf : Cert.Spec.Tab2OK (m (loc d main_arg2)) f) : VF m d L hq f where
  gA := fun off h h1 hin' ga0 => by
    rw [show (bA).view.writes (Elt F) ga0 [⟨Rect.whole S64x128, SparseCore.gatherPayload gathers_S1000000x128_S64x128 (View.read (Elt F) (tabS).view f)
          (SparseCore.rows (View.read (Elt F) (rowM off h).view (fiN m d L)) rfl hin')⟩] = _ from writes_whole_whole cc1_scratch1 ga0 _]
    exact gather_ok m d L hq f off h h1 hin'
  gB := fun off h h1 hin' gb0 => by
    rw [show (bB).view.writes (Elt F) gb0 [⟨Rect.whole S64x128, SparseCore.gatherPayload gathers_S1000000x128_S64x128 (View.read (Elt F) (tabS).view f)
          (SparseCore.rows (View.read (Elt F) (rowM off h).view (fiN m d L)) rfl hin')⟩] = _ from writes_whole_whole cc1_scratch2 gb0 _]
    exact gather_ok m d L hq f off h h1 hin'
  win := fun off h h1 r hr ho g1 p hp => win_done m d L hq f hf off h h1 r hr ho g1 p hp

/-- What the task leaves, restated for the handshake. -/
theorem post_ent (hf : Cert.Spec.Tab2OK (m (loc d main_arg2)) f) (Rb Rs : sProp (𝕄F F)) :
    (iprop(((tabV).view.loc (thr d L) ↦{tq L} f) ∗ ((ixV).view.loc (thr d L) ↦{tq L} idx3 m d)
            ∗ doneP m d L (base L) 640
            ∗ (∃ fi : Buf (Elt F) ((thr d L).loc cc1_scratch0), (sI).view.loc (thr d L) ↦{fullShare} fi)
            ∗ (∃ fa : Buf (Elt F) ((thr d L).loc cc1_scratch1), (bA).view.loc (thr d L) ↦{fullShare} fa)
            ∗ (∃ fb : Buf (Elt F) ((thr d L).loc cc1_scratch2), (bB).view.loc (thr d L) ↦{fullShare} fb)
            ∗ semVal (thr d L, SemLoc.dma cc1_scratch3.sem) 0 ∗ semVal (thr d L, SemLoc.dma cc1_scratch4.sem) 0
            ∗ semVal (thr d L, SemLoc.dma cc1_scratch5.sem) 0 ∗ semVal (thr d L, SemLoc.dma cc1_scratch6.sem) 0
            ∗ semVal (thr d L, SemLoc.dma cc1_scoped0.sem) 0
            ∗ (∃ W', ⌜∀ p ∈ W', p ∈ W ∨ p.2 = none⌝ ∗ owes (thr d L) O W') ∗ iprop(Rb ∗ Rs)) : sProp (𝕄F F))
      ⊢ iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx3 m d)
              ∗ ∃ g : Buf (Elt F) (loc d main_v4), ⌜RowsDone (Cert.Spec.qTok (m (loc d main_arg0))) (m (loc d main_arg2)) (base L) 640 g⌝
                  ∗ ((outV).view.loc (thr d L) ↦[rowsOf 20480 (base L) 640]{fullShare} g))
            ∗ ((∃ fi : Buf (Elt F) ((thr d L).loc cc1_scratch0), (sI).view.loc (thr d L) ↦{fullShare} fi)
              ∗ (∃ fa : Buf (Elt F) ((thr d L).loc cc1_scratch1), (bA).view.loc (thr d L) ↦{fullShare} fa)
              ∗ (∃ fb : Buf (Elt F) ((thr d L).loc cc1_scratch2), (bB).view.loc (thr d L) ↦{fullShare} fb) ∗ Rb)
            ∗ (semVal (thr d L, SemLoc.dma cc1_scratch3.sem) 0 ∗ semVal (thr d L, SemLoc.dma cc1_scratch4.sem) 0
              ∗ semVal (thr d L, SemLoc.dma cc1_scratch5.sem) 0 ∗ semVal (thr d L, SemLoc.dma cc1_scratch6.sem) 0
              ∗ semVal (thr d L, SemLoc.dma cc1_scoped0.sem) 0 ∗ Rs)
            ∗ ∃ W', ⌜∀ p ∈ W', p ∈ W ∨ p.2 = none⌝ ∗ owes (thr d L) O W') := by
  unfold doneP
  iintro ⟨Htab, Hix, Hdone, HsI, HbA, HbB, Hs3, Hs4, Hs5, Hs6, Hs0, HO, HRb, HRs⟩
  isplitl [Htab Hix Hdone]
  · isplitl [Htab]
    · iexists f; isplitr
      · ipureintro; exact hf
      · iexact Htab
    isplitl [Hix]; · iexact Hix
    iexact Hdone
  isplitl [HsI HbA HbB HRb]
  · isplitl [HsI]; · iexact HsI
    isplitl [HbA]; · iexact HbA
    isplitl [HbB]; · iexact HbB
    iexact HRb
  isplitl [Hs3 Hs4 Hs5 Hs6 Hs0 HRs]
  · isplitl [Hs3]; · iexact Hs3
    isplitl [Hs4]; · iexact Hs4
    isplitl [Hs5]; · iexact Hs5
    isplitl [Hs6]; · iexact Hs6
    isplitl [Hs0]; · iexact Hs0
    iexact HRs
  iexact HO

include hq in
/-- The task, from what the handshake hands the subcore to what it hands back, the subcore's other buffers and
    semaphores (Rb, Rs) untouched. -/
theorem tile_body' (hO : ∀ g, O g none = 0) (Rb Rs : sProp (𝕄F F)) :
    iprop(levAts (K (F := F)).L (K (F := F)).lev ∗ emp
        ∗ ((∃ f : Buf (Elt F) (loc d main_v1), ⌜Cert.Spec.Tab2OK (m (loc d main_arg2)) f⌝ ∗ ((tabV).view.loc (thr d L) ↦{tq L} f))
          ∗ ((ixV).view.loc (thr d L) ↦{tq L} idx3 m d)
          ∗ ∃ g : Buf (Elt F) (loc d main_v4), ((outV).view.loc (thr d L) ↦[rowsOf 20480 (base L) 640]{fullShare} g))
        ∗ ((∃ fi : Buf (Elt F) ((thr d L).loc cc1_scratch0), (sI).view.loc (thr d L) ↦{fullShare} fi)
          ∗ (∃ fa : Buf (Elt F) ((thr d L).loc cc1_scratch1), (bA).view.loc (thr d L) ↦{fullShare} fa)
          ∗ (∃ fb : Buf (Elt F) ((thr d L).loc cc1_scratch2), (bB).view.loc (thr d L) ↦{fullShare} fb) ∗ Rb)
        ∗ (semVal (thr d L, SemLoc.dma cc1_scratch3.sem) 0 ∗ semVal (thr d L, SemLoc.dma cc1_scratch4.sem) 0
          ∗ semVal (thr d L, SemLoc.dma cc1_scratch5.sem) 0 ∗ semVal (thr d L, SemLoc.dma cc1_scratch6.sem) 0
          ∗ semVal (thr d L, SemLoc.dma cc1_scoped0.sem) 0 ∗ Rs)
        ∗ owes (thr d L) O W)
      ⊢ wp frame (wpE (defs₀ (F := F)) 𝒱₀ (thr d L) none) Set.univ
          (cc1_gather_kernel L tabV (Memref.isWhole_whole _) ixV (Memref.isWhole_whole _) outV (Memref.isWhole_whole _)
            sI (Memref.isWhole_whole _) bA (Memref.isWhole_whole _) bB (Memref.isWhole_whole _) cc1_scratch3 cc1_scratch4 cc1_scratch5 cc1_scratch6 cc1_scoped0)
          fun _ => iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx3 m d)
              ∗ ∃ g : Buf (Elt F) (loc d main_v4), ⌜RowsDone (Cert.Spec.qTok (m (loc d main_arg0))) (m (loc d main_arg2)) (base L) 640 g⌝
                  ∗ ((outV).view.loc (thr d L) ↦[rowsOf 20480 (base L) 640]{fullShare} g))
            ∗ ((∃ fi : Buf (Elt F) ((thr d L).loc cc1_scratch0), (sI).view.loc (thr d L) ↦{fullShare} fi)
              ∗ (∃ fa : Buf (Elt F) ((thr d L).loc cc1_scratch1), (bA).view.loc (thr d L) ↦{fullShare} fa)
              ∗ (∃ fb : Buf (Elt F) ((thr d L).loc cc1_scratch2), (bB).view.loc (thr d L) ↦{fullShare} fb) ∗ Rb)
            ∗ (semVal (thr d L, SemLoc.dma cc1_scratch3.sem) 0 ∗ semVal (thr d L, SemLoc.dma cc1_scratch4.sem) 0
              ∗ semVal (thr d L, SemLoc.dma cc1_scratch5.sem) 0 ∗ semVal (thr d L, SemLoc.dma cc1_scratch6.sem) 0
              ∗ semVal (thr d L, SemLoc.dma cc1_scoped0.sem) 0 ∗ Rs)
            ∗ ∃ W', ⌜∀ p ∈ W', p ∈ W ∨ p.2 = none⌝ ∗ owes (thr d L) O W') := by
  iintro ⟨#Hlv, -, ⟨⟨%f, %hf, Htab⟩, Hix, ⟨%g0, Hout⟩⟩, ⟨⟨%fi, HsI⟩, ⟨%fa, HbA⟩, ⟨%fb, HbB⟩, HRb⟩, ⟨Hs3, Hs4, Hs5, Hs6, Hs0, HRs⟩, HO⟩
  iapply (BIBase.Entails.trans (tile_core m d L hq f O W (vf m d L hq f hf) hO g0 fi fa fb iprop(Rb ∗ Rs))
    (wp_mono frame _ _ fun _ => post_ent m d L f O W hf Rb Rs))
  isplitr; · iexact Hlv
  isplitl [Htab]; · iexact Htab
  isplitl [Hix]; · iexact Hix
  isplitl [Hout]; · iexact Hout
  isplitl [HsI]; · iexact HsI
  isplitl [HbA]; · iexact HbA
  isplitl [HbB]; · iexact HbB
  isplitl [Hs3]; · iexact Hs3
  isplitl [Hs4]; · iexact Hs4
  isplitl [Hs5]; · iexact Hs5
  isplitl [Hs6]; · iexact Hs6
  isplitl [Hs0]; · iexact Hs0
  isplitl [HO]; · iexact HO
  isplitl [HRb]; · iexact HRb
  iexact HRs

include hq in
/-- The same at the spelling of the launch theorem's obligation. -/
theorem tile_body (hF : (K (F := F)).Facts) (hO : ∀ g, O g none = 0) :
    iprop(levAts (K (F := F)).L (K (F := F)).lev ∗ emp ∗ go0 m d (L 0).val (L 1).val
        ∗ scopedBufs (thr d L) ∗ scopedSems0 (thr d L) ∗ owes (thr d L) O W)
      ⊢ wp frame (wpE (defs₀ (F := F)) 𝒱₀ (thr d L) none) Set.univ
          (cc1_gather_kernel L tabV (Memref.isWhole_whole _) ixV (Memref.isWhole_whole _) outV (Memref.isWhole_whole _)
            sI (Memref.isWhole_whole _) bA (Memref.isWhole_whole _) bB (Memref.isWhole_whole _) cc1_scratch3 cc1_scratch4 cc1_scratch5 cc1_scratch6 cc1_scoped0)
          fun _ => iprop(td0 m d (L 0).val (L 1).val ∗ scopedBufs (thr d L) ∗ scopedSems0 (thr d L)
            ∗ ∃ W', ⌜∀ p ∈ W', p ∈ W ∨ p.2 = none⌝ ∗ owes (thr d L) O W') := by
  unfold go0 td0 tabAt task0
  rw [← base_eq L, (K (F := F)).scopedBufs_V hF d (cV L) (jV L), SparseCore.Cfg.scopedSems0_V (Val := Elt F) d (cV L) (jV L),
    ownSems0_V, ownBufs_V]
  exact tile_body' m d L hq O W hO _ _

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tabV (Memref.isWhole_whole _) ixV (Memref.isWhole_whole _) outV (Memref.isWhole_whole _)
          sI (Memref.isWhole_whole _) bA (Memref.isWhole_whole _) bB (Memref.isWhole_whole _) cc1_scratch3 cc1_scratch4 cc1_scratch5 cc1_scratch6 cc1_scoped0) ⟨⟩ c s := rfl

omit [FloatOps F] in
theorem obl_post {thr : Thread nD τ} {A B C : sProp (𝕄F F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G1

/-- The first SparseCore call's task, at every vector subcore of its grid. -/
theorem tileObl0 (m : (ℓ : Loc nD τ sig) → Buf (Elt F) ℓ) [FloatOps F]
    (hq : ∀ (d : Dev nD) i, ((m (loc d main_arg0)) i).toNat < 1000000) (hd : ∀ (d : Dev nD) i, ((m (loc d main_arg1)) i).toNat < 1000000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [G1.defs₀_vector]; simp only [SparseCore.onTile, hc, and_self, ↓reduceDIte]
  exact (G1.tile_body m d (G1.coordsV ⟨_, hc.1⟩ ⟨_, hc.2⟩) hq O W facts hO).trans (wp_mono frame _ _ fun _ => G1.obl_post)

end Cert.KernelIdeal.Hand

end
-- ==== Proof.ScBody2Defs.lean ====
/-
  The second SparseCore kernel (the document lookup) at a symbolic vector subcore: its operands in the program's spelling, the
  element sets its copies move, and what its index scratch holds.

  Worker L (core L 0, subcore L 1; worker number 2 * (L 1) + (L 0)) copies row L of the index array into its index
  scratch, then for each of its fifty windows w gathers the 128 table rows named by row w of the scratch into one of two
  buffers and copies the buffer out to rows [base + 128 w, base + 128 w + 128) of the output, base = 6400 * (worker number).
-/
import proofs.«218768_g80616536146796_cont_9to1c4b_775_25_alg».proof.Proof.ScPay
import proofs.«218768_g80616536146796_cont_9to1c4b_775_25_alg».proof.Proof.Gen.KernelIdeal.Skeleton
import Idealize.ShloMosaic.Lib.SparseCore.Launch
import Idealize.ShloMosaic.Lib.SparseCore.Stream
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

/-! ## The first gather kernel's operands, in the program's spelling -/

abbrev tabV : Memref sig .scVector .hbm S1000000x128 .f32 := Memref.whole main_v1_scv
abbrev ixV : Memref sig .scVector .hbm S32x50x128 .i32 := Memref.whole main_v6_scv
abbrev outV : Memref sig .scVector .hbm S204800x128 .f32 := Memref.whole main_v7_scv
abbrev sI : Memref sig .scVector .vmem S50x128 .i32 := Memref.whole cc2_scratch0
abbrev bA : Memref sig .scVector .vmem S128x128 .f32 := Memref.whole cc2_scratch1
abbrev bB : Memref sig .scVector .vmem S128x128 .f32 := Memref.whole cc2_scratch2

/-- The table as every gather slices it (whole), a row of the index scratch, a window of the output. -/
abbrev tabS : Memref sig .scVector .hbm S1000000x128 .f32 :=
  tabV.slice (Rect.unit (s := S1000000x128) ![0, 0] S1000000x128.size inb_S1000000x128_S1000000x128_0_0) (fun _ => rfl)
abbrev rowM (off : Fin 2 → ℕ) (h : ∀ a, off a + S1x128.size a ≤ S50x128.size a) : Memref sig .scVector .vmem S128 .i32 :=
  (sI.slice (Rect.unit (s := S50x128) off S1x128.size h) (fun _ => rfl)).squeeze S128 squeezes_S1x128_S128
abbrev winM (off : Fin 2 → ℕ) (h : ∀ a, off a + S128x128.size a ≤ S204800x128.size a) : Memref sig .scVector .hbm S128x128 .f32 :=
  outV.slice (Rect.unit (s := S204800x128) off S128x128.size h) (fun _ => rfl)

/-- Row r of the index scratch, as a set of its elements. -/
def rowSetI (r : ℕ) : Finset S50x128.Idx := Finset.univ.filter fun x => (x 0).val = r

theorem set_tabS : (tabS).view.set = Finset.univ := by
  show ((View.whole (main_v1_scv : Ref sig .scVector)).slice (Rect.unit (s := S1000000x128) ![0, 0] S1000000x128.size inb_S1000000x128_S1000000x128_0_0)).set = _
  rw [View.set_slice_whole]
  ext x
  simp only [Rect.mem_set_unit, Finset.mem_univ, iff_true]
  refine (Fin.forall_fin_two (p := fun a => (![0, 0] : Fin 2 → ℕ) a ≤ (x a).val ∧ (x a).val < (![0, 0] : Fin 2 → ℕ) a + S1000000x128.size a)).mpr ⟨⟨Nat.zero_le _, ?_⟩, ⟨Nat.zero_le _, ?_⟩⟩
  · have h0 : (x 0).val < 1000000 := (x 0).isLt
    show (x 0).val < 0 + 1000000; omega
  · have h1 : (x 1).val < 128 := (x 1).isLt
    show (x 1).val < 0 + 128; omega

theorem set_rowM (off : Fin 2 → ℕ) (h : ∀ a, off a + S1x128.size a ≤ S50x128.size a) (h1 : off 1 = 0) :
    (rowM off h).view.set = rowSetI (off 0) := by
  show (((View.whole (cc2_scratch0 : Ref sig .scVector)).slice (Rect.unit (s := S50x128) off S1x128.size h)).reshape S128 squeezes_S1x128_S128.numel_eq).set = _
  rw [View.set_reshape, View.set_slice_whole]
  ext x
  simp only [Rect.mem_set_unit, rowSetI, Finset.mem_filter, Finset.mem_univ, true_and]
  refine (Fin.forall_fin_two (p := fun a => off a ≤ (x a).val ∧ (x a).val < off a + S1x128.size a)).trans ?_
  have hx1 : (x 1).val < 128 := (x 1).isLt
  show (off 0 ≤ (x 0).val ∧ (x 0).val < off 0 + 1) ∧ (off 1 ≤ (x 1).val ∧ (x 1).val < off 1 + 128) ↔ _
  omega

theorem set_winM (off : Fin 2 → ℕ) (h : ∀ a, off a + S128x128.size a ≤ S204800x128.size a) (h1 : off 1 = 0) :
    (winM off h).view.set = rowsOf 204800 (off 0) 128 := by
  show ((View.whole (main_v7_scv : Ref sig .scVector)).slice (Rect.unit (s := S204800x128) off S128x128.size h)).set = _
  rw [View.set_slice_whole]
  ext x
  simp only [Rect.mem_set_unit, rowsOf, Finset.mem_filter, Finset.mem_univ, true_and]
  refine (Fin.forall_fin_two (p := fun a => off a ≤ (x a).val ∧ (x a).val < off a + S128x128.size a)).trans ?_
  have hx1 : (x 1).val < 128 := (x 1).isLt
  show (off 0 ≤ (x 0).val ∧ (x 0).val < off 0 + 128) ∧ (off 1 ≤ (x 1).val ∧ (x 1).val < off 1 + 128) ↔ _
  omega

abbrev cV (L : grid2.Coords) : Fin τ.nSC := (L 0).castLE hcore2
abbrev jV (L : grid2.Coords) : Fin τ.nSub := (L 1).castLE hsub2

variable (m : (ℓ : Loc nD τ sig) → Buf (Elt F) ℓ) [FloatOps F]

variable (d : Dev nD) (L : grid2.Coords)

/-- The vector subcore that runs worker L. -/
abbrev thr : Thread nD τ := V d (cV L) (jV L)

/-- Worker L's row of the index array, as the kernel slices it. -/
abbrev ixRow : Memref sig .scVector .hbm S50x128 .i32 :=
  (ixV.slice (Rect.unit (s := S32x50x128) (k2_off1 L) S1x50x128.size (k2_off1_inb L)) (fun _ => rfl)).squeeze S50x128 squeezes_S1x50x128_S50x128

/-- What the index scratch holds once the worker's row is in: that row of the index array. -/
def fiN : Buf (Elt F) ((thr d L).loc cc2_scratch0) := (ixRow L).view.read (Elt F) (idx6 m d)

/-- Every word of the index array is one of the query token ids. -/
theorem idx6_lt (hq : ∀ d i, ((m (loc d main_arg1)) i).toNat < 1000000) (z : S32x50x128.Idx) : (idx6 m d z).toNat < 1000000 := by
  unfold idx6 shapeCast; exact hq d _

theorem fiN_lt (hq : ∀ d i, ((m (loc d main_arg1)) i).toNat < 1000000) (y : S50x128.Idx) : (fiN m d L y).toNat < 1000000 := by
  unfold fiN; rw [View.read_apply]; exact idx6_lt m d hq _

/-- The first row of the output worker L writes. -/
def base : ℕ := 12800 * (L 1).val + 6400 * (L 0).val

theorem base_eq : base L = wid (L 0).val (L 1).val * 6400 := by unfold base wid; omega

/-- What a gather of window r leaves in a buffer: row j holds the table row named by word j of row r of the index
    scratch. -/
def GOK (hq : ∀ d i, ((m (loc d main_arg1)) i).toNat < 1000000) (f : Buf (Elt F) (loc d main_v1)) (r : ℕ)
    (ga : S128x128.Idx → F .f32) : Prop :=
  ∀ x : S128x128.Idx, ga x = f (ix2 ⟨(fiN m d L (ix2 ⟨r % 50, Nat.mod_lt _ (by decide)⟩ (x 0))).toNat, fiN_lt m d L hq _⟩ (x 1))

end G2

end Cert.KernelIdeal.Hand

end
-- ==== Proof.ScBody2Loop.lean ====
/-
  The second SparseCore kernel's loop: the invariant that holds before each trip (which window is being gathered into which
  buffer, each semaphore's counter, the rows of the output written so far with their values) and the two kinds of trip,
  each run once at a symbolic vector subcore and a symbolic trip.
-/
import proofs.«218768_g80616536146796_cont_9to1c4b_775_25_alg».proof.Proof.ScBody2Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

variable (m : (ℓ : Loc nD τ sig) → Buf (Elt F) ℓ) [FloatOps F]
variable (d : Dev nD) (L : grid2.Coords)

/-! ## Rows of the output, held piece by piece -/

/-- The worker's share of the table and of the index array. -/
abbrev tq : PosShare TreeShare := tSh (L 0).val (L 1).val

/-- Rows [o, o + n) of the output, done: their first 128 columns are the table rows their tokens name. -/
def doneP (o n : ℕ) : sProp (𝕄F F) :=
  iprop(∃ g : Buf (Elt F) (loc d main_v7), ⌜RowsDone (Cert.Spec.dTok (m (loc d main_arg1))) (m (loc d main_arg2)) o n g⌝
    ∗ ((outV).view.loc (thr d L) ↦[rowsOf 204800 o n]{fullShare} g))
/-- Rows [o, o + n) of the output, not yet written. -/
def todoP (o n : ℕ) : sProp (𝕄F F) :=
  iprop(∃ g : Buf (Elt F) (loc d main_v7), ((outV).view.loc (thr d L) ↦[rowsOf 204800 o n]{fullShare} g))

omit [FloatOps F] in
theorem rowsOf_union (n o a b : ℕ) : rowsOf n o (a + b) = rowsOf n o a ∪ rowsOf n (o + a) b := by
  ext x; simp only [Finset.mem_union, mem_rowsOf]; omega
omit [FloatOps F] in
theorem rowsOf_disj (n o a b : ℕ) : Disjoint (rowsOf n o a) (rowsOf n (o + a) b) := by
  rw [Finset.disjoint_left]; intro x h1 h2; rw [mem_rowsOf] at h1 h2; omega

theorem todo_split (o a b : ℕ) : todoP (F := F) d L o (a + b)
    ⊢ iprop((∃ g : Buf (Elt F) (loc d main_v7), ((outV).view.loc (thr d L) ↦[rowsOf 204800 o a]{fullShare} g)) ∗ todoP (F := F) d L (o + a) b) := by
  unfold todoP; rw [rowsOf_union 204800 o a b]
  iintro ⟨%g, H⟩
  ihave H' := (pointsTo_union (rowsOf_disj 204800 o a b)).1 $$ H
  icases H' with ⟨H1, H2⟩
  isplitl [H1]
  · iexists g; iexact H1
  · iexists g; iexact H2

theorem done_append (o a b : ℕ) : iprop(doneP m d L o a ∗ doneP m d L (o + a) b) ⊢ doneP m d L o (a + b) := by
  unfold doneP; rw [rowsOf_union 204800 o a b]
  iintro ⟨⟨%g1, %h1, H1⟩, ⟨%g2, %h2, H2⟩⟩
  ihave H := (pointsTo_join (ℓ := (outV).view.loc (thr d L)) (I := rowsOf 204800 o a) (J := rowsOf 204800 (o + a) b) (rowsOf_disj 204800 o a b)) $$ [H1 H2]
  · isplitl [H1] <;> iassumption
  iexists ((rowsOf 204800 (o + a) b).piecewise g2 g1)
  isplitr
  · ipureintro; intro r e hr1 hr2
    by_cases hlt : r.val < o + a
    · rw [Finset.piecewise_eq_of_notMem _ _ _ (by rw [mem_rowsOf]; show ¬ (o + a ≤ r.val ∧ r.val < o + a + b); omega)]
      exact h1 r e hr1 hlt
    · rw [Finset.piecewise_eq_of_mem _ _ _ (by rw [mem_rowsOf]; show o + a ≤ r.val ∧ r.val < o + a + b; omega)]
      exact h2 r e (by omega) (by omega)
  · iexact H

/-! ## The same elements, in the invariant's spelling and in the program's -/

omit [FloatOps F] in
theorem row_prog (off : Fin 2 → ℕ) (h : ∀ a, off a + S1x128.size a ≤ S50x128.size a) (h1 : off 1 = 0) (r : ℕ) (hr : off 0 = r)
    (q : PosShare TreeShare) (fi' : Buf (Elt F) ((thr d L).loc cc2_scratch0)) :
    (((sI).view.loc (thr d L) ↦[rowSetI r]{q} fi') : sProp (𝕄F F)) = ((rowM off h).view.loc (thr d L) ↦[(rowM off h).view.set]{q} fi') := by
  rw [set_rowM off h h1, hr]
omit [FloatOps F] in
theorem win_prog (off : Fin 2 → ℕ) (h : ∀ a, off a + S128x128.size a ≤ S204800x128.size a) (h1 : off 1 = 0) (o : ℕ) (ho : off 0 = o)
    (q : PosShare TreeShare) (g : Buf (Elt F) (loc d main_v7)) :
    (((outV).view.loc (thr d L) ↦[rowsOf 204800 o 128]{q} g) : sProp (𝕄F F)) = ((winM off h).view.loc (thr d L) ↦[(winM off h).view.set]{q} g) := by
  rw [set_winM off h h1, ho]
omit [FloatOps F] in
theorem tab_prog (q : PosShare TreeShare) (f : Buf (Elt F) (loc d main_v1)) :
    (((tabV).view.loc (thr d L) ↦[Finset.univ]{q} f) : sProp (𝕄F F)) = ((tabS).view.loc (thr d L) ↦[(tabS).view.set]{q} f) := by
  rw [set_tabS]

/-! ## The loop's invariant -/

variable (hq : ∀ d i, ((m (loc d main_arg1)) i).toNat < 1000000) (f : Buf (Elt F) (loc d main_v1))
variable (O : CellTallies nD τ sig (HIx 2)) (W : Waits sig (HIx 2))

/-- The thread's debt, with the waits it has recorded since the task began. -/
def owesP : sProp (𝕄F F) := iprop(∃ W', ⌜∀ p ∈ W', p ∈ W ∨ p.2 = none⌝ ∗ owes (thr d L) O W')

/-- What a gather of window r into the first buffer delivers, in the invariant's spelling. -/
def DA (r : ℕ) : sProp (𝕄F F) :=
  iprop(((∃ ga : Buf (Elt F) ((thr d L).loc cc2_scratch1), ⌜GOK m d L hq f r ga⌝ ∗ ((bA).view.loc (thr d L) ↦[(bA).view.set]{fullShare} ga))
        ∗ ((sI).view.loc (thr d L) ↦[rowSetI r]{fullShare} fiN m d L))
      ∗ ((tabV).view.loc (thr d L) ↦[Finset.univ]{(tq L).left} f))

/-- Before trip k < 25: window 2k is being gathered into the first buffer; windows below 2k are written out and waited for;
    every other semaphore is at zero. -/
def IA (k : ℕ) : sProp (𝕄F F) :=
  iprop(Transfers.MayWaits (thr d L) (none : HIx 2) O
    ∗ Transfers.Flight countersEmb (thr d L) (SemLoc.dma cc2_scratch3.sem) (none : HIx 2) 524288 (DA m d L hq f (2 * k))
    ∗ ((tabV).view.loc (thr d L) ↦[Finset.univ]{(tq L).right} f)
    ∗ ((sI).view.loc (thr d L) ↦[Finset.univ \ rowSetI (2 * k)]{fullShare} fiN m d L)
    ∗ (∃ fb : Buf (Elt F) ((thr d L).loc cc2_scratch2), (bB).view.loc (thr d L) ↦{fullShare} fb)
    ∗ semVal (thr d L, SemLoc.dma cc2_scratch4.sem) 0 ∗ semVal (thr d L, SemLoc.dma cc2_scratch5.sem) 0
    ∗ semVal (thr d L, SemLoc.dma cc2_scratch6.sem) 0
    ∗ doneP m d L (base L) (256 * k) ∗ todoP (F := F) d L (base L + 256 * k) (6400 - 256 * k)
    ∗ owesP d L O W)

/-- After the last trip: the two last windows are on their way out. -/
def IB : sProp (𝕄F F) :=
  iprop(Transfers.MayWaits (thr d L) (none : HIx 2) O
    ∗ ((tabV).view.loc (thr d L) ↦[Finset.univ]{(tq L).left} f)
    ∗ ((tabV).view.loc (thr d L) ↦[Finset.univ]{(tq L).right} f)
    ∗ ((sI).view.loc (thr d L) ↦[Finset.univ]{fullShare} fiN m d L)
    ∗ Transfers.Flight countersEmb (thr d L) (SemLoc.dma cc2_scratch5.sem) (none : HIx 2) 524288
        iprop(doneP m d L (base L + 6144) 128 ∗ ∃ fa : Buf (Elt F) ((thr d L).loc cc2_scratch1), (bA).view.loc (thr d L) ↦[(bA).view.set]{fullShare} fa)
    ∗ Transfers.Flight countersEmb (thr d L) (SemLoc.dma cc2_scratch6.sem) (none : HIx 2) 524288
        iprop(doneP m d L (base L + 6272) 128 ∗ ∃ fb : Buf (Elt F) ((thr d L).loc cc2_scratch2), (bB).view.loc (thr d L) ↦[(bB).view.set]{fullShare} fb)
    ∗ semVal (thr d L, SemLoc.dma cc2_scratch3.sem) 0 ∗ semVal (thr d L, SemLoc.dma cc2_scratch4.sem) 0
    ∗ doneP m d L (base L) 6144
    ∗ owesP d L O W)

def Inv (k : ℕ) (_ : PUnit) : sProp (𝕄F F) := if k < 25 then IA m d L hq f O W k else IB m d L f O W

/-! ## Small conversions -/

omit [FloatOps F] in
theorem semVal_cast (sm sm' : DmaSem sig) (h : sm = sm') :
    (semVal (thr d L, SemLoc.dma sm) 0 : sProp (𝕄F F)) ⊢ semVal (thr d L, SemLoc.dma sm') 0 := by subst h; exact .rfl

omit [FloatOps F] in
theorem rowSetI_disj {a b : ℕ} (h : a ≠ b) : Disjoint (rowSetI a) (rowSetI b) := by
  rw [Finset.disjoint_left]; intro x h1 h2
  simp only [rowSetI, Finset.mem_filter, Finset.mem_univ, true_and] at h1 h2; omega

omit [FloatOps F] in
/-- Two rows out of the index scratch less a third. -/
theorem sI_split (a b c : ℕ) (hab : a ≠ b) (hac : a ≠ c) (hbc : b ≠ c) (fi' : Buf (Elt F) ((thr d L).loc cc2_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[rowSetI c]{fullShare} fi')
          ∗ ((sI).view.loc (thr d L) ↦[((Finset.univ \ rowSetI a) \ rowSetI b) \ rowSetI c]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  have h2 : rowSetI c ⊆ (Finset.univ \ rowSetI a) \ rowSetI b := by
    intro x hx; rw [Finset.mem_sdiff, Finset.mem_sdiff]
    exact ⟨⟨Finset.mem_univ _, fun hx' => Finset.disjoint_left.mp (rowSetI_disj hac) hx' hx⟩, fun hx' => Finset.disjoint_left.mp (rowSetI_disj hbc) hx' hx⟩
  iintro H
  ihave H := (pointsTo_split_subset h1).1 $$ H
  icases H with ⟨Hb, H⟩
  ihave H := (pointsTo_split_subset h2).1 $$ H
  icases H with ⟨Hc, H⟩
  isplitl [Hb]; · iexact Hb
  isplitl [Hc]; · iexact Hc
  iexact H

omit [FloatOps F] in
/-- And back, the third row now the one left out. -/
theorem sI_rejoin (a b c : ℕ) (hab : a ≠ b) (hac : a ≠ c) (hbc : b ≠ c) (fi' : Buf (Elt F) ((thr d L).loc cc2_scratch0)) :
    iprop(((sI).view.loc (thr d L) ↦[rowSetI a]{fullShare} fi') ∗ ((sI).view.loc (thr d L) ↦[rowSetI b]{fullShare} fi')
          ∗ ((sI).view.loc (thr d L) ↦[((Finset.univ \ rowSetI a) \ rowSetI b) \ rowSetI c]{fullShare} fi'))
      ⊢ (((sI).view.loc (thr d L) ↦[Finset.univ \ rowSetI c]{fullShare} fi') : sProp (𝕄F F)) := by
  have e : ((Finset.univ \ rowSetI a) \ rowSetI b) \ rowSetI c = ((Finset.univ \ rowSetI c) \ rowSetI b) \ rowSetI a := by
    ext x; simp only [Finset.mem_sdiff, Finset.mem_univ, true_and]; tauto
  have h1 : rowSetI b ⊆ Finset.univ \ rowSetI c := by
    intro x hx; rw [Finset.mem_sdiff]; exact ⟨Finset.mem_univ _, fun hx' => Finset.disjoint_left.mp (rowSetI_disj hbc) hx hx'⟩
  have h2 : rowSetI a ⊆ (Finset.univ \ rowSetI c) \ rowSetI b := by
    intro x hx; rw [Finset.mem_sdiff, Finset.mem_sdiff]
    exact ⟨⟨Finset.mem_univ _, fun hx' => Finset.disjoint_left.mp (rowSetI_disj hac) hx hx'⟩, fun hx' => Finset.disjoint_left.mp (rowSetI_disj hab) hx hx'⟩
  rw [e]
  have j1 : iprop(((sI).view.loc (thr d L) ↦[rowSetI b]{fullShare} fi') ∗ ((sI).view.loc (thr d L) ↦[(Finset.univ \ rowSetI c) \ rowSetI b]{fullShare} fi'))
      ⊢ (((sI).view.loc (thr d L) ↦[Finset.univ \ rowSetI c]{fullShare} fi') : sProp (𝕄F F)) := (pointsTo_split_subset h1).2
  have j2 : iprop(((sI).view.loc (thr d L) ↦[rowSetI a]{fullShare} fi') ∗ ((sI).view.loc (thr d L) ↦[((Finset.univ \ rowSetI c) \ rowSetI b) \ rowSetI a]{fullShare} fi'))
      ⊢ (((sI).view.loc (thr d L) ↦[(Finset.univ \ rowSetI c) \ rowSetI b]{fullShare} fi') : sProp (𝕄F F)) := (pointsTo_split_subset h2).2
  iintro ⟨Ha, Hb, H⟩
  ihave H2 := j2 $$ [Ha H]
  · isplitl [Ha] <;> iassumption
  iapply j1
  isplitl [Hb]; · iexact Hb
  iexact H2

/-- What a gather's flight delivers, restated in the invariant's spelling (the table's share left in the program's). -/
theorem DA_intro (off : Fin 2 → ℕ) (h : ∀ a, off a + S1x128.size a ≤ S50x128.size a) (h1 : off 1 = 0) (r : ℕ) (hr : off 0 = r)
    (q : PosShare TreeShare) (X : Buf (Elt F) ((thr d L).loc cc2_scratch1)) (hX : GOK m d L hq f r X) :
    (iprop((((bA).view.loc (thr d L) ↦[(bA).view.set]{fullShare} X) ∗ ((rowM off h).view.loc (thr d L) ↦[(rowM off h).view.set]{fullShare} fiN m d L))
        ∗ ((tabS).view.loc (thr d L) ↦[(tabS).view.set]{q} f)) : sProp (𝕄F F))
      ⊢ iprop(((∃ ga : Buf (Elt F) ((thr d L).loc cc2_scratch1), ⌜GOK m d L hq f r ga⌝ ∗ ((bA).view.loc (thr d L) ↦[(bA).view.set]{fullShare} ga))
        ∗ ((sI).view.loc (thr d L) ↦[rowSetI r]{fullShare} fiN m d L))
      ∗ ((tabS).view.loc (thr d L) ↦[(tabS).view.set]{q} f)) := by
  iintro ⟨⟨HbA, Hrow⟩, Htab⟩
  isplitr [Htab]
  · isplitl [HbA]
    · iexists X; isplitr
      · ipureintro; exact hX
      · iexact HbA
    · iapply (Entails.of_eq (row_prog (F := F) d L off h h1 r hr fullShare (fiN m d L)).symm); iexact Hrow
  · iexact Htab

omit [FloatOps F] in
theorem flight_conv (sm sm' : DmaSem sig) (ι ι' : HIx 2) (N : ℕ) (D D' : sProp (𝕄F F)) (hs : sm = sm') (hι : ι = ι') (hD : D ⊢ D') :
    Transfers.Flight countersEmb (thr d L) (SemLoc.dma sm) ι N D ⊢ Transfers.Flight countersEmb (thr d L) (SemLoc.dma sm') ι' N D' := by
  subst hs hι; exact Transfers.Flight_mono countersEmb (thr d L) hD

theorem doneP_congr (o o' n n' : ℕ) (ho : o = o') (hn : n = n') : doneP m d L o n ⊢ doneP m d L o' n' := by subst ho hn; exact .rfl
omit [FloatOps F] in
theorem todoP_congr (o o' n n' : ℕ) (ho : o = o') (hn : n = n') : todoP (F := F) d L o n ⊢ todoP (F := F) d L o' n' := by subst ho hn; exact .rfl

/-! ## The value facts the trips use (proved in the value module) -/

structure VF : Prop where
  gA : ∀ (off : Fin 2 → ℕ) (h : ∀ a, off a + S1x128.size a ≤ S50x128.size a) (_ : off 1 = 0)
      (hin' : ∀ x, ((rowM off h).view.read (Elt F) (fiN m d L) x).toNat < S1000000x128.size gathers_S1000000x128_S128x128.axis)
      (ga0 : Buf (Elt F) ((thr d L).loc cc2_scratch1)),
      GOK m d L hq f (off 0) ((bA).view.writes (Elt F) ga0 [⟨Rect.whole S128x128,
        SparseCore.gatherPayload gathers_S1000000x128_S128x128 (View.read (Elt F) (tabS).view f)
          (SparseCore.rows (View.read (Elt F) (rowM off h).view (fiN m d L)) rfl hin')⟩])
  gB : ∀ (off : Fin 2 → ℕ) (h : ∀ a, off a + S1x128.size a ≤ S50x128.size a) (_ : off 1 = 0)
      (hin' : ∀ x, ((rowM off h).view.read (Elt F) (fiN m d L) x).toNat < S1000000x128.size gathers_S1000000x128_S128x128.axis)
      (gb0 : Buf (Elt F) ((thr d L).loc cc2_scratch2)),
      GOK m d L hq f (off 0) ((bB).view.writes (Elt F) gb0 [⟨Rect.whole S128x128,
        SparseCore.gatherPayload gathers_S1000000x128_S128x128 (View.read (Elt F) (tabS).view f)
          (SparseCore.rows (View.read (Elt F) (rowM off h).view (fiN m d L)) rfl hin')⟩])
  win : ∀ (off : Fin 2 → ℕ) (h : ∀ a, off a + S128x128.size a ≤ S204800x128.size a) (_ : off 1 = 0)
      (r : ℕ) (_ : r < 50) (_ : off 0 = base L + 128 * r) (g1 : Buf (Elt F) (loc d main_v7)) (p : S128x128.Idx → F .f32) (_ : GOK m d L hq f r p),
      RowsDone (Cert.Spec.dTok (m (loc d main_arg1))) (m (loc d main_arg2)) (off 0) 128
        ((winM off h).view.writes (Elt F) g1 [⟨Rect.whole S128x128, p⟩])

include hq in
theorem hin_of (x : S128.Idx) (off : Fin 2 → ℕ) (hoff : ∀ a, off a + S1x128.size a ≤ S50x128.size a) :
    (View.read (Elt F) (rowM off hoff).view (fiN m d L) x).toNat < S1000000x128.size gathers_S1000000x128_S128x128.axis := by
  rw [View.read_apply]; exact fiN_lt m d L hq _

theorem cond_lt : ∀ k : Fin k2_t1_loop.trips, k2_cond1 k = 1#1 → k.val < 24 := by decide
theorem lt_cond : ∀ k : Fin k2_t1_loop.trips, ¬ k2_cond1 k = 1#1 → k.val = 24 := by decide

/-! ## A trip that is not the last -/

set_option maxHeartbeats 2000000 in
theorem region_pos (V : VF m d L hq f) (k : Fin k2_t1_loop.trips) (hk : k2_cond1 k = 1#1) :
    IA m d L hq f O W k.val ⊢ wp frame (wpE (defs₀ (F := F)) 𝒱₀ (thr d L) none) Set.univ
      (k2_t1_body L tabV (Memref.isWhole_whole _) ixV (Memref.isWhole_whole _) outV (Memref.isWhole_whole _)
        sI (Memref.isWhole_whole _) bA (Memref.isWhole_whole _) bB (Memref.isWhole_whole _) cc2_scratch3 cc2_scratch4 cc2_scratch5 cc2_scratch6 cc2_scoped0 k ())
      (fun _ => IA m d L hq f O W (k.val + 1)) := by
  have hk4 : k.val < 24 := cond_lt k hk
  have hin : ∀ (off : Fin 2 → ℕ) (hoff : ∀ a, off a + S1x128.size a ≤ S50x128.size a) (x : S128.Idx),
      (View.read (Elt F) (rowM off hoff).view (fiN m d L) x).toNat < S1000000x128.size gathers_S1000000x128_S128x128.axis :=
    fun off hoff x => hin_of m d L hq x off hoff
  have o2 : (k2_off2 k) 0 = 2 * k.val + 1 := by rw [k2_off2_eq]; rfl
  have o2' : (k2_off2 k) 1 = 0 := by rw [k2_off2_eq]; rfl
  have o3 : (k2_off3 k) 0 = 2 * k.val := by rw [k2_off3_eq]; rfl
  have o3' : (k2_off3 k) 1 = 0 := by rw [k2_off3_eq]; rfl
  have o7 : (k2_off7 k) 0 = 2 * (k.val + 1) := by rw [k2_off7_eq]; show 2 * k.val + 2 = _; omega
  have o7' : (k2_off7 k) 1 = 0 := by rw [k2_off7_eq]; rfl
  have o4 : (k2_off4 L k) 0 = base L + 256 * k.val := by rw [k2_off4_eq]; rfl
  have o4' : (k2_off4 L k) 1 = 0 := by rw [k2_off4_eq]; rfl
  have o5 : (k2_off5 L k) 0 = base L + 256 * k.val + 128 := by rw [k2_off5_eq]; rfl
  have o5' : (k2_off5 L k) 1 = 0 := by rw [k2_off5_eq]; rfl
  have e640 : 6400 - 256 * k.val = 128 + (128 + (6400 - 256 * (k.val + 1))) := by omega
  unfold IA DA owesP k2_t1_body
  rw [e640, row_prog (F := F) d L (k2_off3 k) (k2_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  -- the two rows this trip gathers through, out of the index scratch
  ihave HsIr := (sI_split (F := F) d L (2 * k.val) (2 * k.val + 1) (2 * (k.val + 1)) (by omega) (by omega) (by omega) (fiN m d L)) $$ HsIr
  icases HsIr with ⟨Hr1, Hr2, HsIr⟩
  ihave Hr1 := (Entails.of_eq (row_prog (F := F) d L (k2_off2 k) (k2_off2_inb k) o2' (2 * k.val + 1) o2 fullShare (fiN m d L))) $$ Hr1
  ihave Hr2 := (Entails.of_eq (row_prog (F := F) d L (k2_off7 k) (k2_off7_inb k hk) o7' (2 * (k.val + 1)) o7 fullShare (fiN m d L))) $$ Hr2
  -- the two windows this trip writes, out of the rows to do
  ihave Htodo := (todo_split (F := F) d L (base L + 256 * k.val) 128 (128 + (6400 - 256 * (k.val + 1)))) $$ Htodo
  icases Htodo with ⟨⟨%g1, Hw0⟩, Htodo⟩
  ihave Htodo := (todo_split (F := F) d L (base L + 256 * k.val + 128) 128 (6400 - 256 * (k.val + 1))) $$ Htodo
  icases Htodo with ⟨⟨%g2, Hw1⟩, Htodo⟩
  ihave Hw0 := (Entails.of_eq (win_prog (F := F) d L (k2_off4 L k) (k2_off4_inb L k) o4' (base L + 256 * k.val) o4 fullShare g1)) $$ Hw0
  ihave Hw1 := (Entails.of_eq (win_prog (F := F) d L (k2_off5 L k) (k2_off5_inb L k) o5' (base L + 256 * k.val + 128) o5 fullShare g2)) $$ Hw1
  sl_exec
  icases HFA_dst with ⟨⟨%ga, %hga, HbA⟩, Hr0⟩
  sl_exec
  sl_step
  have o4r : (k2_off4 L k) 0 = base L + 128 * (2 * k.val) := by rw [o4]; omega
  have o5b : (k2_off5 L k) 0 = base L + (256 * k.val + 128) := by rw [o5]; omega
  have o5r : (k2_off5 L k) 0 = base L + 128 * (2 * k.val + 1) := by rw [o5]; omega
  isplitr; · iexact Hmw
  isplitl [HFA]
  · iapply (flight_conv (F := F) d L _ _ _ _ _ _ _ ?hs ?hι (DA_intro m d L hq f (k2_off7 k) (k2_off7_inb k hk) o7' (2 * (k.val + 1)) o7 (tq L).left _ ?hX)) $$ HFA
    case hs => rfl
    case hι => rfl
    case hX =>
      have hX := V.gA (k2_off7 k) (k2_off7_inb k hk) o7' (fun x => hin _ _ x) ga
      rw [o7] at hX; exact hX
  iclear HFA_src
  isplitl [HtabB]; · iexact HtabB
  isplitl [Hr0 Hr1 HsIr]
  · ihave Hr0 := (Entails.of_eq (row_prog (F := F) d L (k2_off3 k) (k2_off3_inb k) o3' (2 * k.val) o3 fullShare (fiN m d L)).symm) $$ Hr0
    ihave Hr1 := (Entails.of_eq (row_prog (F := F) d L (k2_off2 k) (k2_off2_inb k) o2' (2 * k.val + 1) o2 fullShare (fiN m d L)).symm) $$ Hr1
    iapply (sI_rejoin (F := F) d L (2 * k.val) (2 * k.val + 1) (2 * (k.val + 1)) (by omega) (by omega) (by omega) (fiN m d L))
    isplitl [Hr0]; · iexact Hr0
    isplitl [Hr1]; · iexact Hr1
    iexact HsIr
  isplitl [HbB]; · iexists _; iexact HbB
  isplitl [Hs4]; · iapply (semVal_cast (F := F) d L _ _ ?h4) $$ Hs4; case h4 => rfl
  isplitl [Hs5]; · iapply (semVal_cast (F := F) d L _ _ ?h5) $$ Hs5; case h5 => rfl
  isplitl [Hs6]; · iapply (semVal_cast (F := F) d L _ _ ?h6) $$ Hs6; case h6 => rfl
  isplitl [Hdone Hw0 Hw1]
  · iapply (doneP_congr m d L (base L) (base L) (256 * k.val + 128 + 128) (256 * (k.val + 1)) rfl (by omega))
    iapply (done_append m d L (base L) (256 * k.val + 128) 128)
    isplitl [Hdone Hw0]
    · iapply (done_append m d L (base L) (256 * k.val) 128)
      isplitl [Hdone]; · iexact Hdone
      unfold doneP
      iexists _; isplitr; swap
      · iapply (Entails.of_eq (win_prog (F := F) d L (k2_off4 L k) (k2_off4_inb L k) o4' (base L + 256 * k.val) o4 fullShare _).symm); iexact Hw0
      · ipureintro
        have hw := V.win (k2_off4 L k) (k2_off4_inb L k) o4' (2 * k.val) (by omega) o4r g1 ga hga
        rw [o4] at hw; exact hw
    · unfold doneP
      iexists _; isplitr; swap
      · iapply (Entails.of_eq (win_prog (F := F) d L (k2_off5 L k) (k2_off5_inb L k) o5' (base L + (256 * k.val + 128)) o5b fullShare _).symm); iexact Hw1
      · ipureintro
        have hgb := V.gB (k2_off2 k) (k2_off2_inb k) o2' (fun x => hin _ _ x) fb
        rw [o2] at hgb
        have hw := V.win (k2_off5 L k) (k2_off5_inb L k) o5' (2 * k.val + 1) (by omega) o5r g2 _ hgb
        rw [o5b] at hw; exact hw
  isplitl [Htodo]
  · iapply (todoP_congr (F := F) d L _ _ _ _ (by omega) rfl) $$ Htodo
  iexists _; isplitr; swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
/-- One row out of the index scratch less another. -/
theorem sI_split2 (a b : ℕ) (hab : a ≠ b) (fi' : Buf (Elt F) ((thr d L).loc cc2_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[(Finset.univ \ rowSetI a) \ rowSetI b]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  exact (pointsTo_split_subset h1).1

omit [FloatOps F] in
/-- And the whole scratch back. -/
theorem sI_rejoin2 (a b : ℕ) (hab : a ≠ b) (fi' : Buf (Elt F) ((thr d L).loc cc2_scratch0)) :
    (iprop(((sI).view.loc (thr d L) ↦[rowSetI a]{fullShare} fi') ∗ ((sI).view.loc (thr d L) ↦[rowSetI b]{fullShare} fi')
          ∗ ((sI).view.loc (thr d L) ↦[(Finset.univ \ rowSetI a) \ rowSetI b]{fullShare} fi')) : sProp (𝕄F F))
      ⊢ ((sI).view.loc (thr d L) ↦[Finset.univ]{fullShare} fi') := by
  have h0 : rowSetI a ⊆ (Finset.univ : Finset S50x128.Idx) := Finset.subset_univ _
  have h1 : rowSetI b ⊆ Finset.univ \ rowSetI a := by
    intro x hx; rw [Finset.mem_sdiff]; exact ⟨Finset.mem_univ _, fun hx' => Finset.disjoint_left.mp (rowSetI_disj hab) hx' hx⟩
  have j0 : (iprop(((sI).view.loc (thr d L) ↦[rowSetI a]{fullShare} fi') ∗ ((sI).view.loc (thr d L) ↦[Finset.univ \ rowSetI a]{fullShare} fi')) : sProp (𝕄F F))
      ⊢ ((sI).view.loc (thr d L) ↦[Finset.univ]{fullShare} fi') := (pointsTo_split_subset h0).2
  have j1 : (iprop(((sI).view.loc (thr d L) ↦[rowSetI b]{fullShare} fi') ∗ ((sI).view.loc (thr d L) ↦[(Finset.univ \ rowSetI a) \ rowSetI b]{fullShare} fi')) : sProp (𝕄F F))
      ⊢ ((sI).view.loc (thr d L) ↦[Finset.univ \ rowSetI a]{fullShare} fi') := (pointsTo_split_subset h1).2
  iintro ⟨Ha, Hb, H⟩
  ihave H1 := j1 $$ [Hb H]
  · isplitl [Hb] <;> iassumption
  iapply j0
  isplitl [Ha]; · iexact Ha
  iexact H1

/-! ## The last trip -/

set_option maxHeartbeats 2000000 in
theorem region_neg (V : VF m d L hq f) (k : Fin k2_t1_loop.trips) (hk : ¬ k2_cond1 k = 1#1) :
    IA m d L hq f O W k.val ⊢ wp frame (wpE (defs₀ (F := F)) 𝒱₀ (thr d L) none) Set.univ
      (k2_t1_body L tabV (Memref.isWhole_whole _) ixV (Memref.isWhole_whole _) outV (Memref.isWhole_whole _)
        sI (Memref.isWhole_whole _) bA (Memref.isWhole_whole _) bB (Memref.isWhole_whole _) cc2_scratch3 cc2_scratch4 cc2_scratch5 cc2_scratch6 cc2_scoped0 k ())
      (fun _ => IB m d L f O W) := by
  have hk5 : k.val = 24 := lt_cond k hk
  have hin : ∀ (off : Fin 2 → ℕ) (hoff : ∀ a, off a + S1x128.size a ≤ S50x128.size a) (x : S128.Idx),
      (View.read (Elt F) (rowM off hoff).view (fiN m d L) x).toNat < S1000000x128.size gathers_S1000000x128_S128x128.axis :=
    fun off hoff x => hin_of m d L hq x off hoff
  have o2 : (k2_off2 k) 0 = 2 * k.val + 1 := by rw [k2_off2_eq]; rfl
  have o2' : (k2_off2 k) 1 = 0 := by rw [k2_off2_eq]; rfl
  have o3 : (k2_off3 k) 0 = 2 * k.val := by rw [k2_off3_eq]; rfl
  have o3' : (k2_off3 k) 1 = 0 := by rw [k2_off3_eq]; rfl
  have o4 : (k2_off4 L k) 0 = base L + 256 * k.val := by rw [k2_off4_eq]; rfl
  have o4' : (k2_off4 L k) 1 = 0 := by rw [k2_off4_eq]; rfl
  have o5 : (k2_off5 L k) 0 = base L + 256 * k.val + 128 := by rw [k2_off5_eq]; rfl
  have o5' : (k2_off5 L k) 1 = 0 := by rw [k2_off5_eq]; rfl
  have o4c : (k2_off4 L k) 0 = base L + 6144 := by rw [o4, hk5]
  have o5c : (k2_off5 L k) 0 = base L + 6272 := by rw [o5, hk5]
  have o4r : (k2_off4 L k) 0 = base L + 128 * (2 * k.val) := by rw [o4]; omega
  have o5r : (k2_off5 L k) 0 = base L + 128 * (2 * k.val + 1) := by rw [o5]; omega
  have e640 : 6400 - 256 * k.val = 128 + 128 := by omega
  unfold IA IB DA owesP k2_t1_body
  rw [e640, row_prog (F := F) d L (k2_off3 k) (k2_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  ihave HsIr := (sI_split2 (F := F) d L (2 * k.val) (2 * k.val + 1) (by omega) (fiN m d L)) $$ HsIr
  icases HsIr with ⟨Hr1, HsIr⟩
  ihave Hr1 := (Entails.of_eq (row_prog (F := F) d L (k2_off2 k) (k2_off2_inb k) o2' (2 * k.val + 1) o2 fullShare (fiN m d L))) $$ Hr1
  ihave Htodo := (todo_split (F := F) d L (base L + 256 * k.val) 128 128) $$ Htodo
  icases Htodo with ⟨⟨%g1, Hw0⟩, Htodo⟩
  unfold todoP
  icases Htodo with ⟨%g2, Hw1⟩
  ihave Hw0 := (Entails.of_eq (win_prog (F := F) d L (k2_off4 L k) (k2_off4_inb L k) o4' (base L + 256 * k.val) o4 fullShare g1)) $$ Hw0
  ihave Hw1 := (Entails.of_eq (win_prog (F := F) d L (k2_off5 L k) (k2_off5_inb L k) o5' (base L + 256 * k.val + 128) o5 fullShare g2)) $$ Hw1
  sl_exec
  icases HFA_dst with ⟨⟨%ga, %hga, HbA⟩, Hr0⟩
  sl_exec
  sl_step
  isplitr; · iexact Hmw
  isplitl [HFA_src]; · iexact HFA_src
  isplitl [HtabB]; · iexact HtabB
  isplitl [Hr0 Hr1 HsIr]
  · ihave Hr0 := (Entails.of_eq (row_prog (F := F) d L (k2_off3 k) (k2_off3_inb k) o3' (2 * k.val) o3 fullShare (fiN m d L)).symm) $$ Hr0
    ihave Hr1 := (Entails.of_eq (row_prog (F := F) d L (k2_off2 k) (k2_off2_inb k) o2' (2 * k.val + 1) o2 fullShare (fiN m d L)).symm) $$ Hr1
    iapply (sI_rejoin2 (F := F) d L (2 * k.val) (2 * k.val + 1) (by omega) (fiN m d L))
    isplitl [Hr0]; · iexact Hr0
    isplitl [Hr1]; · iexact Hr1
    iexact HsIr
  iclear HbB
  isplitl [Hs5]
  · iapply (flight_conv (F := F) d L _ _ _ _ _ _ _ ?hs ?hι ?hD) $$ Hs5
    case hs => rfl
    case hι => rfl
    case hD =>
      iintro ⟨Hw, Hb⟩
      isplitl [Hw]
      · unfold doneP
        iexists _; isplitr; swap
        · iapply (Entails.of_eq (win_prog (F := F) d L (k2_off4 L k) (k2_off4_inb L k) o4' (base L + 6144) o4c fullShare _).symm); iexact Hw
        · ipureintro
          have hw := V.win (k2_off4 L k) (k2_off4_inb L k) o4' (2 * k.val) (by omega) o4r g1 ga hga
          rw [o4c] at hw; exact hw
      · iexists _; iexact Hb
  isplitl [Hs6]
  · iapply (flight_conv (F := F) d L _ _ _ _ _ _ _ ?hs ?hι ?hD) $$ Hs6
    case hs => rfl
    case hι => rfl
    case hD =>
      iintro ⟨Hw, Hb⟩
      isplitl [Hw]
      · unfold doneP
        iexists _; isplitr; swap
        · iapply (Entails.of_eq (win_prog (F := F) d L (k2_off5 L k) (k2_off5_inb L k) o5' (base L + 6272) o5c fullShare _).symm); iexact Hw
        · ipureintro
          have hgb := V.gB (k2_off2 k) (k2_off2_inb k) o2' (fun x => hin _ _ x) fb
          rw [o2] at hgb
          have hw := V.win (k2_off5 L k) (k2_off5_inb L k) o5' (2 * k.val + 1) (by omega) o5r g2 _ hgb
          rw [o5c] at hw; exact hw
      · iexists _; iexact Hb
  isplitl [HFA]; · iapply (semVal_cast (F := F) d L _ _ ?h3) $$ HFA; case h3 => rfl
  isplitl [Hs4]; · iapply (semVal_cast (F := F) d L _ _ ?h4) $$ Hs4; case h4 => rfl
  isplitl [Hdone]
  · iapply (doneP_congr m d L (base L) (base L) (256 * k.val) 6144 rfl (by omega)) $$ Hdone
  iexists _; isplitr; swap
  · iexact HO
  · ipureintro; intro p hp
    rcases Finset.mem_insert.mp hp with rfl | hp
    · exact .inr rfl
    rcases Finset.mem_insert.mp hp with rfl | hp
    · exact .inr rfl
    exact hW' p hp

end G2

end Cert.KernelIdeal.Hand

end
-- ==== Proof.ScBody2Core.lean ====
/-
  The second SparseCore kernel's task run once at a symbolic vector subcore: the index rows in, the first gather, the loop at
  its invariant, the last two copies out waited for; from the subcore's shares and scratch to its rows of the output done.
-/
import proofs.«218768_g80616536146796_cont_9to1c4b_775_25_alg».proof.Proof.ScBody2Loop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

variable (m : (ℓ : Loc nD τ sig) → Buf (Elt F) ℓ) [FloatOps F]
variable (d : Dev nD) (L : grid2.Coords)

variable (hq : ∀ d i, ((m (loc d main_arg1)) i).toNat < 1000000) (f : Buf (Elt F) (loc d main_v1))
variable (O : CellTallies nD τ sig (HIx 2)) (W : Waits sig (HIx 2))

/-! ## The whole task -/

omit [FloatOps F] in
theorem rowsOf_zero (n o : ℕ) : rowsOf n o 0 = ∅ := by
  ext x; simp only [mem_rowsOf, Finset.notMem_empty, iff_false]; omega

theorem done_zero (o : ℕ) (g : Buf (Elt F) (loc d main_v7)) :
    (((outV).view.loc (thr d L) ↦[rowsOf 204800 o 0]{fullShare} g) : sProp (𝕄F F)) ⊢ doneP m d L o 0 := by
  unfold doneP
  iintro H
  iexists g; isplitr
  · ipureintro; intro r e h1 h2; omega
  · iexact H

/-- The worker's rows of the output, none done yet. -/
theorem out_init (g0 : Buf (Elt F) (loc d main_v7)) :
    (((outV).view.loc (thr d L) ↦[rowsOf 204800 (base L) 6400]{fullShare} g0) : sProp (𝕄F F))
      ⊢ iprop(doneP m d L (base L) (256 * 0) ∗ todoP (F := F) d L (base L + 256 * 0) (6400 - 256 * 0)) := by
  have e : (6400 : ℕ) = 0 + 6400 := by omega
  iintro H
  ihave H : todoP (F := F) d L (base L) (0 + 6400) $$ [H]
  · unfold todoP; iexists g0; iexact H
  ihave H := (todo_split (F := F) d L (base L) 0 6400) $$ H
  icases H with ⟨⟨%g, H0⟩, H1⟩
  isplitl [H0]
  · iapply (done_zero m d L (base L) g); iexact H0
  · iexact H1

omit [FloatOps F] in
theorem set_bA : (bA).view.set = Finset.univ := View.set_whole _
omit [FloatOps F] in
theorem set_bB : (bB).view.set = Finset.univ := View.set_whole _

set_option maxHeartbeats 4000000 in
theorem tile_core (V : VF m d L hq f) (hO : ∀ g, O g none = 0)
    (g0 : Buf (Elt F) (loc d main_v7)) (fi : Buf (Elt F) ((thr d L).loc cc2_scratch0))
    (fa : Buf (Elt F) ((thr d L).loc cc2_scratch1)) (fb : Buf (Elt F) ((thr d L).loc cc2_scratch2)) (R : sProp (𝕄F F)) :
    iprop(levAts (K (F := F)).L (K (F := F)).lev
        ∗ ((tabV).view.loc (thr d L) ↦{tq L} f)
        ∗ ((ixV).view.loc (thr d L) ↦{tq L} idx6 m d)
        ∗ ((outV).view.loc (thr d L) ↦[rowsOf 204800 (base L) 6400]{fullShare} g0)
        ∗ ((sI).view.loc (thr d L) ↦{fullShare} fi) ∗ ((bA).view.loc (thr d L) ↦{fullShare} fa) ∗ ((bB).view.loc (thr d L) ↦{fullShare} fb)
        ∗ semVal (thr d L, SemLoc.dma cc2_scratch3.sem) 0 ∗ semVal (thr d L, SemLoc.dma cc2_scratch4.sem) 0
        ∗ semVal (thr d L, SemLoc.dma cc2_scratch5.sem) 0 ∗ semVal (thr d L, SemLoc.dma cc2_scratch6.sem) 0
        ∗ semVal (thr d L, SemLoc.dma cc2_scoped0.sem) 0
        ∗ owes (thr d L) O W ∗ R)
      ⊢ wp frame (wpE (defs₀ (F := F)) 𝒱₀ (thr d L) none) Set.univ
          (cc2_gather_kernel L tabV (Memref.isWhole_whole _) ixV (Memref.isWhole_whole _) outV (Memref.isWhole_whole _)
            sI (Memref.isWhole_whole _) bA (Memref.isWhole_whole _) bB (Memref.isWhole_whole _) cc2_scratch3 cc2_scratch4 cc2_scratch5 cc2_scratch6 cc2_scoped0)
          fun _ => iprop(((tabV).view.loc (thr d L) ↦{tq L} f) ∗ ((ixV).view.loc (thr d L) ↦{tq L} idx6 m d)
            ∗ doneP m d L (base L) 6400
            ∗ (∃ fi : Buf (Elt F) ((thr d L).loc cc2_scratch0), (sI).view.loc (thr d L) ↦{fullShare} fi)
            ∗ (∃ fa : Buf (Elt F) ((thr d L).loc cc2_scratch1), (bA).view.loc (thr d L) ↦{fullShare} fa)
            ∗ (∃ fb : Buf (Elt F) ((thr d L).loc cc2_scratch2), (bB).view.loc (thr d L) ↦{fullShare} fb)
            ∗ semVal (thr d L, SemLoc.dma cc2_scratch3.sem) 0 ∗ semVal (thr d L, SemLoc.dma cc2_scratch4.sem) 0
            ∗ semVal (thr d L, SemLoc.dma cc2_scratch5.sem) 0 ∗ semVal (thr d L, SemLoc.dma cc2_scratch6.sem) 0
            ∗ semVal (thr d L, SemLoc.dma cc2_scoped0.sem) 0
            ∗ (∃ W', ⌜∀ p ∈ W', p ∈ W ∨ p.2 = none⌝ ∗ owes (thr d L) O W') ∗ R) := by
  have hin : ∀ (off : Fin 2 → ℕ) (hoff : ∀ a, off a + S1x128.size a ≤ S50x128.size a) (x : S128.Idx),
      (View.read (Elt F) (rowM off hoff).view (fiN m d L) x).toNat < S1000000x128.size gathers_S1000000x128_S128x128.axis :=
    fun off hoff x => hin_of m d L hq x off hoff
  rw [cc2_gather_kernel_eq_skeleton]; unfold cc2_gather_kernel_skel
  iintro ⟨#Hlv, Htab, Hix, Hout, HsI, HbA, HbB, Hs3, Hs4, Hs5, Hs6, Hs0, HO, HR⟩
  ihave Hmw := ((K (F := F)).mayWaits_none (thr := thr d L) hO) $$ Hlv
  -- the table's share in two: one for each buffer's gathers
  ihave Htab := (pointsTo_share (PosShare.mem_left_op_right (tq L))).1 $$ Htab
  icases Htab with ⟨HtabA, HtabB⟩
  have hhide : ((tabV).view.loc (thr d L) ↦{(tq L).right} f : sProp (𝕄F F)) ⊢ iprop(((tabV).view.loc (thr d L) ↦{(tq L).right} f) ∗ emp) := Laws.sep_emp.2
  ihave HtabB := hhide $$ HtabB
  -- the worker's index rows in
  sl_exec
  unfold tile_core.sl.dma0
  have esI : ((sI).view.loc (thr d L) ↦{fullShare} View.write (Elt F) sI.view fi (ReadAs.same.apply (View.read (Elt F) (ixRow L).view (idx6 m d))) Finset.univ : sProp (𝕄F F))
      = ((sI).view.loc (thr d L) ↦{fullShare} fiN m d L) :=
    congrArg (fun z => ((sI).view.loc (thr d L) ↦{fullShare} z : sProp (𝕄F F))) (View.write_whole_univ (Val := Elt F) cc2_scratch0 fi (fiN m d L))
  ihave HsI := (Entails.of_eq esI) $$ HsI
  -- the first gather
  sl_exec
  iclear HtabA HbA
  icases HtabB with ⟨HtabB, -⟩
  ihave Hout := (out_init m d L g0) $$ Hout
  icases Hout with ⟨Hdone, Htodo⟩
  sl_for (Inv m d L hq f O W) $$ [Hmw Hs3 HtabB HsI HbB Hs4 Hs5 Hs6 Hdone Htodo HO]
  case region =>
    intro k acc
    by_cases hk : k2_cond1 k = 1#1
    · have hk4 := cond_lt k hk
      have e1 : Inv m d L hq f O W k.val acc = IA m d L hq f O W k.val := if_pos (by omega)
      have e2 : Inv m d L hq f O W (k.val + 1) = fun _ => IA m d L hq f O W (k.val + 1) := funext fun _ => if_pos (by omega)
      rw [e1, e2]; exact region_pos m d L hq f O W V k hk
    · have hk5 := lt_cond k hk
      have e1 : Inv m d L hq f O W k.val acc = IA m d L hq f O W k.val := if_pos (by omega)
      have e2 : Inv m d L hq f O W (k.val + 1) = fun _ => IB m d L f O W := funext fun _ => if_neg (by omega)
      rw [e1, e2]; exact region_neg m d L hq f O W V k hk
  · -- the invariant before the first trip
    have e0 : Inv m d L hq f O W 0 () = IA m d L hq f O W 0 := if_pos (by decide)
    rw [e0]; unfold IA DA owesP
    isplitl [Hmw]; · iexact Hmw
    isplitl [Hs3]
    · iapply (flight_conv (F := F) d L _ _ _ _ _ _ _ ?hs ?hι ?hD) $$ Hs3
      case hs => rfl
      case hι => rfl
      case hD =>
        change (iprop((((bA).view.loc (thr d L) ↦[(bA).view.set]{fullShare} _) ∗ ((rowM ![0, 0] inb_S50x128_S1x128_0_0).view.loc (thr d L) ↦[(rowM ![0, 0] inb_S50x128_S1x128_0_0).view.set]{fullShare} fiN m d L))
          ∗ ((tabS).view.loc (thr d L) ↦[(tabS).view.set]{(tq L).left} f)) : sProp (𝕄F F)) ⊢ _
        rw [tab_prog (F := F) d L (tq L).left f]
        exact DA_intro m d L hq f ![0, 0] inb_S50x128_S1x128_0_0 rfl (2 * 0) rfl (tq L).left _ (V.gA ![0, 0] inb_S50x128_S1x128_0_0 rfl (fun x => hin _ _ x) fa)
    isplitl [HtabB]; · iexact HtabB
    isplitl [HsI]
    · iapply (Entails.of_eq (congrArg (fun S => ((sI).view.loc (thr d L) ↦[Finset.univ \ S]{fullShare} fiN m d L : sProp (𝕄F F))) (set_rowM ![0, 0] inb_S50x128_S1x128_0_0 rfl))); iexact HsI
    isplitl [HbB]; · iexists _; iexact HbB
    isplitl [Hs4]; · iexact Hs4
    isplitl [Hs5]; · iexact Hs5
    isplitl [Hs6]; · iexact Hs6
    isplitl [Hdone]; · iexact Hdone
    isplitl [Htodo]; · iexact Htodo
    iexists _; isplitr; swap
    · iexact HO
    · ipureintro; intro p hp
      rcases Finset.mem_insert.mp hp with rfl | hp
      · exact .inr rfl
      exact .inl hp
  -- after the loop: the two last windows' copies out are waited for
  iintro %acc HI
  have e5 : Inv m d L hq f O W k2_t1_loop.trips acc = IB m d L f O W := if_neg (by decide)
  ihave HI := (Entails.of_eq e5) $$ HI
  unfold IB owesP
  icases HI with ⟨#Hmw', HtabA', HtabB', HsI', HFCA, HFCB, Hs3', Hs4', Hdone', ⟨%W', %hW', HO'⟩⟩
  ihave Hmw5 := (Transfers.MayWaits.elim (SemLoc.dma cc2_scratch5.sem)) $$ Hmw'
  iapply (Transfers.wp_waitLocalO countersEmb 𝒱₀ (thr d L) none (none : HIx 2) (N := 524288) rfl) $$ [HFCA HO' Hmw5]
  · isplitl [HFCA]; · iexact HFCA
    isplitl [HO']; · iexact HO'
    iexact Hmw5
  iintro ⟨⟨Hd8, ⟨%fa', HbA'⟩⟩, Hs5', HO'⟩
  ihave Hmw6 := (Transfers.MayWaits.elim (SemLoc.dma cc2_scratch6.sem)) $$ Hmw'
  simp only [Prog.lift, Prog.bind_op, Prog.bind_ret, Prog.pure_eq_ret]
  iapply (Transfers.wp_waitLocalO countersEmb 𝒱₀ (thr d L) none (none : HIx 2) (N := 524288) rfl) $$ [HFCB HO' Hmw6]
  · isplitl [HFCB]; · iexact HFCB
    isplitl [HO']; · iexact HO'
    iexact Hmw6
  iintro ⟨⟨Hd9, ⟨%fb', HbB'⟩⟩, Hs6', HO'⟩
  sl_step
  have jt : (iprop((View.loc (thr d L) (View.whole (main_v1_scv : Ref sig .scVector)) ↦{(tq L).left} f) ∗ (View.loc (thr d L) (View.whole (main_v1_scv : Ref sig .scVector)) ↦{(tq L).right} f)) : sProp (𝕄F F))
      ⊢ (View.loc (thr d L) (View.whole (main_v1_scv : Ref sig .scVector)) ↦{tq L} f) := (pointsTo_share (PosShare.mem_left_op_right (tq L))).2
  isplitl [HtabA' HtabB']
  · iapply jt; isplitl [HtabA'] <;> iassumption
  isplitl [Hix]; · iexact Hix
  isplitl [Hdone' Hd8 Hd9]
  · iapply (doneP_congr m d L (base L) (base L) (6144 + 128 + 128) 6400 rfl (by omega))
    iapply (done_append m d L (base L) (6144 + 128) 128)
    isplitl [Hdone' Hd8]
    · iapply (done_append m d L (base L) 6144 128); isplitl [Hdone'] <;> iassumption
    · iapply (doneP_congr m d L (base L + 6272) (base L + (6144 + 128)) 128 128 (by omega) rfl) $$ Hd9
  isplitl [HsI']; · iexists _; iexact HsI'
  isplitl [HbA']
  · iexists fa'
    have eA : ((View.loc (thr d L) (View.whole (cc2_scratch1 : Ref sig .scVector)) ↦[(View.whole (cc2_scratch1 : Ref sig .scVector)).set]{fullShare} fa' : sProp (𝕄F F)))
        = (View.loc (thr d L) (View.whole (cc2_scratch1 : Ref sig .scVector)) ↦[Finset.univ]{fullShare} fa') := by rw [View.set_whole]
    iapply (Entails.of_eq eA); iexact HbA'
  isplitl [HbB']
  · iexists fb'
    have eB : ((View.loc (thr d L) (View.whole (cc2_scratch2 : Ref sig .scVector)) ↦[(View.whole (cc2_scratch2 : Ref sig .scVector)).set]{fullShare} fb' : sProp (𝕄F F)))
        = (View.loc (thr d L) (View.whole (cc2_scratch2 : Ref sig .scVector)) ↦[Finset.univ]{fullShare} fb') := by rw [View.set_whole]
    iapply (Entails.of_eq eB); iexact HbB'
  isplitl [Hs3']; · iexact Hs3'
  isplitl [Hs4']; · iexact Hs4'
  isplitl [Hs5']; · iexact Hs5'
  isplitl [Hs6']; · iexact Hs6'
  isplitl [Hs0]; · iapply (semVal_cast (F := F) d L _ _ ?h0) $$ Hs0; case h0 => rfl
  isplitl [HO']
  · iexists _; isplitr; swap
    · iexact HO'
    · ipureintro; intro p hp
      rcases Finset.mem_insert.mp hp with rfl | hp
      · exact .inr rfl
      rcases Finset.mem_insert.mp hp with rfl | hp
      · exact .inr rfl
      exact hW' p hp
  iexact HR

end G2

end Cert.KernelIdeal.Hand

end
-- ==== Proof.ScBody2Val.lean ====
/-
  What the second SparseCore kernel's copies carry, as pure facts: the index scratch's words are document tokens; a gather of
  window r leaves in its buffer the table rows those tokens name; the buffer copied out to the window's rows of the output
  makes those rows hold, in their first 64 columns, the embedding rows of the window's tokens.
-/
import proofs.«218768_g80616536146796_cont_9to1c4b_775_25_alg».proof.Proof.ScBody2Defs
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.SL Idealize.SL.RA Idealize.SL.BI
open Idealize.ShloMosaic.ValueIdx

variable {F : FTy → Type}

namespace G2

variable (m : (ℓ : Loc nD τ sig) → Buf (Elt F) ℓ) [FloatOps F]
variable (d : Dev nD) (L : grid2.Coords)

/-- One piece written whole through a whole buffer's view replaces the contents. -/
theorem writes_whole_whole {κ : Kind} {Val : EltTy → Type} (b : Ref sig κ) (ga : b.ty.Contents Val) (p : (Rect.whole b.ty.shape).shape.Idx → Val b.ty.elt) :
    (View.whole b).writes Val ga [⟨Rect.whole b.ty.shape, p⟩] = p := by
  funext i
  have hi : ((View.whole b).slice (Rect.whole b.ty.shape)).emb i = i := by
    funext a; apply Fin.ext
    simp [Rect.whole]
  have h := View.write_emb_of_mem (v := (View.whole b).slice (Rect.whole b.ty.shape)) ga p (Finset.mem_univ i)
  rw [hi] at h
  rw [View.writes_singleton, h]; rfl

omit [FloatOps F] in
theorem base_lt (r : Fin 50) (j : Fin 128) : base L + 128 * r.val + j.val < 204800 := by
  have h0 : (L 0).val < 2 := (L 0).isLt
  have h1 : (L 1).val < 16 := (L 1).isLt
  unfold base; omega

/-- Word j of row r of the index scratch is document token base + 128 r + j. -/
theorem fiN_apply (r : Fin 50) (j : Fin 128) :
    fiN m d L (ix2 r j) = Cert.Spec.dTok (m (loc d main_arg1)) ⟨base L + 128 * r.val + j.val, base_lt L r j⟩ := by
  have h0 : (L 0).val < 2 := (L 0).isLt
  have h1 : (L 1).val < 16 := (L 1).isLt
  have hw : 2 * (L 1).val + (L 0).val < 32 := by omega
  have hre : Shape.reshapeEquiv (squeezes_S1x50x128_S50x128.numel_eq) (ix2 r j : S50x128.Idx) = (ix3 (⟨0, Nat.one_pos⟩ : Fin 1) r j : S1x50x128.Idx) :=
    reshapeEquiv_ix2_1ab _ r j
  have hidx : (ixRow L).view.emb (ix2 r j) = (ix3 ⟨2 * (L 1).val + (L 0).val, hw⟩ r j : S32x50x128.Idx) := by
    show (Rect.unit (s := S32x50x128) (k2_off1 L) S1x50x128.size (k2_off1_inb L)).emb (Shape.reshapeEquiv (squeezes_S1x50x128_S50x128.numel_eq) (ix2 r j)) = _
    rw [hre]
    funext a
    apply Fin.ext
    rw [Rect.emb_apply]
    simp only [Rect.off_unit, Rect.stride_unit, k2_off1_eq]
    match a with
    | ⟨0, _⟩ => show 2 * (L 1).val + (L 0).val + 1 * 0 = 2 * (L 1).val + (L 0).val; omega
    | ⟨1, _⟩ => show 0 + 1 * r.val = r.val; omega
    | ⟨2, _⟩ => show 0 + 1 * j.val = j.val; omega
  unfold fiN
  rw [View.read_apply, hidx, idx6_apply, cast_eq]
  congr 1
  apply Fin.ext
  show (2 * (L 1).val + (L 0).val) * 6400 + r.val * 128 + j.val = base L + 128 * r.val + j.val
  unfold base; omega

/-- What a gather through row off of the index scratch delivers. -/
theorem gather_ok (hq : ∀ d i, ((m (loc d main_arg1)) i).toNat < 1000000) (f : Buf (Elt F) (loc d main_v1))
    (off : Fin 2 → ℕ) (h : ∀ a, off a + S1x128.size a ≤ S50x128.size a) (h1 : off 1 = 0)
    (hin' : ∀ x, ((rowM off h).view.read (Elt F) (fiN m d L) x).toNat < S1000000x128.size gathers_S1000000x128_S128x128.axis) :
    GOK m d L hq f (off 0)
      (SparseCore.gatherPayload gathers_S1000000x128_S128x128 (View.read (Elt F) (tabS).view f)
        (SparseCore.rows (View.read (Elt F) (rowM off h).view (fiN m d L)) rfl hin')) := by
  have h0 : off 0 + 1 ≤ 50 := h 0
  have hmod : off 0 % 50 = off 0 := Nat.mod_eq_of_lt (by omega)
  have hread : ∀ k : Fin 128, (rowM off h).view.read (Elt F) (fiN m d L) (ix1 k : S128.Idx)
      = fiN m d L (ix2 ⟨off 0 % 50, Nat.mod_lt _ (by decide)⟩ k) := by
    intro k
    have hre : Shape.reshapeEquiv (squeezes_S1x128_S128.numel_eq) (ix1 k : S128.Idx) = (ix2 (⟨0, Nat.one_pos⟩ : Fin 1) k : S1x128.Idx) :=
      Shape.reshapeEquiv_eq_of_rowMajor _ (by
        rw [Shape.rowMajor_val_two, Shape.rowMajor_val_one]; show 0 * 128 + k.val = k.val; omega)
    have hidx : (rowM off h).view.emb (ix1 k) = (ix2 ⟨off 0 % 50, Nat.mod_lt _ (by decide)⟩ k : S50x128.Idx) := by
      show (Rect.unit (s := S50x128) off S1x128.size h).emb (Shape.reshapeEquiv (squeezes_S1x128_S128.numel_eq) (ix1 k)) = _
      rw [hre]
      funext a; apply Fin.ext
      match a with
      | ⟨0, _⟩ => show off 0 + 1 * 0 = off 0 % 50; omega
      | ⟨1, _⟩ => show off 1 + 1 * k.val = k.val; omega
    rw [View.read_apply, hidx, cast_eq]
  have hsymm : ∀ k : Fin S128.numel, S128.rowMajor.symm k = (ix1 (k.cast (by decide)) : S128.Idx) := fun k =>
    (Equiv.symm_apply_eq _).mpr (Fin.ext (by rw [Shape.rowMajor_val_one]; rfl))
  have hemb : ∀ y : S1000000x128.Idx, (tabS).view.emb y = y := by
    intro y; funext a; apply Fin.ext
    match a with
    | ⟨0, _⟩ => show 0 + 1 * (y 0).val = (y 0).val; omega
    | ⟨1, _⟩ => show 0 + 1 * (y 1).val = (y 1).val; omega
  unfold GOK
  intro x
  unfold SparseCore.gatherPayload
  rw [View.read_apply, hemb, cast_eq]
  refine congrArg f ?_
  funext b; apply Fin.ext
  match b with
  | ⟨0, _⟩ =>
    refine (congrArg Fin.val (Shape.Gathers.idx_axis gathers_S1000000x128_S128x128 _ x)).trans ?_
    show (View.read (Elt F) (rowM off h).view (fiN m d L) (S128.rowMajor.symm _)).toNat = _
    rw [hsymm, hread]; rfl
  | ⟨1, _⟩ => exact Shape.Gathers.idx_of_ne gathers_S1000000x128_S128x128 _ x ⟨1, by decide⟩ (by decide)

/-- The window of the output written with a buffer that holds window r's gathered rows. -/
theorem win_done (hq : ∀ d i, ((m (loc d main_arg1)) i).toNat < 1000000) (f : Buf (Elt F) (loc d main_v1))
    (hf : Cert.Spec.Tab2OK (m (loc d main_arg2)) f)
    (off : Fin 2 → ℕ) (h : ∀ a, off a + S128x128.size a ≤ S204800x128.size a) (h1 : off 1 = 0)
    (r : ℕ) (hr : r < 50) (ho : off 0 = base L + 128 * r)
    (g1 : Buf (Elt F) (loc d main_v7)) (p : S128x128.Idx → F .f32) (hp : GOK m d L hq f r p) :
    RowsDone (Cert.Spec.dTok (m (loc d main_arg1))) (m (loc d main_arg2)) (off 0) 128
      ((winM off h).view.writes (Elt F) g1 [⟨Rect.whole S128x128, p⟩]) := by
  unfold RowsDone
  intro rr e hlo hhi
  have hx0 : rr.val - off 0 < 128 := by omega
  have hr50 : r % 50 = r := Nat.mod_eq_of_lt hr
  have hemb : ((winM off h).view.slice (Rect.whole S128x128)).emb (ix2 (⟨rr.val - off 0, hx0⟩ : Fin 128) (Cert.Spec.col e)) = (ix2 rr (Cert.Spec.col e) : S204800x128.Idx) := by
    funext a; apply Fin.ext
    match a with
    | ⟨0, _⟩ => show off 0 + 1 * (0 + 1 * (rr.val - off 0)) = rr.val; omega
    | ⟨1, _⟩ => show off 1 + 1 * (0 + 1 * e.val) = e.val; omega
  have hw := View.write_emb_of_mem (v := (winM off h).view.slice (Rect.whole S128x128)) g1 p (Finset.mem_univ (ix2 (⟨rr.val - off 0, hx0⟩ : Fin 128) (Cert.Spec.col e)))
  rw [hemb] at hw
  rw [View.writes_singleton, hw, cast_eq, hp]
  have htok : fiN m d L (ix2 ⟨r % 50, Nat.mod_lt _ (by decide)⟩ (⟨rr.val - off 0, hx0⟩ : Fin 128)) = Cert.Spec.dTok (m (loc d main_arg1)) rr := by
    rw [fiN_apply]; congr 1; apply Fin.ext; show base L + 128 * (r % 50) + (rr.val - off 0) = rr.val; omega
  have hv : (⟨(fiN m d L (ix2 ⟨r % 50, Nat.mod_lt _ (by decide)⟩ (⟨rr.val - off 0, hx0⟩ : Fin 128))).toNat, fiN_lt m d L hq _⟩ : Fin 1000000) = Cert.Spec.row (Cert.Spec.dTok (m (loc d main_arg1)) rr) := by
    apply Fin.ext
    rw [Cert.Spec.row_val_of_lt (by unfold Cert.Spec.dTok; exact hq d _)]
    exact congrArg BitVec.toNat htok
  exact (congrArg (fun v => f (ix2 v (Cert.Spec.col e))) hv).trans (hf _ e)

end G2

end Cert.KernelIdeal.Hand

end
-- ==== Proof.ScBody2.lean ====
/-
  The launch theorem's obligation for the second SparseCore call: the task of one vector subcore, from what the sequencer's
  handshake hands it (read shares of the table and of the index array, its rows of the output) and its own scratch and
  semaphores, to the same back with its rows of the output holding the table rows its tokens name.
-/
import proofs.«218768_g80616536146796_cont_9to1c4b_775_25_alg».proof.Proof.ScBody2Core
import proofs.«218768_g80616536146796_cont_9to1c4b_775_25_alg».proof.Proof.ScBody2Val

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

variable (m : (ℓ : Loc nD τ sig) → Buf (Elt F) ℓ) [FloatOps F]
variable (d : Dev nD) (L : grid2.Coords)

variable (hq : ∀ d i, ((m (loc d main_arg1)) i).toNat < 1000000) (f : Buf (Elt F) (loc d main_v1))
variable (O : CellTallies nD τ sig (HIx 2)) (W : Waits sig (HIx 2))

/-! ## The obligation of the launch theorem -/

abbrev cell (s : DmaSems sig S_) : GSem nD τ sig := (thr d L, SemLoc.dma s.sem)

omit [FloatOps F] in
theorem ownSems0_V :
    (ownSems0 (thr d L) : sProp (𝕄F F))
      = iprop(semVal (cell d L cc2_scratch3) 0 ∗ semVal (cell d L cc2_scratch4) 0 ∗ semVal (cell d L cc2_scratch5) 0
          ∗ semVal (cell d L cc2_scratch6) 0 ∗ semVal (cell d L cc2_scoped0) 0
          ∗ bigSep ((((((ownCells (thr d L)).erase (cell d L cc2_scratch3)).erase (cell d L cc2_scratch4)).erase (cell d L cc2_scratch5)).erase
              (cell d L cc2_scratch6)).erase (cell d L cc2_scoped0)) fun g => semVal g 0) := by
  have ne : ∀ {s s' : DmaSems sig S_}, s.sem ≠ s'.sem → cell d L s ≠ cell d L s' :=
    fun hne e => hne (SemLoc.dma.inj (congrArg Prod.snd e))
  have m3 : cell d L cc2_scratch3 ∈ ownCells (thr d L) :=
    (mem_ownCells (g := cell d L cc2_scratch3)).mpr ⟨rfl, by show (SemLoc.dma cc2_scratch3.sem : SemLoc sig).isScoped .scVector = true; decide⟩
  have m4 : cell d L cc2_scratch4 ∈ ownCells (thr d L) :=
    (mem_ownCells (g := cell d L cc2_scratch4)).mpr ⟨rfl, by show (SemLoc.dma cc2_scratch4.sem : SemLoc sig).isScoped .scVector = true; decide⟩
  have m5 : cell d L cc2_scratch5 ∈ ownCells (thr d L) :=
    (mem_ownCells (g := cell d L cc2_scratch5)).mpr ⟨rfl, by show (SemLoc.dma cc2_scratch5.sem : SemLoc sig).isScoped .scVector = true; decide⟩
  have m6 : cell d L cc2_scratch6 ∈ ownCells (thr d L) :=
    (mem_ownCells (g := cell d L cc2_scratch6)).mpr ⟨rfl, by show (SemLoc.dma cc2_scratch6.sem : SemLoc sig).isScoped .scVector = true; decide⟩
  have m0 : cell d L cc2_scoped0 ∈ ownCells (thr d L) :=
    (mem_ownCells (g := cell d L cc2_scoped0)).mpr ⟨rfl, by show (SemLoc.dma cc2_scoped0.sem : SemLoc sig).isScoped .scVector = true; decide⟩
  unfold SparseCore.Cfg.ownSems0
  rw [SparseCore.bigSep_erase' m3,
    SparseCore.bigSep_erase' (Finset.mem_erase.mpr ⟨ne (by decide), m4⟩),
    SparseCore.bigSep_erase' (Finset.mem_erase.mpr ⟨ne (by decide), Finset.mem_erase.mpr ⟨ne (by decide), m5⟩⟩),
    SparseCore.bigSep_erase' (Finset.mem_erase.mpr ⟨ne (by decide), Finset.mem_erase.mpr ⟨ne (by decide), Finset.mem_erase.mpr ⟨ne (by decide), m6⟩⟩⟩),
    SparseCore.bigSep_erase' (Finset.mem_erase.mpr ⟨ne (by decide), Finset.mem_erase.mpr ⟨ne (by decide),
      Finset.mem_erase.mpr ⟨ne (by decide), Finset.mem_erase.mpr ⟨ne (by decide), m0⟩⟩⟩⟩)]

omit [FloatOps F] in
/-- The three scratch buffers are among the subcore's own: they are them, at some contents, and the rest. -/
theorem ownBufs_V :
    (ownBufs (thr d L) : sProp (𝕄F F))
      = iprop((∃ f, (thr d L).loc cc2_scratch0 ↦{fullShare} f) ∗ (∃ f, (thr d L).loc cc2_scratch1 ↦{fullShare} f)
          ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

include hq in
/-- The value facts, from the value module. -/
theorem vf (hf : Cert.Spec.Tab2OK (m (loc d main_arg2)) f) : VF m d L hq f where
  gA := fun off h h1 hin' ga0 => by
    rw [show (bA).view.writes (Elt F) ga0 [⟨Rect.whole S128x128, SparseCore.gatherPayload gathers_S1000000x128_S128x128 (View.read (Elt F) (tabS).view f)
          (SparseCore.rows (View.read (Elt F) (rowM off h).view (fiN m d L)) rfl hin')⟩] = _ from writes_whole_whole cc2_scratch1 ga0 _]
    exact gather_ok m d L hq f off h h1 hin'
  gB := fun off h h1 hin' gb0 => by
    rw [show (bB).view.writes (Elt F) gb0 [⟨Rect.whole S128x128, SparseCore.gatherPayload gathers_S1000000x128_S128x128 (View.read (Elt F) (tabS).view f)
          (SparseCore.rows (View.read (Elt F) (rowM off h).view (fiN m d L)) rfl hin')⟩] = _ from writes_whole_whole cc2_scratch2 gb0 _]
    exact gather_ok m d L hq f off h h1 hin'
  win := fun off h h1 r hr ho g1 p hp => win_done m d L hq f hf off h h1 r hr ho g1 p hp

/-- What the task leaves, restated for the handshake. -/
theorem post_ent (hf : Cert.Spec.Tab2OK (m (loc d main_arg2)) f) (Rb Rs : sProp (𝕄F F)) :
    (iprop(((tabV).view.loc (thr d L) ↦{tq L} f) ∗ ((ixV).view.loc (thr d L) ↦{tq L} idx6 m d)
            ∗ doneP m d L (base L) 6400
            ∗ (∃ fi : Buf (Elt F) ((thr d L).loc cc2_scratch0), (sI).view.loc (thr d L) ↦{fullShare} fi)
            ∗ (∃ fa : Buf (Elt F) ((thr d L).loc cc2_scratch1), (bA).view.loc (thr d L) ↦{fullShare} fa)
            ∗ (∃ fb : Buf (Elt F) ((thr d L).loc cc2_scratch2), (bB).view.loc (thr d L) ↦{fullShare} fb)
            ∗ semVal (thr d L, SemLoc.dma cc2_scratch3.sem) 0 ∗ semVal (thr d L, SemLoc.dma cc2_scratch4.sem) 0
            ∗ semVal (thr d L, SemLoc.dma cc2_scratch5.sem) 0 ∗ semVal (thr d L, SemLoc.dma cc2_scratch6.sem) 0
            ∗ semVal (thr d L, SemLoc.dma cc2_scoped0.sem) 0
            ∗ (∃ W', ⌜∀ p ∈ W', p ∈ W ∨ p.2 = none⌝ ∗ owes (thr d L) O W') ∗ iprop(Rb ∗ Rs)) : sProp (𝕄F F))
      ⊢ iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx6 m d)
              ∗ ∃ g : Buf (Elt F) (loc d main_v7), ⌜RowsDone (Cert.Spec.dTok (m (loc d main_arg1))) (m (loc d main_arg2)) (base L) 6400 g⌝
                  ∗ ((outV).view.loc (thr d L) ↦[rowsOf 204800 (base L) 6400]{fullShare} g))
            ∗ ((∃ fi : Buf (Elt F) ((thr d L).loc cc2_scratch0), (sI).view.loc (thr d L) ↦{fullShare} fi)
              ∗ (∃ fa : Buf (Elt F) ((thr d L).loc cc2_scratch1), (bA).view.loc (thr d L) ↦{fullShare} fa)
              ∗ (∃ fb : Buf (Elt F) ((thr d L).loc cc2_scratch2), (bB).view.loc (thr d L) ↦{fullShare} fb) ∗ Rb)
            ∗ (semVal (thr d L, SemLoc.dma cc2_scratch3.sem) 0 ∗ semVal (thr d L, SemLoc.dma cc2_scratch4.sem) 0
              ∗ semVal (thr d L, SemLoc.dma cc2_scratch5.sem) 0 ∗ semVal (thr d L, SemLoc.dma cc2_scratch6.sem) 0
              ∗ semVal (thr d L, SemLoc.dma cc2_scoped0.sem) 0 ∗ Rs)
            ∗ ∃ W', ⌜∀ p ∈ W', p ∈ W ∨ p.2 = none⌝ ∗ owes (thr d L) O W') := by
  unfold doneP
  iintro ⟨Htab, Hix, Hdone, HsI, HbA, HbB, Hs3, Hs4, Hs5, Hs6, Hs0, HO, HRb, HRs⟩
  isplitl [Htab Hix Hdone]
  · isplitl [Htab]
    · iexists f; isplitr
      · ipureintro; exact hf
      · iexact Htab
    isplitl [Hix]; · iexact Hix
    iexact Hdone
  isplitl [HsI HbA HbB HRb]
  · isplitl [HsI]; · iexact HsI
    isplitl [HbA]; · iexact HbA
    isplitl [HbB]; · iexact HbB
    iexact HRb
  isplitl [Hs3 Hs4 Hs5 Hs6 Hs0 HRs]
  · isplitl [Hs3]; · iexact Hs3
    isplitl [Hs4]; · iexact Hs4
    isplitl [Hs5]; · iexact Hs5
    isplitl [Hs6]; · iexact Hs6
    isplitl [Hs0]; · iexact Hs0
    iexact HRs
  iexact HO

include hq in
/-- The task, from what the handshake hands the subcore to what it hands back, the subcore's other buffers and
    semaphores (Rb, Rs) untouched. -/
theorem tile_body' (hO : ∀ g, O g none = 0) (Rb Rs : sProp (𝕄F F)) :
    iprop(levAts (K (F := F)).L (K (F := F)).lev ∗ emp
        ∗ ((∃ f : Buf (Elt F) (loc d main_v1), ⌜Cert.Spec.Tab2OK (m (loc d main_arg2)) f⌝ ∗ ((tabV).view.loc (thr d L) ↦{tq L} f))
          ∗ ((ixV).view.loc (thr d L) ↦{tq L} idx6 m d)
          ∗ ∃ g : Buf (Elt F) (loc d main_v7), ((outV).view.loc (thr d L) ↦[rowsOf 204800 (base L) 6400]{fullShare} g))
        ∗ ((∃ fi : Buf (Elt F) ((thr d L).loc cc2_scratch0), (sI).view.loc (thr d L) ↦{fullShare} fi)
          ∗ (∃ fa : Buf (Elt F) ((thr d L).loc cc2_scratch1), (bA).view.loc (thr d L) ↦{fullShare} fa)
          ∗ (∃ fb : Buf (Elt F) ((thr d L).loc cc2_scratch2), (bB).view.loc (thr d L) ↦{fullShare} fb) ∗ Rb)
        ∗ (semVal (thr d L, SemLoc.dma cc2_scratch3.sem) 0 ∗ semVal (thr d L, SemLoc.dma cc2_scratch4.sem) 0
          ∗ semVal (thr d L, SemLoc.dma cc2_scratch5.sem) 0 ∗ semVal (thr d L, SemLoc.dma cc2_scratch6.sem) 0
          ∗ semVal (thr d L, SemLoc.dma cc2_scoped0.sem) 0 ∗ Rs)
        ∗ owes (thr d L) O W)
      ⊢ wp frame (wpE (defs₀ (F := F)) 𝒱₀ (thr d L) none) Set.univ
          (cc2_gather_kernel L tabV (Memref.isWhole_whole _) ixV (Memref.isWhole_whole _) outV (Memref.isWhole_whole _)
            sI (Memref.isWhole_whole _) bA (Memref.isWhole_whole _) bB (Memref.isWhole_whole _) cc2_scratch3 cc2_scratch4 cc2_scratch5 cc2_scratch6 cc2_scoped0)
          fun _ => iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx6 m d)
              ∗ ∃ g : Buf (Elt F) (loc d main_v7), ⌜RowsDone (Cert.Spec.dTok (m (loc d main_arg1))) (m (loc d main_arg2)) (base L) 6400 g⌝
                  ∗ ((outV).view.loc (thr d L) ↦[rowsOf 204800 (base L) 6400]{fullShare} g))
            ∗ ((∃ fi : Buf (Elt F) ((thr d L).loc cc2_scratch0), (sI).view.loc (thr d L) ↦{fullShare} fi)
              ∗ (∃ fa : Buf (Elt F) ((thr d L).loc cc2_scratch1), (bA).view.loc (thr d L) ↦{fullShare} fa)
              ∗ (∃ fb : Buf (Elt F) ((thr d L).loc cc2_scratch2), (bB).view.loc (thr d L) ↦{fullShare} fb) ∗ Rb)
            ∗ (semVal (thr d L, SemLoc.dma cc2_scratch3.sem) 0 ∗ semVal (thr d L, SemLoc.dma cc2_scratch4.sem) 0
              ∗ semVal (thr d L, SemLoc.dma cc2_scratch5.sem) 0 ∗ semVal (thr d L, SemLoc.dma cc2_scratch6.sem) 0
              ∗ semVal (thr d L, SemLoc.dma cc2_scoped0.sem) 0 ∗ Rs)
            ∗ ∃ W', ⌜∀ p ∈ W', p ∈ W ∨ p.2 = none⌝ ∗ owes (thr d L) O W') := by
  iintro ⟨#Hlv, -, ⟨⟨%f, %hf, Htab⟩, Hix, ⟨%g0, Hout⟩⟩, ⟨⟨%fi, HsI⟩, ⟨%fa, HbA⟩, ⟨%fb, HbB⟩, HRb⟩, ⟨Hs3, Hs4, Hs5, Hs6, Hs0, HRs⟩, HO⟩
  iapply (BIBase.Entails.trans (tile_core m d L hq f O W (vf m d L hq f hf) hO g0 fi fa fb iprop(Rb ∗ Rs))
    (wp_mono frame _ _ fun _ => post_ent m d L f O W hf Rb Rs))
  isplitr; · iexact Hlv
  isplitl [Htab]; · iexact Htab
  isplitl [Hix]; · iexact Hix
  isplitl [Hout]; · iexact Hout
  isplitl [HsI]; · iexact HsI
  isplitl [HbA]; · iexact HbA
  isplitl [HbB]; · iexact HbB
  isplitl [Hs3]; · iexact Hs3
  isplitl [Hs4]; · iexact Hs4
  isplitl [Hs5]; · iexact Hs5
  isplitl [Hs6]; · iexact Hs6
  isplitl [Hs0]; · iexact Hs0
  isplitl [HO]; · iexact HO
  isplitl [HRb]; · iexact HRb
  iexact HRs

include hq in
/-- The same at the spelling of the launch theorem's obligation. -/
theorem tile_body (hF : (K (F := F)).Facts) (hO : ∀ g, O g none = 0) :
    iprop(levAts (K (F := F)).L (K (F := F)).lev ∗ emp ∗ go1 m d (L 0).val (L 1).val
        ∗ scopedBufs (thr d L) ∗ scopedSems0 (thr d L) ∗ owes (thr d L) O W)
      ⊢ wp frame (wpE (defs₀ (F := F)) 𝒱₀ (thr d L) none) Set.univ
          (cc2_gather_kernel L tabV (Memref.isWhole_whole _) ixV (Memref.isWhole_whole _) outV (Memref.isWhole_whole _)
            sI (Memref.isWhole_whole _) bA (Memref.isWhole_whole _) bB (Memref.isWhole_whole _) cc2_scratch3 cc2_scratch4 cc2_scratch5 cc2_scratch6 cc2_scoped0)
          fun _ => iprop(td1 m d (L 0).val (L 1).val ∗ scopedBufs (thr d L) ∗ scopedSems0 (thr d L)
            ∗ ∃ W', ⌜∀ p ∈ W', p ∈ W ∨ p.2 = none⌝ ∗ owes (thr d L) O W') := by
  unfold go1 td1 tabAt task1
  rw [← base_eq L, (K (F := F)).scopedBufs_V hF d (cV L) (jV L), SparseCore.Cfg.scopedSems0_V (Val := Elt F) d (cV L) (jV L),
    ownSems0_V, ownBufs_V]
  exact tile_body' m d L hq O W hO _ _

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_kernel (coordsV c s)
          tabV (Memref.isWhole_whole _) ixV (Memref.isWhole_whole _) outV (Memref.isWhole_whole _)
          sI (Memref.isWhole_whole _) bA (Memref.isWhole_whole _) bB (Memref.isWhole_whole _) cc2_scratch3 cc2_scratch4 cc2_scratch5 cc2_scratch6 cc2_scoped0) ⟨⟩ c s := rfl

omit [FloatOps F] in
theorem obl_post {thr : Thread nD τ} {A B C : sProp (𝕄F F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G2

/-- The second SparseCore call's task, at every vector subcore of its grid. -/
theorem tileObl1 (m : (ℓ : Loc nD τ sig) → Buf (Elt F) ℓ) [FloatOps F]
    (hq : ∀ (d : Dev nD) i, ((m (loc d main_arg0)) i).toNat < 1000000) (hd : ∀ (d : Dev nD) i, ((m (loc d main_arg1)) i).toNat < 1000000) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [G2.defs₀_vector]; simp only [SparseCore.onTile, hc, and_self, ↓reduceDIte]
  exact (G2.tile_body m d (G2.coordsV ⟨_, hc.1⟩ ⟨_, hc.2⟩) hd O W facts hO).trans (wp_mono frame _ _ fun _ => G2.obl_post)

end Cert.KernelIdeal.Hand

end
-- ==== Proof.Assemble.lean ====
/-
  The kernel program's run with its results named, from its parts: the three pipeline regions' steps, the two
  SparseCore kernels' body obligations, the split of each call's operands among the tiles and the hand-overs between
  the TensorCore's whole arrays and the calls. The precondition enters as the token ids' range, which the gathers need.
-/
import proofs.«218768_g80616536146796_cont_9to1c4b_775_25_alg».proof.Proof.Run
import proofs.«218768_g80616536146796_cont_9to1c4b_775_25_alg».proof.Proof.Region0
import proofs.«218768_g80616536146796_cont_9to1c4b_775_25_alg».proof.Proof.Region3
import proofs.«218768_g80616536146796_cont_9to1c4b_775_25_alg».proof.Proof.Region4
import proofs.«218768_g80616536146796_cont_9to1c4b_775_25_alg».proof.Proof.ScSplit
import proofs.«218768_g80616536146796_cont_9to1c4b_775_25_alg».proof.Proof.ScBody1
import proofs.«218768_g80616536146796_cont_9to1c4b_775_25_alg».proof.Proof.ScBody2

noncomputable section

namespace Cert.KernelIdeal.Hand

open Cert.KernelIdeal Cert.KernelIdeal.Gen
open Idealize.ShloMosaic Idealize.SL.Sem

variable {F : FTy → Type} [FloatOps F]

theorem run [∀ e, Nonempty (Elt F e)] (m : (ℓ : Loc nD τ sig) → Buf (Elt F) ℓ) (ρ : Dev nD → PrngReg)
    (hq : ∀ (d : Dev nD) i, ((m (loc d main_arg0)) i).toNat < 1000000) (hd : ∀ (d : Dev nD) i, ((m (loc d main_arg1)) i).toNat < 1000000) :
    θ_run (Cert.KernelIdeal.defs (F := F)) (Cert.KernelIdeal.threads (F := F)) ⟨m, fun _ => 0, ρ⟩ (QC m) :=
  run_of m ρ (fun d x O W hO Q => wp_region0 d x O W hO Q) (fun d x O W hO Q => wp_region1 d x O W hO Q) (fun d x O W hO Q => wp_region2 d x O W hO Q)
    (st_intro0 m) (dn_elim0 m) (st_intro1 m) (dn_elim1 m) (tileObl0 m hq hd) (tileObl1 m hq hd) (vecSplit m)

end Cert.KernelIdeal.Hand

end
-- ==== Proof.Bits.Common.lean ====
/-
  The program as the launch theorem sees it, and the ghost state every part of the proof is stated over: the
  handshakes' rounds, the staging cells' rounds of the three TensorCore pipelines, and the transfers' counters of
  the two SparseCore kernels, side by side in one product.
-/
import proofs.«218768_g80616536146796_cont_9to1c4b_775_25_alg».proof.Defs
import proofs.«218768_g80616536146796_cont_9to1c4b_775_25_alg».proof.Proof.Gen.Kernel
import proofs.«218768_g80616536146796_cont_9to1c4b_775_25_alg».proof.Proof.Gen.Kernel.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, the transfers' counters. -/
abbrev UH : Type := URounds (GSem nD τ sig) ℕ
abbrev UP : Type := URounds (GSem nD τ sig) Unit
abbrev UU : Type := UH × (UP × Counters)

abbrev 𝕄F (F : FTy → Type) : Type := MT nD τ sig (HIx 2) (Elt F) ℕ UU ℕ

abbrev EH : Emb UH (𝕄F F) := embL
def EP : Emb UP (𝕄F F) := (Emb.inl : Emb UP (UP × Counters)).trans (embR : Emb (UP × Counters) (𝕄F F))

instance EP_landsIn : (EP : Emb UP (𝕄F F)).LandsIn (upEmb : UEmb _ (𝕄F F)) := by unfold EP embR; infer_instance

example : CountersIn UU := inferInstance

/-- No pipeline of this program has prefetched tables. -/
abbrev adm : (p : Fin 3) → (pcfgs (F := F) p).Adm := fun p => (cfgs p).toPCfg_adm

/-- The arrays of @main on device `d`, as locations. -/
abbrev loc (d : Dev nD) (b : Ref sig .tc) : Loc nD τ sig := (SparseCore.T d).loc b

end Cert.Kernel.Hand

end
-- ==== Proof.Bits.Host.lean ====
/-
  Host operations of @main read as steps between whole arrays: an operation with one operand and one result takes
  the operand's array at `X` and the result's array at anything to the operand unchanged and the result at the
  operation's value of `X`.
-/
import proofs.«218768_g80616536146796_cont_9to1c4b_775_25_alg».proof.Proof.Bits.Common
import Idealize.ShloMosaic.Lib.StableHlo.Run
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

/-- Two distinct arrays held whole are `held` over the pair. -/
theorem held_pair (d : Dev nD) (x y : Ref sig .tc) (hxy : (Proc.devRef .tc x : DevRef τ sig) ≠ Proc.devRef .tc y) (W : Valuation τ sig (Elt F)) :
    (held (T d) {Proc.devRef .tc x, Proc.devRef .tc y} W : sProp (𝕄F F))
      = iprop((loc d x ↦{fullShare} W (Proc.devRef .tc x)) ∗ (loc d y ↦{fullShare} W (Proc.devRef .tc y))) := by
  unfold held
  rw [SparseCore.bigSep_insert' (by simpa using hxy), bigSep_singleton]

/-- A valuation with two arrays set. -/
def val2 (x y : Ref sig .tc) (X : x.ty.Contents (Elt F)) (Y : y.ty.Contents (Elt F)) (W₀ : Valuation τ sig (Elt F)) : Valuation τ sig (Elt F) :=
  Function.update (Function.update W₀ (Proc.devRef .tc x) X) (Proc.devRef .tc y) Y

theorem val2_y (x y : Ref sig .tc) (X) (Y) (W₀ : Valuation τ sig (Elt F)) : val2 x y X Y W₀ (Proc.devRef .tc y) = Y := Function.update_self _ _ _
theorem val2_x (x y : Ref sig .tc) (hxy : (Proc.devRef .tc x : DevRef τ sig) ≠ Proc.devRef .tc y) (X) (Y) (W₀ : Valuation τ sig (Elt F)) :
    val2 x y X Y W₀ (Proc.devRef .tc x) = X := by
  unfold val2; rw [Function.update_of_ne hxy, Function.update_self]

/-- Some valuation: only the two arrays an operation touches are ever read off it. -/
def W₀ [∀ e, Nonempty (Elt F e)] : Valuation τ sig (Elt F) := fun _ => Classical.arbitrary _

section Steps

variable [∀ e, Nonempty (Elt F e)] {Λ : Labels} {defs : Defs nD τ sig (Elt F) Λ} {𝒱' : Variants} {bd : Option 𝒱'.V}

/-- A one-operand host operation as a step: the operand kept, the result at the operation's value. -/
theorem wp_unary (d : Dev nD) (x y : Ref sig .tc) (hxy : (Proc.devRef .tc x : DevRef τ sig) ≠ Proc.devRef .tc y)
    (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (X : x.ty.Contents (Elt F)) (Y : y.ty.Contents (Elt F)) {Φ : PUnit → sProp (𝕄F F)} :
    iprop(boundary (T d) ∗ (loc d x ↦{fullShare} X) ∗ (loc d y ↦{fullShare} Y)
        ∗ (iprop(boundary (T d) ∗ (loc d x ↦{fullShare} X) ∗ (loc d y ↦{fullShare} f X)) -∗ Φ ⟨⟩))
      ⊢ wp frame (wpE defs 𝒱' (T d) bd) Set.univ (hlo rfl (StableHlo.unary x y f hx hy) (fun _ => .ret ⟨⟩)) Φ := by
  iintro ⟨Hb, Hx, Hy, Hk⟩
  iapply (wp_hlo_within 𝒱' (SparseCore.T d) bd Set.univ (op := StableHlo.unary x y f hx hy) (S := {Proc.devRef .tc x, Proc.devRef .tc y})
    (Finset.Subset.refl _) (V := val2 x y X Y W₀)) $$ [Hb Hx Hy]
  · isplitl [Hb]; · iexact Hb
    rw [held_pair d x y hxy, val2_x x y hxy, val2_y]
    isplitl [Hx]; · iexact Hx
    iexact Hy
  iintro ⟨Hb, Hheld⟩
  have e : (held (T d) {Proc.devRef .tc x, Proc.devRef .tc y} ((StableHlo.unary x y f hx hy).result (val2 x y X Y W₀)) : sProp (𝕄F F))
      = iprop((loc d x ↦{fullShare} X) ∗ (loc d y ↦{fullShare} f X)) := by
    rw [held_pair d x y hxy, StableHlo.unary_result,
      (StableHlo.unary x y f hx hy).result_of_not_mem (val2 x y X Y W₀) (b := Proc.devRef .tc x)
        (show Proc.devRef .tc x ∉ ({Proc.devRef .tc y} : Finset (DevRef τ sig)) from by simpa using hxy), val2_x x y hxy]
  ihave Hh := (Entails.of_eq e) $$ Hheld
  icases Hh with ⟨Hx, Hy⟩
  rw [wp_ret]; imodintro
  iapply Hk
  isplitl [Hb]; · iexact Hb
  isplitl [Hx]; · iexact Hx
  iexact Hy

/-- A reshape as a step: the operand kept, the result at the operand's elements in the result's shape. -/
theorem wp_reshape (d : Dev nD) (x y : Ref sig .tc) (hxy : (Proc.devRef .tc x : DevRef τ sig) ≠ Proc.devRef .tc y)
    (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (X : x.ty.Contents (Elt F)) (Y : y.ty.Contents (Elt F)) {Φ : PUnit → sProp (𝕄F F)} :
    iprop(boundary (T d) ∗ (loc d x ↦{fullShare} X) ∗ (loc d y ↦{fullShare} Y)
        ∗ (iprop(boundary (T d) ∗ (loc d x ↦{fullShare} X) ∗ (loc d y ↦{fullShare} fun i => he ▸ shapeCast y.ty.shape X hn i)) -∗ Φ ⟨⟩))
      ⊢ wp frame (wpE defs 𝒱' (T d) bd) Set.univ (hlo rfl (StableHlo.reshape x y he hn hx hy) (fun _ => .ret ⟨⟩)) Φ := by
  iintro ⟨Hb, Hx, Hy, Hk⟩
  iapply (wp_hlo_within 𝒱' (SparseCore.T d) bd Set.univ (op := StableHlo.reshape x y he hn hx hy) (S := {Proc.devRef .tc x, Proc.devRef .tc y})
    (Finset.Subset.refl _) (V := val2 x y X Y W₀)) $$ [Hb Hx Hy]
  · isplitl [Hb]; · iexact Hb
    rw [held_pair d x y hxy, val2_x x y hxy, val2_y]
    isplitl [Hx]; · iexact Hx
    iexact Hy
  iintro ⟨Hb, Hheld⟩
  have e : (held (T d) {Proc.devRef .tc x, Proc.devRef .tc y} ((StableHlo.reshape x y he hn hx hy).result (val2 x y X Y W₀)) : sProp (𝕄F F))
      = iprop((loc d x ↦{fullShare} X) ∗ (loc d y ↦{fullShare} fun i => he ▸ shapeCast y.ty.shape X hn i)) := by
    rw [held_pair d x y hxy, StableHlo.reshape_result,
      (StableHlo.reshape x y he hn hx hy).result_of_not_mem (val2 x y X Y W₀) (b := Proc.devRef .tc x)
        (show Proc.devRef .tc x ∉ ({Proc.devRef .tc y} : Finset (DevRef τ sig)) from by simpa using hxy), val2_x x y hxy]
  ihave Hh := (Entails.of_eq e) $$ Hheld
  icases Hh with ⟨Hx, Hy⟩
  rw [wp_ret]; imodintro
  iapply Hk
  isplitl [Hb]; · iexact Hb
  isplitl [Hx]; · iexact Hx
  iexact Hy

end Steps

end Cert.Kernel.Hand

end
-- ==== Proof.Bits.LaunchBase.lean ====
/-
  The launch of the whole program: the ghost state's launch element, the TensorCore's arrays one by one, and what
  the TensorCore owes during a pipeline region (its start signals for the SparseCore calls still to come, all at a
  call's index: nothing at the index a region's own waits are recorded at).
-/
import proofs.«218768_g80616536146796_cont_9to1c4b_775_25_alg».proof.Proof.Bits.Common
import proofs.«218768_g80616536146796_cont_9to1c4b_775_25_alg».proof.Proof.Bits.Host

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The TensorCore's arrays, all unscoped, one by one. -/
theorem unscopedBufs_eq (d : Dev nD) (W : (b : Ref sig .tc) → Buf (Elt F) ((d.tc : Thread nD τ).loc b)) :
    (unscopedBufs d W : sProp (𝕄F F)) = iprop((loc d main_arg0 ↦{fullShare} W main_arg0) ∗ (loc d main_arg1 ↦{fullShare} W main_arg1) ∗ (loc d main_arg2 ↦{fullShare} W main_arg2) ∗ (loc d main_v0 ↦{fullShare} W main_v0) ∗ (loc d main_v1 ↦{fullShare} W main_v1) ∗ (loc d main_v2 ↦{fullShare} W main_v2) ∗ (loc d main_v3 ↦{fullShare} W main_v3) ∗ (loc d main_v4 ↦{fullShare} W main_v4) ∗ (loc d main_v5 ↦{fullShare} W main_v5) ∗ (loc d main_v6 ↦{fullShare} W main_v6) ∗ (loc d main_v7 ↦{fullShare} W main_v7) ∗ (loc d main_v8 ↦{fullShare} W main_v8) ∗ (loc d main_v9 ↦{fullShare} W main_v9) ∗ (loc d main_v10 ↦{fullShare} W main_v10) ∗ (loc d main_v11 ↦{fullShare} W main_v11) ∗ (loc d main_v12 ↦{fullShare} W main_v12) ∗ (loc d main_v13 ↦{fullShare} W main_v13)) := by
  unfold unscopedBufs
  rw [show (Finset.univ.filter fun b : Ref sig .tc => ¬ b.isScoped) = {main_arg0, main_arg1, main_arg2, main_v0, main_v1, main_v2, main_v3, main_v4, main_v5, main_v6, main_v7, main_v8, main_v9, main_v10, main_v11, main_v12, main_v13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- Before any call the TensorCore owes only at the calls' indices. -/
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- A region's recorded waits, all at the index of no call, keep the TensorCore's recorded pairs below any bound. -/
theorem wBelow_of_none {d : Dev nD} {W W' : Waits sig (HIx 2)} {b : ℕ} (hW : (K (F := F)).WBelow (T d) W b)
    (h : ∀ p ∈ W', p ∈ W ∨ p.2 = none) : (K (F := F)).WBelow (T d) W' b := by
  intro p hp
  rcases h p hp with h | h
  · exact hW p h
  · rw [show p = (p.1, p.2) from rfl, h, SparseCore.Cfg.lev_none]; exact Nat.zero_le _

/-- The staging cells' ghost state of the three pipelines on a device. -/
def G (d : Dev nD) : sProp (𝕄F F) :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)
    ∗ (Pipeline.cellsGhost (Pipeline.pin (pcfgs (F := F)) adm) EP 2 d ∗ Pipeline.toksInit (Pipeline.pin (pcfgs (F := F)) adm) EP 2 d))

end Cert.Kernel.Hand

end
-- ==== Proof.Bits.Idx.lean ====
/-
  The index arrays the two SparseCore kernels read: @main reshapes the queries [1024, 20] to a flat list of 20480
  tokens and that to [32, 10, 64] (worker, window, position); the documents [1024, 200] to 204800 tokens and to
  [32, 50, 128]. Entry (w, r, j) is token w·640 + r·64 + j of the flattened queries (w·6400 + r·128 + j of the
  flattened documents): a reshape keeps the row-major position.
-/
import proofs.«218768_g80616536146796_cont_9to1c4b_775_25_alg».proof.Proof.Bits.Common
import proofs.«218768_g80616536146796_cont_9to1c4b_775_25_alg».proof.Proof.Spec
import Idealize.ShloMosaic.Lib.Pipeline.Value

noncomputable section

namespace Cert.Kernel.Hand

open Cert.Kernel Cert.Kernel.Gen
open Idealize.ShloMosaic Idealize.ShloMosaic.ValueIdx
open Idealize.SL.Sem

variable {F : FTy → Type} [FloatOps F]

variable (m : (ℓ : Loc nD τ sig) → Buf (Elt F) ℓ)

/-- What @main's two reshapes leave in the queries' index array. -/
def idx3 (d : Dev nD) : Buf (Elt F) (loc d main_v3) :=
  shapeCast S32x10x64 (shapeCast S20480 (m (loc d main_arg0)) Facts₀.shapeCasts_S1024x20_S20480) Facts₀.shapeCasts_S20480_S32x10x64

/-- What they leave in the documents' index array. -/
def idx6 (d : Dev nD) : Buf (Elt F) (loc d main_v6) :=
  shapeCast S32x50x128 (shapeCast S204800 (m (loc d main_arg1)) Facts₀.shapeCasts_S1024x200_S204800) Facts₀.shapeCasts_S204800_S32x50x128

theorem idx3_apply (d : Dev nD) (w : Fin 32) (r : Fin 10) (j : Fin 64) :
    idx3 m d (ix3 w r j) = Cert.Spec.qTok (m (loc d main_arg0)) ⟨w.val * 640 + r.val * 64 + j.val, by omega⟩ := by
  unfold idx3 Cert.Spec.qTok
  have hlt : w.val * 640 + r.val * 64 + j.val < 20480 := by omega
  rw [shapeCast_apply _ Facts₀.shapeCasts_S20480_S32x10x64 (ix3 w r j : S32x10x64.Idx) (ix1 ⟨w.val * 640 + r.val * 64 + j.val, hlt⟩ : S20480.Idx)
    (by rw [Shape.rowMajor_val_one, Shape.rowMajor_val_three]; show w.val * 640 + r.val * 64 + j.val = (w.val * 10 + r.val) * 64 + j.val; omega)]
  rw [shapeCast_apply _ Facts₀.shapeCasts_S1024x20_S20480 (ix1 ⟨w.val * 640 + r.val * 64 + j.val, hlt⟩ : S20480.Idx)
    (ix2 ⟨(w.val * 640 + r.val * 64 + j.val) / 20, by omega⟩ ⟨(w.val * 640 + r.val * 64 + j.val) % 20, Nat.mod_lt _ (by decide)⟩ : S1024x20.Idx)
    (by rw [Shape.rowMajor_val_one, Shape.rowMajor_val_two]; show (w.val * 640 + r.val * 64 + j.val) / 20 * 20 + (w.val * 640 + r.val * 64 + j.val) % 20 = w.val * 640 + r.val * 64 + j.val; omega)]

theorem idx6_apply (d : Dev nD) (w : Fin 32) (r : Fin 50) (j : Fin 128) :
    idx6 m d (ix3 w r j) = Cert.Spec.dTok (m (loc d main_arg1)) ⟨w.val * 6400 + r.val * 128 + j.val, by omega⟩ := by
  unfold idx6 Cert.Spec.dTok
  have hlt : w.val * 6400 + r.val * 128 + j.val < 204800 := by omega
  rw [shapeCast_apply _ Facts₀.shapeCasts_S204800_S32x50x128 (ix3 w r j : S32x50x128.Idx) (ix1 ⟨w.val * 6400 + r.val * 128 + j.val, hlt⟩ : S204800.Idx)
    (by rw [Shape.rowMajor_val_one, Shape.rowMajor_val_three]; show w.val * 6400 + r.val * 128 + j.val = (w.val * 50 + r.val) * 128 + j.val; omega)]
  rw [shapeCast_apply _ Facts₀.shapeCasts_S1024x200_S204800 (ix1 ⟨w.val * 6400 + r.val * 128 + j.val, hlt⟩ : S204800.Idx)
    (ix2 ⟨(w.val * 6400 + r.val * 128 + j.val) / 200, by omega⟩ ⟨(w.val * 6400 + r.val * 128 + j.val) % 200, Nat.mod_lt _ (by decide)⟩ : S1024x200.Idx)
    (by rw [Shape.rowMajor_val_one, Shape.rowMajor_val_two]; show (w.val * 6400 + r.val * 128 + j.val) / 200 * 200 + (w.val * 6400 + r.val * 128 + j.val) % 200 = w.val * 6400 + r.val * 128 + j.val; omega)]

end Cert.Kernel.Hand

end
-- ==== Proof.Bits.ScPay.lean ====
/-
  What the handshakes of the two SparseCore calls carry.

  Both calls gather rows of the re-laid table (main_v1, a row per token id, 128 wide with only the first 64 columns
  determined) named by an index array (main_v3 for the queries, main_v6 for the documents; worker w's index rows are
  row w of the array) into an output of 128-wide rows (main_v4, main_v7). Worker w = subcore * 2 + core writes the
  rows of its own windows: rows [w * 640, w * 640 + 640) of main_v4, rows [w * 6400, w * 6400 + 6400) of main_v7.

  The table and the index array are only read: every SparseCore, and within it every vector subcore, is handed a
  read share of the WHOLE array. The two SparseCores' shares are the two halves of the full share; a SparseCore's
  sixteen subcores are handed the sixteen read tokens of its half (what remains of the half stays with the split).
  The table's contents are not a function of the launch memory (its columns 64..127 are arbitrary), so they travel
  under an existential, with the fact that its first 64 columns are the embedding table's. The index arrays hold
  what the host's two reshapes compute from the token ids.

  The output rows travel at full share, a piece per worker: going out at any contents, coming back at contents whose
  first 64 columns are the table rows the worker's tokens name.
-/
import proofs.«218768_g80616536146796_cont_9to1c4b_775_25_alg».proof.Proof.Bits.Common
import proofs.«218768_g80616536146796_cont_9to1c4b_775_25_alg».proof.Proof.Spec
import proofs.«218768_g80616536146796_cont_9to1c4b_775_25_alg».proof.Proof.Bits.Idx

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The shares -/

/-- SparseCore c's read share of an array every SparseCore reads whole: the two halves of the full share. -/
def cSh (c : ℕ) : PosShare TreeShare := if c = 0 then fullShare.left else fullShare.right

theorem cSh_zero : cSh 0 = fullShare.left := if_pos rfl
theorem cSh_one : cSh 1 = fullShare.right := if_neg Nat.one_ne_zero

/-- Subcore i's read share within SparseCore c's: the i-th read token of the SparseCore's half. -/
def tSh (c i : ℕ) : PosShare TreeShare := Transfers.shareTokN (cSh c) i

theorem tSh_eq (c : ℕ) (i : Fin 16) : tSh c i.val = Transfers.shareTok (cSh c) 16 i := rfl

/-! ## The rows a worker writes -/

/-- Rows [off, off + len) of an array of 128-wide rows. -/
def rowsOf (n off len : ℕ) : Finset (⟨2, ![n, 128]⟩ : Shape).Idx :=
  Finset.univ.filter fun x => off ≤ (x 0).val ∧ (x 0).val < off + len

theorem mem_rowsOf {n off len : ℕ} {x : (⟨2, ![n, 128]⟩ : Shape).Idx} :
    x ∈ rowsOf n off len ↔ off ≤ (x 0).val ∧ (x 0).val < off + len := by
  unfold rowsOf; simp only [Finset.mem_filter, Finset.mem_univ, true_and]

/-- The worker that runs on subcore i of SparseCore c. -/
def wid (c i : ℕ) : ℕ := i * 2 + c

/-- The rows of main_v4 (64-row windows, 10 per worker) and of main_v7 (128-row windows, 50 per worker) worker
    (c, i) writes. -/
def task0 (c i : ℕ) : Finset (⟨2, ![20480, 128]⟩ : Shape).Idx := rowsOf 20480 (wid c i * 640) 640
def task1 (c i : ℕ) : Finset (⟨2, ![204800, 128]⟩ : Shape).Idx := rowsOf 204800 (wid c i * 6400) 6400

variable (m : (ℓ : Loc nD τ sig) → Buf (Elt F) ℓ)

variable [FloatOps F]

/-! ## What a worker's output rows hold when it is done -/

/-- Rows [off, off + len) of g hold, in their first 64 columns, the table rows the tokens name. -/
def RowsDone {n : ℕ} (tok : Fin n → BitVec 32) (tab : FVec F Cert.Spec.STab .f32) (off len : ℕ)
    (g : FVec F (⟨2, ![n, 128]⟩ : Shape) .f32) : Prop :=
  ∀ (r : Fin n) (e : Fin 64), off ≤ r.val → r.val < off + len → g (ix2 r (Cert.Spec.col e)) = tab (ix2 (Cert.Spec.row (tok r)) e)

/-! ## The payloads -/

/-- A read share of the re-laid table at some contents whose first 64 columns are the embedding table's. -/
def tabAt (d : Dev nD) (q : PosShare TreeShare) : sProp (𝕄F F) :=
  iprop(∃ f : Buf (Elt F) (loc d main_v1), ⌜Cert.Spec.Tab2OK (m (loc d main_arg2)) f⌝ ∗ (loc d main_v1 ↦{q} f))

/-- Call 0: the table and main_v3 at a read share; the worker's rows of main_v4. -/
def go0 (d : Dev nD) (c i : ℕ) : sProp (𝕄F F) :=
  iprop(tabAt m d (tSh c i) ∗ (loc d main_v3 ↦{tSh c i} idx3 m d)
    ∗ ∃ g : Buf (Elt F) (loc d main_v4), (loc d main_v4 ↦[task0 c i]{fullShare} g))
def td0 (d : Dev nD) (c i : ℕ) : sProp (𝕄F F) :=
  iprop(tabAt m d (tSh c i) ∗ (loc d main_v3 ↦{tSh c i} idx3 m d)
    ∗ ∃ g : Buf (Elt F) (loc d main_v4), ⌜RowsDone (Cert.Spec.qTok (m (loc d main_arg0))) (m (loc d main_arg2)) (wid c i * 640) 640 g⌝
        ∗ (loc d main_v4 ↦[task0 c i]{fullShare} g))
def st0 (d : Dev nD) (c : ℕ) : sProp (𝕄F F) :=
  iprop(tabAt m d (cSh c) ∗ (loc d main_v3 ↦{cSh c} idx3 m d)
    ∗ bigSep Finset.univ fun i : Fin 16 => iprop(∃ g : Buf (Elt F) (loc d main_v4), (loc d main_v4 ↦[task0 c i.val]{fullShare} g)))
def dn0 (d : Dev nD) (c : ℕ) : sProp (𝕄F F) :=
  iprop(tabAt m d (cSh c) ∗ (loc d main_v3 ↦{cSh c} idx3 m d)
    ∗ bigSep Finset.univ fun i : Fin 16 => iprop(∃ g : Buf (Elt F) (loc d main_v4),
        ⌜RowsDone (Cert.Spec.qTok (m (loc d main_arg0))) (m (loc d main_arg2)) (wid c i.val * 640) 640 g⌝ ∗ (loc d main_v4 ↦[task0 c i.val]{fullShare} g)))

/-- Call 1: the table and main_v6 at a read share; the worker's rows of main_v7. -/
def go1 (d : Dev nD) (c i : ℕ) : sProp (𝕄F F) :=
  iprop(tabAt m d (tSh c i) ∗ (loc d main_v6 ↦{tSh c i} idx6 m d)
    ∗ ∃ g : Buf (Elt F) (loc d main_v7), (loc d main_v7 ↦[task1 c i]{fullShare} g))
def td1 (d : Dev nD) (c i : ℕ) : sProp (𝕄F F) :=
  iprop(tabAt m d (tSh c i) ∗ (loc d main_v6 ↦{tSh c i} idx6 m d)
    ∗ ∃ g : Buf (Elt F) (loc d main_v7), ⌜RowsDone (Cert.Spec.dTok (m (loc d main_arg1))) (m (loc d main_arg2)) (wid c i * 6400) 6400 g⌝
        ∗ (loc d main_v7 ↦[task1 c i]{fullShare} g))
def st1 (d : Dev nD) (c : ℕ) : sProp (𝕄F F) :=
  iprop(tabAt m d (cSh c) ∗ (loc d main_v6 ↦{cSh c} idx6 m d)
    ∗ bigSep Finset.univ fun i : Fin 16 => iprop(∃ g : Buf (Elt F) (loc d main_v7), (loc d main_v7 ↦[task1 c i.val]{fullShare} g)))
def dn1 (d : Dev nD) (c : ℕ) : sProp (𝕄F F) :=
  iprop(tabAt m d (cSh c) ∗ (loc d main_v6 ↦{cSh c} idx6 m d)
    ∗ bigSep Finset.univ fun i : Fin 16 => iprop(∃ g : Buf (Elt F) (loc d main_v7),
        ⌜RowsDone (Cert.Spec.dTok (m (loc d main_arg1))) (m (loc d main_arg2)) (wid c i.val * 6400) 6400 g⌝ ∗ (loc d main_v7 ↦[task1 c i.val]{fullShare} g)))

instance tabAt_storable (d : Dev nD) (q : PosShare TreeShare) : BI.Storable (upEmb : UEmb _ (𝕄F F)) (tabAt m d q) := by
  unfold tabAt; infer_instance
instance go0_storable (d : Dev nD) (c i : ℕ) : BI.Storable (upEmb : UEmb _ (𝕄F F)) (go0 m d c i) := by unfold go0; infer_instance
instance td0_storable (d : Dev nD) (c i : ℕ) : BI.Storable (upEmb : UEmb _ (𝕄F F)) (td0 m d c i) := by unfold td0; infer_instance
instance st0_storable (d : Dev nD) (c : ℕ) : BI.Storable (upEmb : UEmb _ (𝕄F F)) (st0 m d c) := by unfold st0; infer_instance
instance dn0_storable (d : Dev nD) (c : ℕ) : BI.Storable (upEmb : UEmb _ (𝕄F F)) (dn0 m d c) := by unfold dn0; infer_instance
instance go1_storable (d : Dev nD) (c i : ℕ) : BI.Storable (upEmb : UEmb _ (𝕄F F)) (go1 m d c i) := by unfold go1; infer_instance
instance td1_storable (d : Dev nD) (c i : ℕ) : BI.Storable (upEmb : UEmb _ (𝕄F F)) (td1 m d c i) := by unfold td1; infer_instance
instance st1_storable (d : Dev nD) (c : ℕ) : BI.Storable (upEmb : UEmb _ (𝕄F F)) (st1 m d c) := by unfold st1; infer_instance
instance dn1_storable (d : Dev nD) (c : ℕ) : BI.Storable (upEmb : UEmb _ (𝕄F F)) (dn1 m d c) := by unfold dn1; infer_instance

/-- What the two calls' handshakes carry: call 0 the query lookup's arrays, call 1 the document lookup's. Neither kernel
    signals any thread but through its own copies: nothing of the launch's beyond the handshakes. -/
def P : (K (F := F)).Pay (nD := nD) (Val := Elt F) (Name := ℕ) (U := UU) where
  st := fun q d c => match q.val with | 0 => st0 m d c.val | _ => st1 m d c.val
  dn := fun q d c => match q.val with | 0 => dn0 m d c.val | _ => dn1 m d c.val
  go := fun q d c i => match q.val with | 0 => go0 m d c.val i.val | _ => go1 m d c.val i.val
  td := fun q d c i => match q.val with | 0 => td0 m d c.val i.val | _ => td1 m d c.val i.val
  x := fun _ _ => iprop(emp)

theorem P_st0 (d : Dev nD) (c : Fin ((K (F := F)).nCore 0)) : (P m).st 0 d c = st0 m d c.val := rfl
theorem P_st1 (d : Dev nD) (c : Fin ((K (F := F)).nCore 1)) : (P m).st 1 d c = st1 m d c.val := rfl
theorem P_dn0 (d : Dev nD) (c : Fin ((K (F := F)).nCore 0)) : (P m).dn 0 d c = dn0 m d c.val := rfl
theorem P_dn1 (d : Dev nD) (c : Fin ((K (F := F)).nCore 1)) : (P m).dn 1 d c = dn1 m d c.val := rfl
theorem P_go0 (d : Dev nD) (c : Fin ((K (F := F)).nCore 0)) (i : Fin ((K (F := F)).nSub 0)) : (P m).go 0 d c i = go0 m d c.val i.val := rfl
theorem P_go1 (d : Dev nD) (c : Fin ((K (F := F)).nCore 1)) (i : Fin ((K (F := F)).nSub 1)) : (P m).go 1 d c i = go1 m d c.val i.val := rfl
theorem P_td0 (d : Dev nD) (c : Fin ((K (F := F)).nCore 0)) (i : Fin ((K (F := F)).nSub 0)) : (P m).td 0 d c i = td0 m d c.val i.val := rfl
theorem P_td1 (d : Dev nD) (c : Fin ((K (F := F)).nCore 1)) (i : Fin ((K (F := F)).nSub 1)) : (P m).td 1 d c i = td1 m d c.val i.val := rfl
theorem P_x (q : Fin 2) (thr : Thread nD τ) : (P m).x q thr = iprop(emp) := rfl
theorem P_ox : (P m).ox = fun _ _ => 0 := rfl

instance P_storable : (P (F := F) m).IsStorable where
  st q d c := by unfold P; dsimp only; split <;> infer_instance
  dn q d c := by unfold P; dsimp only; split <;> infer_instance
  go q d c i := by unfold P; dsimp only; split <;> infer_instance
  td q d c i := by unfold P; dsimp only; split <;> infer_instance

end Cert.Kernel.Hand

end
-- ==== Proof.Bits.LaunchElem.lean ====
/-
  The launch element: the handshakes' rounds go to the launch theorem, the staging cells' rounds fund the three
  pipelines' ghost state on every device, the transfers' counters are dropped (local copies and their waits need no
  schedule), and no kernel's proof consumes anything of the launch's.
-/
import proofs.«218768_g80616536146796_cont_9to1c4b_775_25_alg».proof.Proof.Bits.LaunchBase
import proofs.«218768_g80616536146796_cont_9to1c4b_775_25_alg».proof.Proof.Bits.ScPay

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp (𝕄F F)) := bigSep_emp_const s

/-- A device's share of the funded ghost state is its three pipelines'. -/
theorem G_of (d : Dev nD) :
    iprop((bigSep Finset.univ fun p : Fin 3 => Pipeline.cellsGhost (Pipeline.pin (pcfgs (F := F)) adm) EP p d)
        ∗ (bigSep Finset.univ fun p : Fin 3 => (Pipeline.toksInit (Pipeline.pin (pcfgs (F := F)) adm) EP p d : sProp (𝕄F F))))
      ⊢ G (F := F) d := by
  rw [show (Finset.univ : Finset (Fin 3)) = {0, 1, 2} by decide, SparseCore.bigSep_insert' (by decide), SparseCore.bigSep_insert' (by decide),
    bigSep_singleton, SparseCore.bigSep_insert' (by decide), SparseCore.bigSep_insert' (by decide), bigSep_singleton]
  unfold G
  iintro ⟨⟨Hc0, Hc1, Hc2⟩, Ht0, Ht1, Ht2⟩
  isplitl [Hc0 Ht0]; · isplitl [Hc0] <;> iassumption
  isplitl [Hc1 Ht1]; · isplitl [Hc1] <;> iassumption
  isplitl [Hc2] <;> iassumption

omit [FloatOps F] in
theorem own_EP (x : UP) :
    (BI.own ((Emb.inl : Emb UP (UP × Counters)).trans (embR : Emb (UP × Counters) (𝕄F F)) x) : sProp (𝕄F F)) ⊢ BI.own (EP (F := F) x) := by
  unfold EP; exact .rfl

theorem hu₀ : iprop(ownU (u₀ (F := F)) ∗ (P m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (P m).x q thr) := by
  unfold u₀
  iintro ⟨Hu, -, -⟩
  ihave H := (ownU_pair _ _) $$ Hu
  icases H with ⟨HH, HR⟩
  ihave H2 := (own_pair_emb (embR : Emb (UP × Counters) (𝕄F F)) _ _) $$ HR
  icases H2 with ⟨HP, -⟩
  ihave HP := (own_EP (F := F) _) $$ HP
  imod (Pipeline.fund_ghost (Pipeline.pin (pcfgs (F := F)) adm) (EP (F := F)) cellOf_inj) $$ HP with ⟨Hc, Ht⟩
  imodintro
  isplitl [HH]; · iexact HH
  isplitl [Hc Ht]
  · ihave Hct := (Entails.of_eq (bigSep_sep' (Finset.univ : Finset (Dev nD))
        (fun c => bigSep Finset.univ fun p : Fin 3 => Pipeline.cellsGhost (Pipeline.pin (pcfgs (F := F)) adm) EP p c)
        (fun c => bigSep Finset.univ fun p : Fin 3 => (Pipeline.toksInit (Pipeline.pin (pcfgs (F := F)) adm) EP p c : sProp (𝕄F F)))).symm) $$ [Hc Ht]
    · isplitl [Hc] <;> iassumption
    have hmono : (bigSep (Finset.univ : Finset (Dev nD)) fun c => iprop((bigSep Finset.univ fun p : Fin 3 => Pipeline.cellsGhost (Pipeline.pin (pcfgs (F := F)) adm) EP p c)
          ∗ (bigSep Finset.univ fun p : Fin 3 => (Pipeline.toksInit (Pipeline.pin (pcfgs (F := F)) adm) EP p c : sProp (𝕄F F)))))
        ⊢ bigSep Finset.univ (G (F := F)) := bigSep_mono fun d _ => G_of (F := F) d
    iapply hmono; iexact Hct
  rw [bigSep_congr fun (thr : Thread nD τ) _ => bigSep_congr fun (q : Fin 2) _ => P_x (F := F) m q thr,
    bigSep_congr fun _ _ => bigSep_emp' _, bigSep_emp']
  iempintro

end Cert.Kernel.Hand

end
-- ==== Proof.Bits.LaunchMain.lean ====
/-
  @main on the TensorCore, step by step: the host transposes the table; pipeline 0 re-lays it with a row per token
  id (its first 64 columns determined); the token arrays are reshaped per worker; each SparseCore call gathers the
  rows its tokens name; the gathered rows are regrouped per query or document and transposed by pipelines 1 and 2;
  the host's last transpositions give the results, which are the specification's lookups by pure re-indexing.
  The pipelines' steps and the SparseCore calls' hand-overs enter as the statements their own modules prove.
-/
import proofs.«218768_g80616536146796_cont_9to1c4b_775_25_alg».proof.Proof.Bits.LaunchElem
import proofs.«218768_g80616536146796_cont_9to1c4b_775_25_alg».proof.Proof.Value

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The statement pipeline 0's region step is taken at. -/
def Region0 (F : FTy → Type) [FloatOps F] : Prop :=
  ∀ (d : Dev nD) (x : Buf (Elt F) (loc d main_v0)) (O : CellTallies nD τ sig (HIx 2)) (W : Waits sig (HIx 2)) (_ : ∀ g, O g none = 0) (Q : PUnit → sProp (𝕄F F)),
    iprop((iprop(boundary (T d) ∗ (loc d main_v0 ↦{fullShare} x) ∗ (∃ y, ⌜Cert.Spec.Tab2T (F := F) x y⌝ ∗ loc d main_v1 ↦{fullShare} y) ∗ ∃ W', ⌜∀ p ∈ W', p ∈ W ∨ p.2 = none⌝ ∗ owes (T d) O W') -∗ Q ⟨⟩)
        ∗ boundary (T d) ∗ (loc d main_v0 ↦{fullShare} x) ∗ (∃ y, loc d main_v1 ↦{fullShare} y) ∗ owes (T d) O W ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.lift (.customCall (Pipeline.entry 0) ())) Q

/-- The statement pipeline 1's region step is taken at. -/
def Region1 (F : FTy → Type) [FloatOps F] : Prop :=
  ∀ (d : Dev nD) (x : Buf (Elt F) (loc d main_v8)) (O : CellTallies nD τ sig (HIx 2)) (W : Waits sig (HIx 2)) (_ : ∀ g, O g none = 0) (Q : PUnit → sProp (𝕄F F)),
    iprop((iprop(boundary (T d) ∗ (loc d main_v8 ↦{fullShare} x) ∗ (loc d main_v9 ↦{fullShare} (Cert.Spec.T3 (F := F) x)) ∗ ∃ W', ⌜∀ p ∈ W', p ∈ W ∨ p.2 = none⌝ ∗ owes (T d) O W') -∗ Q ⟨⟩)
        ∗ boundary (T d) ∗ (loc d main_v8 ↦{fullShare} x) ∗ (∃ y, loc d main_v9 ↦{fullShare} y) ∗ owes (T d) O W ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.lift (.customCall (Pipeline.entry 1) ())) Q

/-- The statement pipeline 2's region step is taken at. -/
def Region2 (F : FTy → Type) [FloatOps F] : Prop :=
  ∀ (d : Dev nD) (x : Buf (Elt F) (loc d main_v10)) (O : CellTallies nD τ sig (HIx 2)) (W : Waits sig (HIx 2)) (_ : ∀ g, O g none = 0) (Q : PUnit → sProp (𝕄F F)),
    iprop((iprop(boundary (T d) ∗ (loc d main_v10 ↦{fullShare} x) ∗ (loc d main_v11 ↦{fullShare} (Cert.Spec.T4 (F := F) x)) ∗ ∃ W', ⌜∀ p ∈ W', p ∈ W ∨ p.2 = none⌝ ∗ owes (T d) O W') -∗ Q ⟨⟩)
        ∗ boundary (T d) ∗ (loc d main_v10 ↦{fullShare} x) ∗ (∃ y, loc d main_v11 ↦{fullShare} y) ∗ owes (T d) O W ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE (D (F := F)) 𝒱 (T d) none) Set.univ (Prog.lift (.customCall (Pipeline.entry 2) ())) Q

variable (m : (ℓ : Loc nD τ sig) → Buf (Elt F) ℓ) (ρ : Dev nD → PrngReg)

/-- The statements the SparseCore calls' hand-overs are taken at. -/
def StIntro0 : Prop := ∀ (d : Dev nD) (f : Buf (Elt F) (loc d main_v1)) (_ : Cert.Spec.Tab2OK (m (loc d main_arg2)) f),
    iprop((loc d main_v1 ↦{fullShare} f) ∗ (loc d main_v3 ↦{fullShare} idx3 m d) ∗ ∃ g, loc d main_v4 ↦{fullShare} g)
      ⊢ bigSep Finset.univ fun c : Fin ((K (F := F)).nCore 0) => (P m).st 0 d c
def DnElim0 : Prop := ∀ (d : Dev nD), (bigSep Finset.univ fun c : Fin ((K (F := F)).nCore 0) => (P m).dn 0 d c)
      ⊢ iprop(∃ f g, ⌜Cert.Spec.Tab2OK (m (loc d main_arg2)) f ∧ Cert.Spec.RowsOK (Cert.Spec.qTok (m (loc d main_arg0))) (m (loc d main_arg2)) g⌝
          ∗ (loc d main_v1 ↦{fullShare} f) ∗ (loc d main_v3 ↦{fullShare} idx3 m d) ∗ (loc d main_v4 ↦{fullShare} g))
def StIntro1 : Prop := ∀ (d : Dev nD) (f : Buf (Elt F) (loc d main_v1)) (_ : Cert.Spec.Tab2OK (m (loc d main_arg2)) f),
    iprop((loc d main_v1 ↦{fullShare} f) ∗ (loc d main_v6 ↦{fullShare} idx6 m d) ∗ ∃ g, loc d main_v7 ↦{fullShare} g)
      ⊢ bigSep Finset.univ fun c : Fin ((K (F := F)).nCore 1) => (P m).st 1 d c
def DnElim1 : Prop := ∀ (d : Dev nD), (bigSep Finset.univ fun c : Fin ((K (F := F)).nCore 1) => (P m).dn 1 d c)
      ⊢ iprop(∃ f g, ⌜Cert.Spec.Tab2OK (m (loc d main_arg2)) f ∧ Cert.Spec.RowsOK (Cert.Spec.dTok (m (loc d main_arg1))) (m (loc d main_arg2)) g⌝
          ∗ (loc d main_v1 ↦{fullShare} f) ∗ (loc d main_v6 ↦{fullShare} idx6 m d) ∗ (loc d main_v7 ↦{fullShare} g))

/-- The TensorCore's handshake state before call `n` but what it owes. -/
def tcRest (d : Dev nD) (n : ℕ) : sProp (𝕄F F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 2) n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_eq (d : Dev nD) (n : ℕ) :
    ((K (F := F)).tcSt EH d n : sProp (𝕄F F))
      = iprop((∃ W, ⌜(K (F := F)).WBelow (T d) W (8 * n)⌝ ∗ owes (T d) ((K (F := F)).Otc d n) W) ∗ tcRest (F := F) d n) := rfl

/-- What @main leaves the claim: the two results at the specification's lookups, the arguments as launched. -/
def FIN (d : Dev nD) : sProp (𝕄F F) :=
  iprop((loc d main_v12 ↦{fullShare} Cert.Spec.Gq (F := F) (m (loc d main_arg0)) (m (loc d main_arg2)))
    ∗ (loc d main_v13 ↦{fullShare} Cert.Spec.Gd (F := F) (m (loc d main_arg1)) (m (loc d main_arg2)))
    ∗ (loc d main_arg0 ↦{fullShare} m (loc d main_arg0)) ∗ (loc d main_arg1 ↦{fullShare} m (loc d main_arg1)) ∗ (loc d main_arg2 ↦{fullShare} m (loc d main_arg2)))

/-- The host's transposition of the table makes pipeline 0's result the re-laid table. -/
theorem tab2OK_of_T (tab : FVec F Cert.Spec.STab .f32) (h : Cert.Spec.STab.Transposes [1, 0] (⟨2, ![64, 1000000]⟩ : Shape))
    (y : FVec F Cert.Spec.STab2 .f32) (hy : Cert.Spec.Tab2T (transpose (⟨2, ![64, 1000000]⟩ : Shape) [1, 0] tab h) y) : Cert.Spec.Tab2OK tab y := by
  intro v e
  rw [hy v e]
  exact transpose_apply [1, 0] tab h (ValueIdx.ix2 e v) (ValueIdx.ix2 v e) (fun c => match c with | ⟨0, _⟩ => rfl | ⟨1, _⟩ => rfl)

theorem hmain [∀ e, Nonempty (Elt F e)] (R0 : Region0 F) (R1 : Region1 F) (R2 : Region2 F)
    (hst0 : StIntro0 m) (hdn0 : DnElim0 m) (hst1 : StIntro1 m) (hdn1 : DnElim1 m)
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 2 ∗ FIN m d) := by
  unfold SparseCore.Cfg.tcRes G
  rw [unscopedBufs_eq]
  simp only [main, wp_bind, wp_pure]
  iintro ⟨#Hctx, Hst, ⟨Hb, ⟨A0, A1, A2, V0, V1, V2, V3, V4, V5, V6, V7, V8, V9, V10, V11, V12, V13⟩, -, -⟩, ⟨G0c, G0t⟩, ⟨G1c, G1t⟩, G2c, G2t⟩
  -- main_v0 from main_arg2
  iapply (wp_unary d main_arg2 main_v0 (by decide) _ _ _ _ _)
  isplitl [Hb]; · iexact Hb
  isplitl [A2]; · iexact A2
  isplitl [V0]; · iexact V0
  iintro ⟨Hb, A2, V0⟩

  -- the pipeline region 0
  ihave Hst' := (Entails.of_eq (tcSt_eq (F := F) d 0)) $$ Hst
  icases Hst' with ⟨⟨%W0, %hW0, HO⟩, Hrest⟩
  ihave Hlev := (SparseCore.Cfg.ctx_levAts κ) $$ Hctx
  iapply ((K (F := F)).wp_liftProg (D (F := F)) 𝒱 (T d) Set.univ none (Prog.lift (.customCall (Pipeline.entry 0) ())) _)
  iapply (R0 d _ ((K (F := F)).Otc d 0) W0 (Otc_none d 0) _)
  isplitr [Hb V0 V1 HO Hlev G0c G0t]
  swap
  · isplitl [Hb]; · iexact Hb
    isplitl [V0]; · iexact V0
    isplitl [V1]; · iexists _; iexact V1
    isplitl [HO]; · iexact HO
    isplitl [Hlev]; · iexact Hlev
    isplitl [G0c]; · iexact G0c
    iexact G0t
  iintro ⟨Hb, V0, ⟨%f1, %hf1T, V1⟩, %W0', %hW0', HO⟩
  ihave Hst := (Entails.of_eq (tcSt_eq (F := F) d 0).symm) $$ [HO Hrest]
  · isplitl [HO]
    · iexists W0'; isplitr
      · ipureintro; exact wBelow_of_none hW0 hW0'
      · iexact HO
    · iexact Hrest

  have hf1 : Cert.Spec.Tab2OK (m (loc d main_arg2)) f1 := tab2OK_of_T _ _ _ hf1T
  -- main_v2 from main_arg0
  iapply (wp_reshape d main_arg0 main_v2 (by decide) _ _ _ _ _ _)
  isplitl [Hb]; · iexact Hb
  isplitl [A0]; · iexact A0
  isplitl [V2]; · iexact V2
  iintro ⟨Hb, A0, V2⟩

  -- main_v3 from main_v2
  iapply (wp_reshape d main_v2 main_v3 (by decide) _ _ _ _ _ _)
  isplitl [Hb]; · iexact Hb
  isplitl [V2]; · iexact V2
  isplitl [V3]; · iexact V3
  iintro ⟨Hb, V2, V3⟩

  -- the SparseCore call 0
  iapply ((K (F := F)).wp_run (D (F := F)) 𝒱 (EH := EH) (P := P m) κ d 0)
  isplitr; · iexact Hctx
  isplitl [Hst]; · iexact Hst
  isplitl [V1 V3 V4]
  · iapply (hst0 d _ hf1)
    isplitl [V1]; · iexact V1
    isplitl [V3]; · iexact V3
    iexists _; iexact V4
  iintro ⟨Hst, Hdn⟩
  ihave Hdn' := (hdn0 d) $$ Hdn
  icases Hdn' with ⟨%f1', %g4, %hfg4, V1, V3, V4⟩

  have hf1 : Cert.Spec.Tab2OK (m (loc d main_arg2)) f1' := hfg4.1
  -- main_v5 from main_arg1
  iapply (wp_reshape d main_arg1 main_v5 (by decide) _ _ _ _ _ _)
  isplitl [Hb]; · iexact Hb
  isplitl [A1]; · iexact A1
  isplitl [V5]; · iexact V5
  iintro ⟨Hb, A1, V5⟩

  -- main_v6 from main_v5
  iapply (wp_reshape d main_v5 main_v6 (by decide) _ _ _ _ _ _)
  isplitl [Hb]; · iexact Hb
  isplitl [V5]; · iexact V5
  isplitl [V6]; · iexact V6
  iintro ⟨Hb, V5, V6⟩

  -- the SparseCore call 1
  iapply ((K (F := F)).wp_run (D (F := F)) 𝒱 (EH := EH) (P := P m) κ d 1)
  isplitr; · iexact Hctx
  isplitl [Hst]; · iexact Hst
  isplitl [V1 V6 V7]
  · iapply (hst1 d _ hf1)
    isplitl [V1]; · iexact V1
    isplitl [V6]; · iexact V6
    iexists _; iexact V7
  iintro ⟨Hst, Hdn⟩
  ihave Hdn' := (hdn1 d) $$ Hdn
  icases Hdn' with ⟨%f1'', %g7, %hfg7, V1, V6, V7⟩

  ihave Hst := (Entails.of_eq (show ((K (F := F)).tcSt EH d ((1 : Fin 2).val + 1) : sProp (𝕄F F)) = (K (F := F)).tcSt EH d 2 from rfl)) $$ Hst
  -- main_v8 from main_v4
  iapply (wp_reshape d main_v4 main_v8 (by decide) _ _ _ _ _ _)
  isplitl [Hb]; · iexact Hb
  isplitl [V4]; · iexact V4
  isplitl [V8]; · iexact V8
  iintro ⟨Hb, V4, V8⟩

  -- the pipeline region 1
  ihave Hst' := (Entails.of_eq (tcSt_eq (F := F) d 2)) $$ Hst
  icases Hst' with ⟨⟨%W1, %hW1, HO⟩, Hrest⟩
  ihave Hlev := (SparseCore.Cfg.ctx_levAts κ) $$ Hctx
  iapply ((K (F := F)).wp_liftProg (D (F := F)) 𝒱 (T d) Set.univ none (Prog.lift (.customCall (Pipeline.entry 1) ())) _)
  iapply (R1 d _ ((K (F := F)).Otc d 2) W1 (Otc_none d 2) _)
  isplitr [Hb V8 V9 HO Hlev G1c G1t]
  swap
  · isplitl [Hb]; · iexact Hb
    isplitl [V8]; · iexact V8
    isplitl [V9]; · iexists _; iexact V9
    isplitl [HO]; · iexact HO
    isplitl [Hlev]; · iexact Hlev
    isplitl [G1c]; · iexact G1c
    iexact G1t
  iintro ⟨Hb, V8, V9, %W1', %hW1', HO⟩
  ihave Hst := (Entails.of_eq (tcSt_eq (F := F) d 2).symm) $$ [HO Hrest]
  · isplitl [HO]
    · iexists W1'; isplitr
      · ipureintro; exact wBelow_of_none hW1 hW1'
      · iexact HO
    · iexact Hrest

  -- main_v10 from main_v7
  iapply (wp_reshape d main_v7 main_v10 (by decide) _ _ _ _ _ _)
  isplitl [Hb]; · iexact Hb
  isplitl [V7]; · iexact V7
  isplitl [V10]; · iexact V10
  iintro ⟨Hb, V7, V10⟩

  -- the pipeline region 2
  ihave Hst' := (Entails.of_eq (tcSt_eq (F := F) d 2)) $$ Hst
  icases Hst' with ⟨⟨%W2, %hW2, HO⟩, Hrest⟩
  ihave Hlev := (SparseCore.Cfg.ctx_levAts κ) $$ Hctx
  iapply ((K (F := F)).wp_liftProg (D (F := F)) 𝒱 (T d) Set.univ none (Prog.lift (.customCall (Pipeline.entry 2) ())) _)
  iapply (R2 d _ ((K (F := F)).Otc d 2) W2 (Otc_none d 2) _)
  isplitr [Hb V10 V11 HO Hlev G2c G2t]
  swap
  · isplitl [Hb]; · iexact Hb
    isplitl [V10]; · iexact V10
    isplitl [V11]; · iexists _; iexact V11
    isplitl [HO]; · iexact HO
    isplitl [Hlev]; · iexact Hlev
    isplitl [G2c]; · iexact G2c
    iexact G2t
  iintro ⟨Hb, V10, V11, %W2', %hW2', HO⟩
  ihave Hst := (Entails.of_eq (tcSt_eq (F := F) d 2).symm) $$ [HO Hrest]
  · isplitl [HO]
    · iexists W2'; isplitr
      · ipureintro; exact wBelow_of_none hW2 hW2'
      · iexact HO
    · iexact Hrest

  -- main_v12 from main_v9
  iapply (wp_unary d main_v9 main_v12 (by decide) _ _ _ _ _)
  isplitl [Hb]; · iexact Hb
  isplitl [V9]; · iexact V9
  isplitl [V12]; · iexact V12
  iintro ⟨Hb, V9, V12⟩

  -- main_v13 from main_v11
  iapply (wp_unary d main_v11 main_v13 (by decide) _ _ _ _ _)
  isplitl [Hb]; · iexact Hb
  isplitl [V11]; · iexact V11
  isplitl [V13]; · iexact V13
  iintro ⟨Hb, V11, V13⟩

  imodintro
  isplitl [Hst]; · iexact Hst
  unfold FIN
  rw [← Cert.Spec.q_value (F := F) (m (loc d main_arg0)) (m (loc d main_arg2)) g4 hfg4.2 shapeCasts_S20480x128_S1024x20x128 transposes_S64x200x1024_S1024x64x200_2_0_1,
    ← Cert.Spec.d_value (F := F) (m (loc d main_arg1)) (m (loc d main_arg2)) g7 hfg7.2 shapeCasts_S204800x128_S1024x200x128 transposes_S64x200x1024_S1024x64x200_2_0_1]
  isplitl [V12]; · iexact V12
  isplitl [V13]; · iexact V13
  isplitl [A0]; · iexact A0
  isplitl [A1]; · iexact A1
  iexact A2

end Cert.Kernel.Hand

end
-- ==== Proof.Bits.Run.lean ====
/-
  The whole program's run: every weakly fair execution of the TensorCore's @main and the SparseCores' sequencers and
  tiles terminates, nothing faulting, with the two results at the specification's lookups and the arguments as
  launched. The launch theorem applied to the two kernels' body obligations, the split of each call's operands among
  the tiles, the launch element, and @main's proof; the final memory is read off the arrays @main ends holding.
-/
import proofs.«218768_g80616536146796_cont_9to1c4b_775_25_alg».proof.Proof.Bits.LaunchMain

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

/-- What the final memory holds on device `d`. -/
def fq (d : Dev nD) (s' : Phys nD τ sig (Elt F)) : Prop :=
  s'.mem.mem (loc d main_v12) = Cert.Spec.Gq (F := F) (m (loc d main_arg0)) (m (loc d main_arg2))
    ∧ s'.mem.mem (loc d main_v13) = Cert.Spec.Gd (F := F) (m (loc d main_arg1)) (m (loc d main_arg2))
    ∧ s'.mem.mem (loc d main_arg0) = m (loc d main_arg0)
    ∧ s'.mem.mem (loc d main_arg1) = m (loc d main_arg1)
    ∧ s'.mem.mem (loc d main_arg2) = m (loc d main_arg2)

theorem hfin (d : Dev nD) (s' : Phys nD τ sig (Elt F)) : iprop(FIN m d ∗ SI s') ⊢ (⌜fq m d s'⌝ : sProp (𝕄F F)) := by
  unfold FIN
  iintro ⟨⟨H12, H13, HA0, HA1, HA2⟩, HSI⟩
  icombine HSI H12 gives %h12
  icombine HSI H13 gives %h13
  icombine HSI HA0 gives %h0
  icombine HSI HA1 gives %h1
  icombine HSI HA2 gives %h2
  ipureintro
  exact ⟨funext fun i => h12 i (Finset.mem_univ i), funext fun i => h13 i (Finset.mem_univ i), funext fun i => h0 i (Finset.mem_univ i),
    funext fun i => h1 i (Finset.mem_univ i), funext fun i => h2 i (Finset.mem_univ i)⟩

/-- The run's post: on every device the results are the lookups and the arguments are unchanged. -/
def QC : PUnit × MemSt nD τ sig (Elt F) → Prop := fun r => ∀ c : Dev nD,
  r.2.mem (loc c main_v12) = Cert.Spec.Gq (F := F) (m (loc c main_arg0)) (m (loc c main_arg2))
    ∧ r.2.mem (loc c main_v13) = Cert.Spec.Gd (F := F) (m (loc c main_arg1)) (m (loc c main_arg2))
    ∧ r.2.mem (loc c main_arg0) = m (loc c main_arg0)
    ∧ r.2.mem (loc c main_arg1) = m (loc c main_arg1)
    ∧ r.2.mem (loc c main_arg2) = m (loc c main_arg2)

theorem run_of [∀ e, Nonempty (Elt F e)] (R0 : Region0 F) (R1 : Region1 F) (R2 : Region2 F)
    (hst0 : StIntro0 m) (hdn0 : DnElim0 m) (hst1 : StIntro1 m) (hdn1 : DnElim1 m)
    (hT0 : (K (F := F)).TileObl (D (F := F)) 𝒱 (P m) v₀ 0) (hT1 : (K (F := F)).TileObl (D (F := F)) 𝒱 (P m) v₀ 1)
    (hV : ∀ q, (K (F := F)).kind q = .scVector → (K (F := F)).VecSplit (P m) q) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => hT0 | 1 => hT1)
    hV
    m ρ main (G (F := F)) (FIN m) (u₀ (F := F)) (hu₀ m) (hmain m ρ R0 R1 R2 hst0 hdn0 hst1 hdn1) (fq m) (hfin m) (QC m) (fun _ h => h)

end Cert.Kernel.Hand

end
-- ==== Proof.Bits.Region0Run.lean ====
/-
  The re-laying kernel's body, run once at a symbolic grid point on any two whole staging buffers: sixty-four times
  it loads a 64 x 512 piece of the input block, transposes it and stores the 512 x 64 result into columns 0..63 of
  rows k * 512 .. k * 512 + 511 of the output block. The run leaves the input buffer as it was and the output buffer
  with those sixty-four pieces written over whatever it held (columns 64..127 are never touched).
-/
import proofs.«218768_g80616536146796_cont_9to1c4b_775_25_alg».proof.Proof.Bits.Common
import proofs.«218768_g80616536146796_cont_9to1c4b_775_25_alg».proof.Proof.Spec
import proofs.«218768_g80616536146796_cont_9to1c4b_775_25_alg».proof.Proof.Gen.Kernel.Skeleton
import proofs.«218768_g80616536146796_cont_9to1c4b_775_25_alg».proof.Proof.Gen.Kernel.Points
import Idealize.ShloMosaic.Lib.Tactic
import Idealize.ShloMosaic.Lib.Pipeline.Frame
import Idealize.ShloMosaic.Lib.WholeRead
import Idealize.ShloMosaic.Lib.Writes

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace R0

set_option maxHeartbeats 4000000 in
/-- The pieces the body's stores leave in the output's staging buffer (last first), with the proof that from the
    input's buffer held at `x0` and the output's at anything the body runs to the input's as it was and the
    output's with those pieces written. -/
noncomputable def run0 (c : Dev nD) (i : grid0.Coords) (arg1 : Memref sig .tc .vmem S64x32768 .f32) (harg1 : arg1.IsWhole)
    (arg2 : Memref sig .tc .vmem S32768x128 .f32) (harg2 : arg2.IsWhole) (x0 : Vec F S64x32768 .f32) :
    { L1 : List (View.Piece (Elt F) S32768x128 .f32) //
      ∀ (E : Set ℕ) (K : PUnit → sProp (𝕄F F)),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_body i arg1 harg1 arg2 harg2) K } := by
  refine ⟨?_, fun E K => ?run⟩
  case run =>
    simp only [cc0_body_eq_skeleton]; unfold cc0_body_skel
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

end R0

end Cert.Kernel.Hand

end
-- ==== Proof.Bits.Region0Pieces.lean ====
/-
  What the re-laying kernel's body leaves in the output's staging buffer, read back. The run's sixty-four stores
  are, in order, the pieces k = 0 .. 63: rows k * 512 .. k * 512 + 511 of columns 0 .. 63, holding the transpose of
  columns k * 512 .. of the input block. All of them agree with one function of the output block's index, entry
  (r, c) ↦ input entry (c, r), and every entry of columns 0 .. 63 lies in the piece of its row: so after the run
  entry (r, e), e < 64, of the output buffer is entry (e, r) of the input buffer, whatever the buffer held before.
-/
import proofs.«218768_g80616536146796_cont_9to1c4b_775_25_alg».proof.Proof.Bits.Region0Run
import Idealize.ShloMosaic.Lib.Pipeline.Regions
import Idealize.ShloMosaic.Lib.Pipeline.Kit
import Idealize.ShloMosaic.Lib.ValueLayout

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace R0

open Idealize.ShloMosaic.ValueIdx

/-- One piece's payload: the loaded 64 x 512 piece, transposed. -/
def pay (v : Vec F S64x512 .f32) : FVec F S512x64 .f32 :=
  transpose S512x64 [1, 0] (shapeCast S64x512 v shapeCasts_S64x512_S64x512) transposes_S64x512_p1_0_S512x64

theorem hinb1 (k : Fin 64) : ∀ a, (![0, k.val * 512] : Fin S64x32768.rank → Nat) a + S64x512.size a ≤ S64x32768.size a := by
  intro a; have := k.isLt
  match a with
  | ⟨0, _⟩ => show 0 + 64 ≤ 64; omega
  | ⟨1, _⟩ => show k.val * 512 + 512 ≤ 32768; omega

theorem hinb2 (k : Fin 64) : ∀ a, (![k.val * 512, 0] : Fin S32768x128.rank → Nat) a + S512x64.size a ≤ S32768x128.size a := by
  intro a; have := k.isLt
  match a with
  | ⟨0, _⟩ => show k.val * 512 + 512 ≤ 32768; omega
  | ⟨1, _⟩ => show 0 + 64 ≤ 128; omega

/-- Piece `k` of the body's sixty-four: rows `k * 512 ..` of columns 0..63, from the input's columns `k * 512 ..`. -/
def piece (arg1 : Memref sig .tc .vmem S64x32768 .f32) (harg1 : arg1.IsWhole) (x0 : Vec F S64x32768 .f32) (k : Fin 64) :
    View.Piece (Elt F) S32768x128 .f32 :=
  ⟨Rect.unit (s := S32768x128) ![k.val * 512, 0] S512x64.size (hinb2 k),
    pay (arg1.view.readAt (Elt F) (Rect.unit (s := S64x32768) ![0, k.val * 512] S64x512.size (hinb1 k)).toLoadRect (harg1.unread x0))⟩

set_option maxHeartbeats 2000000 in
theorem run0_pieces (c : Dev nD) (i : grid0.Coords) (arg1 : Memref sig .tc .vmem S64x32768 .f32) (harg1 : arg1.IsWhole)
    (arg2 : Memref sig .tc .vmem S32768x128 .f32) (harg2 : arg2.IsWhole) (x0 : Vec F S64x32768 .f32) :
    (run0 c i arg1 harg1 arg2 harg2 x0).1 = (List.finRange 64).reverse.map (piece arg1 harg1 x0) := by
  unfold run0
  rfl

/-- The one function of the output block's index that every piece agrees with: entry (r, c) is the input block's
    entry (c mod 64, r). -/
def Gf (x0 : Vec F S64x32768 .f32) : S32768x128.Idx → Elt F .f32 :=
  fun y => x0 (ix2 ⟨(y 1).val % 64, Nat.mod_lt _ (by decide)⟩ (y 0))

theorem pay_apply (v : Vec F S64x512 .f32) (j : Fin 512) (i : Fin 64) : pay v (ix2 j i) = v (ix2 i j) := by
  unfold pay
  rw [transpose_ix2_apply, shapeCast_self]

theorem piece_agrees (arg1 : Memref sig .tc .vmem S64x32768 .f32) (harg1 : arg1.IsWhole) (x0 : Vec F S64x32768 .f32) (k : Fin 64)
    (x : (piece arg1 harg1 x0 k).1.shape.Idx) :
    (piece arg1 harg1 x0 k).2 x = Gf x0 ((piece arg1 harg1 x0 k).1.emb x) := by
  obtain ⟨j, i, rfl⟩ : ∃ (j : Fin 512) (i : Fin 64), x = ix2 j i := ⟨x 0, x 1, eq_ix2 x⟩
  dsimp only [piece]
  rw [pay_apply, harg1.readAt_unread]
  unfold Gf
  refine congrArg x0 (funext fun a => ?_)
  match a with
  | ⟨0, _⟩ =>
    apply Fin.ext
    show 0 + 1 * i.val = (0 + 1 * i.val) % 64
    have := i.isLt; omega
  | ⟨1, _⟩ =>
    apply Fin.ext
    show k.val * 512 + 1 * j.val = k.val * 512 + 1 * j.val
    rfl

/-- Every entry of columns 0..63 lies in the piece of its row. -/
theorem piece_covers (arg1 : Memref sig .tc .vmem S64x32768 .f32) (harg1 : arg1.IsWhole) (x0 : Vec F S64x32768 .f32)
    (r : Fin 32768) (e : Fin 64) :
    ix2 r (Cert.Spec.col e) ∈ (piece arg1 harg1 x0 ⟨r.val / 512, by have := r.isLt; omega⟩).1.set := by
  dsimp only [piece]
  rw [Rect.mem_set_unit]
  intro a
  have := r.isLt; have := e.isLt
  match a with
  | ⟨0, _⟩ => show r.val / 512 * 512 ≤ r.val ∧ r.val < r.val / 512 * 512 + 512; omega
  | ⟨1, _⟩ => show 0 ≤ e.val ∧ e.val < 0 + 64; omega

/-- What the run leaves in the output's buffer, read at row `r`, column `e < 64`: the input buffer's entry `(e, r)`. -/
theorem run0_read (c : Dev nD) (i : grid0.Coords) (arg1 : Memref sig .tc .vmem S64x32768 .f32) (harg1 : arg1.IsWhole)
    (arg2 : Memref sig .tc .vmem S32768x128 .f32) (harg2 : arg2.IsWhole) (x0 : Vec F S64x32768 .f32) (f : arg2.view.ty.Contents (Elt F))
    (r : Fin 32768) (e : Fin 64) :
    arg2.view.read (Elt F) (arg2.view.writes (Elt F) f (run0 c i arg1 harg1 arg2 harg2 x0).1) (ix2 r (Cert.Spec.col e)) = x0 (ix2 e r) := by
  rw [run0_pieces]
  rw [View.read_writes_apply_of_pieces arg2.view f (Gf x0) _ (fun p hp x => ?_) _ ⟨_, List.mem_map.mpr ⟨_, List.mem_reverse.mpr (List.mem_finRange _), rfl⟩, piece_covers arg1 harg1 x0 r e⟩]
  · unfold Gf
    refine congrArg x0 (funext fun a => ?_)
    match a with
    | ⟨0, _⟩ => apply Fin.ext; show e.val % 64 = e.val; have := e.isLt; omega
    | ⟨1, _⟩ => rfl
  · obtain ⟨k, -, rfl⟩ := List.mem_map.mp hp
    exact piece_agrees arg1 harg1 x0 k x

end R0

end Cert.Kernel.Hand

end
-- ==== Proof.Bits.Region0Dat.lean ====
/-
  The relational proof data of the re-laying pipeline and what follows from it. The input window's staging buffer is
  left as found; of the output's the body leaves, at point t, row r, column e < 64 equal to entry (e, t * 32768 + r)
  of the transposed table for the rows inside the table (the last block overhangs it: its fetch fills only the
  columns inside, its write-back writes only the rows inside). A write-back of block u overwrites exactly the table's
  rows u * 32768 .. of the re-laid table, so after the write-backs below n the rows below n * 32768 are determined,
  and after all thirty-one every row is.
-/
import proofs.«218768_g80616536146796_cont_9to1c4b_775_25_alg».proof.Proof.Bits.Region0Run
import Idealize.ShloMosaic.Lib.Pipeline.Regions
import Idealize.ShloMosaic.Lib.Pipeline.Kit
import Idealize.ShloMosaic.Lib.ValueLayout

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace R0

open Idealize.ShloMosaic.ValueIdx

abbrev recW (W : Waits sig (HIx 2)) : Set (SemLoc sig × HIx 2) := {p | p ∈ W ∨ p.2 = none}

/-- What is determined of the output block at point `t`: row `r`, column `e < 64` holds entry
    `(e, t * 32768 + r)` of the transposed table, for the rows inside the table. -/
def BlkOK (x : Vec F S64x1000000 .f32) (t : ℕ) (X : Vec F S32768x128 .f32) : Prop :=
  ∀ (r : Fin 32768) (e : Fin 64) (h : t * 32768 + r.val < 1000000), X (ix2 r (Cert.Spec.col e)) = x (ix2 e ⟨t * 32768 + r.val, h⟩)

def rd0 (x : Vec F S64x1000000 .f32) (y : Vec F S1000000x128 .f32) (O : CellTallies nD τ sig (HIx 2)) (W : Waits sig (HIx 2))
    (c : Dev nD) : Pipeline.RDat τ (Elt F) (HIx 2) ℕ UU ℕ cfg0 c where
  A w := match w with
    | ⟨0, _⟩ => x
    | ⟨1, _⟩ => y
  after w t := match w with
    | ⟨0, _⟩ => fun Y X => X = Y
    | ⟨1, _⟩ => fun _ X => BlkOK x t.val X
  Φ _ := Pipeline.scopedRest spec0 c
  q _ := fullShare
  owed _ := O
  recorded _ := recW W

theorem geom0 : ∀ t : Fin grid0.N, win0_0.index t 0 * 64 = 0 ∧ win0_0.index t 1 * 32768 = t.val * 32768
    ∧ win0_0.xsize (grid0.coords t) 0 = 64 ∧ win0_0.xsize (grid0.coords t) 1 = min 32768 (1000000 - t.val * 32768) := by
  decide +kernel

theorem geom1 : ∀ t : Fin grid0.N, win0_1.index t 0 * 32768 = t.val * 32768 ∧ win0_1.index t 1 * 128 = 0
    ∧ win0_1.xsize (grid0.coords t) 0 = min 32768 (1000000 - t.val * 32768) ∧ win0_1.xsize (grid0.coords t) 1 = 128 := by
  decide +kernel

/-- What the body finds in the input's staging buffer: inside the table, the transposed table's block. -/
theorem finds0_read (x) (y) (O) (W) (c : Dev nD) (t : Fin cfg0.N) (Y0 : Vec F S64x32768 .f32)
    (h : (rd0 (F := F) x y O W c).Finds 0 t Y0) (e : Fin 64) (r : Fin 32768) (hr : t.val * 32768 + r.val < 1000000) :
    Y0 (ix2 e r) = x (ix2 e ⟨t.val * 32768 + r.val, hr⟩) := by
  rw [(rd0 x y O W c).finds_of_fetch (fetch0_0 t)] at h
  obtain ⟨d, rfl⟩ := h
  obtain ⟨g0, g1, g2, g3⟩ := geom0 t
  have hm : (cfg0.win 0).moved (grid0.coords t) (ix2 e r) = true := by
    rw [Pipeline.Window.moved_iff]; intro a
    match a with
    | ⟨0, _⟩ => show e.val < win0_0.xsize (grid0.coords t) 0; rw [g2]; exact e.isLt
    | ⟨1, _⟩ => show r.val < win0_0.xsize (grid0.coords t) 1; rw [g3]; have := r.isLt; omega
  unfold Pipeline.RDat.fetched Pipeline.Window.fill
  rw [dif_pos hm]
  unfold Pipeline.RDat.blockOf
  change x ((win0_0.rect t).emb _) = _
  refine congrArg x (funext fun a => ?_)
  match a with
  | ⟨0, _⟩ => apply Fin.ext; show win0_0.index t 0 * 64 + 1 * e.val = e.val; rw [g0]; omega
  | ⟨1, _⟩ => apply Fin.ext; show win0_0.index t 1 * 32768 + 1 * r.val = t.val * 32768 + r.val; rw [g1, Nat.one_mul]

theorem nat_a (a uv vv : ℕ) (h : a = uv * 32768) (hin : uv * 32768 ≤ vv) : a + 1 * (vv - uv * 32768) = vv := by omega
theorem nat_b (a ev : ℕ) (h : a = 0) : a + 1 * ev = ev := by omega
theorem nat_c (a uv vv : ℕ) (h : a = uv * 32768) (h0 : a ≤ vv) (hin : ¬ uv * 32768 ≤ vv) : False := by omega
theorem nat_d (uv vv : ℕ) (hin : uv * 32768 ≤ vv) : uv * 32768 + (vv - uv * 32768) = vv := by omega
theorem nat_e (uv vv : ℕ) (hin : ¬ uv * 32768 ≤ vv) : vv < uv * 32768 := by omega
theorem nat_f (uv vv : ℕ) (hin : uv * 32768 ≤ vv) (hv : vv < (uv + 1) * 32768) (hvl : vv < 1000000) :
    vv - uv * 32768 < min 32768 (1000000 - uv * 32768) ∧ vv - uv * 32768 < 32768 := by omega

theorem nat_g (N vv n : ℕ) (hN : N = 31) (hn : ¬ n < N) (hv : vv < 1000000) : vv < n * 32768 := by omega
theorem nat_h (N vv : ℕ) (hN : N = 31) (hv : vv < 1000000) : vv < N * 32768 := by omega

/-- The re-laid table below row `n * 32768`: row `v`, column `e < 64` holds entry `(e, v)` of the transposed table. -/
def TabUpTo (x : Vec F S64x1000000 .f32) (n : ℕ) (Fa : Vec F S1000000x128 .f32) : Prop :=
  ∀ (v : Fin 1000000) (e : Fin 64), v.val < n * 32768 → Fa (ix2 v (Cert.Spec.col e)) = x (ix2 e v)

/-- One write-back: the rows of block `u` inside the table are overwritten by the staging buffer's. -/
theorem arrStep_ok (x : Vec F S64x1000000 .f32) (u : Fin cfg0.N) (G₀ : Vec F S1000000x128 .f32) (X : Vec F S32768x128 .f32)
    (h0 : TabUpTo x u.val G₀) (hX : BlkOK x u.val X) :
    TabUpTo x (u.val + 1) (((cfg0.win 1).blk u).view.write (Elt F) G₀ ((cfg0.win 1).cut (grid0.coords u) X) Finset.univ) := by
  intro v e hv
  obtain ⟨g0, g1, g2, g3⟩ := geom1 u
  have hvl := v.isLt; have hel := e.isLt
  by_cases hin : u.val * 32768 ≤ v.val
  · -- the row lies in block `u`
    have hf := nat_f _ _ hin hv hvl
    have hj0 : v.val - u.val * 32768 < win0_1.xsize (grid0.coords u) 0 := by rw [g2]; exact hf.1
    have hj1 : e.val < win0_1.xsize (grid0.coords u) 1 := by rw [g3]; exact Nat.lt_trans hel (by decide)
    let j : (win0_1.xblock (grid0.coords u)).Idx := fun a => match a with
      | ⟨0, _⟩ => ⟨v.val - u.val * 32768, hj0⟩
      | ⟨1, _⟩ => ⟨e.val, hj1⟩
    have hemb : (win0_1.rect u).emb j = ix2 v (Cert.Spec.col e) := by
      funext a
      match a with
      | ⟨0, _⟩ => apply Fin.ext; exact nat_a _ _ _ g0 hin
      | ⟨1, _⟩ => apply Fin.ext; exact nat_b _ _ g1
    rw [← hemb]
    refine (View.read_slice_write_emb (v := View.whole main_v1) (win0_1.rect u) G₀ _ (Finset.mem_univ j)).trans ?_
    have hr : u.val * 32768 + (v.val - u.val * 32768) < 1000000 := by rw [nat_d _ _ hin]; exact hvl
    have hxj : win0_1.xinj (grid0.coords u) j = ix2 (⟨v.val - u.val * 32768, hf.2⟩ : Fin 32768) (Cert.Spec.col e) :=
      funext fun a => match a with
        | ⟨0, _⟩ => rfl
        | ⟨1, _⟩ => rfl
    show X (win0_1.xinj (grid0.coords u) j) = _
    rw [hxj]
    refine (hX ⟨v.val - u.val * 32768, hf.2⟩ e hr).trans ?_
    refine congrArg x (funext fun a => ?_)
    match a with
    | ⟨0, _⟩ => rfl
    | ⟨1, _⟩ => apply Fin.ext; exact nat_d _ _ hin
  · -- the row lies below block `u`: untouched
    have hnm : ix2 v (Cert.Spec.col e) ∉ Finset.univ.map (win0_1.rect u).emb := by
      rw [Rect.map_emb_univ, Rect.mem_set_unit]
      intro h
      have h0' := (h ⟨0, by decide⟩).1
      change win0_1.index u 0 * 32768 ≤ v.val at h0'
      exact nat_c _ _ _ g0 h0' hin
    refine (View.read_slice_write_of_not_mem (v := View.whole main_v1) (win0_1.rect u) G₀ _ Finset.univ hnm).trans ?_
    exact h0 v e (nat_e _ _ hin)

/-- After the write-backs below `n`, the rows below `n * 32768` of the re-laid table are determined. -/
theorem arrAt_ok (x) (y) (O) (W) (c : Dev nD) : ∀ (n : ℕ) (Fa : Vec F S1000000x128 .f32),
    (rd0 (F := F) x y O W c).ArrAt 1 n Fa → TabUpTo x n Fa
  | 0, Fa, _ => fun v e hv => absurd hv (by omega)
  | n + 1, Fa, h => by
    unfold Pipeline.RDat.ArrAt at h
    by_cases hn : n < cfg0.N
    · rw [dif_pos hn, if_pos (flush0_1 ⟨n, hn⟩)] at h
      obtain ⟨G₀, X, hG₀, ⟨Y, -, hX⟩, rfl⟩ := h
      exact arrStep_ok x ⟨n, hn⟩ G₀ X (arrAt_ok x y O W c n G₀ hG₀) hX
    · rw [dif_neg hn] at h
      intro v e _
      exact arrAt_ok x y O W c n Fa h v e (nat_g cfg0.N _ _ N_0 hn v.isLt)

theorem tab2T_of_arrAt (x) (y) (O) (W) (c : Dev nD) (Fa : Vec F S1000000x128 .f32)
    (h : (rd0 (F := F) x y O W c).ArrAt 1 cfg0.N Fa) : Cert.Spec.Tab2T (F := F) x Fa := by
  intro v e
  exact arrAt_ok x y O W c cfg0.N Fa h v e (nat_h cfg0.N _ N_0 v.isLt)

end R0

end Cert.Kernel.Hand

end
-- ==== Proof.Bits.Region0.lean ====
/-
  The table re-laying region as one step of the TensorCore's @main: from the region boundary, the transposed table
  held whole at x, the re-laid table at anything, what the core owes and the pipeline's ghost state, the region runs
  back to the boundary with the transposed table unchanged and the re-laid table at contents whose row v, column
  e < 64 is entry (e, v) of x. The body obligation is the body's run at a symbolic point read back through its
  pieces; the exit reads the array's final contents off the write-backs.
-/
import proofs.«218768_g80616536146796_cont_9to1c4b_775_25_alg».proof.Proof.Bits.Region0Pieces
import proofs.«218768_g80616536146796_cont_9to1c4b_775_25_alg».proof.Proof.Bits.Region0Dat
import Idealize.ShloMosaic.Lib.Pipeline.Regions
import Idealize.ShloMosaic.Lib.Pipeline.Kit

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

namespace R0

/-- Any record for a pipeline this region does not run. -/
def rdTriv (cfg : Pipeline.Cfg sig Λ₀) (c : Dev nD) : Pipeline.RDat τ (Elt F) (HIx 2) ℕ UU ℕ cfg c where
  A _ := fun _ => Classical.arbitrary _
  after _ _ _ _ := True
  Φ _ := iprop(emp)
  q _ := fullShare
  owed _ := 0

/-- The three pipelines' records: the re-laying pipeline's, and any for the other two. -/
def rdats (x : Vec F S64x1000000 .f32) (y : Vec F S1000000x128 .f32) (O : CellTallies nD τ sig (HIx 2)) (W : Waits sig (HIx 2)) :
    (p : Fin 3) → (c : Dev nD) → Pipeline.RDat τ (Elt F) (HIx 2) ℕ UU ℕ (Pipeline.pin (pcfgs (F := F)) adm p) c
  | ⟨0, _⟩ => rd0 x y O W
  | ⟨1, _⟩ => rdTriv cfg3
  | ⟨2, _⟩ => rdTriv cfg4

/-- The body obligation: the run at the point's staging buffers; the input's buffer comes back as it was, the output's
    with the sixty-four pieces written, whose entry (r, e) is the input buffer's (e, r), which inside the table is the
    transposed table's block. -/
theorem body_obligation (x) (y) (O) (W) (c : Dev nD) :
    (rd0 (F := F) x y O W c).BodyObligation (defs₀ (F := F)) 𝒱₀ none Set.univ := fun t Y hY => by
  rw [bigSep_W0, bigSep_W0]
  rw [show (rd0 x y O W c).Φ t.succ = (rd0 x y O W c).Φ t.castSucc from rfl,
    show (rd0 x y O W c).owesAt none t.succ = (rd0 x y O W c).owesAt none t.castSucc from rfl]
  iintro ⟨HΦ, HO, H0, H1⟩
  iapply ((run0 c (grid0.coords t) _ _ _ _ (Y 0)).2 Set.univ _)
  isplitl [H0]; · iexact H0
  isplitl [H1]; · iexists _; iexact H1
  iintro ⟨H0, ⟨%f, H1⟩⟩
  isplitl [HΦ]; · iexact HΦ
  isplitl [HO]; · iexact HO
  isplitl [H0]
  · iexists _; isplitr; swap; (· iexact H0); ipureintro; rfl
  iexists _; isplitr; swap
  · unfold owns; iexists _; isplitr; swap; (· iexact H1); ipureintro; rfl
  ipureintro
  intro r e hr
  refine (run0_read c (grid0.coords t) _ _ _ _ (Y 0) f r e).trans ?_
  exact finds0_read x y O W c t (Y 0) (hY 0) e r hr

/-- The staging cells' wait evidence: the pipeline waits at the kernels' own index, where the core owes nothing. -/
theorem hwaits (x) (y) (O : CellTallies nD τ sig (HIx 2)) (W) (hO : ∀ g, O g none = 0) (c : Dev nD) :
    (levAts (K (F := F)).L (K (F := F)).lev : sProp (𝕄F F)) ⊢ Pipeline.RDat.cellsWaits (Pipeline.pin (pcfgs (F := F)) adm) (rdats x y O W) (none : HIx 2) 0 c :=
  Pipeline.RDat.cellsWaits_intro (Pipeline.pin (pcfgs (F := F)) adm) (rdats x y O W) (none : HIx 2) 0 c fun w s t =>
    (K (F := F)).mayWait_none _ hO

/-- The region's arrays at contents `Fa` are the transposed table and the re-laid table held whole. -/
theorem arrays_eq (x) (y) (O) (W) (c : Dev nD) (Fa) :
    ((rdats (F := F) x y O W 0 c).arrays Fa : sProp (𝕄F F)) = iprop((loc c main_v0 ↦{fullShare} Fa 0) ∗ (loc c main_v1 ↦{fullShare} Fa 1)) := by
  rw [Pipeline.RDat.arrays_eq (pcfgs (F := F)) adm (rdats x y O W) 0 c launch0.arr_whole ((rdats x y O W 0 c).share_full fun _ => rfl) Fa, bigSep_W0]
  rfl

/-- The arrays after the write-backs below `n`, array by array, each held whole. -/
theorem arraysAt_eq (x) (y) (O) (W) (c : Dev nD) (n : Nat) :
    ((rdats (F := F) x y O W 0 c).arraysAt n : sProp (𝕄F F))
      = iprop((∃ Fa, ⌜(rdats (F := F) x y O W 0 c).ArrAt 0 n Fa⌝ ∗ (loc c main_v0 ↦{fullShare} Fa))
          ∗ (∃ Fa, ⌜(rdats (F := F) x y O W 0 c).ArrAt 1 n Fa⌝ ∗ (loc c main_v1 ↦{fullShare} Fa))) := by
  unfold Pipeline.RDat.arraysAt
  rw [bigSep_W0, (launch0.arr_whole 0).set_eq_univ, (launch0.arr_whole 1).set_eq_univ,
    (rdats x y O W 0 c).share_full (fun _ => rfl) 0, (rdats x y O W 0 c).share_full (fun _ => rfl) 1]
  rfl

set_option maxHeartbeats 1000000 in
/-- The region: both arrays into the pipeline, nothing beside; the core owes `O` throughout. -/
def reg0 (x : Vec F S64x1000000 .f32) (y : Vec F S1000000x128 .f32) (O : CellTallies nD τ sig (HIx 2)) (W : Waits sig (HIx 2))
    (hO : ∀ g, O g none = 0) :
    Pipeline.RDat.RegionSeg (pcfgs (F := F)) adm (rdats x y O W) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation x y O W c
  hwaits c := hwaits x y O W hO c
  pre c := iprop((loc c main_v0 ↦{fullShare} x) ∗ (loc c main_v1 ↦{fullShare} y) ∗ owes (T c) O W)
  post c := iprop((loc c main_v0 ↦{fullShare} x) ∗ (∃ y', ⌜Cert.Spec.Tab2T (F := F) x y'⌝ ∗ loc c main_v1 ↦{fullShare} y')
    ∗ ∃ W', ⌜∀ p ∈ W', p ∈ W ∨ p.2 = none⌝ ∗ owes (T c) O W')
  X _ := iprop(emp)
  Y _ := iprop(emp)
  Z _ := iprop(emp)
  hentry c := by
    rw [Pipeline.ownSems0_none, arrays_eq]
    iintro ⟨⟨Hx, Hy, HO⟩, -, -⟩
    imodintro
    isplitl [Hx Hy]
    · isplitl [Hx]; · iexact Hx
      iexact Hy
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl hp)
      iexact HO
    isplitr <;> iempintro
  hin c := by
    change _ ⊢ Pipeline.scopedRest (Pipeline.pin (pcfgs (F := F)) adm 0).spec c
    iintro ⟨-, -, H⟩; iexact H
  hout c := by
    rw [Pipeline.ownSems0_none]
    change Pipeline.scopedRest (Pipeline.pin (pcfgs (F := F)) adm 0).spec c ⊢ _
    iintro H; isplitr; · iempintro
    isplitr; · iempintro
    iexact H
  hexit c := by
    rw [arraysAt_eq]
    iintro ⟨⟨⟨%F0, %h0, H0⟩, ⟨%F1, %h1, H1⟩⟩, HO, -, -⟩
    rw [(rdats x y O W 0 c).ArrAt_in 0 rfl] at h0
    have h0' : F0 = x := h0
    subst F0
    imodintro
    isplitl [H0]; · iexact H0
    isplitl [H1]
    · iexists F1; isplitr; · ipureintro; exact tab2T_of_arrAt x y O W c F1 h1
      iexact H1
    unfold Pipeline.RDat.owesAt Pipeline.owesWithin
    icases HO with ⟨%W', %hW', HO⟩
    iexists W'; isplitr; swap; (· iexact HO)
    ipureintro
    intro p hp
    rcases hW' (Finset.mem_coe.mpr hp) with h | h
    · exact h
    · obtain ⟨w, s, rfl⟩ := h; exact Or.inr rfl

end R0

open R0 in
set_option backward.isDefEq.respectTransparency.types false in
/-- The re-laying region's step on device `d`'s TensorCore. -/
theorem wp_region0 (d : Dev nD) (x : Buf (Elt F) (loc d main_v0)) (O : CellTallies nD τ sig (HIx 2)) (W : Waits sig (HIx 2))
    (hO : ∀ g, O g none = 0) (Q : PUnit → sProp (𝕄F F)) :
    iprop((iprop(boundary (T d) ∗ (loc d main_v0 ↦{fullShare} x) ∗ (∃ y, ⌜Cert.Spec.Tab2T (F := F) x y⌝ ∗ loc d main_v1 ↦{fullShare} y)
            ∗ ∃ W', ⌜∀ p ∈ W', p ∈ W ∨ p.2 = none⌝ ∗ owes (T d) O W') -∗ Q ⟨⟩)
        ∗ boundary (T d) ∗ (loc d main_v0 ↦{fullShare} x) ∗ (∃ y, loc d main_v1 ↦{fullShare} y) ∗ owes (T d) O W
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (Prog.lift (.customCall (Pipeline.entry 0) ())) Q := by
  iintro ⟨Hk, Hb, Hx, ⟨%y, Hy⟩, HO, Hlev, Hg, Ht⟩
  have hwp := Pipeline.RDat.RegionSeg.wp (pcfgs (F := F)) adm (rdats x y O W) (none : HIx 2) cellOf_inj EP defs₀ 𝒱₀ (K (F := F)).L (K (F := F)).lev
    (reg0 x y O W hO) d none (fun _ h => nomatch h) (fun r => .ret r) Q
  dsimp only [reg0] at hwp
  iapply hwp
  isplitl [Hk]
  · iintro ⟨Hb, Hx, Hy, HO⟩
    rw [wp_ret]; imodintro
    iapply Hk
    isplitl [Hb]; · iexact Hb
    isplitl [Hx]; · iexact Hx
    isplitl [Hy]; · iexact Hy
    iexact HO
  isplitl [Hb]; · iexact Hb
  isplitl [Hx Hy HO]
  · isplitl [Hx]; · iexact Hx
    isplitl [Hy]; · iexact Hy
    iexact HO
  isplitl [Hlev]; · iexact Hlev
  isplitl [Hg]; · iexact Hg
  iexact Ht

end Cert.Kernel.Hand

end
-- ==== Proof.Bits.Region4Body.lean ====
/-
  The document transposing kernel, point by point: what its body finds in its two staging buffers at a point of the
  4 x 5 grid and what it leaves there. The body loads the whole input block (256 documents x 40 positions x 128 lanes),
  transposes it, keeps the first 64 lanes and stores the whole output block (64 x 40 x 256).
-/
import proofs.«218768_g80616536146796_cont_9to1c4b_775_25_alg».proof.Proof.Bits.Common
import proofs.«218768_g80616536146796_cont_9to1c4b_775_25_alg».proof.Proof.Spec
import proofs.«218768_g80616536146796_cont_9to1c4b_775_25_alg».proof.Proof.Gen.Kernel.Points
import proofs.«218768_g80616536146796_cont_9to1c4b_775_25_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three zero offsets of a whole-block access, as a constant function. -/
theorem hz3 : (![0, 0, 0] : Fin 3 → Nat) = fun _ => 0 := funext fun a => by fin_cases a <;> rfl

/-- The pairs a thread's waits may have recorded during a transposing region: those recorded before it, and the
    region's own, which are all at the index of a kernel's own waits. -/
def recBound (W : Waits sig (HIx 2)) : Set (SemLoc sig × HIx 2) := {p | p ∈ W ∨ p.2 = none}

/-- Proof data that names nothing: for the pipelines a region does not run. -/
def anyDat (cfg : Pipeline.Cfg sig Λ₀) (c : Dev nD) : Dat τ (Elt F) (HIx 2) ℕ UU ℕ cfg c where
  A _ := Classical.arbitrary _
  after _ _ := fun _ => Classical.arbitrary _
  Φ _ := iprop(emp)
  q _ := fullShare
  owed _ := 0

/-! ## The body's accesses -/

abbrev r4_0 : Rect S256x40x128 := Rect.unit (s := S256x40x128) ![0, 0, 0] S256x40x128.size inb_S256x40x128_S256x40x128_0_0_0
abbrev r4_1 : Rect S64x40x256 := Rect.unit (s := S64x40x256) ![0, 0, 0] S64x40x256.size inb_S64x40x256_S64x40x256_0_0_0

/-- The input window's block at point `t`, read off the array `x`. -/
def iblk4 (x : FVec F Cert.Spec.SD3 .f32) (t : Fin cfg4.N) : ((cfg4.win 0).xblock (cfg4.grid.coords t)).Idx → Elt F (cfg4.win 0).elt :=
  ((cfg4.win 0).blk t).view.read (Elt F) x

/-- The body's one store covers the output buffer. -/
theorem cover4 (p0 : Vec F S64x40x256 .f32) (y : S64x40x256.Idx) :
    ∃ pc ∈ ([⟨r4_1, p0⟩] : List (View.Piece (Elt F) S64x40x256 .f32)), y ∈ pc.1.set :=
  ⟨_, List.mem_singleton_self _, View.mem_set_unit_zero hz3 inb_S64x40x256_S64x40x256_0_0_0 y⟩

set_option maxHeartbeats 1000000 in
/-- The body on whole staging memrefs, the input's at `x0` and the output's at anything, runs to the input's as it
    was and the output's at the transposed block. -/
theorem sound_kernel4 (c : Dev nD) (E : Set ℕ) (i : grid4.Coords) (arg2 : Memref sig .tc .vmem S256x40x128 .f32) (harg2 : arg2.IsWhole)
    (arg3 : Memref sig .tc .vmem S64x40x256 .f32) (harg3 : arg3.IsWhole) (x0 : Vec F S256x40x128 .f32) (Kk : PUnit → sProp (𝕄F F)) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (k4_pay1 x0)) -∗ Kk ⟨⟩))
      ⊢ wp frame (wpE (defs₀ (F := F)) Variants.none c none) E (cc4_body i arg2 harg2 arg3 harg3) Kk := by
  simp only [cc4_body_eq_skeleton]; unfold cc4_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  refine (View.read_writes_eq_canon _ _ _ (cover4 _)).trans ?_
  rw [View.canon_unit_zero hz3]
  simp only [View.readAt_eq_ld, View.ld_unit_zero (S := S256x40x128) hz3]

/-! ## The proof data -/

/-- The pipeline's proof data on core `c`: the input array at `x`, the output array at `y` on entry; after the body
    at point `t` the input's buffer at its block and the output's at the block transposed; the invariant the scoped
    buffers no window stages; the core owing `O` throughout, its recorded pairs within those of `W` and the kernel's own. -/
def dat4 (x : FVec F Cert.Spec.SD3 .f32) (y : FVec F Cert.Spec.ST .f32) (O : CellTallies nD τ sig (HIx 2)) (W : Waits sig (HIx 2))
    (c : Dev nD) : Dat τ (Elt F) (HIx 2) ℕ UU ℕ cfg4 c where
  A w := match w with
    | ⟨0, _⟩ => x
    | ⟨1, _⟩ => y
  after w t := match w with
    | ⟨0, _⟩ => iblk4 x t
    | ⟨1, _⟩ => k4_pay1 (iblk4 x t)
  Φ _ := Pipeline.scopedRest spec4 c
  q _ := fullShare
  owed _ := O
  recorded _ := recBound W

variable (x : FVec F Cert.Spec.SD3 .f32) (y : FVec F Cert.Spec.ST .f32) (O : CellTallies nD τ sig (HIx 2)) (W : Waits sig (HIx 2))

theorem A4_0 (c : Dev nD) : (dat4 x y O W c).A 0 = x := by dsimp only [dat4]
theorem A4_1 (c : Dev nD) : (dat4 x y O W c).A 1 = y := by dsimp only [dat4]
theorem after4_0 (c : Dev nD) (t : Fin cfg4.N) : (dat4 x y O W c).after 0 t = iblk4 x t := by dsimp only [dat4]
theorem after4_1 (c : Dev nD) (t : Fin cfg4.N) : (dat4 x y O W c).after 1 t = k4_pay1 (iblk4 x t) := by dsimp only [dat4]

/-- The input's current staging buffer holds its block at every point: every point fetches it. -/
theorem before4_0 (c : Dev nD) (t : Fin cfg4.N) (d) : (dat4 x y O W c).before 0 t d = iblk4 x t :=
  ((dat4 x y O W c).before_fetched 0 t (fetch4_0 t) d).trans (by unfold Dat.fetched Dat.blockOf iblk4; rw [A4_0]; try rfl)

/-! ## The body obligation -/

/-- What the body is called with at point `t`, the windows one by one, -/
def bodyPre4 (c : Dev nD) (t : Fin cfg4.N) : sProp (𝕄F F) :=
  iprop((dat4 x y O W c).Φ t.castSucc ∗ (dat4 x y O W c).owesAt none t.castSucc
    ∗ (∃ d, owns (c : Thread nD τ) (st4_0 t) fullShare ((dat4 x y O W c).before 0 t d))
    ∗ (∃ d, owns (c : Thread nD τ) (st4_1 t) fullShare ((dat4 x y O W c).before 1 t d)))

/-- and what it returns. -/
def bodyPost4 (c : Dev nD) (t : Fin cfg4.N) : sProp (𝕄F F) :=
  iprop((dat4 x y O W c).Φ t.succ ∗ (dat4 x y O W c).owesAt none t.succ
    ∗ owns (c : Thread nD τ) (st4_0 t) fullShare ((dat4 x y O W c).after 0 t)
    ∗ owns (c : Thread nD τ) (st4_1 t) fullShare ((dat4 x y O W c).after 1 t))

/-- The body at any point: the input's memref holds its block, so `sound_kernel4` applies; the invariant and the
    core's `owes` pass through unread. -/
theorem sound_body4 (c : Dev nD) (t : Fin cfg4.N) :
    bodyPre4 x y O W c t ⊢ wp frame (wpE (defs₀ (F := F)) Variants.none c none) Set.univ (bodyAt4 t) (fun _ => bodyPost4 x y O W c t) := by
  unfold bodyPre4 bodyPost4 bodyAt4
  simp only [before4_0]
  rw [show (dat4 x y O W c).Φ t.succ = (dat4 x y O W c).Φ t.castSucc from rfl,
    show (dat4 x y O W c).owesAt none t.succ = (dat4 x y O W c).owesAt none t.castSucc from rfl,
    after4_0, after4_1]
  iintro ⟨HΦ, Ho, ⟨%d0, H0⟩, ⟨%d1, H1⟩⟩
  iapply (sound_kernel4 c Set.univ _ _ _ _ _ (iblk4 x t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 x y O W c) (defs₀ (F := F)) 𝒱₀ none Set.univ := fun t => by
  rw [bigSep_W4, bigSep_W4]
  exact sound_body4 x y O W c t

end Cert.Kernel.Hand

end
-- ==== Proof.Bits.Region3Body.lean ====
/-
  The query transposing kernel, point by point: what its body finds in its two staging buffers at a point of the
  grid of 4 and what it leaves there. The body loads the whole input block (256 queries x 20 positions x 128 lanes),
  transposes it, keeps the first 64 lanes, pads the positions from 20 to 200 with zeros and stores the whole output
  block (64 x 200 x 256).
-/
import proofs.«218768_g80616536146796_cont_9to1c4b_775_25_alg».proof.Proof.Bits.Region4Body

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses -/

abbrev r3_0 : Rect S256x20x128 := Rect.unit (s := S256x20x128) ![0, 0, 0] S256x20x128.size inb_S256x20x128_S256x20x128_0_0_0
abbrev r3_1 : Rect S64x200x256 := Rect.unit (s := S64x200x256) ![0, 0, 0] S64x200x256.size inb_S64x200x256_S64x200x256_0_0_0

/-- The input window's block at point `t`, read off the array `x`. -/
def iblk3 (x : FVec F Cert.Spec.SQ3 .f32) (t : Fin cfg3.N) : ((cfg3.win 0).xblock (cfg3.grid.coords t)).Idx → Elt F (cfg3.win 0).elt :=
  ((cfg3.win 0).blk t).view.read (Elt F) x

/-- The body's one store covers the output buffer. -/
theorem cover3 (p0 : Vec F S64x200x256 .f32) (y : S64x200x256.Idx) :
    ∃ pc ∈ ([⟨r3_1, p0⟩] : List (View.Piece (Elt F) S64x200x256 .f32)), y ∈ pc.1.set :=
  ⟨_, List.mem_singleton_self _, View.mem_set_unit_zero hz3 inb_S64x200x256_S64x200x256_0_0_0 y⟩

set_option maxHeartbeats 1000000 in
/-- The body on whole staging memrefs, the input's at `x0` and the output's at anything, runs to the input's as it
    was and the output's at the transposed, padded block. -/
theorem sound_kernel3 (c : Dev nD) (E : Set ℕ) (i : grid3.Coords) (arg1 : Memref sig .tc .vmem S256x20x128 .f32) (harg1 : arg1.IsWhole)
    (arg2 : Memref sig .tc .vmem S64x200x256 .f32) (harg2 : arg2.IsWhole) (x0 : Vec F S256x20x128 .f32) (Kk : PUnit → sProp (𝕄F F)) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k3_pay1 x0)) -∗ Kk ⟨⟩))
      ⊢ wp frame (wpE (defs₀ (F := F)) Variants.none c none) E (cc3_body i arg1 harg1 arg2 harg2) Kk := by
  simp only [cc3_body_eq_skeleton]; unfold cc3_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  refine (View.read_writes_eq_canon _ _ _ (cover3 _)).trans ?_
  rw [View.canon_unit_zero hz3]
  simp only [View.readAt_eq_ld, View.ld_unit_zero (S := S256x20x128) hz3]

/-! ## The proof data -/

/-- The pipeline's proof data on core `c`: the input array at `x`, the output array at `y` on entry; after the body
    at point `t` the input's buffer at its block and the output's at the block transposed and padded; the invariant the
    scoped buffers no window stages; the core owing `O` throughout, its recorded pairs within those of `W` and the
    kernel's own. -/
def dat3 (x : FVec F Cert.Spec.SQ3 .f32) (y : FVec F Cert.Spec.ST .f32) (O : CellTallies nD τ sig (HIx 2)) (W : Waits sig (HIx 2))
    (c : Dev nD) : Dat τ (Elt F) (HIx 2) ℕ UU ℕ cfg3 c where
  A w := match w with
    | ⟨0, _⟩ => x
    | ⟨1, _⟩ => y
  after w t := match w with
    | ⟨0, _⟩ => iblk3 x t
    | ⟨1, _⟩ => k3_pay1 (iblk3 x t)
  Φ _ := Pipeline.scopedRest spec3 c
  q _ := fullShare
  owed _ := O
  recorded _ := recBound W

variable (x : FVec F Cert.Spec.SQ3 .f32) (y : FVec F Cert.Spec.ST .f32) (O : CellTallies nD τ sig (HIx 2)) (W : Waits sig (HIx 2))

theorem A3_0 (c : Dev nD) : (dat3 x y O W c).A 0 = x := by dsimp only [dat3]
theorem A3_1 (c : Dev nD) : (dat3 x y O W c).A 1 = y := by dsimp only [dat3]
theorem after3_0 (c : Dev nD) (t : Fin cfg3.N) : (dat3 x y O W c).after 0 t = iblk3 x t := by dsimp only [dat3]
theorem after3_1 (c : Dev nD) (t : Fin cfg3.N) : (dat3 x y O W c).after 1 t = k3_pay1 (iblk3 x t) := by dsimp only [dat3]

/-- The input's current staging buffer holds its block at every point: every point fetches it. -/
theorem before3_0 (c : Dev nD) (t : Fin cfg3.N) (d) : (dat3 x y O W c).before 0 t d = iblk3 x t :=
  ((dat3 x y O W c).before_fetched 0 t (fetch3_0 t) d).trans (by unfold Dat.fetched Dat.blockOf iblk3; rw [A3_0]; try rfl)

/-! ## The body obligation -/

/-- What the body is called with at point `t`, the windows one by one, -/
def bodyPre3 (c : Dev nD) (t : Fin cfg3.N) : sProp (𝕄F F) :=
  iprop((dat3 x y O W c).Φ t.castSucc ∗ (dat3 x y O W c).owesAt none t.castSucc
    ∗ (∃ d, owns (c : Thread nD τ) (st3_0 t) fullShare ((dat3 x y O W c).before 0 t d))
    ∗ (∃ d, owns (c : Thread nD τ) (st3_1 t) fullShare ((dat3 x y O W c).before 1 t d)))

/-- and what it returns. -/
def bodyPost3 (c : Dev nD) (t : Fin cfg3.N) : sProp (𝕄F F) :=
  iprop((dat3 x y O W c).Φ t.succ ∗ (dat3 x y O W c).owesAt none t.succ
    ∗ owns (c : Thread nD τ) (st3_0 t) fullShare ((dat3 x y O W c).after 0 t)
    ∗ owns (c : Thread nD τ) (st3_1 t) fullShare ((dat3 x y O W c).after 1 t))

/-- The body at any point: the input's memref holds its block, so `sound_kernel3` applies; the invariant and the
    core's `owes` pass through unread. -/
theorem sound_body3 (c : Dev nD) (t : Fin cfg3.N) :
    bodyPre3 x y O W c t ⊢ wp frame (wpE (defs₀ (F := F)) Variants.none c none) Set.univ (bodyAt3 t) (fun _ => bodyPost3 x y O W c t) := by
  unfold bodyPre3 bodyPost3 bodyAt3
  simp only [before3_0]
  rw [show (dat3 x y O W c).Φ t.succ = (dat3 x y O W c).Φ t.castSucc from rfl,
    show (dat3 x y O W c).owesAt none t.succ = (dat3 x y O W c).owesAt none t.castSucc from rfl,
    after3_0, after3_1]
  iintro ⟨HΦ, Ho, ⟨%d0, H0⟩, ⟨%d1, H1⟩⟩
  iapply (sound_kernel3 c Set.univ _ _ _ _ _ (iblk3 x t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 x y O W c) (defs₀ (F := F)) 𝒱₀ none Set.univ := fun t => by
  rw [bigSep_W3, bigSep_W3]
  exact sound_body3 x y O W c t

end Cert.Kernel.Hand

end
-- ==== Proof.Bits.Region3Value.lean ====
/-
  The query transposing kernel's value: what a point writes back is its block of the whole-array function
  (e, l, b) ↦ x (b, l, e) for l < 20 and zero beyond, and the four blocks cover the output array.
-/
import proofs.«218768_g80616536146796_cont_9to1c4b_775_25_alg».proof.Proof.Bits.Region3Body

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The body's payload at an index: entry (e, l, b) of the stored block is entry (b, l, e) of the loaded block for a
    position below 20, and the zero of the padding beyond. -/
theorem pay3_apply (x0 : Vec F S256x20x128 .f32) (j : S64x200x256.Idx) :
    k3_pay1 x0 j = if h : (j 1).val < 20 then x0 (ix3 (j 2) (⟨(j 1).val, h⟩ : Fin 20) (⟨(j 0).val, Nat.lt_trans (j 0).isLt (by decide)⟩ : Fin 128))
      else Cert.Spec.zero (F := F) := by
  have h0 : (j 0).val < 64 := (j 0).isLt
  have h1 : (j 1).val < 200 := (j 1).isLt
  unfold k3_pay1
  by_cases h : (j 1).val < 20
  · rw [dif_pos h]
    refine (concatenate_pair_apply_left (t := S64x200x256) (s₁ := S64x20x256) (s₂ := S64x180x256) _ _ _ _ j rfl (ix3 (j 0) (⟨(j 1).val, h⟩ : Fin 20) (j 2) : S64x20x256.Idx)
      (fun b => match b with | ⟨0, _⟩ => rfl | ⟨1, _⟩ => rfl | ⟨2, _⟩ => rfl)).trans ?_
    refine (extractStridedSlice_apply _ _ _ _ (ix3 (⟨(j 0).val, Nat.lt_trans (j 0).isLt (by decide)⟩ : Fin 128) (⟨(j 1).val, h⟩ : Fin 20) (j 2)) (fun a => match a with
        | ⟨0, _⟩ => by show (j 0).val = 0 + (j 0).val; omega
        | ⟨1, _⟩ => by show (j 1).val = 0 + (j 1).val; omega
        | ⟨2, _⟩ => by show (j 2).val = 0 + (j 2).val; omega)).trans ?_
    refine (transpose_apply _ _ _ _ (ix3 (j 2) (⟨(j 1).val, h⟩ : Fin 20) (⟨(j 0).val, Nat.lt_trans (j 0).isLt (by decide)⟩ : Fin 128))
      (fun a => match a with | ⟨0, _⟩ => rfl | ⟨1, _⟩ => rfl | ⟨2, _⟩ => rfl)).trans ?_
    rw [shapeCast_self]
    rfl
  · rw [dif_neg h]
    refine (concatenate_pair_apply_right (t := S64x200x256) (s₁ := S64x20x256) (s₂ := S64x180x256) _ _ _ _ j rfl rfl (ix3 (j 0) (⟨(j 1).val - 20, by omega⟩ : Fin 180) (j 2) : S64x180x256.Idx)
      (fun b hb => match b, hb with
        | ⟨0, _⟩, _ => rfl
        | ⟨1, _⟩, hb => absurd rfl hb
        | ⟨2, _⟩, _ => rfl)
      (by show (j 1).val - 20 + 20 = (j 1).val; omega)).trans ?_
    rfl

/-- The printed index maps, decided over the grid: the input block's query index is the output block's on its last
    axis; every other axis is whole. -/
theorem idx_facts3 : ∀ t : Fin cfg3.N, win3_0.index t (0 : Fin 3) = win3_1.index t (2 : Fin 3)
    ∧ win3_0.index t (1 : Fin 3) = 0 ∧ win3_0.index t (2 : Fin 3) = 0
    ∧ win3_1.index t (0 : Fin 3) = 0 ∧ win3_1.index t (1 : Fin 3) = 0 :=
  (by decide +kernel : ∀ t : Fin grid3.N, _)

/-- Every block of the output array is some point's. -/
theorem idx_onto3 : ∀ (q2 : Fin 4), ∃ t : Fin cfg3.N, win3_1.index t = ![0, 0, q2.val] :=
  (by decide +kernel : ∀ (q2 : Fin 4), ∃ t : Fin grid3.N, win3_1.index t = ![0, 0, q2.val])

variable (x : FVec F Cert.Spec.SQ3 .f32) (y : FVec F Cert.Spec.ST .f32) (O : CellTallies nD τ sig (HIx 2)) (W : Waits sig (HIx 2))

/-- What point `t` writes back is block `t` of the whole-array function. -/
theorem flushed3_eq (c : Dev nD) (t : Fin cfg3.N) :
    (dat3 x y O W c).flushed 1 t = ((cfg3.win 1).blk t).view.read (Elt F) (Cert.Spec.T3 (F := F) x) := by
  show (cfg3.win 1).cut (grid3.coords t) ((dat3 x y O W c).after 1 t) = _
  rw [after3_1]
  obtain ⟨e0, e1, e2, e3, e4⟩ := idx_facts3 t
  funext j
  show k3_pay1 (iblk3 x t) j = Cert.Spec.t3 (F := F) x ((((cfg3.win 1).blk t).view.emb j) 0) ((((cfg3.win 1).blk t).view.emb j) 1) ((((cfg3.win 1).blk t).view.emb j) 2)
  refine (pay3_apply (iblk3 x t) j).trans ?_
  have h0 : (j 0).val < 64 := (j 0).isLt
  have h1 : (j 1).val < 200 := (j 1).isLt
  have p1 : ((((cfg3.win 1).blk t).view.emb j) 1).val = (j 1).val := by
    show win3_1.index t (1 : Fin 3) * 200 + 1 * (j 1).val = (j 1).val; omega
  unfold Cert.Spec.t3
  by_cases h : (j 1).val < 20
  · rw [dif_pos h, dif_pos (p1.symm ▸ h)]
    show x (((cfg3.win 0).blk t).view.emb (ix3 (j 2) (⟨(j 1).val, h⟩ : Fin 20) (⟨(j 0).val, _⟩ : Fin 128))) = x _
    refine congrArg x (funext fun a => Fin.ext ?_)
    match a with
    | ⟨0, _⟩ => show win3_0.index t (0 : Fin 3) * 256 + 1 * (j 2).val = win3_1.index t (2 : Fin 3) * 256 + 1 * (j 2).val; omega
    | ⟨1, _⟩ => show win3_0.index t (1 : Fin 3) * 20 + 1 * (j 1).val = win3_1.index t (1 : Fin 3) * 200 + 1 * (j 1).val; omega
    | ⟨2, _⟩ => show win3_0.index t (2 : Fin 3) * 128 + 1 * (j 0).val = win3_1.index t (0 : Fin 3) * 64 + 1 * (j 0).val; omega
  · rw [dif_neg h, dif_neg (p1.symm ▸ h)]

/-- An index of the output array is in point `t`'s block iff each coordinate is in the block's range on its axis. -/
theorem mem_blk3 (t : Fin cfg3.N) (i : Cert.Spec.ST.Idx) :
    i ∈ ((cfg3.win 1).blk t).view.set ↔ ∀ a : Fin 3, win3_1.index t a * S64x200x256.size a ≤ (i a).val ∧ (i a).val < win3_1.index t a * S64x200x256.size a + S64x200x256.size a := by
  show i ∈ ((View.whole main_v9).slice (win3_1.rect t)).set ↔ _
  rw [View.set_slice_whole, Rect.mem_set_unit]
  exact Iff.rfl

/-- The blocks cover the output array: entry (e, l, b) lies in the block of queries b / 256. -/
theorem cover3_arr (i : Cert.Spec.ST.Idx) : ∃ t : Fin cfg3.N, (cfg3.win 1).flush t = true ∧ i ∈ ((cfg3.win 1).blk t).view.set := by
  have hi0 : (i 0).val < 64 := (i 0).isLt
  have hi1 : (i 1).val < 200 := (i 1).isLt
  have hi2 : (i 2).val < 1024 := (i 2).isLt
  obtain ⟨t, ht⟩ := idx_onto3 ⟨(i 2).val / 256, by omega⟩
  have q0 : win3_1.index t (0 : Fin 3) = 0 := congrFun ht 0
  have q1 : win3_1.index t (1 : Fin 3) = 0 := congrFun ht 1
  have q2 : win3_1.index t (2 : Fin 3) = (i 2).val / 256 := congrFun ht 2
  refine ⟨t, flush3_1 t, ?_⟩
  rw [mem_blk3]
  intro a
  match a with
  | ⟨0, _⟩ => show win3_1.index t (0 : Fin 3) * 64 ≤ (i 0).val ∧ (i 0).val < win3_1.index t (0 : Fin 3) * 64 + 64; omega
  | ⟨1, _⟩ => show win3_1.index t (1 : Fin 3) * 200 ≤ (i 1).val ∧ (i 1).val < win3_1.index t (1 : Fin 3) * 200 + 200; omega
  | ⟨2, _⟩ => show win3_1.index t (2 : Fin 3) * 256 ≤ (i 2).val ∧ (i 2).val < win3_1.index t (2 : Fin 3) * 256 + 256; omega

/-- The output array after the last point: the whole-array function of the input. -/
theorem final3 (c : Dev nD) : (dat3 x y O W c).arrAt 1 cfg3.N = Cert.Spec.T3 (F := F) x :=
  (dat3 x y O W c).arrAt_eq_of_cover 1 (Cert.Spec.T3 (F := F) x) (fun t _ => flushed3_eq x y O W c t) cover3_arr

/-- The input array is never written. -/
theorem kept3 (c : Dev nD) : (dat3 x y O W c).arrAt 0 cfg3.N = x :=
  ((dat3 x y O W c).arrAt_in 0 rfl _).trans (A3_0 x y O W c)

end Cert.Kernel.Hand

end
-- ==== Proof.Bits.Region3.lean ====
/-
  The query transposing pallas_call as one step of the TensorCore's @main: entered with the gathered rows `x` in its
  input array, it leaves the output array at the whole-array function (e, l, b) ↦ x (b, l, e) for l < 20 and zero
  beyond, the input as it was, and the thread owing what it owed, its recorded waits grown only by waits at the
  kernel's own index.
-/
import proofs.«218768_g80616536146796_cont_9to1c4b_775_25_alg».proof.Proof.Bits.Region3Value

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (x : FVec F Cert.Spec.SQ3 .f32) (y : FVec F Cert.Spec.ST .f32) (O : CellTallies nD τ sig (HIx 2)) (W : Waits sig (HIx 2))

/-- The three pipelines' proof data: the query transposing pipeline's, and nothing named for the other two. -/
def pdats3 : (p : Fin 3) → (c : Dev nD) → Dat τ (Elt F) (HIx 2) ℕ UU ℕ (Pipeline.pin (pcfgs (F := F)) adm p) c
  | ⟨0, _⟩ => anyDat _
  | ⟨1, _⟩ => dat3 x y O W
  | ⟨2, _⟩ => anyDat _
  | ⟨_ + 3, h⟩ => absurd h (Nat.not_lt.2 (Nat.le_add_left _ _))

/-- The pipeline's two arrays at contents `Fa` are the gathered rows' array and the output array held. -/
theorem arrays3_eq (c : Dev nD) (Fa) : ((pdats3 x y O W 1 c).arrays Fa : sProp (𝕄F F))
    = iprop((loc c main_v8 ↦{fullShare} Fa 0) ∗ (loc c main_v9 ↦{fullShare} Fa 1)) := by
  rw [Pipeline.arrays_eq (Pipeline.pin (pcfgs (F := F)) adm) (pdats3 x y O W) 1 c launch3.arr_whole ((pdats3 x y O W 1 c).share_full fun _ => rfl) Fa, bigSep_W3]
  rfl

theorem arrAt3_in (c : Dev nD) : (pdats3 x y O W 1 c).arrAt 0 (Pipeline.pin (pcfgs (F := F)) adm 1).N = x := kept3 x y O W c
theorem arrAt3_out (c : Dev nD) : (pdats3 x y O W 1 c).arrAt 1 (Pipeline.pin (pcfgs (F := F)) adm 1).N = Cert.Spec.T3 (F := F) x := final3 x y O W c

/-- The region: the two arrays into the pipeline, nothing beside them; the thread owing `O` throughout, its staging
    waits at the kernel's own index, below everything owed. -/
def reg3 (hO : ∀ g, O g none = 0) :
    Pipeline.RegionSeg (pcfgs (F := F)) adm (pdats3 x y O W) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 x y O W c).loose
  hwaits c := Pipeline.cellsWaits_intro _ (pdats3 x y O W) none 1 c fun w s t => (K (F := F)).mayWait_none _ hO
  pre c := iprop((loc c main_v8 ↦{fullShare} x) ∗ (loc c main_v9 ↦{fullShare} y) ∗ owes (T c) O W)
  post c := iprop((loc c main_v8 ↦{fullShare} x) ∗ (loc c main_v9 ↦{fullShare} (Cert.Spec.T3 (F := F) x))
    ∗ ∃ W', ⌜∀ p ∈ W', p ∈ W ∨ p.2 = none⌝ ∗ owes (T c) O W')
  X _ := iprop(emp)
  Y _ := iprop(emp)
  Z _ := iprop(emp)
  hentry c := by
    rw [Pipeline.ownSems0_none, arrays3_eq]
    iintro ⟨⟨Hx, Hy, HO⟩, -, -⟩
    imodintro
    isplitl [Hx Hy]
    · isplitl [Hx]; · iexact Hx
      iexact Hy
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr; · iempintro
    iempintro
  hin c := by
    show iprop(iprop(emp) ∗ _ ∗ Pipeline.scopedRest spec3 c) ⊢ (Pipeline.scopedRest spec3 c : sProp (𝕄F F))
    iintro ⟨-, -, H⟩; iexact H
  hout c := by
    rw [Pipeline.ownSems0_none]
    show (Pipeline.scopedRest spec3 c : sProp (𝕄F F)) ⊢ iprop(iprop(emp) ∗ iprop(emp) ∗ Pipeline.scopedRest spec3 c)
    iintro H; isplitr; · iempintro
    isplitr; · iempintro
    iexact H
  hexit c := by
    rw [arrays3_eq, arrAt3_in, arrAt3_out]
    iintro ⟨⟨Hx, Hy⟩, HO, -, -⟩
    imodintro
    isplitl [Hx]; · iexact Hx
    isplitl [Hy]; · iexact Hy
    unfold Pipeline.Dat.owesAt Pipeline.owesWithin
    icases HO with ⟨%W', %hW', HO⟩
    iexists W'; isplitr
    · ipureintro
      intro p hp
      rcases hW' hp with h | ⟨w, s, rfl⟩
      · exact h
      · exact Or.inr rfl
    iexact HO

theorem reg3_pre (hO : ∀ g, O g none = 0) (c : Dev nD) : (reg3 x y O W hO).pre c
    = iprop((loc c main_v8 ↦{fullShare} x) ∗ (loc c main_v9 ↦{fullShare} y) ∗ owes (T c) O W) := rfl
theorem reg3_post (hO : ∀ g, O g none = 0) (c : Dev nD) : (reg3 x y O W hO).post c
    = iprop((loc c main_v8 ↦{fullShare} x) ∗ (loc c main_v9 ↦{fullShare} (Cert.Spec.T3 (F := F) x))
      ∗ ∃ W', ⌜∀ p ∈ W', p ∈ W ∨ p.2 = none⌝ ∗ owes (T c) O W') := rfl

set_option backward.isDefEq.respectTransparency.types false in
/-- The query transposing pallas_call, run from the boundary: the output array ends at the whole-array function of the
    gathered rows. -/
theorem wp_region1 (d : Dev nD) (x : FVec F Cert.Spec.SQ3 .f32) (O : CellTallies nD τ sig (HIx 2)) (W : Waits sig (HIx 2))
    (hO : ∀ g, O g none = 0) (Q : PUnit → sProp (𝕄F F)) :
    iprop((iprop(boundary (T d) ∗ (loc d main_v8 ↦{fullShare} x) ∗ (loc d main_v9 ↦{fullShare} (Cert.Spec.T3 (F := F) x))
            ∗ ∃ W', ⌜∀ p ∈ W', p ∈ W ∨ p.2 = none⌝ ∗ owes (T d) O W') -∗ Q ⟨⟩)
        ∗ boundary (T d) ∗ (loc d main_v8 ↦{fullShare} x) ∗ (∃ y, loc d main_v9 ↦{fullShare} y) ∗ owes (T d) O W
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (T d) none) Set.univ (Prog.lift (.customCall (Pipeline.entry 1) ())) Q := by
  iintro ⟨Hk, Hb, Hx, ⟨%y, Hy⟩, HO, Hl, Hg, Ht⟩
  have h := Pipeline.RegionSeg.wp (pcfgs (F := F)) adm (pdats3 x y O W) (none : HIx 2) Gen.cellOf_inj EP defs₀ 𝒱₀
    (K (F := F)).L (K (F := F)).lev (reg3 x y O W hO) d none (fun u hu => nomatch hu) (fun _ => .ret ⟨⟩) Q
  rw [reg3_pre, reg3_post] at h
  iapply h
  isplitl [Hk]
  · iintro ⟨Hb, Hx, Hy, HO⟩
    rw [wp_ret]
    imodintro
    iapply Hk
    isplitl [Hb]; · iexact Hb
    isplitl [Hx]; · iexact Hx
    isplitl [Hy]; · iexact Hy
    iexact HO
  isplitl [Hb]; · iexact Hb
  isplitl [Hx Hy HO]
  · isplitl [Hx]; · iexact Hx
    isplitl [Hy]; · iexact Hy
    iexact HO
  isplitl [Hl]; · iexact Hl
  isplitl [Hg]; · iexact Hg
  iexact Ht

end Cert.Kernel.Hand

end
-- ==== Proof.Bits.Region4Value.lean ====
/-
  The document transposing kernel's value: what a point writes back is its block of the whole-array function
  (e, l, b) ↦ x (b, l, e), and the twenty blocks cover the output array.
-/
import proofs.«218768_g80616536146796_cont_9to1c4b_775_25_alg».proof.Proof.Bits.Region4Body

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The body's payload at an index: entry (e, l, b) of the transposed block is entry (b, l, e) of the loaded block. -/
theorem pay4_apply (x0 : Vec F S256x40x128 .f32) (j : S64x40x256.Idx) :
    k4_pay1 x0 j = x0 (ix3 (j 2) (j 1) (⟨(j 0).val, Nat.lt_trans (j 0).isLt (by decide)⟩ : Fin 128)) := by
  have h0 : (j 0).val < 64 := (j 0).isLt
  unfold k4_pay1
  refine (extractStridedSlice_apply _ _ _ j (ix3 (⟨(j 0).val, Nat.lt_trans (j 0).isLt (by decide)⟩ : Fin 128) (j 1) (j 2)) (fun a => match a with
      | ⟨0, _⟩ => by show (j 0).val = 0 + (j 0).val; omega
      | ⟨1, _⟩ => by show (j 1).val = 0 + (j 1).val; omega
      | ⟨2, _⟩ => by show (j 2).val = 0 + (j 2).val; omega)).trans ?_
  refine (transpose_apply _ _ _ _ (ix3 (j 2) (j 1) (⟨(j 0).val, Nat.lt_trans (j 0).isLt (by decide)⟩ : Fin 128))
    (fun a => match a with | ⟨0, _⟩ => rfl | ⟨1, _⟩ => rfl | ⟨2, _⟩ => rfl)).trans ?_
  rw [shapeCast_self]
  rfl

/-- The printed index maps, decided over the grid: the input block's document and position indices are the output
    block's, on its last and middle axes; the lane axes are whole. -/
theorem idx_facts4 : ∀ t : Fin cfg4.N, win4_0.index t (0 : Fin 3) = win4_1.index t (2 : Fin 3)
    ∧ win4_0.index t (1 : Fin 3) = win4_1.index t (1 : Fin 3)
    ∧ win4_0.index t (2 : Fin 3) = 0 ∧ win4_1.index t (0 : Fin 3) = 0 :=
  (by decide +kernel : ∀ t : Fin grid4.N, _)

/-- Every block of the output array is some point's. -/
theorem idx_onto4 : ∀ (q1 : Fin 5) (q2 : Fin 4), ∃ t : Fin cfg4.N, win4_1.index t = ![0, q1.val, q2.val] :=
  (by decide +kernel : ∀ (q1 : Fin 5) (q2 : Fin 4), ∃ t : Fin grid4.N, win4_1.index t = ![0, q1.val, q2.val])

variable (x : FVec F Cert.Spec.SD3 .f32) (y : FVec F Cert.Spec.ST .f32) (O : CellTallies nD τ sig (HIx 2)) (W : Waits sig (HIx 2))

/-- What point `t` writes back is block `t` of the whole-array function. -/
theorem flushed4_eq (c : Dev nD) (t : Fin cfg4.N) :
    (dat4 x y O W c).flushed 1 t = ((cfg4.win 1).blk t).view.read (Elt F) (Cert.Spec.T4 (F := F) x) := by
  show (cfg4.win 1).cut (grid4.coords t) ((dat4 x y O W c).after 1 t) = _
  rw [after4_1]
  obtain ⟨e0, e1, e2, e3⟩ := idx_facts4 t
  funext j
  show k4_pay1 (iblk4 x t) j = Cert.Spec.T4 (F := F) x (((cfg4.win 1).blk t).view.emb j)
  refine (pay4_apply (iblk4 x t) j).trans ?_
  show x (((cfg4.win 0).blk t).view.emb (ix3 (j 2) (j 1) (⟨(j 0).val, _⟩ : Fin 128))) = x (ix3 ((((cfg4.win 1).blk t).view.emb j) 2) ((((cfg4.win 1).blk t).view.emb j) 1) (Cert.Spec.col ((((cfg4.win 1).blk t).view.emb j) 0)))
  refine congrArg x (funext fun a => Fin.ext ?_)
  have h0 : (j 0).val < 64 := (j 0).isLt
  match a with
  | ⟨0, _⟩ => show win4_0.index t (0 : Fin 3) * 256 + 1 * (j 2).val = win4_1.index t (2 : Fin 3) * 256 + 1 * (j 2).val; omega
  | ⟨1, _⟩ => show win4_0.index t (1 : Fin 3) * 40 + 1 * (j 1).val = win4_1.index t (1 : Fin 3) * 40 + 1 * (j 1).val; omega
  | ⟨2, _⟩ => show win4_0.index t (2 : Fin 3) * 128 + 1 * (j 0).val = win4_1.index t (0 : Fin 3) * 64 + 1 * (j 0).val; omega

/-- An index of the output array is in point `t`'s block iff each coordinate is in the block's range on its axis. -/
theorem mem_blk4 (t : Fin cfg4.N) (i : Cert.Spec.ST.Idx) :
    i ∈ ((cfg4.win 1).blk t).view.set ↔ ∀ a : Fin 3, win4_1.index t a * S64x40x256.size a ≤ (i a).val ∧ (i a).val < win4_1.index t a * S64x40x256.size a + S64x40x256.size a := by
  show i ∈ ((View.whole main_v11).slice (win4_1.rect t)).set ↔ _
  rw [View.set_slice_whole, Rect.mem_set_unit]
  exact Iff.rfl

/-- The blocks cover the output array: entry (e, l, b) lies in the block of positions l / 40 and documents b / 256. -/
theorem cover4_arr (i : Cert.Spec.ST.Idx) : ∃ t : Fin cfg4.N, (cfg4.win 1).flush t = true ∧ i ∈ ((cfg4.win 1).blk t).view.set := by
  have hi0 : (i 0).val < 64 := (i 0).isLt
  have hi1 : (i 1).val < 200 := (i 1).isLt
  have hi2 : (i 2).val < 1024 := (i 2).isLt
  obtain ⟨t, ht⟩ := idx_onto4 ⟨(i 1).val / 40, by omega⟩ ⟨(i 2).val / 256, by omega⟩
  have q0 : win4_1.index t (0 : Fin 3) = 0 := congrFun ht 0
  have q1 : win4_1.index t (1 : Fin 3) = (i 1).val / 40 := congrFun ht 1
  have q2 : win4_1.index t (2 : Fin 3) = (i 2).val / 256 := congrFun ht 2
  refine ⟨t, flush4_1 t, ?_⟩
  rw [mem_blk4]
  intro a
  match a with
  | ⟨0, _⟩ => show win4_1.index t (0 : Fin 3) * 64 ≤ (i 0).val ∧ (i 0).val < win4_1.index t (0 : Fin 3) * 64 + 64; omega
  | ⟨1, _⟩ => show win4_1.index t (1 : Fin 3) * 40 ≤ (i 1).val ∧ (i 1).val < win4_1.index t (1 : Fin 3) * 40 + 40; omega
  | ⟨2, _⟩ => show win4_1.index t (2 : Fin 3) * 256 ≤ (i 2).val ∧ (i 2).val < win4_1.index t (2 : Fin 3) * 256 + 256; omega

/-- The output array after the last point: the whole-array function of the input. -/
theorem final4 (c : Dev nD) : (dat4 x y O W c).arrAt 1 cfg4.N = Cert.Spec.T4 (F := F) x :=
  (dat4 x y O W c).arrAt_eq_of_cover 1 (Cert.Spec.T4 (F := F) x) (fun t _ => flushed4_eq x y O W c t) cover4_arr

/-- The input array is never written. -/
theorem kept4 (c : Dev nD) : (dat4 x y O W c).arrAt 0 cfg4.N = x :=
  ((dat4 x y O W c).arrAt_in 0 rfl _).trans (A4_0 x y O W c)

end Cert.Kernel.Hand

end
-- ==== Proof.Bits.Region4.lean ====
/-
  The document transposing pallas_call as one step of the TensorCore's @main: entered with the gathered rows `x` in its
  input array, it leaves the output array at the whole-array function (e, l, b) ↦ x (b, l, e), the input as it was, and
  the thread owing what it owed, its recorded waits grown only by waits at the kernel's own index.
-/
import proofs.«218768_g80616536146796_cont_9to1c4b_775_25_alg».proof.Proof.Bits.Region4Value

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (x : FVec F Cert.Spec.SD3 .f32) (y : FVec F Cert.Spec.ST .f32) (O : CellTallies nD τ sig (HIx 2)) (W : Waits sig (HIx 2))

/-- The three pipelines' proof data: the document transposing pipeline's, and nothing named for the other two. -/
def pdats4 : (p : Fin 3) → (c : Dev nD) → Dat τ (Elt F) (HIx 2) ℕ UU ℕ (Pipeline.pin (pcfgs (F := F)) adm p) c
  | ⟨0, _⟩ => anyDat _
  | ⟨1, _⟩ => anyDat _
  | ⟨2, _⟩ => dat4 x y O W
  | ⟨_ + 3, h⟩ => absurd h (Nat.not_lt.2 (Nat.le_add_left _ _))

/-- The pipeline's two arrays at contents `Fa` are the gathered rows' array and the output array held. -/
theorem arrays4_eq (c : Dev nD) (Fa) : ((pdats4 x y O W 2 c).arrays Fa : sProp (𝕄F F))
    = iprop((loc c main_v10 ↦{fullShare} Fa 0) ∗ (loc c main_v11 ↦{fullShare} Fa 1)) := by
  rw [Pipeline.arrays_eq (Pipeline.pin (pcfgs (F := F)) adm) (pdats4 x y O W) 2 c launch4.arr_whole ((pdats4 x y O W 2 c).share_full fun _ => rfl) Fa, bigSep_W4]
  rfl

theorem arrAt4_in (c : Dev nD) : (pdats4 x y O W 2 c).arrAt 0 (Pipeline.pin (pcfgs (F := F)) adm 2).N = x := kept4 x y O W c
theorem arrAt4_out (c : Dev nD) : (pdats4 x y O W 2 c).arrAt 1 (Pipeline.pin (pcfgs (F := F)) adm 2).N = Cert.Spec.T4 (F := F) x := final4 x y O W c

/-- The region: the two arrays into the pipeline, nothing beside them; the thread owing `O` throughout, its staging
    waits at the kernel's own index, below everything owed. -/
def reg4 (hO : ∀ g, O g none = 0) :
    Pipeline.RegionSeg (pcfgs (F := F)) adm (pdats4 x y O W) (none : HIx 2) defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 x y O W c).loose
  hwaits c := Pipeline.cellsWaits_intro _ (pdats4 x y O W) none 2 c fun w s t => (K (F := F)).mayWait_none _ hO
  pre c := iprop((loc c main_v10 ↦{fullShare} x) ∗ (loc c main_v11 ↦{fullShare} y) ∗ owes (T c) O W)
  post c := iprop((loc c main_v10 ↦{fullShare} x) ∗ (loc c main_v11 ↦{fullShare} (Cert.Spec.T4 (F := F) x))
    ∗ ∃ W', ⌜∀ p ∈ W', p ∈ W ∨ p.2 = none⌝ ∗ owes (T c) O W')
  X _ := iprop(emp)
  Y _ := iprop(emp)
  Z _ := iprop(emp)
  hentry c := by
    rw [Pipeline.ownSems0_none, arrays4_eq]
    iintro ⟨⟨Hx, Hy, HO⟩, -, -⟩
    imodintro
    isplitl [Hx Hy]
    · isplitl [Hx]; · iexact Hx
      iexact Hy
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr; · iempintro
    iempintro
  hin c := by
    show iprop(iprop(emp) ∗ _ ∗ Pipeline.scopedRest spec4 c) ⊢ (Pipeline.scopedRest spec4 c : sProp (𝕄F F))
    iintro ⟨-, -, H⟩; iexact H
  hout c := by
    rw [Pipeline.ownSems0_none]
    show (Pipeline.scopedRest spec4 c : sProp (𝕄F F)) ⊢ iprop(iprop(emp) ∗ iprop(emp) ∗ Pipeline.scopedRest spec4 c)
    iintro H; isplitr; · iempintro
    isplitr; · iempintro
    iexact H
  hexit c := by
    rw [arrays4_eq, arrAt4_in, arrAt4_out]
    iintro ⟨⟨Hx, Hy⟩, HO, -, -⟩
    imodintro
    isplitl [Hx]; · iexact Hx
    isplitl [Hy]; · iexact Hy
    unfold Pipeline.Dat.owesAt Pipeline.owesWithin
    icases HO with ⟨%W', %hW', HO⟩
    iexists W'; isplitr
    · ipureintro
      intro p hp
      rcases hW' hp with h | ⟨w, s, rfl⟩
      · exact h
      · exact Or.inr rfl
    iexact HO

theorem reg4_pre (hO : ∀ g, O g none = 0) (c : Dev nD) : (reg4 x y O W hO).pre c
    = iprop((loc c main_v10 ↦{fullShare} x) ∗ (loc c main_v11 ↦{fullShare} y) ∗ owes (T c) O W) := rfl
theorem reg4_post (hO : ∀ g, O g none = 0) (c : Dev nD) : (reg4 x y O W hO).post c
    = iprop((loc c main_v10 ↦{fullShare} x) ∗ (loc c main_v11 ↦{fullShare} (Cert.Spec.T4 (F := F) x))
      ∗ ∃ W', ⌜∀ p ∈ W', p ∈ W ∨ p.2 = none⌝ ∗ owes (T c) O W') := rfl

set_option backward.isDefEq.respectTransparency.types false in
/-- The document transposing pallas_call, run from the boundary: the output array ends at the whole-array function of the
    gathered rows. -/
theorem wp_region2 (d : Dev nD) (x : FVec F Cert.Spec.SD3 .f32) (O : CellTallies nD τ sig (HIx 2)) (W : Waits sig (HIx 2))
    (hO : ∀ g, O g none = 0) (Q : PUnit → sProp (𝕄F F)) :
    iprop((iprop(boundary (T d) ∗ (loc d main_v10 ↦{fullShare} x) ∗ (loc d main_v11 ↦{fullShare} (Cert.Spec.T4 (F := F) x))
            ∗ ∃ W', ⌜∀ p ∈ W', p ∈ W ∨ p.2 = none⌝ ∗ owes (T d) O W') -∗ Q ⟨⟩)
        ∗ boundary (T d) ∗ (loc d main_v10 ↦{fullShare} x) ∗ (∃ y, loc d main_v11 ↦{fullShare} y) ∗ owes (T d) O W
        ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE (D (F := F)) 𝒱 (T d) none) Set.univ (Prog.lift (.customCall (Pipeline.entry 2) ())) Q := by
  iintro ⟨Hk, Hb, Hx, ⟨%y, Hy⟩, HO, Hl, Hg, Ht⟩
  have h := Pipeline.RegionSeg.wp (pcfgs (F := F)) adm (pdats4 x y O W) (none : HIx 2) Gen.cellOf_inj EP defs₀ 𝒱₀
    (K (F := F)).L (K (F := F)).lev (reg4 x y O W hO) d none (fun u hu => nomatch hu) (fun _ => .ret ⟨⟩) Q
  rw [reg4_pre, reg4_post] at h
  iapply h
  isplitl [Hk]
  · iintro ⟨Hb, Hx, Hy, HO⟩
    rw [wp_ret]
    imodintro
    iapply Hk
    isplitl [Hb]; · iexact Hb
    isplitl [Hx]; · iexact Hx
    isplitl [Hy]; · iexact Hy
    iexact HO
  isplitl [Hb]; · iexact Hb
  isplitl [Hx Hy HO]
  · isplitl [Hx]; · iexact Hx
    isplitl [Hy]; · iexact Hy
    iexact HO
  isplitl [Hl]; · iexact Hl
  isplitl [Hg]; · iexact Hg
  iexact Ht

end Cert.Kernel.Hand

end
-- ==== Proof.Bits.ScSplit.lean ====
/-
  How the arrays of the two SparseCore calls split, and how the results join back.

  Both calls are handed, whole, the re-laid table and an index array (only read) and an output array (written). The two
  SparseCores each take a half of the full share of the two arrays read, and a SparseCore deals its half to its sixteen
  subcores as sixteen read tokens, keeping what is left of the half aside until the tokens come back. The tokens of the
  table come back at contents of the subcores' choosing (the table travels under an existential): the part kept aside,
  held beside each token, pins those contents to what went out, so the half is whole again at one contents; the same
  between the two halves.

  The output array's rows are dealt by worker: worker w = subcore * 2 + SparseCore owns rows [w * len, w * len + len),
  len = 640 of 20480 rows for call 0 and len = 6400 of 204800 rows for call 1. The 32 windows are pairwise disjoint
  (distinct multiples of len, len apart) and cover every row (row r lies in the window of worker r / len, which is
  subcore r / len / 2 of SparseCore r / len % 2), so the whole array is its 32 pieces. Coming back, the pieces are held at
  32 contents, each holding in its own window the table rows its tokens name; the array is whole at contents that agree
  with each piece's on its window, hence hold in every row the table row that row's token names.
-/
import proofs.«218768_g80616536146796_cont_9to1c4b_775_25_alg».proof.Proof.Bits.ScPay

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The workers' row ranges tile the rows -/

/-- Worker numbers are distinct for distinct (SparseCore, subcore) pairs. -/
theorem wid_ne {p p' : Fin 2 × Fin 16} (h : p ≠ p') : wid p.1.val p.2.val ≠ wid p'.1.val p'.2.val := by
  intro e; apply h
  have h1 := p.1.isLt; have h2 := p'.1.isLt
  unfold wid at e
  exact Prod.ext (Fin.ext (by omega)) (Fin.ext (by omega))

/-- Windows of len rows at distinct multiples of len do not meet. -/
theorem rows_disjoint (n len : ℕ) {w w' : ℕ} (h : w ≠ w') : Disjoint (rowsOf n (w * len) len) (rowsOf n (w' * len) len) := by
  rw [Finset.disjoint_left]
  intro x hx hx'
  rw [mem_rowsOf] at hx hx'
  rcases Nat.lt_or_gt_of_ne h with h | h
  · have := Nat.mul_le_mul_right len (Nat.succ_le_of_lt h)
    rw [Nat.succ_mul] at this; omega
  · have := Nat.mul_le_mul_right len (Nat.succ_le_of_lt h)
    rw [Nat.succ_mul] at this; omega

/-- The worker whose window holds row r < 32 * len. -/
def owner (len r : ℕ) : Fin 2 × Fin 16 := (⟨r / len % 2, Nat.mod_lt _ (by decide)⟩, ⟨r / len / 2 % 16, Nat.mod_lt _ (by decide)⟩)

theorem owner_spec {len r : ℕ} (hlen : 0 < len) (hr : r < 32 * len) :
    wid (owner len r).1.val (owner len r).2.val * len ≤ r ∧ r < wid (owner len r).1.val (owner len r).2.val * len + len := by
  have hw : r / len < 32 := Nat.div_lt_of_lt_mul (by rw [Nat.mul_comm]; exact hr)
  have e : wid (owner len r).1.val (owner len r).2.val = r / len := by
    show r / len / 2 % 16 * 2 + r / len % 2 = r / len
    generalize r / len = w at hw ⊢
    omega
  rw [e]
  exact ⟨Nat.div_mul_le_self r len, Nat.lt_div_mul_add hlen⟩

/-! ## Read shares of one array held side by side -/

section Shares

variable {ℓ : Loc nD τ sig}

/-- A points-to held beside another of the same array pins the other's contents to its own. -/
theorem pointsTo_same (q₁ q₂ : PosShare TreeShare) (f g : Buf (Elt F) ℓ) :
    iprop((ℓ ↦{q₁} f) ∗ (ℓ ↦{q₂} g)) ⊢ (iprop((ℓ ↦{q₁} f) ∗ (ℓ ↦{q₂} f)) : sProp (𝕄F F)) := by
  refine Laws.pure_elim _ pointsTo_agree fun h => ?_
  have e : g = f := funext fun i => ((h i (Finset.mem_inter.mpr ⟨Finset.mem_univ i, Finset.mem_univ i⟩)).1).symm
  rw [e]

/-- Read shares handed back at contents of their holders' choosing are at the contents of the share kept. -/
theorem toks_agree {ι : Type} [DecidableEq ι] (s : Finset ι) (q₀ : PosShare TreeShare) (sh : ι → PosShare TreeShare) (f : Buf (Elt F) ℓ)
    (φ : Buf (Elt F) ℓ → Prop) :
    iprop((ℓ ↦{q₀} f) ∗ bigSep s fun i => iprop(∃ g, ⌜φ g⌝ ∗ (ℓ ↦{sh i} g)))
      ⊢ (iprop((ℓ ↦{q₀} f) ∗ bigSep s fun i => (ℓ ↦{sh i} f)) : sProp (𝕄F F)) := by
  induction s using Finset.induction_on with
  | empty => rw [bigSep_empty, bigSep_empty]
  | insert a s ha ih =>
    rw [SparseCore.bigSep_insert' ha, SparseCore.bigSep_insert' ha]
    iintro ⟨H0, ⟨%g, -, Ha⟩, Hs⟩
    ihave H := (pointsTo_same q₀ (sh a) f g) $$ [H0 Ha]
    · isplitl [H0] <;> iassumption
    icases H with ⟨H0, Ha⟩
    ihave H := ih $$ [H0 Hs]
    · isplitl [H0] <;> iassumption
    icases H with ⟨H0, Hs⟩
    isplitl [H0]; · iexact H0
    isplitl [Ha] <;> iassumption

/-- The full share is the two SparseCores' halves. -/
theorem pointsTo_halves (f : Buf (Elt F) ℓ) :
    (ℓ ↦{fullShare} f : sProp (𝕄F F)) ⊣⊢ iprop((ℓ ↦{cSh 0} f) ∗ (ℓ ↦{cSh 1} f)) := by
  rw [cSh_zero, cSh_one]; exact pointsTo_share (PosShare.mem_left_op_right fullShare)

/-- A SparseCore's share dealt as its sixteen subcores' read tokens (what is left of the share is kept aside), and collected. -/
theorem toks_split (c : ℕ) (f : Buf (Elt F) ℓ) :
    (ℓ ↦{cSh c} f : sProp (𝕄F F)) ⊢ iprop((ℓ ↦{Transfers.shareDrop (cSh c) 16} f) ∗ bigSep Finset.univ fun i : Fin 16 => (ℓ ↦{tSh c i.val} f)) :=
  Transfers.pointsTo_toks_split (cSh c) 16
theorem toks_join (c : ℕ) (f : Buf (Elt F) ℓ) :
    iprop((ℓ ↦{Transfers.shareDrop (cSh c) 16} f) ∗ bigSep Finset.univ fun i : Fin 16 => (ℓ ↦{tSh c i.val} f)) ⊢ (ℓ ↦{cSh c} f : sProp (𝕄F F)) :=
  Transfers.pointsTo_toks_join (cSh c) 16

end Shares

/-- Summand by summand. -/
theorem bigSep_mono' {I : Type} {s : Finset I} {Φ Ψ : I → sProp (𝕄F F)} (h : ∀ i ∈ s, Φ i ⊢ Ψ i) : bigSep s Φ ⊢ bigSep s Ψ := bigSep_mono h

/-! ## A whole array as its workers' pieces -/

section Pieces

variable {ℓ : Loc nD τ sig} (Kp : Fin 2 × Fin 16 → Finset (Idx ℓ))
  (hdisj : ∀ p ∈ (Finset.univ : Finset (Fin 2 × Fin 16)), ∀ p' ∈ (Finset.univ : Finset (Fin 2 × Fin 16)), p ≠ p' → Disjoint (Kp p) (Kp p'))
  (hcover : (Finset.univ : Finset (Fin 2 × Fin 16)).biUnion Kp = Finset.univ)

include hdisj hcover

/-- Held whole at one contents, it is its pieces at those contents. -/
theorem whole_pieces (g : Buf (Elt F) ℓ) :
    (ℓ ↦{fullShare} g : sProp (𝕄F F)) = bigSep Finset.univ fun c : Fin 2 => bigSep Finset.univ fun i : Fin 16 => ℓ ↦[Kp (c, i)]{fullShare} g := by
  rw [← bigSep_univ_prod (fun p : Fin 2 × Fin 16 => (ℓ ↦[Kp p]{fullShare} g : sProp (𝕄F F))), ← pointsTo_biUnion Finset.univ Kp hdisj, hcover]

/-- Its pieces, each at contents of its holder's choosing with some fact known of them, are the whole at contents that agree
    with each holder's on its piece. -/
theorem pieces_whole (g₀ : Buf (Elt F) ℓ) (φ : Fin 2 × Fin 16 → Buf (Elt F) ℓ → Prop) :
    (bigSep Finset.univ fun c : Fin 2 => bigSep Finset.univ fun i : Fin 16 => iprop(∃ g, ⌜φ (c, i) g⌝ ∗ (ℓ ↦[Kp (c, i)]{fullShare} g)))
      ⊢ (iprop(∃ g, ⌜∀ p, ∃ g', φ p g' ∧ ∀ x ∈ Kp p, g x = g' x⌝ ∗ (ℓ ↦{fullShare} g)) : sProp (𝕄F F)) := by
  haveI : Nonempty (Buf (Elt F) ℓ) := ⟨g₀⟩
  rw [← bigSep_univ_prod (fun p : Fin 2 × Fin 16 => (iprop(∃ g, ⌜φ p g⌝ ∗ (ℓ ↦[Kp p]{fullShare} g)) : sProp (𝕄F F)))]
  refine (bigSep_exists_pi Finset.univ (fun p (g : Buf (Elt F) ℓ) => (iprop(⌜φ p g⌝ ∗ (ℓ ↦[Kp p]{fullShare} g)) : sProp (𝕄F F)))).trans ?_
  iintro ⟨%gs, H⟩
  ihave H := (bigSep_pure_sep Finset.univ (fun p => φ p (gs p)) (fun p => (ℓ ↦[Kp p]{fullShare} gs p : sProp (𝕄F F)))) $$ H
  icases H with ⟨%hφ, H⟩
  ihave H := (pointsTo_biUnion_join (q := fullShare) Finset.univ Kp gs g₀ hdisj) $$ H
  icases H with ⟨%g, %hg, H⟩
  rw [hcover]
  iexists g
  isplitr
  · ipureintro; intro p; exact ⟨gs p, hφ p (Finset.mem_univ p), hg p (Finset.mem_univ p)⟩
  iexact H

end Pieces

variable (m : (ℓ : Loc nD τ sig) → Buf (Elt F) ℓ)

variable [FloatOps F]

/-! ## The table between a SparseCore and its sixteen subcores -/

/-- A SparseCore's share of the table dealt as its subcores' read tokens, and collected again: the tokens come back at
    contents of the subcores' choosing, which the part of the share kept aside pins to what went out. -/
theorem tab_deal (d : Dev nD) (c : ℕ) :
    tabAt m d (cSh c) ⊢ iprop((bigSep Finset.univ fun i : Fin 16 => tabAt m d (tSh c i.val))
      ∗ ((bigSep Finset.univ fun i : Fin 16 => tabAt m d (tSh c i.val)) -∗ tabAt m d (cSh c))) := by
  unfold tabAt
  iintro ⟨%f, %hf, H⟩
  ihave H := (toks_split c f) $$ H
  icases H with ⟨Hd, Ht⟩
  isplitl [Ht]
  · have h1 : ∀ i ∈ (Finset.univ : Finset (Fin 16)), (loc d main_v1 ↦{tSh c i.val} f : sProp (𝕄F F))
        ⊢ iprop(∃ f : Buf (Elt F) (loc d main_v1), ⌜Cert.Spec.Tab2OK (m (loc d main_arg2)) f⌝ ∗ (loc d main_v1 ↦{tSh c i.val} f)) := by
      intro i _
      iintro H; iexists f
      isplitr; · ipureintro; exact hf
      iexact H
    iapply (bigSep_mono' h1) $$ Ht
  iintro Ht
  ihave H := (toks_agree Finset.univ (Transfers.shareDrop (cSh c) 16) (fun i : Fin 16 => tSh c i.val) f (Cert.Spec.Tab2OK (m (loc d main_arg2)))) $$ [Hd Ht]
  · isplitl [Hd] <;> iassumption
  iexists f
  isplitr; · ipureintro; exact hf
  iapply (toks_join c f)
  iexact H

/-! ## Call 0 -/

theorem vecSplit0 : (K (F := F)).VecSplit' (P m) 0 := by
  intro d c
  show st0 m d c.val ⊢ |={Set.univ}=> iprop((bigSep Finset.univ fun i : Fin 16 => go0 m d c.val i.val)
    ∗ ((bigSep Finset.univ fun i : Fin 16 => td0 m d c.val i.val) -∗ dn0 m d c.val))
  unfold st0 go0 td0 dn0
  rw [bigSep_sep', bigSep_sep', bigSep_sep', bigSep_sep']
  iintro ⟨Ht, Hx, Ho⟩
  ihave Ht := (tab_deal m d c.val) $$ Ht
  icases Ht with ⟨Ht, Htj⟩
  ihave Hx := (toks_split c.val (idx3 m d)) $$ Hx
  icases Hx with ⟨Hxd, Hx⟩
  imodintro
  isplitl [Ht Hx Ho]
  · isplitl [Ht]; · iexact Ht
    isplitl [Hx]; · iexact Hx
    iexact Ho
  iintro ⟨Ht, Hx, Ho⟩
  isplitl [Htj Ht]; · iapply Htj; iexact Ht
  isplitl [Hxd Hx]
  · iapply (toks_join c.val (idx3 m d))
    isplitl [Hxd] <;> iassumption
  iexact Ho

/-- The pieces of main_v4, by (SparseCore, subcore). -/
def Kp0 (d : Dev nD) : Fin 2 × Fin 16 → Finset (Idx (loc d main_v4)) := fun p => task0 p.1.val p.2.val

omit [FloatOps F] in
theorem Kp0_disj (d : Dev nD) : ∀ p ∈ (Finset.univ : Finset (Fin 2 × Fin 16)), ∀ p' ∈ (Finset.univ : Finset (Fin 2 × Fin 16)),
    p ≠ p' → Disjoint (Kp0 d p) (Kp0 d p') :=
  fun _ _ _ _ h => rows_disjoint 20480 640 (wid_ne h)

omit [FloatOps F] in
theorem Kp0_cover (d : Dev nD) : (Finset.univ : Finset (Fin 2 × Fin 16)).biUnion (Kp0 d) = Finset.univ :=
  Finset.eq_univ_iff_forall.mpr fun (x : (⟨2, ![20480, 128]⟩ : Shape).Idx) => Finset.mem_biUnion.mpr
    ⟨owner 640 (x 0).val, Finset.mem_univ _, mem_rowsOf.mpr (owner_spec (by decide) (show (x 0).val < 32 * 640 from (x 0).isLt))⟩

/-- main_v4 whole, at any contents, is the two SparseCores' sixteen pieces each, at any contents. -/
theorem out_pieces0 (d : Dev nD) :
    (iprop(∃ g, (loc d main_v4 ↦{fullShare} g)) : sProp (𝕄F F))
      ⊢ iprop((bigSep Finset.univ fun i : Fin 16 => iprop(∃ g : Buf (Elt F) (loc d main_v4), (loc d main_v4 ↦[task0 0 i.val]{fullShare} g)))
        ∗ (bigSep Finset.univ fun i : Fin 16 => iprop(∃ g : Buf (Elt F) (loc d main_v4), (loc d main_v4 ↦[task0 1 i.val]{fullShare} g)))) := by
  refine BIBase.Entails.trans ?_ (Entails.of_eq (bigSep_univ_two fun c : Fin 2 =>
    bigSep Finset.univ fun i : Fin 16 => (iprop(∃ g : Buf (Elt F) (loc d main_v4), (loc d main_v4 ↦[task0 c.val i.val]{fullShare} g)) : sProp (𝕄F F))))
  iintro ⟨%g, H⟩
  ihave H := (Entails.of_eq (whole_pieces (F := F) (Kp0 d) (Kp0_disj d) (Kp0_cover d) g)) $$ H
  have h1 : ∀ c ∈ (Finset.univ : Finset (Fin 2)), ∀ i ∈ (Finset.univ : Finset (Fin 16)),
      (loc d main_v4 ↦[Kp0 d (c, i)]{fullShare} g : sProp (𝕄F F))
        ⊢ iprop(∃ g : Buf (Elt F) (loc d main_v4), (loc d main_v4 ↦[task0 c.val i.val]{fullShare} g)) := by
    intro c _ i _
    iintro H; iexists g; iexact H
  iapply (bigSep_mono' fun c hc => bigSep_mono' (h1 c hc)) $$ H

/-- What call 0 is handed. -/
theorem st_intro0 (d : Dev nD) (f : Buf (Elt F) (loc d main_v1)) (hf : Cert.Spec.Tab2OK (m (loc d main_arg2)) f) :
    iprop((loc d main_v1 ↦{fullShare} f) ∗ (loc d main_v3 ↦{fullShare} idx3 m d) ∗ ∃ g, loc d main_v4 ↦{fullShare} g)
      ⊢ bigSep Finset.univ fun c : Fin ((K (F := F)).nCore 0) => (P m).st 0 d c := by
  show _ ⊢ bigSep (Finset.univ : Finset (Fin 2)) fun c => st0 m d c.val
  rw [bigSep_univ_two]
  show _ ⊢ iprop(st0 m d 0 ∗ st0 m d 1)
  unfold st0 tabAt
  iintro ⟨Ht, Hx, Ho⟩
  ihave Ht := (pointsTo_halves f).1 $$ Ht
  icases Ht with ⟨Ht0, Ht1⟩
  ihave Hx := (pointsTo_halves (idx3 m d)).1 $$ Hx
  icases Hx with ⟨Hx0, Hx1⟩
  ihave Ho := (out_pieces0 d) $$ Ho
  icases Ho with ⟨Ho0, Ho1⟩
  isplitl [Ht0 Hx0 Ho0]
  · isplitl [Ht0]
    · iexists f
      isplitr; · ipureintro; exact hf
      iexact Ht0
    isplitl [Hx0]; · iexact Hx0
    iexact Ho0
  · isplitl [Ht1]
    · iexists f
      isplitr; · ipureintro; exact hf
      iexact Ht1
    isplitl [Hx1]; · iexact Hx1
    iexact Ho1

/-- The two SparseCores' pieces of main_v4, each holding the rows its worker's tokens name, are main_v4 whole holding
    the rows all the tokens name. -/
theorem out_whole0 (d : Dev nD) :
    iprop((bigSep Finset.univ fun i : Fin 16 => iprop(∃ g : Buf (Elt F) (loc d main_v4),
          ⌜RowsDone (Cert.Spec.qTok (m (loc d main_arg0))) (m (loc d main_arg2)) (wid 0 i.val * 640) 640 g⌝ ∗ (loc d main_v4 ↦[task0 0 i.val]{fullShare} g)))
        ∗ (bigSep Finset.univ fun i : Fin 16 => iprop(∃ g : Buf (Elt F) (loc d main_v4),
          ⌜RowsDone (Cert.Spec.qTok (m (loc d main_arg0))) (m (loc d main_arg2)) (wid 1 i.val * 640) 640 g⌝ ∗ (loc d main_v4 ↦[task0 1 i.val]{fullShare} g))))
      ⊢ (iprop(∃ g : Buf (Elt F) (loc d main_v4), ⌜Cert.Spec.RowsOK (Cert.Spec.qTok (m (loc d main_arg0))) (m (loc d main_arg2)) g⌝
          ∗ (loc d main_v4 ↦{fullShare} g)) : sProp (𝕄F F)) := by
  refine (Entails.of_eq (bigSep_univ_two fun c : Fin 2 => bigSep Finset.univ fun i : Fin 16 =>
    (iprop(∃ g : Buf (Elt F) (loc d main_v4),
      ⌜RowsDone (Cert.Spec.qTok (m (loc d main_arg0))) (m (loc d main_arg2)) (wid c.val i.val * 640) 640 g⌝
        ∗ (loc d main_v4 ↦[task0 c.val i.val]{fullShare} g)) : sProp (𝕄F F))).symm).trans ?_
  refine (pieces_whole (F := F) (Kp0 d) (Kp0_disj d) (Kp0_cover d) (m (loc d main_v4))
    (fun p g => RowsDone (Cert.Spec.qTok (m (loc d main_arg0))) (m (loc d main_arg2)) (wid p.1.val p.2.val * 640) 640 g)).trans ?_
  iintro ⟨%g, %h, H⟩
  iexists g
  isplitr
  · ipureintro
    intro r e
    obtain ⟨g', hg', hx⟩ := h (owner 640 r.val)
    have hs := owner_spec (len := 640) (by decide) (show r.val < 32 * 640 from r.isLt)
    rw [hx (ix2 r (Cert.Spec.col e)) (mem_rowsOf.mpr hs)]
    exact hg' r e hs.1 hs.2
  iexact H

/-- What call 0 hands back. -/
theorem dn_elim0 (d : Dev nD) :
    (bigSep Finset.univ fun c : Fin ((K (F := F)).nCore 0) => (P m).dn 0 d c)
      ⊢ iprop(∃ f g, ⌜Cert.Spec.Tab2OK (m (loc d main_arg2)) f ∧ Cert.Spec.RowsOK (Cert.Spec.qTok (m (loc d main_arg0))) (m (loc d main_arg2)) g⌝
          ∗ (loc d main_v1 ↦{fullShare} f) ∗ (loc d main_v3 ↦{fullShare} idx3 m d) ∗ (loc d main_v4 ↦{fullShare} g)) := by
  show (bigSep (Finset.univ : Finset (Fin 2)) fun c => dn0 m d c.val) ⊢ _
  rw [bigSep_univ_two]
  show iprop(dn0 m d 0 ∗ dn0 m d 1) ⊢ _
  unfold dn0 tabAt
  iintro ⟨⟨⟨%f0, %hf0, Ht0⟩, Hx0, Ho0⟩, ⟨%f1, -, Ht1⟩, Hx1, Ho1⟩
  ihave Ht := (pointsTo_same (cSh 0) (cSh 1) f0 f1) $$ [Ht0 Ht1]
  · isplitl [Ht0] <;> iassumption
  ihave Ht := (pointsTo_halves f0).2 $$ Ht
  ihave Hx := (pointsTo_halves (idx3 m d)).2 $$ [Hx0 Hx1]
  · isplitl [Hx0] <;> iassumption
  ihave Ho := (out_whole0 m d) $$ [Ho0 Ho1]
  · isplitl [Ho0] <;> iassumption
  icases Ho with ⟨%g, %hg, Ho⟩
  iexists f0; iexists g
  isplitr; · ipureintro; exact ⟨hf0, hg⟩
  isplitl [Ht]; · iexact Ht
  isplitl [Hx]; · iexact Hx
  iexact Ho

/-! ## Call 1 -/

theorem vecSplit1 : (K (F := F)).VecSplit' (P m) 1 := by
  intro d c
  show st1 m d c.val ⊢ |={Set.univ}=> iprop((bigSep Finset.univ fun i : Fin 16 => go1 m d c.val i.val)
    ∗ ((bigSep Finset.univ fun i : Fin 16 => td1 m d c.val i.val) -∗ dn1 m d c.val))
  unfold st1 go1 td1 dn1
  rw [bigSep_sep', bigSep_sep', bigSep_sep', bigSep_sep']
  iintro ⟨Ht, Hx, Ho⟩
  ihave Ht := (tab_deal m d c.val) $$ Ht
  icases Ht with ⟨Ht, Htj⟩
  ihave Hx := (toks_split c.val (idx6 m d)) $$ Hx
  icases Hx with ⟨Hxd, Hx⟩
  imodintro
  isplitl [Ht Hx Ho]
  · isplitl [Ht]; · iexact Ht
    isplitl [Hx]; · iexact Hx
    iexact Ho
  iintro ⟨Ht, Hx, Ho⟩
  isplitl [Htj Ht]; · iapply Htj; iexact Ht
  isplitl [Hxd Hx]
  · iapply (toks_join c.val (idx6 m d))
    isplitl [Hxd] <;> iassumption
  iexact Ho

/-- The pieces of main_v7, by (SparseCore, subcore). -/
def Kp1 (d : Dev nD) : Fin 2 × Fin 16 → Finset (Idx (loc d main_v7)) := fun p => task1 p.1.val p.2.val

omit [FloatOps F] in
theorem Kp1_disj (d : Dev nD) : ∀ p ∈ (Finset.univ : Finset (Fin 2 × Fin 16)), ∀ p' ∈ (Finset.univ : Finset (Fin 2 × Fin 16)),
    p ≠ p' → Disjoint (Kp1 d p) (Kp1 d p') :=
  fun _ _ _ _ h => rows_disjoint 204800 6400 (wid_ne h)

omit [FloatOps F] in
theorem Kp1_cover (d : Dev nD) : (Finset.univ : Finset (Fin 2 × Fin 16)).biUnion (Kp1 d) = Finset.univ :=
  Finset.eq_univ_iff_forall.mpr fun (x : (⟨2, ![204800, 128]⟩ : Shape).Idx) => Finset.mem_biUnion.mpr
    ⟨owner 6400 (x 0).val, Finset.mem_univ _, mem_rowsOf.mpr (owner_spec (by decide) (show (x 0).val < 32 * 6400 from (x 0).isLt))⟩

/-- main_v7 whole, at any contents, is the two SparseCores' sixteen pieces each, at any contents. -/
theorem out_pieces1 (d : Dev nD) :
    (iprop(∃ g, (loc d main_v7 ↦{fullShare} g)) : sProp (𝕄F F))
      ⊢ iprop((bigSep Finset.univ fun i : Fin 16 => iprop(∃ g : Buf (Elt F) (loc d main_v7), (loc d main_v7 ↦[task1 0 i.val]{fullShare} g)))
        ∗ (bigSep Finset.univ fun i : Fin 16 => iprop(∃ g : Buf (Elt F) (loc d main_v7), (loc d main_v7 ↦[task1 1 i.val]{fullShare} g)))) := by
  refine BIBase.Entails.trans ?_ (Entails.of_eq (bigSep_univ_two fun c : Fin 2 =>
    bigSep Finset.univ fun i : Fin 16 => (iprop(∃ g : Buf (Elt F) (loc d main_v7), (loc d main_v7 ↦[task1 c.val i.val]{fullShare} g)) : sProp (𝕄F F))))
  iintro ⟨%g, H⟩
  ihave H := (Entails.of_eq (whole_pieces (F := F) (Kp1 d) (Kp1_disj d) (Kp1_cover d) g)) $$ H
  have h1 : ∀ c ∈ (Finset.univ : Finset (Fin 2)), ∀ i ∈ (Finset.univ : Finset (Fin 16)),
      (loc d main_v7 ↦[Kp1 d (c, i)]{fullShare} g : sProp (𝕄F F))
        ⊢ iprop(∃ g : Buf (Elt F) (loc d main_v7), (loc d main_v7 ↦[task1 c.val i.val]{fullShare} g)) := by
    intro c _ i _
    iintro H; iexists g; iexact H
  iapply (bigSep_mono' fun c hc => bigSep_mono' (h1 c hc)) $$ H

/-- What call 1 is handed. -/
theorem st_intro1 (d : Dev nD) (f : Buf (Elt F) (loc d main_v1)) (hf : Cert.Spec.Tab2OK (m (loc d main_arg2)) f) :
    iprop((loc d main_v1 ↦{fullShare} f) ∗ (loc d main_v6 ↦{fullShare} idx6 m d) ∗ ∃ g, loc d main_v7 ↦{fullShare} g)
      ⊢ bigSep Finset.univ fun c : Fin ((K (F := F)).nCore 1) => (P m).st 1 d c := by
  show _ ⊢ bigSep (Finset.univ : Finset (Fin 2)) fun c => st1 m d c.val
  rw [bigSep_univ_two]
  show _ ⊢ iprop(st1 m d 0 ∗ st1 m d 1)
  unfold st1 tabAt
  iintro ⟨Ht, Hx, Ho⟩
  ihave Ht := (pointsTo_halves f).1 $$ Ht
  icases Ht with ⟨Ht0, Ht1⟩
  ihave Hx := (pointsTo_halves (idx6 m d)).1 $$ Hx
  icases Hx with ⟨Hx0, Hx1⟩
  ihave Ho := (out_pieces1 d) $$ Ho
  icases Ho with ⟨Ho0, Ho1⟩
  isplitl [Ht0 Hx0 Ho0]
  · isplitl [Ht0]
    · iexists f
      isplitr; · ipureintro; exact hf
      iexact Ht0
    isplitl [Hx0]; · iexact Hx0
    iexact Ho0
  · isplitl [Ht1]
    · iexists f
      isplitr; · ipureintro; exact hf
      iexact Ht1
    isplitl [Hx1]; · iexact Hx1
    iexact Ho1

/-- The two SparseCores' pieces of main_v7, each holding the rows its worker's tokens name, are main_v7 whole holding
    the rows all the tokens name. -/
theorem out_whole1 (d : Dev nD) :
    iprop((bigSep Finset.univ fun i : Fin 16 => iprop(∃ g : Buf (Elt F) (loc d main_v7),
          ⌜RowsDone (Cert.Spec.dTok (m (loc d main_arg1))) (m (loc d main_arg2)) (wid 0 i.val * 6400) 6400 g⌝ ∗ (loc d main_v7 ↦[task1 0 i.val]{fullShare} g)))
        ∗ (bigSep Finset.univ fun i : Fin 16 => iprop(∃ g : Buf (Elt F) (loc d main_v7),
          ⌜RowsDone (Cert.Spec.dTok (m (loc d main_arg1))) (m (loc d main_arg2)) (wid 1 i.val * 6400) 6400 g⌝ ∗ (loc d main_v7 ↦[task1 1 i.val]{fullShare} g))))
      ⊢ (iprop(∃ g : Buf (Elt F) (loc d main_v7), ⌜Cert.Spec.RowsOK (Cert.Spec.dTok (m (loc d main_arg1))) (m (loc d main_arg2)) g⌝
          ∗ (loc d main_v7 ↦{fullShare} g)) : sProp (𝕄F F)) := by
  refine (Entails.of_eq (bigSep_univ_two fun c : Fin 2 => bigSep Finset.univ fun i : Fin 16 =>
    (iprop(∃ g : Buf (Elt F) (loc d main_v7),
      ⌜RowsDone (Cert.Spec.dTok (m (loc d main_arg1))) (m (loc d main_arg2)) (wid c.val i.val * 6400) 6400 g⌝
        ∗ (loc d main_v7 ↦[task1 c.val i.val]{fullShare} g)) : sProp (𝕄F F))).symm).trans ?_
  refine (pieces_whole (F := F) (Kp1 d) (Kp1_disj d) (Kp1_cover d) (m (loc d main_v7))
    (fun p g => RowsDone (Cert.Spec.dTok (m (loc d main_arg1))) (m (loc d main_arg2)) (wid p.1.val p.2.val * 6400) 6400 g)).trans ?_
  iintro ⟨%g, %h, H⟩
  iexists g
  isplitr
  · ipureintro
    intro r e
    obtain ⟨g', hg', hx⟩ := h (owner 6400 r.val)
    have hs := owner_spec (len := 6400) (by decide) (show r.val < 32 * 6400 from r.isLt)
    rw [hx (ix2 r (Cert.Spec.col e)) (mem_rowsOf.mpr hs)]
    exact hg' r e hs.1 hs.2
  iexact H

/-- What call 1 hands back. -/
theorem dn_elim1 (d : Dev nD) :
    (bigSep Finset.univ fun c : Fin ((K (F := F)).nCore 1) => (P m).dn 1 d c)
      ⊢ iprop(∃ f g, ⌜Cert.Spec.Tab2OK (m (loc d main_arg2)) f ∧ Cert.Spec.RowsOK (Cert.Spec.dTok (m (loc d main_arg1))) (m (loc d main_arg2)) g⌝
          ∗ (loc d main_v1 ↦{fullShare} f) ∗ (loc d main_v6 ↦{fullShare} idx6 m d) ∗ (loc d main_v7 ↦{fullShare} g)) := by
  show (bigSep (Finset.univ : Finset (Fin 2)) fun c => dn1 m d c.val) ⊢ _
  rw [bigSep_univ_two]
  show iprop(dn1 m d 0 ∗ dn1 m d 1) ⊢ _
  unfold dn1 tabAt
  iintro ⟨⟨⟨%f0, %hf0, Ht0⟩, Hx0, Ho0⟩, ⟨%f1, -, Ht1⟩, Hx1, Ho1⟩
  ihave Ht := (pointsTo_same (cSh 0) (cSh 1) f0 f1) $$ [Ht0 Ht1]
  · isplitl [Ht0] <;> iassumption
  ihave Ht := (pointsTo_halves f0).2 $$ Ht
  ihave Hx := (pointsTo_halves (idx6 m d)).2 $$ [Hx0 Hx1]
  · isplitl [Hx0] <;> iassumption
  ihave Ho := (out_whole1 m d) $$ [Ho0 Ho1]
  · isplitl [Ho0] <;> iassumption
  icases Ho with ⟨%g, %hg, Ho⟩
  iexists f0; iexists g
  isplitr; · ipureintro; exact ⟨hf0, hg⟩
  isplitl [Ht]; · iexact Ht
  isplitl [Hx]; · iexact Hx
  iexact Ho

/-! ## Both calls -/

/-- How each call's operands for a SparseCore split into its subcores' and the results gather. -/
theorem vecSplit : ∀ q, (K (F := F)).kind q = .scVector → (K (F := F)).VecSplit (P m) q :=
  fun q _ => match q with
    | 0 => SparseCore.Cfg.VecSplit.of_plain (vecSplit0 m)
    | 1 => SparseCore.Cfg.VecSplit.of_plain (vecSplit1 m)
    | ⟨_ + 2, h⟩ => absurd h (Nat.not_lt.2 (Nat.le_add_left _ _))

end Cert.Kernel.Hand

end
-- ==== Proof.Bits.ScBody1Defs.lean ====
/-
  The first SparseCore kernel (the query lookup) at a symbolic vector subcore: its operands in the program's spelling, the
  element sets its copies move, and what its index scratch holds.

  Worker L (core L 0, subcore L 1; worker number 2 * (L 1) + (L 0)) copies row L of the index array into its index
  scratch, then for each of its ten windows w gathers the 64 table rows named by row w of the scratch into one of two
  buffers and copies the buffer out to rows [base + 64 w, base + 64 w + 64) of the output, base = 640 * (worker number).
-/
import proofs.«218768_g80616536146796_cont_9to1c4b_775_25_alg».proof.Proof.Bits.ScPay
import proofs.«218768_g80616536146796_cont_9to1c4b_775_25_alg».proof.Proof.Gen.Kernel.Skeleton
import Idealize.ShloMosaic.Lib.SparseCore.Launch
import Idealize.ShloMosaic.Lib.SparseCore.Stream
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

/-! ## The first gather kernel's operands, in the program's spelling -/

abbrev tabV : Memref sig .scVector .hbm S1000000x128 .f32 := Memref.whole main_v1_scv
abbrev ixV : Memref sig .scVector .hbm S32x10x64 .i32 := Memref.whole main_v3_scv
abbrev outV : Memref sig .scVector .hbm S20480x128 .f32 := Memref.whole main_v4_scv
abbrev sI : Memref sig .scVector .vmem S10x64 .i32 := Memref.whole cc1_scratch0
abbrev bA : Memref sig .scVector .vmem S64x128 .f32 := Memref.whole cc1_scratch1
abbrev bB : Memref sig .scVector .vmem S64x128 .f32 := Memref.whole cc1_scratch2

/-- The table as every gather slices it (whole), a row of the index scratch, a window of the output. -/
abbrev tabS : Memref sig .scVector .hbm S1000000x128 .f32 :=
  tabV.slice (Rect.unit (s := S1000000x128) ![0, 0] S1000000x128.size inb_S1000000x128_S1000000x128_0_0) (fun _ => rfl)
abbrev rowM (off : Fin 2 → ℕ) (h : ∀ a, off a + S1x64.size a ≤ S10x64.size a) : Memref sig .scVector .vmem S64 .i32 :=
  (sI.slice (Rect.unit (s := S10x64) off S1x64.size h) (fun _ => rfl)).squeeze S64 squeezes_S1x64_S64
abbrev winM (off : Fin 2 → ℕ) (h : ∀ a, off a + S64x128.size a ≤ S20480x128.size a) : Memref sig .scVector .hbm S64x128 .f32 :=
  outV.slice (Rect.unit (s := S20480x128) off S64x128.size h) (fun _ => rfl)

/-- Row r of the index scratch, as a set of its elements. -/
def rowSetI (r : ℕ) : Finset S10x64.Idx := Finset.univ.filter fun x => (x 0).val = r

theorem set_tabS : (tabS).view.set = Finset.univ := by
  show ((View.whole (main_v1_scv : Ref sig .scVector)).slice (Rect.unit (s := S1000000x128) ![0, 0] S1000000x128.size inb_S1000000x128_S1000000x128_0_0)).set = _
  rw [View.set_slice_whole]
  ext x
  simp only [Rect.mem_set_unit, Finset.mem_univ, iff_true]
  refine (Fin.forall_fin_two (p := fun a => (![0, 0] : Fin 2 → ℕ) a ≤ (x a).val ∧ (x a).val < (![0, 0] : Fin 2 → ℕ) a + S1000000x128.size a)).mpr ⟨⟨Nat.zero_le _, ?_⟩, ⟨Nat.zero_le _, ?_⟩⟩
  · have h0 : (x 0).val < 1000000 := (x 0).isLt
    show (x 0).val < 0 + 1000000; omega
  · have h1 : (x 1).val < 128 := (x 1).isLt
    show (x 1).val < 0 + 128; omega

theorem set_rowM (off : Fin 2 → ℕ) (h : ∀ a, off a + S1x64.size a ≤ S10x64.size a) (h1 : off 1 = 0) :
    (rowM off h).view.set = rowSetI (off 0) := by
  show (((View.whole (cc1_scratch0 : Ref sig .scVector)).slice (Rect.unit (s := S10x64) off S1x64.size h)).reshape S64 squeezes_S1x64_S64.numel_eq).set = _
  rw [View.set_reshape, View.set_slice_whole]
  ext x
  simp only [Rect.mem_set_unit, rowSetI, Finset.mem_filter, Finset.mem_univ, true_and]
  refine (Fin.forall_fin_two (p := fun a => off a ≤ (x a).val ∧ (x a).val < off a + S1x64.size a)).trans ?_
  have hx1 : (x 1).val < 64 := (x 1).isLt
  show (off 0 ≤ (x 0).val ∧ (x 0).val < off 0 + 1) ∧ (off 1 ≤ (x 1).val ∧ (x 1).val < off 1 + 64) ↔ _
  omega

theorem set_winM (off : Fin 2 → ℕ) (h : ∀ a, off a + S64x128.size a ≤ S20480x128.size a) (h1 : off 1 = 0) :
    (winM off h).view.set = rowsOf 20480 (off 0) 64 := by
  show ((View.whole (main_v4_scv : Ref sig .scVector)).slice (Rect.unit (s := S20480x128) off S64x128.size h)).set = _
  rw [View.set_slice_whole]
  ext x
  simp only [Rect.mem_set_unit, rowsOf, Finset.mem_filter, Finset.mem_univ, true_and]
  refine (Fin.forall_fin_two (p := fun a => off a ≤ (x a).val ∧ (x a).val < off a + S64x128.size a)).trans ?_
  have hx1 : (x 1).val < 128 := (x 1).isLt
  show (off 0 ≤ (x 0).val ∧ (x 0).val < off 0 + 64) ∧ (off 1 ≤ (x 1).val ∧ (x 1).val < off 1 + 128) ↔ _
  omega

abbrev cV (L : grid1.Coords) : Fin τ.nSC := (L 0).castLE hcore1
abbrev jV (L : grid1.Coords) : Fin τ.nSub := (L 1).castLE hsub1

variable (m : (ℓ : Loc nD τ sig) → Buf (Elt F) ℓ) [FloatOps F]

variable (d : Dev nD) (L : grid1.Coords)

/-- The vector subcore that runs worker L. -/
abbrev thr : Thread nD τ := V d (cV L) (jV L)

/-- Worker L's row of the index array, as the kernel slices it. -/
abbrev ixRow : Memref sig .scVector .hbm S10x64 .i32 :=
  (ixV.slice (Rect.unit (s := S32x10x64) (k1_off1 L) S1x10x64.size (k1_off1_inb L)) (fun _ => rfl)).squeeze S10x64 squeezes_S1x10x64_S10x64

/-- What the index scratch holds once the worker's row is in: that row of the index array. -/
def fiN : Buf (Elt F) ((thr d L).loc cc1_scratch0) := (ixRow L).view.read (Elt F) (idx3 m d)

/-- Every word of the index array is one of the query token ids. -/
theorem idx3_lt (hq : ∀ d i, ((m (loc d main_arg0)) i).toNat < 1000000) (z : S32x10x64.Idx) : (idx3 m d z).toNat < 1000000 := by
  unfold idx3 shapeCast; exact hq d _

theorem fiN_lt (hq : ∀ d i, ((m (loc d main_arg0)) i).toNat < 1000000) (y : S10x64.Idx) : (fiN m d L y).toNat < 1000000 := by
  unfold fiN; rw [View.read_apply]; exact idx3_lt m d hq _

/-- The first row of the output worker L writes. -/
def base : ℕ := 1280 * (L 1).val + 640 * (L 0).val

theorem base_eq : base L = wid (L 0).val (L 1).val * 640 := by unfold base wid; omega

/-- What a gather of window r leaves in a buffer: row j holds the table row named by word j of row r of the index
    scratch. -/
def GOK (hq : ∀ d i, ((m (loc d main_arg0)) i).toNat < 1000000) (f : Buf (Elt F) (loc d main_v1)) (r : ℕ)
    (ga : S64x128.Idx → F .f32) : Prop :=
  ∀ x : S64x128.Idx, ga x = f (ix2 ⟨(fiN m d L (ix2 ⟨r % 10, Nat.mod_lt _ (by decide)⟩ (x 0))).toNat, fiN_lt m d L hq _⟩ (x 1))

end G1

end Cert.Kernel.Hand

end
-- ==== Proof.Bits.ScBody1Loop.lean ====
/-
  The first SparseCore kernel's loop: the invariant that holds before each trip (which window is being gathered into which
  buffer, each semaphore's counter, the rows of the output written so far with their values) and the two kinds of trip,
  each run once at a symbolic vector subcore and a symbolic trip.
-/
import proofs.«218768_g80616536146796_cont_9to1c4b_775_25_alg».proof.Proof.Bits.ScBody1Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

variable (m : (ℓ : Loc nD τ sig) → Buf (Elt F) ℓ) [FloatOps F]
variable (d : Dev nD) (L : grid1.Coords)

/-! ## Rows of the output, held piece by piece -/

/-- The worker's share of the table and of the index array. -/
abbrev tq : PosShare TreeShare := tSh (L 0).val (L 1).val

/-- Rows [o, o + n) of the output, done: their first 64 columns are the table rows their tokens name. -/
def doneP (o n : ℕ) : sProp (𝕄F F) :=
  iprop(∃ g : Buf (Elt F) (loc d main_v4), ⌜RowsDone (Cert.Spec.qTok (m (loc d main_arg0))) (m (loc d main_arg2)) o n g⌝
    ∗ ((outV).view.loc (thr d L) ↦[rowsOf 20480 o n]{fullShare} g))
/-- Rows [o, o + n) of the output, not yet written. -/
def todoP (o n : ℕ) : sProp (𝕄F F) :=
  iprop(∃ g : Buf (Elt F) (loc d main_v4), ((outV).view.loc (thr d L) ↦[rowsOf 20480 o n]{fullShare} g))

omit [FloatOps F] in
theorem rowsOf_union (n o a b : ℕ) : rowsOf n o (a + b) = rowsOf n o a ∪ rowsOf n (o + a) b := by
  ext x; simp only [Finset.mem_union, mem_rowsOf]; omega
omit [FloatOps F] in
theorem rowsOf_disj (n o a b : ℕ) : Disjoint (rowsOf n o a) (rowsOf n (o + a) b) := by
  rw [Finset.disjoint_left]; intro x h1 h2; rw [mem_rowsOf] at h1 h2; omega

theorem todo_split (o a b : ℕ) : todoP (F := F) d L o (a + b)
    ⊢ iprop((∃ g : Buf (Elt F) (loc d main_v4), ((outV).view.loc (thr d L) ↦[rowsOf 20480 o a]{fullShare} g)) ∗ todoP (F := F) d L (o + a) b) := by
  unfold todoP; rw [rowsOf_union 20480 o a b]
  iintro ⟨%g, H⟩
  ihave H' := (pointsTo_union (rowsOf_disj 20480 o a b)).1 $$ H
  icases H' with ⟨H1, H2⟩
  isplitl [H1]
  · iexists g; iexact H1
  · iexists g; iexact H2

theorem done_append (o a b : ℕ) : iprop(doneP m d L o a ∗ doneP m d L (o + a) b) ⊢ doneP m d L o (a + b) := by
  unfold doneP; rw [rowsOf_union 20480 o a b]
  iintro ⟨⟨%g1, %h1, H1⟩, ⟨%g2, %h2, H2⟩⟩
  ihave H := (pointsTo_join (ℓ := (outV).view.loc (thr d L)) (I := rowsOf 20480 o a) (J := rowsOf 20480 (o + a) b) (rowsOf_disj 20480 o a b)) $$ [H1 H2]
  · isplitl [H1] <;> iassumption
  iexists ((rowsOf 20480 (o + a) b).piecewise g2 g1)
  isplitr
  · ipureintro; intro r e hr1 hr2
    by_cases hlt : r.val < o + a
    · rw [Finset.piecewise_eq_of_notMem _ _ _ (by rw [mem_rowsOf]; show ¬ (o + a ≤ r.val ∧ r.val < o + a + b); omega)]
      exact h1 r e hr1 hlt
    · rw [Finset.piecewise_eq_of_mem _ _ _ (by rw [mem_rowsOf]; show o + a ≤ r.val ∧ r.val < o + a + b; omega)]
      exact h2 r e (by omega) (by omega)
  · iexact H

/-! ## The same elements, in the invariant's spelling and in the program's -/

omit [FloatOps F] in
theorem row_prog (off : Fin 2 → ℕ) (h : ∀ a, off a + S1x64.size a ≤ S10x64.size a) (h1 : off 1 = 0) (r : ℕ) (hr : off 0 = r)
    (q : PosShare TreeShare) (fi' : Buf (Elt F) ((thr d L).loc cc1_scratch0)) :
    (((sI).view.loc (thr d L) ↦[rowSetI r]{q} fi') : sProp (𝕄F F)) = ((rowM off h).view.loc (thr d L) ↦[(rowM off h).view.set]{q} fi') := by
  rw [set_rowM off h h1, hr]
omit [FloatOps F] in
theorem win_prog (off : Fin 2 → ℕ) (h : ∀ a, off a + S64x128.size a ≤ S20480x128.size a) (h1 : off 1 = 0) (o : ℕ) (ho : off 0 = o)
    (q : PosShare TreeShare) (g : Buf (Elt F) (loc d main_v4)) :
    (((outV).view.loc (thr d L) ↦[rowsOf 20480 o 64]{q} g) : sProp (𝕄F F)) = ((winM off h).view.loc (thr d L) ↦[(winM off h).view.set]{q} g) := by
  rw [set_winM off h h1, ho]
omit [FloatOps F] in
theorem tab_prog (q : PosShare TreeShare) (f : Buf (Elt F) (loc d main_v1)) :
    (((tabV).view.loc (thr d L) ↦[Finset.univ]{q} f) : sProp (𝕄F F)) = ((tabS).view.loc (thr d L) ↦[(tabS).view.set]{q} f) := by
  rw [set_tabS]

/-! ## The loop's invariant -/

variable (hq : ∀ d i, ((m (loc d main_arg0)) i).toNat < 1000000) (f : Buf (Elt F) (loc d main_v1))
variable (O : CellTallies nD τ sig (HIx 2)) (W : Waits sig (HIx 2))

/-- The thread's debt, with the waits it has recorded since the task began. -/
def owesP : sProp (𝕄F F) := iprop(∃ W', ⌜∀ p ∈ W', p ∈ W ∨ p.2 = none⌝ ∗ owes (thr d L) O W')

/-- What a gather of window r into the first buffer delivers, in the invariant's spelling. -/
def DA (r : ℕ) : sProp (𝕄F F) :=
  iprop(((∃ ga : Buf (Elt F) ((thr d L).loc cc1_scratch1), ⌜GOK m d L hq f r ga⌝ ∗ ((bA).view.loc (thr d L) ↦[(bA).view.set]{fullShare} ga))
        ∗ ((sI).view.loc (thr d L) ↦[rowSetI r]{fullShare} fiN m d L))
      ∗ ((tabV).view.loc (thr d L) ↦[Finset.univ]{(tq L).left} f))

/-- Before trip k < 5: window 2k is being gathered into the first buffer; windows below 2k are written out and waited for;
    every other semaphore is at zero. -/
def IA (k : ℕ) : sProp (𝕄F F) :=
  iprop(Transfers.MayWaits (thr d L) (none : HIx 2) O
    ∗ Transfers.Flight countersEmb (thr d L) (SemLoc.dma cc1_scratch3.sem) (none : HIx 2) 262144 (DA m d L hq f (2 * k))
    ∗ ((tabV).view.loc (thr d L) ↦[Finset.univ]{(tq L).right} f)
    ∗ ((sI).view.loc (thr d L) ↦[Finset.univ \ rowSetI (2 * k)]{fullShare} fiN m d L)
    ∗ (∃ fb : Buf (Elt F) ((thr d L).loc cc1_scratch2), (bB).view.loc (thr d L) ↦{fullShare} fb)
    ∗ semVal (thr d L, SemLoc.dma cc1_scratch4.sem) 0 ∗ semVal (thr d L, SemLoc.dma cc1_scratch5.sem) 0
    ∗ semVal (thr d L, SemLoc.dma cc1_scratch6.sem) 0
    ∗ doneP m d L (base L) (128 * k) ∗ todoP (F := F) d L (base L + 128 * k) (640 - 128 * k)
    ∗ owesP d L O W)

/-- After the last trip: the two last windows are on their way out. -/
def IB : sProp (𝕄F F) :=
  iprop(Transfers.MayWaits (thr d L) (none : HIx 2) O
    ∗ ((tabV).view.loc (thr d L) ↦[Finset.univ]{(tq L).left} f)
    ∗ ((tabV).view.loc (thr d L) ↦[Finset.univ]{(tq L).right} f)
    ∗ ((sI).view.loc (thr d L) ↦[Finset.univ]{fullShare} fiN m d L)
    ∗ Transfers.Flight countersEmb (thr d L) (SemLoc.dma cc1_scratch5.sem) (none : HIx 2) 262144
        iprop(doneP m d L (base L + 512) 64 ∗ ∃ fa : Buf (Elt F) ((thr d L).loc cc1_scratch1), (bA).view.loc (thr d L) ↦[(bA).view.set]{fullShare} fa)
    ∗ Transfers.Flight countersEmb (thr d L) (SemLoc.dma cc1_scratch6.sem) (none : HIx 2) 262144
        iprop(doneP m d L (base L + 576) 64 ∗ ∃ fb : Buf (Elt F) ((thr d L).loc cc1_scratch2), (bB).view.loc (thr d L) ↦[(bB).view.set]{fullShare} fb)
    ∗ semVal (thr d L, SemLoc.dma cc1_scratch3.sem) 0 ∗ semVal (thr d L, SemLoc.dma cc1_scratch4.sem) 0
    ∗ doneP m d L (base L) 512
    ∗ owesP d L O W)

def Inv (k : ℕ) (_ : PUnit) : sProp (𝕄F F) := if k < 5 then IA m d L hq f O W k else IB m d L f O W

/-! ## Small conversions -/

omit [FloatOps F] in
theorem semVal_cast (sm sm' : DmaSem sig) (h : sm = sm') :
    (semVal (thr d L, SemLoc.dma sm) 0 : sProp (𝕄F F)) ⊢ semVal (thr d L, SemLoc.dma sm') 0 := by subst h; exact .rfl

omit [FloatOps F] in
theorem rowSetI_disj {a b : ℕ} (h : a ≠ b) : Disjoint (rowSetI a) (rowSetI b) := by
  rw [Finset.disjoint_left]; intro x h1 h2
  simp only [rowSetI, Finset.mem_filter, Finset.mem_univ, true_and] at h1 h2; omega

omit [FloatOps F] in
/-- Two rows out of the index scratch less a third. -/
theorem sI_split (a b c : ℕ) (hab : a ≠ b) (hac : a ≠ c) (hbc : b ≠ c) (fi' : Buf (Elt F) ((thr d L).loc cc1_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[rowSetI c]{fullShare} fi')
          ∗ ((sI).view.loc (thr d L) ↦[((Finset.univ \ rowSetI a) \ rowSetI b) \ rowSetI c]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  have h2 : rowSetI c ⊆ (Finset.univ \ rowSetI a) \ rowSetI b := by
    intro x hx; rw [Finset.mem_sdiff, Finset.mem_sdiff]
    exact ⟨⟨Finset.mem_univ _, fun hx' => Finset.disjoint_left.mp (rowSetI_disj hac) hx' hx⟩, fun hx' => Finset.disjoint_left.mp (rowSetI_disj hbc) hx' hx⟩
  iintro H
  ihave H := (pointsTo_split_subset h1).1 $$ H
  icases H with ⟨Hb, H⟩
  ihave H := (pointsTo_split_subset h2).1 $$ H
  icases H with ⟨Hc, H⟩
  isplitl [Hb]; · iexact Hb
  isplitl [Hc]; · iexact Hc
  iexact H

omit [FloatOps F] in
/-- And back, the third row now the one left out. -/
theorem sI_rejoin (a b c : ℕ) (hab : a ≠ b) (hac : a ≠ c) (hbc : b ≠ c) (fi' : Buf (Elt F) ((thr d L).loc cc1_scratch0)) :
    iprop(((sI).view.loc (thr d L) ↦[rowSetI a]{fullShare} fi') ∗ ((sI).view.loc (thr d L) ↦[rowSetI b]{fullShare} fi')
          ∗ ((sI).view.loc (thr d L) ↦[((Finset.univ \ rowSetI a) \ rowSetI b) \ rowSetI c]{fullShare} fi'))
      ⊢ (((sI).view.loc (thr d L) ↦[Finset.univ \ rowSetI c]{fullShare} fi') : sProp (𝕄F F)) := by
  have e : ((Finset.univ \ rowSetI a) \ rowSetI b) \ rowSetI c = ((Finset.univ \ rowSetI c) \ rowSetI b) \ rowSetI a := by
    ext x; simp only [Finset.mem_sdiff, Finset.mem_univ, true_and]; tauto
  have h1 : rowSetI b ⊆ Finset.univ \ rowSetI c := by
    intro x hx; rw [Finset.mem_sdiff]; exact ⟨Finset.mem_univ _, fun hx' => Finset.disjoint_left.mp (rowSetI_disj hbc) hx hx'⟩
  have h2 : rowSetI a ⊆ (Finset.univ \ rowSetI c) \ rowSetI b := by
    intro x hx; rw [Finset.mem_sdiff, Finset.mem_sdiff]
    exact ⟨⟨Finset.mem_univ _, fun hx' => Finset.disjoint_left.mp (rowSetI_disj hac) hx hx'⟩, fun hx' => Finset.disjoint_left.mp (rowSetI_disj hab) hx hx'⟩
  rw [e]
  have j1 : iprop(((sI).view.loc (thr d L) ↦[rowSetI b]{fullShare} fi') ∗ ((sI).view.loc (thr d L) ↦[(Finset.univ \ rowSetI c) \ rowSetI b]{fullShare} fi'))
      ⊢ (((sI).view.loc (thr d L) ↦[Finset.univ \ rowSetI c]{fullShare} fi') : sProp (𝕄F F)) := (pointsTo_split_subset h1).2
  have j2 : iprop(((sI).view.loc (thr d L) ↦[rowSetI a]{fullShare} fi') ∗ ((sI).view.loc (thr d L) ↦[((Finset.univ \ rowSetI c) \ rowSetI b) \ rowSetI a]{fullShare} fi'))
      ⊢ (((sI).view.loc (thr d L) ↦[(Finset.univ \ rowSetI c) \ rowSetI b]{fullShare} fi') : sProp (𝕄F F)) := (pointsTo_split_subset h2).2
  iintro ⟨Ha, Hb, H⟩
  ihave H2 := j2 $$ [Ha H]
  · isplitl [Ha] <;> iassumption
  iapply j1
  isplitl [Hb]; · iexact Hb
  iexact H2

/-- What a gather's flight delivers, restated in the invariant's spelling (the table's share left in the program's). -/
theorem DA_intro (off : Fin 2 → ℕ) (h : ∀ a, off a + S1x64.size a ≤ S10x64.size a) (h1 : off 1 = 0) (r : ℕ) (hr : off 0 = r)
    (q : PosShare TreeShare) (X : Buf (Elt F) ((thr d L).loc cc1_scratch1)) (hX : GOK m d L hq f r X) :
    (iprop((((bA).view.loc (thr d L) ↦[(bA).view.set]{fullShare} X) ∗ ((rowM off h).view.loc (thr d L) ↦[(rowM off h).view.set]{fullShare} fiN m d L))
        ∗ ((tabS).view.loc (thr d L) ↦[(tabS).view.set]{q} f)) : sProp (𝕄F F))
      ⊢ iprop(((∃ ga : Buf (Elt F) ((thr d L).loc cc1_scratch1), ⌜GOK m d L hq f r ga⌝ ∗ ((bA).view.loc (thr d L) ↦[(bA).view.set]{fullShare} ga))
        ∗ ((sI).view.loc (thr d L) ↦[rowSetI r]{fullShare} fiN m d L))
      ∗ ((tabS).view.loc (thr d L) ↦[(tabS).view.set]{q} f)) := by
  iintro ⟨⟨HbA, Hrow⟩, Htab⟩
  isplitr [Htab]
  · isplitl [HbA]
    · iexists X; isplitr
      · ipureintro; exact hX
      · iexact HbA
    · iapply (Entails.of_eq (row_prog (F := F) d L off h h1 r hr fullShare (fiN m d L)).symm); iexact Hrow
  · iexact Htab

omit [FloatOps F] in
theorem flight_conv (sm sm' : DmaSem sig) (ι ι' : HIx 2) (N : ℕ) (D D' : sProp (𝕄F F)) (hs : sm = sm') (hι : ι = ι') (hD : D ⊢ D') :
    Transfers.Flight countersEmb (thr d L) (SemLoc.dma sm) ι N D ⊢ Transfers.Flight countersEmb (thr d L) (SemLoc.dma sm') ι' N D' := by
  subst hs hι; exact Transfers.Flight_mono countersEmb (thr d L) hD

theorem doneP_congr (o o' n n' : ℕ) (ho : o = o') (hn : n = n') : doneP m d L o n ⊢ doneP m d L o' n' := by subst ho hn; exact .rfl
omit [FloatOps F] in
theorem todoP_congr (o o' n n' : ℕ) (ho : o = o') (hn : n = n') : todoP (F := F) d L o n ⊢ todoP (F := F) d L o' n' := by subst ho hn; exact .rfl

/-! ## The value facts the trips use (proved in the value module) -/

structure VF : Prop where
  gA : ∀ (off : Fin 2 → ℕ) (h : ∀ a, off a + S1x64.size a ≤ S10x64.size a) (_ : off 1 = 0)
      (hin' : ∀ x, ((rowM off h).view.read (Elt F) (fiN m d L) x).toNat < S1000000x128.size gathers_S1000000x128_S64x128.axis)
      (ga0 : Buf (Elt F) ((thr d L).loc cc1_scratch1)),
      GOK m d L hq f (off 0) ((bA).view.writes (Elt F) ga0 [⟨Rect.whole S64x128,
        SparseCore.gatherPayload gathers_S1000000x128_S64x128 (View.read (Elt F) (tabS).view f)
          (SparseCore.rows (View.read (Elt F) (rowM off h).view (fiN m d L)) rfl hin')⟩])
  gB : ∀ (off : Fin 2 → ℕ) (h : ∀ a, off a + S1x64.size a ≤ S10x64.size a) (_ : off 1 = 0)
      (hin' : ∀ x, ((rowM off h).view.read (Elt F) (fiN m d L) x).toNat < S1000000x128.size gathers_S1000000x128_S64x128.axis)
      (gb0 : Buf (Elt F) ((thr d L).loc cc1_scratch2)),
      GOK m d L hq f (off 0) ((bB).view.writes (Elt F) gb0 [⟨Rect.whole S64x128,
        SparseCore.gatherPayload gathers_S1000000x128_S64x128 (View.read (Elt F) (tabS).view f)
          (SparseCore.rows (View.read (Elt F) (rowM off h).view (fiN m d L)) rfl hin')⟩])
  win : ∀ (off : Fin 2 → ℕ) (h : ∀ a, off a + S64x128.size a ≤ S20480x128.size a) (_ : off 1 = 0)
      (r : ℕ) (_ : r < 10) (_ : off 0 = base L + 64 * r) (g1 : Buf (Elt F) (loc d main_v4)) (p : S64x128.Idx → F .f32) (_ : GOK m d L hq f r p),
      RowsDone (Cert.Spec.qTok (m (loc d main_arg0))) (m (loc d main_arg2)) (off 0) 64
        ((winM off h).view.writes (Elt F) g1 [⟨Rect.whole S64x128, p⟩])

include hq in
theorem hin_of (x : S64.Idx) (off : Fin 2 → ℕ) (hoff : ∀ a, off a + S1x64.size a ≤ S10x64.size a) :
    (View.read (Elt F) (rowM off hoff).view (fiN m d L) x).toNat < S1000000x128.size gathers_S1000000x128_S64x128.axis := by
  rw [View.read_apply]; exact fiN_lt m d L hq _

theorem cond_lt : ∀ k : Fin k1_t1_loop.trips, k1_cond1 k = 1#1 → k.val < 4 := by decide
theorem lt_cond : ∀ k : Fin k1_t1_loop.trips, ¬ k1_cond1 k = 1#1 → k.val = 4 := by decide

/-! ## A trip that is not the last -/

set_option maxHeartbeats 2000000 in
theorem region_pos (V : VF m d L hq f) (k : Fin k1_t1_loop.trips) (hk : k1_cond1 k = 1#1) :
    IA m d L hq f O W k.val ⊢ wp frame (wpE (defs₀ (F := F)) 𝒱₀ (thr d L) none) Set.univ
      (k1_t1_body L tabV (Memref.isWhole_whole _) ixV (Memref.isWhole_whole _) outV (Memref.isWhole_whole _)
        sI (Memref.isWhole_whole _) bA (Memref.isWhole_whole _) bB (Memref.isWhole_whole _) cc1_scratch3 cc1_scratch4 cc1_scratch5 cc1_scratch6 cc1_scoped0 k ())
      (fun _ => IA m d L hq f O W (k.val + 1)) := by
  have hk4 : k.val < 4 := cond_lt k hk
  have hin : ∀ (off : Fin 2 → ℕ) (hoff : ∀ a, off a + S1x64.size a ≤ S10x64.size a) (x : S64.Idx),
      (View.read (Elt F) (rowM off hoff).view (fiN m d L) x).toNat < S1000000x128.size gathers_S1000000x128_S64x128.axis :=
    fun off hoff x => hin_of m d L hq x off hoff
  have o2 : (k1_off2 k) 0 = 2 * k.val + 1 := by rw [k1_off2_eq]; rfl
  have o2' : (k1_off2 k) 1 = 0 := by rw [k1_off2_eq]; rfl
  have o3 : (k1_off3 k) 0 = 2 * k.val := by rw [k1_off3_eq]; rfl
  have o3' : (k1_off3 k) 1 = 0 := by rw [k1_off3_eq]; rfl
  have o7 : (k1_off7 k) 0 = 2 * (k.val + 1) := by rw [k1_off7_eq]; show 2 * k.val + 2 = _; omega
  have o7' : (k1_off7 k) 1 = 0 := by rw [k1_off7_eq]; rfl
  have o4 : (k1_off4 L k) 0 = base L + 128 * k.val := by rw [k1_off4_eq]; rfl
  have o4' : (k1_off4 L k) 1 = 0 := by rw [k1_off4_eq]; rfl
  have o5 : (k1_off5 L k) 0 = base L + 128 * k.val + 64 := by rw [k1_off5_eq]; rfl
  have o5' : (k1_off5 L k) 1 = 0 := by rw [k1_off5_eq]; rfl
  have e640 : 640 - 128 * k.val = 64 + (64 + (640 - 128 * (k.val + 1))) := by omega
  unfold IA DA owesP k1_t1_body
  rw [e640, row_prog (F := F) d L (k1_off3 k) (k1_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  -- the two rows this trip gathers through, out of the index scratch
  ihave HsIr := (sI_split (F := F) d L (2 * k.val) (2 * k.val + 1) (2 * (k.val + 1)) (by omega) (by omega) (by omega) (fiN m d L)) $$ HsIr
  icases HsIr with ⟨Hr1, Hr2, HsIr⟩
  ihave Hr1 := (Entails.of_eq (row_prog (F := F) d L (k1_off2 k) (k1_off2_inb k) o2' (2 * k.val + 1) o2 fullShare (fiN m d L))) $$ Hr1
  ihave Hr2 := (Entails.of_eq (row_prog (F := F) d L (k1_off7 k) (k1_off7_inb k hk) o7' (2 * (k.val + 1)) o7 fullShare (fiN m d L))) $$ Hr2
  -- the two windows this trip writes, out of the rows to do
  ihave Htodo := (todo_split (F := F) d L (base L + 128 * k.val) 64 (64 + (640 - 128 * (k.val + 1)))) $$ Htodo
  icases Htodo with ⟨⟨%g1, Hw0⟩, Htodo⟩
  ihave Htodo := (todo_split (F := F) d L (base L + 128 * k.val + 64) 64 (640 - 128 * (k.val + 1))) $$ Htodo
  icases Htodo with ⟨⟨%g2, Hw1⟩, Htodo⟩
  ihave Hw0 := (Entails.of_eq (win_prog (F := F) d L (k1_off4 L k) (k1_off4_inb L k) o4' (base L + 128 * k.val) o4 fullShare g1)) $$ Hw0
  ihave Hw1 := (Entails.of_eq (win_prog (F := F) d L (k1_off5 L k) (k1_off5_inb L k) o5' (base L + 128 * k.val + 64) o5 fullShare g2)) $$ Hw1
  sl_exec
  icases HFA_dst with ⟨⟨%ga, %hga, HbA⟩, Hr0⟩
  sl_exec
  sl_step
  have o4r : (k1_off4 L k) 0 = base L + 64 * (2 * k.val) := by rw [o4]; omega
  have o5b : (k1_off5 L k) 0 = base L + (128 * k.val + 64) := by rw [o5]; omega
  have o5r : (k1_off5 L k) 0 = base L + 64 * (2 * k.val + 1) := by rw [o5]; omega
  isplitr; · iexact Hmw
  isplitl [HFA]
  · iapply (flight_conv (F := F) d L _ _ _ _ _ _ _ ?hs ?hι (DA_intro m d L hq f (k1_off7 k) (k1_off7_inb k hk) o7' (2 * (k.val + 1)) o7 (tq L).left _ ?hX)) $$ HFA
    case hs => rfl
    case hι => rfl
    case hX =>
      have hX := V.gA (k1_off7 k) (k1_off7_inb k hk) o7' (fun x => hin _ _ x) ga
      rw [o7] at hX; exact hX
  iclear HFA_src
  isplitl [HtabB]; · iexact HtabB
  isplitl [Hr0 Hr1 HsIr]
  · ihave Hr0 := (Entails.of_eq (row_prog (F := F) d L (k1_off3 k) (k1_off3_inb k) o3' (2 * k.val) o3 fullShare (fiN m d L)).symm) $$ Hr0
    ihave Hr1 := (Entails.of_eq (row_prog (F := F) d L (k1_off2 k) (k1_off2_inb k) o2' (2 * k.val + 1) o2 fullShare (fiN m d L)).symm) $$ Hr1
    iapply (sI_rejoin (F := F) d L (2 * k.val) (2 * k.val + 1) (2 * (k.val + 1)) (by omega) (by omega) (by omega) (fiN m d L))
    isplitl [Hr0]; · iexact Hr0
    isplitl [Hr1]; · iexact Hr1
    iexact HsIr
  isplitl [HbB]; · iexists _; iexact HbB
  isplitl [Hs4]; · iapply (semVal_cast (F := F) d L _ _ ?h4) $$ Hs4; case h4 => rfl
  isplitl [Hs5]; · iapply (semVal_cast (F := F) d L _ _ ?h5) $$ Hs5; case h5 => rfl
  isplitl [Hs6]; · iapply (semVal_cast (F := F) d L _ _ ?h6) $$ Hs6; case h6 => rfl
  isplitl [Hdone Hw0 Hw1]
  · iapply (doneP_congr m d L (base L) (base L) (128 * k.val + 64 + 64) (128 * (k.val + 1)) rfl (by omega))
    iapply (done_append m d L (base L) (128 * k.val + 64) 64)
    isplitl [Hdone Hw0]
    · iapply (done_append m d L (base L) (128 * k.val) 64)
      isplitl [Hdone]; · iexact Hdone
      unfold doneP
      iexists _; isplitr; swap
      · iapply (Entails.of_eq (win_prog (F := F) d L (k1_off4 L k) (k1_off4_inb L k) o4' (base L + 128 * k.val) o4 fullShare _).symm); iexact Hw0
      · ipureintro
        have hw := V.win (k1_off4 L k) (k1_off4_inb L k) o4' (2 * k.val) (by omega) o4r g1 ga hga
        rw [o4] at hw; exact hw
    · unfold doneP
      iexists _; isplitr; swap
      · iapply (Entails.of_eq (win_prog (F := F) d L (k1_off5 L k) (k1_off5_inb L k) o5' (base L + (128 * k.val + 64)) o5b fullShare _).symm); iexact Hw1
      · ipureintro
        have hgb := V.gB (k1_off2 k) (k1_off2_inb k) o2' (fun x => hin _ _ x) fb
        rw [o2] at hgb
        have hw := V.win (k1_off5 L k) (k1_off5_inb L k) o5' (2 * k.val + 1) (by omega) o5r g2 _ hgb
        rw [o5b] at hw; exact hw
  isplitl [Htodo]
  · iapply (todoP_congr (F := F) d L _ _ _ _ (by omega) rfl) $$ Htodo
  iexists _; isplitr; swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
/-- One row out of the index scratch less another. -/
theorem sI_split2 (a b : ℕ) (hab : a ≠ b) (fi' : Buf (Elt F) ((thr d L).loc cc1_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[(Finset.univ \ rowSetI a) \ rowSetI b]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  exact (pointsTo_split_subset h1).1

omit [FloatOps F] in
/-- And the whole scratch back. -/
theorem sI_rejoin2 (a b : ℕ) (hab : a ≠ b) (fi' : Buf (Elt F) ((thr d L).loc cc1_scratch0)) :
    (iprop(((sI).view.loc (thr d L) ↦[rowSetI a]{fullShare} fi') ∗ ((sI).view.loc (thr d L) ↦[rowSetI b]{fullShare} fi')
          ∗ ((sI).view.loc (thr d L) ↦[(Finset.univ \ rowSetI a) \ rowSetI b]{fullShare} fi')) : sProp (𝕄F F))
      ⊢ ((sI).view.loc (thr d L) ↦[Finset.univ]{fullShare} fi') := by
  have h0 : rowSetI a ⊆ (Finset.univ : Finset S10x64.Idx) := Finset.subset_univ _
  have h1 : rowSetI b ⊆ Finset.univ \ rowSetI a := by
    intro x hx; rw [Finset.mem_sdiff]; exact ⟨Finset.mem_univ _, fun hx' => Finset.disjoint_left.mp (rowSetI_disj hab) hx' hx⟩
  have j0 : (iprop(((sI).view.loc (thr d L) ↦[rowSetI a]{fullShare} fi') ∗ ((sI).view.loc (thr d L) ↦[Finset.univ \ rowSetI a]{fullShare} fi')) : sProp (𝕄F F))
      ⊢ ((sI).view.loc (thr d L) ↦[Finset.univ]{fullShare} fi') := (pointsTo_split_subset h0).2
  have j1 : (iprop(((sI).view.loc (thr d L) ↦[rowSetI b]{fullShare} fi') ∗ ((sI).view.loc (thr d L) ↦[(Finset.univ \ rowSetI a) \ rowSetI b]{fullShare} fi')) : sProp (𝕄F F))
      ⊢ ((sI).view.loc (thr d L) ↦[Finset.univ \ rowSetI a]{fullShare} fi') := (pointsTo_split_subset h1).2
  iintro ⟨Ha, Hb, H⟩
  ihave H1 := j1 $$ [Hb H]
  · isplitl [Hb] <;> iassumption
  iapply j0
  isplitl [Ha]; · iexact Ha
  iexact H1

/-! ## The last trip -/

set_option maxHeartbeats 2000000 in
theorem region_neg (V : VF m d L hq f) (k : Fin k1_t1_loop.trips) (hk : ¬ k1_cond1 k = 1#1) :
    IA m d L hq f O W k.val ⊢ wp frame (wpE (defs₀ (F := F)) 𝒱₀ (thr d L) none) Set.univ
      (k1_t1_body L tabV (Memref.isWhole_whole _) ixV (Memref.isWhole_whole _) outV (Memref.isWhole_whole _)
        sI (Memref.isWhole_whole _) bA (Memref.isWhole_whole _) bB (Memref.isWhole_whole _) cc1_scratch3 cc1_scratch4 cc1_scratch5 cc1_scratch6 cc1_scoped0 k ())
      (fun _ => IB m d L f O W) := by
  have hk5 : k.val = 4 := lt_cond k hk
  have hin : ∀ (off : Fin 2 → ℕ) (hoff : ∀ a, off a + S1x64.size a ≤ S10x64.size a) (x : S64.Idx),
      (View.read (Elt F) (rowM off hoff).view (fiN m d L) x).toNat < S1000000x128.size gathers_S1000000x128_S64x128.axis :=
    fun off hoff x => hin_of m d L hq x off hoff
  have o2 : (k1_off2 k) 0 = 2 * k.val + 1 := by rw [k1_off2_eq]; rfl
  have o2' : (k1_off2 k) 1 = 0 := by rw [k1_off2_eq]; rfl
  have o3 : (k1_off3 k) 0 = 2 * k.val := by rw [k1_off3_eq]; rfl
  have o3' : (k1_off3 k) 1 = 0 := by rw [k1_off3_eq]; rfl
  have o4 : (k1_off4 L k) 0 = base L + 128 * k.val := by rw [k1_off4_eq]; rfl
  have o4' : (k1_off4 L k) 1 = 0 := by rw [k1_off4_eq]; rfl
  have o5 : (k1_off5 L k) 0 = base L + 128 * k.val + 64 := by rw [k1_off5_eq]; rfl
  have o5' : (k1_off5 L k) 1 = 0 := by rw [k1_off5_eq]; rfl
  have o4c : (k1_off4 L k) 0 = base L + 512 := by rw [o4, hk5]
  have o5c : (k1_off5 L k) 0 = base L + 576 := by rw [o5, hk5]
  have o4r : (k1_off4 L k) 0 = base L + 64 * (2 * k.val) := by rw [o4]; omega
  have o5r : (k1_off5 L k) 0 = base L + 64 * (2 * k.val + 1) := by rw [o5]; omega
  have e640 : 640 - 128 * k.val = 64 + 64 := by omega
  unfold IA IB DA owesP k1_t1_body
  rw [e640, row_prog (F := F) d L (k1_off3 k) (k1_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  ihave HsIr := (sI_split2 (F := F) d L (2 * k.val) (2 * k.val + 1) (by omega) (fiN m d L)) $$ HsIr
  icases HsIr with ⟨Hr1, HsIr⟩
  ihave Hr1 := (Entails.of_eq (row_prog (F := F) d L (k1_off2 k) (k1_off2_inb k) o2' (2 * k.val + 1) o2 fullShare (fiN m d L))) $$ Hr1
  ihave Htodo := (todo_split (F := F) d L (base L + 128 * k.val) 64 64) $$ Htodo
  icases Htodo with ⟨⟨%g1, Hw0⟩, Htodo⟩
  unfold todoP
  icases Htodo with ⟨%g2, Hw1⟩
  ihave Hw0 := (Entails.of_eq (win_prog (F := F) d L (k1_off4 L k) (k1_off4_inb L k) o4' (base L + 128 * k.val) o4 fullShare g1)) $$ Hw0
  ihave Hw1 := (Entails.of_eq (win_prog (F := F) d L (k1_off5 L k) (k1_off5_inb L k) o5' (base L + 128 * k.val + 64) o5 fullShare g2)) $$ Hw1
  sl_exec
  icases HFA_dst with ⟨⟨%ga, %hga, HbA⟩, Hr0⟩
  sl_exec
  sl_step
  isplitr; · iexact Hmw
  isplitl [HFA_src]; · iexact HFA_src
  isplitl [HtabB]; · iexact HtabB
  isplitl [Hr0 Hr1 HsIr]
  · ihave Hr0 := (Entails.of_eq (row_prog (F := F) d L (k1_off3 k) (k1_off3_inb k) o3' (2 * k.val) o3 fullShare (fiN m d L)).symm) $$ Hr0
    ihave Hr1 := (Entails.of_eq (row_prog (F := F) d L (k1_off2 k) (k1_off2_inb k) o2' (2 * k.val + 1) o2 fullShare (fiN m d L)).symm) $$ Hr1
    iapply (sI_rejoin2 (F := F) d L (2 * k.val) (2 * k.val + 1) (by omega) (fiN m d L))
    isplitl [Hr0]; · iexact Hr0
    isplitl [Hr1]; · iexact Hr1
    iexact HsIr
  iclear HbB
  isplitl [Hs5]
  · iapply (flight_conv (F := F) d L _ _ _ _ _ _ _ ?hs ?hι ?hD) $$ Hs5
    case hs => rfl
    case hι => rfl
    case hD =>
      iintro ⟨Hw, Hb⟩
      isplitl [Hw]
      · unfold doneP
        iexists _; isplitr; swap
        · iapply (Entails.of_eq (win_prog (F := F) d L (k1_off4 L k) (k1_off4_inb L k) o4' (base L + 512) o4c fullShare _).symm); iexact Hw
        · ipureintro
          have hw := V.win (k1_off4 L k) (k1_off4_inb L k) o4' (2 * k.val) (by omega) o4r g1 ga hga
          rw [o4c] at hw; exact hw
      · iexists _; iexact Hb
  isplitl [Hs6]
  · iapply (flight_conv (F := F) d L _ _ _ _ _ _ _ ?hs ?hι ?hD) $$ Hs6
    case hs => rfl
    case hι => rfl
    case hD =>
      iintro ⟨Hw, Hb⟩
      isplitl [Hw]
      · unfold doneP
        iexists _; isplitr; swap
        · iapply (Entails.of_eq (win_prog (F := F) d L (k1_off5 L k) (k1_off5_inb L k) o5' (base L + 576) o5c fullShare _).symm); iexact Hw
        · ipureintro
          have hgb := V.gB (k1_off2 k) (k1_off2_inb k) o2' (fun x => hin _ _ x) fb
          rw [o2] at hgb
          have hw := V.win (k1_off5 L k) (k1_off5_inb L k) o5' (2 * k.val + 1) (by omega) o5r g2 _ hgb
          rw [o5c] at hw; exact hw
      · iexists _; iexact Hb
  isplitl [HFA]; · iapply (semVal_cast (F := F) d L _ _ ?h3) $$ HFA; case h3 => rfl
  isplitl [Hs4]; · iapply (semVal_cast (F := F) d L _ _ ?h4) $$ Hs4; case h4 => rfl
  isplitl [Hdone]
  · iapply (doneP_congr m d L (base L) (base L) (128 * k.val) 512 rfl (by omega)) $$ Hdone
  iexists _; isplitr; swap
  · iexact HO
  · ipureintro; intro p hp
    rcases Finset.mem_insert.mp hp with rfl | hp
    · exact .inr rfl
    rcases Finset.mem_insert.mp hp with rfl | hp
    · exact .inr rfl
    exact hW' p hp

end G1

end Cert.Kernel.Hand

end
-- ==== Proof.Bits.ScBody1Core.lean ====
/-
  The first SparseCore kernel's task run once at a symbolic vector subcore: the index rows in, the first gather, the loop at
  its invariant, the last two copies out waited for; from the subcore's shares and scratch to its rows of the output done.
-/
import proofs.«218768_g80616536146796_cont_9to1c4b_775_25_alg».proof.Proof.Bits.ScBody1Loop

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

variable (m : (ℓ : Loc nD τ sig) → Buf (Elt F) ℓ) [FloatOps F]
variable (d : Dev nD) (L : grid1.Coords)

variable (hq : ∀ d i, ((m (loc d main_arg0)) i).toNat < 1000000) (f : Buf (Elt F) (loc d main_v1))
variable (O : CellTallies nD τ sig (HIx 2)) (W : Waits sig (HIx 2))

/-! ## The whole task -/

omit [FloatOps F] in
theorem rowsOf_zero (n o : ℕ) : rowsOf n o 0 = ∅ := by
  ext x; simp only [mem_rowsOf, Finset.notMem_empty, iff_false]; omega

theorem done_zero (o : ℕ) (g : Buf (Elt F) (loc d main_v4)) :
    (((outV).view.loc (thr d L) ↦[rowsOf 20480 o 0]{fullShare} g) : sProp (𝕄F F)) ⊢ doneP m d L o 0 := by
  unfold doneP
  iintro H
  iexists g; isplitr
  · ipureintro; intro r e h1 h2; omega
  · iexact H

/-- The worker's rows of the output, none done yet. -/
theorem out_init (g0 : Buf (Elt F) (loc d main_v4)) :
    (((outV).view.loc (thr d L) ↦[rowsOf 20480 (base L) 640]{fullShare} g0) : sProp (𝕄F F))
      ⊢ iprop(doneP m d L (base L) (128 * 0) ∗ todoP (F := F) d L (base L + 128 * 0) (640 - 128 * 0)) := by
  have e : (640 : ℕ) = 0 + 640 := by omega
  iintro H
  ihave H : todoP (F := F) d L (base L) (0 + 640) $$ [H]
  · unfold todoP; iexists g0; iexact H
  ihave H := (todo_split (F := F) d L (base L) 0 640) $$ H
  icases H with ⟨⟨%g, H0⟩, H1⟩
  isplitl [H0]
  · iapply (done_zero m d L (base L) g); iexact H0
  · iexact H1

omit [FloatOps F] in
theorem set_bA : (bA).view.set = Finset.univ := View.set_whole _
omit [FloatOps F] in
theorem set_bB : (bB).view.set = Finset.univ := View.set_whole _

set_option maxHeartbeats 4000000 in
theorem tile_core (V : VF m d L hq f) (hO : ∀ g, O g none = 0)
    (g0 : Buf (Elt F) (loc d main_v4)) (fi : Buf (Elt F) ((thr d L).loc cc1_scratch0))
    (fa : Buf (Elt F) ((thr d L).loc cc1_scratch1)) (fb : Buf (Elt F) ((thr d L).loc cc1_scratch2)) (R : sProp (𝕄F F)) :
    iprop(levAts (K (F := F)).L (K (F := F)).lev
        ∗ ((tabV).view.loc (thr d L) ↦{tq L} f)
        ∗ ((ixV).view.loc (thr d L) ↦{tq L} idx3 m d)
        ∗ ((outV).view.loc (thr d L) ↦[rowsOf 20480 (base L) 640]{fullShare} g0)
        ∗ ((sI).view.loc (thr d L) ↦{fullShare} fi) ∗ ((bA).view.loc (thr d L) ↦{fullShare} fa) ∗ ((bB).view.loc (thr d L) ↦{fullShare} fb)
        ∗ semVal (thr d L, SemLoc.dma cc1_scratch3.sem) 0 ∗ semVal (thr d L, SemLoc.dma cc1_scratch4.sem) 0
        ∗ semVal (thr d L, SemLoc.dma cc1_scratch5.sem) 0 ∗ semVal (thr d L, SemLoc.dma cc1_scratch6.sem) 0
        ∗ semVal (thr d L, SemLoc.dma cc1_scoped0.sem) 0
        ∗ owes (thr d L) O W ∗ R)
      ⊢ wp frame (wpE (defs₀ (F := F)) 𝒱₀ (thr d L) none) Set.univ
          (cc1_gather_kernel L tabV (Memref.isWhole_whole _) ixV (Memref.isWhole_whole _) outV (Memref.isWhole_whole _)
            sI (Memref.isWhole_whole _) bA (Memref.isWhole_whole _) bB (Memref.isWhole_whole _) cc1_scratch3 cc1_scratch4 cc1_scratch5 cc1_scratch6 cc1_scoped0)
          fun _ => iprop(((tabV).view.loc (thr d L) ↦{tq L} f) ∗ ((ixV).view.loc (thr d L) ↦{tq L} idx3 m d)
            ∗ doneP m d L (base L) 640
            ∗ (∃ fi : Buf (Elt F) ((thr d L).loc cc1_scratch0), (sI).view.loc (thr d L) ↦{fullShare} fi)
            ∗ (∃ fa : Buf (Elt F) ((thr d L).loc cc1_scratch1), (bA).view.loc (thr d L) ↦{fullShare} fa)
            ∗ (∃ fb : Buf (Elt F) ((thr d L).loc cc1_scratch2), (bB).view.loc (thr d L) ↦{fullShare} fb)
            ∗ semVal (thr d L, SemLoc.dma cc1_scratch3.sem) 0 ∗ semVal (thr d L, SemLoc.dma cc1_scratch4.sem) 0
            ∗ semVal (thr d L, SemLoc.dma cc1_scratch5.sem) 0 ∗ semVal (thr d L, SemLoc.dma cc1_scratch6.sem) 0
            ∗ semVal (thr d L, SemLoc.dma cc1_scoped0.sem) 0
            ∗ (∃ W', ⌜∀ p ∈ W', p ∈ W ∨ p.2 = none⌝ ∗ owes (thr d L) O W') ∗ R) := by
  have hin : ∀ (off : Fin 2 → ℕ) (hoff : ∀ a, off a + S1x64.size a ≤ S10x64.size a) (x : S64.Idx),
      (View.read (Elt F) (rowM off hoff).view (fiN m d L) x).toNat < S1000000x128.size gathers_S1000000x128_S64x128.axis :=
    fun off hoff x => hin_of m d L hq x off hoff
  rw [cc1_gather_kernel_eq_skeleton]; unfold cc1_gather_kernel_skel
  iintro ⟨#Hlv, Htab, Hix, Hout, HsI, HbA, HbB, Hs3, Hs4, Hs5, Hs6, Hs0, HO, HR⟩
  ihave Hmw := ((K (F := F)).mayWaits_none (thr := thr d L) hO) $$ Hlv
  -- the table's share in two: one for each buffer's gathers
  ihave Htab := (pointsTo_share (PosShare.mem_left_op_right (tq L))).1 $$ Htab
  icases Htab with ⟨HtabA, HtabB⟩
  have hhide : ((tabV).view.loc (thr d L) ↦{(tq L).right} f : sProp (𝕄F F)) ⊢ iprop(((tabV).view.loc (thr d L) ↦{(tq L).right} f) ∗ emp) := Laws.sep_emp.2
  ihave HtabB := hhide $$ HtabB
  -- the worker's index rows in
  sl_exec
  unfold tile_core.sl.dma0
  have esI : ((sI).view.loc (thr d L) ↦{fullShare} View.write (Elt F) sI.view fi (ReadAs.same.apply (View.read (Elt F) (ixRow L).view (idx3 m d))) Finset.univ : sProp (𝕄F F))
      = ((sI).view.loc (thr d L) ↦{fullShare} fiN m d L) :=
    congrArg (fun z => ((sI).view.loc (thr d L) ↦{fullShare} z : sProp (𝕄F F))) (View.write_whole_univ (Val := Elt F) cc1_scratch0 fi (fiN m d L))
  ihave HsI := (Entails.of_eq esI) $$ HsI
  -- the first gather
  sl_exec
  iclear HtabA HbA
  icases HtabB with ⟨HtabB, -⟩
  ihave Hout := (out_init m d L g0) $$ Hout
  icases Hout with ⟨Hdone, Htodo⟩
  sl_for (Inv m d L hq f O W) $$ [Hmw Hs3 HtabB HsI HbB Hs4 Hs5 Hs6 Hdone Htodo HO]
  case region =>
    intro k acc
    by_cases hk : k1_cond1 k = 1#1
    · have hk4 := cond_lt k hk
      have e1 : Inv m d L hq f O W k.val acc = IA m d L hq f O W k.val := if_pos (by omega)
      have e2 : Inv m d L hq f O W (k.val + 1) = fun _ => IA m d L hq f O W (k.val + 1) := funext fun _ => if_pos (by omega)
      rw [e1, e2]; exact region_pos m d L hq f O W V k hk
    · have hk5 := lt_cond k hk
      have e1 : Inv m d L hq f O W k.val acc = IA m d L hq f O W k.val := if_pos (by omega)
      have e2 : Inv m d L hq f O W (k.val + 1) = fun _ => IB m d L f O W := funext fun _ => if_neg (by omega)
      rw [e1, e2]; exact region_neg m d L hq f O W V k hk
  · -- the invariant before the first trip
    have e0 : Inv m d L hq f O W 0 () = IA m d L hq f O W 0 := if_pos (by decide)
    rw [e0]; unfold IA DA owesP
    isplitl [Hmw]; · iexact Hmw
    isplitl [Hs3]
    · iapply (flight_conv (F := F) d L _ _ _ _ _ _ _ ?hs ?hι ?hD) $$ Hs3
      case hs => rfl
      case hι => rfl
      case hD =>
        change (iprop((((bA).view.loc (thr d L) ↦[(bA).view.set]{fullShare} _) ∗ ((rowM ![0, 0] inb_S10x64_S1x64_0_0).view.loc (thr d L) ↦[(rowM ![0, 0] inb_S10x64_S1x64_0_0).view.set]{fullShare} fiN m d L))
          ∗ ((tabS).view.loc (thr d L) ↦[(tabS).view.set]{(tq L).left} f)) : sProp (𝕄F F)) ⊢ _
        rw [tab_prog (F := F) d L (tq L).left f]
        exact DA_intro m d L hq f ![0, 0] inb_S10x64_S1x64_0_0 rfl (2 * 0) rfl (tq L).left _ (V.gA ![0, 0] inb_S10x64_S1x64_0_0 rfl (fun x => hin _ _ x) fa)
    isplitl [HtabB]; · iexact HtabB
    isplitl [HsI]
    · iapply (Entails.of_eq (congrArg (fun S => ((sI).view.loc (thr d L) ↦[Finset.univ \ S]{fullShare} fiN m d L : sProp (𝕄F F))) (set_rowM ![0, 0] inb_S10x64_S1x64_0_0 rfl))); iexact HsI
    isplitl [HbB]; · iexists _; iexact HbB
    isplitl [Hs4]; · iexact Hs4
    isplitl [Hs5]; · iexact Hs5
    isplitl [Hs6]; · iexact Hs6
    isplitl [Hdone]; · iexact Hdone
    isplitl [Htodo]; · iexact Htodo
    iexists _; isplitr; swap
    · iexact HO
    · ipureintro; intro p hp
      rcases Finset.mem_insert.mp hp with rfl | hp
      · exact .inr rfl
      exact .inl hp
  -- after the loop: the two last windows' copies out are waited for
  iintro %acc HI
  have e5 : Inv m d L hq f O W k1_t1_loop.trips acc = IB m d L f O W := if_neg (by decide)
  ihave HI := (Entails.of_eq e5) $$ HI
  unfold IB owesP
  icases HI with ⟨#Hmw', HtabA', HtabB', HsI', HFCA, HFCB, Hs3', Hs4', Hdone', ⟨%W', %hW', HO'⟩⟩
  ihave Hmw5 := (Transfers.MayWaits.elim (SemLoc.dma cc1_scratch5.sem)) $$ Hmw'
  iapply (Transfers.wp_waitLocalO countersEmb 𝒱₀ (thr d L) none (none : HIx 2) (N := 262144) rfl) $$ [HFCA HO' Hmw5]
  · isplitl [HFCA]; · iexact HFCA
    isplitl [HO']; · iexact HO'
    iexact Hmw5
  iintro ⟨⟨Hd8, ⟨%fa', HbA'⟩⟩, Hs5', HO'⟩
  ihave Hmw6 := (Transfers.MayWaits.elim (SemLoc.dma cc1_scratch6.sem)) $$ Hmw'
  simp only [Prog.lift, Prog.bind_op, Prog.bind_ret, Prog.pure_eq_ret]
  iapply (Transfers.wp_waitLocalO countersEmb 𝒱₀ (thr d L) none (none : HIx 2) (N := 262144) rfl) $$ [HFCB HO' Hmw6]
  · isplitl [HFCB]; · iexact HFCB
    isplitl [HO']; · iexact HO'
    iexact Hmw6
  iintro ⟨⟨Hd9, ⟨%fb', HbB'⟩⟩, Hs6', HO'⟩
  sl_step
  have jt : (iprop((View.loc (thr d L) (View.whole (main_v1_scv : Ref sig .scVector)) ↦{(tq L).left} f) ∗ (View.loc (thr d L) (View.whole (main_v1_scv : Ref sig .scVector)) ↦{(tq L).right} f)) : sProp (𝕄F F))
      ⊢ (View.loc (thr d L) (View.whole (main_v1_scv : Ref sig .scVector)) ↦{tq L} f) := (pointsTo_share (PosShare.mem_left_op_right (tq L))).2
  isplitl [HtabA' HtabB']
  · iapply jt; isplitl [HtabA'] <;> iassumption
  isplitl [Hix]; · iexact Hix
  isplitl [Hdone' Hd8 Hd9]
  · iapply (doneP_congr m d L (base L) (base L) (512 + 64 + 64) 640 rfl (by omega))
    iapply (done_append m d L (base L) (512 + 64) 64)
    isplitl [Hdone' Hd8]
    · iapply (done_append m d L (base L) 512 64); isplitl [Hdone'] <;> iassumption
    · iapply (doneP_congr m d L (base L + 576) (base L + (512 + 64)) 64 64 (by omega) rfl) $$ Hd9
  isplitl [HsI']; · iexists _; iexact HsI'
  isplitl [HbA']
  · iexists fa'
    have eA : ((View.loc (thr d L) (View.whole (cc1_scratch1 : Ref sig .scVector)) ↦[(View.whole (cc1_scratch1 : Ref sig .scVector)).set]{fullShare} fa' : sProp (𝕄F F)))
        = (View.loc (thr d L) (View.whole (cc1_scratch1 : Ref sig .scVector)) ↦[Finset.univ]{fullShare} fa') := by rw [View.set_whole]
    iapply (Entails.of_eq eA); iexact HbA'
  isplitl [HbB']
  · iexists fb'
    have eB : ((View.loc (thr d L) (View.whole (cc1_scratch2 : Ref sig .scVector)) ↦[(View.whole (cc1_scratch2 : Ref sig .scVector)).set]{fullShare} fb' : sProp (𝕄F F)))
        = (View.loc (thr d L) (View.whole (cc1_scratch2 : Ref sig .scVector)) ↦[Finset.univ]{fullShare} fb') := by rw [View.set_whole]
    iapply (Entails.of_eq eB); iexact HbB'
  isplitl [Hs3']; · iexact Hs3'
  isplitl [Hs4']; · iexact Hs4'
  isplitl [Hs5']; · iexact Hs5'
  isplitl [Hs6']; · iexact Hs6'
  isplitl [Hs0]; · iapply (semVal_cast (F := F) d L _ _ ?h0) $$ Hs0; case h0 => rfl
  isplitl [HO']
  · iexists _; isplitr; swap
    · iexact HO'
    · ipureintro; intro p hp
      rcases Finset.mem_insert.mp hp with rfl | hp
      · exact .inr rfl
      rcases Finset.mem_insert.mp hp with rfl | hp
      · exact .inr rfl
      exact hW' p hp
  iexact HR

end G1

end Cert.Kernel.Hand

end
-- ==== Proof.Bits.ScBody1Val.lean ====
/-
  What the first SparseCore kernel's copies carry, as pure facts: the index scratch's words are query tokens; a gather of
  window r leaves in its buffer the table rows those tokens name; the buffer copied out to the window's rows of the output
  makes those rows hold, in their first 64 columns, the embedding rows of the window's tokens.
-/
import proofs.«218768_g80616536146796_cont_9to1c4b_775_25_alg».proof.Proof.Bits.ScBody1Defs
import Idealize.ShloMosaic.Lib.ValueLayout

noncomputable section

namespace Cert.Kernel.Hand

open Cert.Kernel Cert.Kernel.Gen

open Idealize.ShloMosaic
open Idealize.ShloMosaic.SparseCore (S V T)
open Idealize.SL Idealize.SL.RA Idealize.SL.BI
open Idealize.ShloMosaic.ValueIdx

variable {F : FTy → Type}

namespace G1

variable (m : (ℓ : Loc nD τ sig) → Buf (Elt F) ℓ) [FloatOps F]
variable (d : Dev nD) (L : grid1.Coords)

/-- One piece written whole through a whole buffer's view replaces the contents. -/
theorem writes_whole_whole {κ : Kind} {Val : EltTy → Type} (b : Ref sig κ) (ga : b.ty.Contents Val) (p : (Rect.whole b.ty.shape).shape.Idx → Val b.ty.elt) :
    (View.whole b).writes Val ga [⟨Rect.whole b.ty.shape, p⟩] = p := by
  funext i
  have hi : ((View.whole b).slice (Rect.whole b.ty.shape)).emb i = i := by
    funext a; apply Fin.ext
    simp [Rect.whole]
  have h := View.write_emb_of_mem (v := (View.whole b).slice (Rect.whole b.ty.shape)) ga p (Finset.mem_univ i)
  rw [hi] at h
  rw [View.writes_singleton, h]; rfl

omit [FloatOps F] in
theorem base_lt (r : Fin 10) (j : Fin 64) : base L + 64 * r.val + j.val < 20480 := by
  have h0 : (L 0).val < 2 := (L 0).isLt
  have h1 : (L 1).val < 16 := (L 1).isLt
  unfold base; omega

/-- Word j of row r of the index scratch is query token base + 64 r + j. -/
theorem fiN_apply (r : Fin 10) (j : Fin 64) :
    fiN m d L (ix2 r j) = Cert.Spec.qTok (m (loc d main_arg0)) ⟨base L + 64 * r.val + j.val, base_lt L r j⟩ := by
  have h0 : (L 0).val < 2 := (L 0).isLt
  have h1 : (L 1).val < 16 := (L 1).isLt
  have hw : 2 * (L 1).val + (L 0).val < 32 := by omega
  have hre : Shape.reshapeEquiv (squeezes_S1x10x64_S10x64.numel_eq) (ix2 r j : S10x64.Idx) = (ix3 (⟨0, Nat.one_pos⟩ : Fin 1) r j : S1x10x64.Idx) :=
    reshapeEquiv_ix2_1ab _ r j
  have hidx : (ixRow L).view.emb (ix2 r j) = (ix3 ⟨2 * (L 1).val + (L 0).val, hw⟩ r j : S32x10x64.Idx) := by
    show (Rect.unit (s := S32x10x64) (k1_off1 L) S1x10x64.size (k1_off1_inb L)).emb (Shape.reshapeEquiv (squeezes_S1x10x64_S10x64.numel_eq) (ix2 r j)) = _
    rw [hre]
    funext a
    apply Fin.ext
    rw [Rect.emb_apply]
    simp only [Rect.off_unit, Rect.stride_unit, k1_off1_eq]
    match a with
    | ⟨0, _⟩ => show 2 * (L 1).val + (L 0).val + 1 * 0 = 2 * (L 1).val + (L 0).val; omega
    | ⟨1, _⟩ => show 0 + 1 * r.val = r.val; omega
    | ⟨2, _⟩ => show 0 + 1 * j.val = j.val; omega
  unfold fiN
  rw [View.read_apply, hidx, idx3_apply, cast_eq]
  congr 1
  apply Fin.ext
  show (2 * (L 1).val + (L 0).val) * 640 + r.val * 64 + j.val = base L + 64 * r.val + j.val
  unfold base; omega

/-- What a gather through row off of the index scratch delivers. -/
theorem gather_ok (hq : ∀ d i, ((m (loc d main_arg0)) i).toNat < 1000000) (f : Buf (Elt F) (loc d main_v1))
    (off : Fin 2 → ℕ) (h : ∀ a, off a + S1x64.size a ≤ S10x64.size a) (h1 : off 1 = 0)
    (hin' : ∀ x, ((rowM off h).view.read (Elt F) (fiN m d L) x).toNat < S1000000x128.size gathers_S1000000x128_S64x128.axis) :
    GOK m d L hq f (off 0)
      (SparseCore.gatherPayload gathers_S1000000x128_S64x128 (View.read (Elt F) (tabS).view f)
        (SparseCore.rows (View.read (Elt F) (rowM off h).view (fiN m d L)) rfl hin')) := by
  have h0 : off 0 + 1 ≤ 10 := h 0
  have hmod : off 0 % 10 = off 0 := Nat.mod_eq_of_lt (by omega)
  have hread : ∀ k : Fin 64, (rowM off h).view.read (Elt F) (fiN m d L) (ix1 k : S64.Idx)
      = fiN m d L (ix2 ⟨off 0 % 10, Nat.mod_lt _ (by decide)⟩ k) := by
    intro k
    have hre : Shape.reshapeEquiv (squeezes_S1x64_S64.numel_eq) (ix1 k : S64.Idx) = (ix2 (⟨0, Nat.one_pos⟩ : Fin 1) k : S1x64.Idx) :=
      Shape.reshapeEquiv_eq_of_rowMajor _ (by
        rw [Shape.rowMajor_val_two, Shape.rowMajor_val_one]; show 0 * 64 + k.val = k.val; omega)
    have hidx : (rowM off h).view.emb (ix1 k) = (ix2 ⟨off 0 % 10, Nat.mod_lt _ (by decide)⟩ k : S10x64.Idx) := by
      show (Rect.unit (s := S10x64) off S1x64.size h).emb (Shape.reshapeEquiv (squeezes_S1x64_S64.numel_eq) (ix1 k)) = _
      rw [hre]
      funext a; apply Fin.ext
      match a with
      | ⟨0, _⟩ => show off 0 + 1 * 0 = off 0 % 10; omega
      | ⟨1, _⟩ => show off 1 + 1 * k.val = k.val; omega
    rw [View.read_apply, hidx, cast_eq]
  have hsymm : ∀ k : Fin S64.numel, S64.rowMajor.symm k = (ix1 (k.cast (by decide)) : S64.Idx) := fun k =>
    (Equiv.symm_apply_eq _).mpr (Fin.ext (by rw [Shape.rowMajor_val_one]; rfl))
  have hemb : ∀ y : S1000000x128.Idx, (tabS).view.emb y = y := by
    intro y; funext a; apply Fin.ext
    match a with
    | ⟨0, _⟩ => show 0 + 1 * (y 0).val = (y 0).val; omega
    | ⟨1, _⟩ => show 0 + 1 * (y 1).val = (y 1).val; omega
  unfold GOK
  intro x
  unfold SparseCore.gatherPayload
  rw [View.read_apply, hemb, cast_eq]
  refine congrArg f ?_
  funext b; apply Fin.ext
  match b with
  | ⟨0, _⟩ =>
    refine (congrArg Fin.val (Shape.Gathers.idx_axis gathers_S1000000x128_S64x128 _ x)).trans ?_
    show (View.read (Elt F) (rowM off h).view (fiN m d L) (S64.rowMajor.symm _)).toNat = _
    rw [hsymm, hread]; rfl
  | ⟨1, _⟩ => exact Shape.Gathers.idx_of_ne gathers_S1000000x128_S64x128 _ x ⟨1, by decide⟩ (by decide)

/-- The window of the output written with a buffer that holds window r's gathered rows. -/
theorem win_done (hq : ∀ d i, ((m (loc d main_arg0)) i).toNat < 1000000) (f : Buf (Elt F) (loc d main_v1))
    (hf : Cert.Spec.Tab2OK (m (loc d main_arg2)) f)
    (off : Fin 2 → ℕ) (h : ∀ a, off a + S64x128.size a ≤ S20480x128.size a) (h1 : off 1 = 0)
    (r : ℕ) (hr : r < 10) (ho : off 0 = base L + 64 * r)
    (g1 : Buf (Elt F) (loc d main_v4)) (p : S64x128.Idx → F .f32) (hp : GOK m d L hq f r p) :
    RowsDone (Cert.Spec.qTok (m (loc d main_arg0))) (m (loc d main_arg2)) (off 0) 64
      ((winM off h).view.writes (Elt F) g1 [⟨Rect.whole S64x128, p⟩]) := by
  unfold RowsDone
  intro rr e hlo hhi
  have hx0 : rr.val - off 0 < 64 := by omega
  have hr10 : r % 10 = r := Nat.mod_eq_of_lt hr
  have hemb : ((winM off h).view.slice (Rect.whole S64x128)).emb (ix2 (⟨rr.val - off 0, hx0⟩ : Fin 64) (Cert.Spec.col e)) = (ix2 rr (Cert.Spec.col e) : S20480x128.Idx) := by
    funext a; apply Fin.ext
    match a with
    | ⟨0, _⟩ => show off 0 + 1 * (0 + 1 * (rr.val - off 0)) = rr.val; omega
    | ⟨1, _⟩ => show off 1 + 1 * (0 + 1 * e.val) = e.val; omega
  have hw := View.write_emb_of_mem (v := (winM off h).view.slice (Rect.whole S64x128)) g1 p (Finset.mem_univ (ix2 (⟨rr.val - off 0, hx0⟩ : Fin 64) (Cert.Spec.col e)))
  rw [hemb] at hw
  rw [View.writes_singleton, hw, cast_eq, hp]
  have htok : fiN m d L (ix2 ⟨r % 10, Nat.mod_lt _ (by decide)⟩ (⟨rr.val - off 0, hx0⟩ : Fin 64)) = Cert.Spec.qTok (m (loc d main_arg0)) rr := by
    rw [fiN_apply]; congr 1; apply Fin.ext; show base L + 64 * (r % 10) + (rr.val - off 0) = rr.val; omega
  have hv : (⟨(fiN m d L (ix2 ⟨r % 10, Nat.mod_lt _ (by decide)⟩ (⟨rr.val - off 0, hx0⟩ : Fin 64))).toNat, fiN_lt m d L hq _⟩ : Fin 1000000) = Cert.Spec.row (Cert.Spec.qTok (m (loc d main_arg0)) rr) := by
    apply Fin.ext
    rw [Cert.Spec.row_val_of_lt (by unfold Cert.Spec.qTok; exact hq d _)]
    exact congrArg BitVec.toNat htok
  exact (congrArg (fun v => f (ix2 v (Cert.Spec.col e))) hv).trans (hf _ e)

end G1

end Cert.Kernel.Hand

end
-- ==== Proof.Bits.ScBody1.lean ====
/-
  The launch theorem's obligation for the first SparseCore call: the task of one vector subcore, from what the sequencer's
  handshake hands it (read shares of the table and of the index array, its rows of the output) and its own scratch and
  semaphores, to the same back with its rows of the output holding the table rows its tokens name.
-/
import proofs.«218768_g80616536146796_cont_9to1c4b_775_25_alg».proof.Proof.Bits.ScBody1Core
import proofs.«218768_g80616536146796_cont_9to1c4b_775_25_alg».proof.Proof.Bits.ScBody1Val

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G1

variable (m : (ℓ : Loc nD τ sig) → Buf (Elt F) ℓ) [FloatOps F]
variable (d : Dev nD) (L : grid1.Coords)

variable (hq : ∀ d i, ((m (loc d main_arg0)) i).toNat < 1000000) (f : Buf (Elt F) (loc d main_v1))
variable (O : CellTallies nD τ sig (HIx 2)) (W : Waits sig (HIx 2))

/-! ## The obligation of the launch theorem -/

abbrev cell (s : DmaSems sig S_) : GSem nD τ sig := (thr d L, SemLoc.dma s.sem)

omit [FloatOps F] in
theorem ownSems0_V :
    (ownSems0 (thr d L) : sProp (𝕄F F))
      = iprop(semVal (cell d L cc1_scratch3) 0 ∗ semVal (cell d L cc1_scratch4) 0 ∗ semVal (cell d L cc1_scratch5) 0
          ∗ semVal (cell d L cc1_scratch6) 0 ∗ semVal (cell d L cc1_scoped0) 0
          ∗ bigSep ((((((ownCells (thr d L)).erase (cell d L cc1_scratch3)).erase (cell d L cc1_scratch4)).erase (cell d L cc1_scratch5)).erase
              (cell d L cc1_scratch6)).erase (cell d L cc1_scoped0)) fun g => semVal g 0) := by
  have ne : ∀ {s s' : DmaSems sig S_}, s.sem ≠ s'.sem → cell d L s ≠ cell d L s' :=
    fun hne e => hne (SemLoc.dma.inj (congrArg Prod.snd e))
  have m3 : cell d L cc1_scratch3 ∈ ownCells (thr d L) :=
    (mem_ownCells (g := cell d L cc1_scratch3)).mpr ⟨rfl, by show (SemLoc.dma cc1_scratch3.sem : SemLoc sig).isScoped .scVector = true; decide⟩
  have m4 : cell d L cc1_scratch4 ∈ ownCells (thr d L) :=
    (mem_ownCells (g := cell d L cc1_scratch4)).mpr ⟨rfl, by show (SemLoc.dma cc1_scratch4.sem : SemLoc sig).isScoped .scVector = true; decide⟩
  have m5 : cell d L cc1_scratch5 ∈ ownCells (thr d L) :=
    (mem_ownCells (g := cell d L cc1_scratch5)).mpr ⟨rfl, by show (SemLoc.dma cc1_scratch5.sem : SemLoc sig).isScoped .scVector = true; decide⟩
  have m6 : cell d L cc1_scratch6 ∈ ownCells (thr d L) :=
    (mem_ownCells (g := cell d L cc1_scratch6)).mpr ⟨rfl, by show (SemLoc.dma cc1_scratch6.sem : SemLoc sig).isScoped .scVector = true; decide⟩
  have m0 : cell d L cc1_scoped0 ∈ ownCells (thr d L) :=
    (mem_ownCells (g := cell d L cc1_scoped0)).mpr ⟨rfl, by show (SemLoc.dma cc1_scoped0.sem : SemLoc sig).isScoped .scVector = true; decide⟩
  unfold SparseCore.Cfg.ownSems0
  rw [SparseCore.bigSep_erase' m3,
    SparseCore.bigSep_erase' (Finset.mem_erase.mpr ⟨ne (by decide), m4⟩),
    SparseCore.bigSep_erase' (Finset.mem_erase.mpr ⟨ne (by decide), Finset.mem_erase.mpr ⟨ne (by decide), m5⟩⟩),
    SparseCore.bigSep_erase' (Finset.mem_erase.mpr ⟨ne (by decide), Finset.mem_erase.mpr ⟨ne (by decide), Finset.mem_erase.mpr ⟨ne (by decide), m6⟩⟩⟩),
    SparseCore.bigSep_erase' (Finset.mem_erase.mpr ⟨ne (by decide), Finset.mem_erase.mpr ⟨ne (by decide),
      Finset.mem_erase.mpr ⟨ne (by decide), Finset.mem_erase.mpr ⟨ne (by decide), m0⟩⟩⟩⟩)]

omit [FloatOps F] in
/-- The three scratch buffers are among the subcore's own: they are them, at some contents, and the rest. -/
theorem ownBufs_V :
    (ownBufs (thr d L) : sProp (𝕄F F))
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

include hq in
/-- The value facts, from the value module. -/
theorem vf (hf : Cert.Spec.Tab2OK (m (loc d main_arg2)) f) : VF m d L hq f where
  gA := fun off h h1 hin' ga0 => by
    rw [show (bA).view.writes (Elt F) ga0 [⟨Rect.whole S64x128, SparseCore.gatherPayload gathers_S1000000x128_S64x128 (View.read (Elt F) (tabS).view f)
          (SparseCore.rows (View.read (Elt F) (rowM off h).view (fiN m d L)) rfl hin')⟩] = _ from writes_whole_whole cc1_scratch1 ga0 _]
    exact gather_ok m d L hq f off h h1 hin'
  gB := fun off h h1 hin' gb0 => by
    rw [show (bB).view.writes (Elt F) gb0 [⟨Rect.whole S64x128, SparseCore.gatherPayload gathers_S1000000x128_S64x128 (View.read (Elt F) (tabS).view f)
          (SparseCore.rows (View.read (Elt F) (rowM off h).view (fiN m d L)) rfl hin')⟩] = _ from writes_whole_whole cc1_scratch2 gb0 _]
    exact gather_ok m d L hq f off h h1 hin'
  win := fun off h h1 r hr ho g1 p hp => win_done m d L hq f hf off h h1 r hr ho g1 p hp

/-- What the task leaves, restated for the handshake. -/
theorem post_ent (hf : Cert.Spec.Tab2OK (m (loc d main_arg2)) f) (Rb Rs : sProp (𝕄F F)) :
    (iprop(((tabV).view.loc (thr d L) ↦{tq L} f) ∗ ((ixV).view.loc (thr d L) ↦{tq L} idx3 m d)
            ∗ doneP m d L (base L) 640
            ∗ (∃ fi : Buf (Elt F) ((thr d L).loc cc1_scratch0), (sI).view.loc (thr d L) ↦{fullShare} fi)
            ∗ (∃ fa : Buf (Elt F) ((thr d L).loc cc1_scratch1), (bA).view.loc (thr d L) ↦{fullShare} fa)
            ∗ (∃ fb : Buf (Elt F) ((thr d L).loc cc1_scratch2), (bB).view.loc (thr d L) ↦{fullShare} fb)
            ∗ semVal (thr d L, SemLoc.dma cc1_scratch3.sem) 0 ∗ semVal (thr d L, SemLoc.dma cc1_scratch4.sem) 0
            ∗ semVal (thr d L, SemLoc.dma cc1_scratch5.sem) 0 ∗ semVal (thr d L, SemLoc.dma cc1_scratch6.sem) 0
            ∗ semVal (thr d L, SemLoc.dma cc1_scoped0.sem) 0
            ∗ (∃ W', ⌜∀ p ∈ W', p ∈ W ∨ p.2 = none⌝ ∗ owes (thr d L) O W') ∗ iprop(Rb ∗ Rs)) : sProp (𝕄F F))
      ⊢ iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx3 m d)
              ∗ ∃ g : Buf (Elt F) (loc d main_v4), ⌜RowsDone (Cert.Spec.qTok (m (loc d main_arg0))) (m (loc d main_arg2)) (base L) 640 g⌝
                  ∗ ((outV).view.loc (thr d L) ↦[rowsOf 20480 (base L) 640]{fullShare} g))
            ∗ ((∃ fi : Buf (Elt F) ((thr d L).loc cc1_scratch0), (sI).view.loc (thr d L) ↦{fullShare} fi)
              ∗ (∃ fa : Buf (Elt F) ((thr d L).loc cc1_scratch1), (bA).view.loc (thr d L) ↦{fullShare} fa)
              ∗ (∃ fb : Buf (Elt F) ((thr d L).loc cc1_scratch2), (bB).view.loc (thr d L) ↦{fullShare} fb) ∗ Rb)
            ∗ (semVal (thr d L, SemLoc.dma cc1_scratch3.sem) 0 ∗ semVal (thr d L, SemLoc.dma cc1_scratch4.sem) 0
              ∗ semVal (thr d L, SemLoc.dma cc1_scratch5.sem) 0 ∗ semVal (thr d L, SemLoc.dma cc1_scratch6.sem) 0
              ∗ semVal (thr d L, SemLoc.dma cc1_scoped0.sem) 0 ∗ Rs)
            ∗ ∃ W', ⌜∀ p ∈ W', p ∈ W ∨ p.2 = none⌝ ∗ owes (thr d L) O W') := by
  unfold doneP
  iintro ⟨Htab, Hix, Hdone, HsI, HbA, HbB, Hs3, Hs4, Hs5, Hs6, Hs0, HO, HRb, HRs⟩
  isplitl [Htab Hix Hdone]
  · isplitl [Htab]
    · iexists f; isplitr
      · ipureintro; exact hf
      · iexact Htab
    isplitl [Hix]; · iexact Hix
    iexact Hdone
  isplitl [HsI HbA HbB HRb]
  · isplitl [HsI]; · iexact HsI
    isplitl [HbA]; · iexact HbA
    isplitl [HbB]; · iexact HbB
    iexact HRb
  isplitl [Hs3 Hs4 Hs5 Hs6 Hs0 HRs]
  · isplitl [Hs3]; · iexact Hs3
    isplitl [Hs4]; · iexact Hs4
    isplitl [Hs5]; · iexact Hs5
    isplitl [Hs6]; · iexact Hs6
    isplitl [Hs0]; · iexact Hs0
    iexact HRs
  iexact HO

include hq in
/-- The task, from what the handshake hands the subcore to what it hands back, the subcore's other buffers and
    semaphores (Rb, Rs) untouched. -/
theorem tile_body' (hO : ∀ g, O g none = 0) (Rb Rs : sProp (𝕄F F)) :
    iprop(levAts (K (F := F)).L (K (F := F)).lev ∗ emp
        ∗ ((∃ f : Buf (Elt F) (loc d main_v1), ⌜Cert.Spec.Tab2OK (m (loc d main_arg2)) f⌝ ∗ ((tabV).view.loc (thr d L) ↦{tq L} f))
          ∗ ((ixV).view.loc (thr d L) ↦{tq L} idx3 m d)
          ∗ ∃ g : Buf (Elt F) (loc d main_v4), ((outV).view.loc (thr d L) ↦[rowsOf 20480 (base L) 640]{fullShare} g))
        ∗ ((∃ fi : Buf (Elt F) ((thr d L).loc cc1_scratch0), (sI).view.loc (thr d L) ↦{fullShare} fi)
          ∗ (∃ fa : Buf (Elt F) ((thr d L).loc cc1_scratch1), (bA).view.loc (thr d L) ↦{fullShare} fa)
          ∗ (∃ fb : Buf (Elt F) ((thr d L).loc cc1_scratch2), (bB).view.loc (thr d L) ↦{fullShare} fb) ∗ Rb)
        ∗ (semVal (thr d L, SemLoc.dma cc1_scratch3.sem) 0 ∗ semVal (thr d L, SemLoc.dma cc1_scratch4.sem) 0
          ∗ semVal (thr d L, SemLoc.dma cc1_scratch5.sem) 0 ∗ semVal (thr d L, SemLoc.dma cc1_scratch6.sem) 0
          ∗ semVal (thr d L, SemLoc.dma cc1_scoped0.sem) 0 ∗ Rs)
        ∗ owes (thr d L) O W)
      ⊢ wp frame (wpE (defs₀ (F := F)) 𝒱₀ (thr d L) none) Set.univ
          (cc1_gather_kernel L tabV (Memref.isWhole_whole _) ixV (Memref.isWhole_whole _) outV (Memref.isWhole_whole _)
            sI (Memref.isWhole_whole _) bA (Memref.isWhole_whole _) bB (Memref.isWhole_whole _) cc1_scratch3 cc1_scratch4 cc1_scratch5 cc1_scratch6 cc1_scoped0)
          fun _ => iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx3 m d)
              ∗ ∃ g : Buf (Elt F) (loc d main_v4), ⌜RowsDone (Cert.Spec.qTok (m (loc d main_arg0))) (m (loc d main_arg2)) (base L) 640 g⌝
                  ∗ ((outV).view.loc (thr d L) ↦[rowsOf 20480 (base L) 640]{fullShare} g))
            ∗ ((∃ fi : Buf (Elt F) ((thr d L).loc cc1_scratch0), (sI).view.loc (thr d L) ↦{fullShare} fi)
              ∗ (∃ fa : Buf (Elt F) ((thr d L).loc cc1_scratch1), (bA).view.loc (thr d L) ↦{fullShare} fa)
              ∗ (∃ fb : Buf (Elt F) ((thr d L).loc cc1_scratch2), (bB).view.loc (thr d L) ↦{fullShare} fb) ∗ Rb)
            ∗ (semVal (thr d L, SemLoc.dma cc1_scratch3.sem) 0 ∗ semVal (thr d L, SemLoc.dma cc1_scratch4.sem) 0
              ∗ semVal (thr d L, SemLoc.dma cc1_scratch5.sem) 0 ∗ semVal (thr d L, SemLoc.dma cc1_scratch6.sem) 0
              ∗ semVal (thr d L, SemLoc.dma cc1_scoped0.sem) 0 ∗ Rs)
            ∗ ∃ W', ⌜∀ p ∈ W', p ∈ W ∨ p.2 = none⌝ ∗ owes (thr d L) O W') := by
  iintro ⟨#Hlv, -, ⟨⟨%f, %hf, Htab⟩, Hix, ⟨%g0, Hout⟩⟩, ⟨⟨%fi, HsI⟩, ⟨%fa, HbA⟩, ⟨%fb, HbB⟩, HRb⟩, ⟨Hs3, Hs4, Hs5, Hs6, Hs0, HRs⟩, HO⟩
  iapply (BIBase.Entails.trans (tile_core m d L hq f O W (vf m d L hq f hf) hO g0 fi fa fb iprop(Rb ∗ Rs))
    (wp_mono frame _ _ fun _ => post_ent m d L f O W hf Rb Rs))
  isplitr; · iexact Hlv
  isplitl [Htab]; · iexact Htab
  isplitl [Hix]; · iexact Hix
  isplitl [Hout]; · iexact Hout
  isplitl [HsI]; · iexact HsI
  isplitl [HbA]; · iexact HbA
  isplitl [HbB]; · iexact HbB
  isplitl [Hs3]; · iexact Hs3
  isplitl [Hs4]; · iexact Hs4
  isplitl [Hs5]; · iexact Hs5
  isplitl [Hs6]; · iexact Hs6
  isplitl [Hs0]; · iexact Hs0
  isplitl [HO]; · iexact HO
  isplitl [HRb]; · iexact HRb
  iexact HRs

include hq in
/-- The same at the spelling of the launch theorem's obligation. -/
theorem tile_body (hF : (K (F := F)).Facts) (hO : ∀ g, O g none = 0) :
    iprop(levAts (K (F := F)).L (K (F := F)).lev ∗ emp ∗ go0 m d (L 0).val (L 1).val
        ∗ scopedBufs (thr d L) ∗ scopedSems0 (thr d L) ∗ owes (thr d L) O W)
      ⊢ wp frame (wpE (defs₀ (F := F)) 𝒱₀ (thr d L) none) Set.univ
          (cc1_gather_kernel L tabV (Memref.isWhole_whole _) ixV (Memref.isWhole_whole _) outV (Memref.isWhole_whole _)
            sI (Memref.isWhole_whole _) bA (Memref.isWhole_whole _) bB (Memref.isWhole_whole _) cc1_scratch3 cc1_scratch4 cc1_scratch5 cc1_scratch6 cc1_scoped0)
          fun _ => iprop(td0 m d (L 0).val (L 1).val ∗ scopedBufs (thr d L) ∗ scopedSems0 (thr d L)
            ∗ ∃ W', ⌜∀ p ∈ W', p ∈ W ∨ p.2 = none⌝ ∗ owes (thr d L) O W') := by
  unfold go0 td0 tabAt task0
  rw [← base_eq L, (K (F := F)).scopedBufs_V hF d (cV L) (jV L), SparseCore.Cfg.scopedSems0_V (Val := Elt F) d (cV L) (jV L),
    ownSems0_V, ownBufs_V]
  exact tile_body' m d L hq O W hO _ _

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tabV (Memref.isWhole_whole _) ixV (Memref.isWhole_whole _) outV (Memref.isWhole_whole _)
          sI (Memref.isWhole_whole _) bA (Memref.isWhole_whole _) bB (Memref.isWhole_whole _) cc1_scratch3 cc1_scratch4 cc1_scratch5 cc1_scratch6 cc1_scoped0) ⟨⟩ c s := rfl

omit [FloatOps F] in
theorem obl_post {thr : Thread nD τ} {A B C : sProp (𝕄F F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G1

/-- The first SparseCore call's task, at every vector subcore of its grid. -/
theorem tileObl0 (m : (ℓ : Loc nD τ sig) → Buf (Elt F) ℓ) [FloatOps F]
    (hq : ∀ (d : Dev nD) i, ((m (loc d main_arg0)) i).toNat < 1000000) (hd : ∀ (d : Dev nD) i, ((m (loc d main_arg1)) i).toNat < 1000000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [G1.defs₀_vector]; simp only [SparseCore.onTile, hc, and_self, ↓reduceDIte]
  exact (G1.tile_body m d (G1.coordsV ⟨_, hc.1⟩ ⟨_, hc.2⟩) hq O W facts hO).trans (wp_mono frame _ _ fun _ => G1.obl_post)

end Cert.Kernel.Hand

end
-- ==== Proof.Bits.ScBody2Defs.lean ====
/-
  The second SparseCore kernel (the document lookup) at a symbolic vector subcore: its operands in the program's spelling, the
  element sets its copies move, and what its index scratch holds.

  Worker L (core L 0, subcore L 1; worker number 2 * (L 1) + (L 0)) copies row L of the index array into its index
  scratch, then for each of its fifty windows w gathers the 128 table rows named by row w of the scratch into one of two
  buffers and copies the buffer out to rows [base + 128 w, base + 128 w + 128) of the output, base = 6400 * (worker number).
-/
import proofs.«218768_g80616536146796_cont_9to1c4b_775_25_alg».proof.Proof.Bits.ScPay
import proofs.«218768_g80616536146796_cont_9to1c4b_775_25_alg».proof.Proof.Gen.Kernel.Skeleton
import Idealize.ShloMosaic.Lib.SparseCore.Launch
import Idealize.ShloMosaic.Lib.SparseCore.Stream
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

/-! ## The first gather kernel's operands, in the program's spelling -/

abbrev tabV : Memref sig .scVector .hbm S1000000x128 .f32 := Memref.whole main_v1_scv
abbrev ixV : Memref sig .scVector .hbm S32x50x128 .i32 := Memref.whole main_v6_scv
abbrev outV : Memref sig .scVector .hbm S204800x128 .f32 := Memref.whole main_v7_scv
abbrev sI : Memref sig .scVector .vmem S50x128 .i32 := Memref.whole cc2_scratch0
abbrev bA : Memref sig .scVector .vmem S128x128 .f32 := Memref.whole cc2_scratch1
abbrev bB : Memref sig .scVector .vmem S128x128 .f32 := Memref.whole cc2_scratch2

/-- The table as every gather slices it (whole), a row of the index scratch, a window of the output. -/
abbrev tabS : Memref sig .scVector .hbm S1000000x128 .f32 :=
  tabV.slice (Rect.unit (s := S1000000x128) ![0, 0] S1000000x128.size inb_S1000000x128_S1000000x128_0_0) (fun _ => rfl)
abbrev rowM (off : Fin 2 → ℕ) (h : ∀ a, off a + S1x128.size a ≤ S50x128.size a) : Memref sig .scVector .vmem S128 .i32 :=
  (sI.slice (Rect.unit (s := S50x128) off S1x128.size h) (fun _ => rfl)).squeeze S128 squeezes_S1x128_S128
abbrev winM (off : Fin 2 → ℕ) (h : ∀ a, off a + S128x128.size a ≤ S204800x128.size a) : Memref sig .scVector .hbm S128x128 .f32 :=
  outV.slice (Rect.unit (s := S204800x128) off S128x128.size h) (fun _ => rfl)

/-- Row r of the index scratch, as a set of its elements. -/
def rowSetI (r : ℕ) : Finset S50x128.Idx := Finset.univ.filter fun x => (x 0).val = r

theorem set_tabS : (tabS).view.set = Finset.univ := by
  show ((View.whole (main_v1_scv : Ref sig .scVector)).slice (Rect.unit (s := S1000000x128) ![0, 0] S1000000x128.size inb_S1000000x128_S1000000x128_0_0)).set = _
  rw [View.set_slice_whole]
  ext x
  simp only [Rect.mem_set_unit, Finset.mem_univ, iff_true]
  refine (Fin.forall_fin_two (p := fun a => (![0, 0] : Fin 2 → ℕ) a ≤ (x a).val ∧ (x a).val < (![0, 0] : Fin 2 → ℕ) a + S1000000x128.size a)).mpr ⟨⟨Nat.zero_le _, ?_⟩, ⟨Nat.zero_le _, ?_⟩⟩
  · have h0 : (x 0).val < 1000000 := (x 0).isLt
    show (x 0).val < 0 + 1000000; omega
  · have h1 : (x 1).val < 128 := (x 1).isLt
    show (x 1).val < 0 + 128; omega

theorem set_rowM (off : Fin 2 → ℕ) (h : ∀ a, off a + S1x128.size a ≤ S50x128.size a) (h1 : off 1 = 0) :
    (rowM off h).view.set = rowSetI (off 0) := by
  show (((View.whole (cc2_scratch0 : Ref sig .scVector)).slice (Rect.unit (s := S50x128) off S1x128.size h)).reshape S128 squeezes_S1x128_S128.numel_eq).set = _
  rw [View.set_reshape, View.set_slice_whole]
  ext x
  simp only [Rect.mem_set_unit, rowSetI, Finset.mem_filter, Finset.mem_univ, true_and]
  refine (Fin.forall_fin_two (p := fun a => off a ≤ (x a).val ∧ (x a).val < off a + S1x128.size a)).trans ?_
  have hx1 : (x 1).val < 128 := (x 1).isLt
  show (off 0 ≤ (x 0).val ∧ (x 0).val < off 0 + 1) ∧ (off 1 ≤ (x 1).val ∧ (x 1).val < off 1 + 128) ↔ _
  omega

theorem set_winM (off : Fin 2 → ℕ) (h : ∀ a, off a + S128x128.size a ≤ S204800x128.size a) (h1 : off 1 = 0) :
    (winM off h).view.set = rowsOf 204800 (off 0) 128 := by
  show ((View.whole (main_v7_scv : Ref sig .scVector)).slice (Rect.unit (s := S204800x128) off S128x128.size h)).set = _
  rw [View.set_slice_whole]
  ext x
  simp only [Rect.mem_set_unit, rowsOf, Finset.mem_filter, Finset.mem_univ, true_and]
  refine (Fin.forall_fin_two (p := fun a => off a ≤ (x a).val ∧ (x a).val < off a + S128x128.size a)).trans ?_
  have hx1 : (x 1).val < 128 := (x 1).isLt
  show (off 0 ≤ (x 0).val ∧ (x 0).val < off 0 + 128) ∧ (off 1 ≤ (x 1).val ∧ (x 1).val < off 1 + 128) ↔ _
  omega

abbrev cV (L : grid2.Coords) : Fin τ.nSC := (L 0).castLE hcore2
abbrev jV (L : grid2.Coords) : Fin τ.nSub := (L 1).castLE hsub2

variable (m : (ℓ : Loc nD τ sig) → Buf (Elt F) ℓ) [FloatOps F]

variable (d : Dev nD) (L : grid2.Coords)

/-- The vector subcore that runs worker L. -/
abbrev thr : Thread nD τ := V d (cV L) (jV L)

/-- Worker L's row of the index array, as the kernel slices it. -/
abbrev ixRow : Memref sig .scVector .hbm S50x128 .i32 :=
  (ixV.slice (Rect.unit (s := S32x50x128) (k2_off1 L) S1x50x128.size (k2_off1_inb L)) (fun _ => rfl)).squeeze S50x128 squeezes_S1x50x128_S50x128

/-- What the index scratch holds once the worker's row is in: that row of the index array. -/
def fiN : Buf (Elt F) ((thr d L).loc cc2_scratch0) := (ixRow L).view.read (Elt F) (idx6 m d)

/-- Every word of the index array is one of the query token ids. -/
theorem idx6_lt (hq : ∀ d i, ((m (loc d main_arg1)) i).toNat < 1000000) (z : S32x50x128.Idx) : (idx6 m d z).toNat < 1000000 := by
  unfold idx6 shapeCast; exact hq d _

theorem fiN_lt (hq : ∀ d i, ((m (loc d main_arg1)) i).toNat < 1000000) (y : S50x128.Idx) : (fiN m d L y).toNat < 1000000 := by
  unfold fiN; rw [View.read_apply]; exact idx6_lt m d hq _

/-- The first row of the output worker L writes. -/
def base : ℕ := 12800 * (L 1).val + 6400 * (L 0).val

theorem base_eq : base L = wid (L 0).val (L 1).val * 6400 := by unfold base wid; omega

/-- What a gather of window r leaves in a buffer: row j holds the table row named by word j of row r of the index
    scratch. -/
def GOK (hq : ∀ d i, ((m (loc d main_arg1)) i).toNat < 1000000) (f : Buf (Elt F) (loc d main_v1)) (r : ℕ)
    (ga : S128x128.Idx → F .f32) : Prop :=
  ∀ x : S128x128.Idx, ga x = f (ix2 ⟨(fiN m d L (ix2 ⟨r % 50, Nat.mod_lt _ (by decide)⟩ (x 0))).toNat, fiN_lt m d L hq _⟩ (x 1))

end G2

end Cert.Kernel.Hand

end
-- ==== Proof.Bits.ScBody2Loop.lean ====
/-
  The second SparseCore kernel's loop: the invariant that holds before each trip (which window is being gathered into which
  buffer, each semaphore's counter, the rows of the output written so far with their values) and the two kinds of trip,
  each run once at a symbolic vector subcore and a symbolic trip.
-/
import proofs.«218768_g80616536146796_cont_9to1c4b_775_25_alg».proof.Proof.Bits.ScBody2Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

variable (m : (ℓ : Loc nD τ sig) → Buf (Elt F) ℓ) [FloatOps F]
variable (d : Dev nD) (L : grid2.Coords)

/-! ## Rows of the output, held piece by piece -/

/-- The worker's share of the table and of the index array. -/
abbrev tq : PosShare TreeShare := tSh (L 0).val (L 1).val

/-- Rows [o, o + n) of the output, done: their first 128 columns are the table rows their tokens name. -/
def doneP (o n : ℕ) : sProp (𝕄F F) :=
  iprop(∃ g : Buf (Elt F) (loc d main_v7), ⌜RowsDone (Cert.Spec.dTok (m (loc d main_arg1))) (m (loc d main_arg2)) o n g⌝
    ∗ ((outV).view.loc (thr d L) ↦[rowsOf 204800 o n]{fullShare} g))
/-- Rows [o, o + n) of the output, not yet written. -/
def todoP (o n : ℕ) : sProp (𝕄F F) :=
  iprop(∃ g : Buf (Elt F) (loc d main_v7), ((outV).view.loc (thr d L) ↦[rowsOf 204800 o n]{fullShare} g))

omit [FloatOps F] in
theorem rowsOf_union (n o a b : ℕ) : rowsOf n o (a + b) = rowsOf n o a ∪ rowsOf n (o + a) b := by
  ext x; simp only [Finset.mem_union, mem_rowsOf]; omega
omit [FloatOps F] in
theorem rowsOf_disj (n o a b : ℕ) : Disjoint (rowsOf n o a) (rowsOf n (o + a) b) := by
  rw [Finset.disjoint_left]; intro x h1 h2; rw [mem_rowsOf] at h1 h2; omega

theorem todo_split (o a b : ℕ) : todoP (F := F) d L o (a + b)
    ⊢ iprop((∃ g : Buf (Elt F) (loc d main_v7), ((outV).view.loc (thr d L) ↦[rowsOf 204800 o a]{fullShare} g)) ∗ todoP (F := F) d L (o + a) b) := by
  unfold todoP; rw [rowsOf_union 204800 o a b]
  iintro ⟨%g, H⟩
  ihave H' := (pointsTo_union (rowsOf_disj 204800 o a b)).1 $$ H
  icases H' with ⟨H1, H2⟩
  isplitl [H1]
  · iexists g; iexact H1
  · iexists g; iexact H2

theorem done_append (o a b : ℕ) : iprop(doneP m d L o a ∗ doneP m d L (o + a) b) ⊢ doneP m d L o (a + b) := by
  unfold doneP; rw [rowsOf_union 204800 o a b]
  iintro ⟨⟨%g1, %h1, H1⟩, ⟨%g2, %h2, H2⟩⟩
  ihave H := (pointsTo_join (ℓ := (outV).view.loc (thr d L)) (I := rowsOf 204800 o a) (J := rowsOf 204800 (o + a) b) (rowsOf_disj 204800 o a b)) $$ [H1 H2]
  · isplitl [H1] <;> iassumption
  iexists ((rowsOf 204800 (o + a) b).piecewise g2 g1)
  isplitr
  · ipureintro; intro r e hr1 hr2
    by_cases hlt : r.val < o + a
    · rw [Finset.piecewise_eq_of_notMem _ _ _ (by rw [mem_rowsOf]; show ¬ (o + a ≤ r.val ∧ r.val < o + a + b); omega)]
      exact h1 r e hr1 hlt
    · rw [Finset.piecewise_eq_of_mem _ _ _ (by rw [mem_rowsOf]; show o + a ≤ r.val ∧ r.val < o + a + b; omega)]
      exact h2 r e (by omega) (by omega)
  · iexact H

/-! ## The same elements, in the invariant's spelling and in the program's -/

omit [FloatOps F] in
theorem row_prog (off : Fin 2 → ℕ) (h : ∀ a, off a + S1x128.size a ≤ S50x128.size a) (h1 : off 1 = 0) (r : ℕ) (hr : off 0 = r)
    (q : PosShare TreeShare) (fi' : Buf (Elt F) ((thr d L).loc cc2_scratch0)) :
    (((sI).view.loc (thr d L) ↦[rowSetI r]{q} fi') : sProp (𝕄F F)) = ((rowM off h).view.loc (thr d L) ↦[(rowM off h).view.set]{q} fi') := by
  rw [set_rowM off h h1, hr]
omit [FloatOps F] in
theorem win_prog (off : Fin 2 → ℕ) (h : ∀ a, off a + S128x128.size a ≤ S204800x128.size a) (h1 : off 1 = 0) (o : ℕ) (ho : off 0 = o)
    (q : PosShare TreeShare) (g : Buf (Elt F) (loc d main_v7)) :
    (((outV).view.loc (thr d L) ↦[rowsOf 204800 o 128]{q} g) : sProp (𝕄F F)) = ((winM off h).view.loc (thr d L) ↦[(winM off h).view.set]{q} g) := by
  rw [set_winM off h h1, ho]
omit [FloatOps F] in
theorem tab_prog (q : PosShare TreeShare) (f : Buf (Elt F) (loc d main_v1)) :
    (((tabV).view.loc (thr d L) ↦[Finset.univ]{q} f) : sProp (𝕄F F)) = ((tabS).view.loc (thr d L) ↦[(tabS).view.set]{q} f) := by
  rw [set_tabS]

/-! ## The loop's invariant -/

variable (hq : ∀ d i, ((m (loc d main_arg1)) i).toNat < 1000000) (f : Buf (Elt F) (loc d main_v1))
variable (O : CellTallies nD τ sig (HIx 2)) (W : Waits sig (HIx 2))

/-- The thread's debt, with the waits it has recorded since the task began. -/
def owesP : sProp (𝕄F F) := iprop(∃ W', ⌜∀ p ∈ W', p ∈ W ∨ p.2 = none⌝ ∗ owes (thr d L) O W')

/-- What a gather of window r into the first buffer delivers, in the invariant's spelling. -/
def DA (r : ℕ) : sProp (𝕄F F) :=
  iprop(((∃ ga : Buf (Elt F) ((thr d L).loc cc2_scratch1), ⌜GOK m d L hq f r ga⌝ ∗ ((bA).view.loc (thr d L) ↦[(bA).view.set]{fullShare} ga))
        ∗ ((sI).view.loc (thr d L) ↦[rowSetI r]{fullShare} fiN m d L))
      ∗ ((tabV).view.loc (thr d L) ↦[Finset.univ]{(tq L).left} f))

/-- Before trip k < 25: window 2k is being gathered into the first buffer; windows below 2k are written out and waited for;
    every other semaphore is at zero. -/
def IA (k : ℕ) : sProp (𝕄F F) :=
  iprop(Transfers.MayWaits (thr d L) (none : HIx 2) O
    ∗ Transfers.Flight countersEmb (thr d L) (SemLoc.dma cc2_scratch3.sem) (none : HIx 2) 524288 (DA m d L hq f (2 * k))
    ∗ ((tabV).view.loc (thr d L) ↦[Finset.univ]{(tq L).right} f)
    ∗ ((sI).view.loc (thr d L) ↦[Finset.univ \ rowSetI (2 * k)]{fullShare} fiN m d L)
    ∗ (∃ fb : Buf (Elt F) ((thr d L).loc cc2_scratch2), (bB).view.loc (thr d L) ↦{fullShare} fb)
    ∗ semVal (thr d L, SemLoc.dma cc2_scratch4.sem) 0 ∗ semVal (thr d L, SemLoc.dma cc2_scratch5.sem) 0
    ∗ semVal (thr d L, SemLoc.dma cc2_scratch6.sem) 0
    ∗ doneP m d L (base L) (256 * k) ∗ todoP (F := F) d L (base L + 256 * k) (6400 - 256 * k)
    ∗ owesP d L O W)

/-- After the last trip: the two last windows are on their way out. -/
def IB : sProp (𝕄F F) :=
  iprop(Transfers.MayWaits (thr d L) (none : HIx 2) O
    ∗ ((tabV).view.loc (thr d L) ↦[Finset.univ]{(tq L).left} f)
    ∗ ((tabV).view.loc (thr d L) ↦[Finset.univ]{(tq L).right} f)
    ∗ ((sI).view.loc (thr d L) ↦[Finset.univ]{fullShare} fiN m d L)
    ∗ Transfers.Flight countersEmb (thr d L) (SemLoc.dma cc2_scratch5.sem) (none : HIx 2) 524288
        iprop(doneP m d L (base L + 6144) 128 ∗ ∃ fa : Buf (Elt F) ((thr d L).loc cc2_scratch1), (bA).view.loc (thr d L) ↦[(bA).view.set]{fullShare} fa)
    ∗ Transfers.Flight countersEmb (thr d L) (SemLoc.dma cc2_scratch6.sem) (none : HIx 2) 524288
        iprop(doneP m d L (base L + 6272) 128 ∗ ∃ fb : Buf (Elt F) ((thr d L).loc cc2_scratch2), (bB).view.loc (thr d L) ↦[(bB).view.set]{fullShare} fb)
    ∗ semVal (thr d L, SemLoc.dma cc2_scratch3.sem) 0 ∗ semVal (thr d L, SemLoc.dma cc2_scratch4.sem) 0
    ∗ doneP m d L (base L) 6144
    ∗ owesP d L O W)

def Inv (k : ℕ) (_ : PUnit) : sProp (𝕄F F) := if k < 25 then IA m d L hq f O W k else IB m d L f O W

/-! ## Small conversions -/

omit [FloatOps F] in
theorem semVal_cast (sm sm' : DmaSem sig) (h : sm = sm') :
    (semVal (thr d L, SemLoc.dma sm) 0 : sProp (𝕄F F)) ⊢ semVal (thr d L, SemLoc.dma sm') 0 := by subst h; exact .rfl

omit [FloatOps F] in
theorem rowSetI_disj {a b : ℕ} (h : a ≠ b) : Disjoint (rowSetI a) (rowSetI b) := by
  rw [Finset.disjoint_left]; intro x h1 h2
  simp only [rowSetI, Finset.mem_filter, Finset.mem_univ, true_and] at h1 h2; omega

omit [FloatOps F] in
/-- Two rows out of the index scratch less a third. -/
theorem sI_split (a b c : ℕ) (hab : a ≠ b) (hac : a ≠ c) (hbc : b ≠ c) (fi' : Buf (Elt F) ((thr d L).loc cc2_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[rowSetI c]{fullShare} fi')
          ∗ ((sI).view.loc (thr d L) ↦[((Finset.univ \ rowSetI a) \ rowSetI b) \ rowSetI c]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  have h2 : rowSetI c ⊆ (Finset.univ \ rowSetI a) \ rowSetI b := by
    intro x hx; rw [Finset.mem_sdiff, Finset.mem_sdiff]
    exact ⟨⟨Finset.mem_univ _, fun hx' => Finset.disjoint_left.mp (rowSetI_disj hac) hx' hx⟩, fun hx' => Finset.disjoint_left.mp (rowSetI_disj hbc) hx' hx⟩
  iintro H
  ihave H := (pointsTo_split_subset h1).1 $$ H
  icases H with ⟨Hb, H⟩
  ihave H := (pointsTo_split_subset h2).1 $$ H
  icases H with ⟨Hc, H⟩
  isplitl [Hb]; · iexact Hb
  isplitl [Hc]; · iexact Hc
  iexact H

omit [FloatOps F] in
/-- And back, the third row now the one left out. -/
theorem sI_rejoin (a b c : ℕ) (hab : a ≠ b) (hac : a ≠ c) (hbc : b ≠ c) (fi' : Buf (Elt F) ((thr d L).loc cc2_scratch0)) :
    iprop(((sI).view.loc (thr d L) ↦[rowSetI a]{fullShare} fi') ∗ ((sI).view.loc (thr d L) ↦[rowSetI b]{fullShare} fi')
          ∗ ((sI).view.loc (thr d L) ↦[((Finset.univ \ rowSetI a) \ rowSetI b) \ rowSetI c]{fullShare} fi'))
      ⊢ (((sI).view.loc (thr d L) ↦[Finset.univ \ rowSetI c]{fullShare} fi') : sProp (𝕄F F)) := by
  have e : ((Finset.univ \ rowSetI a) \ rowSetI b) \ rowSetI c = ((Finset.univ \ rowSetI c) \ rowSetI b) \ rowSetI a := by
    ext x; simp only [Finset.mem_sdiff, Finset.mem_univ, true_and]; tauto
  have h1 : rowSetI b ⊆ Finset.univ \ rowSetI c := by
    intro x hx; rw [Finset.mem_sdiff]; exact ⟨Finset.mem_univ _, fun hx' => Finset.disjoint_left.mp (rowSetI_disj hbc) hx hx'⟩
  have h2 : rowSetI a ⊆ (Finset.univ \ rowSetI c) \ rowSetI b := by
    intro x hx; rw [Finset.mem_sdiff, Finset.mem_sdiff]
    exact ⟨⟨Finset.mem_univ _, fun hx' => Finset.disjoint_left.mp (rowSetI_disj hac) hx hx'⟩, fun hx' => Finset.disjoint_left.mp (rowSetI_disj hab) hx hx'⟩
  rw [e]
  have j1 : iprop(((sI).view.loc (thr d L) ↦[rowSetI b]{fullShare} fi') ∗ ((sI).view.loc (thr d L) ↦[(Finset.univ \ rowSetI c) \ rowSetI b]{fullShare} fi'))
      ⊢ (((sI).view.loc (thr d L) ↦[Finset.univ \ rowSetI c]{fullShare} fi') : sProp (𝕄F F)) := (pointsTo_split_subset h1).2
  have j2 : iprop(((sI).view.loc (thr d L) ↦[rowSetI a]{fullShare} fi') ∗ ((sI).view.loc (thr d L) ↦[((Finset.univ \ rowSetI c) \ rowSetI b) \ rowSetI a]{fullShare} fi'))
      ⊢ (((sI).view.loc (thr d L) ↦[(Finset.univ \ rowSetI c) \ rowSetI b]{fullShare} fi') : sProp (𝕄F F)) := (pointsTo_split_subset h2).2
  iintro ⟨Ha, Hb, H⟩
  ihave H2 := j2 $$ [Ha H]
  · isplitl [Ha] <;> iassumption
  iapply j1
  isplitl [Hb]; · iexact Hb
  iexact H2

/-- What a gather's flight delivers, restated in the invariant's spelling (the table's share left in the program's). -/
theorem DA_intro (off : Fin 2 → ℕ) (h : ∀ a, off a + S1x128.size a ≤ S50x128.size a) (h1 : off 1 = 0) (r : ℕ) (hr : off 0 = r)
    (q : PosShare TreeShare) (X : Buf (Elt F) ((thr d L).loc cc2_scratch1)) (hX : GOK m d L hq f r X) :
    (iprop((((bA).view.loc (thr d L) ↦[(bA).view.set]{fullShare} X) ∗ ((rowM off h).view.loc (thr d L) ↦[(rowM off h).view.set]{fullShare} fiN m d L))
        ∗ ((tabS).view.loc (thr d L) ↦[(tabS).view.set]{q} f)) : sProp (𝕄F F))
      ⊢ iprop(((∃ ga : Buf (Elt F) ((thr d L).loc cc2_scratch1), ⌜GOK m d L hq f r ga⌝ ∗ ((bA).view.loc (thr d L) ↦[(bA).view.set]{fullShare} ga))
        ∗ ((sI).view.loc (thr d L) ↦[rowSetI r]{fullShare} fiN m d L))
      ∗ ((tabS).view.loc (thr d L) ↦[(tabS).view.set]{q} f)) := by
  iintro ⟨⟨HbA, Hrow⟩, Htab⟩
  isplitr [Htab]
  · isplitl [HbA]
    · iexists X; isplitr
      · ipureintro; exact hX
      · iexact HbA
    · iapply (Entails.of_eq (row_prog (F := F) d L off h h1 r hr fullShare (fiN m d L)).symm); iexact Hrow
  · iexact Htab

omit [FloatOps F] in
theorem flight_conv (sm sm' : DmaSem sig) (ι ι' : HIx 2) (N : ℕ) (D D' : sProp (𝕄F F)) (hs : sm = sm') (hι : ι = ι') (hD : D ⊢ D') :
    Transfers.Flight countersEmb (thr d L) (SemLoc.dma sm) ι N D ⊢ Transfers.Flight countersEmb (thr d L) (SemLoc.dma sm') ι' N D' := by
  subst hs hι; exact Transfers.Flight_mono countersEmb (thr d L) hD

theorem doneP_congr (o o' n n' : ℕ) (ho : o = o') (hn : n = n') : doneP m d L o n ⊢ doneP m d L o' n' := by subst ho hn; exact .rfl
omit [FloatOps F] in
theorem todoP_congr (o o' n n' : ℕ) (ho : o = o') (hn : n = n') : todoP (F := F) d L o n ⊢ todoP (F := F) d L o' n' := by subst ho hn; exact .rfl

/-! ## The value facts the trips use (proved in the value module) -/

structure VF : Prop where
  gA : ∀ (off : Fin 2 → ℕ) (h : ∀ a, off a + S1x128.size a ≤ S50x128.size a) (_ : off 1 = 0)
      (hin' : ∀ x, ((rowM off h).view.read (Elt F) (fiN m d L) x).toNat < S1000000x128.size gathers_S1000000x128_S128x128.axis)
      (ga0 : Buf (Elt F) ((thr d L).loc cc2_scratch1)),
      GOK m d L hq f (off 0) ((bA).view.writes (Elt F) ga0 [⟨Rect.whole S128x128,
        SparseCore.gatherPayload gathers_S1000000x128_S128x128 (View.read (Elt F) (tabS).view f)
          (SparseCore.rows (View.read (Elt F) (rowM off h).view (fiN m d L)) rfl hin')⟩])
  gB : ∀ (off : Fin 2 → ℕ) (h : ∀ a, off a + S1x128.size a ≤ S50x128.size a) (_ : off 1 = 0)
      (hin' : ∀ x, ((rowM off h).view.read (Elt F) (fiN m d L) x).toNat < S1000000x128.size gathers_S1000000x128_S128x128.axis)
      (gb0 : Buf (Elt F) ((thr d L).loc cc2_scratch2)),
      GOK m d L hq f (off 0) ((bB).view.writes (Elt F) gb0 [⟨Rect.whole S128x128,
        SparseCore.gatherPayload gathers_S1000000x128_S128x128 (View.read (Elt F) (tabS).view f)
          (SparseCore.rows (View.read (Elt F) (rowM off h).view (fiN m d L)) rfl hin')⟩])
  win : ∀ (off : Fin 2 → ℕ) (h : ∀ a, off a + S128x128.size a ≤ S204800x128.size a) (_ : off 1 = 0)
      (r : ℕ) (_ : r < 50) (_ : off 0 = base L + 128 * r) (g1 : Buf (Elt F) (loc d main_v7)) (p : S128x128.Idx → F .f32) (_ : GOK m d L hq f r p),
      RowsDone (Cert.Spec.dTok (m (loc d main_arg1))) (m (loc d main_arg2)) (off 0) 128
        ((winM off h).view.writes (Elt F) g1 [⟨Rect.whole S128x128, p⟩])

include hq in
theorem hin_of (x : S128.Idx) (off : Fin 2 → ℕ) (hoff : ∀ a, off a + S1x128.size a ≤ S50x128.size a) :
    (View.read (Elt F) (rowM off hoff).view (fiN m d L) x).toNat < S1000000x128.size gathers_S1000000x128_S128x128.axis := by
  rw [View.read_apply]; exact fiN_lt m d L hq _

theorem cond_lt : ∀ k : Fin k2_t1_loop.trips, k2_cond1 k = 1#1 → k.val < 24 := by decide
theorem lt_cond : ∀ k : Fin k2_t1_loop.trips, ¬ k2_cond1 k = 1#1 → k.val = 24 := by decide

/-! ## A trip that is not the last -/

set_option maxHeartbeats 2000000 in
theorem region_pos (V : VF m d L hq f) (k : Fin k2_t1_loop.trips) (hk : k2_cond1 k = 1#1) :
    IA m d L hq f O W k.val ⊢ wp frame (wpE (defs₀ (F := F)) 𝒱₀ (thr d L) none) Set.univ
      (k2_t1_body L tabV (Memref.isWhole_whole _) ixV (Memref.isWhole_whole _) outV (Memref.isWhole_whole _)
        sI (Memref.isWhole_whole _) bA (Memref.isWhole_whole _) bB (Memref.isWhole_whole _) cc2_scratch3 cc2_scratch4 cc2_scratch5 cc2_scratch6 cc2_scoped0 k ())
      (fun _ => IA m d L hq f O W (k.val + 1)) := by
  have hk4 : k.val < 24 := cond_lt k hk
  have hin : ∀ (off : Fin 2 → ℕ) (hoff : ∀ a, off a + S1x128.size a ≤ S50x128.size a) (x : S128.Idx),
      (View.read (Elt F) (rowM off hoff).view (fiN m d L) x).toNat < S1000000x128.size gathers_S1000000x128_S128x128.axis :=
    fun off hoff x => hin_of m d L hq x off hoff
  have o2 : (k2_off2 k) 0 = 2 * k.val + 1 := by rw [k2_off2_eq]; rfl
  have o2' : (k2_off2 k) 1 = 0 := by rw [k2_off2_eq]; rfl
  have o3 : (k2_off3 k) 0 = 2 * k.val := by rw [k2_off3_eq]; rfl
  have o3' : (k2_off3 k) 1 = 0 := by rw [k2_off3_eq]; rfl
  have o7 : (k2_off7 k) 0 = 2 * (k.val + 1) := by rw [k2_off7_eq]; show 2 * k.val + 2 = _; omega
  have o7' : (k2_off7 k) 1 = 0 := by rw [k2_off7_eq]; rfl
  have o4 : (k2_off4 L k) 0 = base L + 256 * k.val := by rw [k2_off4_eq]; rfl
  have o4' : (k2_off4 L k) 1 = 0 := by rw [k2_off4_eq]; rfl
  have o5 : (k2_off5 L k) 0 = base L + 256 * k.val + 128 := by rw [k2_off5_eq]; rfl
  have o5' : (k2_off5 L k) 1 = 0 := by rw [k2_off5_eq]; rfl
  have e640 : 6400 - 256 * k.val = 128 + (128 + (6400 - 256 * (k.val + 1))) := by omega
  unfold IA DA owesP k2_t1_body
  rw [e640, row_prog (F := F) d L (k2_off3 k) (k2_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  -- the two rows this trip gathers through, out of the index scratch
  ihave HsIr := (sI_split (F := F) d L (2 * k.val) (2 * k.val + 1) (2 * (k.val + 1)) (by omega) (by omega) (by omega) (fiN m d L)) $$ HsIr
  icases HsIr with ⟨Hr1, Hr2, HsIr⟩
  ihave Hr1 := (Entails.of_eq (row_prog (F := F) d L (k2_off2 k) (k2_off2_inb k) o2' (2 * k.val + 1) o2 fullShare (fiN m d L))) $$ Hr1
  ihave Hr2 := (Entails.of_eq (row_prog (F := F) d L (k2_off7 k) (k2_off7_inb k hk) o7' (2 * (k.val + 1)) o7 fullShare (fiN m d L))) $$ Hr2
  -- the two windows this trip writes, out of the rows to do
  ihave Htodo := (todo_split (F := F) d L (base L + 256 * k.val) 128 (128 + (6400 - 256 * (k.val + 1)))) $$ Htodo
  icases Htodo with ⟨⟨%g1, Hw0⟩, Htodo⟩
  ihave Htodo := (todo_split (F := F) d L (base L + 256 * k.val + 128) 128 (6400 - 256 * (k.val + 1))) $$ Htodo
  icases Htodo with ⟨⟨%g2, Hw1⟩, Htodo⟩
  ihave Hw0 := (Entails.of_eq (win_prog (F := F) d L (k2_off4 L k) (k2_off4_inb L k) o4' (base L + 256 * k.val) o4 fullShare g1)) $$ Hw0
  ihave Hw1 := (Entails.of_eq (win_prog (F := F) d L (k2_off5 L k) (k2_off5_inb L k) o5' (base L + 256 * k.val + 128) o5 fullShare g2)) $$ Hw1
  sl_exec
  icases HFA_dst with ⟨⟨%ga, %hga, HbA⟩, Hr0⟩
  sl_exec
  sl_step
  have o4r : (k2_off4 L k) 0 = base L + 128 * (2 * k.val) := by rw [o4]; omega
  have o5b : (k2_off5 L k) 0 = base L + (256 * k.val + 128) := by rw [o5]; omega
  have o5r : (k2_off5 L k) 0 = base L + 128 * (2 * k.val + 1) := by rw [o5]; omega
  isplitr; · iexact Hmw
  isplitl [HFA]
  · iapply (flight_conv (F := F) d L _ _ _ _ _ _ _ ?hs ?hι (DA_intro m d L hq f (k2_off7 k) (k2_off7_inb k hk) o7' (2 * (k.val + 1)) o7 (tq L).left _ ?hX)) $$ HFA
    case hs => rfl
    case hι => rfl
    case hX =>
      have hX := V.gA (k2_off7 k) (k2_off7_inb k hk) o7' (fun x => hin _ _ x) ga
      rw [o7] at hX; exact hX
  iclear HFA_src
  isplitl [HtabB]; · iexact HtabB
  isplitl [Hr0 Hr1 HsIr]
  · ihave Hr0 := (Entails.of_eq (row_prog (F := F) d L (k2_off3 k) (k2_off3_inb k) o3' (2 * k.val) o3 fullShare (fiN m d L)).symm) $$ Hr0
    ihave Hr1 := (Entails.of_eq (row_prog (F := F) d L (k2_off2 k) (k2_off2_inb k) o2' (2 * k.val + 1) o2 fullShare (fiN m d L)).symm) $$ Hr1
    iapply (sI_rejoin (F := F) d L (2 * k.val) (2 * k.val + 1) (2 * (k.val + 1)) (by omega) (by omega) (by omega) (fiN m d L))
    isplitl [Hr0]; · iexact Hr0
    isplitl [Hr1]; · iexact Hr1
    iexact HsIr
  isplitl [HbB]; · iexists _; iexact HbB
  isplitl [Hs4]; · iapply (semVal_cast (F := F) d L _ _ ?h4) $$ Hs4; case h4 => rfl
  isplitl [Hs5]; · iapply (semVal_cast (F := F) d L _ _ ?h5) $$ Hs5; case h5 => rfl
  isplitl [Hs6]; · iapply (semVal_cast (F := F) d L _ _ ?h6) $$ Hs6; case h6 => rfl
  isplitl [Hdone Hw0 Hw1]
  · iapply (doneP_congr m d L (base L) (base L) (256 * k.val + 128 + 128) (256 * (k.val + 1)) rfl (by omega))
    iapply (done_append m d L (base L) (256 * k.val + 128) 128)
    isplitl [Hdone Hw0]
    · iapply (done_append m d L (base L) (256 * k.val) 128)
      isplitl [Hdone]; · iexact Hdone
      unfold doneP
      iexists _; isplitr; swap
      · iapply (Entails.of_eq (win_prog (F := F) d L (k2_off4 L k) (k2_off4_inb L k) o4' (base L + 256 * k.val) o4 fullShare _).symm); iexact Hw0
      · ipureintro
        have hw := V.win (k2_off4 L k) (k2_off4_inb L k) o4' (2 * k.val) (by omega) o4r g1 ga hga
        rw [o4] at hw; exact hw
    · unfold doneP
      iexists _; isplitr; swap
      · iapply (Entails.of_eq (win_prog (F := F) d L (k2_off5 L k) (k2_off5_inb L k) o5' (base L + (256 * k.val + 128)) o5b fullShare _).symm); iexact Hw1
      · ipureintro
        have hgb := V.gB (k2_off2 k) (k2_off2_inb k) o2' (fun x => hin _ _ x) fb
        rw [o2] at hgb
        have hw := V.win (k2_off5 L k) (k2_off5_inb L k) o5' (2 * k.val + 1) (by omega) o5r g2 _ hgb
        rw [o5b] at hw; exact hw
  isplitl [Htodo]
  · iapply (todoP_congr (F := F) d L _ _ _ _ (by omega) rfl) $$ Htodo
  iexists _; isplitr; swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
/-- One row out of the index scratch less another. -/
theorem sI_split2 (a b : ℕ) (hab : a ≠ b) (fi' : Buf (Elt F) ((thr d L).loc cc2_scratch0)) :
    (((sI).view.loc (thr d L) ↦[Finset.univ \ rowSetI a]{fullShare} fi') : sProp (𝕄F F))
      ⊢ iprop(((sI).view.loc (thr d L) ↦[rowSetI b]{fullShare} fi') ∗ ((sI).view.loc (thr d L) ↦[(Finset.univ \ rowSetI a) \ rowSetI b]{fullShare} fi')) := by
  have h1 : rowSetI b ⊆ Finset.univ \ rowSetI a := by
    intro x hx; rw [Finset.mem_sdiff]; exact ⟨Finset.mem_univ _, fun hx' => Finset.disjoint_left.mp (rowSetI_disj hab) hx' hx⟩
  exact (pointsTo_split_subset h1).1

omit [FloatOps F] in
/-- And the whole scratch back. -/
theorem sI_rejoin2 (a b : ℕ) (hab : a ≠ b) (fi' : Buf (Elt F) ((thr d L).loc cc2_scratch0)) :
    (iprop(((sI).view.loc (thr d L) ↦[rowSetI a]{fullShare} fi') ∗ ((sI).view.loc (thr d L) ↦[rowSetI b]{fullShare} fi')
          ∗ ((sI).view.loc (thr d L) ↦[(Finset.univ \ rowSetI a) \ rowSetI b]{fullShare} fi')) : sProp (𝕄F F))
      ⊢ ((sI).view.loc (thr d L) ↦[Finset.univ]{fullShare} fi') := by
  have h0 : rowSetI a ⊆ (Finset.univ : Finset S50x128.Idx) := Finset.subset_univ _
  have h1 : rowSetI b ⊆ Finset.univ \ rowSetI a := by
    intro x hx; rw [Finset.mem_sdiff]; exact ⟨Finset.mem_univ _, fun hx' => Finset.disjoint_left.mp (rowSetI_disj hab) hx' hx⟩
  have j0 : (iprop(((sI).view.loc (thr d L) ↦[rowSetI a]{fullShare} fi') ∗ ((sI).view.loc (thr d L) ↦[Finset.univ \ rowSetI a]{fullShare} fi')) : sProp (𝕄F F))
      ⊢ ((sI).view.loc (thr d L) ↦[Finset.univ]{fullShare} fi') := (pointsTo_split_subset h0).2
  have j1 : (iprop(((sI).view.loc (thr d L) ↦[rowSetI b]{fullShare} fi') ∗ ((sI).view.loc (thr d L) ↦[(Finset.univ \ rowSetI a) \ rowSetI b]{fullShare} fi')) : sProp (𝕄F F))
      ⊢ ((sI).view.loc (thr d L) ↦[Finset.univ \ rowSetI a]{fullShare} fi') := (pointsTo_split_subset h1).2
  iintro ⟨Ha, Hb, H⟩
  ihave H1 := j1 $$ [Hb H]
  · isplitl [Hb] <;> iassumption
  iapply j0
  isplitl [Ha]; · iexact Ha
  iexact H1

/-! ## The last trip -/

set_option maxHeartbeats 2000000 in
theorem region_neg (V : VF m d L hq f) (k : Fin k2_t1_loop.trips) (hk : ¬ k2_cond1 k = 1#1) :
    IA m d L hq f O W k.val ⊢ wp frame (wpE (defs₀ (F := F)) 𝒱₀ (thr d L) none) Set.univ
      (k2_t1_body L tabV (Memref.isWhole_whole _) ixV (Memref.isWhole_whole _) outV (Memref.isWhole_whole _)
        sI (Memref.isWhole_whole _) bA (Memref.isWhole_whole _) bB (Memref.isWhole_whole _) cc2_scratch3 cc2_scratch4 cc2_scratch5 cc2_scratch6 cc2_scoped0 k ())
      (fun _ => IB m d L f O W) := by
  have hk5 : k.val = 24 := lt_cond k hk
  have hin : ∀ (off : Fin 2 → ℕ) (hoff : ∀ a, off a + S1x128.size a ≤ S50x128.size a) (x : S128.Idx),
      (View.read (Elt F) (rowM off hoff).view (fiN m d L) x).toNat < S1000000x128.size gathers_S1000000x128_S128x128.axis :=
    fun off hoff x => hin_of m d L hq x off hoff
  have o2 : (k2_off2 k) 0 = 2 * k.val + 1 := by rw [k2_off2_eq]; rfl
  have o2' : (k2_off2 k) 1 = 0 := by rw [k2_off2_eq]; rfl
  have o3 : (k2_off3 k) 0 = 2 * k.val := by rw [k2_off3_eq]; rfl
  have o3' : (k2_off3 k) 1 = 0 := by rw [k2_off3_eq]; rfl
  have o4 : (k2_off4 L k) 0 = base L + 256 * k.val := by rw [k2_off4_eq]; rfl
  have o4' : (k2_off4 L k) 1 = 0 := by rw [k2_off4_eq]; rfl
  have o5 : (k2_off5 L k) 0 = base L + 256 * k.val + 128 := by rw [k2_off5_eq]; rfl
  have o5' : (k2_off5 L k) 1 = 0 := by rw [k2_off5_eq]; rfl
  have o4c : (k2_off4 L k) 0 = base L + 6144 := by rw [o4, hk5]
  have o5c : (k2_off5 L k) 0 = base L + 6272 := by rw [o5, hk5]
  have o4r : (k2_off4 L k) 0 = base L + 128 * (2 * k.val) := by rw [o4]; omega
  have o5r : (k2_off5 L k) 0 = base L + 128 * (2 * k.val + 1) := by rw [o5]; omega
  have e640 : 6400 - 256 * k.val = 128 + 128 := by omega
  unfold IA IB DA owesP k2_t1_body
  rw [e640, row_prog (F := F) d L (k2_off3 k) (k2_off3_inb k) o3' (2 * k.val) o3 fullShare (fiN m d L),
    tab_prog (F := F) d L (tq L).left f, tab_prog (F := F) d L (tq L).right f]
  iintro ⟨#Hmw, HFA, HtabB, HsIr, ⟨%fb, HbB⟩, Hs4, Hs5, Hs6, Hdone, Htodo, ⟨%W', %hW', HO⟩⟩
  ihave HsIr := (sI_split2 (F := F) d L (2 * k.val) (2 * k.val + 1) (by omega) (fiN m d L)) $$ HsIr
  icases HsIr with ⟨Hr1, HsIr⟩
  ihave Hr1 := (Entails.of_eq (row_prog (F := F) d L (k2_off2 k) (k2_off2_inb k) o2' (2 * k.val + 1) o2 fullShare (fiN m d L))) $$ Hr1
  ihave Htodo := (todo_split (F := F) d L (base L + 256 * k.val) 128 128) $$ Htodo
  icases Htodo with ⟨⟨%g1, Hw0⟩, Htodo⟩
  unfold todoP
  icases Htodo with ⟨%g2, Hw1⟩
  ihave Hw0 := (Entails.of_eq (win_prog (F := F) d L (k2_off4 L k) (k2_off4_inb L k) o4' (base L + 256 * k.val) o4 fullShare g1)) $$ Hw0
  ihave Hw1 := (Entails.of_eq (win_prog (F := F) d L (k2_off5 L k) (k2_off5_inb L k) o5' (base L + 256 * k.val + 128) o5 fullShare g2)) $$ Hw1
  sl_exec
  icases HFA_dst with ⟨⟨%ga, %hga, HbA⟩, Hr0⟩
  sl_exec
  sl_step
  isplitr; · iexact Hmw
  isplitl [HFA_src]; · iexact HFA_src
  isplitl [HtabB]; · iexact HtabB
  isplitl [Hr0 Hr1 HsIr]
  · ihave Hr0 := (Entails.of_eq (row_prog (F := F) d L (k2_off3 k) (k2_off3_inb k) o3' (2 * k.val) o3 fullShare (fiN m d L)).symm) $$ Hr0
    ihave Hr1 := (Entails.of_eq (row_prog (F := F) d L (k2_off2 k) (k2_off2_inb k) o2' (2 * k.val + 1) o2 fullShare (fiN m d L)).symm) $$ Hr1
    iapply (sI_rejoin2 (F := F) d L (2 * k.val) (2 * k.val + 1) (by omega) (fiN m d L))
    isplitl [Hr0]; · iexact Hr0
    isplitl [Hr1]; · iexact Hr1
    iexact HsIr
  iclear HbB
  isplitl [Hs5]
  · iapply (flight_conv (F := F) d L _ _ _ _ _ _ _ ?hs ?hι ?hD) $$ Hs5
    case hs => rfl
    case hι => rfl
    case hD =>
      iintro ⟨Hw, Hb⟩
      isplitl [Hw]
      · unfold doneP
        iexists _; isplitr; swap
        · iapply (Entails.of_eq (win_prog (F := F) d L (k2_off4 L k) (k2_off4_inb L k) o4' (base L + 6144) o4c fullShare _).symm); iexact Hw
        · ipureintro
          have hw := V.win (k2_off4 L k) (k2_off4_inb L k) o4' (2 * k.val) (by omega) o4r g1 ga hga
          rw [o4c] at hw; exact hw
      · iexists _; iexact Hb
  isplitl [Hs6]
  · iapply (flight_conv (F := F) d L _ _ _ _ _ _ _ ?hs ?hι ?hD) $$ Hs6
    case hs => rfl
    case hι => rfl
    case hD =>
      iintro ⟨Hw, Hb⟩
      isplitl [Hw]
      · unfold doneP
        iexists _; isplitr; swap
        · iapply (Entails.of_eq (win_prog (F := F) d L (k2_off5 L k) (k2_off5_inb L k) o5' (base L + 6272) o5c fullShare _).symm); iexact Hw
        · ipureintro
          have hgb := V.gB (k2_off2 k) (k2_off2_inb k) o2' (fun x => hin _ _ x) fb
          rw [o2] at hgb
          have hw := V.win (k2_off5 L k) (k2_off5_inb L k) o5' (2 * k.val + 1) (by omega) o5r g2 _ hgb
          rw [o5c] at hw; exact hw
      · iexists _; iexact Hb
  isplitl [HFA]; · iapply (semVal_cast (F := F) d L _ _ ?h3) $$ HFA; case h3 => rfl
  isplitl [Hs4]; · iapply (semVal_cast (F := F) d L _ _ ?h4) $$ Hs4; case h4 => rfl
  isplitl [Hdone]
  · iapply (doneP_congr m d L (base L) (base L) (256 * k.val) 6144 rfl (by omega)) $$ Hdone
  iexists _; isplitr; swap
  · iexact HO
  · ipureintro; intro p hp
    rcases Finset.mem_insert.mp hp with rfl | hp
    · exact .inr rfl
    rcases Finset.mem_insert.mp hp with rfl | hp
    · exact .inr rfl
    exact hW' p hp

end G2

end Cert.Kernel.Hand

end
-- ==== Proof.Bits.ScBody2Core.lean ====
/-
  The second SparseCore kernel's task run once at a symbolic vector subcore: the index rows in, the first gather, the loop at
  its invariant, the last two copies out waited for; from the subcore's shares and scratch to its rows of the output done.
-/
import proofs.«218768_g80616536146796_cont_9to1c4b_775_25_alg».proof.Proof.Bits.ScBody2Loop

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

variable (m : (ℓ : Loc nD τ sig) → Buf (Elt F) ℓ) [FloatOps F]
variable (d : Dev nD) (L : grid2.Coords)

variable (hq : ∀ d i, ((m (loc d main_arg1)) i).toNat < 1000000) (f : Buf (Elt F) (loc d main_v1))
variable (O : CellTallies nD τ sig (HIx 2)) (W : Waits sig (HIx 2))

/-! ## The whole task -/

omit [FloatOps F] in
theorem rowsOf_zero (n o : ℕ) : rowsOf n o 0 = ∅ := by
  ext x; simp only [mem_rowsOf, Finset.notMem_empty, iff_false]; omega

theorem done_zero (o : ℕ) (g : Buf (Elt F) (loc d main_v7)) :
    (((outV).view.loc (thr d L) ↦[rowsOf 204800 o 0]{fullShare} g) : sProp (𝕄F F)) ⊢ doneP m d L o 0 := by
  unfold doneP
  iintro H
  iexists g; isplitr
  · ipureintro; intro r e h1 h2; omega
  · iexact H

/-- The worker's rows of the output, none done yet. -/
theorem out_init (g0 : Buf (Elt F) (loc d main_v7)) :
    (((outV).view.loc (thr d L) ↦[rowsOf 204800 (base L) 6400]{fullShare} g0) : sProp (𝕄F F))
      ⊢ iprop(doneP m d L (base L) (256 * 0) ∗ todoP (F := F) d L (base L + 256 * 0) (6400 - 256 * 0)) := by
  have e : (6400 : ℕ) = 0 + 6400 := by omega
  iintro H
  ihave H : todoP (F := F) d L (base L) (0 + 6400) $$ [H]
  · unfold todoP; iexists g0; iexact H
  ihave H := (todo_split (F := F) d L (base L) 0 6400) $$ H
  icases H with ⟨⟨%g, H0⟩, H1⟩
  isplitl [H0]
  · iapply (done_zero m d L (base L) g); iexact H0
  · iexact H1

omit [FloatOps F] in
theorem set_bA : (bA).view.set = Finset.univ := View.set_whole _
omit [FloatOps F] in
theorem set_bB : (bB).view.set = Finset.univ := View.set_whole _

set_option maxHeartbeats 4000000 in
theorem tile_core (V : VF m d L hq f) (hO : ∀ g, O g none = 0)
    (g0 : Buf (Elt F) (loc d main_v7)) (fi : Buf (Elt F) ((thr d L).loc cc2_scratch0))
    (fa : Buf (Elt F) ((thr d L).loc cc2_scratch1)) (fb : Buf (Elt F) ((thr d L).loc cc2_scratch2)) (R : sProp (𝕄F F)) :
    iprop(levAts (K (F := F)).L (K (F := F)).lev
        ∗ ((tabV).view.loc (thr d L) ↦{tq L} f)
        ∗ ((ixV).view.loc (thr d L) ↦{tq L} idx6 m d)
        ∗ ((outV).view.loc (thr d L) ↦[rowsOf 204800 (base L) 6400]{fullShare} g0)
        ∗ ((sI).view.loc (thr d L) ↦{fullShare} fi) ∗ ((bA).view.loc (thr d L) ↦{fullShare} fa) ∗ ((bB).view.loc (thr d L) ↦{fullShare} fb)
        ∗ semVal (thr d L, SemLoc.dma cc2_scratch3.sem) 0 ∗ semVal (thr d L, SemLoc.dma cc2_scratch4.sem) 0
        ∗ semVal (thr d L, SemLoc.dma cc2_scratch5.sem) 0 ∗ semVal (thr d L, SemLoc.dma cc2_scratch6.sem) 0
        ∗ semVal (thr d L, SemLoc.dma cc2_scoped0.sem) 0
        ∗ owes (thr d L) O W ∗ R)
      ⊢ wp frame (wpE (defs₀ (F := F)) 𝒱₀ (thr d L) none) Set.univ
          (cc2_gather_kernel L tabV (Memref.isWhole_whole _) ixV (Memref.isWhole_whole _) outV (Memref.isWhole_whole _)
            sI (Memref.isWhole_whole _) bA (Memref.isWhole_whole _) bB (Memref.isWhole_whole _) cc2_scratch3 cc2_scratch4 cc2_scratch5 cc2_scratch6 cc2_scoped0)
          fun _ => iprop(((tabV).view.loc (thr d L) ↦{tq L} f) ∗ ((ixV).view.loc (thr d L) ↦{tq L} idx6 m d)
            ∗ doneP m d L (base L) 6400
            ∗ (∃ fi : Buf (Elt F) ((thr d L).loc cc2_scratch0), (sI).view.loc (thr d L) ↦{fullShare} fi)
            ∗ (∃ fa : Buf (Elt F) ((thr d L).loc cc2_scratch1), (bA).view.loc (thr d L) ↦{fullShare} fa)
            ∗ (∃ fb : Buf (Elt F) ((thr d L).loc cc2_scratch2), (bB).view.loc (thr d L) ↦{fullShare} fb)
            ∗ semVal (thr d L, SemLoc.dma cc2_scratch3.sem) 0 ∗ semVal (thr d L, SemLoc.dma cc2_scratch4.sem) 0
            ∗ semVal (thr d L, SemLoc.dma cc2_scratch5.sem) 0 ∗ semVal (thr d L, SemLoc.dma cc2_scratch6.sem) 0
            ∗ semVal (thr d L, SemLoc.dma cc2_scoped0.sem) 0
            ∗ (∃ W', ⌜∀ p ∈ W', p ∈ W ∨ p.2 = none⌝ ∗ owes (thr d L) O W') ∗ R) := by
  have hin : ∀ (off : Fin 2 → ℕ) (hoff : ∀ a, off a + S1x128.size a ≤ S50x128.size a) (x : S128.Idx),
      (View.read (Elt F) (rowM off hoff).view (fiN m d L) x).toNat < S1000000x128.size gathers_S1000000x128_S128x128.axis :=
    fun off hoff x => hin_of m d L hq x off hoff
  rw [cc2_gather_kernel_eq_skeleton]; unfold cc2_gather_kernel_skel
  iintro ⟨#Hlv, Htab, Hix, Hout, HsI, HbA, HbB, Hs3, Hs4, Hs5, Hs6, Hs0, HO, HR⟩
  ihave Hmw := ((K (F := F)).mayWaits_none (thr := thr d L) hO) $$ Hlv
  -- the table's share in two: one for each buffer's gathers
  ihave Htab := (pointsTo_share (PosShare.mem_left_op_right (tq L))).1 $$ Htab
  icases Htab with ⟨HtabA, HtabB⟩
  have hhide : ((tabV).view.loc (thr d L) ↦{(tq L).right} f : sProp (𝕄F F)) ⊢ iprop(((tabV).view.loc (thr d L) ↦{(tq L).right} f) ∗ emp) := Laws.sep_emp.2
  ihave HtabB := hhide $$ HtabB
  -- the worker's index rows in
  sl_exec
  unfold tile_core.sl.dma0
  have esI : ((sI).view.loc (thr d L) ↦{fullShare} View.write (Elt F) sI.view fi (ReadAs.same.apply (View.read (Elt F) (ixRow L).view (idx6 m d))) Finset.univ : sProp (𝕄F F))
      = ((sI).view.loc (thr d L) ↦{fullShare} fiN m d L) :=
    congrArg (fun z => ((sI).view.loc (thr d L) ↦{fullShare} z : sProp (𝕄F F))) (View.write_whole_univ (Val := Elt F) cc2_scratch0 fi (fiN m d L))
  ihave HsI := (Entails.of_eq esI) $$ HsI
  -- the first gather
  sl_exec
  iclear HtabA HbA
  icases HtabB with ⟨HtabB, -⟩
  ihave Hout := (out_init m d L g0) $$ Hout
  icases Hout with ⟨Hdone, Htodo⟩
  sl_for (Inv m d L hq f O W) $$ [Hmw Hs3 HtabB HsI HbB Hs4 Hs5 Hs6 Hdone Htodo HO]
  case region =>
    intro k acc
    by_cases hk : k2_cond1 k = 1#1
    · have hk4 := cond_lt k hk
      have e1 : Inv m d L hq f O W k.val acc = IA m d L hq f O W k.val := if_pos (by omega)
      have e2 : Inv m d L hq f O W (k.val + 1) = fun _ => IA m d L hq f O W (k.val + 1) := funext fun _ => if_pos (by omega)
      rw [e1, e2]; exact region_pos m d L hq f O W V k hk
    · have hk5 := lt_cond k hk
      have e1 : Inv m d L hq f O W k.val acc = IA m d L hq f O W k.val := if_pos (by omega)
      have e2 : Inv m d L hq f O W (k.val + 1) = fun _ => IB m d L f O W := funext fun _ => if_neg (by omega)
      rw [e1, e2]; exact region_neg m d L hq f O W V k hk
  · -- the invariant before the first trip
    have e0 : Inv m d L hq f O W 0 () = IA m d L hq f O W 0 := if_pos (by decide)
    rw [e0]; unfold IA DA owesP
    isplitl [Hmw]; · iexact Hmw
    isplitl [Hs3]
    · iapply (flight_conv (F := F) d L _ _ _ _ _ _ _ ?hs ?hι ?hD) $$ Hs3
      case hs => rfl
      case hι => rfl
      case hD =>
        change (iprop((((bA).view.loc (thr d L) ↦[(bA).view.set]{fullShare} _) ∗ ((rowM ![0, 0] inb_S50x128_S1x128_0_0).view.loc (thr d L) ↦[(rowM ![0, 0] inb_S50x128_S1x128_0_0).view.set]{fullShare} fiN m d L))
          ∗ ((tabS).view.loc (thr d L) ↦[(tabS).view.set]{(tq L).left} f)) : sProp (𝕄F F)) ⊢ _
        rw [tab_prog (F := F) d L (tq L).left f]
        exact DA_intro m d L hq f ![0, 0] inb_S50x128_S1x128_0_0 rfl (2 * 0) rfl (tq L).left _ (V.gA ![0, 0] inb_S50x128_S1x128_0_0 rfl (fun x => hin _ _ x) fa)
    isplitl [HtabB]; · iexact HtabB
    isplitl [HsI]
    · iapply (Entails.of_eq (congrArg (fun S => ((sI).view.loc (thr d L) ↦[Finset.univ \ S]{fullShare} fiN m d L : sProp (𝕄F F))) (set_rowM ![0, 0] inb_S50x128_S1x128_0_0 rfl))); iexact HsI
    isplitl [HbB]; · iexists _; iexact HbB
    isplitl [Hs4]; · iexact Hs4
    isplitl [Hs5]; · iexact Hs5
    isplitl [Hs6]; · iexact Hs6
    isplitl [Hdone]; · iexact Hdone
    isplitl [Htodo]; · iexact Htodo
    iexists _; isplitr; swap
    · iexact HO
    · ipureintro; intro p hp
      rcases Finset.mem_insert.mp hp with rfl | hp
      · exact .inr rfl
      exact .inl hp
  -- after the loop: the two last windows' copies out are waited for
  iintro %acc HI
  have e5 : Inv m d L hq f O W k2_t1_loop.trips acc = IB m d L f O W := if_neg (by decide)
  ihave HI := (Entails.of_eq e5) $$ HI
  unfold IB owesP
  icases HI with ⟨#Hmw', HtabA', HtabB', HsI', HFCA, HFCB, Hs3', Hs4', Hdone', ⟨%W', %hW', HO'⟩⟩
  ihave Hmw5 := (Transfers.MayWaits.elim (SemLoc.dma cc2_scratch5.sem)) $$ Hmw'
  iapply (Transfers.wp_waitLocalO countersEmb 𝒱₀ (thr d L) none (none : HIx 2) (N := 524288) rfl) $$ [HFCA HO' Hmw5]
  · isplitl [HFCA]; · iexact HFCA
    isplitl [HO']; · iexact HO'
    iexact Hmw5
  iintro ⟨⟨Hd8, ⟨%fa', HbA'⟩⟩, Hs5', HO'⟩
  ihave Hmw6 := (Transfers.MayWaits.elim (SemLoc.dma cc2_scratch6.sem)) $$ Hmw'
  simp only [Prog.lift, Prog.bind_op, Prog.bind_ret, Prog.pure_eq_ret]
  iapply (Transfers.wp_waitLocalO countersEmb 𝒱₀ (thr d L) none (none : HIx 2) (N := 524288) rfl) $$ [HFCB HO' Hmw6]
  · isplitl [HFCB]; · iexact HFCB
    isplitl [HO']; · iexact HO'
    iexact Hmw6
  iintro ⟨⟨Hd9, ⟨%fb', HbB'⟩⟩, Hs6', HO'⟩
  sl_step
  have jt : (iprop((View.loc (thr d L) (View.whole (main_v1_scv : Ref sig .scVector)) ↦{(tq L).left} f) ∗ (View.loc (thr d L) (View.whole (main_v1_scv : Ref sig .scVector)) ↦{(tq L).right} f)) : sProp (𝕄F F))
      ⊢ (View.loc (thr d L) (View.whole (main_v1_scv : Ref sig .scVector)) ↦{tq L} f) := (pointsTo_share (PosShare.mem_left_op_right (tq L))).2
  isplitl [HtabA' HtabB']
  · iapply jt; isplitl [HtabA'] <;> iassumption
  isplitl [Hix]; · iexact Hix
  isplitl [Hdone' Hd8 Hd9]
  · iapply (doneP_congr m d L (base L) (base L) (6144 + 128 + 128) 6400 rfl (by omega))
    iapply (done_append m d L (base L) (6144 + 128) 128)
    isplitl [Hdone' Hd8]
    · iapply (done_append m d L (base L) 6144 128); isplitl [Hdone'] <;> iassumption
    · iapply (doneP_congr m d L (base L + 6272) (base L + (6144 + 128)) 128 128 (by omega) rfl) $$ Hd9
  isplitl [HsI']; · iexists _; iexact HsI'
  isplitl [HbA']
  · iexists fa'
    have eA : ((View.loc (thr d L) (View.whole (cc2_scratch1 : Ref sig .scVector)) ↦[(View.whole (cc2_scratch1 : Ref sig .scVector)).set]{fullShare} fa' : sProp (𝕄F F)))
        = (View.loc (thr d L) (View.whole (cc2_scratch1 : Ref sig .scVector)) ↦[Finset.univ]{fullShare} fa') := by rw [View.set_whole]
    iapply (Entails.of_eq eA); iexact HbA'
  isplitl [HbB']
  · iexists fb'
    have eB : ((View.loc (thr d L) (View.whole (cc2_scratch2 : Ref sig .scVector)) ↦[(View.whole (cc2_scratch2 : Ref sig .scVector)).set]{fullShare} fb' : sProp (𝕄F F)))
        = (View.loc (thr d L) (View.whole (cc2_scratch2 : Ref sig .scVector)) ↦[Finset.univ]{fullShare} fb') := by rw [View.set_whole]
    iapply (Entails.of_eq eB); iexact HbB'
  isplitl [Hs3']; · iexact Hs3'
  isplitl [Hs4']; · iexact Hs4'
  isplitl [Hs5']; · iexact Hs5'
  isplitl [Hs6']; · iexact Hs6'
  isplitl [Hs0]; · iapply (semVal_cast (F := F) d L _ _ ?h0) $$ Hs0; case h0 => rfl
  isplitl [HO']
  · iexists _; isplitr; swap
    · iexact HO'
    · ipureintro; intro p hp
      rcases Finset.mem_insert.mp hp with rfl | hp
      · exact .inr rfl
      rcases Finset.mem_insert.mp hp with rfl | hp
      · exact .inr rfl
      exact hW' p hp
  iexact HR

end G2

end Cert.Kernel.Hand

end
-- ==== Proof.Bits.ScBody2Val.lean ====
/-
  What the second SparseCore kernel's copies carry, as pure facts: the index scratch's words are document tokens; a gather of
  window r leaves in its buffer the table rows those tokens name; the buffer copied out to the window's rows of the output
  makes those rows hold, in their first 64 columns, the embedding rows of the window's tokens.
-/
import proofs.«218768_g80616536146796_cont_9to1c4b_775_25_alg».proof.Proof.Bits.ScBody2Defs
import Idealize.ShloMosaic.Lib.ValueLayout

noncomputable section

namespace Cert.Kernel.Hand

open Cert.Kernel Cert.Kernel.Gen

open Idealize.ShloMosaic
open Idealize.ShloMosaic.SparseCore (S V T)
open Idealize.SL Idealize.SL.RA Idealize.SL.BI
open Idealize.ShloMosaic.ValueIdx

variable {F : FTy → Type}

namespace G2

variable (m : (ℓ : Loc nD τ sig) → Buf (Elt F) ℓ) [FloatOps F]
variable (d : Dev nD) (L : grid2.Coords)

/-- One piece written whole through a whole buffer's view replaces the contents. -/
theorem writes_whole_whole {κ : Kind} {Val : EltTy → Type} (b : Ref sig κ) (ga : b.ty.Contents Val) (p : (Rect.whole b.ty.shape).shape.Idx → Val b.ty.elt) :
    (View.whole b).writes Val ga [⟨Rect.whole b.ty.shape, p⟩] = p := by
  funext i
  have hi : ((View.whole b).slice (Rect.whole b.ty.shape)).emb i = i := by
    funext a; apply Fin.ext
    simp [Rect.whole]
  have h := View.write_emb_of_mem (v := (View.whole b).slice (Rect.whole b.ty.shape)) ga p (Finset.mem_univ i)
  rw [hi] at h
  rw [View.writes_singleton, h]; rfl

omit [FloatOps F] in
theorem base_lt (r : Fin 50) (j : Fin 128) : base L + 128 * r.val + j.val < 204800 := by
  have h0 : (L 0).val < 2 := (L 0).isLt
  have h1 : (L 1).val < 16 := (L 1).isLt
  unfold base; omega

/-- Word j of row r of the index scratch is document token base + 128 r + j. -/
theorem fiN_apply (r : Fin 50) (j : Fin 128) :
    fiN m d L (ix2 r j) = Cert.Spec.dTok (m (loc d main_arg1)) ⟨base L + 128 * r.val + j.val, base_lt L r j⟩ := by
  have h0 : (L 0).val < 2 := (L 0).isLt
  have h1 : (L 1).val < 16 := (L 1).isLt
  have hw : 2 * (L 1).val + (L 0).val < 32 := by omega
  have hre : Shape.reshapeEquiv (squeezes_S1x50x128_S50x128.numel_eq) (ix2 r j : S50x128.Idx) = (ix3 (⟨0, Nat.one_pos⟩ : Fin 1) r j : S1x50x128.Idx) :=
    reshapeEquiv_ix2_1ab _ r j
  have hidx : (ixRow L).view.emb (ix2 r j) = (ix3 ⟨2 * (L 1).val + (L 0).val, hw⟩ r j : S32x50x128.Idx) := by
    show (Rect.unit (s := S32x50x128) (k2_off1 L) S1x50x128.size (k2_off1_inb L)).emb (Shape.reshapeEquiv (squeezes_S1x50x128_S50x128.numel_eq) (ix2 r j)) = _
    rw [hre]
    funext a
    apply Fin.ext
    rw [Rect.emb_apply]
    simp only [Rect.off_unit, Rect.stride_unit, k2_off1_eq]
    match a with
    | ⟨0, _⟩ => show 2 * (L 1).val + (L 0).val + 1 * 0 = 2 * (L 1).val + (L 0).val; omega
    | ⟨1, _⟩ => show 0 + 1 * r.val = r.val; omega
    | ⟨2, _⟩ => show 0 + 1 * j.val = j.val; omega
  unfold fiN
  rw [View.read_apply, hidx, idx6_apply, cast_eq]
  congr 1
  apply Fin.ext
  show (2 * (L 1).val + (L 0).val) * 6400 + r.val * 128 + j.val = base L + 128 * r.val + j.val
  unfold base; omega

/-- What a gather through row off of the index scratch delivers. -/
theorem gather_ok (hq : ∀ d i, ((m (loc d main_arg1)) i).toNat < 1000000) (f : Buf (Elt F) (loc d main_v1))
    (off : Fin 2 → ℕ) (h : ∀ a, off a + S1x128.size a ≤ S50x128.size a) (h1 : off 1 = 0)
    (hin' : ∀ x, ((rowM off h).view.read (Elt F) (fiN m d L) x).toNat < S1000000x128.size gathers_S1000000x128_S128x128.axis) :
    GOK m d L hq f (off 0)
      (SparseCore.gatherPayload gathers_S1000000x128_S128x128 (View.read (Elt F) (tabS).view f)
        (SparseCore.rows (View.read (Elt F) (rowM off h).view (fiN m d L)) rfl hin')) := by
  have h0 : off 0 + 1 ≤ 50 := h 0
  have hmod : off 0 % 50 = off 0 := Nat.mod_eq_of_lt (by omega)
  have hread : ∀ k : Fin 128, (rowM off h).view.read (Elt F) (fiN m d L) (ix1 k : S128.Idx)
      = fiN m d L (ix2 ⟨off 0 % 50, Nat.mod_lt _ (by decide)⟩ k) := by
    intro k
    have hre : Shape.reshapeEquiv (squeezes_S1x128_S128.numel_eq) (ix1 k : S128.Idx) = (ix2 (⟨0, Nat.one_pos⟩ : Fin 1) k : S1x128.Idx) :=
      Shape.reshapeEquiv_eq_of_rowMajor _ (by
        rw [Shape.rowMajor_val_two, Shape.rowMajor_val_one]; show 0 * 128 + k.val = k.val; omega)
    have hidx : (rowM off h).view.emb (ix1 k) = (ix2 ⟨off 0 % 50, Nat.mod_lt _ (by decide)⟩ k : S50x128.Idx) := by
      show (Rect.unit (s := S50x128) off S1x128.size h).emb (Shape.reshapeEquiv (squeezes_S1x128_S128.numel_eq) (ix1 k)) = _
      rw [hre]
      funext a; apply Fin.ext
      match a with
      | ⟨0, _⟩ => show off 0 + 1 * 0 = off 0 % 50; omega
      | ⟨1, _⟩ => show off 1 + 1 * k.val = k.val; omega
    rw [View.read_apply, hidx, cast_eq]
  have hsymm : ∀ k : Fin S128.numel, S128.rowMajor.symm k = (ix1 (k.cast (by decide)) : S128.Idx) := fun k =>
    (Equiv.symm_apply_eq _).mpr (Fin.ext (by rw [Shape.rowMajor_val_one]; rfl))
  have hemb : ∀ y : S1000000x128.Idx, (tabS).view.emb y = y := by
    intro y; funext a; apply Fin.ext
    match a with
    | ⟨0, _⟩ => show 0 + 1 * (y 0).val = (y 0).val; omega
    | ⟨1, _⟩ => show 0 + 1 * (y 1).val = (y 1).val; omega
  unfold GOK
  intro x
  unfold SparseCore.gatherPayload
  rw [View.read_apply, hemb, cast_eq]
  refine congrArg f ?_
  funext b; apply Fin.ext
  match b with
  | ⟨0, _⟩ =>
    refine (congrArg Fin.val (Shape.Gathers.idx_axis gathers_S1000000x128_S128x128 _ x)).trans ?_
    show (View.read (Elt F) (rowM off h).view (fiN m d L) (S128.rowMajor.symm _)).toNat = _
    rw [hsymm, hread]; rfl
  | ⟨1, _⟩ => exact Shape.Gathers.idx_of_ne gathers_S1000000x128_S128x128 _ x ⟨1, by decide⟩ (by decide)

/-- The window of the output written with a buffer that holds window r's gathered rows. -/
theorem win_done (hq : ∀ d i, ((m (loc d main_arg1)) i).toNat < 1000000) (f : Buf (Elt F) (loc d main_v1))
    (hf : Cert.Spec.Tab2OK (m (loc d main_arg2)) f)
    (off : Fin 2 → ℕ) (h : ∀ a, off a + S128x128.size a ≤ S204800x128.size a) (h1 : off 1 = 0)
    (r : ℕ) (hr : r < 50) (ho : off 0 = base L + 128 * r)
    (g1 : Buf (Elt F) (loc d main_v7)) (p : S128x128.Idx → F .f32) (hp : GOK m d L hq f r p) :
    RowsDone (Cert.Spec.dTok (m (loc d main_arg1))) (m (loc d main_arg2)) (off 0) 128
      ((winM off h).view.writes (Elt F) g1 [⟨Rect.whole S128x128, p⟩]) := by
  unfold RowsDone
  intro rr e hlo hhi
  have hx0 : rr.val - off 0 < 128 := by omega
  have hr50 : r % 50 = r := Nat.mod_eq_of_lt hr
  have hemb : ((winM off h).view.slice (Rect.whole S128x128)).emb (ix2 (⟨rr.val - off 0, hx0⟩ : Fin 128) (Cert.Spec.col e)) = (ix2 rr (Cert.Spec.col e) : S204800x128.Idx) := by
    funext a; apply Fin.ext
    match a with
    | ⟨0, _⟩ => show off 0 + 1 * (0 + 1 * (rr.val - off 0)) = rr.val; omega
    | ⟨1, _⟩ => show off 1 + 1 * (0 + 1 * e.val) = e.val; omega
  have hw := View.write_emb_of_mem (v := (winM off h).view.slice (Rect.whole S128x128)) g1 p (Finset.mem_univ (ix2 (⟨rr.val - off 0, hx0⟩ : Fin 128) (Cert.Spec.col e)))
  rw [hemb] at hw
  rw [View.writes_singleton, hw, cast_eq, hp]
  have htok : fiN m d L (ix2 ⟨r % 50, Nat.mod_lt _ (by decide)⟩ (⟨rr.val - off 0, hx0⟩ : Fin 128)) = Cert.Spec.dTok (m (loc d main_arg1)) rr := by
    rw [fiN_apply]; congr 1; apply Fin.ext; show base L + 128 * (r % 50) + (rr.val - off 0) = rr.val; omega
  have hv : (⟨(fiN m d L (ix2 ⟨r % 50, Nat.mod_lt _ (by decide)⟩ (⟨rr.val - off 0, hx0⟩ : Fin 128))).toNat, fiN_lt m d L hq _⟩ : Fin 1000000) = Cert.Spec.row (Cert.Spec.dTok (m (loc d main_arg1)) rr) := by
    apply Fin.ext
    rw [Cert.Spec.row_val_of_lt (by unfold Cert.Spec.dTok; exact hq d _)]
    exact congrArg BitVec.toNat htok
  exact (congrArg (fun v => f (ix2 v (Cert.Spec.col e))) hv).trans (hf _ e)

end G2

end Cert.Kernel.Hand

end
-- ==== Proof.Bits.ScBody2.lean ====
/-
  The launch theorem's obligation for the second SparseCore call: the task of one vector subcore, from what the sequencer's
  handshake hands it (read shares of the table and of the index array, its rows of the output) and its own scratch and
  semaphores, to the same back with its rows of the output holding the table rows its tokens name.
-/
import proofs.«218768_g80616536146796_cont_9to1c4b_775_25_alg».proof.Proof.Bits.ScBody2Core
import proofs.«218768_g80616536146796_cont_9to1c4b_775_25_alg».proof.Proof.Bits.ScBody2Val

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

namespace G2

variable (m : (ℓ : Loc nD τ sig) → Buf (Elt F) ℓ) [FloatOps F]
variable (d : Dev nD) (L : grid2.Coords)

variable (hq : ∀ d i, ((m (loc d main_arg1)) i).toNat < 1000000) (f : Buf (Elt F) (loc d main_v1))
variable (O : CellTallies nD τ sig (HIx 2)) (W : Waits sig (HIx 2))

/-! ## The obligation of the launch theorem -/

abbrev cell (s : DmaSems sig S_) : GSem nD τ sig := (thr d L, SemLoc.dma s.sem)

omit [FloatOps F] in
theorem ownSems0_V :
    (ownSems0 (thr d L) : sProp (𝕄F F))
      = iprop(semVal (cell d L cc2_scratch3) 0 ∗ semVal (cell d L cc2_scratch4) 0 ∗ semVal (cell d L cc2_scratch5) 0
          ∗ semVal (cell d L cc2_scratch6) 0 ∗ semVal (cell d L cc2_scoped0) 0
          ∗ bigSep ((((((ownCells (thr d L)).erase (cell d L cc2_scratch3)).erase (cell d L cc2_scratch4)).erase (cell d L cc2_scratch5)).erase
              (cell d L cc2_scratch6)).erase (cell d L cc2_scoped0)) fun g => semVal g 0) := by
  have ne : ∀ {s s' : DmaSems sig S_}, s.sem ≠ s'.sem → cell d L s ≠ cell d L s' :=
    fun hne e => hne (SemLoc.dma.inj (congrArg Prod.snd e))
  have m3 : cell d L cc2_scratch3 ∈ ownCells (thr d L) :=
    (mem_ownCells (g := cell d L cc2_scratch3)).mpr ⟨rfl, by show (SemLoc.dma cc2_scratch3.sem : SemLoc sig).isScoped .scVector = true; decide⟩
  have m4 : cell d L cc2_scratch4 ∈ ownCells (thr d L) :=
    (mem_ownCells (g := cell d L cc2_scratch4)).mpr ⟨rfl, by show (SemLoc.dma cc2_scratch4.sem : SemLoc sig).isScoped .scVector = true; decide⟩
  have m5 : cell d L cc2_scratch5 ∈ ownCells (thr d L) :=
    (mem_ownCells (g := cell d L cc2_scratch5)).mpr ⟨rfl, by show (SemLoc.dma cc2_scratch5.sem : SemLoc sig).isScoped .scVector = true; decide⟩
  have m6 : cell d L cc2_scratch6 ∈ ownCells (thr d L) :=
    (mem_ownCells (g := cell d L cc2_scratch6)).mpr ⟨rfl, by show (SemLoc.dma cc2_scratch6.sem : SemLoc sig).isScoped .scVector = true; decide⟩
  have m0 : cell d L cc2_scoped0 ∈ ownCells (thr d L) :=
    (mem_ownCells (g := cell d L cc2_scoped0)).mpr ⟨rfl, by show (SemLoc.dma cc2_scoped0.sem : SemLoc sig).isScoped .scVector = true; decide⟩
  unfold SparseCore.Cfg.ownSems0
  rw [SparseCore.bigSep_erase' m3,
    SparseCore.bigSep_erase' (Finset.mem_erase.mpr ⟨ne (by decide), m4⟩),
    SparseCore.bigSep_erase' (Finset.mem_erase.mpr ⟨ne (by decide), Finset.mem_erase.mpr ⟨ne (by decide), m5⟩⟩),
    SparseCore.bigSep_erase' (Finset.mem_erase.mpr ⟨ne (by decide), Finset.mem_erase.mpr ⟨ne (by decide), Finset.mem_erase.mpr ⟨ne (by decide), m6⟩⟩⟩),
    SparseCore.bigSep_erase' (Finset.mem_erase.mpr ⟨ne (by decide), Finset.mem_erase.mpr ⟨ne (by decide),
      Finset.mem_erase.mpr ⟨ne (by decide), Finset.mem_erase.mpr ⟨ne (by decide), m0⟩⟩⟩⟩)]

omit [FloatOps F] in
/-- The three scratch buffers are among the subcore's own: they are them, at some contents, and the rest. -/
theorem ownBufs_V :
    (ownBufs (thr d L) : sProp (𝕄F F))
      = iprop((∃ f, (thr d L).loc cc2_scratch0 ↦{fullShare} f) ∗ (∃ f, (thr d L).loc cc2_scratch1 ↦{fullShare} f)
          ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

include hq in
/-- The value facts, from the value module. -/
theorem vf (hf : Cert.Spec.Tab2OK (m (loc d main_arg2)) f) : VF m d L hq f where
  gA := fun off h h1 hin' ga0 => by
    rw [show (bA).view.writes (Elt F) ga0 [⟨Rect.whole S128x128, SparseCore.gatherPayload gathers_S1000000x128_S128x128 (View.read (Elt F) (tabS).view f)
          (SparseCore.rows (View.read (Elt F) (rowM off h).view (fiN m d L)) rfl hin')⟩] = _ from writes_whole_whole cc2_scratch1 ga0 _]
    exact gather_ok m d L hq f off h h1 hin'
  gB := fun off h h1 hin' gb0 => by
    rw [show (bB).view.writes (Elt F) gb0 [⟨Rect.whole S128x128, SparseCore.gatherPayload gathers_S1000000x128_S128x128 (View.read (Elt F) (tabS).view f)
          (SparseCore.rows (View.read (Elt F) (rowM off h).view (fiN m d L)) rfl hin')⟩] = _ from writes_whole_whole cc2_scratch2 gb0 _]
    exact gather_ok m d L hq f off h h1 hin'
  win := fun off h h1 r hr ho g1 p hp => win_done m d L hq f hf off h h1 r hr ho g1 p hp

/-- What the task leaves, restated for the handshake. -/
theorem post_ent (hf : Cert.Spec.Tab2OK (m (loc d main_arg2)) f) (Rb Rs : sProp (𝕄F F)) :
    (iprop(((tabV).view.loc (thr d L) ↦{tq L} f) ∗ ((ixV).view.loc (thr d L) ↦{tq L} idx6 m d)
            ∗ doneP m d L (base L) 6400
            ∗ (∃ fi : Buf (Elt F) ((thr d L).loc cc2_scratch0), (sI).view.loc (thr d L) ↦{fullShare} fi)
            ∗ (∃ fa : Buf (Elt F) ((thr d L).loc cc2_scratch1), (bA).view.loc (thr d L) ↦{fullShare} fa)
            ∗ (∃ fb : Buf (Elt F) ((thr d L).loc cc2_scratch2), (bB).view.loc (thr d L) ↦{fullShare} fb)
            ∗ semVal (thr d L, SemLoc.dma cc2_scratch3.sem) 0 ∗ semVal (thr d L, SemLoc.dma cc2_scratch4.sem) 0
            ∗ semVal (thr d L, SemLoc.dma cc2_scratch5.sem) 0 ∗ semVal (thr d L, SemLoc.dma cc2_scratch6.sem) 0
            ∗ semVal (thr d L, SemLoc.dma cc2_scoped0.sem) 0
            ∗ (∃ W', ⌜∀ p ∈ W', p ∈ W ∨ p.2 = none⌝ ∗ owes (thr d L) O W') ∗ iprop(Rb ∗ Rs)) : sProp (𝕄F F))
      ⊢ iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx6 m d)
              ∗ ∃ g : Buf (Elt F) (loc d main_v7), ⌜RowsDone (Cert.Spec.dTok (m (loc d main_arg1))) (m (loc d main_arg2)) (base L) 6400 g⌝
                  ∗ ((outV).view.loc (thr d L) ↦[rowsOf 204800 (base L) 6400]{fullShare} g))
            ∗ ((∃ fi : Buf (Elt F) ((thr d L).loc cc2_scratch0), (sI).view.loc (thr d L) ↦{fullShare} fi)
              ∗ (∃ fa : Buf (Elt F) ((thr d L).loc cc2_scratch1), (bA).view.loc (thr d L) ↦{fullShare} fa)
              ∗ (∃ fb : Buf (Elt F) ((thr d L).loc cc2_scratch2), (bB).view.loc (thr d L) ↦{fullShare} fb) ∗ Rb)
            ∗ (semVal (thr d L, SemLoc.dma cc2_scratch3.sem) 0 ∗ semVal (thr d L, SemLoc.dma cc2_scratch4.sem) 0
              ∗ semVal (thr d L, SemLoc.dma cc2_scratch5.sem) 0 ∗ semVal (thr d L, SemLoc.dma cc2_scratch6.sem) 0
              ∗ semVal (thr d L, SemLoc.dma cc2_scoped0.sem) 0 ∗ Rs)
            ∗ ∃ W', ⌜∀ p ∈ W', p ∈ W ∨ p.2 = none⌝ ∗ owes (thr d L) O W') := by
  unfold doneP
  iintro ⟨Htab, Hix, Hdone, HsI, HbA, HbB, Hs3, Hs4, Hs5, Hs6, Hs0, HO, HRb, HRs⟩
  isplitl [Htab Hix Hdone]
  · isplitl [Htab]
    · iexists f; isplitr
      · ipureintro; exact hf
      · iexact Htab
    isplitl [Hix]; · iexact Hix
    iexact Hdone
  isplitl [HsI HbA HbB HRb]
  · isplitl [HsI]; · iexact HsI
    isplitl [HbA]; · iexact HbA
    isplitl [HbB]; · iexact HbB
    iexact HRb
  isplitl [Hs3 Hs4 Hs5 Hs6 Hs0 HRs]
  · isplitl [Hs3]; · iexact Hs3
    isplitl [Hs4]; · iexact Hs4
    isplitl [Hs5]; · iexact Hs5
    isplitl [Hs6]; · iexact Hs6
    isplitl [Hs0]; · iexact Hs0
    iexact HRs
  iexact HO

include hq in
/-- The task, from what the handshake hands the subcore to what it hands back, the subcore's other buffers and
    semaphores (Rb, Rs) untouched. -/
theorem tile_body' (hO : ∀ g, O g none = 0) (Rb Rs : sProp (𝕄F F)) :
    iprop(levAts (K (F := F)).L (K (F := F)).lev ∗ emp
        ∗ ((∃ f : Buf (Elt F) (loc d main_v1), ⌜Cert.Spec.Tab2OK (m (loc d main_arg2)) f⌝ ∗ ((tabV).view.loc (thr d L) ↦{tq L} f))
          ∗ ((ixV).view.loc (thr d L) ↦{tq L} idx6 m d)
          ∗ ∃ g : Buf (Elt F) (loc d main_v7), ((outV).view.loc (thr d L) ↦[rowsOf 204800 (base L) 6400]{fullShare} g))
        ∗ ((∃ fi : Buf (Elt F) ((thr d L).loc cc2_scratch0), (sI).view.loc (thr d L) ↦{fullShare} fi)
          ∗ (∃ fa : Buf (Elt F) ((thr d L).loc cc2_scratch1), (bA).view.loc (thr d L) ↦{fullShare} fa)
          ∗ (∃ fb : Buf (Elt F) ((thr d L).loc cc2_scratch2), (bB).view.loc (thr d L) ↦{fullShare} fb) ∗ Rb)
        ∗ (semVal (thr d L, SemLoc.dma cc2_scratch3.sem) 0 ∗ semVal (thr d L, SemLoc.dma cc2_scratch4.sem) 0
          ∗ semVal (thr d L, SemLoc.dma cc2_scratch5.sem) 0 ∗ semVal (thr d L, SemLoc.dma cc2_scratch6.sem) 0
          ∗ semVal (thr d L, SemLoc.dma cc2_scoped0.sem) 0 ∗ Rs)
        ∗ owes (thr d L) O W)
      ⊢ wp frame (wpE (defs₀ (F := F)) 𝒱₀ (thr d L) none) Set.univ
          (cc2_gather_kernel L tabV (Memref.isWhole_whole _) ixV (Memref.isWhole_whole _) outV (Memref.isWhole_whole _)
            sI (Memref.isWhole_whole _) bA (Memref.isWhole_whole _) bB (Memref.isWhole_whole _) cc2_scratch3 cc2_scratch4 cc2_scratch5 cc2_scratch6 cc2_scoped0)
          fun _ => iprop(((∃ f : Buf (Elt F) (loc d main_v1), ⌜Cert.Spec.Tab2OK (m (loc d main_arg2)) f⌝ ∗ ((tabV).view.loc (thr d L) ↦{tq L} f))
              ∗ ((ixV).view.loc (thr d L) ↦{tq L} idx6 m d)
              ∗ ∃ g : Buf (Elt F) (loc d main_v7), ⌜RowsDone (Cert.Spec.dTok (m (loc d main_arg1))) (m (loc d main_arg2)) (base L) 6400 g⌝
                  ∗ ((outV).view.loc (thr d L) ↦[rowsOf 204800 (base L) 6400]{fullShare} g))
            ∗ ((∃ fi : Buf (Elt F) ((thr d L).loc cc2_scratch0), (sI).view.loc (thr d L) ↦{fullShare} fi)
              ∗ (∃ fa : Buf (Elt F) ((thr d L).loc cc2_scratch1), (bA).view.loc (thr d L) ↦{fullShare} fa)
              ∗ (∃ fb : Buf (Elt F) ((thr d L).loc cc2_scratch2), (bB).view.loc (thr d L) ↦{fullShare} fb) ∗ Rb)
            ∗ (semVal (thr d L, SemLoc.dma cc2_scratch3.sem) 0 ∗ semVal (thr d L, SemLoc.dma cc2_scratch4.sem) 0
              ∗ semVal (thr d L, SemLoc.dma cc2_scratch5.sem) 0 ∗ semVal (thr d L, SemLoc.dma cc2_scratch6.sem) 0
              ∗ semVal (thr d L, SemLoc.dma cc2_scoped0.sem) 0 ∗ Rs)
            ∗ ∃ W', ⌜∀ p ∈ W', p ∈ W ∨ p.2 = none⌝ ∗ owes (thr d L) O W') := by
  iintro ⟨#Hlv, -, ⟨⟨%f, %hf, Htab⟩, Hix, ⟨%g0, Hout⟩⟩, ⟨⟨%fi, HsI⟩, ⟨%fa, HbA⟩, ⟨%fb, HbB⟩, HRb⟩, ⟨Hs3, Hs4, Hs5, Hs6, Hs0, HRs⟩, HO⟩
  iapply (BIBase.Entails.trans (tile_core m d L hq f O W (vf m d L hq f hf) hO g0 fi fa fb iprop(Rb ∗ Rs))
    (wp_mono frame _ _ fun _ => post_ent m d L f O W hf Rb Rs))
  isplitr; · iexact Hlv
  isplitl [Htab]; · iexact Htab
  isplitl [Hix]; · iexact Hix
  isplitl [Hout]; · iexact Hout
  isplitl [HsI]; · iexact HsI
  isplitl [HbA]; · iexact HbA
  isplitl [HbB]; · iexact HbB
  isplitl [Hs3]; · iexact Hs3
  isplitl [Hs4]; · iexact Hs4
  isplitl [Hs5]; · iexact Hs5
  isplitl [Hs6]; · iexact Hs6
  isplitl [Hs0]; · iexact Hs0
  isplitl [HO]; · iexact HO
  isplitl [HRb]; · iexact HRb
  iexact HRs

include hq in
/-- The same at the spelling of the launch theorem's obligation. -/
theorem tile_body (hF : (K (F := F)).Facts) (hO : ∀ g, O g none = 0) :
    iprop(levAts (K (F := F)).L (K (F := F)).lev ∗ emp ∗ go1 m d (L 0).val (L 1).val
        ∗ scopedBufs (thr d L) ∗ scopedSems0 (thr d L) ∗ owes (thr d L) O W)
      ⊢ wp frame (wpE (defs₀ (F := F)) 𝒱₀ (thr d L) none) Set.univ
          (cc2_gather_kernel L tabV (Memref.isWhole_whole _) ixV (Memref.isWhole_whole _) outV (Memref.isWhole_whole _)
            sI (Memref.isWhole_whole _) bA (Memref.isWhole_whole _) bB (Memref.isWhole_whole _) cc2_scratch3 cc2_scratch4 cc2_scratch5 cc2_scratch6 cc2_scoped0)
          fun _ => iprop(td1 m d (L 0).val (L 1).val ∗ scopedBufs (thr d L) ∗ scopedSems0 (thr d L)
            ∗ ∃ W', ⌜∀ p ∈ W', p ∈ W ∨ p.2 = none⌝ ∗ owes (thr d L) O W') := by
  unfold go1 td1 tabAt task1
  rw [← base_eq L, (K (F := F)).scopedBufs_V hF d (cV L) (jV L), SparseCore.Cfg.scopedSems0_V (Val := Elt F) d (cV L) (jV L),
    ownSems0_V, ownBufs_V]
  exact tile_body' m d L hq O W hO _ _

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_kernel (coordsV c s)
          tabV (Memref.isWhole_whole _) ixV (Memref.isWhole_whole _) outV (Memref.isWhole_whole _)
          sI (Memref.isWhole_whole _) bA (Memref.isWhole_whole _) bB (Memref.isWhole_whole _) cc2_scratch3 cc2_scratch4 cc2_scratch5 cc2_scratch6 cc2_scoped0) ⟨⟩ c s := rfl

omit [FloatOps F] in
theorem obl_post {thr : Thread nD τ} {A B C : sProp (𝕄F F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end G2

/-- The second SparseCore call's task, at every vector subcore of its grid. -/
theorem tileObl1 (m : (ℓ : Loc nD τ sig) → Buf (Elt F) ℓ) [FloatOps F]
    (hq : ∀ (d : Dev nD) i, ((m (loc d main_arg0)) i).toNat < 1000000) (hd : ∀ (d : Dev nD) i, ((m (loc d main_arg1)) i).toNat < 1000000) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [G2.defs₀_vector]; simp only [SparseCore.onTile, hc, and_self, ↓reduceDIte]
  exact (G2.tile_body m d (G2.coordsV ⟨_, hc.1⟩ ⟨_, hc.2⟩) hd O W facts hO).trans (wp_mono frame _ _ fun _ => G2.obl_post)

end Cert.Kernel.Hand

end
-- ==== Proof.Bits.Assemble.lean ====
/-
  The kernel program's run with its results named, from its parts: the three pipeline regions' steps, the two
  SparseCore kernels' body obligations, the split of each call's operands among the tiles and the hand-overs between
  the TensorCore's whole arrays and the calls. The precondition enters as the token ids' range, which the gathers need.
-/
import proofs.«218768_g80616536146796_cont_9to1c4b_775_25_alg».proof.Proof.Bits.Run
import proofs.«218768_g80616536146796_cont_9to1c4b_775_25_alg».proof.Proof.Bits.Region0
import proofs.«218768_g80616536146796_cont_9to1c4b_775_25_alg».proof.Proof.Bits.Region3
import proofs.«218768_g80616536146796_cont_9to1c4b_775_25_alg».proof.Proof.Bits.Region4
import proofs.«218768_g80616536146796_cont_9to1c4b_775_25_alg».proof.Proof.Bits.ScSplit
import proofs.«218768_g80616536146796_cont_9to1c4b_775_25_alg».proof.Proof.Bits.ScBody1
import proofs.«218768_g80616536146796_cont_9to1c4b_775_25_alg».proof.Proof.Bits.ScBody2

noncomputable section

namespace Cert.Kernel.Hand

open Cert.Kernel Cert.Kernel.Gen
open Idealize.ShloMosaic Idealize.SL.Sem

variable {F : FTy → Type} [FloatOps F]

theorem run [∀ e, Nonempty (Elt F e)] (m : (ℓ : Loc nD τ sig) → Buf (Elt F) ℓ) (ρ : Dev nD → PrngReg)
    (hq : ∀ (d : Dev nD) i, ((m (loc d main_arg0)) i).toNat < 1000000) (hd : ∀ (d : Dev nD) i, ((m (loc d main_arg1)) i).toNat < 1000000) :
    θ_run (Cert.Kernel.defs (F := F)) (Cert.Kernel.threads (F := F)) ⟨m, fun _ => 0, ρ⟩ (QC m) :=
  run_of m ρ (fun d x O W hO Q => wp_region0 d x O W hO Q) (fun d x O W hO Q => wp_region1 d x O W hO Q) (fun d x O W hO Q => wp_region2 d x O W hO Q)
    (st_intro0 m) (dn_elim0 m) (st_intro1 m) (dn_elim1 m) (tileObl0 m hq hd) (tileObl1 m hq hd) (vecSplit m)

end Cert.Kernel.Hand

end
-- ==== Proof.RefRun.lean ====
/-
  The reference program's run, and its two results named as the specification's functions.

  The reference is a straight line of fifty-one array operations: for the queries and again for the documents,
  jnp.take's lowering (a negative id counted from the table's end, the id range [0, 999999] tested, the rows gathered
  at the ids clamped into the table, the fill value where the test fails), then for the queries the padding of the
  positions from 20 to 200 with the integer 0 converted to a float, and for both the transpose of each
  [position, column] matrix. Run in order from the launch contents, each result buffer ends at the composition of its
  operations over the arguments, and no operation writes an argument.

  Under the bound on the ids (each below 1000000 read unsigned, hence nonnegative read signed) every branch of the
  lowering is decided: nothing wraps, the test holds everywhere, nothing is clamped and nothing is filled, so the
  lookup at (b, l, e) is column e of the table row the id names. Padded and transposed, that is `Cert.Spec.Gq`; the
  documents' lookup transposed is `Cert.Spec.Gd`.
-/
import proofs.«218768_g80616536146796_cont_9to1c4b_775_25_alg».proof.ReferenceIdeal
import proofs.«218768_g80616536146796_cont_9to1c4b_775_25_alg».proof.Proof.Gen.ReferenceIdeal
import proofs.«218768_g80616536146796_cont_9to1c4b_775_25_alg».proof.Proof.Spec
import Idealize.ShloMosaic.Lib.ValueIdx
import Idealize.ShloMosaic.Lib.ValueLayout
import Idealize.ShloMosaic.Lib.KernelVsHost
import Idealize.ShloMosaic.Lib.IdealHost
import Idealize.ShloMosaic.Lib.ReduceAll
import Idealize.ShloMosaic.Lib.StableHlo.Run

noncomputable section

namespace Cert.ReferenceIdeal.Hand

open Idealize.ShloMosaic Idealize.ShloMosaic.ValueIdx

/-! ## A row lookup read at an index

What `table[ids]` along axis 0 lowers to for a table [N, E] and ids [B, L]: a gather with offset axis 2, the
operand's axis 0 collapsed and named by the start index, slices [1, E], the ids as [B, L, 1]. Result element
(b, l, e) is the operand at row `ids[b, l, 0]` — read as a signed integer and clamped into [0, N − 1], as a gather
clamps every start index — and column e. -/

section Gather
variable {α : Type}

/-- The dimension numbers of a row lookup: operand [N, E], start indices [B, L, 1], result [B, L, E]. -/
abbrev rowDims (N E B L : Nat)
    (wf : GatherDims.WF ⟨2, ![N, E]⟩ ⟨3, ![B, L, 1]⟩ ⟨3, ![B, L, E]⟩ [2] [0] [] [0] [] 2 ![1, E]) :
    GatherDims ⟨2, ![N, E]⟩ ⟨3, ![B, L, 1]⟩ ⟨3, ![B, L, E]⟩ where
  offsetDims := [2]
  collapsedSliceDims := [0]
  operandBatchingDims := []
  startIndicesBatchingDims := []
  startIndexMap := [0]
  indexVectorDim := 2
  sliceSizes := ![1, E]
  wf := wf

/-- THE ROW LOOKUP READ AT (b, l, e): column e of the operand's row at the start index, read signed and clamped. On
    the operand's axis 0 the index is the clamped start (no batching, no offset: the axis is collapsed); on axis 1 the
    start is 0 (the start index names axis 0 only) and the offset is the result's coordinate on its axis 2. -/
theorem gather_row_apply {N E B L w : Nat} (hN : 0 < N)
    (wf : GatherDims.WF ⟨2, ![N, E]⟩ ⟨3, ![B, L, 1]⟩ ⟨3, ![B, L, E]⟩ [2] [0] [] [0] [] 2 ![1, E])
    (x : (⟨2, ![N, E]⟩ : Shape).Idx → α) (idx : IVec ⟨3, ![B, L, 1]⟩ w) (b : Fin B) (l : Fin L) (e : Fin E) :
    Host.gather (rowDims N E B L wf) x idx (ix3 b l e)
      = x (ix2 ⟨min (idx (ix3 b l (0 : Fin 1))).toInt.toNat (N - 1), by omega⟩ e) := by
  unfold Host.gather
  congr 1
  funext a
  refine Fin.ext ?_
  show (rowDims N E B L wf).start (ix3 b l e) idx a + (rowDims N E B L wf).batchCoord (ix3 b l e) a + (rowDims N E B L wf).offCoord (ix3 b l e) a = _
  have h0 : (rowDims N E B L wf).start (ix3 b l e) idx (0 : Fin 2) + (rowDims N E B L wf).batchCoord (ix3 b l e) (0 : Fin 2)
      + (rowDims N E B L wf).offCoord (ix3 b l e) (0 : Fin 2) = min (idx (ix3 b l (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E B L wf).startIndexMap from List.mem_singleton.mpr rfl)]
    have hsi : (rowDims N E B L wf).siIdx (ix3 b l e) ⟨List.idxOf (0 : Fin 2) (rowDims N E B L wf).startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  have h1 : (rowDims N E B L wf).start (ix3 b l e) idx (1 : Fin 2) + (rowDims N E B L wf).batchCoord (ix3 b l e) (1 : Fin 2)
      + (rowDims N E B L wf).offCoord (ix3 b l e) (1 : Fin 2) = e.val := by
    rw [GatherDims.batchCoord_eq_zero _ _ _ List.not_mem_nil]
    have hs : (rowDims N E B L wf).start (ix3 b l e) idx (1 : Fin 2) = 0 := by
      unfold GatherDims.start
      rw [dif_neg (show (1 : Fin 2) ∉ [(0 : Fin 2)] by decide)]
    have hk : (1 : Fin 2) ∈ (rowDims N E B L wf).sKept :=
      (GatherDims.mem_sKept _ _).2 ⟨show (1 : Fin 2) ∉ [(0 : Fin 2)] by decide, List.not_mem_nil⟩
    rw [hs]
    unfold GatherDims.offCoord
    rw [dif_pos hk]
    have hx : ∀ (i : Nat) (h : i < (rowDims N E B L wf).offsetDims.length),
        (rowDims N E B L wf).offsetDims[i]'h = (2 : Fin 3) := fun i h => List.getElem_singleton (a := (2 : Fin 3)) h
    rw [hx]
    show 0 + 0 + e.val = e.val
    omega
  match a with
  | ⟨0, _⟩ => exact h0
  | ⟨1, _⟩ => exact h1

end Gather

/-! ## Words -/

section Words

/-- A left fold by `and` over one-bit words that are all 1, from 1, is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` of an array of 1s, from 1, is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

variable {w : BitVec 32}

/-- A word below 1000000 reads the same signed. -/
theorem toInt_of_lt (hw : w.toNat < 1000000) : w.toInt = w.toNat :=
  BitVec.toInt_eq_toNat_of_lt (by omega)

/-- A word below 1000000 is not negative: the wrap-around of a negative id leaves it alone. -/
theorem select_slt_zero {α : Type} (hw : w.toNat < 1000000) (a b : α) :
    Scalar.select (IntOp.cmpi .slt w 0#32) a b = b := by
  have hn : ¬ IntOp.cmpi .slt w 0#32 = 1#1 := by
    rw [IntOp.cmpi_slt, toInt_of_lt hw, show (0#32 : BitVec 32).toInt = 0 from by decide]
    omega
  exact if_neg hn

theorem sge_zero (hw : w.toNat < 1000000) : IntOp.cmpi .sge w 0#32 = 1#1 := by
  rw [IntOp.cmpi_sge, toInt_of_lt hw, show (0#32 : BitVec 32).toInt = 0 from by decide]
  omega

theorem sle_last (hw : w.toNat < 1000000) : IntOp.cmpi .sle w 999999#32 = 1#1 := by
  rw [IntOp.cmpi_sle, toInt_of_lt hw, show (999999#32 : BitVec 32).toInt = 999999 from by decide]
  omega

/-- The clamped start index of a word below 1000000 is the word, the row it names. -/
theorem clamp_eq_row (hw : w.toNat < 1000000) : min w.toInt.toNat (1000000 - 1) = (Cert.Spec.row w).val := by
  rw [Cert.Spec.row_val_of_lt hw, toInt_of_lt hw]
  simp only [Int.toNat_natCast]
  omega

end Words

/-! ## The query lookup, as the reference spells it -/

section TakeQ

open Facts₀

variable {F : FTy → Type} [FloatOps F] [Cert.ReferenceIdeal.Facts]

/-- jnp.take's index normalisation: a negative id is counted from the table's end. -/
def wrapQ (q : IVec S1024x20 32) : IVec S1024x20 32 :=
  select (cmpi .slt q (broadcastInDim S1024x20 ![] bcast_S_S1024x20 (constantI S_ 32 0#32)))
    (addi q (broadcastInDim S1024x20 ![] bcast_S_S1024x20 (constantI S_ 32 1000000#32))) q

/-- The start indices of the gather: one id per (sequence, position). -/
def idxQ (q : IVec S1024x20 32) : IVec S1024x20x1 32 :=
  broadcastInDim S1024x20x1 ![0, 1] bcast_S1024x20_S1024x20x1_0_1 (wrapQ q)

/-- jnp.take's fill mask: the id lies in [0, 999999]. -/
def okQ (q : IVec S1024x20 32) : IVec S1024x20 1 :=
  Host.reduce IntOp.andi
    (andi (cmpi .sge (idxQ q) (broadcastInDim S1024x20x1 ![] bcast_S_S1024x20x1 (constantI S_ 32 0#32)))
      (cmpi .sle (idxQ q) (broadcastInDim S1024x20x1 ![0, 1, 2] bcast_S1x1x1_S1024x20x1_0_1_2
        (broadcastInDim S1x1x1 ![2] bcast_S1_S1x1x1_2 (constantI S1 32 999999#32)))))
    (constantI S_ 1 1#1) reducesTo_S1024x20x1_S1024x20_d2 h_S_

/-- jnp.take(table, ids, axis=0): the gathered rows where the mask holds, the fill value elsewhere. -/
def takeQ (q : IVec S1024x20 32) (tab : FVec F S1000000x64 .f32) : FVec F S1024x20x64 .f32 :=
  select (broadcastInDim S1024x20x64 ![0, 1] bcast_S1024x20_S1024x20x64_0_1 (okQ q))
    (Host.gather gather_S1000000x64_S1024x20x1_S1024x20x64_2_0_n_n_0_2_164 tab (idxQ q))
    (broadcastInDim S1024x20x64 ![] bcast_S_S1024x20x64 (constant S_ .f32 0x7FC00000#32))

variable (q : IVec S1024x20 32) (hq : ∀ i, (q i).toNat < 1000000)
include hq

theorem wrapQ_apply (i : S1024x20.Idx) : wrapQ q i = q i :=
  select_slt_zero (hq i) _ _

theorem idxQ_apply (b : Fin 1024) (l : Fin 20) (z : Fin 1) : idxQ q (ix3 b l z) = q (ix2 b l) := by
  have e : idxQ q (ix3 b l z) = wrapQ q (ix2 b l) :=
    broadcastInDim_apply _ _ _ _ _ fun a => match a with | ⟨0, _⟩ => rfl | ⟨1, _⟩ => rfl
  rw [e, wrapQ_apply q hq]

theorem okQ_apply (j : S1024x20.Idx) : okQ q j = 1#1 := by
  refine reduce_andi_one _ _ _ _ (fun i => ?_) (fun _ => rfl) j
  obtain ⟨b, l, z, rfl⟩ : ∃ b l z, i = ix3 b l z := ⟨_, _, _, eq_ix3 i⟩
  show IntOp.andi (IntOp.cmpi .sge (idxQ q (ix3 b l z)) 0#32) (IntOp.cmpi .sle (idxQ q (ix3 b l z)) 999999#32) = 1#1
  rw [idxQ_apply q hq, sge_zero (hq _), sle_last (hq _)]
  decide

/-- Under the bound on the ids the lookup is the table's row: nothing is clamped, nothing is filled. -/
theorem takeQ_apply (tab : FVec F S1000000x64 .f32) (b : Fin 1024) (l : Fin 20) (e : Fin 64) :
    takeQ q tab (ix3 b l e) = tab (ix2 (Cert.Spec.row (q (ix2 b l))) e) := by
  have hm : broadcastInDim S1024x20x64 ![0, 1] bcast_S1024x20_S1024x20x64_0_1 (okQ q) (ix3 b l e) = 1#1 :=
    okQ_apply q hq _
  unfold takeQ
  rw [select_apply, hm, select_one]
  have hg := gather_row_apply (N := 1000000) (E := 64) (B := 1024) (L := 20) (by decide)
    gather_S1000000x64_S1024x20x1_S1024x20x64_2_0_n_n_0_2_164_wf tab (idxQ q) b l e
  refine hg.trans ?_
  refine congrArg (fun r => tab (ix2 r e)) (Fin.ext ?_)
  show min (idxQ q (ix3 b l (0 : Fin 1))).toInt.toNat (1000000 - 1) = _
  rw [idxQ_apply q hq, clamp_eq_row (hq _)]

end TakeQ

/-! ## The document lookup, as the reference spells it -/

section TakeD

open Facts₀

variable {F : FTy → Type} [FloatOps F] [Cert.ReferenceIdeal.Facts]

/-- jnp.take's index normalisation: a negative id is counted from the table's end. -/
def wrapD (q : IVec S1024x200 32) : IVec S1024x200 32 :=
  select (cmpi .slt q (broadcastInDim S1024x200 ![] bcast_S_S1024x200 (constantI S_ 32 0#32)))
    (addi q (broadcastInDim S1024x200 ![] bcast_S_S1024x200 (constantI S_ 32 1000000#32))) q

/-- The start indices of the gather: one id per (sequence, position). -/
def idxD (q : IVec S1024x200 32) : IVec S1024x200x1 32 :=
  broadcastInDim S1024x200x1 ![0, 1] bcast_S1024x200_S1024x200x1_0_1 (wrapD q)

/-- jnp.take's fill mask: the id lies in [0, 999999]. -/
def okD (q : IVec S1024x200 32) : IVec S1024x200 1 :=
  Host.reduce IntOp.andi
    (andi (cmpi .sge (idxD q) (broadcastInDim S1024x200x1 ![] bcast_S_S1024x200x1 (constantI S_ 32 0#32)))
      (cmpi .sle (idxD q) (broadcastInDim S1024x200x1 ![0, 1, 2] bcast_S1x1x1_S1024x200x1_0_1_2
        (broadcastInDim S1x1x1 ![2] bcast_S1_S1x1x1_2 (constantI S1 32 999999#32)))))
    (constantI S_ 1 1#1) reducesTo_S1024x200x1_S1024x200_d2 h_S_

/-- jnp.take(table, ids, axis=0): the gathered rows where the mask holds, the fill value elsewhere. -/
def takeD (q : IVec S1024x200 32) (tab : FVec F S1000000x64 .f32) : FVec F S1024x200x64 .f32 :=
  select (broadcastInDim S1024x200x64 ![0, 1] bcast_S1024x200_S1024x200x64_0_1 (okD q))
    (Host.gather gather_S1000000x64_S1024x200x1_S1024x200x64_2_0_n_n_0_2_164 tab (idxD q))
    (broadcastInDim S1024x200x64 ![] bcast_S_S1024x200x64 (constant S_ .f32 0x7FC00000#32))

variable (q : IVec S1024x200 32) (hq : ∀ i, (q i).toNat < 1000000)
include hq

theorem wrapD_apply (i : S1024x200.Idx) : wrapD q i = q i :=
  select_slt_zero (hq i) _ _

theorem idxD_apply (b : Fin 1024) (l : Fin 200) (z : Fin 1) : idxD q (ix3 b l z) = q (ix2 b l) := by
  have e : idxD q (ix3 b l z) = wrapD q (ix2 b l) :=
    broadcastInDim_apply _ _ _ _ _ fun a => match a with | ⟨0, _⟩ => rfl | ⟨1, _⟩ => rfl
  rw [e, wrapD_apply q hq]

theorem okD_apply (j : S1024x200.Idx) : okD q j = 1#1 := by
  refine reduce_andi_one _ _ _ _ (fun i => ?_) (fun _ => rfl) j
  obtain ⟨b, l, z, rfl⟩ : ∃ b l z, i = ix3 b l z := ⟨_, _, _, eq_ix3 i⟩
  show IntOp.andi (IntOp.cmpi .sge (idxD q (ix3 b l z)) 0#32) (IntOp.cmpi .sle (idxD q (ix3 b l z)) 999999#32) = 1#1
  rw [idxD_apply q hq, sge_zero (hq _), sle_last (hq _)]
  decide

/-- Under the bound on the ids the lookup is the table's row: nothing is clamped, nothing is filled. -/
theorem takeD_apply (tab : FVec F S1000000x64 .f32) (b : Fin 1024) (l : Fin 200) (e : Fin 64) :
    takeD q tab (ix3 b l e) = tab (ix2 (Cert.Spec.row (q (ix2 b l))) e) := by
  have hm : broadcastInDim S1024x200x64 ![0, 1] bcast_S1024x200_S1024x200x64_0_1 (okD q) (ix3 b l e) = 1#1 :=
    okD_apply q hq _
  unfold takeD
  rw [select_apply, hm, select_one]
  have hg := gather_row_apply (N := 1000000) (E := 64) (B := 1024) (L := 200) (by decide)
    gather_S1000000x64_S1024x200x1_S1024x200x64_2_0_n_n_0_2_164_wf tab (idxD q) b l e
  refine hg.trans ?_
  refine congrArg (fun r => tab (ix2 r e)) (Fin.ext ?_)
  show min (idxD q (ix3 b l (0 : Fin 1))).toInt.toNat (1000000 - 1) = _
  rw [idxD_apply q hq, clamp_eq_row (hq _)]

end TakeD

/-! ## The two results -/

section Out

open Facts₀

variable [Cert.ReferenceIdeal.Facts]

/-- The first result as the reference spells it: the query lookup, padded along the positions to 200, each
    [position, column] matrix transposed. -/
def outQ {F : FTy → Type} [FloatOps F] (q : IVec S1024x20 32) (tab : FVec F S1000000x64 .f32) : FVec F S1024x64x200 .f32 :=
  transpose S1024x64x200 [0, 2, 1]
    (pad S1024x200x64 ![0, 0, 0] ![0, 180, 0] ![0, 0, 0] (takeQ q tab) (sitofp .f32 (constantI S_ 32 0#32) : FVec F S_ .f32)
      pads_S1024x20x64_S1024x200x64_000_01800_000 h_S_)
    transposes_S1024x200x64_S1024x64x200_0_2_1

/-- The second result as the reference spells it: the document lookup, each [position, column] matrix transposed. -/
def outD {F : FTy → Type} [FloatOps F] (d : IVec S1024x200 32) (tab : FVec F S1000000x64 .f32) : FVec F S1024x64x200 .f32 :=
  transpose S1024x64x200 [0, 2, 1] (takeD d tab) transposes_S1024x200x64_S1024x64x200_0_2_1

/-- The padding value, the integer 0 converted, is the zero both programs spell as a word. -/
theorem pad_zero (k : S_.Idx) :
    (sitofp .f32 (constantI S_ 32 0#32) : FVec Ideal S_ .f32) k = Cert.Spec.zero (F := Ideal) := by
  show (((0#32 : BitVec 32).toInt : ℝ) : EReal) = Ideal.ofBits .f32 0x00000000#32
  rw [Ideal.ofBits_zero_f32, show (0#32 : BitVec 32).toInt = 0 from by decide]
  simp

theorem outQ_eq (q : IVec S1024x20 32) (hq : ∀ i, (q i).toNat < 1000000) (tab : FVec Ideal S1000000x64 .f32) :
    outQ q tab = Cert.Spec.Gq (F := Ideal) q tab := by
  funext i
  obtain ⟨b, e, l, rfl⟩ : ∃ b e l, i = ix3 b e l := ⟨_, _, _, eq_ix3 i⟩
  show outQ q tab (ix3 b e l)
    = (if h : l.val < 20 then tab (ix2 (Cert.Spec.row (q (ix2 b ⟨l.val, h⟩))) e) else Cert.Spec.zero)
  unfold outQ
  rw [transpose_ix3_021_apply]
  by_cases h : l.val < 20
  · rw [dif_pos h, pad_apply_of_inside _ _ _ _ _ _ _ (ix3 b l e) (ix3 b ⟨l.val, h⟩ e)
      (fun a => match a with
        | ⟨0, _⟩ => (by show b.val = 0 + b.val * (0 + 1); omega)
        | ⟨1, _⟩ => (by show l.val = 0 + l.val * (0 + 1); omega)
        | ⟨2, _⟩ => (by show e.val = 0 + e.val * (0 + 1); omega)),
      takeQ_apply q hq]
  · rw [dif_neg h, pad_apply_of_not_inside _ _ _ _ _ _ _ (ix3 b l e) (1 : Fin 3)
      (by show ¬(0 ≤ l.val ∧ (l.val - 0) % (0 + 1) = 0 ∧ (l.val - 0) / (0 + 1) < 20); omega), pad_zero]

theorem outD_eq (d : IVec S1024x200 32) (hd : ∀ i, (d i).toNat < 1000000) (tab : FVec Ideal S1000000x64 .f32) :
    outD d tab = Cert.Spec.Gd (F := Ideal) d tab := by
  funext i
  obtain ⟨b, e, l, rfl⟩ : ∃ b e l, i = ix3 b e l := ⟨_, _, _, eq_ix3 i⟩
  show outD d tab (ix3 b e l) = tab (ix2 (Cert.Spec.row (d (ix2 b l))) e)
  unfold outD
  rw [transpose_ix3_021_apply, takeD_apply d hd]

end Out

/-! ## The run -/

section Run

open Facts₀ Idealize.SL.Sem Idealize.ShloMosaic.StableHlo Idealize.ShloMosaic.TcCoe

variable {F : FTy → Type} [FloatOps F] [Cert.ReferenceIdeal.Facts]

/-- @main's operations in order, the calls unfolded: the query lookup's twenty-three (the id normalised, the
    select of `_where`, the range mask, the gather, the fill), the document lookup's twenty-three, the padding
    value and its conversion, the pad, the two transposes. -/
abbrev ops : List (HloOp τ sig (Elt F)) :=
  [
    TRef.nullary main_call0.c (constantI S_ 32 0#32),
    TRef.unary main_call0.c main_call0.v0 (broadcastInDim S1024x20 ![] bcast_S_S1024x20),
    TRef.binary (.of main_arg0 : TRef sig ⟨S1024x20, .i32⟩) main_call0.v0 main_call0.v1 (cmpi .slt),
    TRef.nullary main_call0.c_0 (constantI S_ 32 1000000#32),
    TRef.unary main_call0.c_0 main_call0.v2 (broadcastInDim S1024x20 ![] bcast_S_S1024x20),
    TRef.binary (.of main_arg0 : TRef sig ⟨S1024x20, .i32⟩) main_call0.v2 main_call0.v3 addi,
    TRef.ternary main_call0.v1 main_call0.v3 (.of main_arg0 : TRef sig ⟨S1024x20, .i32⟩) main_call0.call0.v0 select,
    TRef.unary main_call0.call0.v0 main_call0.v5 (broadcastInDim S1024x20x1 ![0, 1] bcast_S1024x20_S1024x20x1_0_1),
    TRef.nullary main_call0.c_1 (constantI S1 32 999999#32),
    TRef.nullary main_call0.c_2 (constantI S_ 32 0#32),
    TRef.unary main_call0.c_2 main_call0.v6 (broadcastInDim S1024x20x1 ![] bcast_S_S1024x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x20x1 ![0, 1, 2] bcast_S1x1x1_S1024x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x20x1_S1024x20_d2 h_S_),
    TRef.binary (.of main_arg2 : TRef sig ⟨S1000000x64, .f32⟩) main_call0.v5 main_call0.v13 (fun x i => Host.gather gather_S1000000x64_S1024x20x1_S1024x20x64_2_0_n_n_0_2_164 x i),
    TRef.unary main_call0.v12 main_call0.v14 (broadcastInDim S1024x20x64 ![0, 1] bcast_S1024x20_S1024x20x64_0_1),
    TRef.nullary main_call0.cst (constant S_ .f32 0x7FC00000#32),
    TRef.unary main_call0.cst main_call0.v15 (broadcastInDim S1024x20x64 ![] bcast_S_S1024x20x64),
    TRef.ternary main_call0.v14 main_call0.v13 main_call0.v15 main_call0.v16 select,
    TRef.nullary main_call1.c (constantI S_ 32 0#32),
    TRef.unary main_call1.c main_call1.v0 (broadcastInDim S1024x200 ![] bcast_S_S1024x200),
    TRef.binary (.of main_arg1 : TRef sig ⟨S1024x200, .i32⟩) main_call1.v0 main_call1.v1 (cmpi .slt),
    TRef.nullary main_call1.c_0 (constantI S_ 32 1000000#32),
    TRef.unary main_call1.c_0 main_call1.v2 (broadcastInDim S1024x200 ![] bcast_S_S1024x200),
    TRef.binary (.of main_arg1 : TRef sig ⟨S1024x200, .i32⟩) main_call1.v2 main_call1.v3 addi,
    TRef.ternary main_call1.v1 main_call1.v3 (.of main_arg1 : TRef sig ⟨S1024x200, .i32⟩) main_call1.call0.v0 select,
    TRef.unary main_call1.call0.v0 main_call1.v5 (broadcastInDim S1024x200x1 ![0, 1] bcast_S1024x200_S1024x200x1_0_1),
    TRef.nullary main_call1.c_1 (constantI S1 32 999999#32),
    TRef.nullary main_call1.c_2 (constantI S_ 32 0#32),
    TRef.unary main_call1.c_2 main_call1.v6 (broadcastInDim S1024x200x1 ![] bcast_S_S1024x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x200x1 ![0, 1, 2] bcast_S1x1x1_S1024x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x200x1_S1024x200_d2 h_S_),
    TRef.binary (.of main_arg2 : TRef sig ⟨S1000000x64, .f32⟩) main_call1.v5 main_call1.v13 (fun x i => Host.gather gather_S1000000x64_S1024x200x1_S1024x200x64_2_0_n_n_0_2_164 x i),
    TRef.unary main_call1.v12 main_call1.v14 (broadcastInDim S1024x200x64 ![0, 1] bcast_S1024x200_S1024x200x64_0_1),
    TRef.nullary main_call1.cst (constant S_ .f32 0x7FC00000#32),
    TRef.unary main_call1.cst main_call1.v15 (broadcastInDim S1024x200x64 ![] bcast_S_S1024x200x64),
    TRef.ternary main_call1.v14 main_call1.v13 main_call1.v15 main_call1.v16 select,
    nullary main_c (constantI S_ 32 0#32),
    TRef.unary (.of main_c : TRef sig ⟨S_, .i32⟩) main_call2.v0 (sitofp .f32),
    TRef.binary (.of main_v0 : TRef sig ⟨S1024x20x64, .f32⟩) main_call2.v0 main_call2.v1 (fun x v => pad S1024x200x64 ![0, 0, 0] ![0, 180, 0] ![0, 0, 0] x v pads_S1024x20x64_S1024x200x64_000_01800_000 h_S_),
    unary main_v2 main_v3 ((transpose S1024x64x200 [0, 2, 1] · transposes_S1024x200x64_S1024x64x200_0_2_1) : (⟨S1024x200x64, .f32⟩ : BufTy).Contents (Elt F) → (⟨S1024x64x200, .f32⟩ : BufTy).Contents (Elt F)),
    unary main_v1 main_v4 ((transpose S1024x64x200 [0, 2, 1] · transposes_S1024x200x64_S1024x64x200_0_2_1) : (⟨S1024x200x64, .f32⟩ : BufTy).Contents (Elt F) → (⟨S1024x64x200, .f32⟩ : BufTy).Contents (Elt F)) ]

set_option maxRecDepth 1024 in
set_option maxHeartbeats 1600000 in
/-- @main is that straight line: the functions unfolded at their calls. -/
theorem main_eq (c : Dev nD) : main (F := F) c = seq ops := by
  simp only [main, fn_take.body, fn_take_0.body, fn_where.body, fn_where_1.body, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., unary_bufs_sub .., unary_bufs_sub ..⟩

attribute [local irreducible] Host.reduce Host.gather pad in
set_option maxRecDepth 8192 in
set_option maxHeartbeats 1600000 in
/-- The fold at the first result's buffer is the query lookup, padded and transposed, of the arguments: each
    operation's result read at its own buffer, the typed references' transports the identity. -/
theorem v3_eq (V : Valuation τ sig (Elt F)) :
    after ops V (main_v3 : DevRef τ sig) = outQ (V (main_arg0 : DevRef τ sig)) (V (main_arg2 : DevRef τ sig)) := by
  after_results_simp
  simp only [TRef.toBuf, TRef.ofBuf, cast_eq]
  rfl

attribute [local irreducible] Host.reduce Host.gather pad in
set_option maxRecDepth 8192 in
set_option maxHeartbeats 1600000 in
/-- The fold at the second result's buffer is the document lookup, transposed, of the arguments. -/
theorem v4_eq (V : Valuation τ sig (Elt F)) :
    after ops V (main_v4 : DevRef τ sig) = outD (V (main_arg1 : DevRef τ sig)) (V (main_arg2 : DevRef τ sig)) := by
  after_results_simp
  simp only [TRef.toBuf, TRef.ofBuf, cast_eq]
  rfl

set_option maxRecDepth 8192 in
/-- No operation writes an argument's buffer. -/
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp

/-- At the compiled mesh, from any memory with zero counters whose ids name rows of the table: every weakly fair
    execution of the reference terminates, the first result the padded, transposed query lookup, the second the
    transposed document lookup, the arguments unchanged. -/
theorem run (m : (ℓ : Loc nD τ sig) → Buf (Elt Ideal) ℓ) (g : Dev nD → PrngReg)
    (hq : ∀ c : Dev nD, ∀ i, ((m ((c.tc : Thread nD τ).loc main_arg0)) i).toNat < 1000000)
    (hd : ∀ c : Dev nD, ∀ i, ((m ((c.tc : Thread nD τ).loc main_arg1)) i).toNat < 1000000) :
    θ_run (Cert.ReferenceIdeal.defs (F := Ideal)) (onTc (τ := Cert.ReferenceIdeal.τ) (Cert.ReferenceIdeal.main (F := Ideal))) ⟨m, fun _ => 0, g⟩ (fun r => ∀ c : Dev nD,
      r.2.mem ((c.tc : Thread nD τ).loc main_v3) = Cert.Spec.Gq (F := Ideal) (m ((c.tc : Thread nD τ).loc main_arg0)) (m ((c.tc : Thread nD τ).loc main_arg2))
      ∧ r.2.mem ((c.tc : Thread nD τ).loc main_v4) = Cert.Spec.Gd (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v3).trans ((v3_eq _).trans (outQ_eq _ (hq c) _)),
        (h c main_v4).trans ((v4_eq _).trans (outD_eq _ (hd c) _)),
        (h c main_arg0).trans (arg0_eq _), (h c main_arg1).trans (arg1_eq _), (h c main_arg2).trans (arg2_eq _)⟩)
    (run_seq scopedRefs_eq scopedSems_eq defs main (fun _ => ops) main_eq (fun _ => ops_sub) m g)

end Run

end Cert.ReferenceIdeal.Hand

end
-- ==== Proof.PreDecode.lean ====
/-
  The precondition read back. The printed predicate is the conjunction of three `jnp.all`s: every table entry is
  finite, every query token lies in [0, 999999] and every document token lies in [0, 999999], the token bounds compared
  SIGNED. A 32-bit word between 0 and 999999 signed has its sign bit clear, so read unsigned it is below 1000000:
  the form in which both programs use the bound (a row of the table exists for every token).
-/
import proofs.«218768_g80616536146796_cont_9to1c4b_775_25_alg».proof.Pre_input_domain
import proofs.«218768_g80616536146796_cont_9to1c4b_775_25_alg».proof.Proof.Gen.Pre_input_domain
import Idealize.ShloMosaic.Lib.ReduceAll
import Idealize.ShloMosaic.Lib.ValueIdx

noncomputable section

namespace Cert.PreDecode

open Idealize.ShloMosaic

/-- The scalar shape has one index. -/
instance : Subsingleton Cert.Pre_input_domain.S_.Idx := ⟨fun _ _ => funext fun d => d.elim0⟩

/-- A word in [0, 999999] signed is below 1000000 unsigned. -/
theorem toNat_lt_of_signed_range (w : BitVec 32) (h0 : IntOp.cmpi .sge w 0#32 = 1#1)
    (h1 : IntOp.cmpi .sle w 999999#32 = 1#1) : w.toNat < 1000000 := by
  rw [IntOp.cmpi_sge] at h0
  rw [IntOp.cmpi_sle] at h1
  have e := BitVec.toInt_eq_toNat_cond w
  have z : (0#32 : BitVec 32).toInt = 0 := by decide
  have t : (999999#32 : BitVec 32).toInt = 999999 := by decide
  have := w.isLt
  rw [z] at h0
  rw [t] at h1
  split at e <;> omega

/-- Under the precondition every query token and every document token names a row of the table. -/
theorem inRange {F : FTy → Type} [FloatOps F] [Cert.Pre_input_domain.Facts]
    (q : IVec Cert.Pre_input_domain.S1024x20 32) (d : IVec Cert.Pre_input_domain.S1024x200 32)
    (tab : FVec F Cert.Pre_input_domain.S1000000x64 .f32)
    (h : Cert.Pre_input_domain.fn (F := F) q d tab = fun _ => 1#1) :
    (∀ i, (q i).toNat < 1000000) ∧ (∀ i, (d i).toNat < 1000000) := by
  have e := congrFun h ValueIdx.ix0
  dsimp only [Cert.Pre_input_domain.fn, Cert.Pre_input_domain.fn_part1] at e
  obtain ⟨h12, hd⟩ := IntOp.andi_eq_one.1 (show IntOp.andi _ _ = 1#1 from e)
  obtain ⟨-, hq⟩ := IntOp.andi_eq_one.1 (show IntOp.andi _ _ = 1#1 from h12)
  refine ⟨fun i => ?_, fun i => ?_⟩
  · have hi := Host.reduce_andi_all _ _ _ _ _ hq i
    obtain ⟨a, b⟩ := IntOp.andi_eq_one.1 (show IntOp.andi _ _ = 1#1 from hi)
    exact toNat_lt_of_signed_range _ a b
  · have hi := Host.reduce_andi_all _ _ _ _ _ hd i
    obtain ⟨a, b⟩ := IntOp.andi_eq_one.1 (show IntOp.andi _ _ = 1#1 from hi)
    exact toNat_lt_of_signed_range _ a b

end Cert.PreDecode

end
-- ==== Proof.lean ====
/-
  The proof of the claim. The kernel looks up token embeddings in three stages: a TensorCore pipeline re-lays the
  table with one 128-wide row per token id (the first 64 columns hold the table row, the rest is not determined);
  two SparseCore kernels gather, for the queries and for the documents, the rows the tokens name, each of 32 tiles
  taking its own contiguous share of the tokens, double-buffered; two TensorCore pipelines regroup the gathered rows
  per query or document, transpose them and keep the first 64 columns (padding the queries' 20 positions to 200
  with zeros); the host transposes once more. The reference takes the rows with jnp.take, pads the queries and swaps
  the last two axes. Index by index both are: entry (b, e, l) of a result is column e of the table row named by
  token l of query (document) b, and zero at a query's padded positions. No float is computed on either side, so
  the equality is one of re-indexing and holds for every float instance; the precondition is used only for the
  token ids' range, without which a gather would name no row.

  The three frames are the runs with their values dropped; the idealization rewrote nothing, so `preserves` is
  trivial; `algebraic` pairs the kernel's run at the exact instance with the reference's, both ending at the
  specification's two lookups of arguments that agree.
-/
import proofs.«218768_g80616536146796_cont_9to1c4b_775_25_alg».proof.Defs
import proofs.«218768_g80616536146796_cont_9to1c4b_775_25_alg».proof.Proof.Gen.Kernel
import proofs.«218768_g80616536146796_cont_9to1c4b_775_25_alg».proof.Proof.Gen.KernelIdeal
import proofs.«218768_g80616536146796_cont_9to1c4b_775_25_alg».proof.Proof.Gen.ReferenceIdeal
import proofs.«218768_g80616536146796_cont_9to1c4b_775_25_alg».proof.Proof.Gen.Pre_input_domain
import proofs.«218768_g80616536146796_cont_9to1c4b_775_25_alg».proof.Proof.Assemble
import proofs.«218768_g80616536146796_cont_9to1c4b_775_25_alg».proof.Proof.Bits.Assemble
import proofs.«218768_g80616536146796_cont_9to1c4b_775_25_alg».proof.Proof.RefRun
import proofs.«218768_g80616536146796_cont_9to1c4b_775_25_alg».proof.Proof.PreDecode

noncomputable section

namespace Cert.Proof

open Idealize.ShloMosaic Idealize.SL.Sem

/-- The word-level kernel runs and keeps its arguments. -/
theorem frame_K : Cert.frame_Kernel := fun m g hpre =>
  (θ_run (Cert.Kernel.defs (F := Bits)) _ _).mono (fun _ h c => ⟨(h c).2.2.1, (h c).2.2.2.1, (h c).2.2.2.2⟩)
    (Cert.Kernel.Hand.run (F := Bits) m g (fun d => (Cert.PreDecode.inRange _ _ _ (hpre d)).1) (fun d => (Cert.PreDecode.inRange _ _ _ (hpre d)).2))

/-- The idealized kernel runs and keeps its arguments. -/
theorem frame_KI : Cert.frame_KernelIdeal := fun m g hpre =>
  (θ_run (Cert.KernelIdeal.defs (F := Ideal)) _ _).mono (fun _ h c => ⟨(h c).2.2.1, (h c).2.2.2.1, (h c).2.2.2.2⟩)
    (Cert.KernelIdeal.Hand.run (F := Ideal) m g (fun d => (Cert.PreDecode.inRange _ _ _ (hpre d)).1) (fun d => (Cert.PreDecode.inRange _ _ _ (hpre d)).2))

/-- The reference runs and keeps its arguments. -/
theorem frame_R : Cert.frame_ReferenceIdeal := fun m g hpre =>
  (θ_run (Cert.ReferenceIdeal.defs (F := Ideal)) _ _).mono (fun _ h c => ⟨(h c).2.2.1, (h c).2.2.2.1, (h c).2.2.2.2⟩)
    (Cert.ReferenceIdeal.Hand.run m g (fun d => (Cert.PreDecode.inRange _ _ _ (hpre d)).1) (fun d => (Cert.PreDecode.inRange _ _ _ (hpre d)).2))

/-- Both programs end at the specification's lookups of their (agreeing) arguments. -/
theorem algebraic : Cert.algebraic_KernelIdeal_ReferenceIdeal := by
  intro m g m' g' hpre hagree
  have hq : ∀ (d : Dev Cert.KernelIdeal.nD) i, ((m (Cert.KernelIdeal.Hand.loc d Cert.KernelIdeal.main_arg0)) i).toNat < 1000000 :=
    fun d => (Cert.PreDecode.inRange _ _ _ (hpre d)).1
  have hd : ∀ (d : Dev Cert.KernelIdeal.nD) i, ((m (Cert.KernelIdeal.Hand.loc d Cert.KernelIdeal.main_arg1)) i).toNat < 1000000 :=
    fun d => (Cert.PreDecode.inRange _ _ _ (hpre d)).2
  refine ⟨_, _, (θ_run (Cert.KernelIdeal.defs (F := Ideal)) _ _).mono (fun _ h c => h c) (Cert.KernelIdeal.Hand.run (F := Ideal) m g hq hd), ?_⟩
  refine (θ_run (Cert.ReferenceIdeal.defs (F := Ideal)) _ _).mono (fun _ h c => ?_)
    (Cert.ReferenceIdeal.Hand.run m' g' (fun d => by rw [(hagree d).1]; exact hq d) (fun d => by rw [(hagree d).2.1]; exact hd d))
  refine ⟨(h c).1.trans ?_, (h c).2.1.trans ?_, (h c).2.2.1, (h c).2.2.2.1, (h c).2.2.2.2⟩
  · rw [(hagree c).1, (hagree c).2.2]
  · rw [(hagree c).2.1, (hagree c).2.2]

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
